-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v176)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v176) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x2048 : Shape := ⟨2, ![1024, 2048]⟩
abbrev S2048 : Shape := ⟨1, ![2048]⟩
abbrev S2048x32001 : Shape := ⟨2, ![2048, 32001]⟩
abbrev S32001 : Shape := ⟨1, ![32001]⟩
abbrev S2048x2048 : Shape := ⟨2, ![2048, 2048]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x32001 : S_.BroadcastsInDim S2048x32001 (![] : Fin 0 → Fin S2048x32001.rank)
  reducesTo_S2048x32001_S_d0_1 : S2048x32001.ReducesTo [0, 1] S_
  bcast_S_S32001 : S_.BroadcastsInDim S32001 (![] : Fin 0 → Fin S32001.rank)
  reducesTo_S32001_S_d0 : S32001.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg7 : FVec F S2048x2048 .f32) (main_arg8 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S32001 .f32) (main_arg5 : FVec F S1024x2048 .f32) (main_arg6 : FVec F S2048 .f32) (main_arg7 : FVec F S2048x2048 .f32) (main_arg8 : FVec F S2048 .f32) (main_v13 : IVec S_ 1) (main_v16 : IVec S2048x32001 1) : IVec S_ 1 :=
  let main_c_5 : IVec S_ 1 := constantI S_ 1 1#1
  let main_v17 : IVec S_ 1 := (fun x v => Host.reduce IntOp.andi x v reducesTo_S2048x32001_S_d0_1 h_S_) main_v16 main_c_5
  let main_v18 : IVec S_ 1 := andi main_v13 main_v17
  let main_v19 : FVec F S32001 .f32 := Host.absf main_arg4
  let main_cst_6 : FVec F S_ .f32 := constant S_ .f32 0x7F800000#32
  let main_v20 : FVec F S32001 .f32 := broadcastInDim S32001 ![] bcast_S_S32001 main_cst_6
  let main_v21 : IVec S32001 1 := cmpf .olt main_v19 main_v20
  let main_c_7 : IVec S_ 1 := constantI S_ 1 1#1
  let main_v22 : IVec S_ 1 := (fun x v => Host.reduce IntOp.andi x v reducesTo_S32001_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S1024 .f32) (main_arg1 : FVec F S1024x2048 .f32) (main_arg2 : FVec F S2048 .f32) (main_arg3 : FVec F S2048x32001 .f32) (main_arg4 : FVec F S32001 .f32) (main_arg5 : FVec F S1024x2048 .f32) (main_arg6 : FVec F S2048 .f32) (main_arg7 : FVec F S2048x2048 .f32) (main_arg8 : FVec F S2048 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x32001 .f32 := Host.absf main_arg3
  let main_cst_4 : FVec F S_ .f32 := constant S_ .f32 0x7F800000#32
  let main_v15 : FVec F S2048x32001 .f32 := broadcastInDim S2048x32001 ![] bcast_S_S2048x32001 main_cst_4
  let main_v16 : IVec S2048x32001 1 := cmpf .olt main_v14 main_v15
  fn_part1 (F := F) main_arg4 main_arg5 main_arg6 main_arg7 main_arg8 main_v13 main_v16
-- ==== Kernel.lean ====
abbrev S1024 : Shape := ⟨1, ![1024]⟩
abbrev S1024x2048 : Shape := ⟨2, ![1024, 2048]⟩
abbrev S2048 : Shape := ⟨1, ![2048]⟩
abbrev S2048x32001 : Shape := ⟨2, ![2048, 32001]⟩
abbrev S32001 : Shape := ⟨1, ![32001]⟩
abbrev S2048x2048 : Shape := ⟨2, ![2048, 2048]⟩
abbrev S4095 : Shape := ⟨1, ![4095]⟩
abbrev S1x1024 : Shape := ⟨2, ![1, 1024]⟩
abbrev S1x2048 : Shape := ⟨2, ![1, 2048]⟩
abbrev S_ : Shape := ⟨0, ![]⟩
abbrev S2x1024 : Shape := ⟨2, ![2, 1024]⟩
abbrev S2x2048 : Shape := ⟨2, ![2, 2048]⟩
abbrev S4x1024 : Shape := ⟨2, ![4, 1024]⟩
abbrev S4x2048 : Shape := ⟨2, ![4, 2048]⟩
abbrev S8x1024 : Shape := ⟨2, ![8, 1024]⟩
abbrev S8x2048 : Shape := ⟨2, ![8, 2048]⟩
abbrev S16x1024 : Shape := ⟨2, ![16, 1024]⟩
abbrev S16x2048 : Shape := ⟨2, ![16, 2048]⟩
abbrev S32x1024 : Shape := ⟨2, ![32, 1024]⟩
abbrev S32x2048 : Shape := ⟨2, ![32, 2048]⟩
abbrev S64x1024 : Shape := ⟨2, ![64, 1024]⟩
abbrev S64x2048 : Shape := ⟨2, ![64, 2048]⟩
abbrev S128x1024 : Shape := ⟨2, ![128, 1024]⟩
abbrev S128x2048 : Shape := ⟨2, ![128, 2048]⟩
abbrev S256x1024 : Shape := ⟨2, ![256, 1024]⟩
abbrev S256x2048 : Shape := ⟨2, ![256, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S4095x1024 : Shape := ⟨2, ![4095, 1024]⟩
abbrev S4095x1 : Shape := ⟨2, ![4095, 1]⟩
abbrev S1 : Shape := ⟨1, ![1]⟩
abbrev S1x1 : Shape := ⟨2, ![1, 1]⟩
abbrev S4096x1024 : Shape := ⟨2, ![4096, 1024]⟩
abbrev S2048x32768 : Shape := ⟨2, ![2048, 32768]⟩
abbrev S32768 : Shape := ⟨1, ![32768]⟩
abbrev S4096x2048 : Shape := ⟨2, ![4096, 2048]⟩
abbrev S4096x32768 : Shape := ⟨2, ![4096, 32768]⟩
abbrev S32x32768 : Shape := ⟨2, ![32, 32768]⟩
abbrev S32 : Shape := ⟨1, ![32]⟩
abbrev S32x1 : Shape := ⟨2, ![32, 1]⟩
abbrev S4095x32001 : Shape := ⟨2, ![4095, 32001]⟩

abbrev nBuf : Space → Nat
  | .hbm => 237
  | .vmem => 17
  | .smem => 0
  | _ => 0

abbrev hbmTy0_0 (i : Nat) : BufTy := match i % 128 with
  | 0 => ⟨S1024, .f32⟩
  | 1 => ⟨S1024x2048, .f32⟩
  | 2 => ⟨S2048, .f32⟩
  | 3 => ⟨S2048x32001, .f32⟩
  | 4 => ⟨S32001, .f32⟩
  | 5 => ⟨S1024x2048, .f32⟩
  | 6 => ⟨S2048, .f32⟩
  | 7 => ⟨S2048x2048, .f32⟩
  | 8 => ⟨S2048, .f32⟩
  | 9 => ⟨S4095, .i32⟩
  | 10 => ⟨S1x1024, .f32⟩
  | 11 => ⟨S1x1024, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S_, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S1x2048, .f32⟩
  | 24 => ⟨S1x2048, .f32⟩
  | 25 => ⟨S1x2048, .f32⟩
  | 26 => ⟨S2x1024, .f32⟩
  | 27 => ⟨S2x2048, .f32⟩
  | 28 => ⟨S1x2048, .f32⟩
  | 29 => ⟨S2x2048, .f32⟩
  | 30 => ⟨S2x2048, .f32⟩
  | 31 => ⟨S2x2048, .f32⟩
  | 32 => ⟨S2x2048, .f32⟩
  | 33 => ⟨S_, .f32⟩
  | 34 => ⟨S2x2048, .f32⟩
  | 35 => ⟨S2x2048, .f32⟩
  | 36 => ⟨S_, .f32⟩
  | 37 => ⟨S2x2048, .f32⟩
  | 38 => ⟨S2x2048, .f32⟩
  | 39 => ⟨S2x2048, .f32⟩
  | 40 => ⟨S1x2048, .f32⟩
  | 41 => ⟨S2x2048, .f32⟩
  | 42 => ⟨S2x2048, .f32⟩
  | 43 => ⟨S4x1024, .f32⟩
  | 44 => ⟨S4x2048, .f32⟩
  | 45 => ⟨S1x2048, .f32⟩
  | 46 => ⟨S4x2048, .f32⟩
  | 47 => ⟨S4x2048, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S_, .f32⟩
  | 54 => ⟨S4x2048, .f32⟩
  | 55 => ⟨S4x2048, .f32⟩
  | 56 => ⟨S4x2048, .f32⟩
  | 57 => ⟨S1x2048, .f32⟩
  | 58 => ⟨S4x2048, .f32⟩
  | 59 => ⟨S4x2048, .f32⟩
  | 60 => ⟨S8x1024, .f32⟩
  | 61 => ⟨S8x2048, .f32⟩
  | 62 => ⟨S1x2048, .f32⟩
  | 63 => ⟨S8x2048, .f32⟩
  | 64 => ⟨S8x2048, .f32⟩
  | 65 => ⟨S8x2048, .f32⟩
  | 66 => ⟨S8x2048, .f32⟩
  | 67 => ⟨S_, .f32⟩
  | 68 => ⟨S8x2048, .f32⟩
  | 69 => ⟨S8x2048, .f32⟩
  | 70 => ⟨S_, .f32⟩
  | 71 => ⟨S8x2048, .f32⟩
  | 72 => ⟨S8x2048, .f32⟩
  | 73 => ⟨S8x2048, .f32⟩
  | 74 => ⟨S1x2048, .f32⟩
  | 75 => ⟨S8x2048, .f32⟩
  | 76 => ⟨S8x2048, .f32⟩
  | 77 => ⟨S16x1024, .f32⟩
  | 78 => ⟨S16x2048, .f32⟩
  | 79 => ⟨S1x2048, .f32⟩
  | 80 => ⟨S16x2048, .f32⟩
  | 81 => ⟨S16x2048, .f32⟩
  | 82 => ⟨S16x2048, .f32⟩
  | 83 => ⟨S16x2048, .f32⟩
  | 84 => ⟨S_, .f32⟩
  | 85 => ⟨S16x2048, .f32⟩
  | 86 => ⟨S16x2048, .f32⟩
  | 87 => ⟨S_, .f32⟩
  | 88 => ⟨S16x2048, .f32⟩
  | 89 => ⟨S16x2048, .f32⟩
  | 90 => ⟨S16x2048, .f32⟩
  | 91 => ⟨S1x2048, .f32⟩
  | 92 => ⟨S16x2048, .f32⟩
  | 93 => ⟨S16x2048, .f32⟩
  | 94 => ⟨S32x1024, .f32⟩
  | 95 => ⟨S32x2048, .f32⟩
  | 96 => ⟨S1x2048, .f32⟩
  | 97 => ⟨S32x2048, .f32⟩
  | 98 => ⟨S32x2048, .f32⟩
  | 99 => ⟨S32x2048, .f32⟩
  | 100 => ⟨S32x2048, .f32⟩
  | 101 => ⟨S_, .f32⟩
  | 102 => ⟨S32x2048, .f32⟩
  | 103 => ⟨S32x2048, .f32⟩
  | 104 => ⟨S_, .f32⟩
  | 105 => ⟨S32x2048, .f32⟩
  | 106 => ⟨S32x2048, .f32⟩
  | 107 => ⟨S32x2048, .f32⟩
  | 108 => ⟨S1x2048, .f32⟩
  | 109 => ⟨S32x2048, .f32⟩
  | 110 => ⟨S32x2048, .f32⟩
  | 111 => ⟨S64x1024, .f32⟩
  | 112 => ⟨S64x2048, .f32⟩
  | 113 => ⟨S1x2048, .f32⟩
  | 114 => ⟨S64x2048, .f32⟩
  | 115 => ⟨S64x2048, .f32⟩
  | 116 => ⟨S64x2048, .f32⟩
  | 117 => ⟨S64x2048, .f32⟩
  | 118 => ⟨S_, .f32⟩
  | 119 => ⟨S64x2048, .f32⟩
  | 120 => ⟨S64x2048, .f32⟩
  | 121 => ⟨S_, .f32⟩
  | 122 => ⟨S64x2048, .f32⟩
  | 123 => ⟨S64x2048, .f32⟩
  | 124 => ⟨S64x2048, .f32⟩
  | 125 => ⟨S1x2048, .f32⟩
  | 126 => ⟨S64x2048, .f32⟩
  | 127 => ⟨S64x2048, .f32⟩
  | _ => ⟨S1024, .f32⟩

abbrev hbmTy0_1 (i : Nat) : BufTy := match i % 128 with
  | 0 => ⟨S128x1024, .f32⟩
  | 1 => ⟨S128x2048, .f32⟩
  | 2 => ⟨S1x2048, .f32⟩
  | 3 => ⟨S128x2048, .f32⟩
  | 4 => ⟨S128x2048, .f32⟩
  | 5 => ⟨S128x2048, .f32⟩
  | 6 => ⟨S128x2048, .f32⟩
  | 7 => ⟨S_, .f32⟩
  | 8 => ⟨S128x2048, .f32⟩
  | 9 => ⟨S128x2048, .f32⟩
  | 10 => ⟨S_, .f32⟩
  | 11 => ⟨S128x2048, .f32⟩
  | 12 => ⟨S128x2048, .f32⟩
  | 13 => ⟨S128x2048, .f32⟩
  | 14 => ⟨S1x2048, .f32⟩
  | 15 => ⟨S128x2048, .f32⟩
  | 16 => ⟨S128x2048, .f32⟩
  | 17 => ⟨S256x1024, .f32⟩
  | 18 => ⟨S256x2048, .f32⟩
  | 19 => ⟨S1x2048, .f32⟩
  | 20 => ⟨S256x2048, .f32⟩
  | 21 => ⟨S256x2048, .f32⟩
  | 22 => ⟨S256x2048, .f32⟩
  | 23 => ⟨S256x2048, .f32⟩
  | 24 => ⟨S_, .f32⟩
  | 25 => ⟨S256x2048, .f32⟩
  | 26 => ⟨S256x2048, .f32⟩
  | 27 => ⟨S_, .f32⟩
  | 28 => ⟨S256x2048, .f32⟩
  | 29 => ⟨S256x2048, .f32⟩
  | 30 => ⟨S256x2048, .f32⟩
  | 31 => ⟨S1x2048, .f32⟩
  | 32 => ⟨S256x2048, .f32⟩
  | 33 => ⟨S256x2048, .f32⟩
  | 34 => ⟨S512x1024, .f32⟩
  | 35 => ⟨S512x2048, .f32⟩
  | 36 => ⟨S1x2048, .f32⟩
  | 37 => ⟨S512x2048, .f32⟩
  | 38 => ⟨S512x2048, .f32⟩
  | 39 => ⟨S512x2048, .f32⟩
  | 40 => ⟨S512x2048, .f32⟩
  | 41 => ⟨S_, .f32⟩
  | 42 => ⟨S512x2048, .f32⟩
  | 43 => ⟨S512x2048, .f32⟩
  | 44 => ⟨S_, .f32⟩
  | 45 => ⟨S512x2048, .f32⟩
  | 46 => ⟨S512x2048, .f32⟩
  | 47 => ⟨S512x2048, .f32⟩
  | 48 => ⟨S1x2048, .f32⟩
  | 49 => ⟨S512x2048, .f32⟩
  | 50 => ⟨S512x2048, .f32⟩
  | 51 => ⟨S1024x1024, .f32⟩
  | 52 => ⟨S1024x2048, .f32⟩
  | 53 => ⟨S1x2048, .f32⟩
  | 54 => ⟨S1024x2048, .f32⟩
  | 55 => ⟨S1024x2048, .f32⟩
  | 56 => ⟨S1024x2048, .f32⟩
  | 57 => ⟨S1024x2048, .f32⟩
  | 58 => ⟨S_, .f32⟩
  | 59 => ⟨S1024x2048, .f32⟩
  | 60 => ⟨S1024x2048, .f32⟩
  | 61 => ⟨S_, .f32⟩
  | 62 => ⟨S1024x2048, .f32⟩
  | 63 => ⟨S1024x2048, .f32⟩
  | 64 => ⟨S1024x2048, .f32⟩
  | 65 => ⟨S1x2048, .f32⟩
  | 66 => ⟨S1024x2048, .f32⟩
  | 67 => ⟨S1024x2048, .f32⟩
  | 68 => ⟨S2048x1024, .f32⟩
  | 69 => ⟨S4095x1024, .f32⟩
  | 70 => ⟨S_, .i32⟩
  | 71 => ⟨S4095, .i32⟩
  | 72 => ⟨S4095, .i1⟩
  | 73 => ⟨S_, .i32⟩
  | 74 => ⟨S4095, .i32⟩
  | 75 => ⟨S4095, .i32⟩
  | 76 => ⟨S4095, .i32⟩
  | 77 => ⟨S4095x1, .i32⟩
  | 78 => ⟨S1, .i32⟩
  | 79 => ⟨S_, .i32⟩
  | 80 => ⟨S4095x1, .i32⟩
  | 81 => ⟨S4095x1, .i1⟩
  | 82 => ⟨S1x1, .i32⟩
  | 83 => ⟨S4095x1, .i32⟩
  | 84 => ⟨S4095x1, .i1⟩
  | 85 => ⟨S4095x1, .i1⟩
  | 86 => ⟨S_, .i1⟩
  | 87 => ⟨S4095, .i1⟩
  | 88 => ⟨S4095x1024, .f32⟩
  | 89 => ⟨S4095x1024, .i1⟩
  | 90 => ⟨S_, .f32⟩
  | 91 => ⟨S4095x1024, .f32⟩
  | 92 => ⟨S4095x1024, .f32⟩
  | 93 => ⟨S_, .i32⟩
  | 94 => ⟨S_, .f32⟩
  | 95 => ⟨S4096x1024, .f32⟩
  | 96 => ⟨S4096x1024, .bf16⟩
  | 97 => ⟨S1024x2048, .bf16⟩
  | 98 => ⟨S_, .i32⟩
  | 99 => ⟨S_, .f32⟩
  | 100 => ⟨S2048x32768, .f32⟩
  | 101 => ⟨S2048x32768, .bf16⟩
  | 102 => ⟨S_, .i32⟩
  | 103 => ⟨S_, .f32⟩
  | 104 => ⟨S32768, .f32⟩
  | 105 => ⟨S4096x2048, .bf16⟩
  | 106 => ⟨S4096x32768, .f32⟩
  | 107 => ⟨S4096x32768, .f32⟩
  | 108 => ⟨S4095x32001, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S2048, .f32⟩
  | .local _ .vmem, ⟨4, _⟩ => ⟨S512x2048, .bf16⟩
  | .local _ .vmem, ⟨5, _⟩ => ⟨S512x2048, .bf16⟩
  | .local _ .vmem, ⟨6, _⟩ => ⟨S4096x2048, .bf16⟩
  | .local _ .vmem, ⟨7, _⟩ => ⟨S2048x1024, .bf16⟩
  | .local _ .vmem, ⟨8, _⟩ => ⟨S2048x1024, .bf16⟩
  | .local _ .vmem, ⟨9, _⟩ => ⟨S1024, .f32⟩
  | .local _ .vmem, ⟨10, _⟩ => ⟨S1024, .f32⟩
  | .local _ .vmem, ⟨11, _⟩ => ⟨S1024x1024, .f32⟩
  | .local _ .vmem, ⟨12, _⟩ => ⟨S1024x1024, .f32⟩
  | .local _ .vmem, ⟨13, _⟩ => ⟨S32x32768, .f32⟩
  | .local _ .vmem, ⟨14, _⟩ => ⟨S32x32768, .f32⟩
  | .local _ .vmem, ⟨15, _⟩ => ⟨S32x32768, .f32⟩
  | .local _ .vmem, ⟨16, _⟩ => ⟨S32x32768, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_cst_10 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_13 : Ref sig .tc := ⟨.hbm, 135, rfl⟩
abbrev main_v111 : Ref sig .tc := ⟨.hbm, 136, rfl⟩
abbrev main_v112 : Ref sig .tc := ⟨.hbm, 137, rfl⟩
abbrev main_cst_14 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_15 : Ref sig .tc := ⟨.hbm, 152, rfl⟩
abbrev main_v126 : Ref sig .tc := ⟨.hbm, 153, rfl⟩
abbrev main_v127 : Ref sig .tc := ⟨.hbm, 154, rfl⟩
abbrev main_cst_16 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_cst_17 : Ref sig .tc := ⟨.hbm, 169, rfl⟩
abbrev main_v141 : Ref sig .tc := ⟨.hbm, 170, rfl⟩
abbrev main_v142 : Ref sig .tc := ⟨.hbm, 171, rfl⟩
abbrev main_cst_18 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_19 : Ref sig .tc := ⟨.hbm, 186, rfl⟩
abbrev main_v156 : Ref sig .tc := ⟨.hbm, 187, rfl⟩
abbrev main_v157 : Ref sig .tc := ⟨.hbm, 188, rfl⟩
abbrev main_cst_20 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_call0_c : Ref sig .tc := ⟨.hbm, 198, rfl⟩
abbrev main_call0_v0 : Ref sig .tc := ⟨.hbm, 199, rfl⟩
abbrev main_call0_v1 : Ref sig .tc := ⟨.hbm, 200, rfl⟩
abbrev main_call0_c_0 : Ref sig .tc := ⟨.hbm, 201, rfl⟩
abbrev main_call0_v2 : Ref sig .tc := ⟨.hbm, 202, rfl⟩
abbrev main_call0_v3 : Ref sig .tc := ⟨.hbm, 203, rfl⟩
abbrev main_call0_v4 : Ref sig .tc := ⟨.hbm, 204, rfl⟩
abbrev main_call0_v5 : Ref sig .tc := ⟨.hbm, 205, rfl⟩
abbrev main_call0_c_1 : Ref sig .tc := ⟨.hbm, 206, rfl⟩
abbrev main_call0_c_2 : Ref sig .tc := ⟨.hbm, 207, rfl⟩
abbrev main_call0_v6 : Ref sig .tc := ⟨.hbm, 208, rfl⟩
abbrev main_call0_v7 : Ref sig .tc := ⟨.hbm, 209, rfl⟩
abbrev main_call0_v8 : Ref sig .tc := ⟨.hbm, 210, rfl⟩
abbrev main_call0_v9 : Ref sig .tc := ⟨.hbm, 211, rfl⟩
abbrev main_call0_v10 : Ref sig .tc := ⟨.hbm, 212, rfl⟩
abbrev main_call0_v11 : Ref sig .tc := ⟨.hbm, 213, rfl⟩
abbrev main_call0_c_3 : Ref sig .tc := ⟨.hbm, 214, rfl⟩
abbrev main_call0_v12 : Ref sig .tc := ⟨.hbm, 215, rfl⟩
abbrev main_call0_v13 : Ref sig .tc := ⟨.hbm, 216, rfl⟩
abbrev main_call0_v14 : Ref sig .tc := ⟨.hbm, 217, rfl⟩
abbrev main_call0_cst : Ref sig .tc := ⟨.hbm, 218, rfl⟩
abbrev main_call0_v15 : Ref sig .tc := ⟨.hbm, 219, rfl⟩
abbrev main_v166 : Ref sig .tc := ⟨.hbm, 220, rfl⟩
abbrev main_c_21 : Ref sig .tc := ⟨.hbm, 221, rfl⟩
abbrev main_call1_v0 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_c_22 : Ref sig .tc := ⟨.hbm, 226, rfl⟩
abbrev main_call2_v0 : Ref sig .tc := ⟨.hbm, 227, rfl⟩
abbrev main_v170 : Ref sig .tc := ⟨.hbm, 228, rfl⟩
abbrev main_v171 : Ref sig .tc := ⟨.hbm, 229, rfl⟩
abbrev main_c_23 : Ref sig .tc := ⟨.hbm, 230, rfl⟩
abbrev main_call3_v0 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_off1 (i : grid1.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x32768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x32768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  bcast_S1024_S1x1024_1 : S1024.BroadcastsInDim S1x1024 (![1] : Fin 1 → Fin S1x1024.rank)
  bcast_S2048_S1x2048_1 : S2048.BroadcastsInDim S1x2048 (![1] : Fin 1 → Fin S1x2048.rank)
  bcast_S_S1x2048 : S_.BroadcastsInDim S1x2048 (![] : Fin 0 → Fin S1x2048.rank)
  shapeCasts_S1x2048_S2x1024 : S1x2048.ShapeCasts S2x1024
  bcast_S1x2048_S2x2048_0_1 : S1x2048.BroadcastsInDim S2x2048 (![0, 1] : Fin 2 → Fin S2x2048.rank)
  bcast_S_S2x2048 : S_.BroadcastsInDim S2x2048 (![] : Fin 0 → Fin S2x2048.rank)
  shapeCasts_S2x2048_S4x1024 : S2x2048.ShapeCasts S4x1024
  bcast_S1x2048_S4x2048_0_1 : S1x2048.BroadcastsInDim S4x2048 (![0, 1] : Fin 2 → Fin S4x2048.rank)
  bcast_S_S4x2048 : S_.BroadcastsInDim S4x2048 (![] : Fin 0 → Fin S4x2048.rank)
  shapeCasts_S4x2048_S8x1024 : S4x2048.ShapeCasts S8x1024
  bcast_S1x2048_S8x2048_0_1 : S1x2048.BroadcastsInDim S8x2048 (![0, 1] : Fin 2 → Fin S8x2048.rank)
  bcast_S_S8x2048 : S_.BroadcastsInDim S8x2048 (![] : Fin 0 → Fin S8x2048.rank)
  shapeCasts_S8x2048_S16x1024 : S8x2048.ShapeCasts S16x1024
  bcast_S1x2048_S16x2048_0_1 : S1x2048.BroadcastsInDim S16x2048 (![0, 1] : Fin 2 → Fin S16x2048.rank)
  bcast_S_S16x2048 : S_.BroadcastsInDim S16x2048 (![] : Fin 0 → Fin S16x2048.rank)
  shapeCasts_S16x2048_S32x1024 : S16x2048.ShapeCasts S32x1024
  bcast_S1x2048_S32x2048_0_1 : S1x2048.BroadcastsInDim S32x2048 (![0, 1] : Fin 2 → Fin S32x2048.rank)
  bcast_S_S32x2048 : S_.BroadcastsInDim S32x2048 (![] : Fin 0 → Fin S32x2048.rank)
  shapeCasts_S32x2048_S64x1024 : S32x2048.ShapeCasts S64x1024
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  shapeCasts_S64x2048_S128x1024 : S64x2048.ShapeCasts S128x1024
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  shapeCasts_S128x2048_S256x1024 : S128x2048.ShapeCasts S256x1024
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  shapeCasts_S256x2048_S512x1024 : S256x2048.ShapeCasts S512x1024
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  shapeCasts_S512x2048_S1024x1024 : S512x2048.ShapeCasts S1024x1024
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  shapeCasts_S1024x2048_S2048x1024 : S1024x2048.ShapeCasts S2048x1024
  concatenates_S1x1024_S2x1024_S4x1024_S8x1024_S16x1024_S32x1024_S64x1024_S128x1024_S256x1024_S512x1024_S1024x1024_S2048x1024_S4095x1024_d0 : Shape.Concatenates [S1x1024, S2x1024, S4x1024, S8x1024, S16x1024, S32x1024, S64x1024, S128x1024, S256x1024, S512x1024, S1024x1024, S2048x1024] S4095x1024 0
  bcast_S_S4095 : S_.BroadcastsInDim S4095 (![] : Fin 0 → Fin S4095.rank)
  bcast_S4095_S4095x1_0 : S4095.BroadcastsInDim S4095x1 (![0] : Fin 1 → Fin S4095x1.rank)
  bcast_S_S4095x1 : S_.BroadcastsInDim S4095x1 (![] : Fin 0 → Fin S4095x1.rank)
  bcast_S1_S1x1_1 : S1.BroadcastsInDim S1x1 (![1] : Fin 1 → Fin S1x1.rank)
  bcast_S1x1_S4095x1_0_1 : S1x1.BroadcastsInDim S4095x1 (![0, 1] : Fin 2 → Fin S4095x1.rank)
  reducesTo_S4095x1_S4095_d1 : S4095x1.ReducesTo [1] S4095
  h_S_ : 0 < S_.numel
  bcast_S4095_S4095x1024_0 : S4095.BroadcastsInDim S4095x1024 (![0] : Fin 1 → Fin S4095x1024.rank)
  bcast_S_S4095x1024 : S_.BroadcastsInDim S4095x1024 (![] : Fin 0 → Fin S4095x1024.rank)
  pads_S4095x1024_S4096x1024_010_000 : S4095x1024.Pads (![0, 0] : Fin 2 → Nat) ![1, 0] ![0, 0] S4096x1024
  bitsLt_bf16_f32 : FTy.bits .bf16 < FTy.bits .f32
  pads_S2048x32001_S2048x32768_000_07670 : S2048x32001.Pads (![0, 0] : Fin 2 → Nat) ![0, 767] ![0, 0] S2048x32768
  pads_S32001_S32768_07670 : S32001.Pads (![0] : Fin 1 → Nat) ![767] ![0] S32768
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  iota_S32x32768_d1_w32 : S32x32768.Iotas .tc 32 [1]
  reduces_S32x32768_S32 : S32x32768.Reduces [1] S32
  shapeCasts_S32_S32x1 : S32.ShapeCasts S32x1
  broadcasts_S32x1_S32x32768 : S32x1.Broadcasts S32x32768
  slices_S4096x32768_S4095x32001_0_0 : S4096x32768.Slices ![0, 0] S4095x32001
  dot_S1x1024_S1024x2048_S1x2048_1_0_0_1_n_n_wf : DotDims.WF S1x1024 S1024x2048 S1x2048 [1] [0] [0] [1] [] []
  dot_S1x2048_S2048x2048_S1x2048_1_0_0_1_n_n_wf : DotDims.WF S1x2048 S2048x2048 S1x2048 [1] [0] [0] [1] [] []
  dot_S2x1024_S1024x2048_S2x2048_1_0_0_1_n_n_wf : DotDims.WF S2x1024 S1024x2048 S2x2048 [1] [0] [0] [1] [] []
  dot_S2x2048_S2048x2048_S2x2048_1_0_0_1_n_n_wf : DotDims.WF S2x2048 S2048x2048 S2x2048 [1] [0] [0] [1] [] []
  dot_S4x1024_S1024x2048_S4x2048_1_0_0_1_n_n_wf : DotDims.WF S4x1024 S1024x2048 S4x2048 [1] [0] [0] [1] [] []
  dot_S4x2048_S2048x2048_S4x2048_1_0_0_1_n_n_wf : DotDims.WF S4x2048 S2048x2048 S4x2048 [1] [0] [0] [1] [] []
  dot_S8x1024_S1024x2048_S8x2048_1_0_0_1_n_n_wf : DotDims.WF S8x1024 S1024x2048 S8x2048 [1] [0] [0] [1] [] []
  dot_S8x2048_S2048x2048_S8x2048_1_0_0_1_n_n_wf : DotDims.WF S8x2048 S2048x2048 S8x2048 [1] [0] [0] [1] [] []
  dot_S16x1024_S1024x2048_S16x2048_1_0_0_1_n_n_wf : DotDims.WF S16x1024 S1024x2048 S16x2048 [1] [0] [0] [1] [] []
  dot_S16x2048_S2048x2048_S16x2048_1_0_0_1_n_n_wf : DotDims.WF S16x2048 S2048x2048 S16x2048 [1] [0] [0] [1] [] []
  dot_S32x1024_S1024x2048_S32x2048_1_0_0_1_n_n_wf : DotDims.WF S32x1024 S1024x2048 S32x2048 [1] [0] [0] [1] [] []
  dot_S32x2048_S2048x2048_S32x2048_1_0_0_1_n_n_wf : DotDims.WF S32x2048 S2048x2048 S32x2048 [1] [0] [0] [1] [] []
  dot_S64x1024_S1024x2048_S64x2048_1_0_0_1_n_n_wf : DotDims.WF S64x1024 S1024x2048 S64x2048 [1] [0] [0] [1] [] []
  dot_S64x2048_S2048x2048_S64x2048_1_0_0_1_n_n_wf : DotDims.WF S64x2048 S2048x2048 S64x2048 [1] [0] [0] [1] [] []
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S512x1024_S1024x2048_S512x2048_1_0_0_1_n_n_wf : DotDims.WF S512x1024 S1024x2048 S512x2048 [1] [0] [0] [1] [] []
  dot_S512x2048_S2048x2048_S512x2048_1_0_0_1_n_n_wf : DotDims.WF S512x2048 S2048x2048 S512x2048 [1] [0] [0] [1] [] []
  dot_S1024x1024_S1024x2048_S1024x2048_1_0_0_1_n_n_wf : DotDims.WF S1024x1024 S1024x2048 S1024x2048 [1] [0] [0] [1] [] []
  dot_S1024x2048_S2048x2048_S1024x2048_1_0_0_1_n_n_wf : DotDims.WF S1024x2048 S2048x2048 S1024x2048 [1] [0] [0] [1] [] []
  gather_S4095x1024_S4095x1_S4095x1024_1_0_n_n_0_1_11024_wf : GatherDims.WF S4095x1024 S4095x1 S4095x1024 [1] [0] [] [0] [] 1 ![1, 1024]
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x2048.size a ≤ S4096x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x2048.size a ≤ S4096x2048.size a
  hwx1_0 : ∀ i : grid1.Coords, EltTy.bits .bf16 = 32 ∨ (Rect.block (s := S4096x2048) S4096x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x32768.size a
  hwx1_1 : ∀ i : grid1.Coords, EltTy.bits .bf16 = 32 ∨ (Rect.block (s := S2048x32768) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S32768.size a
  hwx1_2 : ∀ i : grid1.Coords, EltTy.bits .f32 = 32 ∨ (Rect.block (s := S32768) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x32768.size a
  hwx1_3 : ∀ i : grid1.Coords, EltTy.bits .f32 = 32 ∨ (Rect.block (s := S4096x32768) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x32768.size a ≤ S4096x32768.size a
  hwx2_0 : ∀ i : grid2.Coords, EltTy.bits .f32 = 32 ∨ (Rect.block (s := S4096x32768) S32x32768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x32768.size a ≤ S4096x32768.size a
  hwx2_1 : ∀ i : grid2.Coords, EltTy.bits .f32 = 32 ∨ (Rect.block (s := S4096x32768) S32x32768.size (cc2_transform_1 i) (hinb2_1 i)).WholeWords (EltTy.packing .f32)

variable [Facts₀]

def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S2x1024_S1024x2048_S2x2048_1_0_0_1_n_n : DotDims S2x1024 S1024x2048 S2x2048 where
  lhsContracting := [1]
  rhsContracting := [0]
  lhsNonContracting := [0]
  rhsNonContracting := [1]
  lhsBatch := []
  rhsBatch := []
  wf := dot_S2x1024_S1024x2048_S2x2048_1_0_0_1_n_n_wf
def dot_S2x2048_S2048x2048_S2x2048_1_0_0_1_n_n : DotDims S2x2048 S2048x2048 S2x2048 where
  lhsContracting := [1]
  rhsContracting := [0]
  lhsNonContracting := [0]
  rhsNonContracting := [1]
  lhsBatch := []
  rhsBatch := []
  wf := dot_S2x2048_S2048x2048_S2x2048_1_0_0_1_n_n_wf
def dot_S4x1024_S1024x2048_S4x2048_1_0_0_1_n_n : DotDims S4x1024 S1024x2048 S4x2048 where
  lhsContracting := [1]
  rhsContracting := [0]
  lhsNonContracting := [0]
  rhsNonContracting := [1]
  lhsBatch := []
  rhsBatch := []
  wf := dot_S4x1024_S1024x2048_S4x2048_1_0_0_1_n_n_wf
def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf
def dot_S8x1024_S1024x2048_S8x2048_1_0_0_1_n_n : DotDims S8x1024 S1024x2048 S8x2048 where
  lhsContracting := [1]
  rhsContracting := [0]
  lhsNonContracting := [0]
  rhsNonContracting := [1]
  lhsBatch := []
  rhsBatch := []
  wf := dot_S8x1024_S1024x2048_S8x2048_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf
def dot_S16x1024_S1024x2048_S16x2048_1_0_0_1_n_n : DotDims S16x1024 S1024x2048 S16x2048 where
  lhsContracting := [1]
  rhsContracting := [0]
  lhsNonContracting := [0]
  rhsNonContracting := [1]
  lhsBatch := []
  rhsBatch := []
  wf := dot_S16x1024_S1024x2048_S16x2048_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def gather_S4095x1024_S4095x1_S4095x1024_1_0_n_n_0_1_11024 : GatherDims S4095x1024 S4095x1 S4095x1024 where
  offsetDims := [1]
  collapsedSliceDims := [0]
  operandBatchingDims := []
  startIndicesBatchingDims := []
  startIndexMap := [0]
  indexVectorDim := 1
  sliceSizes := ![1, 1024]
  wf := gather_S4095x1024_S4095x1_S4095x1024_1_0_n_n_0_1_11024_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v168) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v169) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v173) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v173) S4096x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v171) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v172) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v174) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v174) S32x32768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v175) S32x32768.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S1024 : Shape := ⟨1, ![1024]⟩
abbrev S1024x2048 : Shape := ⟨2, ![1024, 2048]⟩
abbrev S2048 : Shape := ⟨1, ![2048]⟩
abbrev S2048x32001 : Shape := ⟨2, ![2048, 32001]⟩
abbrev S32001 : Shape := ⟨1, ![32001]⟩
abbrev S2048x2048 : Shape := ⟨2, ![2048, 2048]⟩
abbrev S4095 : Shape := ⟨1, ![4095]⟩
abbrev S1x1024 : Shape := ⟨2, ![1, 1024]⟩
abbrev S1x2048 : Shape := ⟨2, ![1, 2048]⟩
abbrev S_ : Shape := ⟨0, ![]⟩
abbrev S1x32001 : Shape := ⟨2, ![1, 32001]⟩
abbrev S2x1024 : Shape := ⟨2, ![2, 1024]⟩
abbrev S2x2048 : Shape := ⟨2, ![2, 2048]⟩
abbrev S2x32001 : Shape := ⟨2, ![2, 32001]⟩
abbrev S4x1024 : Shape := ⟨2, ![4, 1024]⟩
abbrev S4x2048 : Shape := ⟨2, ![4, 2048]⟩
abbrev S4x32001 : Shape := ⟨2, ![4, 32001]⟩
abbrev S8x1024 : Shape := ⟨2, ![8, 1024]⟩
abbrev S8x2048 : Shape := ⟨2, ![8, 2048]⟩
abbrev S8x32001 : Shape := ⟨2, ![8, 32001]⟩
abbrev S16x1024 : Shape := ⟨2, ![16, 1024]⟩
abbrev S16x2048 : Shape := ⟨2, ![16, 2048]⟩
abbrev S16x32001 : Shape := ⟨2, ![16, 32001]⟩
abbrev S32x1024 : Shape := ⟨2, ![32, 1024]⟩
abbrev S32x2048 : Shape := ⟨2, ![32, 2048]⟩
abbrev S32x32001 : Shape := ⟨2, ![32, 32001]⟩
abbrev S64x1024 : Shape := ⟨2, ![64, 1024]⟩
abbrev S64x2048 : Shape := ⟨2, ![64, 2048]⟩
abbrev S64x32001 : Shape := ⟨2, ![64, 32001]⟩
abbrev S128x1024 : Shape := ⟨2, ![128, 1024]⟩
abbrev S128x2048 : Shape := ⟨2, ![128, 2048]⟩
abbrev S128x32001 : Shape := ⟨2, ![128, 32001]⟩
abbrev S256x1024 : Shape := ⟨2, ![256, 1024]⟩
abbrev S256x2048 : Shape := ⟨2, ![256, 2048]⟩
abbrev S256x32001 : Shape := ⟨2, ![256, 32001]⟩
abbrev S512x1024 : Shape := ⟨2, ![512, 1024]⟩
abbrev S512x2048 : Shape := ⟨2, ![512, 2048]⟩
abbrev S512x32001 : Shape := ⟨2, ![512, 32001]⟩
abbrev S1024x1024 : Shape := ⟨2, ![1024, 1024]⟩
abbrev S1024x32001 : Shape := ⟨2, ![1024, 32001]⟩
abbrev S2048x1024 : Shape := ⟨2, ![2048, 1024]⟩
abbrev S4095x32001 : Shape := ⟨2, ![4095, 32001]⟩
abbrev S4095x1 : Shape := ⟨2, ![4095, 1]⟩

abbrev nBuf : Space → Nat
  | .hbm => 409
  | .vmem => 0
  | .smem => 0
  | _ => 0

abbrev hbmTy0_0 (i : Nat) : BufTy := match i % 128 with
  | 0 => ⟨S1024, .f32⟩
  | 1 => ⟨S1024x2048, .f32⟩
  | 2 => ⟨S2048, .f32⟩
  | 3 => ⟨S2048x32001, .f32⟩
  | 4 => ⟨S32001, .f32⟩
  | 5 => ⟨S1024x2048, .f32⟩
  | 6 => ⟨S2048, .f32⟩
  | 7 => ⟨S2048x2048, .f32⟩
  | 8 => ⟨S2048, .f32⟩
  | 9 => ⟨S4095, .i32⟩
  | 10 => ⟨S4095, .i1⟩
  | 11 => ⟨S1x1024, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S_, .f32⟩
  | 18 => ⟨S1x2048, .f32⟩
  | 19 => ⟨S1x2048, .f32⟩
  | 20 => ⟨S_, .f32⟩
  | 21 => ⟨S1x2048, .f32⟩
  | 22 => ⟨S1x2048, .f32⟩
  | 23 => ⟨S1x32001, .f32⟩
  | 24 => ⟨S1x32001, .f32⟩
  | 25 => ⟨S1x32001, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S_, .f32⟩
  | 35 => ⟨S1x2048, .f32⟩
  | 36 => ⟨S1x2048, .f32⟩
  | 37 => ⟨S1x2048, .f32⟩
  | 38 => ⟨S1x2048, .f32⟩
  | 39 => ⟨S1x2048, .f32⟩
  | 40 => ⟨S2x1024, .f32⟩
  | 41 => ⟨S2x2048, .f32⟩
  | 42 => ⟨S1x2048, .f32⟩
  | 43 => ⟨S2x2048, .f32⟩
  | 44 => ⟨S2x2048, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S_, .f32⟩
  | 51 => ⟨S2x2048, .f32⟩
  | 52 => ⟨S2x2048, .f32⟩
  | 53 => ⟨S2x32001, .f32⟩
  | 54 => ⟨S1x32001, .f32⟩
  | 55 => ⟨S2x32001, .f32⟩
  | 56 => ⟨S2x32001, .f32⟩
  | 57 => ⟨S2x2048, .f32⟩
  | 58 => ⟨S1x2048, .f32⟩
  | 59 => ⟨S2x2048, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S1x2048, .f32⟩
  | 71 => ⟨S2x2048, .f32⟩
  | 72 => ⟨S2x2048, .f32⟩
  | 73 => ⟨S4x1024, .f32⟩
  | 74 => ⟨S4x2048, .f32⟩
  | 75 => ⟨S1x2048, .f32⟩
  | 76 => ⟨S4x2048, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S_, .f32⟩
  | 84 => ⟨S4x2048, .f32⟩
  | 85 => ⟨S4x2048, .f32⟩
  | 86 => ⟨S4x32001, .f32⟩
  | 87 => ⟨S1x32001, .f32⟩
  | 88 => ⟨S4x32001, .f32⟩
  | 89 => ⟨S4x32001, .f32⟩
  | 90 => ⟨S4x2048, .f32⟩
  | 91 => ⟨S1x2048, .f32⟩
  | 92 => ⟨S4x2048, .f32⟩
  | 93 => ⟨S4x2048, .f32⟩
  | 94 => ⟨S4x2048, .f32⟩
  | 95 => ⟨S4x2048, .f32⟩
  | 96 => ⟨S_, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S4x2048, .f32⟩
  | 103 => ⟨S1x2048, .f32⟩
  | 104 => ⟨S4x2048, .f32⟩
  | 105 => ⟨S4x2048, .f32⟩
  | 106 => ⟨S8x1024, .f32⟩
  | 107 => ⟨S8x2048, .f32⟩
  | 108 => ⟨S1x2048, .f32⟩
  | 109 => ⟨S8x2048, .f32⟩
  | 110 => ⟨S8x2048, .f32⟩
  | 111 => ⟨S8x2048, .f32⟩
  | 112 => ⟨S8x2048, .f32⟩
  | 113 => ⟨S_, .f32⟩
  | 114 => ⟨S8x2048, .f32⟩
  | 115 => ⟨S8x2048, .f32⟩
  | 116 => ⟨S_, .f32⟩
  | 117 => ⟨S8x2048, .f32⟩
  | 118 => ⟨S8x2048, .f32⟩
  | 119 => ⟨S8x32001, .f32⟩
  | 120 => ⟨S1x32001, .f32⟩
  | 121 => ⟨S8x32001, .f32⟩
  | 122 => ⟨S8x32001, .f32⟩
  | 123 => ⟨S8x2048, .f32⟩
  | 124 => ⟨S1x2048, .f32⟩
  | 125 => ⟨S8x2048, .f32⟩
  | 126 => ⟨S8x2048, .f32⟩
  | 127 => ⟨S8x2048, .f32⟩
  | _ => ⟨S1024, .f32⟩

abbrev hbmTy0_1 (i : Nat) : BufTy := match i % 128 with
  | 0 => ⟨S8x2048, .f32⟩
  | 1 => ⟨S_, .f32⟩
  | 2 => ⟨S8x2048, .f32⟩
  | 3 => ⟨S8x2048, .f32⟩
  | 4 => ⟨S_, .f32⟩
  | 5 => ⟨S8x2048, .f32⟩
  | 6 => ⟨S8x2048, .f32⟩
  | 7 => ⟨S8x2048, .f32⟩
  | 8 => ⟨S1x2048, .f32⟩
  | 9 => ⟨S8x2048, .f32⟩
  | 10 => ⟨S8x2048, .f32⟩
  | 11 => ⟨S16x1024, .f32⟩
  | 12 => ⟨S16x2048, .f32⟩
  | 13 => ⟨S1x2048, .f32⟩
  | 14 => ⟨S16x2048, .f32⟩
  | 15 => ⟨S16x2048, .f32⟩
  | 16 => ⟨S16x2048, .f32⟩
  | 17 => ⟨S16x2048, .f32⟩
  | 18 => ⟨S_, .f32⟩
  | 19 => ⟨S16x2048, .f32⟩
  | 20 => ⟨S16x2048, .f32⟩
  | 21 => ⟨S_, .f32⟩
  | 22 => ⟨S16x2048, .f32⟩
  | 23 => ⟨S16x2048, .f32⟩
  | 24 => ⟨S16x32001, .f32⟩
  | 25 => ⟨S1x32001, .f32⟩
  | 26 => ⟨S16x32001, .f32⟩
  | 27 => ⟨S16x32001, .f32⟩
  | 28 => ⟨S16x2048, .f32⟩
  | 29 => ⟨S1x2048, .f32⟩
  | 30 => ⟨S16x2048, .f32⟩
  | 31 => ⟨S16x2048, .f32⟩
  | 32 => ⟨S16x2048, .f32⟩
  | 33 => ⟨S16x2048, .f32⟩
  | 34 => ⟨S_, .f32⟩
  | 35 => ⟨S16x2048, .f32⟩
  | 36 => ⟨S16x2048, .f32⟩
  | 37 => ⟨S_, .f32⟩
  | 38 => ⟨S16x2048, .f32⟩
  | 39 => ⟨S16x2048, .f32⟩
  | 40 => ⟨S16x2048, .f32⟩
  | 41 => ⟨S1x2048, .f32⟩
  | 42 => ⟨S16x2048, .f32⟩
  | 43 => ⟨S16x2048, .f32⟩
  | 44 => ⟨S32x1024, .f32⟩
  | 45 => ⟨S32x2048, .f32⟩
  | 46 => ⟨S1x2048, .f32⟩
  | 47 => ⟨S32x2048, .f32⟩
  | 48 => ⟨S32x2048, .f32⟩
  | 49 => ⟨S32x2048, .f32⟩
  | 50 => ⟨S32x2048, .f32⟩
  | 51 => ⟨S_, .f32⟩
  | 52 => ⟨S32x2048, .f32⟩
  | 53 => ⟨S32x2048, .f32⟩
  | 54 => ⟨S_, .f32⟩
  | 55 => ⟨S32x2048, .f32⟩
  | 56 => ⟨S32x2048, .f32⟩
  | 57 => ⟨S32x32001, .f32⟩
  | 58 => ⟨S1x32001, .f32⟩
  | 59 => ⟨S32x32001, .f32⟩
  | 60 => ⟨S32x32001, .f32⟩
  | 61 => ⟨S32x2048, .f32⟩
  | 62 => ⟨S1x2048, .f32⟩
  | 63 => ⟨S32x2048, .f32⟩
  | 64 => ⟨S32x2048, .f32⟩
  | 65 => ⟨S32x2048, .f32⟩
  | 66 => ⟨S32x2048, .f32⟩
  | 67 => ⟨S_, .f32⟩
  | 68 => ⟨S32x2048, .f32⟩
  | 69 => ⟨S32x2048, .f32⟩
  | 70 => ⟨S_, .f32⟩
  | 71 => ⟨S32x2048, .f32⟩
  | 72 => ⟨S32x2048, .f32⟩
  | 73 => ⟨S32x2048, .f32⟩
  | 74 => ⟨S1x2048, .f32⟩
  | 75 => ⟨S32x2048, .f32⟩
  | 76 => ⟨S32x2048, .f32⟩
  | 77 => ⟨S64x1024, .f32⟩
  | 78 => ⟨S64x2048, .f32⟩
  | 79 => ⟨S1x2048, .f32⟩
  | 80 => ⟨S64x2048, .f32⟩
  | 81 => ⟨S64x2048, .f32⟩
  | 82 => ⟨S64x2048, .f32⟩
  | 83 => ⟨S64x2048, .f32⟩
  | 84 => ⟨S_, .f32⟩
  | 85 => ⟨S64x2048, .f32⟩
  | 86 => ⟨S64x2048, .f32⟩
  | 87 => ⟨S_, .f32⟩
  | 88 => ⟨S64x2048, .f32⟩
  | 89 => ⟨S64x2048, .f32⟩
  | 90 => ⟨S64x32001, .f32⟩
  | 91 => ⟨S1x32001, .f32⟩
  | 92 => ⟨S64x32001, .f32⟩
  | 93 => ⟨S64x32001, .f32⟩
  | 94 => ⟨S64x2048, .f32⟩
  | 95 => ⟨S1x2048, .f32⟩
  | 96 => ⟨S64x2048, .f32⟩
  | 97 => ⟨S64x2048, .f32⟩
  | 98 => ⟨S64x2048, .f32⟩
  | 99 => ⟨S64x2048, .f32⟩
  | 100 => ⟨S_, .f32⟩
  | 101 => ⟨S64x2048, .f32⟩
  | 102 => ⟨S64x2048, .f32⟩
  | 103 => ⟨S_, .f32⟩
  | 104 => ⟨S64x2048, .f32⟩
  | 105 => ⟨S64x2048, .f32⟩
  | 106 => ⟨S64x2048, .f32⟩
  | 107 => ⟨S1x2048, .f32⟩
  | 108 => ⟨S64x2048, .f32⟩
  | 109 => ⟨S64x2048, .f32⟩
  | 110 => ⟨S128x1024, .f32⟩
  | 111 => ⟨S128x2048, .f32⟩
  | 112 => ⟨S1x2048, .f32⟩
  | 113 => ⟨S128x2048, .f32⟩
  | 114 => ⟨S128x2048, .f32⟩
  | 115 => ⟨S128x2048, .f32⟩
  | 116 => ⟨S128x2048, .f32⟩
  | 117 => ⟨S_, .f32⟩
  | 118 => ⟨S128x2048, .f32⟩
  | 119 => ⟨S128x2048, .f32⟩
  | 120 => ⟨S_, .f32⟩
  | 121 => ⟨S128x2048, .f32⟩
  | 122 => ⟨S128x2048, .f32⟩
  | 123 => ⟨S128x32001, .f32⟩
  | 124 => ⟨S1x32001, .f32⟩
  | 125 => ⟨S128x32001, .f32⟩
  | 126 => ⟨S128x32001, .f32⟩
  | 127 => ⟨S128x2048, .f32⟩
  | _ => ⟨S1024, .f32⟩

abbrev hbmTy0_2 (i : Nat) : BufTy := match i % 128 with
  | 0 => ⟨S1x2048, .f32⟩
  | 1 => ⟨S128x2048, .f32⟩
  | 2 => ⟨S128x2048, .f32⟩
  | 3 => ⟨S128x2048, .f32⟩
  | 4 => ⟨S128x2048, .f32⟩
  | 5 => ⟨S_, .f32⟩
  | 6 => ⟨S128x2048, .f32⟩
  | 7 => ⟨S128x2048, .f32⟩
  | 8 => ⟨S_, .f32⟩
  | 9 => ⟨S128x2048, .f32⟩
  | 10 => ⟨S128x2048, .f32⟩
  | 11 => ⟨S128x2048, .f32⟩
  | 12 => ⟨S1x2048, .f32⟩
  | 13 => ⟨S128x2048, .f32⟩
  | 14 => ⟨S128x2048, .f32⟩
  | 15 => ⟨S256x1024, .f32⟩
  | 16 => ⟨S256x2048, .f32⟩
  | 17 => ⟨S1x2048, .f32⟩
  | 18 => ⟨S256x2048, .f32⟩
  | 19 => ⟨S256x2048, .f32⟩
  | 20 => ⟨S256x2048, .f32⟩
  | 21 => ⟨S256x2048, .f32⟩
  | 22 => ⟨S_, .f32⟩
  | 23 => ⟨S256x2048, .f32⟩
  | 24 => ⟨S256x2048, .f32⟩
  | 25 => ⟨S_, .f32⟩
  | 26 => ⟨S256x2048, .f32⟩
  | 27 => ⟨S256x2048, .f32⟩
  | 28 => ⟨S256x32001, .f32⟩
  | 29 => ⟨S1x32001, .f32⟩
  | 30 => ⟨S256x32001, .f32⟩
  | 31 => ⟨S256x32001, .f32⟩
  | 32 => ⟨S256x2048, .f32⟩
  | 33 => ⟨S1x2048, .f32⟩
  | 34 => ⟨S256x2048, .f32⟩
  | 35 => ⟨S256x2048, .f32⟩
  | 36 => ⟨S256x2048, .f32⟩
  | 37 => ⟨S256x2048, .f32⟩
  | 38 => ⟨S_, .f32⟩
  | 39 => ⟨S256x2048, .f32⟩
  | 40 => ⟨S256x2048, .f32⟩
  | 41 => ⟨S_, .f32⟩
  | 42 => ⟨S256x2048, .f32⟩
  | 43 => ⟨S256x2048, .f32⟩
  | 44 => ⟨S256x2048, .f32⟩
  | 45 => ⟨S1x2048, .f32⟩
  | 46 => ⟨S256x2048, .f32⟩
  | 47 => ⟨S256x2048, .f32⟩
  | 48 => ⟨S512x1024, .f32⟩
  | 49 => ⟨S512x2048, .f32⟩
  | 50 => ⟨S1x2048, .f32⟩
  | 51 => ⟨S512x2048, .f32⟩
  | 52 => ⟨S512x2048, .f32⟩
  | 53 => ⟨S512x2048, .f32⟩
  | 54 => ⟨S512x2048, .f32⟩
  | 55 => ⟨S_, .f32⟩
  | 56 => ⟨S512x2048, .f32⟩
  | 57 => ⟨S512x2048, .f32⟩
  | 58 => ⟨S_, .f32⟩
  | 59 => ⟨S512x2048, .f32⟩
  | 60 => ⟨S512x2048, .f32⟩
  | 61 => ⟨S512x32001, .f32⟩
  | 62 => ⟨S1x32001, .f32⟩
  | 63 => ⟨S512x32001, .f32⟩
  | 64 => ⟨S512x32001, .f32⟩
  | 65 => ⟨S512x2048, .f32⟩
  | 66 => ⟨S1x2048, .f32⟩
  | 67 => ⟨S512x2048, .f32⟩
  | 68 => ⟨S512x2048, .f32⟩
  | 69 => ⟨S512x2048, .f32⟩
  | 70 => ⟨S512x2048, .f32⟩
  | 71 => ⟨S_, .f32⟩
  | 72 => ⟨S512x2048, .f32⟩
  | 73 => ⟨S512x2048, .f32⟩
  | 74 => ⟨S_, .f32⟩
  | 75 => ⟨S512x2048, .f32⟩
  | 76 => ⟨S512x2048, .f32⟩
  | 77 => ⟨S512x2048, .f32⟩
  | 78 => ⟨S1x2048, .f32⟩
  | 79 => ⟨S512x2048, .f32⟩
  | 80 => ⟨S512x2048, .f32⟩
  | 81 => ⟨S1024x1024, .f32⟩
  | 82 => ⟨S1024x2048, .f32⟩
  | 83 => ⟨S1x2048, .f32⟩
  | 84 => ⟨S1024x2048, .f32⟩
  | 85 => ⟨S1024x2048, .f32⟩
  | 86 => ⟨S1024x2048, .f32⟩
  | 87 => ⟨S1024x2048, .f32⟩
  | 88 => ⟨S_, .f32⟩
  | 89 => ⟨S1024x2048, .f32⟩
  | 90 => ⟨S1024x2048, .f32⟩
  | 91 => ⟨S_, .f32⟩
  | 92 => ⟨S1024x2048, .f32⟩
  | 93 => ⟨S1024x2048, .f32⟩
  | 94 => ⟨S1024x32001, .f32⟩
  | 95 => ⟨S1x32001, .f32⟩
  | 96 => ⟨S1024x32001, .f32⟩
  | 97 => ⟨S1024x32001, .f32⟩
  | 98 => ⟨S1024x2048, .f32⟩
  | 99 => ⟨S1x2048, .f32⟩
  | 100 => ⟨S1024x2048, .f32⟩
  | 101 => ⟨S1024x2048, .f32⟩
  | 102 => ⟨S1024x2048, .f32⟩
  | 103 => ⟨S1024x2048, .f32⟩
  | 104 => ⟨S_, .f32⟩
  | 105 => ⟨S1024x2048, .f32⟩
  | 106 => ⟨S1024x2048, .f32⟩
  | 107 => ⟨S_, .f32⟩
  | 108 => ⟨S1024x2048, .f32⟩
  | 109 => ⟨S1024x2048, .f32⟩
  | 110 => ⟨S1024x2048, .f32⟩
  | 111 => ⟨S1x2048, .f32⟩
  | 112 => ⟨S1024x2048, .f32⟩
  | 113 => ⟨S1024x2048, .f32⟩
  | 114 => ⟨S2048x1024, .f32⟩
  | 115 => ⟨S2048x2048, .f32⟩
  | 116 => ⟨S1x2048, .f32⟩
  | 117 => ⟨S2048x2048, .f32⟩
  | 118 => ⟨S2048x2048, .f32⟩
  | 119 => ⟨S2048x2048, .f32⟩
  | 120 => ⟨S2048x2048, .f32⟩
  | 121 => ⟨S_, .f32⟩
  | 122 => ⟨S2048x2048, .f32⟩
  | 123 => ⟨S2048x2048, .f32⟩
  | 124 => ⟨S_, .f32⟩
  | 125 => ⟨S2048x2048, .f32⟩
  | 126 => ⟨S2048x2048, .f32⟩
  | 127 => ⟨S2048x32001, .f32⟩
  | _ => ⟨S1024, .f32⟩

abbrev hbmTy0_3 (i : Nat) : BufTy := match i % 128 with
  | 0 => ⟨S1x32001, .f32⟩
  | 1 => ⟨S2048x32001, .f32⟩
  | 2 => ⟨S2048x32001, .f32⟩
  | 3 => ⟨S4095x32001, .f32⟩
  | 4 => ⟨S_, .i32⟩
  | 5 => ⟨S4095, .i32⟩
  | 6 => ⟨S4095, .i32⟩
  | 7 => ⟨S4095, .i32⟩
  | 8 => ⟨S4095x1, .i32⟩
  | 9 => ⟨S4095x32001, .f32⟩
  | 10 => ⟨S_, .f32⟩
  | 11 => ⟨S4095, .f32⟩
  | 12 => ⟨S_, .f32⟩
  | 13 => ⟨S4095, .f32⟩
  | 14 => ⟨S4095, .f32⟩
  | 15 => ⟨S4095x1, .f32⟩
  | 16 => ⟨S4095x32001, .f32⟩
  | 17 => ⟨S4095x32001, .f32⟩
  | 18 => ⟨S4095x32001, .f32⟩
  | 19 => ⟨S_, .f32⟩
  | 20 => ⟨S4095, .f32⟩
  | 21 => ⟨S4095x1, .f32⟩
  | 22 => ⟨S4095x1, .f32⟩
  | 23 => ⟨S4095x32001, .f32⟩
  | 24 => ⟨S4095x32001, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_cst_13 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_14 : Ref sig .tc := ⟨.hbm, 129, rfl⟩
abbrev main_v104 : Ref sig .tc := ⟨.hbm, 130, rfl⟩
abbrev main_v105 : Ref sig .tc := ⟨.hbm, 131, rfl⟩
abbrev main_cst_15 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_16 : Ref sig .tc := ⟨.hbm, 146, rfl⟩
abbrev main_v119 : Ref sig .tc := ⟨.hbm, 147, rfl⟩
abbrev main_v120 : Ref sig .tc := ⟨.hbm, 148, rfl⟩
abbrev main_cst_17 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_18 : Ref sig .tc := ⟨.hbm, 162, rfl⟩
abbrev main_v133 : Ref sig .tc := ⟨.hbm, 163, rfl⟩
abbrev main_v134 : Ref sig .tc := ⟨.hbm, 164, rfl⟩
abbrev main_cst_19 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_20 : Ref sig .tc := ⟨.hbm, 179, rfl⟩
abbrev main_v148 : Ref sig .tc := ⟨.hbm, 180, rfl⟩
abbrev main_v149 : Ref sig .tc := ⟨.hbm, 181, rfl⟩
abbrev main_cst_21 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_22 : Ref sig .tc := ⟨.hbm, 195, rfl⟩
abbrev main_v162 : Ref sig .tc := ⟨.hbm, 196, rfl⟩
abbrev main_v163 : Ref sig .tc := ⟨.hbm, 197, rfl⟩
abbrev main_cst_23 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_cst_24 : Ref sig .tc := ⟨.hbm, 212, rfl⟩
abbrev main_v177 : Ref sig .tc := ⟨.hbm, 213, rfl⟩
abbrev main_v178 : Ref sig .tc := ⟨.hbm, 214, rfl⟩
abbrev main_cst_25 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_cst_26 : Ref sig .tc := ⟨.hbm, 228, rfl⟩
abbrev main_v191 : Ref sig .tc := ⟨.hbm, 229, rfl⟩
abbrev main_v192 : Ref sig .tc := ⟨.hbm, 230, rfl⟩
abbrev main_cst_27 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_cst_28 : Ref sig .tc := ⟨.hbm, 245, rfl⟩
abbrev main_v206 : Ref sig .tc := ⟨.hbm, 246, rfl⟩
abbrev main_v207 : Ref sig .tc := ⟨.hbm, 247, rfl⟩
abbrev main_cst_29 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_cst_30 : Ref sig .tc := ⟨.hbm, 261, rfl⟩
abbrev main_v220 : Ref sig .tc := ⟨.hbm, 262, rfl⟩
abbrev main_v221 : Ref sig .tc := ⟨.hbm, 263, rfl⟩
abbrev main_cst_31 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_cst_32 : Ref sig .tc := ⟨.hbm, 278, rfl⟩
abbrev main_v235 : Ref sig .tc := ⟨.hbm, 279, rfl⟩
abbrev main_v236 : Ref sig .tc := ⟨.hbm, 280, rfl⟩
abbrev main_cst_33 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_cst_34 : Ref sig .tc := ⟨.hbm, 294, rfl⟩
abbrev main_v249 : Ref sig .tc := ⟨.hbm, 295, rfl⟩
abbrev main_v250 : Ref sig .tc := ⟨.hbm, 296, rfl⟩
abbrev main_cst_35 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_cst_36 : Ref sig .tc := ⟨.hbm, 311, rfl⟩
abbrev main_v264 : Ref sig .tc := ⟨.hbm, 312, rfl⟩
abbrev main_v265 : Ref sig .tc := ⟨.hbm, 313, rfl⟩
abbrev main_cst_37 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_cst_38 : Ref sig .tc := ⟨.hbm, 327, rfl⟩
abbrev main_v278 : Ref sig .tc := ⟨.hbm, 328, rfl⟩
abbrev main_v279 : Ref sig .tc := ⟨.hbm, 329, rfl⟩
abbrev main_cst_39 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_cst_40 : Ref sig .tc := ⟨.hbm, 344, rfl⟩
abbrev main_v293 : Ref sig .tc := ⟨.hbm, 345, rfl⟩
abbrev main_v294 : Ref sig .tc := ⟨.hbm, 346, rfl⟩
abbrev main_cst_41 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_cst_42 : Ref sig .tc := ⟨.hbm, 360, rfl⟩
abbrev main_v307 : Ref sig .tc := ⟨.hbm, 361, rfl⟩
abbrev main_v308 : Ref sig .tc := ⟨.hbm, 362, rfl⟩
abbrev main_cst_43 : Ref sig .tc := ⟨.hbm, 363, rfl⟩
abbrev main_v309 : Ref sig .tc := ⟨.hbm, 364, rfl⟩
abbrev main_v310 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_v319 : Ref sig .tc := ⟨.hbm, 374, rfl⟩
abbrev main_v320 : Ref sig .tc := ⟨.hbm, 375, rfl⟩
abbrev main_v321 : Ref sig .tc := ⟨.hbm, 376, rfl⟩
abbrev main_cst_44 : Ref sig .tc := ⟨.hbm, 377, rfl⟩
abbrev main_v322 : Ref sig .tc := ⟨.hbm, 378, rfl⟩
abbrev main_v323 : Ref sig .tc := ⟨.hbm, 379, rfl⟩
abbrev main_cst_45 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_c_46 : Ref sig .tc := ⟨.hbm, 388, rfl⟩
abbrev main_v331 : Ref sig .tc := ⟨.hbm, 389, rfl⟩
abbrev main_v332 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_call0_cst : Ref sig .tc := ⟨.hbm, 394, rfl⟩
abbrev main_call0_v0 : Ref sig .tc := ⟨.hbm, 395, rfl⟩
abbrev main_call0_cst_0 : Ref sig .tc := ⟨.hbm, 396, rfl⟩
abbrev main_call0_v1 : Ref sig .tc := ⟨.hbm, 397, rfl⟩
abbrev main_call0_v2 : Ref sig .tc := ⟨.hbm, 398, rfl⟩
abbrev main_call0_v3 : Ref sig .tc := ⟨.hbm, 399, rfl⟩
abbrev main_call0_v4 : Ref sig .tc := ⟨.hbm, 400, rfl⟩
abbrev main_call0_v5 : Ref sig .tc := ⟨.hbm, 401, rfl⟩
abbrev main_call0_v6 : Ref sig .tc := ⟨.hbm, 402, rfl⟩
abbrev main_call0_cst_1 : Ref sig .tc := ⟨.hbm, 403, rfl⟩
abbrev main_call0_v7 : Ref sig .tc := ⟨.hbm, 404, rfl⟩
abbrev main_call0_v8 : Ref sig .tc := ⟨.hbm, 405, rfl⟩
abbrev main_call0_v9 : Ref sig .tc := ⟨.hbm, 406, rfl⟩
abbrev main_call0_v10 : Ref sig .tc := ⟨.hbm, 407, rfl⟩
abbrev main_v336 : Ref sig .tc := ⟨.hbm, 408, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S32001_S1x32001_1 : S32001.BroadcastsInDim S1x32001 (![1] : Fin 1 → Fin S1x32001.rank)
  shapeCasts_S1x2048_S2x1024 : S1x2048.ShapeCasts S2x1024
  bcast_S1x2048_S2x2048_0_1 : S1x2048.BroadcastsInDim S2x2048 (![0, 1] : Fin 2 → Fin S2x2048.rank)
  bcast_S_S2x2048 : S_.BroadcastsInDim S2x2048 (![] : Fin 0 → Fin S2x2048.rank)
  bcast_S1x32001_S2x32001_0_1 : S1x32001.BroadcastsInDim S2x32001 (![0, 1] : Fin 2 → Fin S2x32001.rank)
  shapeCasts_S2x2048_S4x1024 : S2x2048.ShapeCasts S4x1024
  bcast_S1x2048_S4x2048_0_1 : S1x2048.BroadcastsInDim S4x2048 (![0, 1] : Fin 2 → Fin S4x2048.rank)
  bcast_S_S4x2048 : S_.BroadcastsInDim S4x2048 (![] : Fin 0 → Fin S4x2048.rank)
  bcast_S1x32001_S4x32001_0_1 : S1x32001.BroadcastsInDim S4x32001 (![0, 1] : Fin 2 → Fin S4x32001.rank)
  shapeCasts_S4x2048_S8x1024 : S4x2048.ShapeCasts S8x1024
  bcast_S1x2048_S8x2048_0_1 : S1x2048.BroadcastsInDim S8x2048 (![0, 1] : Fin 2 → Fin S8x2048.rank)
  bcast_S_S8x2048 : S_.BroadcastsInDim S8x2048 (![] : Fin 0 → Fin S8x2048.rank)
  bcast_S1x32001_S8x32001_0_1 : S1x32001.BroadcastsInDim S8x32001 (![0, 1] : Fin 2 → Fin S8x32001.rank)
  shapeCasts_S8x2048_S16x1024 : S8x2048.ShapeCasts S16x1024
  bcast_S1x2048_S16x2048_0_1 : S1x2048.BroadcastsInDim S16x2048 (![0, 1] : Fin 2 → Fin S16x2048.rank)
  bcast_S_S16x2048 : S_.BroadcastsInDim S16x2048 (![] : Fin 0 → Fin S16x2048.rank)
  bcast_S1x32001_S16x32001_0_1 : S1x32001.BroadcastsInDim S16x32001 (![0, 1] : Fin 2 → Fin S16x32001.rank)
  shapeCasts_S16x2048_S32x1024 : S16x2048.ShapeCasts S32x1024
  bcast_S1x2048_S32x2048_0_1 : S1x2048.BroadcastsInDim S32x2048 (![0, 1] : Fin 2 → Fin S32x2048.rank)
  bcast_S_S32x2048 : S_.BroadcastsInDim S32x2048 (![] : Fin 0 → Fin S32x2048.rank)
  bcast_S1x32001_S32x32001_0_1 : S1x32001.BroadcastsInDim S32x32001 (![0, 1] : Fin 2 → Fin S32x32001.rank)
  shapeCasts_S32x2048_S64x1024 : S32x2048.ShapeCasts S64x1024
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  bcast_S1x32001_S64x32001_0_1 : S1x32001.BroadcastsInDim S64x32001 (![0, 1] : Fin 2 → Fin S64x32001.rank)
  shapeCasts_S64x2048_S128x1024 : S64x2048.ShapeCasts S128x1024
  bcast_S1x2048_S128x2048_0_1 : S1x2048.BroadcastsInDim S128x2048 (![0, 1] : Fin 2 → Fin S128x2048.rank)
  bcast_S_S128x2048 : S_.BroadcastsInDim S128x2048 (![] : Fin 0 → Fin S128x2048.rank)
  bcast_S1x32001_S128x32001_0_1 : S1x32001.BroadcastsInDim S128x32001 (![0, 1] : Fin 2 → Fin S128x32001.rank)
  shapeCasts_S128x2048_S256x1024 : S128x2048.ShapeCasts S256x1024
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  bcast_S1x32001_S256x32001_0_1 : S1x32001.BroadcastsInDim S256x32001 (![0, 1] : Fin 2 → Fin S256x32001.rank)
  shapeCasts_S256x2048_S512x1024 : S256x2048.ShapeCasts S512x1024
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  bcast_S1x32001_S512x32001_0_1 : S1x32001.BroadcastsInDim S512x32001 (![0, 1] : Fin 2 → Fin S512x32001.rank)
  shapeCasts_S512x2048_S1024x1024 : S512x2048.ShapeCasts S1024x1024
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  bcast_S1x32001_S1024x32001_0_1 : S1x32001.BroadcastsInDim S1024x32001 (![0, 1] : Fin 2 → Fin S1024x32001.rank)
  shapeCasts_S1024x2048_S2048x1024 : S1024x2048.ShapeCasts S2048x1024
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S1x32001_S2048x32001_0_1 : S1x32001.BroadcastsInDim S2048x32001 (![0, 1] : Fin 2 → Fin S2048x32001.rank)
  concatenates_S1x32001_S2x32001_S4x32001_S8x32001_S16x32001_S32x32001_S64x32001_S128x32001_S256x32001_S512x32001_S1024x32001_S2048x32001_S4095x32001_d0 : Shape.Concatenates [S1x32001, S2x32001, S4x32001, S8x32001, S16x32001, S32x32001, S64x32001, S128x32001, S256x32001, S512x32001, S1024x32001, S2048x32001] S4095x32001 0
  bcast_S_S4095 : S_.BroadcastsInDim S4095 (![] : Fin 0 → Fin S4095.rank)
  bcast_S4095_S4095x1_0 : S4095.BroadcastsInDim S4095x1 (![0] : Fin 1 → Fin S4095x1.rank)
  reducesTo_S4095x32001_S4095_d1 : S4095x32001.ReducesTo [1] S4095
  h_S_ : 0 < S_.numel
  bcast_S4095x1_S4095x32001_0_1 : S4095x1.BroadcastsInDim S4095x32001 (![0, 1] : Fin 2 → Fin S4095x32001.rank)
  dot_S1x1024_S1024x2048_S1x2048_1_0_0_1_n_n_wf : DotDims.WF S1x1024 S1024x2048 S1x2048 [1] [0] [0] [1] [] []
  dot_S1x2048_S2048x32001_S1x32001_1_0_0_1_n_n_wf : DotDims.WF S1x2048 S2048x32001 S1x32001 [1] [0] [0] [1] [] []
  dot_S1x2048_S2048x2048_S1x2048_1_0_0_1_n_n_wf : DotDims.WF S1x2048 S2048x2048 S1x2048 [1] [0] [0] [1] [] []
  dot_S2x1024_S1024x2048_S2x2048_1_0_0_1_n_n_wf : DotDims.WF S2x1024 S1024x2048 S2x2048 [1] [0] [0] [1] [] []
  dot_S2x2048_S2048x32001_S2x32001_1_0_0_1_n_n_wf : DotDims.WF S2x2048 S2048x32001 S2x32001 [1] [0] [0] [1] [] []
  dot_S2x2048_S2048x2048_S2x2048_1_0_0_1_n_n_wf : DotDims.WF S2x2048 S2048x2048 S2x2048 [1] [0] [0] [1] [] []
  dot_S4x1024_S1024x2048_S4x2048_1_0_0_1_n_n_wf : DotDims.WF S4x1024 S1024x2048 S4x2048 [1] [0] [0] [1] [] []
  dot_S4x2048_S2048x32001_S4x32001_1_0_0_1_n_n_wf : DotDims.WF S4x2048 S2048x32001 S4x32001 [1] [0] [0] [1] [] []
  dot_S4x2048_S2048x2048_S4x2048_1_0_0_1_n_n_wf : DotDims.WF S4x2048 S2048x2048 S4x2048 [1] [0] [0] [1] [] []
  dot_S8x1024_S1024x2048_S8x2048_1_0_0_1_n_n_wf : DotDims.WF S8x1024 S1024x2048 S8x2048 [1] [0] [0] [1] [] []
  dot_S8x2048_S2048x32001_S8x32001_1_0_0_1_n_n_wf : DotDims.WF S8x2048 S2048x32001 S8x32001 [1] [0] [0] [1] [] []
  dot_S8x2048_S2048x2048_S8x2048_1_0_0_1_n_n_wf : DotDims.WF S8x2048 S2048x2048 S8x2048 [1] [0] [0] [1] [] []
  dot_S16x1024_S1024x2048_S16x2048_1_0_0_1_n_n_wf : DotDims.WF S16x1024 S1024x2048 S16x2048 [1] [0] [0] [1] [] []
  dot_S16x2048_S2048x32001_S16x32001_1_0_0_1_n_n_wf : DotDims.WF S16x2048 S2048x32001 S16x32001 [1] [0] [0] [1] [] []
  dot_S16x2048_S2048x2048_S16x2048_1_0_0_1_n_n_wf : DotDims.WF S16x2048 S2048x2048 S16x2048 [1] [0] [0] [1] [] []
  dot_S32x1024_S1024x2048_S32x2048_1_0_0_1_n_n_wf : DotDims.WF S32x1024 S1024x2048 S32x2048 [1] [0] [0] [1] [] []
  dot_S32x2048_S2048x32001_S32x32001_1_0_0_1_n_n_wf : DotDims.WF S32x2048 S2048x32001 S32x32001 [1] [0] [0] [1] [] []
  dot_S32x2048_S2048x2048_S32x2048_1_0_0_1_n_n_wf : DotDims.WF S32x2048 S2048x2048 S32x2048 [1] [0] [0] [1] [] []
  dot_S64x1024_S1024x2048_S64x2048_1_0_0_1_n_n_wf : DotDims.WF S64x1024 S1024x2048 S64x2048 [1] [0] [0] [1] [] []
  dot_S64x2048_S2048x32001_S64x32001_1_0_0_1_n_n_wf : DotDims.WF S64x2048 S2048x32001 S64x32001 [1] [0] [0] [1] [] []
  dot_S64x2048_S2048x2048_S64x2048_1_0_0_1_n_n_wf : DotDims.WF S64x2048 S2048x2048 S64x2048 [1] [0] [0] [1] [] []
  dot_S128x1024_S1024x2048_S128x2048_1_0_0_1_n_n_wf : DotDims.WF S128x1024 S1024x2048 S128x2048 [1] [0] [0] [1] [] []
  dot_S128x2048_S2048x32001_S128x32001_1_0_0_1_n_n_wf : DotDims.WF S128x2048 S2048x32001 S128x32001 [1] [0] [0] [1] [] []
  dot_S128x2048_S2048x2048_S128x2048_1_0_0_1_n_n_wf : DotDims.WF S128x2048 S2048x2048 S128x2048 [1] [0] [0] [1] [] []
  dot_S256x1024_S1024x2048_S256x2048_1_0_0_1_n_n_wf : DotDims.WF S256x1024 S1024x2048 S256x2048 [1] [0] [0] [1] [] []
  dot_S256x2048_S2048x32001_S256x32001_1_0_0_1_n_n_wf : DotDims.WF S256x2048 S2048x32001 S256x32001 [1] [0] [0] [1] [] []
  dot_S256x2048_S2048x2048_S256x2048_1_0_0_1_n_n_wf : DotDims.WF S256x2048 S2048x2048 S256x2048 [1] [0] [0] [1] [] []
  dot_S512x1024_S1024x2048_S512x2048_1_0_0_1_n_n_wf : DotDims.WF S512x1024 S1024x2048 S512x2048 [1] [0] [0] [1] [] []
  dot_S512x2048_S2048x32001_S512x32001_1_0_0_1_n_n_wf : DotDims.WF S512x2048 S2048x32001 S512x32001 [1] [0] [0] [1] [] []
  dot_S512x2048_S2048x2048_S512x2048_1_0_0_1_n_n_wf : DotDims.WF S512x2048 S2048x2048 S512x2048 [1] [0] [0] [1] [] []
  dot_S1024x1024_S1024x2048_S1024x2048_1_0_0_1_n_n_wf : DotDims.WF S1024x1024 S1024x2048 S1024x2048 [1] [0] [0] [1] [] []
  dot_S1024x2048_S2048x32001_S1024x32001_1_0_0_1_n_n_wf : DotDims.WF S1024x2048 S2048x32001 S1024x32001 [1] [0] [0] [1] [] []
  dot_S1024x2048_S2048x2048_S1024x2048_1_0_0_1_n_n_wf : DotDims.WF S1024x2048 S2048x2048 S1024x2048 [1] [0] [0] [1] [] []
  dot_S2048x1024_S1024x2048_S2048x2048_1_0_0_1_n_n_wf : DotDims.WF S2048x1024 S1024x2048 S2048x2048 [1] [0] [0] [1] [] []
  dot_S2048x2048_S2048x32001_S2048x32001_1_0_0_1_n_n_wf : DotDims.WF S2048x2048 S2048x32001 S2048x32001 [1] [0] [0] [1] [] []
  gather_S4095x32001_S4095x1_S4095x32001_1_0_n_n_0_1_132001_wf : GatherDims.WF S4095x32001 S4095x1 S4095x32001 [1] [0] [] [0] [] 1 ![1, 32001]

variable [Facts₀]

def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf
def dot_S1x2048_S2048x32001_S1x32001_1_0_0_1_n_n : DotDims S1x2048 S2048x32001 S1x32001 where
  lhsContracting := [1]
  rhsContracting := [0]
  lhsNonContracting := [0]
  rhsNonContracting := [1]
  lhsBatch := []
  rhsBatch := []
  wf := dot_S1x2048_S2048x32001_S1x32001_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S2x1024_S1024x2048_S2x2048_1_0_0_1_n_n : DotDims S2x1024 S1024x2048 S2x2048 where
  lhsContracting := [1]
  rhsContracting := [0]
  lhsNonContracting := [0]
  rhsNonContracting := [1]
  lhsBatch := []
  rhsBatch := []
  wf := dot_S2x1024_S1024x2048_S2x2048_1_0_0_1_n_n_wf
def dot_S2x2048_S2048x32001_S2x32001_1_0_0_1_n_n : DotDims S2x2048 S2048x32001 S2x32001 where
  lhsContracting := [1]
  rhsContracting := [0]
  lhsNonContracting := [0]
  rhsNonContracting := [1]
  lhsBatch := []
  rhsBatch := []
  wf := dot_S2x2048_S2048x32001_S2x32001_1_0_0_1_n_n_wf
def dot_S2x2048_S2048x2048_S2x2048_1_0_0_1_n_n : DotDims S2x2048 S2048x2048 S2x2048 where
  lhsContracting := [1]
  rhsContracting := [0]
  lhsNonContracting := [0]
  rhsNonContracting := [1]
  lhsBatch := []
  rhsBatch := []
  wf := dot_S2x2048_S2048x2048_S2x2048_1_0_0_1_n_n_wf
def dot_S4x1024_S1024x2048_S4x2048_1_0_0_1_n_n : DotDims S4x1024 S1024x2048 S4x2048 where
  lhsContracting := [1]
  rhsContracting := [0]
  lhsNonContracting := [0]
  rhsNonContracting := [1]
  lhsBatch := []
  rhsBatch := []
  wf := dot_S4x1024_S1024x2048_S4x2048_1_0_0_1_n_n_wf
def dot_S4x2048_S2048x32001_S4x32001_1_0_0_1_n_n : DotDims S4x2048 S2048x32001 S4x32001 where
  lhsContracting := [1]
  rhsContracting := [0]
  lhsNonContracting := [0]
  rhsNonContracting := [1]
  lhsBatch := []
  rhsBatch := []
  wf := dot_S4x2048_S2048x32001_S4x32001_1_0_0_1_n_n_wf
def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf
def dot_S8x1024_S1024x2048_S8x2048_1_0_0_1_n_n : DotDims S8x1024 S1024x2048 S8x2048 where
  lhsContracting := [1]
  rhsContracting := [0]
  lhsNonContracting := [0]
  rhsNonContracting := [1]
  lhsBatch := []
  rhsBatch := []
  wf := dot_S8x1024_S1024x2048_S8x2048_1_0_0_1_n_n_wf
def dot_S8x2048_S2048x32001_S8x32001_1_0_0_1_n_n : DotDims S8x2048 S2048x32001 S8x32001 where
  lhsContracting := [1]
  rhsContracting := [0]
  lhsNonContracting := [0]
  rhsNonContracting := [1]
  lhsBatch := []
  rhsBatch := []
  wf := dot_S8x2048_S2048x32001_S8x32001_1_0_0_1_n_n_wf
def dot_S8x2048_S2048x2048_S8x2048_1_0_0_1_n_n : DotDims S8x2048 S2048x2048 S8x2048 where
  lhsContracting := [1]
  rhsContracting := [0]
  lhsNonContracting := [0]
  rhsNonContracting := [1]
  lhsBatch := []
  rhsBatch := []
  wf := dot_S8x2048_S2048x2048_S8x2048_1_0_0_1_n_n_wf
def dot_S16x1024_S1024x2048_S16x2048_1_0_0_1_n_n : DotDims S16x1024 S1024x2048 S16x2048 where
  lhsContracting := [1]
  rhsContracting := [0]
  lhsNonContracting := [0]
  rhsNonContracting := [1]
  lhsBatch := []
  rhsBatch := []
  wf := dot_S16x1024_S1024x2048_S16x2048_1_0_0_1_n_n_wf
def dot_S16x2048_S2048x32001_S16x32001_1_0_0_1_n_n : DotDims S16x2048 S2048x32001 S16x32001 where
  lhsContracting := [1]
  rhsContracting := [0]
  lhsNonContracting := [0]
  rhsNonContracting := [1]
  lhsBatch := []
  rhsBatch := []
  wf := dot_S16x2048_S2048x32001_S16x32001_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf
def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf
def dot_S32x2048_S2048x32001_S32x32001_1_0_0_1_n_n : DotDims S32x2048 S2048x32001 S32x32001 where
  lhsContracting := [1]
  rhsContracting := [0]
  lhsNonContracting := [0]
  rhsNonContracting := [1]
  lhsBatch := []
  rhsBatch := []
  wf := dot_S32x2048_S2048x32001_S32x32001_1_0_0_1_n_n_wf
def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x2048_S2048x32001_S64x32001_1_0_0_1_n_n : DotDims S64x2048 S2048x32001 S64x32001 where
  lhsContracting := [1]
  rhsContracting := [0]
  lhsNonContracting := [0]
  rhsNonContracting := [1]
  lhsBatch := []
  rhsBatch := []
  wf := dot_S64x2048_S2048x32001_S64x32001_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x32001_S128x32001_1_0_0_1_n_n : DotDims S128x2048 S2048x32001 S128x32001 where
  lhsContracting := [1]
  rhsContracting := [0]
  lhsNonContracting := [0]
  rhsNonContracting := [1]
  lhsBatch := []
  rhsBatch := []
  wf := dot_S128x2048_S2048x32001_S128x32001_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x32001_S256x32001_1_0_0_1_n_n : DotDims S256x2048 S2048x32001 S256x32001 where
  lhsContracting := [1]
  rhsContracting := [0]
  lhsNonContracting := [0]
  rhsNonContracting := [1]
  lhsBatch := []
  rhsBatch := []
  wf := dot_S256x2048_S2048x32001_S256x32001_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x32001_S512x32001_1_0_0_1_n_n : DotDims S512x2048 S2048x32001 S512x32001 where
  lhsContracting := [1]
  rhsContracting := [0]
  lhsNonContracting := [0]
  rhsNonContracting := [1]
  lhsBatch := []
  rhsBatch := []
  wf := dot_S512x2048_S2048x32001_S512x32001_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x32001_S1024x32001_1_0_0_1_n_n : DotDims S1024x2048 S2048x32001 S1024x32001 where
  lhsContracting := [1]
  rhsContracting := [0]
  lhsNonContracting := [0]
  rhsNonContracting := [1]
  lhsBatch := []
  rhsBatch := []
  wf := dot_S1024x2048_S2048x32001_S1024x32001_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x2048_S2048x32001_S2048x32001_1_0_0_1_n_n : DotDims S2048x2048 S2048x32001 S2048x32001 where
  lhsContracting := [1]
  rhsContracting := [0]
  lhsNonContracting := [0]
  rhsNonContracting := [1]
  lhsBatch := []
  rhsBatch := []
  wf := dot_S2048x2048_S2048x32001_S2048x32001_1_0_0_1_n_n_wf
def gather_S4095x32001_S4095x1_S4095x32001_1_0_n_n_0_1_132001 : GatherDims S4095x32001 S4095x1 S4095x32001 where
  offsetDims := [1]
  collapsedSliceDims := [0]
  operandBatchingDims := []
  startIndicesBatchingDims := []
  startIndexMap := [0]
  indexVectorDim := 1
  sliceSizes := ![1, 32001]
  wf := gather_S4095x32001_S4095x1_S4095x32001_1_0_n_n_0_1_132001_wf

class Facts : Prop extends Facts₀ where

variable [Facts]
-- ==== Proof.LibLogSoftmaxPad.lean ====
/-
  A row of extended reals whose trailing columns are filled with `⊥` (minus infinity).

  Write `fill n x` for the row `x : Fin N → EReal` with every column `c ≥ n` replaced by `⊥`. Such a column is
  invisible to a maximum taken from `⊥` (`max ⊥ y = y`), and, whatever `M` is, `⊥ - M = ⊥` and `exp ⊥ = 0`, so it
  adds nothing to `∑ exp (· - M)`. Hence the log-softmax of the filled row, read at a leading column, is the
  log-softmax of the first `n` columns alone: `lsm_fill`. No entry is assumed finite.
-/
import Idealize.ShloMosaic.PureOps.Ideal

noncomputable section

namespace Cert.Lib.LogSoftmaxPad

open Idealize.ShloMosaic

/-- The row `x` with every column at or beyond `n` replaced by `⊥`. -/
def fill (n : ℕ) {N : ℕ} (x : Fin N → EReal) : Fin N → EReal := fun c => if c.val < n then x c else ⊥

theorem fill_of_lt {n N : ℕ} (x : Fin N → EReal) (c : Fin N) (hc : c.val < n) : fill n x c = x c := if_pos hc

theorem fill_of_not_lt {n N : ℕ} (x : Fin N → EReal) (c : Fin N) (hc : ¬ c.val < n) : fill n x c = ⊥ := if_neg hc

theorem fill_castLE {n N : ℕ} (h : n ≤ N) (x : Fin N → EReal) (k : Fin n) :
    fill n x (Fin.castLE h k) = x (Fin.castLE h k) := if_pos k.isLt

/-- The largest entry of the filled row (a fold of `max` from `⊥`) is the largest of its first `n` entries: both
    are the least bound of the same entries, the filled columns being `⊥`. -/
theorem fold_max_fill {n N : ℕ} (h : n ≤ N) (x : Fin N → EReal) :
    (Finset.univ : Finset (Fin N)).fold max ⊥ (fill n x)
      = (Finset.univ : Finset (Fin n)).fold max ⊥ (fun k => x (Fin.castLE h k)) := by
  refine eq_of_forall_ge_iff fun z => ?_
  rw [Finset.fold_max_le, Finset.fold_max_le]
  constructor
  · rintro ⟨hb, hx⟩
    refine ⟨hb, fun k _ => ?_⟩
    have := hx (Fin.castLE h k) (Finset.mem_univ _)
    rwa [fill_castLE] at this
  · rintro ⟨hb, hx⟩
    refine ⟨hb, fun c _ => ?_⟩
    by_cases hc : c.val < n
    · rw [fill_of_lt x c hc]
      exact hx ⟨c.val, hc⟩ (Finset.mem_univ _)
    · rw [fill_of_not_lt x c hc]
      exact bot_le

/-- The sum of `exp (· - M)` over the filled row is the sum over its first `n` columns: a filled column
    contributes `exp (⊥ - M) = exp ⊥ = 0`, for every `M`. -/
theorem sum_exp_fill {n N : ℕ} (h : n ≤ N) (x : Fin N → EReal) (M : EReal) :
    ∑ c : Fin N, Ideal.exp (fill n x c - M) = ∑ k : Fin n, Ideal.exp (x (Fin.castLE h k) - M) := by
  have hmap : ∑ k : Fin n, Ideal.exp (x (Fin.castLE h k) - M)
      = ∑ c ∈ (Finset.univ : Finset (Fin n)).map ⟨Fin.castLE h, Fin.castLE_injective h⟩, Ideal.exp (fill n x c - M) := by
    rw [Finset.sum_map]
    refine Finset.sum_congr rfl fun k _ => ?_
    rw [Function.Embedding.coeFn_mk, fill_castLE]
  rw [hmap]
  symm
  refine Finset.sum_subset (Finset.subset_univ _) fun c _ hc => ?_
  have hcn : ¬ c.val < n := fun hlt =>
    hc (Finset.mem_map.2 ⟨⟨c.val, hlt⟩, Finset.mem_univ _, Fin.ext rfl⟩)
  rw [fill_of_not_lt x c hcn, sub_eq_add_neg, EReal.bot_add, Ideal.exp_bot]

/-- The log-softmax of a row, in the shifted form both programs compute: with `M` the row's largest entry (a fold
    of `max` from `⊥`), `(x j - M) - log (∑ k, exp (x k - M))`. -/
def lsm {ι : Type} [Fintype ι] (x : ι → EReal) (j : ι) : EReal :=
  (x j - (Finset.univ : Finset ι).fold max ⊥ x)
    - Ideal.log (∑ k : ι, Ideal.exp (x k - (Finset.univ : Finset ι).fold max ⊥ x))

/-- The log-softmax of the filled row at a leading column is the log-softmax of the first `n` columns. -/
theorem lsm_fill {n N : ℕ} (h : n ≤ N) (x : Fin N → EReal) (k : Fin n) :
    lsm (fill n x) (Fin.castLE h k) = lsm (fun k => x (Fin.castLE h k)) k := by
  unfold lsm
  rw [fold_max_fill h x, sum_exp_fill h x, fill_castLE]

end Cert.Lib.LogSoftmaxPad

end
-- ==== Proof.LibKeepdims.lean ====
/-
  Column layouts read at an index given by coordinates.
  A row-wise reduction that keeps its reduced axis (a sum over the columns of an [a, b] array, kept as an [a, 1]
  column) meets three layout steps on the way: the vector of row results is cast to a column, the column may be cast
  to a row, and the column is broadcast back over the b columns. Each is a reindexing; at an index written by its
  coordinates the result is the operand at the evident index: row i of the column is entry i of the vector, and entry
  (p, c) of the broadcast is row p of the column, whatever c. The same three steps written as host operations
  (a broadcast that places a vector along axis 0 of a column, a broadcast of a column over columns) read the same way,
  and so do a vector laid as a row, a row repeated over the rows, and a scalar spread over a whole shape.
-/
import Idealize.ShloMosaic.Lib.ValueLayout

namespace Cert.Lib.Keepdims

open Idealize.ShloMosaic Idealize.ShloMosaic.ValueIdx

variable {α : Type}

/-! ## A vector and its column -/

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column cast to a `[1, a]` row reads, at `(u, i)`, the column at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-! ## A column broadcast over the columns -/

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## The same steps as host broadcasts -/

/-- A host broadcast that lays an `[a]` vector along axis 0 of an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A host broadcast of an `[a, 1]` column over `[a, b]` (axes kept in place) reads, at `(p, c)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-! ## A row as host broadcasts -/

/-- A host broadcast that lays a `[b]` vector along axis 1 of a `[1, b]` row reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A host broadcast of a `[1, b]` row over `[a, b]` (axes kept in place) reads, at `(p, c)`, the row at `(0, c)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- A host broadcast of a scalar to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Keepdims
-- ==== Proof.LibLogSoftmaxRows.lean ====
/-
  A row-wise log-softmax of an `[a, b]` array, in the two spellings programs use, read at an entry.

  Both spellings compute, for each row, the largest entry `M` (a maximum taken from `-∞`), the shifted row `x - M`,
  the sum `s` of its exponentials, and `(x - M) - log s`. On the vector unit the row maximum and the row sum are lane
  reductions whose results are cast to a column and broadcast back over the columns; on the host they are one-operand
  reduces whose results are laid along axis 0 of a column and spread over the columns (and the row maximum is first
  joined with a broadcast `-∞`, which changes nothing). Entry `(r, j)` of either is
  `Cert.Lib.LogSoftmaxPad.lsm (row r) j`. No entry is assumed finite.
-/
import proofs.«141888_j3590592659519_2_alg».proof.Proof.LibLogSoftmaxPad
import proofs.«141888_j3590592659519_2_alg».proof.Proof.LibKeepdims
import Idealize.ShloMosaic.Lib.ValueIdx
import Idealize.ShloMosaic.Lib.Pipeline.Value
import Idealize.ShloMosaic.Lib.IdealHost
import Idealize.ShloMosaic.PureOps.Ideal.Laws

noncomputable section

namespace Cert.Lib.LogSoftmaxRows

open Idealize.ShloMosaic Idealize.ShloMosaic.ValueIdx Cert.Lib.LogSoftmaxPad Cert.Lib.Keepdims

variable {a b : ℕ}

/-- The f32 pattern of `-∞` is `⊥`. -/
theorem neg_inf_word : (FloatOps.ofBits (F := Ideal) .f32 0xFF800000#32 : EReal) = ⊥ := by
  simp [Ideal.ofBits, Ideal.ieee]

/-- A logarithm taken entry by entry, read at an index. -/
theorem log_apply {s : Shape} (v : FVec Ideal s .f32) (i : s.Idx) : log v i = Ideal.log (v i) := rfl

/-- An exponential taken entry by entry, read at an index. -/
theorem exp_apply {s : Shape} (v : FVec Ideal s .f32) (i : s.Idx) : exp v i = Ideal.exp (v i) := rfl

/-- Inserting column `c` into the row index `r` gives the entry `(r, c)`. -/
theorem lift_row (h : (⟨2, ![a, b]⟩ : Shape).Reduces [1] ⟨1, ![a]⟩) (r : Fin a) (c : Fin b) :
    h.lift (ix1 r) c = ix2 r c := by
  funext d; match d with | ⟨0, _⟩ => rfl | ⟨1, _⟩ => rfl

/-! ## The vector unit's spelling -/

/-- A row's largest entry, kept as a column and spread back over the columns: at `(r, j)` it is the fold of `max`
    from `⊥` over row `r`. -/
theorem lane_max_apply (w : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (j : Fin b) :
    broadcastTo ⟨2, ![a, b]⟩ (shapeCast ⟨2, ![a, 1]⟩
        (multiReduction (F := Ideal) .maximumf [1] ⟨1, ![a]⟩ w 0xFF800000#32 h hφ hacc) hc) hb (ix2 r j)
      = (Finset.univ : Finset (Fin b)).fold max ⊥ (fun c => w (ix2 r c)) := by
  refine (broadcastTo_a1_ab_apply _ _ r j).trans ?_
  refine (shapeCast_a_a1_apply _ _ r 0).trans ?_
  refine (Ideal.multiReduction_maximumf_single w _ h hφ hacc (ix1 r)).trans ?_
  rw [neg_inf_word]
  exact congrArg (fun f => (Finset.univ : Finset (Fin b)).fold max ⊥ f)
    (funext fun c => congrArg w (lift_row h r c))

/-- A row's sum, kept as a column: at `(r, 0)` it is the sum over row `r`. -/
theorem lane_sum_apply (w : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (r : Fin a) (u : Fin 1) :
    shapeCast ⟨2, ![a, 1]⟩ (multiReduction (F := Ideal) .add [1] ⟨1, ![a]⟩ w 0x00000000#32 h hφ hacc) hc (ix2 r u)
      = ∑ c : Fin b, w (ix2 r c) := by
  refine (shapeCast_a_a1_apply _ _ r u).trans ?_
  refine (Ideal.multiReduction_add_single w _ h hφ hacc (ix1 r)).trans ?_
  exact Finset.sum_congr rfl fun c _ => congrArg w (lift_row h r c)

/-- The vector unit's chain — lane maximum, subtract, exponential, lane sum, logarithm, subtract — at `(r, j)` is
    the log-softmax of row `r` at `j`. -/
theorem lane_apply (w : FVec Ideal ⟨2, ![a, b]⟩ .f32) (h : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (j : Fin b) :
    subf
      (subf w (broadcastTo ⟨2, ![a, b]⟩ (shapeCast ⟨2, ![a, 1]⟩
        (multiReduction (F := Ideal) .maximumf [1] ⟨1, ![a]⟩ w 0xFF800000#32 h hφ hmax) hc) hb))
      (broadcastTo ⟨2, ![a, b]⟩ (log (shapeCast ⟨2, ![a, 1]⟩
        (multiReduction (F := Ideal) .add [1] ⟨1, ![a]⟩
          (exp (subf w (broadcastTo ⟨2, ![a, b]⟩ (shapeCast ⟨2, ![a, 1]⟩
            (multiReduction (F := Ideal) .maximumf [1] ⟨1, ![a]⟩ w 0xFF800000#32 h hφ hmax) hc) hb)))
          0x00000000#32 h hφ hadd) hc)) hb) (ix2 r j)
      = lsm (fun c : Fin b => w (ix2 r c)) j := by
  have hsh : ∀ c : Fin b,
      subf w (broadcastTo ⟨2, ![a, b]⟩ (shapeCast ⟨2, ![a, 1]⟩
        (multiReduction (F := Ideal) .maximumf [1] ⟨1, ![a]⟩ w 0xFF800000#32 h hφ hmax) hc) hb) (ix2 r c)
      = w (ix2 r c) - (Finset.univ : Finset (Fin b)).fold max ⊥ (fun c => w (ix2 r c)) := fun c =>
    (subf_apply _ _ _).trans (congrArg (fun z => w (ix2 r c) - z) (lane_max_apply w h hφ hmax hc hb r c))
  unfold lsm
  refine (subf_apply _ _ _).trans (congrArg₂ (· - ·) (hsh j) ?_)
  refine (broadcastTo_a1_ab_apply _ _ r j).trans ?_
  refine (log_apply _ _).trans (congrArg Ideal.log ?_)
  refine (lane_sum_apply _ h hφ hadd hc r 0).trans ?_
  exact Finset.sum_congr rfl fun c _ => (exp_apply _ _).trans (congrArg Ideal.exp (hsh c))

/-! ## The host's spelling -/

/-- The host's chain for a row-wise log-softmax over the last axis of an `[a, b]` array (the lines
    `jax.nn.log_softmax` lowers to). -/
def hostChain (hr : (⟨2, ![a, b]⟩ : Shape).ReducesTo [1] ⟨1, ![a]⟩) (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (x : FVec Ideal ⟨2, ![a, b]⟩ .f32) : FVec Ideal ⟨2, ![a, b]⟩ .f32 :=
  have v0 : FVec Ideal ⟨1, ![a]⟩ .f32 :=
    Host.reduce FloatOps.maximumf x (constant (F := Ideal) ⟨0, ![]⟩ .f32 0xFF800000#32) hr hu
  have v1 : FVec Ideal ⟨1, ![a]⟩ .f32 := broadcastInDim ⟨1, ![a]⟩ ![] hb0 (constant (F := Ideal) ⟨0, ![]⟩ .f32 0xFF800000#32)
  have v2 : FVec Ideal ⟨1, ![a]⟩ .f32 := maximumf v1 v0
  have v3 : FVec Ideal ⟨2, ![a, 1]⟩ .f32 := broadcastInDim ⟨2, ![a, 1]⟩ ![0] hb1 v2
  have v4 : FVec Ideal ⟨2, ![a, b]⟩ .f32 := broadcastInDim ⟨2, ![a, b]⟩ ![0, 1] hb2 v3
  have v5 : FVec Ideal ⟨2, ![a, b]⟩ .f32 := subf x v4
  have v6 : FVec Ideal ⟨2, ![a, b]⟩ .f32 := Host.exp v5
  have v7 : FVec Ideal ⟨1, ![a]⟩ .f32 := Host.reduceAdd v6 (constant (F := Ideal) ⟨0, ![]⟩ .f32 0x00000000#32) hr hu
  have v8 : FVec Ideal ⟨2, ![a, 1]⟩ .f32 := broadcastInDim ⟨2, ![a, 1]⟩ ![0] hb1 v7
  have v9 : FVec Ideal ⟨2, ![a, 1]⟩ .f32 := Host.log v8
  have v10 : FVec Ideal ⟨2, ![a, b]⟩ .f32 := broadcastInDim ⟨2, ![a, b]⟩ ![0, 1] hb2 v9
  subf v5 v10

/-- The host's exponential, read at an index. -/
theorem host_exp_apply {s : Shape} (v : FVec Ideal s .f32) (i : s.Idx) : Host.exp v i = Ideal.exp (v i) := rfl

/-- The host's logarithm, read at an index. -/
theorem host_log_apply {s : Shape} (v : FVec Ideal s .f32) (i : s.Idx) : Host.log v i = Ideal.log (v i) := rfl

/-- The host's row maximum from `-∞`, at row `r`: the fold of `max` from `⊥` over the row. -/
theorem host_max_apply (x : FVec Ideal ⟨2, ![a, b]⟩ .f32) (hr : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduce FloatOps.maximumf x (constant (F := Ideal) ⟨0, ![]⟩ .f32 0xFF800000#32) hr hu (ix1 r)
      = (Finset.univ : Finset (Fin b)).fold max ⊥ (fun c => x (ix2 r c)) := by
  refine (Host.reduce_eq_fold_single FloatOps.maximumf x _ hr h hu (ix1 r)).trans ?_
  rw [constant_apply, ← Ideal.ofBits_def, neg_inf_word]
  exact congrArg (fun f => (Finset.univ : Finset (Fin b)).fold max ⊥ f)
    (funext fun c => congrArg x (lift_row h r c))

/-- The host's row sum from zero, at row `r`: the sum over the row. -/
theorem host_sum_apply (x : FVec Ideal ⟨2, ![a, b]⟩ .f32) (hr : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduceAdd x (constant (F := Ideal) ⟨0, ![]⟩ .f32 0x00000000#32) hr hu (ix1 r) = ∑ c : Fin b, x (ix2 r c) := by
  refine (hostReduceAdd_apply x _ hr hu (ix1 r)).trans ?_
  refine (Ideal.hostReduceAdd_single hr h x _ (ix1 r)).trans ?_
  rw [constant_apply, Ideal.ofBits_zero_f32, zero_add]
  exact Finset.sum_congr rfl fun c _ => congrArg x (lift_row h r c)

/-- The host's chain at `(r, j)` is the log-softmax of row `r` at `j`. -/
theorem host_apply (hr : (⟨2, ![a, b]⟩ : Shape).ReducesTo [1] ⟨1, ![a]⟩)
    (h : (⟨2, ![a, b]⟩ : Shape).Reduces [1] ⟨1, ![a]⟩) (hu : 0 < (⟨0, ![]⟩ : Shape).numel)
    (hb0 : (⟨0, ![]⟩ : Shape).BroadcastsInDim ⟨1, ![a]⟩ ![])
    (hb1 : (⟨1, ![a]⟩ : Shape).BroadcastsInDim ⟨2, ![a, 1]⟩ ![0])
    (hb2 : (⟨2, ![a, 1]⟩ : Shape).BroadcastsInDim ⟨2, ![a, b]⟩ ![0, 1])
    (x : FVec Ideal ⟨2, ![a, b]⟩ .f32) (r : Fin a) (j : Fin b) :
    hostChain hr hu hb0 hb1 hb2 x (ix2 r j) = lsm (fun c : Fin b => x (ix2 r c)) j := by
  have hM : ∀ c : Fin b,
      broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) hr hu))) (ix2 r c)
      = (Finset.univ : Finset (Fin b)).fold max ⊥ (fun c => x (ix2 r c)) := fun c => by
    refine (broadcastInDim_a1_ab_apply _ _ r c).trans ?_
    refine (broadcastInDim_a_a1_apply _ _ r 0).trans ?_
    refine (maximumf_apply _ _ _).trans ?_
    rw [host_max_apply x hr h hu r]
    exact max_eq_right (by
      rw [Cert.Lib.Keepdims.broadcastInDim_scalar_apply, constant_apply, ← Ideal.ofBits_def, neg_inf_word]; exact bot_le)
  have hsh : ∀ c : Fin b,
      subf x (broadcastInDim ⟨2, ![a, b]⟩ ![0, 1] hb2 (broadcastInDim ⟨2, ![a, 1]⟩ ![0] hb1
        (maximumf (broadcastInDim ⟨1, ![a]⟩ ![] hb0 (constant (F := Ideal) ⟨0, ![]⟩ .f32 0xFF800000#32))
          (Host.reduce FloatOps.maximumf x (constant (F := Ideal) ⟨0, ![]⟩ .f32 0xFF800000#32) hr hu)))) (ix2 r c)
      = x (ix2 r c) - (Finset.univ : Finset (Fin b)).fold max ⊥ (fun c => x (ix2 r c)) := fun c =>
    (subf_apply _ _ _).trans (congrArg (fun z => x (ix2 r c) - z) (hM c))
  unfold hostChain lsm
  dsimp only
  refine (subf_apply _ _ _).trans (congrArg₂ (· - ·) (hsh j) ?_)
  refine (broadcastInDim_a1_ab_apply _ _ r j).trans ?_
  refine (host_log_apply _ _).trans (congrArg Ideal.log ?_)
  refine (broadcastInDim_a_a1_apply _ _ r 0).trans ?_
  refine (host_sum_apply _ hr h hu r).trans ?_
  exact Finset.sum_congr rfl fun c _ => (host_exp_apply _ _).trans (congrArg Ideal.exp (hsh c))

end Cert.Lib.LogSoftmaxRows

end
-- ==== Proof.SoftmaxBlock.lean ====
/-
  The third kernel's block, entry by entry, at the extended reals.

  The block is 32 rows of 32768 columns. The body first replaces every column `c ≥ 32001` by the fill constant, which
  the certificate's table reads as `⊥` (minus infinity); call the result the filled row. It then takes the row's
  largest entry `M` (a lane maximum from `-∞`), subtracts it, exponentiates, sums the row, takes the logarithm and
  subtracts that too. So entry `(r, j)` of what the body stores is the log-softmax, in the shifted form
  `(y j - M) - log (∑ c, exp (y c - M))`, of the filled row `y = fill 32001 (row r)`: `pay_apply`.
-/
import proofs.«141888_j3590592659519_2_alg».proof.Proof.Gen.KernelIdeal.Skeleton
import proofs.«141888_j3590592659519_2_alg».proof.Proof.LibLogSoftmaxPad
import proofs.«141888_j3590592659519_2_alg».proof.Proof.LibLogSoftmaxRows
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.SoftmaxBlock

open Idealize.ShloMosaic Idealize.ShloMosaic.ValueIdx Cert.Lib.LogSoftmaxPad
open Cert.KernelIdeal Cert.KernelIdeal.Gen

/-- The fill constant is `⊥` at the extended reals, by the certificate's table. -/
theorem neg_big : Named.named (F := Ideal) κ "neg_big" (φ := .f32) 0xF149F2CA#32 = (⊥ : EReal) :=
  IdealRules.named_const.ideal_named_scalar _ _ _ _ rfl

/-- A column number below 32768, as a 32-bit word read signed, is that number. -/
theorem col_toInt (c : Fin 32768) : (BitVec.ofNat 32 c.val).toInt = (c.val : ℤ) := by
  have hc := c.isLt
  have hn : (BitVec.ofNat 32 c.val).toNat = c.val := by
    rw [BitVec.toNat_ofNat]; exact Nat.mod_eq_of_lt (by omega)
  rw [BitVec.toInt_eq_toNat_of_lt (by rw [hn]; omega), hn]

/-- The block with the columns at or beyond 32001 replaced by the fill constant. -/
def masked (v0 : Vec Ideal S32x32768 .f32) : FVec Ideal S32x32768 .f32 :=
  select (cmpi .slt (iota .tc S32x32768 32 [1] iota_S32x32768_d1_w32) (broadcast S32x32768 32001#32))
    (shapeCast S32x32768 v0 shapeCasts_S32x32768_S32x32768) (broadcast S32x32768 (Named.named κ "neg_big" 0xF149F2CA#32))

/-- Entry `(r, c)` of the masked block is entry `c` of row `r` filled with `⊥` from column 32001 on. -/
theorem masked_apply (v0 : Vec Ideal S32x32768 .f32) (r : Fin 32) (c : Fin 32768) :
    masked v0 (ix2 r c) = fill 32001 (fun c : Fin 32768 => v0 (ix2 r c)) c := by
  unfold masked
  rw [select_apply, shapeCast_self, broadcast_apply, neg_big]
  show Scalar.select (IntOp.cmpi .slt (iota .tc S32x32768 32 [1] iota_S32x32768_d1_w32 (ix2 r c)) 32001#32) (v0 (ix2 r c)) ⊥ = _
  rw [iota_single_apply]
  show Scalar.select (IntOp.cmpi .slt (BitVec.ofNat 32 c.val) 32001#32) (v0 (ix2 r c)) ⊥ = _
  have h32001 : (32001#32 : BitVec 32).toInt = 32001 := by decide
  by_cases hc : c.val < 32001
  · have hbit : IntOp.cmpi .slt (BitVec.ofNat 32 c.val) 32001#32 = 1#1 :=
      IntOp.cmpi_slt.2 (by rw [col_toInt, h32001]; omega)
    rw [hbit, select_one, fill_of_lt _ _ hc]
  · have hbit : IntOp.cmpi .slt (BitVec.ofNat 32 c.val) 32001#32 = 0#1 :=
      eq_zero_of_ne_one fun h => hc (by
        have := IntOp.cmpi_slt.1 h
        rw [col_toInt, h32001] at this; omega)
    rw [hbit, select_zero, fill_of_not_lt _ _ hc]

/-- Entry `(r, j)` of what the body stores: the log-softmax of row `r` filled with `⊥` from column 32001 on (the
    body after the fill is the vector unit's log-softmax chain, `Cert.Lib.LogSoftmaxRows.lane_apply`). -/
theorem pay_apply (v0 : Vec Ideal S32x32768 .f32) (r : Fin 32) (j : Fin 32768) :
    k2_pay1 (F := Ideal) v0 (ix2 r j) = lsm (fill 32001 (fun c : Fin 32768 => v0 (ix2 r c))) j :=
  (Cert.Lib.LogSoftmaxRows.lane_apply (masked v0) reduces_S32x32768_S32 (.inl rfl) rfl rfl shapeCasts_S32_S32x1
      broadcasts_S32x1_S32x32768 r j).trans
    (congrArg (fun f => lsm f j) (funext fun c => masked_apply v0 r c))

/-- So at a real vocabulary column `k < 32001` the block's entry is the log-softmax of the row's 32001 real columns. -/
theorem pay_apply_real (v0 : Vec Ideal S32x32768 .f32) (r : Fin 32) (k : Fin 32001) :
    k2_pay1 (F := Ideal) v0 (ix2 r (Fin.castLE (by decide) k))
      = lsm (fun k : Fin 32001 => v0 (ix2 r (Fin.castLE (by decide) k))) k :=
  (pay_apply v0 r _).trans (lsm_fill (by decide) (fun c : Fin 32768 => v0 (ix2 r c)) k)

end Cert.KernelIdeal.SoftmaxBlock

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.MlpBlocks.lean ====
/-
  The first two kernels' blocks, entry by entry, at the extended reals.

  The first kernel takes a block of 512 hidden rows (1024 wide), the whole first weight matrix (1024 × 2048) and its
  bias, and stores `logistic (x · W + b)`; the second takes 1024 rows of that (2048 wide), a block of 1024 columns of
  the second weight matrix and of its bias, and stores `h · W' + b'`. Changes of float format are the identity on
  extended reals, and the matrix unit's product into an accumulator of zeros is the plain sum of products. So entry
  `(p, q)` of the first block is `logistic (∑ k, x (p, k) · W (k, q) + b q)` and of the second
  `∑ k, h (p, k) · W' (k, q) + b' q`.
-/
import proofs.«141888_j3590592659519_2_alg».proof.Proof.Gen.KernelIdeal.Skeleton
import proofs.«141888_j3590592659519_2_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MlpBlocks

open Idealize.ShloMosaic Idealize.ShloMosaic.ValueIdx Cert.Lib.MatmulPlain
open Cert.KernelIdeal Cert.KernelIdeal.Gen

/-- A logistic taken entry by entry, read at an index. -/
theorem logistic_apply {s : Shape} (v : FVec Ideal s .f32) (i : s.Idx) : logistic v i = Ideal.logistic (v i) := rfl

/-- A bias vector laid as a row and repeated over the rows reads, at `(p, q)`, the bias at `q`. -/
theorem bias_row_apply {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ _ p q).trans (shapeCast_a_1a_apply _ _ 0 q)

/-- Entry `(p, q)` of the first kernel's block: `logistic (∑ k, x (p, k) · W (k, q) + b q)`. -/
theorem pay0_apply (v0 : Vec Ideal S512x1024 .bf16) (v2 : Vec Ideal S1024x2048 .bf16) (v5 : Vec Ideal S2048 .f32)
    (p : Fin 512) (q : Fin 2048) :
    k0_pay1 (F := Ideal) v0 v2 v5 (ix2 p q)
      = Ideal.logistic ((∑ k : Fin 1024, v0 (ix2 p k) * v2 (ix2 k q)) + v5 (ix1 q)) := by
  unfold k0_pay1
  refine (truncf_apply (φ := .f32) (ψ := .bf16) _ bitsLt_bf16_f32 (ix2 p q)).trans ?_
  refine (logistic_apply _ _).trans (congrArg Ideal.logistic ?_)
  refine (addf_apply _ _ _).trans (congrArg₂ (· + ·) ?_ ?_)
  · rw [shapeCast_self, shapeCast_self]
    exact matmul_zero_apply (B := 512) (K := 1024) (M := 2048) dot_S512x1024_S1024x2048_S512x2048_1_0_0_1_n_n.wf
      (φ₁ := .bf16) (φ₂ := .bf16) none v0 v2 p q
  · exact bias_row_apply _ _ _ p q

/-- Entry `(p, q)` of the second kernel's block: `∑ k, h (p, k) · W' (k, q) + b' q`. -/
theorem pay1_apply (v3 : Vec Ideal S1024x2048 .bf16) (v5 : Vec Ideal S2048x1024 .bf16) (v8 : Vec Ideal S1024 .f32)
    (p : Fin 1024) (q : Fin 1024) :
    k1_pay1 (F := Ideal) v3 v5 v8 (ix2 p q) = (∑ k : Fin 2048, v3 (ix2 p k) * v5 (ix2 k q)) + v8 (ix1 q) := by
  unfold k1_pay1
  refine (addf_apply _ _ _).trans (congrArg₂ (· + ·) ?_ ?_)
  · rw [shapeCast_self, shapeCast_self]
    exact matmul_zero_apply (B := 1024) (K := 2048) (M := 1024) dot_S1024x2048_S2048x1024_S1024x1024_1_0_0_1_n_n.wf
      (φ₁ := .bf16) (φ₂ := .bf16) none v3 v5 p q
  · rw [shapeCast_self]
    exact bias_row_apply _ _ _ p q

end Cert.KernelIdeal.MlpBlocks

end
-- ==== Proof.Body0.lean ====
/-
  The first kernel's body as a triple, at any float instance.

  The body loads a block of 512 hidden rows, the whole first weight matrix and its bias, computes
  `logistic (x · W + b)` (the payload `k0_pay1`) and stores it over the whole 512 × 2048 output block. Given the three
  input buffers at contents `x0`, `x1`, `x2` and the output buffer at anything, it runs without a fault to a state
  where the inputs are unchanged and the output buffer holds `out x0 x1 x2`.
-/
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S2048 := Rect.unit (s := S2048) ![0] S2048.size inb_S2048_S2048_0
abbrev rO : Rect S512x2048 := Rect.unit (s := S512x2048) ![0, 0] S512x2048.size inb_S512x2048_S512x2048_0_0

/-- What the output buffer holds after the body: the payload of the loaded blocks, stored over the whole buffer. -/
def out (x0 : Vec F S512x1024 .bf16) (x1 : Vec F S1024x2048 .bf16) (x2 : Vec F S2048 .f32) : Vec F S512x2048 .bf16 :=
  View.canon [⟨rO, k0_pay1 (View.ld x0 rX) (View.ld x1 rW) (View.ld x2 rB)⟩]

/-- The one store covers the buffer. -/
theorem cover (p0 : Vec F S512x2048 .bf16) (y : S512x2048.Idx) :
    ∃ pc ∈ ([⟨rO, p0⟩] : List (View.Piece (Elt F) S512x2048 .bf16)), y ∈ pc.1.set :=
  View.cover_of_tiled [⟨rO, p0⟩] S512x2048.size (by rfl) y

set_option maxHeartbeats 1000000 in
/-- The body's triple. -/
theorem sound_kernel (c : Dev nD) (E : Set ℕ) (i : grid0.Coords)
    (arg1 : Memref sig .tc .vmem S512x1024 .bf16) (harg1 : arg1.IsWhole)
    (arg2 : Memref sig .tc .vmem S1024x2048 .bf16) (harg2 : arg2.IsWhole)
    (arg3 : Memref sig .tc .vmem S2048 .f32) (harg3 : arg3.IsWhole)
    (arg4 : Memref sig .tc .vmem S512x2048 .bf16) (harg4 : arg4.IsWhole)
    (x0 : Vec F S512x1024 .bf16) (x1 : Vec F S1024x2048 .bf16) (x2 : Vec F S2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out x0 x1 x2)) -∗ K ⟨⟩))
      ⊢ wp frame (wpE (defs₀ (F := F)) Variants.none c none) E
          (cc0__value_mlp1_kernel i arg1 harg1 arg2 harg2 arg3 harg3 arg4 harg4) K := by
  simp only [cc0__value_mlp1_kernel_eq_skeleton]; unfold cc0__value_mlp1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.KernelIdeal.Body0

end
-- ==== Proof.Region0.lean ====
/-
  The first pipeline's proof data at the contents `V` its region is entered with.

  Window 0 walks the padded hidden rows 512 at a time; windows 1 and 2 hold the whole first weight matrix and its bias
  at every point; window 3 is the output, 512 rows of the layer-1 activation per point. At point `t` each input's
  staging buffer holds its block and the body leaves in the output's buffer `logistic (x · W + b)` of them. This module
  states that as the library's proof data and discharges the body obligation from the body's triple.
-/
import proofs.«141888_j3590592659519_2_alg».proof.Proof.Body0
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => Cert.KernelIdeal.Body0.out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = Cert.KernelIdeal.Body0.out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Cert.KernelIdeal.Body0.sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end

end Cert.KernelIdeal.Region0

end
-- ==== Proof.Body1.lean ====
/-
  The second kernel's body as a triple, at any float instance.

  The whole layer-1 activation (4096 × 2048) sits in one buffer; at grid point `i` the body loads from it the tile of
  1024 rows starting at row `1024 · i₁` (the rectangle at offset `k1_off1 i`), loads a block of 1024 columns of the
  second weight matrix and of its bias, computes `h · W' + b'` (the payload `k1_pay1`) and stores it over the whole
  1024 × 1024 output block. Given the three input buffers at contents `x0`, `x1`, `x2` and the output buffer at
  anything, it runs without a fault to a state where the inputs are unchanged and the output buffer holds
  `out i x0 x1 x2`.
-/
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tile of 1024 rows of the resident activation that point `i` reads. -/
abbrev rH (i : grid1.Coords) : Rect S4096x2048 := Rect.unit (s := S4096x2048) (k1_off1 i) S1024x2048.size (k1_off1_inb i)
abbrev rW : Rect S2048x1024 := Rect.unit (s := S2048x1024) ![0, 0] S2048x1024.size inb_S2048x1024_S2048x1024_0_0
abbrev rB : Rect S1024 := Rect.unit (s := S1024) ![0] S1024.size inb_S1024_S1024_0
abbrev rO : Rect S1024x1024 := Rect.unit (s := S1024x1024) ![0, 0] S1024x1024.size inb_S1024x1024_S1024x1024_0_0

/-- What the output buffer holds after the body at point `i`. -/
def out (i : grid1.Coords) (x0 : Vec F S4096x2048 .bf16) (x1 : Vec F S2048x1024 .bf16) (x2 : Vec F S1024 .f32) :
    Vec F S1024x1024 .f32 :=
  View.canon [⟨rO, k1_pay1 (View.ld x0 (rH i)) (View.ld x1 rW) (View.ld x2 rB)⟩]

/-- The one store covers the buffer. -/
theorem cover (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body's triple. -/
theorem sound_kernel (c : Dev nD) (E : Set ℕ) (i : grid1.Coords)
    (arg2 : Memref sig .tc .vmem S4096x2048 .bf16) (harg2 : arg2.IsWhole)
    (arg3 : Memref sig .tc .vmem S2048x1024 .bf16) (harg3 : arg3.IsWhole)
    (arg4 : Memref sig .tc .vmem S1024 .f32) (harg4 : arg4.IsWhole)
    (arg5 : Memref sig .tc .vmem S1024x1024 .f32) (harg5 : arg5.IsWhole)
    (x0 : Vec F S4096x2048 .bf16) (x1 : Vec F S2048x1024 .bf16) (x2 : Vec F S1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out i x0 x1 x2)) -∗ K ⟨⟩))
      ⊢ wp frame (wpE (defs₀ (F := F)) Variants.none c none) E
          (cc1__value_mlp2_kernel i arg2 harg2 arg3 harg3 arg4 harg4 arg5 harg5) K := by
  simp only [cc1__value_mlp2_kernel_eq_skeleton]; unfold cc1__value_mlp2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.KernelIdeal.Body1

end
-- ==== Proof.Region1.lean ====
/-
  The second pipeline's proof data at the contents `V` its region is entered with.

  Window 0 holds the whole layer-1 activation at every point; windows 1 and 2 walk the padded second weight matrix and
  its bias 1024 vocabulary columns at a time (the outer grid axis); window 3 is the output, the 1024 × 1024 tile of
  logits at (row tile, column tile) = (inner, outer) grid coordinate. At point `t` each input's staging buffer holds its
  block and the body leaves in the output's buffer `h · W' + b'` for the point's row tile of `h`. This module states that
  as the library's proof data and discharges the body obligation from the body's triple.
-/
import proofs.«141888_j3590592659519_2_alg».proof.Proof.Body1
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => Cert.KernelIdeal.Body1.out (grid1.coords t) (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = Cert.KernelIdeal.Body1.out (grid1.coords t) (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Cert.KernelIdeal.Body1.sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end

end Cert.KernelIdeal.Region1

end
-- ==== Proof.Body2.lean ====
/-
  The third kernel's body as a triple, at any float instance.

  The body loads its whole 32 × 32768 input block, computes the filled row-wise log-softmax (the payload `k2_pay1`),
  and stores it over the whole output block. So: given the input buffer at contents `x0` and the output buffer at
  anything, it runs without a fault to a state where the input buffer is unchanged and the output buffer holds
  `out x0`, the payload of the loaded block.
-/
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The one rectangle the body loads and stores through: the whole 32 × 32768 block. -/
abbrev rAll : Rect S32x32768 := Rect.unit (s := S32x32768) ![0, 0] S32x32768.size inb_S32x32768_S32x32768_0_0

/-- What the output buffer holds after the body: the payload of the loaded block, stored over the whole buffer. -/
def out (x0 : Vec F S32x32768 .f32) : Vec F S32x32768 .f32 :=
  View.canon [⟨rAll, k2_pay1 (View.ld x0 rAll)⟩]

/-- The one store covers the buffer. -/
theorem cover (p0 : Vec F S32x32768 .f32) (y : S32x32768.Idx) :
    ∃ pc ∈ ([⟨rAll, p0⟩] : List (View.Piece (Elt F) S32x32768 .f32)), y ∈ pc.1.set :=
  View.cover_of_tiled [⟨rAll, p0⟩] S32x32768.size (by rfl) y

set_option maxHeartbeats 1000000 in
/-- The body's triple. -/
theorem sound_kernel (c : Dev nD) (E : Set ℕ) (i : grid2.Coords)
    (arg1 : Memref sig .tc .vmem S32x32768 .f32) (harg1 : arg1.IsWhole)
    (arg2 : Memref sig .tc .vmem S32x32768 .f32) (harg2 : arg2.IsWhole)
    (x0 : Vec F S32x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc2__log_softmax_kernel i arg1 harg1 arg2 harg2) K := by
  simp only [cc2__log_softmax_kernel_eq_skeleton]; unfold cc2__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

end Cert.KernelIdeal.Body2

end
-- ==== Proof.Region2.lean ====
/-
  The third pipeline's proof data at the contents `V` its region is entered with.

  Its one input window walks the padded logits 32 rows at a time; at point `t` the input's staging buffer holds rows
  `32 t … 32 t + 31` of that array and the body leaves in the output's buffer the filled row-wise log-softmax of
  them. This module states that as the library's proof data and discharges the body obligation from the body's triple.
-/
import proofs.«141888_j3590592659519_2_alg».proof.Proof.Body2
import proofs.«141888_j3590592659519_2_alg».proof.Proof.Gen.KernelIdeal.Launch
import proofs.«141888_j3590592659519_2_alg».proof.Proof.Gen.KernelIdeal.Skeleton
import proofs.«141888_j3590592659519_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => Cert.KernelIdeal.Body2.out (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = Cert.KernelIdeal.Body2.out (iblk V c 0 t) := by dsimp only [dat]

theorem before_0 (c : Dev nD) (t : Fin cfg2.N) (d) : (dat V c).before 0 t d = iblk V c 0 t :=
  before_0_of V (dat V c) (A_eq V c 0) (after_0 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t))

/-- The body at any point: the inputs' buffers hold their blocks, so the body's triple applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (Cert.KernelIdeal.Body2.sound_kernel c Set.univ (grid2.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W2, bigSep_W2]
  exact sound_body V c t

end

end Cert.KernelIdeal.Region2

end
-- ==== Proof.RunStates.lean ====
/-
  The buffer contents at every boundary of @main, a fold from the launch memory.

  @main is eight stretches of host operations (the tree's hidden rows level by level, their stacking and pre-order
  gather, the padding and the format changes), the three pipelines back to back, and one closing slice. `W0` is the
  launch memory; each host stretch maps the contents before it to `StableHlo.after` of its operations; each pipeline
  replaces its arrays by what its write-backs leave (`Dat.arrAt … N`) and leaves every other buffer alone. `W8` is what
  the first pipeline is entered with, `W9` and `W10` the second and third, `W12` what @main returns with.
-/
import proofs.«141888_j3590592659519_2_alg».proof.Proof.Region0
import proofs.«141888_j3590592659519_2_alg».proof.Proof.Region1
import proofs.«141888_j3590592659519_2_alg».proof.Proof.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)

/-- The contents region 0 is entered with, read at the TensorCore's references. -/
abbrev V8 : (c : Dev nD) → (b : Ref sig .tc) → Buf (Elt F) ((c : Thread nD τ).loc b) := fun c b => W8 m ρ c b
/-- At region 0's exit: its arrays at what the pipeline leaves (the inputs as entered, the output's write-backs folded),
    every other buffer as entered. -/
def W9 (c : Dev nD) : Valuation τ sig (Elt F) :=
  Pipeline.withArrays spec0 c (W8 m ρ c) fun w => (Region0.dat (V8 m ρ) c).arrAt w cfg0.N
theorem W9_arr (c : Dev nD) (w : Fin cfg0.W) :
    W9 m ρ c (Proc.devRef .tc (Pipeline.arrRef spec0 w)) = (Region0.dat (V8 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
/-- The same read at the TensorCore's references (region 0's exit contents). -/
abbrev V9 : (c : Dev nD) → (b : Ref sig .tc) → Buf (Elt F) ((c : Thread nD τ).loc b) := fun c b => W9 m ρ c b
theorem hF0 (c : Dev nD) (w : Fin cfg0.W) : (Region0.dat (V8 m ρ) c).arrAt w cfg0.N = V9 m ρ c (Pipeline.arrRef spec0 w) :=
  (W9_arr m ρ c w).symm
theorem hrest0 (c : Dev nD) : ∀ b, b ∉ Finset.univ.image (Pipeline.arrRef spec0) → V9 m ρ c b = V8 m ρ c b :=
  fun b hb => W9_of_ne m ρ c b fun w e => hb (Finset.mem_image.mpr ⟨w, Finset.mem_univ _, e⟩)

/-- At region 1's exit: its arrays at what the pipeline leaves (the inputs as entered, the output's write-backs folded),
    every other buffer as entered. -/
def W10 (c : Dev nD) : Valuation τ sig (Elt F) :=
  Pipeline.withArrays spec1 c (W9 m ρ c) fun w => (Region1.dat (V9 m ρ) c).arrAt w cfg1.N
theorem W10_arr (c : Dev nD) (w : Fin cfg1.W) :
    W10 m ρ c (Proc.devRef .tc (Pipeline.arrRef spec1 w)) = (Region1.dat (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- The same read at the TensorCore's references (region 1's exit contents). -/
abbrev V10 : (c : Dev nD) → (b : Ref sig .tc) → Buf (Elt F) ((c : Thread nD τ).loc b) := fun c b => W10 m ρ c b
theorem hF1 (c : Dev nD) (w : Fin cfg1.W) : (Region1.dat (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- At region 2's exit: its arrays at what the pipeline leaves (the inputs as entered, the output's write-backs folded),
    every other buffer as entered. -/
def W11 (c : Dev nD) : Valuation τ sig (Elt F) :=
  Pipeline.withArrays spec2 c (W10 m ρ c) fun w => (Region2.dat (V10 m ρ) c).arrAt w cfg2.N
theorem W11_arr (c : Dev nD) (w : Fin cfg2.W) :
    W11 m ρ c (Proc.devRef .tc (Pipeline.arrRef spec2 w)) = (Region2.dat (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- The same read at the TensorCore's references (region 2's exit contents). -/
abbrev V11 : (c : Dev nD) → (b : Ref sig .tc) → Buf (Elt F) ((c : Thread nD τ).loc b) := fun c b => W11 m ρ c b
theorem hF2 (c : Dev nD) (w : Fin cfg2.W) : (Region2.dat (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

/-- After the closing host stretch `hostOps3` (the slice to 4095 × 32001): the contents @main returns with. -/
abbrev W12 : Dev nD → Valuation τ sig (Elt F) := fun c => StableHlo.after hostOps3 (W11 m ρ c)

end Cert.KernelIdeal.Run

end
-- ==== Proof.RunMain.lean ====
/-
  The run of @main: every weakly fair execution terminates, nothing faults, and every unscoped buffer of the TensorCore
  ends at the last boundary's contents `W12`.

  @main is spelt as its twelve segments — a host segment per stretch of host operations, each from its boundary's
  contents, and a region per pipeline carrying that pipeline's proof data and body obligation — over the thread state
  "every unscoped buffer at the boundary's contents, the generator register at some state, nothing owed", and the
  library's launch theorem for a list of segments composes them.
-/
import proofs.«141888_j3590592659519_2_alg».proof.Proof.RunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (V8 m ρ) c
  | ⟨1, _⟩ => fun c => Region1.dat (V9 m ρ) c
  | ⟨2, _⟩ => fun c => Region2.dat (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without the `owes`: every unscoped buffer at `W12`, the generator register at some state. -/
abbrev Tₙ (c : Dev nD) : sProp 𝕄 := iprop(StableHlo.held (c : Thread nD τ) (Pipeline.ucRefs τ sig) (W12 m ρ c) ∗ ∃ r, prngReg c r)

set_option backward.isDefEq.respectTransparency.types false in
/-- Region 0 over the thread state: entered from every unscoped buffer at `W8`, left at `W9`. Its arrays are split
    out of the unscoped buffers and put back at the exit contents; the generator register goes into the class-A
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V8 m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8 m ρ c) (V9 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at `W10`. Its arrays are split
    out of the unscoped buffers and put back at the exit contents; the generator register goes into the class-A
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. Its arrays are split
    out of the unscoped buffers and put back at the exit contents; the generator register goes into the class-A
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .region (reg1 m ρ),
    .region (reg2 m ρ),
    .host (hseg hostOps3 hostOps3_sub hostOps3_fresh (W11 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer of the TensorCore holds `W12`'s contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Run

end
-- ==== Proof.RunArgsA.lean ====
/-
  Argument arrays 0, 1 and 2 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.RunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := (W9_arr m ρ c 2).trans (((Region0.dat (V8 m ρ) c).arrAt_in 2 rfl _).trans (Region0.A_eq (V8 m ρ) c 2))
    _ = W7 m ρ c (Proc.devRef .tc main_arg2) := StableHlo.after_of_forall_not_mem (b := Proc.devRef .tc main_arg2) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

end Cert.KernelIdeal.Run

end
-- ==== Proof.RunArgsB.lean ====
/-
  Argument arrays 3, 4 and 5 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.RunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

end Cert.KernelIdeal.Run

end
-- ==== Proof.RunArgsC.lean ====
/-
  Argument arrays 6, 7 and 8 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.RunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

end Cert.KernelIdeal.Run

end
-- ==== Proof.WordBody0.lean ====
/-
  (The word-level program's copy: the same text over the program read at machine words.)
  The first kernel's body as a triple, at any float instance.

  The body loads a block of 512 hidden rows, the whole first weight matrix and its bias, computes
  `logistic (x · W + b)` (the payload `k0_pay1`) and stores it over the whole 512 × 2048 output block. Given the three
  input buffers at contents `x0`, `x1`, `x2` and the output buffer at anything, it runs without a fault to a state
  where the inputs are unchanged and the output buffer holds `out x0 x1 x2`.
-/
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S512x1024 := Rect.unit (s := S512x1024) ![0, 0] S512x1024.size inb_S512x1024_S512x1024_0_0
abbrev rW : Rect S1024x2048 := Rect.unit (s := S1024x2048) ![0, 0] S1024x2048.size inb_S1024x2048_S1024x2048_0_0
abbrev rB : Rect S2048 := Rect.unit (s := S2048) ![0] S2048.size inb_S2048_S2048_0
abbrev rO : Rect S512x2048 := Rect.unit (s := S512x2048) ![0, 0] S512x2048.size inb_S512x2048_S512x2048_0_0

/-- What the output buffer holds after the body: the payload of the loaded blocks, stored over the whole buffer. -/
def out (x0 : Vec F S512x1024 .bf16) (x1 : Vec F S1024x2048 .bf16) (x2 : Vec F S2048 .f32) : Vec F S512x2048 .bf16 :=
  View.canon [⟨rO, k0_pay1 (View.ld x0 rX) (View.ld x1 rW) (View.ld x2 rB)⟩]

/-- The one store covers the buffer. -/
theorem cover (p0 : Vec F S512x2048 .bf16) (y : S512x2048.Idx) :
    ∃ pc ∈ ([⟨rO, p0⟩] : List (View.Piece (Elt F) S512x2048 .bf16)), y ∈ pc.1.set :=
  View.cover_of_tiled [⟨rO, p0⟩] S512x2048.size (by rfl) y

set_option maxHeartbeats 1000000 in
/-- The body's triple. -/
theorem sound_kernel (c : Dev nD) (E : Set ℕ) (i : grid0.Coords)
    (arg1 : Memref sig .tc .vmem S512x1024 .bf16) (harg1 : arg1.IsWhole)
    (arg2 : Memref sig .tc .vmem S1024x2048 .bf16) (harg2 : arg2.IsWhole)
    (arg3 : Memref sig .tc .vmem S2048 .f32) (harg3 : arg3.IsWhole)
    (arg4 : Memref sig .tc .vmem S512x2048 .bf16) (harg4 : arg4.IsWhole)
    (x0 : Vec F S512x1024 .bf16) (x1 : Vec F S1024x2048 .bf16) (x2 : Vec F S2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out x0 x1 x2)) -∗ K ⟨⟩))
      ⊢ wp frame (wpE (defs₀ (F := F)) Variants.none c none) E
          (cc0__value_mlp1_kernel i arg1 harg1 arg2 harg2 arg3 harg3 arg4 harg4) K := by
  simp only [cc0__value_mlp1_kernel_eq_skeleton]; unfold cc0__value_mlp1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.Kernel.Body0

end
-- ==== Proof.WordRegion0.lean ====
/-
  (The word-level program's copy: the same text over the program read at machine words.)
  The first pipeline's proof data at the contents `V` its region is entered with.

  Window 0 walks the padded hidden rows 512 at a time; windows 1 and 2 hold the whole first weight matrix and its bias
  at every point; window 3 is the output, 512 rows of the layer-1 activation per point. At point `t` each input's
  staging buffer holds its block and the body leaves in the output's buffer `logistic (x · W + b)` of them. This module
  states that as the library's proof data and discharges the body obligation from the body's triple.
-/
import proofs.«141888_j3590592659519_2_alg».proof.Proof.WordBody0
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => Cert.Kernel.Body0.out (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = Cert.Kernel.Body0.out (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so the body's triple applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Cert.Kernel.Body0.sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end

end Cert.Kernel.Region0

end
-- ==== Proof.WordBody1.lean ====
/-
  (The word-level program's copy: the same text over the program read at machine words.)
  The second kernel's body as a triple, at any float instance.

  The whole layer-1 activation (4096 × 2048) sits in one buffer; at grid point `i` the body loads from it the tile of
  1024 rows starting at row `1024 · i₁` (the rectangle at offset `k1_off1 i`), loads a block of 1024 columns of the
  second weight matrix and of its bias, computes `h · W' + b'` (the payload `k1_pay1`) and stores it over the whole
  1024 × 1024 output block. Given the three input buffers at contents `x0`, `x1`, `x2` and the output buffer at
  anything, it runs without a fault to a state where the inputs are unchanged and the output buffer holds
  `out i x0 x1 x2`.
-/
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile of 1024 rows of the resident activation that point `i` reads. -/
abbrev rH (i : grid1.Coords) : Rect S4096x2048 := Rect.unit (s := S4096x2048) (k1_off1 i) S1024x2048.size (k1_off1_inb i)
abbrev rW : Rect S2048x1024 := Rect.unit (s := S2048x1024) ![0, 0] S2048x1024.size inb_S2048x1024_S2048x1024_0_0
abbrev rB : Rect S1024 := Rect.unit (s := S1024) ![0] S1024.size inb_S1024_S1024_0
abbrev rO : Rect S1024x1024 := Rect.unit (s := S1024x1024) ![0, 0] S1024x1024.size inb_S1024x1024_S1024x1024_0_0

/-- What the output buffer holds after the body at point `i`. -/
def out (i : grid1.Coords) (x0 : Vec F S4096x2048 .bf16) (x1 : Vec F S2048x1024 .bf16) (x2 : Vec F S1024 .f32) :
    Vec F S1024x1024 .f32 :=
  View.canon [⟨rO, k1_pay1 (View.ld x0 (rH i)) (View.ld x1 rW) (View.ld x2 rB)⟩]

/-- The one store covers the buffer. -/
theorem cover (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body's triple. -/
theorem sound_kernel (c : Dev nD) (E : Set ℕ) (i : grid1.Coords)
    (arg2 : Memref sig .tc .vmem S4096x2048 .bf16) (harg2 : arg2.IsWhole)
    (arg3 : Memref sig .tc .vmem S2048x1024 .bf16) (harg3 : arg3.IsWhole)
    (arg4 : Memref sig .tc .vmem S1024 .f32) (harg4 : arg4.IsWhole)
    (arg5 : Memref sig .tc .vmem S1024x1024 .f32) (harg5 : arg5.IsWhole)
    (x0 : Vec F S4096x2048 .bf16) (x1 : Vec F S2048x1024 .bf16) (x2 : Vec F S1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out i x0 x1 x2)) -∗ K ⟨⟩))
      ⊢ wp frame (wpE (defs₀ (F := F)) Variants.none c none) E
          (cc1__value_mlp2_kernel i arg2 harg2 arg3 harg3 arg4 harg4 arg5 harg5) K := by
  simp only [cc1__value_mlp2_kernel_eq_skeleton]; unfold cc1__value_mlp2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.Kernel.Body1

end
-- ==== Proof.WordRegion1.lean ====
/-
  (The word-level program's copy: the same text over the program read at machine words.)
  The second pipeline's proof data at the contents `V` its region is entered with.

  Window 0 holds the whole layer-1 activation at every point; windows 1 and 2 walk the padded second weight matrix and
  its bias 1024 vocabulary columns at a time (the outer grid axis); window 3 is the output, the 1024 × 1024 tile of
  logits at (row tile, column tile) = (inner, outer) grid coordinate. At point `t` each input's staging buffer holds its
  block and the body leaves in the output's buffer `h · W' + b'` for the point's row tile of `h`. This module states that
  as the library's proof data and discharges the body obligation from the body's triple.
-/
import proofs.«141888_j3590592659519_2_alg».proof.Proof.WordBody1
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => Cert.Kernel.Body1.out (grid1.coords t) (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = Cert.Kernel.Body1.out (grid1.coords t) (iblk V c 0 t) (iblk V c 1 t) (iblk V c 2 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the
    core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (Cert.Kernel.Body1.sound_kernel c Set.univ (grid1.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end

end Cert.Kernel.Region1

end
-- ==== Proof.WordBody2.lean ====
/-
  (The word-level program's copy: the same text over the program read at machine words.)
  The third kernel's body as a triple, at any float instance.

  The body loads its whole 32 × 32768 input block, computes the filled row-wise log-softmax (the payload `k2_pay1`),
  and stores it over the whole output block. So: given the input buffer at contents `x0` and the output buffer at
  anything, it runs without a fault to a state where the input buffer is unchanged and the output buffer holds
  `out x0`, the payload of the loaded block.
-/
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body loads and stores through: the whole 32 × 32768 block. -/
abbrev rAll : Rect S32x32768 := Rect.unit (s := S32x32768) ![0, 0] S32x32768.size inb_S32x32768_S32x32768_0_0

/-- What the output buffer holds after the body: the payload of the loaded block, stored over the whole buffer. -/
def out (x0 : Vec F S32x32768 .f32) : Vec F S32x32768 .f32 :=
  View.canon [⟨rAll, k2_pay1 (View.ld x0 rAll)⟩]

/-- The one store covers the buffer. -/
theorem cover (p0 : Vec F S32x32768 .f32) (y : S32x32768.Idx) :
    ∃ pc ∈ ([⟨rAll, p0⟩] : List (View.Piece (Elt F) S32x32768 .f32)), y ∈ pc.1.set :=
  View.cover_of_tiled [⟨rAll, p0⟩] S32x32768.size (by rfl) y

set_option maxHeartbeats 1000000 in
/-- The body's triple. -/
theorem sound_kernel (c : Dev nD) (E : Set ℕ) (i : grid2.Coords)
    (arg1 : Memref sig .tc .vmem S32x32768 .f32) (harg1 : arg1.IsWhole)
    (arg2 : Memref sig .tc .vmem S32x32768 .f32) (harg2 : arg2.IsWhole)
    (x0 : Vec F S32x32768 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc2__log_softmax_kernel i arg1 harg1 arg2 harg2) K := by
  simp only [cc2__log_softmax_kernel_eq_skeleton]; unfold cc2__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

end Cert.Kernel.Body2

end
-- ==== Proof.WordRegion2.lean ====
/-
  (The word-level program's copy: the same text over the program read at machine words.)
  The third pipeline's proof data at the contents `V` its region is entered with.

  Its one input window walks the padded logits 32 rows at a time; at point `t` the input's staging buffer holds rows
  `32 t … 32 t + 31` of that array and the body leaves in the output's buffer the filled row-wise log-softmax of
  them. This module states that as the library's proof data and discharges the body obligation from the body's triple.
-/
import proofs.«141888_j3590592659519_2_alg».proof.Proof.WordBody2
import proofs.«141888_j3590592659519_2_alg».proof.Proof.Gen.Kernel.Launch
import proofs.«141888_j3590592659519_2_alg».proof.Proof.Gen.Kernel.Skeleton
import proofs.«141888_j3590592659519_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of this pipeline on core `c`: the arrays as the region finds them; after the body at point `t` each
    input's buffer at its block and the output's at the body's result on the input blocks; the class-A invariant;
    nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => Cert.Kernel.Body2.out (iblk V c 0 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = Cert.Kernel.Body2.out (iblk V c 0 t) := by dsimp only [dat]

theorem before_0 (c : Dev nD) (t : Fin cfg2.N) (d) : (dat V c).before 0 t d = iblk V c 0 t :=
  before_0_of V (dat V c) (A_eq V c 0) (after_0 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t))

/-- The body at any point: the inputs' buffers hold their blocks, so the body's triple applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (Cert.Kernel.Body2.sound_kernel c Set.univ (grid2.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W2, bigSep_W2]
  exact sound_body V c t

end

end Cert.Kernel.Region2

end
-- ==== Proof.WordRunStates.lean ====
/-
  (The word-level program's copy: the same text over the program read at machine words.)
  The buffer contents at every boundary of @main, a fold from the launch memory.

  @main is eight stretches of host operations (the tree's hidden rows level by level, their stacking and pre-order
  gather, the padding and the format changes), the three pipelines back to back, and one closing slice. `W0` is the
  launch memory; each host stretch maps the contents before it to `StableHlo.after` of its operations; each pipeline
  replaces its arrays by what its write-backs leave (`Dat.arrAt … N`) and leaves every other buffer alone. `W8` is what
  the first pipeline is entered with, `W9` and `W10` the second and third, `W12` what @main returns with.
-/
import proofs.«141888_j3590592659519_2_alg».proof.Proof.WordRegion0
import proofs.«141888_j3590592659519_2_alg».proof.Proof.WordRegion1
import proofs.«141888_j3590592659519_2_alg».proof.Proof.WordRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
/-- After the host stretch `hostOps0_5`. -/
abbrev W6 : Dev nD → Valuation τ sig (Elt F) := fun c => StableHlo.after hostOps0_5 (W5 m ρ c)
/-- After the host stretch `hostOps0_6`. -/
abbrev W7 : Dev nD → Valuation τ sig (Elt F) := fun c => StableHlo.after hostOps0_6 (W6 m ρ c)
/-- After the host stretch `hostOps0_7`. -/
abbrev W8 : Dev nD → Valuation τ sig (Elt F) := fun c => StableHlo.after hostOps0_7 (W7 m ρ c)

/-- The contents region 0 is entered with, read at the TensorCore's references. -/
abbrev V8 : (c : Dev nD) → (b : Ref sig .tc) → Buf (Elt F) ((c : Thread nD τ).loc b) := fun c b => W8 m ρ c b
/-- At region 0's exit: its arrays at what the pipeline leaves (the inputs as entered, the output's write-backs folded),
    every other buffer as entered. -/
def W9 (c : Dev nD) : Valuation τ sig (Elt F) :=
  Pipeline.withArrays spec0 c (W8 m ρ c) fun w => (Region0.dat (V8 m ρ) c).arrAt w cfg0.N
theorem W9_arr (c : Dev nD) (w : Fin cfg0.W) :
    W9 m ρ c (Proc.devRef .tc (Pipeline.arrRef spec0 w)) = (Region0.dat (V8 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
/-- The same read at the TensorCore's references (region 0's exit contents). -/
abbrev V9 : (c : Dev nD) → (b : Ref sig .tc) → Buf (Elt F) ((c : Thread nD τ).loc b) := fun c b => W9 m ρ c b
theorem hF0 (c : Dev nD) (w : Fin cfg0.W) : (Region0.dat (V8 m ρ) c).arrAt w cfg0.N = V9 m ρ c (Pipeline.arrRef spec0 w) :=
  (W9_arr m ρ c w).symm
theorem hrest0 (c : Dev nD) : ∀ b, b ∉ Finset.univ.image (Pipeline.arrRef spec0) → V9 m ρ c b = V8 m ρ c b :=
  fun b hb => W9_of_ne m ρ c b fun w e => hb (Finset.mem_image.mpr ⟨w, Finset.mem_univ _, e⟩)

/-- At region 1's exit: its arrays at what the pipeline leaves (the inputs as entered, the output's write-backs folded),
    every other buffer as entered. -/
def W10 (c : Dev nD) : Valuation τ sig (Elt F) :=
  Pipeline.withArrays spec1 c (W9 m ρ c) fun w => (Region1.dat (V9 m ρ) c).arrAt w cfg1.N
theorem W10_arr (c : Dev nD) (w : Fin cfg1.W) :
    W10 m ρ c (Proc.devRef .tc (Pipeline.arrRef spec1 w)) = (Region1.dat (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- The same read at the TensorCore's references (region 1's exit contents). -/
abbrev V10 : (c : Dev nD) → (b : Ref sig .tc) → Buf (Elt F) ((c : Thread nD τ).loc b) := fun c b => W10 m ρ c b
theorem hF1 (c : Dev nD) (w : Fin cfg1.W) : (Region1.dat (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- At region 2's exit: its arrays at what the pipeline leaves (the inputs as entered, the output's write-backs folded),
    every other buffer as entered. -/
def W11 (c : Dev nD) : Valuation τ sig (Elt F) :=
  Pipeline.withArrays spec2 c (W10 m ρ c) fun w => (Region2.dat (V10 m ρ) c).arrAt w cfg2.N
theorem W11_arr (c : Dev nD) (w : Fin cfg2.W) :
    W11 m ρ c (Proc.devRef .tc (Pipeline.arrRef spec2 w)) = (Region2.dat (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
/-- The same read at the TensorCore's references (region 2's exit contents). -/
abbrev V11 : (c : Dev nD) → (b : Ref sig .tc) → Buf (Elt F) ((c : Thread nD τ).loc b) := fun c b => W11 m ρ c b
theorem hF2 (c : Dev nD) (w : Fin cfg2.W) : (Region2.dat (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

/-- After the closing host stretch `hostOps3` (the slice to 4095 × 32001): the contents @main returns with. -/
abbrev W12 : Dev nD → Valuation τ sig (Elt F) := fun c => StableHlo.after hostOps3 (W11 m ρ c)

end Cert.Kernel.Run

end
-- ==== Proof.WordRunMain.lean ====
/-
  (The word-level program's copy: the same text over the program read at machine words.)
  The run of @main: every weakly fair execution terminates, nothing faults, and every unscoped buffer of the TensorCore
  ends at the last boundary's contents `W12`.

  @main is spelt as its twelve segments — a host segment per stretch of host operations, each from its boundary's
  contents, and a region per pipeline carrying that pipeline's proof data and body obligation — over the thread state
  "every unscoped buffer at the boundary's contents, the generator register at some state, nothing owed", and the
  library's launch theorem for a list of segments composes them.
-/
import proofs.«141888_j3590592659519_2_alg».proof.Proof.WordRunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Region0.dat (V8 m ρ) c
  | ⟨1, _⟩ => fun c => Region1.dat (V9 m ρ) c
  | ⟨2, _⟩ => fun c => Region2.dat (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without the `owes`: every unscoped buffer at `W12`, the generator register at some state. -/
abbrev Tₙ (c : Dev nD) : sProp 𝕄 := iprop(StableHlo.held (c : Thread nD τ) (Pipeline.ucRefs τ sig) (W12 m ρ c) ∗ ∃ r, prngReg c r)

set_option backward.isDefEq.respectTransparency.types false in
/-- Region 0 over the thread state: entered from every unscoped buffer at `W8`, left at `W9`. Its arrays are split
    out of the unscoped buffers and put back at the exit contents; the generator register goes into the class-A
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V8 m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8 m ρ c) (V9 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W9`, left at `W10`. Its arrays are split
    out of the unscoped buffers and put back at the exit contents; the generator register goes into the class-A
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. Its arrays are split
    out of the unscoped buffers and put back at the exit contents; the generator register goes into the class-A
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Region2.body_obligation (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's twelve segments in order. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .region (reg1 m ρ),
    .region (reg2 m ρ),
    .host (hseg hostOps3 hostOps3_sub hostOps3_fresh (W11 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer of the TensorCore holds `W12`'s contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Run

end
-- ==== Proof.WordRunArgsA.lean ====
/-
  (The word-level program's copy: the same text over the program read at machine words.)
  Argument arrays 0, 1 and 2 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.WordRunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := (W9_arr m ρ c 2).trans (((Region0.dat (V8 m ρ) c).arrAt_in 2 rfl _).trans (Region0.A_eq (V8 m ρ) c 2))
    _ = W7 m ρ c (Proc.devRef .tc main_arg2) := StableHlo.after_of_forall_not_mem (b := Proc.devRef .tc main_arg2) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

end Cert.Kernel.Run

end
-- ==== Proof.WordRunArgsB.lean ====
/-
  (The word-level program's copy: the same text over the program read at machine words.)
  Argument arrays 3, 4 and 5 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.WordRunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := StableHlo.after_of_forall_not_mem (b := Proc.devRef .tc main_arg3) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg3) := StableHlo.after_of_forall_not_mem (b := Proc.devRef .tc main_arg3) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := StableHlo.after_of_forall_not_mem (b := Proc.devRef .tc main_arg3) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := W9_of_ne m ρ c main_arg4 (by decide)
    _ = W7 m ρ c (Proc.devRef .tc main_arg4) := StableHlo.after_of_forall_not_mem (b := Proc.devRef .tc main_arg4) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := StableHlo.after_of_forall_not_mem (b := Proc.devRef .tc main_arg5) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := StableHlo.after_of_forall_not_mem (b := Proc.devRef .tc main_arg5) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

end Cert.Kernel.Run

end
-- ==== Proof.WordRunArgsC.lean ====
/-
  (The word-level program's copy: the same text over the program read at machine words.)
  Argument arrays 6, 7 and 8 end as launched: no host operation writes an argument and no pipeline has one as an output
  (the first pipeline reads the third argument, the layer-1 bias, through an input window, which gives it back as it
  was), so the fold of the boundary contents at an argument's buffer walks back to the launch memory.
-/
import proofs.«141888_j3590592659519_2_alg».proof.Proof.WordRunStates
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg6) := StableHlo.after_of_forall_not_mem (b := Proc.devRef .tc main_arg6) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg7) := StableHlo.after_of_forall_not_mem (b := Proc.devRef .tc main_arg7) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg7) := StableHlo.after_of_forall_not_mem (b := Proc.devRef .tc main_arg7) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg7) := StableHlo.after_of_forall_not_mem (b := Proc.devRef .tc main_arg7) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg8) := StableHlo.after_of_forall_not_mem (b := Proc.devRef .tc main_arg8) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

end Cert.Kernel.Run

end
-- ==== Proof.RefOps.lean ====
/- Table written by: python3 scratch/gen_refops.py proof/ReferenceIdeal.lean 141888_j3590592659519_2_alg  — the reference's host operations in
   order, one list per printed window of @main (the outlined log_softmax's sixteen lines at its call), copied from the
   printed program; with each list, that every operation names TensorCore buffers only. 400 operations. -/
import proofs.«141888_j3590592659519_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The 60 operations of window 0 of @main, in order. -/
abbrev ops0 : List (HloOp τ sig (Elt F)) :=
  [ StableHlo.nullary main_c (fun i => lit0 (S4095.rowMajor i)),
    StableHlo.nullary main_c_0 (constantI S4095 1 0#1),
    StableHlo.unary main_arg0 main_v0 (broadcastInDim S1x1024 ![1] bcast_S1024_S1x1024_1 : (⟨S1024, .f32⟩ : BufTy).Contents (Elt F) → (⟨S1x1024, .f32⟩ : BufTy).Contents (Elt F)),
    StableHlo.binary main_v0 main_arg1 main_v1 ((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F)),
    StableHlo.unary main_arg2 main_v2 (broadcastInDim S1x2048 ![1] bcast_S2048_S1x2048_1 : (⟨S2048, .f32⟩ : BufTy).Contents (Elt F) → (⟨S1x2048, .f32⟩ : BufTy).Contents (Elt F)),
    StableHlo.binary main_v1 main_v2 main_v3 (addf : (⟨S1x2048, .f32⟩ : BufTy).Contents (Elt F) → (⟨S1x2048, .f32⟩ : BufTy).Contents (Elt F) → (⟨S1x2048, .f32⟩ : BufTy).Contents (Elt F)),
    StableHlo.unary main_v3 main_v4 (Host.negf : (⟨S1x2048, .f32⟩ : BufTy).Contents (Elt F) → (⟨S1x2048, .f32⟩ : BufTy).Contents (Elt F)),
    StableHlo.unary main_v4 main_v5 (Host.exp : (⟨S1x2048, .f32⟩ : BufTy).Contents (Elt F) → (⟨S1x2048, .f32⟩ : BufTy).Contents (Elt F)),
    StableHlo.nullary main_cst (constant S_ .f32 0x3F800000#32),
    StableHlo.unary main_cst main_v6 (broadcastInDim S1x2048 ![] bcast_S_S1x2048 : (⟨S_, .f32⟩ : BufTy).Contents (Elt F) → (⟨S1x2048, .f32⟩ : BufTy).Contents (Elt F)),
    StableHlo.binary main_v6 main_v5 main_v7 (addf : (⟨S1x2048, .f32⟩ : BufTy).Contents (Elt F) → (⟨S1x2048, .f32⟩ : BufTy).Contents (Elt F) → (⟨S1x2048, .f32⟩ : BufTy).Contents (Elt F)),
    StableHlo.nullary main_cst_1 (constant S_ .f32 0x3F800000#32),
    StableHlo.unary main_cst_1 main_v8 (broadcastInDim S1x2048 ![] bcast_S_S1x2048 : (⟨S_, .f32⟩ : BufTy).Contents (Elt F) → (⟨S1x2048, .f32⟩ : BufTy).Contents (Elt F)),
    StableHlo.binary main_v8 main_v7 main_v9 (Host.divf : (⟨S1x2048, .f32⟩ : BufTy).Contents (Elt F) → (⟨S1x2048, .f32⟩ : BufTy).Contents (Elt F) → (⟨S1x2048, .f32⟩ : BufTy).Contents (Elt F)),
    StableHlo.binary main_v9 main_arg3 main_v10 ((fun l r => Host.dotGeneral dot_S1x2048_S2048x32001_S1x32001_1_0_0_1_n_n none l r) : (⟨S1x2048, .f32⟩ : BufTy).Contents (Elt F) → (⟨S2048x32001, .f32⟩ : BufTy).Contents (Elt F) → (⟨S1x32001, .f32⟩ : BufTy).Contents (Elt F)),
    StableHlo.unary main_arg4 main_v11 (broadcastInDim S1x32001 ![1] bcast_S32001_S1x32001_1 : (⟨S32001, .f32⟩ : BufTy).Contents (Elt F) → (⟨S1x32001, .f32⟩ : BufTy).Contents (Elt F)),
    StableHlo.binary main_v10 main_v11 main_v12 (addf : (⟨S1x32001, .f32⟩ : BufTy).Contents (Elt F) → (⟨S1x32001, .f32⟩ : BufTy).Contents (Elt F) → (⟨S1x32001, .f32⟩ : BufTy).Contents (Elt F)),
    StableHlo.binary main_v0 main_arg5 main_v13 ((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F)),
    StableHlo.unary main_arg6 main_v14 (broadcastInDim S1x2048 ![1] bcast_S2048_S1x2048_1 : (⟨S2048, .f32⟩ : BufTy).Contents (Elt F) → (⟨S1x2048, .f32⟩ : BufTy).Contents (Elt F)),
    StableHlo.binary main_v13 main_v14 main_v15 (addf : (⟨S1x2048, .f32⟩ : BufTy).Contents (Elt F) → (⟨S1x2048, .f32⟩ : BufTy).Contents (Elt F) → (⟨S1x2048, .f32⟩ : BufTy).Contents (Elt F)),
    StableHlo.unary main_v15 main_v16 (Host.negf : (⟨S1x2048, .f32⟩ : BufTy).Contents (Elt F) → (⟨S1x2048, .f32⟩ : BufTy).Contents (Elt F)),
    StableHlo.unary main_v16 main_v17 (Host.exp : (⟨S1x2048, .f32⟩ : BufTy).Contents (Elt F) → (⟨S1x2048, .f32⟩ : BufTy).Contents (Elt F)),
    StableHlo.nullary main_cst_2 (constant S_ .f32 0x3F800000#32),
    StableHlo.unary main_cst_2 main_v18 (broadcastInDim S1x2048 ![] bcast_S_S1x2048 : (⟨S_, .f32⟩ : BufTy).Contents (Elt F) → (⟨S1x2048, .f32⟩ : BufTy).Contents (Elt F)),
    StableHlo.binary main_v18 main_v17 main_v19 (addf : (⟨S1x2048, .f32⟩ : BufTy).Contents (Elt F) → (⟨S1x2048, .f32⟩ : BufTy).Contents (Elt F) → (⟨S1x2048, .f32⟩ : BufTy).Contents (Elt F)),
    StableHlo.nullary main_cst_3 (constant S_ .f32 0x3F800000#32),
    StableHlo.unary main_cst_3 main_v20 (broadcastInDim S1x2048 ![] bcast_S_S1x2048 : (⟨S_, .f32⟩ : BufTy).Contents (Elt F) → (⟨S1x2048, .f32⟩ : BufTy).Contents (Elt F)),
    StableHlo.binary main_v20 main_v19 main_v21 (Host.divf : (⟨S1x2048, .f32⟩ : BufTy).Contents (Elt F) → (⟨S1x2048, .f32⟩ : BufTy).Contents (Elt F) → (⟨S1x2048, .f32⟩ : BufTy).Contents (Elt F)),
    StableHlo.binary main_v21 main_arg7 main_v22 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    StableHlo.unary main_arg8 main_v23 (broadcastInDim S1x2048 ![1] bcast_S2048_S1x2048_1 : (⟨S2048, .f32⟩ : BufTy).Contents (Elt F) → (⟨S1x2048, .f32⟩ : BufTy).Contents (Elt F)),
    StableHlo.binary main_v22 main_v23 main_v24 (addf : (⟨S1x2048, .f32⟩ : BufTy).Contents (Elt F) → (⟨S1x2048, .f32⟩ : BufTy).Contents (Elt F) → (⟨S1x2048, .f32⟩ : BufTy).Contents (Elt F)),
    StableHlo.reshape main_v24 main_v25 rfl shapeCasts_S1x2048_S2x1024,
    StableHlo.binary main_v25 main_arg1 main_v26 ((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F)),
    StableHlo.unary main_arg2 main_v27 (broadcastInDim S1x2048 ![1] bcast_S2048_S1x2048_1 : (⟨S2048, .f32⟩ : BufTy).Contents (Elt F) → (⟨S1x2048, .f32⟩ : BufTy).Contents (Elt F)),
    StableHlo.unary main_v27 main_v28 (broadcastInDim S2x2048 ![0, 1] bcast_S1x2048_S2x2048_0_1 : (⟨S1x2048, .f32⟩ : BufTy).Contents (Elt F) → (⟨S2x2048, .f32⟩ : BufTy).Contents (Elt F)),
    StableHlo.binary main_v26 main_v28 main_v29 (addf : (⟨S2x2048, .f32⟩ : BufTy).Contents (Elt F) → (⟨S2x2048, .f32⟩ : BufTy).Contents (Elt F) → (⟨S2x2048, .f32⟩ : BufTy).Contents (Elt F)),
    StableHlo.unary main_v29 main_v30 (Host.negf : (⟨S2x2048, .f32⟩ : BufTy).Contents (Elt F) → (⟨S2x2048, .f32⟩ : BufTy).Contents (Elt F)),
    StableHlo.unary main_v30 main_v31 (Host.exp : (⟨S2x2048, .f32⟩ : BufTy).Contents (Elt F) → (⟨S2x2048, .f32⟩ : BufTy).Contents (Elt F)),
    StableHlo.nullary main_cst_4 (constant S_ .f32 0x3F800000#32),
    StableHlo.unary main_cst_4 main_v32 (broadcastInDim S2x2048 ![] bcast_S_S2x2048 : (⟨S_, .f32⟩ : BufTy).Contents (Elt F) → (⟨S2x2048, .f32⟩ : BufTy).Contents (Elt F)),
    StableHlo.binary main_v32 main_v31 main_v33 (addf : (⟨S2x2048, .f32⟩ : BufTy).Contents (Elt F) → (⟨S2x2048, .f32⟩ : BufTy).Contents (Elt F) → (⟨S2x2048, .f32⟩ : BufTy).Contents (Elt F)),
    StableHlo.nullary main_cst_5 (constant S_ .f32 0x3F800000#32),
    StableHlo.unary main_cst_5 main_v34 (broadcastInDim S2x2048 ![] bcast_S_S2x2048 : (⟨S_, .f32⟩ : BufTy).Contents (Elt F) → (⟨S2x2048, .f32⟩ : BufTy).Contents (Elt F)),
    StableHlo.binary main_v34 main_v33 main_v35 (Host.divf : (⟨S2x2048, .f32⟩ : BufTy).Contents (Elt F) → (⟨S2x2048, .f32⟩ : BufTy).Contents (Elt F) → (⟨S2x2048, .f32⟩ : BufTy).Contents (Elt F)),
    StableHlo.binary main_v35 main_arg3 main_v36 ((fun l r => Host.dotGeneral dot_S2x2048_S2048x32001_S2x32001_1_0_0_1_n_n none l r) : (⟨S2x2048, .f32⟩ : BufTy).Contents (Elt F) → (⟨S2048x32001, .f32⟩ : BufTy).Contents (Elt F) → (⟨S2x32001, .f32⟩ : BufTy).Contents (Elt F)),
    StableHlo.unary main_arg4 main_v37 (broadcastInDim S1x32001 ![1] bcast_S32001_S1x32001_1 : (⟨S32001, .f32⟩ : BufTy).Contents (Elt F) → (⟨S1x32001, .f32⟩ : BufTy).Contents (Elt F)),
    StableHlo.unary main_v37 main_v38 (broadcastInDim S2x32001 ![0, 1] bcast_S1x32001_S2x32001_0_1 : (⟨S1x32001, .f32⟩ : BufTy).Contents (Elt F) → (⟨S2x32001, .f32⟩ : BufTy).Contents (Elt F)),
    StableHlo.binary main_v36 main_v38 main_v39 (addf : (⟨S2x32001, .f32⟩ : BufTy).Contents (Elt F) → (⟨S2x32001, .f32⟩ : BufTy).Contents (Elt F) → (⟨S2x32001, .f32⟩ : BufTy).Contents (Elt F)),
    StableHlo.binary main_v25 main_arg5 main_v40 ((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F)),
    StableHlo.unary main_arg6 main_v41 (broadcastInDim S1x2048 ![1] bcast_S2048_S1x2048_1 : (⟨S2048, .f32⟩ : BufTy).Contents (Elt F) → (⟨S1x2048, .f32⟩ : BufTy).Contents (Elt F)),
    StableHlo.unary main_v41 main_v42 (broadcastInDim S2x2048 ![0, 1] bcast_S1x2048_S2x2048_0_1 : (⟨S1x2048, .f32⟩ : BufTy).Contents (Elt F) → (⟨S2x2048, .f32⟩ : BufTy).Contents (Elt F)),
    StableHlo.binary main_v40 main_v42 main_v43 (addf : (⟨S2x2048, .f32⟩ : BufTy).Contents (Elt F) → (⟨S2x2048, .f32⟩ : BufTy).Contents (Elt F) → (⟨S2x2048, .f32⟩ : BufTy).Contents (Elt F)),
    StableHlo.unary main_v43 main_v44 (Host.negf : (⟨S2x2048, .f32⟩ : BufTy).Contents (Elt F) → (⟨S2x2048, .f32⟩ : BufTy).Contents (Elt F)),
    StableHlo.unary main_v44 main_v45 (Host.exp : (⟨S2x2048, .f32⟩ : BufTy).Contents (Elt F) → (⟨S2x2048, .f32⟩ : BufTy).Contents (Elt F)),
    StableHlo.nullary main_cst_6 (constant S_ .f32 0x3F800000#32),
    StableHlo.unary main_cst_6 main_v46 (broadcastInDim S2x2048 ![] bcast_S_S2x2048 : (⟨S_, .f32⟩ : BufTy).Contents (Elt F) → (⟨S2x2048, .f32⟩ : BufTy).Contents (Elt F)),
    StableHlo.binary main_v46 main_v45 main_v47 (addf : (⟨S2x2048, .f32⟩ : BufTy).Contents (Elt F) → (⟨S2x2048, .f32⟩ : BufTy).Contents (Elt F) → (⟨S2x2048, .f32⟩ : BufTy).Contents (Elt F)),
    StableHlo.nullary main_cst_7 (constant S_ .f32 0x3F800000#32),
    StableHlo.unary main_cst_7 main_v48 (broadcastInDim S2x2048 ![] bcast_S_S2x2048 : (⟨S_, .f32⟩ : BufTy).Contents (Elt F) → (⟨S2x2048, .f32⟩ : BufTy).Contents (Elt F)),
    StableHlo.binary main_v48 main_v47 main_v49 (Host.divf : (⟨S2x2048, .f32⟩ : BufTy).Contents (Elt F) → (⟨S2x2048, .f32⟩ : BufTy).Contents (Elt F) → (⟨S2x2048, .f32⟩ : BufTy).Contents (Elt F)) ]
theorem ops0_sub : (ops0 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

/-- The 60 operations of window 1 of @main, in order. -/
abbrev ops1 : List (HloOp τ sig (Elt F)) :=
  [ StableHlo.binary main_v49 main_arg7 main_v50 ((fun l r => Host.dotGeneral dot_S2x2048_S2048x2048_S2x2048_1_0_0_1_n_n none l r) : (⟨S2x2048, .f32⟩ : BufTy).Contents (Elt F) → (⟨S2048x2048, .f32⟩ : BufTy).Contents (Elt F) → (⟨S2x2048, .f32⟩ : BufTy).Contents (Elt F)),
    StableHlo.unary main_arg8 main_v51 (broadcastInDim S1x2048 ![1] bcast_S2048_S1x2048_1 : (⟨S2048, .f32⟩ : BufTy).Contents (Elt F) → (⟨S1x2048, .f32⟩ : BufTy).Contents (Elt F)),
    StableHlo.unary main_v51 main_v52 (broadcastInDim S2x2048 ![0, 1] bcast_S1x2048_S2x2048_0_1 : (⟨S1x2048, .f32⟩ : BufTy).Contents (Elt F) → (⟨S2x2048, .f32⟩ : BufTy).Contents (Elt F)),
    StableHlo.binary main_v50 main_v52 main_v53 (addf : (⟨S2x2048, .f32⟩ : BufTy).Contents (Elt F) → (⟨S2x2048, .f32⟩ : BufTy).Contents (Elt F) → (⟨S2x2048, .f32⟩ : BufTy).Contents (Elt F)),
    StableHlo.reshape main_v53 main_v54 rfl shapeCasts_S2x2048_S4x1024,
    StableHlo.binary main_v54 main_arg1 main_v55 ((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F)),
    StableHlo.unary main_arg2 main_v56 (broadcastInDim S1x2048 ![1] bcast_S2048_S1x2048_1 : (⟨S2048, .f32⟩ : BufTy).Contents (Elt F) → (⟨S1x2048, .f32⟩ : BufTy).Contents (Elt F)),
    StableHlo.unary main_v56 main_v57 (broadcastInDim S4x2048 ![0, 1] bcast_S1x2048_S4x2048_0_1 : (⟨S1x2048, .f32⟩ : BufTy).Contents (Elt F) → (⟨S4x2048, .f32⟩ : BufTy).Contents (Elt F)),
    StableHlo.binary main_v55 main_v57 main_v58 (addf : (⟨S4x2048, .f32⟩ : BufTy).Contents (Elt F) → (⟨S4x2048, .f32⟩ : BufTy).Contents (Elt F) → (⟨S4x2048, .f32⟩ : BufTy).Contents (Elt F)),
    StableHlo.unary main_v58 main_v59 (Host.negf : (⟨S4x2048, .f32⟩ : BufTy).Contents (Elt F) → (⟨S4x2048, .f32⟩ : BufTy).Contents (Elt F)),
    StableHlo.unary main_v59 main_v60 (Host.exp : (⟨S4x2048, .f32⟩ : BufTy).Contents (Elt F) → (⟨S4x2048, .f32⟩ : BufTy).Contents (Elt F)),
    StableHlo.nullary main_cst_8 (constant S_ .f32 0x3F800000#32),
    StableHlo.unary main_cst_8 main_v61 (broadcastInDim S4x2048 ![] bcast_S_S4x2048 : (⟨S_, .f32⟩ : BufTy).Contents (Elt F) → (⟨S4x2048, .f32⟩ : BufTy).Contents (Elt F)),
    StableHlo.binary main_v61 main_v60 main_v62 (addf : (⟨S4x2048, .f32⟩ : BufTy).Contents (Elt F) → (⟨S4x2048, .f32⟩ : BufTy).Contents (Elt F) → (⟨S4x2048, .f32⟩ : BufTy).Contents (Elt F)),
    StableHlo.nullary main_cst_9 (constant S_ .f32 0x3F800000#32),
    StableHlo.unary main_cst_9 main_v63 (broadcastInDim S4x2048 ![] bcast_S_S4x2048 : (⟨S_, .f32⟩ : BufTy).Contents (Elt F) → (⟨S4x2048, .f32⟩ : BufTy).Contents (Elt F)),
    StableHlo.binary main_v63 main_v62 main_v64 (Host.divf : (⟨S4x2048, .f32⟩ : BufTy).Contents (Elt F) → (⟨S4x2048, .f32⟩ : BufTy).Contents (Elt F) → (⟨S4x2048, .f32⟩ : BufTy).Contents (Elt F)),
    StableHlo.binary main_v64 main_arg3 main_v65 ((fun l r => Host.dotGeneral dot_S4x2048_S2048x32001_S4x32001_1_0_0_1_n_n none l r) : (⟨S4x2048, .f32⟩ : BufTy).Contents (Elt F) → (⟨S2048x32001, .f32⟩ : BufTy).Contents (Elt F) → (⟨S4x32001, .f32⟩ : BufTy).Contents (Elt F)),
    StableHlo.unary main_arg4 main_v66 (broadcastInDim S1x32001 ![1] bcast_S32001_S1x32001_1 : (⟨S32001, .f32⟩ : BufTy).Contents (Elt F) → (⟨S1x32001, .f32⟩ : BufTy).Contents (Elt F)),
    StableHlo.unary main_v66 main_v67 (broadcastInDim S4x32001 ![0, 1] bcast_S1x32001_S4x32001_0_1 : (⟨S1x32001, .f32⟩ : BufTy).Contents (Elt F) → (⟨S4x32001, .f32⟩ : BufTy).Contents (Elt F)),
    StableHlo.binary main_v65 main_v67 main_v68 (addf : (⟨S4x32001, .f32⟩ : BufTy).Contents (Elt F) → (⟨S4x32001, .f32⟩ : BufTy).Contents (Elt F) → (⟨S4x32001, .f32⟩ : BufTy).Contents (Elt F)),
    StableHlo.binary main_v54 main_arg5 main_v69 ((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F)),
    StableHlo.unary main_arg6 main_v70 (broadcastInDim S1x2048 ![1] bcast_S2048_S1x2048_1 : (⟨S2048, .f32⟩ : BufTy).Contents (Elt F) → (⟨S1x2048, .f32⟩ : BufTy).Contents (Elt F)),
    StableHlo.unary main_v70 main_v71 (broadcastInDim S4x2048 ![0, 1] bcast_S1x2048_S4x2048_0_1 : (⟨S1x2048, .f32⟩ : BufTy).Contents (Elt F) → (⟨S4x2048, .f32⟩ : BufTy).Contents (Elt F)),
    StableHlo.binary main_v69 main_v71 main_v72 (addf : (⟨S4x2048, .f32⟩ : BufTy).Contents (Elt F) → (⟨S4x2048, .f32⟩ : BufTy).Contents (Elt F) → (⟨S4x2048, .f32⟩ : BufTy).Contents (Elt F)),
    StableHlo.unary main_v72 main_v73 (Host.negf : (⟨S4x2048, .f32⟩ : BufTy).Contents (Elt F) → (⟨S4x2048, .f32⟩ : BufTy).Contents (Elt F)),
    StableHlo.unary main_v73 main_v74 (Host.exp : (⟨S4x2048, .f32⟩ : BufTy).Contents (Elt F) → (⟨S4x2048, .f32⟩ : BufTy).Contents (Elt F)),
    StableHlo.nullary main_cst_10 (constant S_ .f32 0x3F800000#32),
    StableHlo.unary main_cst_10 main_v75 (broadcastInDim S4x2048 ![] bcast_S_S4x2048 : (⟨S_, .f32⟩ : BufTy).Contents (Elt F) → (⟨S4x2048, .f32⟩ : BufTy).Contents (Elt F)),
    StableHlo.binary main_v75 main_v74 main_v76 (addf : (⟨S4x2048, .f32⟩ : BufTy).Contents (Elt F) → (⟨S4x2048, .f32⟩ : BufTy).Contents (Elt F) → (⟨S4x2048, .f32⟩ : BufTy).Contents (Elt F)),
    StableHlo.nullary main_cst_11 (constant S_ .f32 0x3F800000#32),
    StableHlo.unary main_cst_11 main_v77 (broadcastInDim S4x2048 ![] bcast_S_S4x2048 : (⟨S_, .f32⟩ : BufTy).Contents (Elt F) → (⟨S4x2048, .f32⟩ : BufTy).Contents (Elt F)),
    StableHlo.binary main_v77 main_v76 main_v78 (Host.divf : (⟨S4x2048, .f32⟩ : BufTy).Contents (Elt F) → (⟨S4x2048, .f32⟩ : BufTy).Contents (Elt F) → (⟨S4x2048, .f32⟩ : BufTy).Contents (Elt F)),
    StableHlo.binary main_v78 main_arg7 main_v79 ((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F)),
    StableHlo.unary main_arg8 main_v80 (broadcastInDim S1x2048 ![1] bcast_S2048_S1x2048_1 : (⟨S2048, .f32⟩ : BufTy).Contents (Elt F) → (⟨S1x2048, .f32⟩ : BufTy).Contents (Elt F)),
    StableHlo.unary main_v80 main_v81 (broadcastInDim S4x2048 ![0, 1] bcast_S1x2048_S4x2048_0_1 : (⟨S1x2048, .f32⟩ : BufTy).Contents (Elt F) → (⟨S4x2048, .f32⟩ : BufTy).Contents (Elt F)),
    StableHlo.binary main_v79 main_v81 main_v82 (addf : (⟨S4x2048, .f32⟩ : BufTy).Contents (Elt F) → (⟨S4x2048, .f32⟩ : BufTy).Contents (Elt F) → (⟨S4x2048, .f32⟩ : BufTy).Contents (Elt F)),
    StableHlo.reshape main_v82 main_v83 rfl shapeCasts_S4x2048_S8x1024,
    StableHlo.binary main_v83 main_arg1 main_v84 ((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F)),
    StableHlo.unary main_arg2 main_v85 (broadcastInDim S1x2048 ![1] bcast_S2048_S1x2048_1 : (⟨S2048, .f32⟩ : BufTy).Contents (Elt F) → (⟨S1x2048, .f32⟩ : BufTy).Contents (Elt F)),
    StableHlo.unary main_v85 main_v86 (broadcastInDim S8x2048 ![0, 1] bcast_S1x2048_S8x2048_0_1 : (⟨S1x2048, .f32⟩ : BufTy).Contents (Elt F) → (⟨S8x2048, .f32⟩ : BufTy).Contents (Elt F)),
    StableHlo.binary main_v84 main_v86 main_v87 (addf : (⟨S8x2048, .f32⟩ : BufTy).Contents (Elt F) → (⟨S8x2048, .f32⟩ : BufTy).Contents (Elt F) → (⟨S8x2048, .f32⟩ : BufTy).Contents (Elt F)),
    StableHlo.unary main_v87 main_v88 (Host.negf : (⟨S8x2048, .f32⟩ : BufTy).Contents (Elt F) → (⟨S8x2048, .f32⟩ : BufTy).Contents (Elt F)),
    StableHlo.unary main_v88 main_v89 (Host.exp : (⟨S8x2048, .f32⟩ : BufTy).Contents (Elt F) → (⟨S8x2048, .f32⟩ : BufTy).Contents (Elt F)),
    StableHlo.nullary main_cst_12 (constant S_ .f32 0x3F800000#32),
    StableHlo.unary main_cst_12 main_v90 (broadcastInDim S8x2048 ![] bcast_S_S8x2048 : (⟨S_, .f32⟩ : BufTy).Contents (Elt F) → (⟨S8x2048, .f32⟩ : BufTy).Contents (Elt F)),
    StableHlo.binary main_v90 main_v89 main_v91 (addf : (⟨S8x2048, .f32⟩ : BufTy).Contents (Elt F) → (⟨S8x2048, .f32⟩ : BufTy).Contents (Elt F) → (⟨S8x2048, .f32⟩ : BufTy).Contents (Elt F)),
    StableHlo.nullary main_cst_13 (constant S_ .f32 0x3F800000#32),
    StableHlo.unary main_cst_13 main_v92 (broadcastInDim S8x2048 ![] bcast_S_S8x2048 : (⟨S_, .f32⟩ : BufTy).Contents (Elt F) → (⟨S8x2048, .f32⟩ : BufTy).Contents (Elt F)),
    StableHlo.binary main_v92 main_v91 main_v93 (Host.divf : (⟨S8x2048, .f32⟩ : BufTy).Contents (Elt F) → (⟨S8x2048, .f32⟩ : BufTy).Contents (Elt F) → (⟨S8x2048, .f32⟩ : BufTy).Contents (Elt F)),
    StableHlo.binary main_v93 main_arg3 main_v94 ((fun l r => Host.dotGeneral dot_S8x2048_S2048x32001_S8x32001_1_0_0_1_n_n none l r) : (⟨S8x2048, .f32⟩ : BufTy).Contents (Elt F) → (⟨S2048x32001, .f32⟩ : BufTy).Contents (Elt F) → (⟨S8x32001, .f32⟩ : BufTy).Contents (Elt F)),
    StableHlo.unary main_arg4 main_v95 (broadcastInDim S1x32001 ![1] bcast_S32001_S1x32001_1 : (⟨S32001, .f32⟩ : BufTy).Contents (Elt F) → (⟨S1x32001, .f32⟩ : BufTy).Contents (Elt F)),
    StableHlo.unary main_v95 main_v96 (broadcastInDim S8x32001 ![0, 1] bcast_S1x32001_S8x32001_0_1 : (⟨S1x32001, .f32⟩ : BufTy).Contents (Elt F) → (⟨S8x32001, .f32⟩ : BufTy).Contents (Elt F)),
    StableHlo.binary main_v94 main_v96 main_v97 (addf : (⟨S8x32001, .f32⟩ : BufTy).Contents (Elt F) → (⟨S8x32001, .f32⟩ : BufTy).Contents (Elt F) → (⟨S8x32001, .f32⟩ : BufTy).Contents (Elt F)),
    StableHlo.binary main_v83 main_arg5 main_v98 ((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F)),
    StableHlo.unary main_arg6 main_v99 (broadcastInDim S1x2048 ![1] bcast_S2048_S1x2048_1 : (⟨S2048, .f32⟩ : BufTy).Contents (Elt F) → (⟨S1x2048, .f32⟩ : BufTy).Contents (Elt F)),
    StableHlo.unary main_v99 main_v100 (broadcastInDim S8x2048 ![0, 1] bcast_S1x2048_S8x2048_0_1 : (⟨S1x2048, .f32⟩ : BufTy).Contents (Elt F) → (⟨S8x2048, .f32⟩ : BufTy).Contents (Elt F)),
    StableHlo.binary main_v98 main_v100 main_v101 (addf : (⟨S8x2048, .f32⟩ : BufTy).Contents (Elt F) → (⟨S8x2048, .f32⟩ : BufTy).Contents (Elt F) → (⟨S8x2048, .f32⟩ : BufTy).Contents (Elt F)),
    StableHlo.unary main_v101 main_v102 (Host.negf : (⟨S8x2048, .f32⟩ : BufTy).Contents (Elt F) → (⟨S8x2048, .f32⟩ : BufTy).Contents (Elt F)),
    StableHlo.unary main_v102 main_v103 (Host.exp : (⟨S8x2048, .f32⟩ : BufTy).Contents (Elt F) → (⟨S8x2048, .f32⟩ : BufTy).Contents (Elt F)) ]
theorem ops1_sub : (ops1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub ..⟩

/-- The 60 operations of window 2 of @main, in order. -/
abbrev ops2 : List (HloOp τ sig (Elt F)) :=
  [ StableHlo.nullary main_cst_14 (constant S_ .f32 0x3F800000#32),
    StableHlo.unary main_cst_14 main_v104 (broadcastInDim S8x2048 ![] bcast_S_S8x2048 : (⟨S_, .f32⟩ : BufTy).Contents (Elt F) → (⟨S8x2048, .f32⟩ : BufTy).Contents (Elt F)),
    StableHlo.binary main_v104 main_v103 main_v105 (addf : (⟨S8x2048, .f32⟩ : BufTy).Contents (Elt F) → (⟨S8x2048, .f32⟩ : BufTy).Contents (Elt F) → (⟨S8x2048, .f32⟩ : BufTy).Contents (Elt F)),
    StableHlo.nullary main_cst_15 (constant S_ .f32 0x3F800000#32),
    StableHlo.unary main_cst_15 main_v106 (broadcastInDim S8x2048 ![] bcast_S_S8x2048 : (⟨S_, .f32⟩ : BufTy).Contents (Elt F) → (⟨S8x2048, .f32⟩ : BufTy).Contents (Elt F)),
    StableHlo.binary main_v106 main_v105 main_v107 (Host.divf : (⟨S8x2048, .f32⟩ : BufTy).Contents (Elt F) → (⟨S8x2048, .f32⟩ : BufTy).Contents (Elt F) → (⟨S8x2048, .f32⟩ : BufTy).Contents (Elt F)),
    StableHlo.binary main_v107 main_arg7 main_v108 ((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F)),
    StableHlo.unary main_arg8 main_v109 (broadcastInDim S1x2048 ![1] bcast_S2048_S1x2048_1 : (⟨S2048, .f32⟩ : BufTy).Contents (Elt F) → (⟨S1x2048, .f32⟩ : BufTy).Contents (Elt F)),
    StableHlo.unary main_v109 main_v110 (broadcastInDim S8x2048 ![0, 1] bcast_S1x2048_S8x2048_0_1 : (⟨S1x2048, .f32⟩ : BufTy).Contents (Elt F) → (⟨S8x2048, .f32⟩ : BufTy).Contents (Elt F)),
    StableHlo.binary main_v108 main_v110 main_v111 (addf : (⟨S8x2048, .f32⟩ : BufTy).Contents (Elt F) → (⟨S8x2048, .f32⟩ : BufTy).Contents (Elt F) → (⟨S8x2048, .f32⟩ : BufTy).Contents (Elt F)),
    StableHlo.reshape main_v111 main_v112 rfl shapeCasts_S8x2048_S16x1024,
    StableHlo.binary main_v112 main_arg1 main_v113 ((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F)),
    StableHlo.unary main_arg2 main_v114 (broadcastInDim S1x2048 ![1] bcast_S2048_S1x2048_1 : (⟨S2048, .f32⟩ : BufTy).Contents (Elt F) → (⟨S1x2048, .f32⟩ : BufTy).Contents (Elt F)),
    StableHlo.unary main_v114 main_v115 (broadcastInDim S16x2048 ![0, 1] bcast_S1x2048_S16x2048_0_1 : (⟨S1x2048, .f32⟩ : BufTy).Contents (Elt F) → (⟨S16x2048, .f32⟩ : BufTy).Contents (Elt F)),
    StableHlo.binary main_v113 main_v115 main_v116 (addf : (⟨S16x2048, .f32⟩ : BufTy).Contents (Elt F) → (⟨S16x2048, .f32⟩ : BufTy).Contents (Elt F) → (⟨S16x2048, .f32⟩ : BufTy).Contents (Elt F)),
    StableHlo.unary main_v116 main_v117 (Host.negf : (⟨S16x2048, .f32⟩ : BufTy).Contents (Elt F) → (⟨S16x2048, .f32⟩ : BufTy).Contents (Elt F)),
    StableHlo.unary main_v117 main_v118 (Host.exp : (⟨S16x2048, .f32⟩ : BufTy).Contents (Elt F) → (⟨S16x2048, .f32⟩ : BufTy).Contents (Elt F)),
    StableHlo.nullary main_cst_16 (constant S_ .f32 0x3F800000#32),
    StableHlo.unary main_cst_16 main_v119 (broadcastInDim S16x2048 ![] bcast_S_S16x2048 : (⟨S_, .f32⟩ : BufTy).Contents (Elt F) → (⟨S16x2048, .f32⟩ : BufTy).Contents (Elt F)),
    StableHlo.binary main_v119 main_v118 main_v120 (addf : (⟨S16x2048, .f32⟩ : BufTy).Contents (Elt F) → (⟨S16x2048, .f32⟩ : BufTy).Contents (Elt F) → (⟨S16x2048, .f32⟩ : BufTy).Contents (Elt F)),
    StableHlo.nullary main_cst_17 (constant S_ .f32 0x3F800000#32),
    StableHlo.unary main_cst_17 main_v121 (broadcastInDim S16x2048 ![] bcast_S_S16x2048 : (⟨S_, .f32⟩ : BufTy).Contents (Elt F) → (⟨S16x2048, .f32⟩ : BufTy).Contents (Elt F)),
    StableHlo.binary main_v121 main_v120 main_v122 (Host.divf : (⟨S16x2048, .f32⟩ : BufTy).Contents (Elt F) → (⟨S16x2048, .f32⟩ : BufTy).Contents (Elt F) → (⟨S16x2048, .f32⟩ : BufTy).Contents (Elt F)),
    StableHlo.binary main_v122 main_arg3 main_v123 ((fun l r => Host.dotGeneral dot_S16x2048_S2048x32001_S16x32001_1_0_0_1_n_n none l r) : (⟨S16x2048, .f32⟩ : BufTy).Contents (Elt F) → (⟨S2048x32001, .f32⟩ : BufTy).Contents (Elt F) → (⟨S16x32001, .f32⟩ : BufTy).Contents (Elt F)),
    StableHlo.unary main_arg4 main_v124 (broadcastInDim S1x32001 ![1] bcast_S32001_S1x32001_1 : (⟨S32001, .f32⟩ : BufTy).Contents (Elt F) → (⟨S1x32001, .f32⟩ : BufTy).Contents (Elt F)),
    StableHlo.unary main_v124 main_v125 (broadcastInDim S16x32001 ![0, 1] bcast_S1x32001_S16x32001_0_1 : (⟨S1x32001, .f32⟩ : BufTy).Contents (Elt F) → (⟨S16x32001, .f32⟩ : BufTy).Contents (Elt F)),
    StableHlo.binary main_v123 main_v125 main_v126 (addf : (⟨S16x32001, .f32⟩ : BufTy).Contents (Elt F) → (⟨S16x32001, .f32⟩ : BufTy).Contents (Elt F) → (⟨S16x32001, .f32⟩ : BufTy).Contents (Elt F)),
    StableHlo.binary main_v112 main_arg5 main_v127 ((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F)),
    StableHlo.unary main_arg6 main_v128 (broadcastInDim S1x2048 ![1] bcast_S2048_S1x2048_1 : (⟨S2048, .f32⟩ : BufTy).Contents (Elt F) → (⟨S1x2048, .f32⟩ : BufTy).Contents (Elt F)),
    StableHlo.unary main_v128 main_v129 (broadcastInDim S16x2048 ![0, 1] bcast_S1x2048_S16x2048_0_1 : (⟨S1x2048, .f32⟩ : BufTy).Contents (Elt F) → (⟨S16x2048, .f32⟩ : BufTy).Contents (Elt F)),
    StableHlo.binary main_v127 main_v129 main_v130 (addf : (⟨S16x2048, .f32⟩ : BufTy).Contents (Elt F) → (⟨S16x2048, .f32⟩ : BufTy).Contents (Elt F) → (⟨S16x2048, .f32⟩ : BufTy).Contents (Elt F)),
    StableHlo.unary main_v130 main_v131 (Host.negf : (⟨S16x2048, .f32⟩ : BufTy).Contents (Elt F) → (⟨S16x2048, .f32⟩ : BufTy).Contents (Elt F)),
    StableHlo.unary main_v131 main_v132 (Host.exp : (⟨S16x2048, .f32⟩ : BufTy).Contents (Elt F) → (⟨S16x2048, .f32⟩ : BufTy).Contents (Elt F)),
    StableHlo.nullary main_cst_18 (constant S_ .f32 0x3F800000#32),
    StableHlo.unary main_cst_18 main_v133 (broadcastInDim S16x2048 ![] bcast_S_S16x2048 : (⟨S_, .f32⟩ : BufTy).Contents (Elt F) → (⟨S16x2048, .f32⟩ : BufTy).Contents (Elt F)),
    StableHlo.binary main_v133 main_v132 main_v134 (addf : (⟨S16x2048, .f32⟩ : BufTy).Contents (Elt F) → (⟨S16x2048, .f32⟩ : BufTy).Contents (Elt F) → (⟨S16x2048, .f32⟩ : BufTy).Contents (Elt F)),
    StableHlo.nullary main_cst_19 (constant S_ .f32 0x3F800000#32),
    StableHlo.unary main_cst_19 main_v135 (broadcastInDim S16x2048 ![] bcast_S_S16x2048 : (⟨S_, .f32⟩ : BufTy).Contents (Elt F) → (⟨S16x2048, .f32⟩ : BufTy).Contents (Elt F)),
    StableHlo.binary main_v135 main_v134 main_v136 (Host.divf : (⟨S16x2048, .f32⟩ : BufTy).Contents (Elt F) → (⟨S16x2048, .f32⟩ : BufTy).Contents (Elt F) → (⟨S16x2048, .f32⟩ : BufTy).Contents (Elt F)),
    StableHlo.binary main_v136 main_arg7 main_v137 ((fun l r => Host.dotGeneral dot_S16x2048_S2048x2048_S16x2048_1_0_0_1_n_n none l r) : (⟨S16x2048, .f32⟩ : BufTy).Contents (Elt F) → (⟨S2048x2048, .f32⟩ : BufTy).Contents (Elt F) → (⟨S16x2048, .f32⟩ : BufTy).Contents (Elt F)),
    StableHlo.unary main_arg8 main_v138 (broadcastInDim S1x2048 ![1] bcast_S2048_S1x2048_1 : (⟨S2048, .f32⟩ : BufTy).Contents (Elt F) → (⟨S1x2048, .f32⟩ : BufTy).Contents (Elt F)),
    StableHlo.unary main_v138 main_v139 (broadcastInDim S16x2048 ![0, 1] bcast_S1x2048_S16x2048_0_1 : (⟨S1x2048, .f32⟩ : BufTy).Contents (Elt F) → (⟨S16x2048, .f32⟩ : BufTy).Contents (Elt F)),
    StableHlo.binary main_v137 main_v139 main_v140 (addf : (⟨S16x2048, .f32⟩ : BufTy).Contents (Elt F) → (⟨S16x2048, .f32⟩ : BufTy).Contents (Elt F) → (⟨S16x2048, .f32⟩ : BufTy).Contents (Elt F)),
    StableHlo.reshape main_v140 main_v141 rfl shapeCasts_S16x2048_S32x1024,
    StableHlo.binary main_v141 main_arg1 main_v142 ((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F)),
    StableHlo.unary main_arg2 main_v143 (broadcastInDim S1x2048 ![1] bcast_S2048_S1x2048_1 : (⟨S2048, .f32⟩ : BufTy).Contents (Elt F) → (⟨S1x2048, .f32⟩ : BufTy).Contents (Elt F)),
    StableHlo.unary main_v143 main_v144 (broadcastInDim S32x2048 ![0, 1] bcast_S1x2048_S32x2048_0_1 : (⟨S1x2048, .f32⟩ : BufTy).Contents (Elt F) → (⟨S32x2048, .f32⟩ : BufTy).Contents (Elt F)),
    StableHlo.binary main_v142 main_v144 main_v145 (addf : (⟨S32x2048, .f32⟩ : BufTy).Contents (Elt F) → (⟨S32x2048, .f32⟩ : BufTy).Contents (Elt F) → (⟨S32x2048, .f32⟩ : BufTy).Contents (Elt F)),
    StableHlo.unary main_v145 main_v146 (Host.negf : (⟨S32x2048, .f32⟩ : BufTy).Contents (Elt F) → (⟨S32x2048, .f32⟩ : BufTy).Contents (Elt F)),
    StableHlo.unary main_v146 main_v147 (Host.exp : (⟨S32x2048, .f32⟩ : BufTy).Contents (Elt F) → (⟨S32x2048, .f32⟩ : BufTy).Contents (Elt F)),
    StableHlo.nullary main_cst_20 (constant S_ .f32 0x3F800000#32),
    StableHlo.unary main_cst_20 main_v148 (broadcastInDim S32x2048 ![] bcast_S_S32x2048 : (⟨S_, .f32⟩ : BufTy).Contents (Elt F) → (⟨S32x2048, .f32⟩ : BufTy).Contents (Elt F)),
    StableHlo.binary main_v148 main_v147 main_v149 (addf : (⟨S32x2048, .f32⟩ : BufTy).Contents (Elt F) → (⟨S32x2048, .f32⟩ : BufTy).Contents (Elt F) → (⟨S32x2048, .f32⟩ : BufTy).Contents (Elt F)),
    StableHlo.nullary main_cst_21 (constant S_ .f32 0x3F800000#32),
    StableHlo.unary main_cst_21 main_v150 (broadcastInDim S32x2048 ![] bcast_S_S32x2048 : (⟨S_, .f32⟩ : BufTy).Contents (Elt F) → (⟨S32x2048, .f32⟩ : BufTy).Contents (Elt F)),
    StableHlo.binary main_v150 main_v149 main_v151 (Host.divf : (⟨S32x2048, .f32⟩ : BufTy).Contents (Elt F) → (⟨S32x2048, .f32⟩ : BufTy).Contents (Elt F) → (⟨S32x2048, .f32⟩ : BufTy).Contents (Elt F)),
    StableHlo.binary main_v151 main_arg3 main_v152 ((fun l r => Host.dotGeneral dot_S32x2048_S2048x32001_S32x32001_1_0_0_1_n_n none l r) : (⟨S32x2048, .f32⟩ : BufTy).Contents (Elt F) → (⟨S2048x32001, .f32⟩ : BufTy).Contents (Elt F) → (⟨S32x32001, .f32⟩ : BufTy).Contents (Elt F)),
    StableHlo.unary main_arg4 main_v153 (broadcastInDim S1x32001 ![1] bcast_S32001_S1x32001_1 : (⟨S32001, .f32⟩ : BufTy).Contents (Elt F) → (⟨S1x32001, .f32⟩ : BufTy).Contents (Elt F)),
    StableHlo.unary main_v153 main_v154 (broadcastInDim S32x32001 ![0, 1] bcast_S1x32001_S32x32001_0_1 : (⟨S1x32001, .f32⟩ : BufTy).Contents (Elt F) → (⟨S32x32001, .f32⟩ : BufTy).Contents (Elt F)),
    StableHlo.binary main_v152 main_v154 main_v155 (addf : (⟨S32x32001, .f32⟩ : BufTy).Contents (Elt F) → (⟨S32x32001, .f32⟩ : BufTy).Contents (Elt F) → (⟨S32x32001, .f32⟩ : BufTy).Contents (Elt F)) ]
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- The 60 operations of window 3 of @main, in order. -/
abbrev ops3 : List (HloOp τ sig (Elt F)) :=
  [ StableHlo.binary main_v141 main_arg5 main_v156 ((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F)),
    StableHlo.unary main_arg6 main_v157 (broadcastInDim S1x2048 ![1] bcast_S2048_S1x2048_1 : (⟨S2048, .f32⟩ : BufTy).Contents (Elt F) → (⟨S1x2048, .f32⟩ : BufTy).Contents (Elt F)),
    StableHlo.unary main_v157 main_v158 (broadcastInDim S32x2048 ![0, 1] bcast_S1x2048_S32x2048_0_1 : (⟨S1x2048, .f32⟩ : BufTy).Contents (Elt F) → (⟨S32x2048, .f32⟩ : BufTy).Contents (Elt F)),
    StableHlo.binary main_v156 main_v158 main_v159 (addf : (⟨S32x2048, .f32⟩ : BufTy).Contents (Elt F) → (⟨S32x2048, .f32⟩ : BufTy).Contents (Elt F) → (⟨S32x2048, .f32⟩ : BufTy).Contents (Elt F)),
    StableHlo.unary main_v159 main_v160 (Host.negf : (⟨S32x2048, .f32⟩ : BufTy).Contents (Elt F) → (⟨S32x2048, .f32⟩ : BufTy).Contents (Elt F)),
    StableHlo.unary main_v160 main_v161 (Host.exp : (⟨S32x2048, .f32⟩ : BufTy).Contents (Elt F) → (⟨S32x2048, .f32⟩ : BufTy).Contents (Elt F)),
    StableHlo.nullary main_cst_22 (constant S_ .f32 0x3F800000#32),
    StableHlo.unary main_cst_22 main_v162 (broadcastInDim S32x2048 ![] bcast_S_S32x2048 : (⟨S_, .f32⟩ : BufTy).Contents (Elt F) → (⟨S32x2048, .f32⟩ : BufTy).Contents (Elt F)),
    StableHlo.binary main_v162 main_v161 main_v163 (addf : (⟨S32x2048, .f32⟩ : BufTy).Contents (Elt F) → (⟨S32x2048, .f32⟩ : BufTy).Contents (Elt F) → (⟨S32x2048, .f32⟩ : BufTy).Contents (Elt F)),
    StableHlo.nullary main_cst_23 (constant S_ .f32 0x3F800000#32),
    StableHlo.unary main_cst_23 main_v164 (broadcastInDim S32x2048 ![] bcast_S_S32x2048 : (⟨S_, .f32⟩ : BufTy).Contents (Elt F) → (⟨S32x2048, .f32⟩ : BufTy).Contents (Elt F)),
    StableHlo.binary main_v164 main_v163 main_v165 (Host.divf : (⟨S32x2048, .f32⟩ : BufTy).Contents (Elt F) → (⟨S32x2048, .f32⟩ : BufTy).Contents (Elt F) → (⟨S32x2048, .f32⟩ : BufTy).Contents (Elt F)),
    StableHlo.binary main_v165 main_arg7 main_v166 ((fun l r => Host.dotGeneral dot_S32x2048_S2048x2048_S32x2048_1_0_0_1_n_n none l r) : (⟨S32x2048, .f32⟩ : BufTy).Contents (Elt F) → (⟨S2048x2048, .f32⟩ : BufTy).Contents (Elt F) → (⟨S32x2048, .f32⟩ : BufTy).Contents (Elt F)),
    StableHlo.unary main_arg8 main_v167 (broadcastInDim S1x2048 ![1] bcast_S2048_S1x2048_1 : (⟨S2048, .f32⟩ : BufTy).Contents (Elt F) → (⟨S1x2048, .f32⟩ : BufTy).Contents (Elt F)),
    StableHlo.unary main_v167 main_v168 (broadcastInDim S32x2048 ![0, 1] bcast_S1x2048_S32x2048_0_1 : (⟨S1x2048, .f32⟩ : BufTy).Contents (Elt F) → (⟨S32x2048, .f32⟩ : BufTy).Contents (Elt F)),
    StableHlo.binary main_v166 main_v168 main_v169 (addf : (⟨S32x2048, .f32⟩ : BufTy).Contents (Elt F) → (⟨S32x2048, .f32⟩ : BufTy).Contents (Elt F) → (⟨S32x2048, .f32⟩ : BufTy).Contents (Elt F)),
    StableHlo.reshape main_v169 main_v170 rfl shapeCasts_S32x2048_S64x1024,
    StableHlo.binary main_v170 main_arg1 main_v171 ((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F)),
    StableHlo.unary main_arg2 main_v172 (broadcastInDim S1x2048 ![1] bcast_S2048_S1x2048_1 : (⟨S2048, .f32⟩ : BufTy).Contents (Elt F) → (⟨S1x2048, .f32⟩ : BufTy).Contents (Elt F)),
    StableHlo.unary main_v172 main_v173 (broadcastInDim S64x2048 ![0, 1] bcast_S1x2048_S64x2048_0_1 : (⟨S1x2048, .f32⟩ : BufTy).Contents (Elt F) → (⟨S64x2048, .f32⟩ : BufTy).Contents (Elt F)),
    StableHlo.binary main_v171 main_v173 main_v174 (addf : (⟨S64x2048, .f32⟩ : BufTy).Contents (Elt F) → (⟨S64x2048, .f32⟩ : BufTy).Contents (Elt F) → (⟨S64x2048, .f32⟩ : BufTy).Contents (Elt F)),
    StableHlo.unary main_v174 main_v175 (Host.negf : (⟨S64x2048, .f32⟩ : BufTy).Contents (Elt F) → (⟨S64x2048, .f32⟩ : BufTy).Contents (Elt F)),
    StableHlo.unary main_v175 main_v176 (Host.exp : (⟨S64x2048, .f32⟩ : BufTy).Contents (Elt F) → (⟨S64x2048, .f32⟩ : BufTy).Contents (Elt F)),
    StableHlo.nullary main_cst_24 (constant S_ .f32 0x3F800000#32),
    StableHlo.unary main_cst_24 main_v177 (broadcastInDim S64x2048 ![] bcast_S_S64x2048 : (⟨S_, .f32⟩ : BufTy).Contents (Elt F) → (⟨S64x2048, .f32⟩ : BufTy).Contents (Elt F)),
    StableHlo.binary main_v177 main_v176 main_v178 (addf : (⟨S64x2048, .f32⟩ : BufTy).Contents (Elt F) → (⟨S64x2048, .f32⟩ : BufTy).Contents (Elt F) → (⟨S64x2048, .f32⟩ : BufTy).Contents (Elt F)),
    StableHlo.nullary main_cst_25 (constant S_ .f32 0x3F800000#32),
    StableHlo.unary main_cst_25 main_v179 (broadcastInDim S64x2048 ![] bcast_S_S64x2048 : (⟨S_, .f32⟩ : BufTy).Contents (Elt F) → (⟨S64x2048, .f32⟩ : BufTy).Contents (Elt F)),
    StableHlo.binary main_v179 main_v178 main_v180 (Host.divf : (⟨S64x2048, .f32⟩ : BufTy).Contents (Elt F) → (⟨S64x2048, .f32⟩ : BufTy).Contents (Elt F) → (⟨S64x2048, .f32⟩ : BufTy).Contents (Elt F)),
    StableHlo.binary main_v180 main_arg3 main_v181 ((fun l r => Host.dotGeneral dot_S64x2048_S2048x32001_S64x32001_1_0_0_1_n_n none l r) : (⟨S64x2048, .f32⟩ : BufTy).Contents (Elt F) → (⟨S2048x32001, .f32⟩ : BufTy).Contents (Elt F) → (⟨S64x32001, .f32⟩ : BufTy).Contents (Elt F)),
    StableHlo.unary main_arg4 main_v182 (broadcastInDim S1x32001 ![1] bcast_S32001_S1x32001_1 : (⟨S32001, .f32⟩ : BufTy).Contents (Elt F) → (⟨S1x32001, .f32⟩ : BufTy).Contents (Elt F)),
    StableHlo.unary main_v182 main_v183 (broadcastInDim S64x32001 ![0, 1] bcast_S1x32001_S64x32001_0_1 : (⟨S1x32001, .f32⟩ : BufTy).Contents (Elt F) → (⟨S64x32001, .f32⟩ : BufTy).Contents (Elt F)),
    StableHlo.binary main_v181 main_v183 main_v184 (addf : (⟨S64x32001, .f32⟩ : BufTy).Contents (Elt F) → (⟨S64x32001, .f32⟩ : BufTy).Contents (Elt F) → (⟨S64x32001, .f32⟩ : BufTy).Contents (Elt F)),
    StableHlo.binary main_v170 main_arg5 main_v185 ((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F)),
    StableHlo.unary main_arg6 main_v186 (broadcastInDim S1x2048 ![1] bcast_S2048_S1x2048_1 : (⟨S2048, .f32⟩ : BufTy).Contents (Elt F) → (⟨S1x2048, .f32⟩ : BufTy).Contents (Elt F)),
    StableHlo.unary main_v186 main_v187 (broadcastInDim S64x2048 ![0, 1] bcast_S1x2048_S64x2048_0_1 : (⟨S1x2048, .f32⟩ : BufTy).Contents (Elt F) → (⟨S64x2048, .f32⟩ : BufTy).Contents (Elt F)),
    StableHlo.binary main_v185 main_v187 main_v188 (addf : (⟨S64x2048, .f32⟩ : BufTy).Contents (Elt F) → (⟨S64x2048, .f32⟩ : BufTy).Contents (Elt F) → (⟨S64x2048, .f32⟩ : BufTy).Contents (Elt F)),
    StableHlo.unary main_v188 main_v189 (Host.negf : (⟨S64x2048, .f32⟩ : BufTy).Contents (Elt F) → (⟨S64x2048, .f32⟩ : BufTy).Contents (Elt F)),
    StableHlo.unary main_v189 main_v190 (Host.exp : (⟨S64x2048, .f32⟩ : BufTy).Contents (Elt F) → (⟨S64x2048, .f32⟩ : BufTy).Contents (Elt F)),
    StableHlo.nullary main_cst_26 (constant S_ .f32 0x3F800000#32),
    StableHlo.unary main_cst_26 main_v191 (broadcastInDim S64x2048 ![] bcast_S_S64x2048 : (⟨S_, .f32⟩ : BufTy).Contents (Elt F) → (⟨S64x2048, .f32⟩ : BufTy).Contents (Elt F)),
    StableHlo.binary main_v191 main_v190 main_v192 (addf : (⟨S64x2048, .f32⟩ : BufTy).Contents (Elt F) → (⟨S64x2048, .f32⟩ : BufTy).Contents (Elt F) → (⟨S64x2048, .f32⟩ : BufTy).Contents (Elt F)),
    StableHlo.nullary main_cst_27 (constant S_ .f32 0x3F800000#32),
    StableHlo.unary main_cst_27 main_v193 (broadcastInDim S64x2048 ![] bcast_S_S64x2048 : (⟨S_, .f32⟩ : BufTy).Contents (Elt F) → (⟨S64x2048, .f32⟩ : BufTy).Contents (Elt F)),
    StableHlo.binary main_v193 main_v192 main_v194 (Host.divf : (⟨S64x2048, .f32⟩ : BufTy).Contents (Elt F) → (⟨S64x2048, .f32⟩ : BufTy).Contents (Elt F) → (⟨S64x2048, .f32⟩ : BufTy).Contents (Elt F)),
    StableHlo.binary main_v194 main_arg7 main_v195 ((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F)),
    StableHlo.unary main_arg8 main_v196 (broadcastInDim S1x2048 ![1] bcast_S2048_S1x2048_1 : (⟨S2048, .f32⟩ : BufTy).Contents (Elt F) → (⟨S1x2048, .f32⟩ : BufTy).Contents (Elt F)),
    StableHlo.unary main_v196 main_v197 (broadcastInDim S64x2048 ![0, 1] bcast_S1x2048_S64x2048_0_1 : (⟨S1x2048, .f32⟩ : BufTy).Contents (Elt F) → (⟨S64x2048, .f32⟩ : BufTy).Contents (Elt F)),
    StableHlo.binary main_v195 main_v197 main_v198 (addf : (⟨S64x2048, .f32⟩ : BufTy).Contents (Elt F) → (⟨S64x2048, .f32⟩ : BufTy).Contents (Elt F) → (⟨S64x2048, .f32⟩ : BufTy).Contents (Elt F)),
    StableHlo.reshape main_v198 main_v199 rfl shapeCasts_S64x2048_S128x1024,
    StableHlo.binary main_v199 main_arg1 main_v200 ((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F)),
    StableHlo.unary main_arg2 main_v201 (broadcastInDim S1x2048 ![1] bcast_S2048_S1x2048_1 : (⟨S2048, .f32⟩ : BufTy).Contents (Elt F) → (⟨S1x2048, .f32⟩ : BufTy).Contents (Elt F)),
    StableHlo.unary main_v201 main_v202 (broadcastInDim S128x2048 ![0, 1] bcast_S1x2048_S128x2048_0_1 : (⟨S1x2048, .f32⟩ : BufTy).Contents (Elt F) → (⟨S128x2048, .f32⟩ : BufTy).Contents (Elt F)),
    StableHlo.binary main_v200 main_v202 main_v203 (addf : (⟨S128x2048, .f32⟩ : BufTy).Contents (Elt F) → (⟨S128x2048, .f32⟩ : BufTy).Contents (Elt F) → (⟨S128x2048, .f32⟩ : BufTy).Contents (Elt F)),
    StableHlo.unary main_v203 main_v204 (Host.negf : (⟨S128x2048, .f32⟩ : BufTy).Contents (Elt F) → (⟨S128x2048, .f32⟩ : BufTy).Contents (Elt F)),
    StableHlo.unary main_v204 main_v205 (Host.exp : (⟨S128x2048, .f32⟩ : BufTy).Contents (Elt F) → (⟨S128x2048, .f32⟩ : BufTy).Contents (Elt F)),
    StableHlo.nullary main_cst_28 (constant S_ .f32 0x3F800000#32),
    StableHlo.unary main_cst_28 main_v206 (broadcastInDim S128x2048 ![] bcast_S_S128x2048 : (⟨S_, .f32⟩ : BufTy).Contents (Elt F) → (⟨S128x2048, .f32⟩ : BufTy).Contents (Elt F)),
    StableHlo.binary main_v206 main_v205 main_v207 (addf : (⟨S128x2048, .f32⟩ : BufTy).Contents (Elt F) → (⟨S128x2048, .f32⟩ : BufTy).Contents (Elt F) → (⟨S128x2048, .f32⟩ : BufTy).Contents (Elt F)),
    StableHlo.nullary main_cst_29 (constant S_ .f32 0x3F800000#32) ]
theorem ops3_sub : (ops3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub ..⟩

/-- The 60 operations of window 4 of @main, in order. -/
abbrev ops4 : List (HloOp τ sig (Elt F)) :=
  [ StableHlo.unary main_cst_29 main_v208 (broadcastInDim S128x2048 ![] bcast_S_S128x2048 : (⟨S_, .f32⟩ : BufTy).Contents (Elt F) → (⟨S128x2048, .f32⟩ : BufTy).Contents (Elt F)),
    StableHlo.binary main_v208 main_v207 main_v209 (Host.divf : (⟨S128x2048, .f32⟩ : BufTy).Contents (Elt F) → (⟨S128x2048, .f32⟩ : BufTy).Contents (Elt F) → (⟨S128x2048, .f32⟩ : BufTy).Contents (Elt F)),
    StableHlo.binary main_v209 main_arg3 main_v210 ((fun l r => Host.dotGeneral dot_S128x2048_S2048x32001_S128x32001_1_0_0_1_n_n none l r) : (⟨S128x2048, .f32⟩ : BufTy).Contents (Elt F) → (⟨S2048x32001, .f32⟩ : BufTy).Contents (Elt F) → (⟨S128x32001, .f32⟩ : BufTy).Contents (Elt F)),
    StableHlo.unary main_arg4 main_v211 (broadcastInDim S1x32001 ![1] bcast_S32001_S1x32001_1 : (⟨S32001, .f32⟩ : BufTy).Contents (Elt F) → (⟨S1x32001, .f32⟩ : BufTy).Contents (Elt F)),
    StableHlo.unary main_v211 main_v212 (broadcastInDim S128x32001 ![0, 1] bcast_S1x32001_S128x32001_0_1 : (⟨S1x32001, .f32⟩ : BufTy).Contents (Elt F) → (⟨S128x32001, .f32⟩ : BufTy).Contents (Elt F)),
    StableHlo.binary main_v210 main_v212 main_v213 (addf : (⟨S128x32001, .f32⟩ : BufTy).Contents (Elt F) → (⟨S128x32001, .f32⟩ : BufTy).Contents (Elt F) → (⟨S128x32001, .f32⟩ : BufTy).Contents (Elt F)),
    StableHlo.binary main_v199 main_arg5 main_v214 ((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F)),
    StableHlo.unary main_arg6 main_v215 (broadcastInDim S1x2048 ![1] bcast_S2048_S1x2048_1 : (⟨S2048, .f32⟩ : BufTy).Contents (Elt F) → (⟨S1x2048, .f32⟩ : BufTy).Contents (Elt F)),
    StableHlo.unary main_v215 main_v216 (broadcastInDim S128x2048 ![0, 1] bcast_S1x2048_S128x2048_0_1 : (⟨S1x2048, .f32⟩ : BufTy).Contents (Elt F) → (⟨S128x2048, .f32⟩ : BufTy).Contents (Elt F)),
    StableHlo.binary main_v214 main_v216 main_v217 (addf : (⟨S128x2048, .f32⟩ : BufTy).Contents (Elt F) → (⟨S128x2048, .f32⟩ : BufTy).Contents (Elt F) → (⟨S128x2048, .f32⟩ : BufTy).Contents (Elt F)),
    StableHlo.unary main_v217 main_v218 (Host.negf : (⟨S128x2048, .f32⟩ : BufTy).Contents (Elt F) → (⟨S128x2048, .f32⟩ : BufTy).Contents (Elt F)),
    StableHlo.unary main_v218 main_v219 (Host.exp : (⟨S128x2048, .f32⟩ : BufTy).Contents (Elt F) → (⟨S128x2048, .f32⟩ : BufTy).Contents (Elt F)),
    StableHlo.nullary main_cst_30 (constant S_ .f32 0x3F800000#32),
    StableHlo.unary main_cst_30 main_v220 (broadcastInDim S128x2048 ![] bcast_S_S128x2048 : (⟨S_, .f32⟩ : BufTy).Contents (Elt F) → (⟨S128x2048, .f32⟩ : BufTy).Contents (Elt F)),
    StableHlo.binary main_v220 main_v219 main_v221 (addf : (⟨S128x2048, .f32⟩ : BufTy).Contents (Elt F) → (⟨S128x2048, .f32⟩ : BufTy).Contents (Elt F) → (⟨S128x2048, .f32⟩ : BufTy).Contents (Elt F)),
    StableHlo.nullary main_cst_31 (constant S_ .f32 0x3F800000#32),
    StableHlo.unary main_cst_31 main_v222 (broadcastInDim S128x2048 ![] bcast_S_S128x2048 : (⟨S_, .f32⟩ : BufTy).Contents (Elt F) → (⟨S128x2048, .f32⟩ : BufTy).Contents (Elt F)),
    StableHlo.binary main_v222 main_v221 main_v223 (Host.divf : (⟨S128x2048, .f32⟩ : BufTy).Contents (Elt F) → (⟨S128x2048, .f32⟩ : BufTy).Contents (Elt F) → (⟨S128x2048, .f32⟩ : BufTy).Contents (Elt F)),
    StableHlo.binary main_v223 main_arg7 main_v224 ((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F)),
    StableHlo.unary main_arg8 main_v225 (broadcastInDim S1x2048 ![1] bcast_S2048_S1x2048_1 : (⟨S2048, .f32⟩ : BufTy).Contents (Elt F) → (⟨S1x2048, .f32⟩ : BufTy).Contents (Elt F)),
    StableHlo.unary main_v225 main_v226 (broadcastInDim S128x2048 ![0, 1] bcast_S1x2048_S128x2048_0_1 : (⟨S1x2048, .f32⟩ : BufTy).Contents (Elt F) → (⟨S128x2048, .f32⟩ : BufTy).Contents (Elt F)),
    StableHlo.binary main_v224 main_v226 main_v227 (addf : (⟨S128x2048, .f32⟩ : BufTy).Contents (Elt F) → (⟨S128x2048, .f32⟩ : BufTy).Contents (Elt F) → (⟨S128x2048, .f32⟩ : BufTy).Contents (Elt F)),
    StableHlo.reshape main_v227 main_v228 rfl shapeCasts_S128x2048_S256x1024,
    StableHlo.binary main_v228 main_arg1 main_v229 ((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F)),
    StableHlo.unary main_arg2 main_v230 (broadcastInDim S1x2048 ![1] bcast_S2048_S1x2048_1 : (⟨S2048, .f32⟩ : BufTy).Contents (Elt F) → (⟨S1x2048, .f32⟩ : BufTy).Contents (Elt F)),
    StableHlo.unary main_v230 main_v231 (broadcastInDim S256x2048 ![0, 1] bcast_S1x2048_S256x2048_0_1 : (⟨S1x2048, .f32⟩ : BufTy).Contents (Elt F) → (⟨S256x2048, .f32⟩ : BufTy).Contents (Elt F)),
    StableHlo.binary main_v229 main_v231 main_v232 (addf : (⟨S256x2048, .f32⟩ : BufTy).Contents (Elt F) → (⟨S256x2048, .f32⟩ : BufTy).Contents (Elt F) → (⟨S256x2048, .f32⟩ : BufTy).Contents (Elt F)),
    StableHlo.unary main_v232 main_v233 (Host.negf : (⟨S256x2048, .f32⟩ : BufTy).Contents (Elt F) → (⟨S256x2048, .f32⟩ : BufTy).Contents (Elt F)),
    StableHlo.unary main_v233 main_v234 (Host.exp : (⟨S256x2048, .f32⟩ : BufTy).Contents (Elt F) → (⟨S256x2048, .f32⟩ : BufTy).Contents (Elt F)),
    StableHlo.nullary main_cst_32 (constant S_ .f32 0x3F800000#32),
    StableHlo.unary main_cst_32 main_v235 (broadcastInDim S256x2048 ![] bcast_S_S256x2048 : (⟨S_, .f32⟩ : BufTy).Contents (Elt F) → (⟨S256x2048, .f32⟩ : BufTy).Contents (Elt F)),
    StableHlo.binary main_v235 main_v234 main_v236 (addf : (⟨S256x2048, .f32⟩ : BufTy).Contents (Elt F) → (⟨S256x2048, .f32⟩ : BufTy).Contents (Elt F) → (⟨S256x2048, .f32⟩ : BufTy).Contents (Elt F)),
    StableHlo.nullary main_cst_33 (constant S_ .f32 0x3F800000#32),
    StableHlo.unary main_cst_33 main_v237 (broadcastInDim S256x2048 ![] bcast_S_S256x2048 : (⟨S_, .f32⟩ : BufTy).Contents (Elt F) → (⟨S256x2048, .f32⟩ : BufTy).Contents (Elt F)),
    StableHlo.binary main_v237 main_v236 main_v238 (Host.divf : (⟨S256x2048, .f32⟩ : BufTy).Contents (Elt F) → (⟨S256x2048, .f32⟩ : BufTy).Contents (Elt F) → (⟨S256x2048, .f32⟩ : BufTy).Contents (Elt F)),
    StableHlo.binary main_v238 main_arg3 main_v239 ((fun l r => Host.dotGeneral dot_S256x2048_S2048x32001_S256x32001_1_0_0_1_n_n none l r) : (⟨S256x2048, .f32⟩ : BufTy).Contents (Elt F) → (⟨S2048x32001, .f32⟩ : BufTy).Contents (Elt F) → (⟨S256x32001, .f32⟩ : BufTy).Contents (Elt F)),
    StableHlo.unary main_arg4 main_v240 (broadcastInDim S1x32001 ![1] bcast_S32001_S1x32001_1 : (⟨S32001, .f32⟩ : BufTy).Contents (Elt F) → (⟨S1x32001, .f32⟩ : BufTy).Contents (Elt F)),
    StableHlo.unary main_v240 main_v241 (broadcastInDim S256x32001 ![0, 1] bcast_S1x32001_S256x32001_0_1 : (⟨S1x32001, .f32⟩ : BufTy).Contents (Elt F) → (⟨S256x32001, .f32⟩ : BufTy).Contents (Elt F)),
    StableHlo.binary main_v239 main_v241 main_v242 (addf : (⟨S256x32001, .f32⟩ : BufTy).Contents (Elt F) → (⟨S256x32001, .f32⟩ : BufTy).Contents (Elt F) → (⟨S256x32001, .f32⟩ : BufTy).Contents (Elt F)),
    StableHlo.binary main_v228 main_arg5 main_v243 ((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F)),
    StableHlo.unary main_arg6 main_v244 (broadcastInDim S1x2048 ![1] bcast_S2048_S1x2048_1 : (⟨S2048, .f32⟩ : BufTy).Contents (Elt F) → (⟨S1x2048, .f32⟩ : BufTy).Contents (Elt F)),
    StableHlo.unary main_v244 main_v245 (broadcastInDim S256x2048 ![0, 1] bcast_S1x2048_S256x2048_0_1 : (⟨S1x2048, .f32⟩ : BufTy).Contents (Elt F) → (⟨S256x2048, .f32⟩ : BufTy).Contents (Elt F)),
    StableHlo.binary main_v243 main_v245 main_v246 (addf : (⟨S256x2048, .f32⟩ : BufTy).Contents (Elt F) → (⟨S256x2048, .f32⟩ : BufTy).Contents (Elt F) → (⟨S256x2048, .f32⟩ : BufTy).Contents (Elt F)),
    StableHlo.unary main_v246 main_v247 (Host.negf : (⟨S256x2048, .f32⟩ : BufTy).Contents (Elt F) → (⟨S256x2048, .f32⟩ : BufTy).Contents (Elt F)),
    StableHlo.unary main_v247 main_v248 (Host.exp : (⟨S256x2048, .f32⟩ : BufTy).Contents (Elt F) → (⟨S256x2048, .f32⟩ : BufTy).Contents (Elt F)),
    StableHlo.nullary main_cst_34 (constant S_ .f32 0x3F800000#32),
    StableHlo.unary main_cst_34 main_v249 (broadcastInDim S256x2048 ![] bcast_S_S256x2048 : (⟨S_, .f32⟩ : BufTy).Contents (Elt F) → (⟨S256x2048, .f32⟩ : BufTy).Contents (Elt F)),
    StableHlo.binary main_v249 main_v248 main_v250 (addf : (⟨S256x2048, .f32⟩ : BufTy).Contents (Elt F) → (⟨S256x2048, .f32⟩ : BufTy).Contents (Elt F) → (⟨S256x2048, .f32⟩ : BufTy).Contents (Elt F)),
    StableHlo.nullary main_cst_35 (constant S_ .f32 0x3F800000#32),
    StableHlo.unary main_cst_35 main_v251 (broadcastInDim S256x2048 ![] bcast_S_S256x2048 : (⟨S_, .f32⟩ : BufTy).Contents (Elt F) → (⟨S256x2048, .f32⟩ : BufTy).Contents (Elt F)),
    StableHlo.binary main_v251 main_v250 main_v252 (Host.divf : (⟨S256x2048, .f32⟩ : BufTy).Contents (Elt F) → (⟨S256x2048, .f32⟩ : BufTy).Contents (Elt F) → (⟨S256x2048, .f32⟩ : BufTy).Contents (Elt F)),
    StableHlo.binary main_v252 main_arg7 main_v253 ((fun l r => Host.dotGeneral dot_S256x2048_S2048x2048_S256x2048_1_0_0_1_n_n none l r) : (⟨S256x2048, .f32⟩ : BufTy).Contents (Elt F) → (⟨S2048x2048, .f32⟩ : BufTy).Contents (Elt F) → (⟨S256x2048, .f32⟩ : BufTy).Contents (Elt F)),
    StableHlo.unary main_arg8 main_v254 (broadcastInDim S1x2048 ![1] bcast_S2048_S1x2048_1 : (⟨S2048, .f32⟩ : BufTy).Contents (Elt F) → (⟨S1x2048, .f32⟩ : BufTy).Contents (Elt F)),
    StableHlo.unary main_v254 main_v255 (broadcastInDim S256x2048 ![0, 1] bcast_S1x2048_S256x2048_0_1 : (⟨S1x2048, .f32⟩ : BufTy).Contents (Elt F) → (⟨S256x2048, .f32⟩ : BufTy).Contents (Elt F)),
    StableHlo.binary main_v253 main_v255 main_v256 (addf : (⟨S256x2048, .f32⟩ : BufTy).Contents (Elt F) → (⟨S256x2048, .f32⟩ : BufTy).Contents (Elt F) → (⟨S256x2048, .f32⟩ : BufTy).Contents (Elt F)),
    StableHlo.reshape main_v256 main_v257 rfl shapeCasts_S256x2048_S512x1024,
    StableHlo.binary main_v257 main_arg1 main_v258 ((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F)),
    StableHlo.unary main_arg2 main_v259 (broadcastInDim S1x2048 ![1] bcast_S2048_S1x2048_1 : (⟨S2048, .f32⟩ : BufTy).Contents (Elt F) → (⟨S1x2048, .f32⟩ : BufTy).Contents (Elt F)),
    StableHlo.unary main_v259 main_v260 (broadcastInDim S512x2048 ![0, 1] bcast_S1x2048_S512x2048_0_1 : (⟨S1x2048, .f32⟩ : BufTy).Contents (Elt F) → (⟨S512x2048, .f32⟩ : BufTy).Contents (Elt F)),
    StableHlo.binary main_v258 main_v260 main_v261 (addf : (⟨S512x2048, .f32⟩ : BufTy).Contents (Elt F) → (⟨S512x2048, .f32⟩ : BufTy).Contents (Elt F) → (⟨S512x2048, .f32⟩ : BufTy).Contents (Elt F)) ]
theorem ops4_sub : (ops4 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub ..⟩

/-- The 60 operations of window 5 of @main, in order. -/
abbrev ops5 : List (HloOp τ sig (Elt F)) :=
  [ StableHlo.unary main_v261 main_v262 (Host.negf : (⟨S512x2048, .f32⟩ : BufTy).Contents (Elt F) → (⟨S512x2048, .f32⟩ : BufTy).Contents (Elt F)),
    StableHlo.unary main_v262 main_v263 (Host.exp : (⟨S512x2048, .f32⟩ : BufTy).Contents (Elt F) → (⟨S512x2048, .f32⟩ : BufTy).Contents (Elt F)),
    StableHlo.nullary main_cst_36 (constant S_ .f32 0x3F800000#32),
    StableHlo.unary main_cst_36 main_v264 (broadcastInDim S512x2048 ![] bcast_S_S512x2048 : (⟨S_, .f32⟩ : BufTy).Contents (Elt F) → (⟨S512x2048, .f32⟩ : BufTy).Contents (Elt F)),
    StableHlo.binary main_v264 main_v263 main_v265 (addf : (⟨S512x2048, .f32⟩ : BufTy).Contents (Elt F) → (⟨S512x2048, .f32⟩ : BufTy).Contents (Elt F) → (⟨S512x2048, .f32⟩ : BufTy).Contents (Elt F)),
    StableHlo.nullary main_cst_37 (constant S_ .f32 0x3F800000#32),
    StableHlo.unary main_cst_37 main_v266 (broadcastInDim S512x2048 ![] bcast_S_S512x2048 : (⟨S_, .f32⟩ : BufTy).Contents (Elt F) → (⟨S512x2048, .f32⟩ : BufTy).Contents (Elt F)),
    StableHlo.binary main_v266 main_v265 main_v267 (Host.divf : (⟨S512x2048, .f32⟩ : BufTy).Contents (Elt F) → (⟨S512x2048, .f32⟩ : BufTy).Contents (Elt F) → (⟨S512x2048, .f32⟩ : BufTy).Contents (Elt F)),
    StableHlo.binary main_v267 main_arg3 main_v268 ((fun l r => Host.dotGeneral dot_S512x2048_S2048x32001_S512x32001_1_0_0_1_n_n none l r) : (⟨S512x2048, .f32⟩ : BufTy).Contents (Elt F) → (⟨S2048x32001, .f32⟩ : BufTy).Contents (Elt F) → (⟨S512x32001, .f32⟩ : BufTy).Contents (Elt F)),
    StableHlo.unary main_arg4 main_v269 (broadcastInDim S1x32001 ![1] bcast_S32001_S1x32001_1 : (⟨S32001, .f32⟩ : BufTy).Contents (Elt F) → (⟨S1x32001, .f32⟩ : BufTy).Contents (Elt F)),
    StableHlo.unary main_v269 main_v270 (broadcastInDim S512x32001 ![0, 1] bcast_S1x32001_S512x32001_0_1 : (⟨S1x32001, .f32⟩ : BufTy).Contents (Elt F) → (⟨S512x32001, .f32⟩ : BufTy).Contents (Elt F)),
    StableHlo.binary main_v268 main_v270 main_v271 (addf : (⟨S512x32001, .f32⟩ : BufTy).Contents (Elt F) → (⟨S512x32001, .f32⟩ : BufTy).Contents (Elt F) → (⟨S512x32001, .f32⟩ : BufTy).Contents (Elt F)),
    StableHlo.binary main_v257 main_arg5 main_v272 ((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F)),
    StableHlo.unary main_arg6 main_v273 (broadcastInDim S1x2048 ![1] bcast_S2048_S1x2048_1 : (⟨S2048, .f32⟩ : BufTy).Contents (Elt F) → (⟨S1x2048, .f32⟩ : BufTy).Contents (Elt F)),
    StableHlo.unary main_v273 main_v274 (broadcastInDim S512x2048 ![0, 1] bcast_S1x2048_S512x2048_0_1 : (⟨S1x2048, .f32⟩ : BufTy).Contents (Elt F) → (⟨S512x2048, .f32⟩ : BufTy).Contents (Elt F)),
    StableHlo.binary main_v272 main_v274 main_v275 (addf : (⟨S512x2048, .f32⟩ : BufTy).Contents (Elt F) → (⟨S512x2048, .f32⟩ : BufTy).Contents (Elt F) → (⟨S512x2048, .f32⟩ : BufTy).Contents (Elt F)),
    StableHlo.unary main_v275 main_v276 (Host.negf : (⟨S512x2048, .f32⟩ : BufTy).Contents (Elt F) → (⟨S512x2048, .f32⟩ : BufTy).Contents (Elt F)),
    StableHlo.unary main_v276 main_v277 (Host.exp : (⟨S512x2048, .f32⟩ : BufTy).Contents (Elt F) → (⟨S512x2048, .f32⟩ : BufTy).Contents (Elt F)),
    StableHlo.nullary main_cst_38 (constant S_ .f32 0x3F800000#32),
    StableHlo.unary main_cst_38 main_v278 (broadcastInDim S512x2048 ![] bcast_S_S512x2048 : (⟨S_, .f32⟩ : BufTy).Contents (Elt F) → (⟨S512x2048, .f32⟩ : BufTy).Contents (Elt F)),
    StableHlo.binary main_v278 main_v277 main_v279 (addf : (⟨S512x2048, .f32⟩ : BufTy).Contents (Elt F) → (⟨S512x2048, .f32⟩ : BufTy).Contents (Elt F) → (⟨S512x2048, .f32⟩ : BufTy).Contents (Elt F)),
    StableHlo.nullary main_cst_39 (constant S_ .f32 0x3F800000#32),
    StableHlo.unary main_cst_39 main_v280 (broadcastInDim S512x2048 ![] bcast_S_S512x2048 : (⟨S_, .f32⟩ : BufTy).Contents (Elt F) → (⟨S512x2048, .f32⟩ : BufTy).Contents (Elt F)),
    StableHlo.binary main_v280 main_v279 main_v281 (Host.divf : (⟨S512x2048, .f32⟩ : BufTy).Contents (Elt F) → (⟨S512x2048, .f32⟩ : BufTy).Contents (Elt F) → (⟨S512x2048, .f32⟩ : BufTy).Contents (Elt F)),
    StableHlo.binary main_v281 main_arg7 main_v282 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    StableHlo.unary main_arg8 main_v283 (broadcastInDim S1x2048 ![1] bcast_S2048_S1x2048_1 : (⟨S2048, .f32⟩ : BufTy).Contents (Elt F) → (⟨S1x2048, .f32⟩ : BufTy).Contents (Elt F)),
    StableHlo.unary main_v283 main_v284 (broadcastInDim S512x2048 ![0, 1] bcast_S1x2048_S512x2048_0_1 : (⟨S1x2048, .f32⟩ : BufTy).Contents (Elt F) → (⟨S512x2048, .f32⟩ : BufTy).Contents (Elt F)),
    StableHlo.binary main_v282 main_v284 main_v285 (addf : (⟨S512x2048, .f32⟩ : BufTy).Contents (Elt F) → (⟨S512x2048, .f32⟩ : BufTy).Contents (Elt F) → (⟨S512x2048, .f32⟩ : BufTy).Contents (Elt F)),
    StableHlo.reshape main_v285 main_v286 rfl shapeCasts_S512x2048_S1024x1024,
    StableHlo.binary main_v286 main_arg1 main_v287 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F)),
    StableHlo.unary main_arg2 main_v288 (broadcastInDim S1x2048 ![1] bcast_S2048_S1x2048_1 : (⟨S2048, .f32⟩ : BufTy).Contents (Elt F) → (⟨S1x2048, .f32⟩ : BufTy).Contents (Elt F)),
    StableHlo.unary main_v288 main_v289 (broadcastInDim S1024x2048 ![0, 1] bcast_S1x2048_S1024x2048_0_1 : (⟨S1x2048, .f32⟩ : BufTy).Contents (Elt F) → (⟨S1024x2048, .f32⟩ : BufTy).Contents (Elt F)),
    StableHlo.binary main_v287 main_v289 main_v290 (addf : (⟨S1024x2048, .f32⟩ : BufTy).Contents (Elt F) → (⟨S1024x2048, .f32⟩ : BufTy).Contents (Elt F) → (⟨S1024x2048, .f32⟩ : BufTy).Contents (Elt F)),
    StableHlo.unary main_v290 main_v291 (Host.negf : (⟨S1024x2048, .f32⟩ : BufTy).Contents (Elt F) → (⟨S1024x2048, .f32⟩ : BufTy).Contents (Elt F)),
    StableHlo.unary main_v291 main_v292 (Host.exp : (⟨S1024x2048, .f32⟩ : BufTy).Contents (Elt F) → (⟨S1024x2048, .f32⟩ : BufTy).Contents (Elt F)),
    StableHlo.nullary main_cst_40 (constant S_ .f32 0x3F800000#32),
    StableHlo.unary main_cst_40 main_v293 (broadcastInDim S1024x2048 ![] bcast_S_S1024x2048 : (⟨S_, .f32⟩ : BufTy).Contents (Elt F) → (⟨S1024x2048, .f32⟩ : BufTy).Contents (Elt F)),
    StableHlo.binary main_v293 main_v292 main_v294 (addf : (⟨S1024x2048, .f32⟩ : BufTy).Contents (Elt F) → (⟨S1024x2048, .f32⟩ : BufTy).Contents (Elt F) → (⟨S1024x2048, .f32⟩ : BufTy).Contents (Elt F)),
    StableHlo.nullary main_cst_41 (constant S_ .f32 0x3F800000#32),
    StableHlo.unary main_cst_41 main_v295 (broadcastInDim S1024x2048 ![] bcast_S_S1024x2048 : (⟨S_, .f32⟩ : BufTy).Contents (Elt F) → (⟨S1024x2048, .f32⟩ : BufTy).Contents (Elt F)),
    StableHlo.binary main_v295 main_v294 main_v296 (Host.divf : (⟨S1024x2048, .f32⟩ : BufTy).Contents (Elt F) → (⟨S1024x2048, .f32⟩ : BufTy).Contents (Elt F) → (⟨S1024x2048, .f32⟩ : BufTy).Contents (Elt F)),
    StableHlo.binary main_v296 main_arg3 main_v297 ((fun l r => Host.dotGeneral dot_S1024x2048_S2048x32001_S1024x32001_1_0_0_1_n_n none l r) : (⟨S1024x2048, .f32⟩ : BufTy).Contents (Elt F) → (⟨S2048x32001, .f32⟩ : BufTy).Contents (Elt F) → (⟨S1024x32001, .f32⟩ : BufTy).Contents (Elt F)),
    StableHlo.unary main_arg4 main_v298 (broadcastInDim S1x32001 ![1] bcast_S32001_S1x32001_1 : (⟨S32001, .f32⟩ : BufTy).Contents (Elt F) → (⟨S1x32001, .f32⟩ : BufTy).Contents (Elt F)),
    StableHlo.unary main_v298 main_v299 (broadcastInDim S1024x32001 ![0, 1] bcast_S1x32001_S1024x32001_0_1 : (⟨S1x32001, .f32⟩ : BufTy).Contents (Elt F) → (⟨S1024x32001, .f32⟩ : BufTy).Contents (Elt F)),
    StableHlo.binary main_v297 main_v299 main_v300 (addf : (⟨S1024x32001, .f32⟩ : BufTy).Contents (Elt F) → (⟨S1024x32001, .f32⟩ : BufTy).Contents (Elt F) → (⟨S1024x32001, .f32⟩ : BufTy).Contents (Elt F)),
    StableHlo.binary main_v286 main_arg5 main_v301 ((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F)),
    StableHlo.unary main_arg6 main_v302 (broadcastInDim S1x2048 ![1] bcast_S2048_S1x2048_1 : (⟨S2048, .f32⟩ : BufTy).Contents (Elt F) → (⟨S1x2048, .f32⟩ : BufTy).Contents (Elt F)),
    StableHlo.unary main_v302 main_v303 (broadcastInDim S1024x2048 ![0, 1] bcast_S1x2048_S1024x2048_0_1 : (⟨S1x2048, .f32⟩ : BufTy).Contents (Elt F) → (⟨S1024x2048, .f32⟩ : BufTy).Contents (Elt F)),
    StableHlo.binary main_v301 main_v303 main_v304 (addf : (⟨S1024x2048, .f32⟩ : BufTy).Contents (Elt F) → (⟨S1024x2048, .f32⟩ : BufTy).Contents (Elt F) → (⟨S1024x2048, .f32⟩ : BufTy).Contents (Elt F)),
    StableHlo.unary main_v304 main_v305 (Host.negf : (⟨S1024x2048, .f32⟩ : BufTy).Contents (Elt F) → (⟨S1024x2048, .f32⟩ : BufTy).Contents (Elt F)),
    StableHlo.unary main_v305 main_v306 (Host.exp : (⟨S1024x2048, .f32⟩ : BufTy).Contents (Elt F) → (⟨S1024x2048, .f32⟩ : BufTy).Contents (Elt F)),
    StableHlo.nullary main_cst_42 (constant S_ .f32 0x3F800000#32),
    StableHlo.unary main_cst_42 main_v307 (broadcastInDim S1024x2048 ![] bcast_S_S1024x2048 : (⟨S_, .f32⟩ : BufTy).Contents (Elt F) → (⟨S1024x2048, .f32⟩ : BufTy).Contents (Elt F)),
    StableHlo.binary main_v307 main_v306 main_v308 (addf : (⟨S1024x2048, .f32⟩ : BufTy).Contents (Elt F) → (⟨S1024x2048, .f32⟩ : BufTy).Contents (Elt F) → (⟨S1024x2048, .f32⟩ : BufTy).Contents (Elt F)),
    StableHlo.nullary main_cst_43 (constant S_ .f32 0x3F800000#32),
    StableHlo.unary main_cst_43 main_v309 (broadcastInDim S1024x2048 ![] bcast_S_S1024x2048 : (⟨S_, .f32⟩ : BufTy).Contents (Elt F) → (⟨S1024x2048, .f32⟩ : BufTy).Contents (Elt F)),
    StableHlo.binary main_v309 main_v308 main_v310 (Host.divf : (⟨S1024x2048, .f32⟩ : BufTy).Contents (Elt F) → (⟨S1024x2048, .f32⟩ : BufTy).Contents (Elt F) → (⟨S1024x2048, .f32⟩ : BufTy).Contents (Elt F)),
    StableHlo.binary main_v310 main_arg7 main_v311 ((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F)),
    StableHlo.unary main_arg8 main_v312 (broadcastInDim S1x2048 ![1] bcast_S2048_S1x2048_1 : (⟨S2048, .f32⟩ : BufTy).Contents (Elt F) → (⟨S1x2048, .f32⟩ : BufTy).Contents (Elt F)),
    StableHlo.unary main_v312 main_v313 (broadcastInDim S1024x2048 ![0, 1] bcast_S1x2048_S1024x2048_0_1 : (⟨S1x2048, .f32⟩ : BufTy).Contents (Elt F) → (⟨S1024x2048, .f32⟩ : BufTy).Contents (Elt F)) ]
theorem ops5_sub : (ops5 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub ..⟩

/-- The 40 operations of window 6 of @main, in order. -/
abbrev ops6 : List (HloOp τ sig (Elt F)) :=
  [ StableHlo.binary main_v311 main_v313 main_v314 (addf : (⟨S1024x2048, .f32⟩ : BufTy).Contents (Elt F) → (⟨S1024x2048, .f32⟩ : BufTy).Contents (Elt F) → (⟨S1024x2048, .f32⟩ : BufTy).Contents (Elt F)),
    StableHlo.reshape main_v314 main_v315 rfl shapeCasts_S1024x2048_S2048x1024,
    StableHlo.binary main_v315 main_arg1 main_v316 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    StableHlo.unary main_arg2 main_v317 (broadcastInDim S1x2048 ![1] bcast_S2048_S1x2048_1 : (⟨S2048, .f32⟩ : BufTy).Contents (Elt F) → (⟨S1x2048, .f32⟩ : BufTy).Contents (Elt F)),
    StableHlo.unary main_v317 main_v318 (broadcastInDim S2048x2048 ![0, 1] bcast_S1x2048_S2048x2048_0_1 : (⟨S1x2048, .f32⟩ : BufTy).Contents (Elt F) → (⟨S2048x2048, .f32⟩ : BufTy).Contents (Elt F)),
    StableHlo.binary main_v316 main_v318 main_v319 (addf : (⟨S2048x2048, .f32⟩ : BufTy).Contents (Elt F) → (⟨S2048x2048, .f32⟩ : BufTy).Contents (Elt F) → (⟨S2048x2048, .f32⟩ : BufTy).Contents (Elt F)),
    StableHlo.unary main_v319 main_v320 (Host.negf : (⟨S2048x2048, .f32⟩ : BufTy).Contents (Elt F) → (⟨S2048x2048, .f32⟩ : BufTy).Contents (Elt F)),
    StableHlo.unary main_v320 main_v321 (Host.exp : (⟨S2048x2048, .f32⟩ : BufTy).Contents (Elt F) → (⟨S2048x2048, .f32⟩ : BufTy).Contents (Elt F)),
    StableHlo.nullary main_cst_44 (constant S_ .f32 0x3F800000#32),
    StableHlo.unary main_cst_44 main_v322 (broadcastInDim S2048x2048 ![] bcast_S_S2048x2048 : (⟨S_, .f32⟩ : BufTy).Contents (Elt F) → (⟨S2048x2048, .f32⟩ : BufTy).Contents (Elt F)),
    StableHlo.binary main_v322 main_v321 main_v323 (addf : (⟨S2048x2048, .f32⟩ : BufTy).Contents (Elt F) → (⟨S2048x2048, .f32⟩ : BufTy).Contents (Elt F) → (⟨S2048x2048, .f32⟩ : BufTy).Contents (Elt F)),
    StableHlo.nullary main_cst_45 (constant S_ .f32 0x3F800000#32),
    StableHlo.unary main_cst_45 main_v324 (broadcastInDim S2048x2048 ![] bcast_S_S2048x2048 : (⟨S_, .f32⟩ : BufTy).Contents (Elt F) → (⟨S2048x2048, .f32⟩ : BufTy).Contents (Elt F)),
    StableHlo.binary main_v324 main_v323 main_v325 (Host.divf : (⟨S2048x2048, .f32⟩ : BufTy).Contents (Elt F) → (⟨S2048x2048, .f32⟩ : BufTy).Contents (Elt F) → (⟨S2048x2048, .f32⟩ : BufTy).Contents (Elt F)),
    StableHlo.binary main_v325 main_arg3 main_v326 ((fun l r => Host.dotGeneral dot_S2048x2048_S2048x32001_S2048x32001_1_0_0_1_n_n none l r) : (⟨S2048x2048, .f32⟩ : BufTy).Contents (Elt F) → (⟨S2048x32001, .f32⟩ : BufTy).Contents (Elt F) → (⟨S2048x32001, .f32⟩ : BufTy).Contents (Elt F)),
    StableHlo.unary main_arg4 main_v327 (broadcastInDim S1x32001 ![1] bcast_S32001_S1x32001_1 : (⟨S32001, .f32⟩ : BufTy).Contents (Elt F) → (⟨S1x32001, .f32⟩ : BufTy).Contents (Elt F)),
    StableHlo.unary main_v327 main_v328 (broadcastInDim S2048x32001 ![0, 1] bcast_S1x32001_S2048x32001_0_1 : (⟨S1x32001, .f32⟩ : BufTy).Contents (Elt F) → (⟨S2048x32001, .f32⟩ : BufTy).Contents (Elt F)),
    StableHlo.binary main_v326 main_v328 main_v329 (addf : (⟨S2048x32001, .f32⟩ : BufTy).Contents (Elt F) → (⟨S2048x32001, .f32⟩ : BufTy).Contents (Elt F) → (⟨S2048x32001, .f32⟩ : BufTy).Contents (Elt F)),
    StableHlo.nary ![main_v12, main_v39, main_v68, main_v97, main_v126, main_v155, main_v184, main_v213, main_v242, main_v271, main_v300, main_v329] main_v330 (fun u => concatenate S4095x32001 0 [⟨S1x32001, u 0⟩, ⟨S2x32001, u 1⟩, ⟨S4x32001, u 2⟩, ⟨S8x32001, u 3⟩, ⟨S16x32001, u 4⟩, ⟨S32x32001, u 5⟩, ⟨S64x32001, u 6⟩, ⟨S128x32001, u 7⟩, ⟨S256x32001, u 8⟩, ⟨S512x32001, u 9⟩, ⟨S1024x32001, u 10⟩, ⟨S2048x32001, u 11⟩] concatenates_S1x32001_S2x32001_S4x32001_S8x32001_S16x32001_S32x32001_S64x32001_S128x32001_S256x32001_S512x32001_S1024x32001_S2048x32001_S4095x32001_d0),
    StableHlo.nullary main_c_46 (constantI S_ 32 4095#32),
    StableHlo.unary main_c_46 main_v331 (broadcastInDim S4095 ![] bcast_S_S4095 : (⟨S_, .i32⟩ : BufTy).Contents (Elt F) → (⟨S4095, .i32⟩ : BufTy).Contents (Elt F)),
    StableHlo.binary main_c main_v331 main_v332 (addi : (⟨S4095, .i32⟩ : BufTy).Contents (Elt F) → (⟨S4095, .i32⟩ : BufTy).Contents (Elt F) → (⟨S4095, .i32⟩ : BufTy).Contents (Elt F)),
    StableHlo.ternary main_c_0 main_v332 main_c main_v333 (select : (⟨S4095, .i1⟩ : BufTy).Contents (Elt F) → (⟨S4095, .i32⟩ : BufTy).Contents (Elt F) → (⟨S4095, .i32⟩ : BufTy).Contents (Elt F) → (⟨S4095, .i32⟩ : BufTy).Contents (Elt F)),
    StableHlo.unary main_v333 main_v334 (broadcastInDim S4095x1 ![0] bcast_S4095_S4095x1_0 : (⟨S4095, .i32⟩ : BufTy).Contents (Elt F) → (⟨S4095x1, .i32⟩ : BufTy).Contents (Elt F)),
    StableHlo.binary main_v330 main_v334 main_v335 ((fun x i => Host.gather gather_S4095x32001_S4095x1_S4095x32001_1_0_n_n_0_1_132001 x i) : (⟨S4095x32001, .f32⟩ : BufTy).Contents (Elt F) → (⟨S4095x1, .i32⟩ : BufTy).Contents (Elt F) → (⟨S4095x32001, .f32⟩ : BufTy).Contents (Elt F)),
    StableHlo.TRef.nullary main_call0.cst (constant S_ .f32 0xFF800000#32),
    StableHlo.TRef.binary (.of main_v335 : StableHlo.TRef sig ⟨S4095x32001, .f32⟩) main_call0.cst main_call0.v0 (fun x v => Host.reduce FloatOps.maximumf x v reducesTo_S4095x32001_S4095_d1 h_S_),
    StableHlo.TRef.nullary main_call0.cst_0 (constant S_ .f32 0xFF800000#32),
    StableHlo.TRef.unary main_call0.cst_0 main_call0.v1 (broadcastInDim S4095 ![] bcast_S_S4095),
    StableHlo.TRef.binary main_call0.v1 main_call0.v0 main_call0.v2 maximumf,
    StableHlo.TRef.unary main_call0.v2 main_call0.v3 (broadcastInDim S4095x1 ![0] bcast_S4095_S4095x1_0),
    StableHlo.TRef.unary main_call0.v3 main_call0.v4 (broadcastInDim S4095x32001 ![0, 1] bcast_S4095x1_S4095x32001_0_1),
    StableHlo.TRef.binary (.of main_v335 : StableHlo.TRef sig ⟨S4095x32001, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4095x32001_S4095_d1 h_S_),
    StableHlo.TRef.unary main_call0.v7 main_call0.v8 (broadcastInDim S4095x1 ![0] bcast_S4095_S4095x1_0),
    StableHlo.TRef.unary main_call0.v8 main_call0.v9 Host.log,
    StableHlo.TRef.unary main_call0.v9 main_call0.v10 (broadcastInDim S4095x32001 ![0, 1] bcast_S4095x1_S4095x32001_0_1),
    StableHlo.TRef.binary main_call0.v5 main_call0.v10 main_call0.v11 subf ]
theorem ops6_sub : (ops6 : List (HloOp τ sig (Elt F))).Forall fun op => op.bufs ⊆ StableHlo.tcRefs τ sig :=
  ⟨StableHlo.binary_bufs_sub .., StableHlo.reshape_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

end Cert.ReferenceIdeal.RefRun

end
-- ==== Proof.RefRun.lean ====
/-
  The reference's run: @main is a straight line of 400 host operations (the value MLP and the children MLP level by
  level, the twelve levels of logits stacked, the pre-order gather, and the row-wise log-softmax), so every weakly fair
  execution terminates, nothing faults, and every buffer ends at the fold of the operations' results over the launch
  memory.
-/
import proofs.«141888_j3590592659519_2_alg».proof.Proof.RefOps
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! Each printed window of @main is the sequence of its operations. -/
theorem part0_eq (c : Dev nD) : main_part0 (F := F) c = StableHlo.seq ops0 := rfl
theorem part1_eq (c : Dev nD) : main_part1 (F := F) c = StableHlo.seq ops1 := rfl
theorem part2_eq (c : Dev nD) : main_part2 (F := F) c = StableHlo.seq ops2 := rfl
theorem part3_eq (c : Dev nD) : main_part3 (F := F) c = StableHlo.seq ops3 := rfl
theorem part4_eq (c : Dev nD) : main_part4 (F := F) c = StableHlo.seq ops4 := rfl
theorem part5_eq (c : Dev nD) : main_part5 (F := F) c = StableHlo.seq ops5 := rfl
theorem part6_eq (c : Dev nD) : main_part6 (F := F) c = StableHlo.seq ops6 := rfl

/-- @main's operations, in order. -/
abbrev ops : List (HloOp τ sig (Elt F)) := ops0 ++ (ops1 ++ (ops2 ++ (ops3 ++ (ops4 ++ (ops5 ++ ops6)))))

/-- @main is the sequence of its operations. -/
theorem main_eq (c : Dev nD) : main (F := F) c = StableHlo.seq ops := by
  show (main_part0 (F := F) c >>= fun _ => main_part1 (F := F) c >>= fun _ => main_part2 (F := F) c >>= fun _ =>
    main_part3 (F := F) c >>= fun _ => main_part4 (F := F) c >>= fun _ => main_part5 (F := F) c >>= fun _ => main_part6 (F := F) c) = _
  rw [part0_eq, part1_eq, part2_eq, part3_eq, part4_eq, part5_eq, part6_eq]
  simp only [StableHlo.seq_append]

theorem scopedRefs_eq : (Finset.univ.filter fun b : Ref sig .tc => b.isScoped) = ∅ := by decide
theorem scopedSems_eq : (Finset.univ.filter fun sm : SemLoc sig => sm.isScoped .tc) = ∅ := by decide

/-! No operation allocates a buffer. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops5_fresh : ∀ op ∈ (ops5 : List (HloOp τ sig (Elt F))), op.fresh = ∅ := by
  intro _ h; (repeat (cases h with | head => rfl | tail _ h => ?_)); exact nomatch h
theorem ops6_fresh : ∀ op ∈ (ops6 : List (HloOp τ sig (Elt F))), op.fresh = ∅ := by
  intro _ h; (repeat (cases h with | head => rfl | tail _ h => ?_)); exact nomatch h

/-- Membership in @main's operations is membership in one of its windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) ∨ op ∈ (ops5 : List (HloOp τ sig (Elt F)))
      ∨ op ∈ (ops6 : List (HloOp τ sig (Elt F))) := by
  simpa only [ops, List.mem_append] using h

theorem ops_fresh : ∀ op ∈ (ops : List (HloOp τ sig (Elt F))), op.fresh = ∅ := fun op h => by
  rcases mem_ops h with h | h | h | h | h | h | h
  · exact ops0_fresh op h
  · exact ops1_fresh op h
  · exact ops2_fresh op h
  · exact ops3_fresh op h
  · exact ops4_fresh op h
  · exact ops5_fresh op h
  · exact ops6_fresh op h

theorem ops_sub : (ops : List (HloOp τ sig (Elt F))).Forall fun op => op.bufs ⊆ StableHlo.tcRefs τ sig :=
  List.forall_iff_forall_mem.mpr fun op h => by
    rcases mem_ops h with h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h

/-- THE RUN: on every device, from any memory with zero counters, every weakly fair execution of @main terminates and
    every buffer ends at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after ops (StableHlo.launchContents m d) (Proc.devRef .tc b) :=
  StableHlo.run_seq scopedRefs_eq scopedSems_eq defs main (fun _ => ops) main_eq (fun _ => ops_sub) m ρ (fun _ => ops_fresh)

end Cert.ReferenceIdeal.RefRun

end
-- ==== Proof.RefArgsA.lean ====
/-
  The reference's argument arrays 0, 1 and 2 end as launched: no operation of @main writes an argument, so the fold of the
  operations' results at an argument's buffer is its launch contents.
-/
import proofs.«141888_j3590592659519_2_alg».proof.Proof.RefRun
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem

variable {F : FTy → Type} [FloatOps F]

theorem nw0_main_arg0 : ∀ op ∈ (ops0 : List (HloOp τ sig (Elt F))), (Proc.devRef .tc main_arg0 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg0 : ∀ op ∈ (ops1 : List (HloOp τ sig (Elt F))), (Proc.devRef .tc main_arg0 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg0 : ∀ op ∈ (ops2 : List (HloOp τ sig (Elt F))), (Proc.devRef .tc main_arg0 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg0 : ∀ op ∈ (ops3 : List (HloOp τ sig (Elt F))), (Proc.devRef .tc main_arg0 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg0 : ∀ op ∈ (ops4 : List (HloOp τ sig (Elt F))), (Proc.devRef .tc main_arg0 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg0 : ∀ op ∈ (ops5 : List (HloOp τ sig (Elt F))), (Proc.devRef .tc main_arg0 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg0 : ∀ op ∈ (ops6 : List (HloOp τ sig (Elt F))), (Proc.devRef .tc main_arg0 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 0 ends as launched. -/
theorem after_main_arg0 (m : (ℓ : Loc nD τ sig) → Buf (Elt F) ℓ) (d : Dev nD) :
    StableHlo.after ops (StableHlo.launchContents m d) (Proc.devRef .tc main_arg0) = m ((d.tc : Thread nD τ).loc main_arg0) :=
  (StableHlo.after_of_forall_not_mem (b := Proc.devRef .tc main_arg0) ops _ (fun op h => by
    rcases mem_ops h with h | h | h | h | h | h | h
    · exact nw0_main_arg0 op h
    · exact nw1_main_arg0 op h
    · exact nw2_main_arg0 op h
    · exact nw3_main_arg0 op h
    · exact nw4_main_arg0 op h
    · exact nw5_main_arg0 op h
    · exact nw6_main_arg0 op h)).trans rfl

theorem nw0_main_arg1 : ∀ op ∈ (ops0 : List (HloOp τ sig (Elt F))), (Proc.devRef .tc main_arg1 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg1 : ∀ op ∈ (ops1 : List (HloOp τ sig (Elt F))), (Proc.devRef .tc main_arg1 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg1 : ∀ op ∈ (ops2 : List (HloOp τ sig (Elt F))), (Proc.devRef .tc main_arg1 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg1 : ∀ op ∈ (ops3 : List (HloOp τ sig (Elt F))), (Proc.devRef .tc main_arg1 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg1 : ∀ op ∈ (ops4 : List (HloOp τ sig (Elt F))), (Proc.devRef .tc main_arg1 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg1 : ∀ op ∈ (ops5 : List (HloOp τ sig (Elt F))), (Proc.devRef .tc main_arg1 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg1 : ∀ op ∈ (ops6 : List (HloOp τ sig (Elt F))), (Proc.devRef .tc main_arg1 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 1 ends as launched. -/
theorem after_main_arg1 (m : (ℓ : Loc nD τ sig) → Buf (Elt F) ℓ) (d : Dev nD) :
    StableHlo.after ops (StableHlo.launchContents m d) (Proc.devRef .tc main_arg1) = m ((d.tc : Thread nD τ).loc main_arg1) :=
  (StableHlo.after_of_forall_not_mem (b := Proc.devRef .tc main_arg1) ops _ (fun op h => by
    rcases mem_ops h with h | h | h | h | h | h | h
    · exact nw0_main_arg1 op h
    · exact nw1_main_arg1 op h
    · exact nw2_main_arg1 op h
    · exact nw3_main_arg1 op h
    · exact nw4_main_arg1 op h
    · exact nw5_main_arg1 op h
    · exact nw6_main_arg1 op h)).trans rfl

theorem nw0_main_arg2 : ∀ op ∈ (ops0 : List (HloOp τ sig (Elt F))), (Proc.devRef .tc main_arg2 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg2 : ∀ op ∈ (ops1 : List (HloOp τ sig (Elt F))), (Proc.devRef .tc main_arg2 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg2 : ∀ op ∈ (ops2 : List (HloOp τ sig (Elt F))), (Proc.devRef .tc main_arg2 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg2 : ∀ op ∈ (ops3 : List (HloOp τ sig (Elt F))), (Proc.devRef .tc main_arg2 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg2 : ∀ op ∈ (ops4 : List (HloOp τ sig (Elt F))), (Proc.devRef .tc main_arg2 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg2 : ∀ op ∈ (ops5 : List (HloOp τ sig (Elt F))), (Proc.devRef .tc main_arg2 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg2 : ∀ op ∈ (ops6 : List (HloOp τ sig (Elt F))), (Proc.devRef .tc main_arg2 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 2 ends as launched. -/
theorem after_main_arg2 (m : (ℓ : Loc nD τ sig) → Buf (Elt F) ℓ) (d : Dev nD) :
    StableHlo.after ops (StableHlo.launchContents m d) (Proc.devRef .tc main_arg2) = m ((d.tc : Thread nD τ).loc main_arg2) :=
  (StableHlo.after_of_forall_not_mem (b := Proc.devRef .tc main_arg2) ops _ (fun op h => by
    rcases mem_ops h with h | h | h | h | h | h | h
    · exact nw0_main_arg2 op h
    · exact nw1_main_arg2 op h
    · exact nw2_main_arg2 op h
    · exact nw3_main_arg2 op h
    · exact nw4_main_arg2 op h
    · exact nw5_main_arg2 op h
    · exact nw6_main_arg2 op h)).trans rfl

end Cert.ReferenceIdeal.RefRun

end
-- ==== Proof.RefArgsB.lean ====
/-
  The reference's argument arrays 3, 4 and 5 end as launched: no operation of @main writes an argument, so the fold of the
  operations' results at an argument's buffer is its launch contents.
-/
import proofs.«141888_j3590592659519_2_alg».proof.Proof.RefRun
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem

variable {F : FTy → Type} [FloatOps F]

theorem nw0_main_arg3 : ∀ op ∈ (ops0 : List (HloOp τ sig (Elt F))), (Proc.devRef .tc main_arg3 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg3 : ∀ op ∈ (ops1 : List (HloOp τ sig (Elt F))), (Proc.devRef .tc main_arg3 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg3 : ∀ op ∈ (ops2 : List (HloOp τ sig (Elt F))), (Proc.devRef .tc main_arg3 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg3 : ∀ op ∈ (ops3 : List (HloOp τ sig (Elt F))), (Proc.devRef .tc main_arg3 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg3 : ∀ op ∈ (ops4 : List (HloOp τ sig (Elt F))), (Proc.devRef .tc main_arg3 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg3 : ∀ op ∈ (ops5 : List (HloOp τ sig (Elt F))), (Proc.devRef .tc main_arg3 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg3 : ∀ op ∈ (ops6 : List (HloOp τ sig (Elt F))), (Proc.devRef .tc main_arg3 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 3 ends as launched. -/
theorem after_main_arg3 (m : (ℓ : Loc nD τ sig) → Buf (Elt F) ℓ) (d : Dev nD) :
    StableHlo.after ops (StableHlo.launchContents m d) (Proc.devRef .tc main_arg3) = m ((d.tc : Thread nD τ).loc main_arg3) :=
  (StableHlo.after_of_forall_not_mem (b := Proc.devRef .tc main_arg3) ops _ (fun op h => by
    rcases mem_ops h with h | h | h | h | h | h | h
    · exact nw0_main_arg3 op h
    · exact nw1_main_arg3 op h
    · exact nw2_main_arg3 op h
    · exact nw3_main_arg3 op h
    · exact nw4_main_arg3 op h
    · exact nw5_main_arg3 op h
    · exact nw6_main_arg3 op h)).trans rfl

theorem nw0_main_arg4 : ∀ op ∈ (ops0 : List (HloOp τ sig (Elt F))), (Proc.devRef .tc main_arg4 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg4 : ∀ op ∈ (ops1 : List (HloOp τ sig (Elt F))), (Proc.devRef .tc main_arg4 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg4 : ∀ op ∈ (ops2 : List (HloOp τ sig (Elt F))), (Proc.devRef .tc main_arg4 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg4 : ∀ op ∈ (ops3 : List (HloOp τ sig (Elt F))), (Proc.devRef .tc main_arg4 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg4 : ∀ op ∈ (ops4 : List (HloOp τ sig (Elt F))), (Proc.devRef .tc main_arg4 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg4 : ∀ op ∈ (ops5 : List (HloOp τ sig (Elt F))), (Proc.devRef .tc main_arg4 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg4 : ∀ op ∈ (ops6 : List (HloOp τ sig (Elt F))), (Proc.devRef .tc main_arg4 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 4 ends as launched. -/
theorem after_main_arg4 (m : (ℓ : Loc nD τ sig) → Buf (Elt F) ℓ) (d : Dev nD) :
    StableHlo.after ops (StableHlo.launchContents m d) (Proc.devRef .tc main_arg4) = m ((d.tc : Thread nD τ).loc main_arg4) :=
  (StableHlo.after_of_forall_not_mem (b := Proc.devRef .tc main_arg4) ops _ (fun op h => by
    rcases mem_ops h with h | h | h | h | h | h | h
    · exact nw0_main_arg4 op h
    · exact nw1_main_arg4 op h
    · exact nw2_main_arg4 op h
    · exact nw3_main_arg4 op h
    · exact nw4_main_arg4 op h
    · exact nw5_main_arg4 op h
    · exact nw6_main_arg4 op h)).trans rfl

theorem nw0_main_arg5 : ∀ op ∈ (ops0 : List (HloOp τ sig (Elt F))), (Proc.devRef .tc main_arg5 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg5 : ∀ op ∈ (ops1 : List (HloOp τ sig (Elt F))), (Proc.devRef .tc main_arg5 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg5 : ∀ op ∈ (ops2 : List (HloOp τ sig (Elt F))), (Proc.devRef .tc main_arg5 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg5 : ∀ op ∈ (ops3 : List (HloOp τ sig (Elt F))), (Proc.devRef .tc main_arg5 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg5 : ∀ op ∈ (ops4 : List (HloOp τ sig (Elt F))), (Proc.devRef .tc main_arg5 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg5 : ∀ op ∈ (ops5 : List (HloOp τ sig (Elt F))), (Proc.devRef .tc main_arg5 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg5 : ∀ op ∈ (ops6 : List (HloOp τ sig (Elt F))), (Proc.devRef .tc main_arg5 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 5 ends as launched. -/
theorem after_main_arg5 (m : (ℓ : Loc nD τ sig) → Buf (Elt F) ℓ) (d : Dev nD) :
    StableHlo.after ops (StableHlo.launchContents m d) (Proc.devRef .tc main_arg5) = m ((d.tc : Thread nD τ).loc main_arg5) :=
  (StableHlo.after_of_forall_not_mem (b := Proc.devRef .tc main_arg5) ops _ (fun op h => by
    rcases mem_ops h with h | h | h | h | h | h | h
    · exact nw0_main_arg5 op h
    · exact nw1_main_arg5 op h
    · exact nw2_main_arg5 op h
    · exact nw3_main_arg5 op h
    · exact nw4_main_arg5 op h
    · exact nw5_main_arg5 op h
    · exact nw6_main_arg5 op h)).trans rfl

end Cert.ReferenceIdeal.RefRun

end
-- ==== Proof.RefArgsC.lean ====
/-
  The reference's argument arrays 6, 7 and 8 end as launched: no operation of @main writes an argument, so the fold of the
  operations' results at an argument's buffer is its launch contents.
-/
import proofs.«141888_j3590592659519_2_alg».proof.Proof.RefRun
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem

variable {F : FTy → Type} [FloatOps F]

theorem nw0_main_arg6 : ∀ op ∈ (ops0 : List (HloOp τ sig (Elt F))), (Proc.devRef .tc main_arg6 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg6 : ∀ op ∈ (ops1 : List (HloOp τ sig (Elt F))), (Proc.devRef .tc main_arg6 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg6 : ∀ op ∈ (ops2 : List (HloOp τ sig (Elt F))), (Proc.devRef .tc main_arg6 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg6 : ∀ op ∈ (ops3 : List (HloOp τ sig (Elt F))), (Proc.devRef .tc main_arg6 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg6 : ∀ op ∈ (ops4 : List (HloOp τ sig (Elt F))), (Proc.devRef .tc main_arg6 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg6 : ∀ op ∈ (ops5 : List (HloOp τ sig (Elt F))), (Proc.devRef .tc main_arg6 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg6 : ∀ op ∈ (ops6 : List (HloOp τ sig (Elt F))), (Proc.devRef .tc main_arg6 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 6 ends as launched. -/
theorem after_main_arg6 (m : (ℓ : Loc nD τ sig) → Buf (Elt F) ℓ) (d : Dev nD) :
    StableHlo.after ops (StableHlo.launchContents m d) (Proc.devRef .tc main_arg6) = m ((d.tc : Thread nD τ).loc main_arg6) :=
  (StableHlo.after_of_forall_not_mem (b := Proc.devRef .tc main_arg6) ops _ (fun op h => by
    rcases mem_ops h with h | h | h | h | h | h | h
    · exact nw0_main_arg6 op h
    · exact nw1_main_arg6 op h
    · exact nw2_main_arg6 op h
    · exact nw3_main_arg6 op h
    · exact nw4_main_arg6 op h
    · exact nw5_main_arg6 op h
    · exact nw6_main_arg6 op h)).trans rfl

theorem nw0_main_arg7 : ∀ op ∈ (ops0 : List (HloOp τ sig (Elt F))), (Proc.devRef .tc main_arg7 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg7 : ∀ op ∈ (ops1 : List (HloOp τ sig (Elt F))), (Proc.devRef .tc main_arg7 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg7 : ∀ op ∈ (ops2 : List (HloOp τ sig (Elt F))), (Proc.devRef .tc main_arg7 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg7 : ∀ op ∈ (ops3 : List (HloOp τ sig (Elt F))), (Proc.devRef .tc main_arg7 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg7 : ∀ op ∈ (ops4 : List (HloOp τ sig (Elt F))), (Proc.devRef .tc main_arg7 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg7 : ∀ op ∈ (ops5 : List (HloOp τ sig (Elt F))), (Proc.devRef .tc main_arg7 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg7 : ∀ op ∈ (ops6 : List (HloOp τ sig (Elt F))), (Proc.devRef .tc main_arg7 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 7 ends as launched. -/
theorem after_main_arg7 (m : (ℓ : Loc nD τ sig) → Buf (Elt F) ℓ) (d : Dev nD) :
    StableHlo.after ops (StableHlo.launchContents m d) (Proc.devRef .tc main_arg7) = m ((d.tc : Thread nD τ).loc main_arg7) :=
  (StableHlo.after_of_forall_not_mem (b := Proc.devRef .tc main_arg7) ops _ (fun op h => by
    rcases mem_ops h with h | h | h | h | h | h | h
    · exact nw0_main_arg7 op h
    · exact nw1_main_arg7 op h
    · exact nw2_main_arg7 op h
    · exact nw3_main_arg7 op h
    · exact nw4_main_arg7 op h
    · exact nw5_main_arg7 op h
    · exact nw6_main_arg7 op h)).trans rfl

theorem nw0_main_arg8 : ∀ op ∈ (ops0 : List (HloOp τ sig (Elt F))), (Proc.devRef .tc main_arg8 : DevRef τ sig) ∉ op.writes :=
  List.forall_iff_forall_mem.mp (by
    simp only [ops0, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw1_main_arg8 : ∀ op ∈ (ops1 : List (HloOp τ sig (Elt F))), (Proc.devRef .tc main_arg8 : DevRef τ sig) ∉ op.writes :=
  List.forall_iff_forall_mem.mp (by
    simp only [ops1, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw2_main_arg8 : ∀ op ∈ (ops2 : List (HloOp τ sig (Elt F))), (Proc.devRef .tc main_arg8 : DevRef τ sig) ∉ op.writes :=
  List.forall_iff_forall_mem.mp (by
    simp only [ops2, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw3_main_arg8 : ∀ op ∈ (ops3 : List (HloOp τ sig (Elt F))), (Proc.devRef .tc main_arg8 : DevRef τ sig) ∉ op.writes :=
  List.forall_iff_forall_mem.mp (by
    simp only [ops3, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw4_main_arg8 : ∀ op ∈ (ops4 : List (HloOp τ sig (Elt F))), (Proc.devRef .tc main_arg8 : DevRef τ sig) ∉ op.writes :=
  List.forall_iff_forall_mem.mp (by
    simp only [ops4, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw5_main_arg8 : ∀ op ∈ (ops5 : List (HloOp τ sig (Elt F))), (Proc.devRef .tc main_arg8 : DevRef τ sig) ∉ op.writes :=
  List.forall_iff_forall_mem.mp (by
    simp only [ops5, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
theorem nw6_main_arg8 : ∀ op ∈ (ops6 : List (HloOp τ sig (Elt F))), (Proc.devRef .tc main_arg8 : DevRef τ sig) ∉ op.writes :=
  List.forall_iff_forall_mem.mp (by
    simp only [ops6, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- Argument 8 ends as launched. -/
theorem after_main_arg8 (m : (ℓ : Loc nD τ sig) → Buf (Elt F) ℓ) (d : Dev nD) :
    StableHlo.after ops (StableHlo.launchContents m d) (Proc.devRef .tc main_arg8) = m ((d.tc : Thread nD τ).loc main_arg8) :=
  (StableHlo.after_of_forall_not_mem (b := Proc.devRef .tc main_arg8) ops _ (fun op h => by
    rcases mem_ops h with h | h | h | h | h | h | h
    · exact nw0_main_arg8 op h
    · exact nw1_main_arg8 op h
    · exact nw2_main_arg8 op h
    · exact nw3_main_arg8 op h
    · exact nw4_main_arg8 op h
    · exact nw5_main_arg8 op h
    · exact nw6_main_arg8 op h)).trans rfl

end Cert.ReferenceIdeal.RefRun

end
-- ==== Proof.Value0.lean ====
/-
  The first pipeline's output array after its run, as one function of its input arrays.

  The inputs are the padded hidden rows `x` (4096 × 1024), the first weight matrix `W` (1024 × 2048) and its bias `b`
  (2048); the grid is 8 row blocks. Point `t` reads rows `512 t …` of `x`, all of `W` and `b`, and writes back the
  512 × 2048 block of `logistic (x · W + b)` at those rows (`Cert.KernelIdeal.MlpBlocks.pay0_apply`). The 8 blocks tile
  the output, so after the run the output array is, at `(r, q)`, `logistic (∑ k, x (r, k) · W (k, q) + b q)`: `final`.
-/
import proofs.«141888_j3590592659519_2_alg».proof.Proof.Region0
import proofs.«141888_j3590592659519_2_alg».proof.Proof.MlpBlocks
import Idealize.ShloMosaic.Lib.Pipeline.Value

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Entry `(r, q)` of `logistic (x · W + b)`. -/
def entry (x : S4096x1024.Idx → EReal) (W : S1024x2048.Idx → EReal) (b : S2048.Idx → EReal) (r : Fin 4096) (q : Fin 2048) : EReal :=
  Ideal.logistic ((∑ k : Fin 1024, x (ix2 r k) * W (ix2 k q)) + b (ix1 q))

/-- The whole array of them. -/
def G (x : S4096x1024.Idx → EReal) (W : S1024x2048.Idx → EReal) (b : S2048.Idx → EReal) : S4096x2048.Idx → EReal :=
  fun i => entry x W b (i 0) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `G` of the input arrays as the region finds them. -/
theorem flushed_eq (c : Dev nD) (t : Fin cfg0.N) :
    (Region0.dat V c).flushed 3 t
      = ((cfg0.win 3).blk t).view.read (Elt Ideal) (G (V c main_v168) (V c main_v169) (V c main_arg2)) := by
  show (cfg0.win 3).cut (grid0.coords t) ((Region0.dat V c).after 3 t) = _
  rw [Region0.after_3]
  unfold Body0.out
  rw [View.canon_unit_zero hz2]
  simp only [View.ld_unit_zero (S := S512x1024) hz2, View.ld_unit_zero (S := S1024x2048) hz2, View.ld_unit_zero (S := S2048) hz1]
  obtain ⟨e0, e1, e2, e3, e4, e5, e6⟩ := idx_facts t
  funext j
  obtain ⟨p, q, rfl⟩ : ∃ (p : Fin 512) (q : Fin 2048), j = ix2 p q := ⟨j 0, j 1, eq_ix2 j⟩
  refine (MlpBlocks.pay0_apply _ _ _ p q).trans ?_
  have ht : t.val < 8 := lt_of_lt_of_eq t.isLt N_0
  have hR : t.val * 512 + p.val < 4096 := by have := p.isLt; omega
  have hx : ∀ k : Fin 1024, Region0.iblk V c 0 t (ix2 p k) = V c main_v168 (ix2 ⟨t.val * 512 + p.val, hR⟩ k) := fun k => by
    unfold Region0.iblk
    rw [View.read_apply]
    refine congrArg (V c main_v168) (funext fun a => Fin.ext ?_)
    match a with
    | ⟨0, _⟩ => show win0_0.index t (0 : Fin 2) * 512 + 1 * p.val = t.val * 512 + p.val; omega
    | ⟨1, _⟩ => show win0_0.index t (1 : Fin 2) * 1024 + 1 * k.val = k.val; omega
  have hw : ∀ k : Fin 1024, Region0.iblk V c 1 t (ix2 k q) = V c main_v169 (ix2 k q) := fun k => by
    unfold Region0.iblk
    rw [View.read_apply]
    refine congrArg (V c main_v169) (funext fun a => Fin.ext ?_)
    match a with
    | ⟨0, _⟩ => show win0_1.index t (0 : Fin 2) * 1024 + 1 * k.val = k.val; omega
    | ⟨1, _⟩ => show win0_1.index t (1 : Fin 2) * 2048 + 1 * q.val = q.val; omega
  have hb : Region0.iblk V c 2 t (ix1 q) = V c main_arg2 (ix1 q) := by
    unfold Region0.iblk
    rw [View.read_apply]
    refine congrArg (V c main_arg2) (funext fun a => Fin.ext ?_)
    match a with
    | ⟨0, _⟩ => show win0_2.index t (0 : Fin 1) * 2048 + 1 * q.val = q.val; omega
  have hout : ((cfg0.win 3).blk t).view.emb (ix2 p q) = ix2 ⟨t.val * 512 + p.val, hR⟩ q := by
    funext a; apply Fin.ext
    match a with
    | ⟨0, _⟩ => show win0_3.index t (0 : Fin 2) * 512 + 1 * p.val = t.val * 512 + p.val; omega
    | ⟨1, _⟩ => show win0_3.index t (1 : Fin 2) * 2048 + 1 * q.val = q.val; omega
  rw [View.read_apply, hout, hb]
  show _ = entry (V c main_v168) (V c main_v169) (V c main_arg2) ⟨t.val * 512 + p.val, hR⟩ q
  unfold entry
  exact congrArg (fun z => Ideal.logistic (z + _)) (Finset.sum_congr rfl fun k _ => congrArg₂ (· * ·) (hx k) (hw k))

/-- An index of the array is in point `t`'s block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v173).slice (win0_3.rect t)).set ↔ _
  rw [View.set_slice_whole, Rect.mem_set_unit]
  exact Iff.rfl

/-- Every index of the output array is in the block of the point its row falls in. -/
theorem cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  have hN : (i 0).val / 512 < cfg0.N := by rw [show cfg0.N = 8 from N_0]; omega
  refine ⟨⟨(i 0).val / 512, hN⟩, flush0_3 _, ?_⟩
  obtain ⟨e0, e1, e2, e3, e4, e5, e6⟩ := idx_facts ⟨(i 0).val / 512, hN⟩
  rw [mem_blk]
  intro a
  match a with
  | ⟨0, _⟩ =>
    show win0_3.index ⟨_, hN⟩ (0 : Fin 2) * 512 ≤ (i 0).val ∧ (i 0).val < win0_3.index ⟨_, hN⟩ (0 : Fin 2) * 512 + 512
    rw [e5]; show (i 0).val / 512 * 512 ≤ (i 0).val ∧ (i 0).val < (i 0).val / 512 * 512 + 512; omega
  | ⟨1, _⟩ =>
    show win0_3.index ⟨_, hN⟩ (1 : Fin 2) * 2048 ≤ (i 1).val ∧ (i 1).val < win0_3.index ⟨_, hN⟩ (1 : Fin 2) * 2048 + 2048
    rw [e6]; omega

/-- THE ARRAY after the run: `logistic (x · W + b)` of the input arrays as the region finds them. -/
theorem final (c : Dev nD) : (Region0.dat V c).arrAt 3 cfg0.N = G (V c main_v168) (V c main_v169) (V c main_arg2) :=
  (Region0.dat V c).arrAt_eq_of_cover 3 (G (V c main_v168) (V c main_v169) (V c main_arg2)) (fun t _ => flushed_eq V c t) cover

end Cert.KernelIdeal.Value0

end
-- ==== Proof.Value1.lean ====
/-
  The second pipeline's output array after its run, as one function of its input arrays.

  The inputs are the whole layer-1 activation `h` (4096 × 2048), the padded second weight matrix `W'` (2048 × 32768)
  and its padded bias `b'` (32768); the grid is 32 column tiles (outer) by 4 row tiles (inner), point `t` being column
  tile `t / 4`, row tile `t % 4`. The point reads rows `1024 (t % 4) …` of `h` out of the resident buffer, columns
  `1024 (t / 4) …` of `W'` and `b'`, and writes back the 1024 × 1024 tile of `h · W' + b'` at those rows and columns
  (`Cert.KernelIdeal.MlpBlocks.pay1_apply`). The 128 tiles cover the output, so after the run the output array is, at
  `(r, q)`, `∑ k, h (r, k) · W' (k, q) + b' q`: `final`.
-/
import proofs.«141888_j3590592659519_2_alg».proof.Proof.Region1
import proofs.«141888_j3590592659519_2_alg».proof.Proof.MlpBlocks
import Idealize.ShloMosaic.Lib.Pipeline.Value

set_option maxRecDepth 16384

noncomputable section

namespace Cert.KernelIdeal.Value1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- Entry `(r, q)` of `h · W' + b'`. -/
def entry (h : S4096x2048.Idx → EReal) (W : S2048x32768.Idx → EReal) (b : S32768.Idx → EReal) (r : Fin 4096) (q : Fin 32768) : EReal :=
  (∑ k : Fin 2048, h (ix2 r k) * W (ix2 k q)) + b (ix1 q)

/-- The whole array of them. -/
def G (h : S4096x2048.Idx → EReal) (W : S2048x32768.Idx → EReal) (b : S32768.Idx → EReal) : S4096x32768.Idx → EReal :=
  fun i => entry h W b (i 0) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps and the body's row offset, decided over the grid. -/
theorem idx_facts : ∀ t : Fin cfg1.N, win1_0.index t (0 : Fin 2) = 0 ∧ win1_0.index t (1 : Fin 2) = 0
    ∧ win1_1.index t (0 : Fin 2) = 0 ∧ win1_1.index t (1 : Fin 2) = t.val / 4
    ∧ win1_2.index t (0 : Fin 1) = t.val / 4
    ∧ win1_3.index t (0 : Fin 2) = t.val % 4 ∧ win1_3.index t (1 : Fin 2) = t.val / 4
    ∧ k1_off1 (grid1.coords t) (0 : Fin 2) = t.val % 4 * 1024 ∧ k1_off1 (grid1.coords t) (1 : Fin 2) = 0 :=
  (by decide +kernel : ∀ t : Fin grid1.N, _)

/-- What point `t` writes back is block `t` of `G` of the input arrays as the region finds them. -/
theorem flushed_eq (c : Dev nD) (t : Fin cfg1.N) :
    (Region1.dat V c).flushed 3 t
      = ((cfg1.win 3).blk t).view.read (Elt Ideal) (G (V c main_v173) (V c main_v171) (V c main_v172)) := by
  show (cfg1.win 3).cut (grid1.coords t) ((Region1.dat V c).after 3 t) = _
  rw [Region1.after_3]
  unfold Body1.out
  rw [View.canon_unit_zero hz2]
  simp only [View.ld_unit_zero (S := S2048x1024) hz2, View.ld_unit_zero (S := S1024) hz1]
  obtain ⟨e0, e1, e2, e3, e4, e5, e6, e7, e8⟩ := idx_facts t
  funext j
  obtain ⟨p, q, rfl⟩ : ∃ (p : Fin 1024) (q : Fin 1024), j = ix2 p q := ⟨j 0, j 1, eq_ix2 j⟩
  refine (MlpBlocks.pay1_apply _ _ _ p q).trans ?_
  have ht : t.val < 128 := lt_of_lt_of_eq t.isLt N_1
  have hR : t.val % 4 * 1024 + p.val < 4096 := by have := p.isLt; omega
  have hQ : t.val / 4 * 1024 + q.val < 32768 := by have := q.isLt; omega
  have hh : ∀ k : Fin 2048, View.ld (Region1.iblk V c 0 t) (Body1.rH (grid1.coords t)) (ix2 p k)
      = V c main_v173 (ix2 ⟨t.val % 4 * 1024 + p.val, hR⟩ k) := fun k => by
    show Region1.iblk V c 0 t ((Body1.rH (grid1.coords t)).emb (ix2 p k)) = _
    unfold Region1.iblk
    rw [View.read_apply]
    refine congrArg (V c main_v173) (funext fun a => Fin.ext ?_)
    match a with
    | ⟨0, _⟩ => show win1_0.index t (0 : Fin 2) * 4096 + 1 * (k1_off1 (grid1.coords t) (0 : Fin 2) + 1 * p.val) = t.val % 4 * 1024 + p.val; omega
    | ⟨1, _⟩ => show win1_0.index t (1 : Fin 2) * 2048 + 1 * (k1_off1 (grid1.coords t) (1 : Fin 2) + 1 * k.val) = k.val; omega
  have hw : ∀ k : Fin 2048, Region1.iblk V c 1 t (ix2 k q) = V c main_v171 (ix2 k ⟨t.val / 4 * 1024 + q.val, hQ⟩) := fun k => by
    unfold Region1.iblk
    rw [View.read_apply]
    refine congrArg (V c main_v171) (funext fun a => Fin.ext ?_)
    match a with
    | ⟨0, _⟩ => show win1_1.index t (0 : Fin 2) * 2048 + 1 * k.val = k.val; omega
    | ⟨1, _⟩ => show win1_1.index t (1 : Fin 2) * 1024 + 1 * q.val = t.val / 4 * 1024 + q.val; omega
  have hb : Region1.iblk V c 2 t (ix1 q) = V c main_v172 (ix1 ⟨t.val / 4 * 1024 + q.val, hQ⟩) := by
    unfold Region1.iblk
    rw [View.read_apply]
    refine congrArg (V c main_v172) (funext fun a => Fin.ext ?_)
    match a with
    | ⟨0, _⟩ => show win1_2.index t (0 : Fin 1) * 1024 + 1 * q.val = t.val / 4 * 1024 + q.val; omega
  have hout : ((cfg1.win 3).blk t).view.emb (ix2 p q) = ix2 ⟨t.val % 4 * 1024 + p.val, hR⟩ ⟨t.val / 4 * 1024 + q.val, hQ⟩ := by
    funext a; apply Fin.ext
    match a with
    | ⟨0, _⟩ => show win1_3.index t (0 : Fin 2) * 1024 + 1 * p.val = t.val % 4 * 1024 + p.val; omega
    | ⟨1, _⟩ => show win1_3.index t (1 : Fin 2) * 1024 + 1 * q.val = t.val / 4 * 1024 + q.val; omega
  rw [View.read_apply, hout, hb]
  show _ = entry (V c main_v173) (V c main_v171) (V c main_v172) ⟨t.val % 4 * 1024 + p.val, hR⟩ ⟨t.val / 4 * 1024 + q.val, hQ⟩
  unfold entry
  exact congrArg (· + _) (Finset.sum_congr rfl fun k _ => congrArg₂ (· * ·) (hh k) (hw k))

/-- An index of the array is in point `t`'s block iff each coordinate is in the block's range on its axis. -/
theorem mem_blk (t : Fin cfg1.N) (i : S4096x32768.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v174).slice (win1_3.rect t)).set ↔ _
  rw [View.set_slice_whole, Rect.mem_set_unit]
  exact Iff.rfl

/-- Every index of the output array is in the tile of the point at (its column tile, its row tile). -/
theorem cover (i : S4096x32768.Idx) :
    ∃ t : Fin cfg1.N, (cfg1.win 3).flush t = true ∧ i ∈ ((cfg1.win 3).blk t).view.set := by
  have hi0 : (i 0).val < 4096 := (i 0).isLt
  have hi1 : (i 1).val < 32768 := (i 1).isLt
  have hN : (i 1).val / 1024 * 4 + (i 0).val / 1024 < cfg1.N := by rw [show cfg1.N = 128 from N_1]; omega
  refine ⟨⟨(i 1).val / 1024 * 4 + (i 0).val / 1024, hN⟩, flush1_3 _, ?_⟩
  obtain ⟨e0, e1, e2, e3, e4, e5, e6, e7, e8⟩ := idx_facts ⟨(i 1).val / 1024 * 4 + (i 0).val / 1024, hN⟩
  rw [mem_blk]
  intro a
  match a with
  | ⟨0, _⟩ =>
    show win1_3.index ⟨_, hN⟩ (0 : Fin 2) * 1024 ≤ (i 0).val ∧ (i 0).val < win1_3.index ⟨_, hN⟩ (0 : Fin 2) * 1024 + 1024
    rw [e5]; show ((i 1).val / 1024 * 4 + (i 0).val / 1024) % 4 * 1024 ≤ (i 0).val ∧ (i 0).val < ((i 1).val / 1024 * 4 + (i 0).val / 1024) % 4 * 1024 + 1024; omega
  | ⟨1, _⟩ =>
    show win1_3.index ⟨_, hN⟩ (1 : Fin 2) * 1024 ≤ (i 1).val ∧ (i 1).val < win1_3.index ⟨_, hN⟩ (1 : Fin 2) * 1024 + 1024
    rw [e6]; show ((i 1).val / 1024 * 4 + (i 0).val / 1024) / 4 * 1024 ≤ (i 1).val ∧ (i 1).val < ((i 1).val / 1024 * 4 + (i 0).val / 1024) / 4 * 1024 + 1024; omega

/-- THE ARRAY after the run: `h · W' + b'` of the input arrays as the region finds them. -/
theorem final (c : Dev nD) : (Region1.dat V c).arrAt 3 cfg1.N = G (V c main_v173) (V c main_v171) (V c main_v172) :=
  (Region1.dat V c).arrAt_eq_of_cover 3 (G (V c main_v173) (V c main_v171) (V c main_v172)) (fun t _ => flushed_eq V c t) cover

end Cert.KernelIdeal.Value1

end
-- ==== Proof.Value2.lean ====
/-
  The third pipeline's output array after its run, as one function of its input array.

  The input is the 4096 × 32768 array of padded logits, walked 32 rows at a time; point `t` reads rows
  `32 t … 32 t + 31` (all columns) and writes back, at the same rows, the filled row-wise log-softmax of them
  (`Cert.KernelIdeal.SoftmaxBlock.pay_apply`). The 128 blocks tile the output, so after the run the output array is,
  at `(r, q)`, the log-softmax at `q` of row `r` of the input with the columns from 32001 on filled with `⊥`: `final`.
-/
import proofs.«141888_j3590592659519_2_alg».proof.Proof.Region2
import proofs.«141888_j3590592659519_2_alg».proof.Proof.SoftmaxBlock
import Idealize.ShloMosaic.Lib.Pipeline.Value

set_option maxRecDepth 16384

noncomputable section

namespace Cert.KernelIdeal.Value2

open Cert.KernelIdeal Cert.KernelIdeal.Gen
open Idealize.ShloMosaic Idealize.ShloMosaic.TcCoe Idealize.ShloMosaic.ValueIdx Cert.Lib.LogSoftmaxPad
open Idealize.SL.Sem
open Idealize.ShloMosaic.Pipeline (Dat Cfg Window)

variable (V : (c : Dev nD) → (b : Ref sig .tc) → Buf (Elt Ideal) ((c : Thread nD τ).loc b))

/-- The filled log-softmax of row `r` of a 4096 × 32768 array, at column `q`. -/
def rowLsm (x : S4096x32768.Idx → EReal) (r : Fin 4096) (q : Fin 32768) : EReal :=
  lsm (fill 32001 (fun c : Fin 32768 => x (ix2 r c))) q

/-- The whole array of them. -/
def G (x : S4096x32768.Idx → EReal) : S4096x32768.Idx → EReal := fun i => rowLsm x (i 0) (i 1)

theorem hz : (![0, 0] : Fin 2 → Nat) = fun _ => 0 := funext fun a => by fin_cases a <;> rfl

/-- The printed index maps, decided over the grid: both windows sit at block row `t`, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of `G` of the input array as the region finds it. -/
theorem flushed_eq (c : Dev nD) (t : Fin cfg2.N) :
    (Region2.dat V c).flushed 1 t = ((cfg2.win 1).blk t).view.read (Elt Ideal) (G (V c main_v174)) := by
  show (cfg2.win 1).cut (grid2.coords t) ((Region2.dat V c).after 1 t) = _
  rw [Region2.after_1]
  unfold Body2.out
  rw [View.canon_unit_zero hz]
  simp only [View.ld_unit_zero (S := S32x32768) hz]
  obtain ⟨e0, e1, e2, e3⟩ := idx_facts t
  funext j
  obtain ⟨r, q, rfl⟩ : ∃ (r : Fin 32) (q : Fin 32768), j = ix2 r q := ⟨j 0, j 1, eq_ix2 j⟩
  refine (SoftmaxBlock.pay_apply _ r q).trans ?_
  have ht : t.val < 128 := lt_of_lt_of_eq t.isLt N_2
  -- the array row this block row is
  have hR : t.val * 32 + r.val < 4096 := by have := r.isLt; omega
  have hin : ∀ cc : Fin 32768, Region2.iblk V c 0 t (ix2 r cc) = V c main_v174 (ix2 ⟨t.val * 32 + r.val, hR⟩ cc) := fun cc => by
    unfold Region2.iblk
    rw [View.read_apply]
    refine congrArg (V c main_v174) (funext fun a => Fin.ext ?_)
    match a with
    | ⟨0, _⟩ => show win2_0.index t (0 : Fin 2) * 32 + 1 * r.val = t.val * 32 + r.val; omega
    | ⟨1, _⟩ => show win2_0.index t (1 : Fin 2) * 32768 + 1 * cc.val = cc.val; omega
  have hout : ((cfg2.win 1).blk t).view.emb (ix2 r q) = ix2 ⟨t.val * 32 + r.val, hR⟩ q := by
    funext a; apply Fin.ext
    match a with
    | ⟨0, _⟩ => show win2_1.index t (0 : Fin 2) * 32 + 1 * r.val = t.val * 32 + r.val; omega
    | ⟨1, _⟩ => show win2_1.index t (1 : Fin 2) * 32768 + 1 * q.val = q.val; omega
  rw [View.read_apply, hout]
  show _ = rowLsm (V c main_v174) ⟨t.val * 32 + r.val, hR⟩ q
  unfold rowLsm
  exact congrArg (fun f => lsm (fill 32001 f) q) (funext hin)

/-- An index of the array is in point `t`'s block iff each coordinate is in the block's range on its axis. -/
theorem mem_blk (t : Fin cfg2.N) (i : S4096x32768.Idx) :
    i ∈ ((cfg2.win 1).blk t).view.set ↔ ∀ a : Fin 2, win2_1.index t a * S32x32768.size a ≤ (i a).val
      ∧ (i a).val < win2_1.index t a * S32x32768.size a + S32x32768.size a := by
  show i ∈ ((View.whole main_v175).slice (win2_1.rect t)).set ↔ _
  rw [View.set_slice_whole, Rect.mem_set_unit]
  exact Iff.rfl

/-- Every index of the output array is in the block of the point its row falls in. -/
theorem cover (i : S4096x32768.Idx) :
    ∃ t : Fin cfg2.N, (cfg2.win 1).flush t = true ∧ i ∈ ((cfg2.win 1).blk t).view.set := by
  have hi0 : (i 0).val < 4096 := (i 0).isLt
  have hi1 : (i 1).val < 32768 := (i 1).isLt
  have hN : (i 0).val / 32 < cfg2.N := by rw [show cfg2.N = 128 from N_2]; omega
  refine ⟨⟨(i 0).val / 32, hN⟩, flush2_1 _, ?_⟩
  obtain ⟨e0, e1, e2, e3⟩ := idx_facts ⟨(i 0).val / 32, hN⟩
  rw [mem_blk]
  intro a
  match a with
  | ⟨0, _⟩ =>
    show win2_1.index ⟨(i 0).val / 32, hN⟩ (0 : Fin 2) * 32 ≤ (i 0).val ∧ (i 0).val < win2_1.index ⟨(i 0).val / 32, hN⟩ (0 : Fin 2) * 32 + 32
    rw [e2]; show (i 0).val / 32 * 32 ≤ (i 0).val ∧ (i 0).val < (i 0).val / 32 * 32 + 32; omega
  | ⟨1, _⟩ =>
    show win2_1.index ⟨(i 0).val / 32, hN⟩ (1 : Fin 2) * 32768 ≤ (i 1).val ∧ (i 1).val < win2_1.index ⟨(i 0).val / 32, hN⟩ (1 : Fin 2) * 32768 + 32768
    rw [e3]; omega

/-- THE ARRAY after the run: the row-wise filled log-softmax of the input array as the region finds it. -/
theorem final (c : Dev nD) : (Region2.dat V c).arrAt 1 cfg2.N = G (V c main_v174) :=
  (Region2.dat V c).arrAt_eq_of_cover 1 (G (V c main_v174)) (fun t _ => flushed_eq V c t) cover

end Cert.KernelIdeal.Value2

end
-- ==== Proof.KernelValue.lean ====
/-
  The kernel's result, entry by entry, as a function of the five arrays the first pipeline is entered with.

  Write `x` (4096 × 1024, the padded pre-order hidden rows), `W` (1024 × 2048), `b` (2048), `W'` (2048 × 32768, the second
  weight matrix with its zero columns) and `b'` (32768) for the contents of the five buffers at the first pipeline's
  entry. The three pipelines compose: `h = logistic (x · W + b)`, `z = h · W' + b'`, and the row-wise log-softmax of `z`
  with the columns from 32001 on filled with `⊥`; the closing slice keeps rows `< 4095` and columns `< 32001`. A filled
  column is invisible to the row's maximum and sum of exponentials, so entry `(i, j)` of the result is the log-softmax
  at `j` of the 32001 real columns of row `i` of `z`: `result_apply`.
-/
import proofs.«141888_j3590592659519_2_alg».proof.Proof.Value0
import proofs.«141888_j3590592659519_2_alg».proof.Proof.Value1
import proofs.«141888_j3590592659519_2_alg».proof.Proof.Value2
import proofs.«141888_j3590592659519_2_alg».proof.Proof.RunStates
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.ValueIdx Cert.Lib.LogSoftmaxPad
open Idealize.SL.Sem Idealize.ShloMosaic.StableHlo
open Idealize.ShloMosaic.Pipeline (Dat Cfg Window)

variable (m : (ℓ : Loc nD τ sig) → Buf (Elt Ideal) ℓ) (ρ : Dev nD → PrngReg)

/-- The logits `z = h · W' + b'` with `h = logistic (x · W + b)`, from the first pipeline's entry contents. -/
def logits (c : Dev nD) : S4096x32768.Idx → EReal :=
  Value1.G (Value0.G (W8 m ρ c (Proc.devRef .tc main_v168)) (W8 m ρ c (Proc.devRef .tc main_v169)) (W8 m ρ c (Proc.devRef .tc main_arg2)))
    (W8 m ρ c (Proc.devRef .tc main_v171)) (W8 m ρ c (Proc.devRef .tc main_v172))

/-- The third pipeline's output array at @main's end: the row-wise filled log-softmax of the logits. -/
theorem W11_out (c : Dev nD) : W11 m ρ c (Proc.devRef .tc main_v175) = Value2.G (logits m ρ c) := by
  have h3 : W9 m ρ c (Proc.devRef .tc main_v173)
      = Value0.G (W8 m ρ c (Proc.devRef .tc main_v168)) (W8 m ρ c (Proc.devRef .tc main_v169)) (W8 m ρ c (Proc.devRef .tc main_arg2)) :=
    (W9_arr m ρ c 3).trans (Value0.final (V8 m ρ) c)
  have h71 : W9 m ρ c (Proc.devRef .tc main_v171) = W8 m ρ c (Proc.devRef .tc main_v171) := W9_of_ne m ρ c main_v171 (by decide)
  have h72 : W9 m ρ c (Proc.devRef .tc main_v172) = W8 m ρ c (Proc.devRef .tc main_v172) := W9_of_ne m ρ c main_v172 (by decide)
  have h4 : W10 m ρ c (Proc.devRef .tc main_v174) = logits m ρ c := by
    refine ((W10_arr m ρ c 3).trans (Value1.final (V9 m ρ) c)).trans ?_
    show Value1.G (W9 m ρ c (Proc.devRef .tc main_v173)) (W9 m ρ c (Proc.devRef .tc main_v171)) (W9 m ρ c (Proc.devRef .tc main_v172)) = _
    rw [h3, h71, h72]; rfl
  refine ((W11_arr m ρ c 1).trans (Value2.final (V10 m ρ) c)).trans ?_
  show Value2.G (W10 m ρ c (Proc.devRef .tc main_v174)) = _
  rw [h4]

/-- @main's result buffer is the slice of that array to 4095 rows and 32001 columns. -/
theorem W12_result (c : Dev nD) :
    W12 m ρ c (Proc.devRef .tc main_v176)
      = extractStridedSlice S4095x32001 ![0, 0] (W11 m ρ c (Proc.devRef .tc main_v175)) slices_S4096x32768_S4095x32001_0_0 := by
  show StableHlo.after hostOps3 (W11 m ρ c) (Proc.devRef .tc main_v176) = _
  after_results

/-- Entry `(i, j)` of the kernel's result: the log-softmax at `j` of the 32001 real columns of row `i` of the logits. -/
theorem result_apply (c : Dev nD) (i : Fin 4095) (j : Fin 32001) :
    W12 m ρ c (Proc.devRef .tc main_v176) (ix2 i j)
      = lsm (fun k : Fin 32001 => logits m ρ c (ix2 (Fin.castLE (by decide) i : Fin 4096) (Fin.castLE (by decide) k : Fin 32768))) j := by
  rw [W12_result, W11_out]
  refine (extractStridedSlice_apply _ _ _ (ix2 i j) (ix2 (Fin.castLE (by decide) i : Fin 4096) (Fin.castLE (by decide) j : Fin 32768)) fun ax => ?_).trans ?_
  · match ax with
    | ⟨0, _⟩ => exact (Nat.zero_add _).symm
    | ⟨1, _⟩ => exact (Nat.zero_add _).symm
  show Value2.rowLsm (logits m ρ c) (Fin.castLE (by decide) i) (Fin.castLE (by decide) j) = _
  unfold Value2.rowLsm
  exact lsm_fill (by decide) (fun q : Fin 32768 => logits m ρ c (ix2 (Fin.castLE (by decide) i : Fin 4096) q)) j

end Cert.KernelIdeal.Run

end
-- ==== Proof.PadsK.lean ====
/-
  What the first pipeline is entered with, at the real rows and columns.

  Between the pre-order gather and the first pipeline the kernel's @main appends one zero row to the 4095 gathered hidden
  rows, appends 767 zero columns to the second value matrix and 767 zeros to its bias, and changes float formats (the
  identity on extended reals). So at the first pipeline's entry: row `i < 4095` of the hidden rows is the gathered row
  `i`; the first value matrix and its bias are the arguments; and column `k < 32001` of the second value matrix and
  entry `k` of its bias are the arguments' column and entry `k`.
-/
import proofs.«141888_j3590592659519_2_alg».proof.Proof.RunStates
import Idealize.ShloMosaic.Lib.KernelVsHost
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! The arguments these stretches read are still as launched when they are read. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := StableHlo.after_of_forall_not_mem (b := Proc.devRef .tc main_arg2) _ _ (List.forall_iff_forall_mem.mp (by
          simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W6 m ρ c (Proc.devRef .tc main_arg2) := StableHlo.after_of_forall_not_mem (b := Proc.devRef .tc main_arg2) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := StableHlo.after_of_forall_not_mem (b := Proc.devRef .tc main_arg2) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_forall_not_mem (b := Proc.devRef .tc main_arg4) _ _ (List.forall_iff_forall_mem.mp (by
          simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := StableHlo.after_of_forall_not_mem (b := Proc.devRef .tc main_arg4) _ _ (List.forall_iff_forall_mem.mp (by
          simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

/-- A buffer the last stretches do not write keeps its contents to the first pipeline's entry. -/
theorem W8_of_W5 (c : Dev nD) (b : Ref sig .tc) (hb : b ≠ main_call2_v0 ∧ b ≠ main_v170 ∧ b ≠ main_v171 ∧ b ≠ main_c_23 ∧ b ≠ main_call3_v0 ∧ b ≠ main_v172) :
    W8 m ρ c (Proc.devRef .tc b) = W5 m ρ c (Proc.devRef .tc b) := by
  obtain ⟨h1, h2, h3, h4, h5, h6⟩ := hb
  show StableHlo.after hostOps0_7 (StableHlo.after hostOps0_6 (StableHlo.after hostOps0_5 (W5 m ρ c))) (Proc.devRef .tc b) = _
  rw [StableHlo.after_of_forall_not_mem (b := Proc.devRef .tc b) hostOps0_7 _ (List.forall_iff_forall_mem.mp (by
      simp only [hostOps0_7, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h5, StableHlo.devRef_ne_of_ne h6⟩)),
    StableHlo.after_of_forall_not_mem (b := Proc.devRef .tc b) hostOps0_6 _ (List.forall_iff_forall_mem.mp (by
      simp only [hostOps0_6, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h3, StableHlo.devRef_ne_of_ne h4⟩)),
    StableHlo.after_of_forall_not_mem (b := Proc.devRef .tc b) hostOps0_5 _ (List.forall_iff_forall_mem.mp (by
      simp only [hostOps0_5, List.flatten_cons, List.flatten_nil, List.append_nil, List.cons_append, List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h1, StableHlo.devRef_ne_of_ne h2⟩))]

/-! Each short stretch read over any contents it starts from. -/

theorem s2_v166 (W : Valuation τ sig (Elt Ideal)) (idx : S4095x1024.Idx) :
    StableHlo.after hostOps0_2 W (Proc.devRef .tc main_v166) idx = W (Proc.devRef .tc main_v166) idx := by
  after_results

theorem s3_v167 (W : Valuation τ sig (Elt Ideal)) (i : Fin 4095) (p : Fin 1024) :
    StableHlo.after hostOps0_3 W (Proc.devRef .tc main_v167) (ix2 (Fin.castLE (by decide) i : Fin 4096) p)
      = W (Proc.devRef .tc main_v166) (ix2 i p) := by
  after_results
  simp only [StableHlo.TRef.toBuf, StableHlo.TRef.ofBuf, cast_eq]
  exact pad_apply_of_inside _ _ _ _ _ _ _ (ix2 (Fin.castLE (by decide) i : Fin 4096) p) (ix2 i p) (fun a => by
    match a with
    | ⟨0, _⟩ => show i.val = 0 + i.val * (0 + 1); omega
    | ⟨1, _⟩ => show p.val = 0 + p.val * (0 + 1); omega)

theorem s4_v168 (W : Valuation τ sig (Elt Ideal)) (idx : S4096x1024.Idx) :
    StableHlo.after hostOps0_4 W (Proc.devRef .tc main_v168) idx = W (Proc.devRef .tc main_v167) idx := by
  after_results
  rfl

theorem s4_v169 (W : Valuation τ sig (Elt Ideal)) (idx : S1024x2048.Idx) :
    StableHlo.after hostOps0_4 W (Proc.devRef .tc main_v169) idx = W (Proc.devRef .tc main_arg1) idx := by
  after_results
  rfl

theorem s5_v170 (W : Valuation τ sig (Elt Ideal)) (q : Fin 2048) (k : Fin 32001) :
    StableHlo.after hostOps0_5 W (Proc.devRef .tc main_v170) (ix2 q (Fin.castLE (by decide) k : Fin 32768))
      = W (Proc.devRef .tc main_arg3) (ix2 q k) := by
  after_results
  simp only [StableHlo.TRef.toBuf, StableHlo.TRef.ofBuf, cast_eq]
  exact pad_apply_of_inside _ _ _ _ _ _ _ (ix2 q (Fin.castLE (by decide) k : Fin 32768)) (ix2 q k) (fun a => by
    match a with
    | ⟨0, _⟩ => show q.val = 0 + q.val * (0 + 1); omega
    | ⟨1, _⟩ => show k.val = 0 + k.val * (0 + 1); omega)

theorem s6_v171 (W : Valuation τ sig (Elt Ideal)) (idx : S2048x32768.Idx) :
    StableHlo.after hostOps0_6 W (Proc.devRef .tc main_v171) idx = W (Proc.devRef .tc main_v170) idx := by
  after_results
  rfl

theorem s7_v171 (W : Valuation τ sig (Elt Ideal)) (idx : S2048x32768.Idx) :
    StableHlo.after hostOps0_7 W (Proc.devRef .tc main_v171) idx = W (Proc.devRef .tc main_v171) idx := by
  after_results

theorem s7_v172 (W : Valuation τ sig (Elt Ideal)) (k : Fin 32001) :
    StableHlo.after hostOps0_7 W (Proc.devRef .tc main_v172) (ix1 (Fin.castLE (by decide) k : Fin 32768))
      = W (Proc.devRef .tc main_arg4) (ix1 k) := by
  after_results
  simp only [StableHlo.TRef.toBuf, StableHlo.TRef.ofBuf, cast_eq]
  exact pad_apply_of_inside _ _ _ _ _ _ _ (ix1 (Fin.castLE (by decide) k : Fin 32768)) (ix1 k) (fun a => by
    match a with
    | ⟨0, _⟩ => show k.val = 0 + k.val * (0 + 1); omega)

/-- Row `i < 4095` of the padded hidden rows is the gathered row `i`. -/
theorem x_apply (c : Dev nD) (i : Fin 4095) (p : Fin 1024) :
    W8 m ρ c (Proc.devRef .tc main_v168) (ix2 (Fin.castLE (by decide) i : Fin 4096) p) = W2 m ρ c (Proc.devRef .tc main_v166) (ix2 i p) := by
  rw [W8_of_W5 m ρ c main_v168 (by decide)]
  exact (s4_v168 (W4 m ρ c) _).trans ((s3_v167 (W3 m ρ c) i p).trans (s2_v166 (W2 m ρ c) _))

/-- The first value matrix is the argument. -/
theorem w_apply (c : Dev nD) (p : Fin 1024) (q : Fin 2048) :
    W8 m ρ c (Proc.devRef .tc main_v169) (ix2 p q) = m ((c : Thread nD τ).loc main_arg1) (ix2 p q) := by
  rw [W8_of_W5 m ρ c main_v169 (by decide)]
  exact (s4_v169 (W4 m ρ c) _).trans (congrFun (W4_main_arg1 m ρ c) _)

/-- Column `k < 32001` of the padded second value matrix is the argument's column `k`. -/
theorem w2_apply (c : Dev nD) (q : Fin 2048) (k : Fin 32001) :
    W8 m ρ c (Proc.devRef .tc main_v171) (ix2 q (Fin.castLE (by decide) k : Fin 32768)) = m ((c : Thread nD τ).loc main_arg3) (ix2 q k) :=
  (s7_v171 (W7 m ρ c) _).trans ((s6_v171 (W6 m ρ c) _).trans ((s5_v170 (W5 m ρ c) q k).trans (congrFun (W5_main_arg3 m ρ c) _)))

/-- Entry `k < 32001` of the padded second bias is the argument's entry `k`. -/
theorem b2_apply (c : Dev nD) (k : Fin 32001) :
    W8 m ρ c (Proc.devRef .tc main_v172) (ix1 (Fin.castLE (by decide) k : Fin 32768)) = m ((c : Thread nD τ).loc main_arg4) (ix1 k) :=
  (s7_v172 (W7 m ρ c) k).trans (congrFun (W7_main_arg4 m ρ c) _)

end Cert.KernelIdeal.Run

end
-- ==== Proof.LibSsaFold.lean ====
/-
  A straight line of host operations in which every buffer is written once: the final contents satisfy every operation's
  own equation.
  The contents after a list of operations are a fold: each operation rewrites the buffer it writes from the contents
  before it. When the operations after a given one write neither its operands nor its result, and its operands are not
  its result, nothing that matters changes after it ran: the FINAL contents of its result buffer are its function of
  the FINAL contents of its operand buffers. So a long host program can be read one operation at a time, every
  intermediate named by its buffer, without ever composing the operations into one term.
-/
import Idealize.ShloMosaic.Lib.StableHlo.Run

namespace Cert.Lib.SsaFold

open Idealize.ShloMosaic Idealize.ShloMosaic.StableHlo

variable {τ : Topo} {sig : RefSig} {Val : EltTy → Type}

/-- The fold over two lists one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- At a buffer the operations after `op` do not write, the final contents are what `op` left. -/
theorem after_mid (pre post : List (HloOp τ sig Val)) (op : HloOp τ sig Val) (V : Valuation τ sig Val)
    (b : DevRef τ sig) (hb : ∀ o ∈ post, b ∉ o.writes) :
    after (pre ++ op :: post) V b = op.result (after pre V) b := by
  rw [after_append, after_cons, after_of_forall_not_mem post _ hb]

section Builders

variable {x a b c y : Ref sig .tc}

/-- `%y = f %x` in the middle of a line: finally `y` holds `f` of what `x` finally holds. -/
theorem after_unary (pre post : List (HloOp τ sig Val)) (f : x.ty.Contents Val → y.ty.Contents Val) (hx hy)
    (V : Valuation τ sig Val) (hxy : x ≠ y)
    (hpost : ∀ o ∈ post, Proc.devRef (τ := τ) .tc x ∉ o.writes ∧ Proc.devRef (τ := τ) .tc y ∉ o.writes) :
    after (pre ++ unary (τ := τ) x y f hx hy :: post) V (Proc.devRef .tc y)
      = f (after (pre ++ unary (τ := τ) x y f hx hy :: post) V (Proc.devRef .tc x)) := by
  rw [after_mid pre post _ V _ (fun o ho => (hpost o ho).2), after_mid pre post _ V _ (fun o ho => (hpost o ho).1),
    unary_result', HloOp.result_of_not_mem _ _ (by
      rw [unary_writes]; exact fun h => devRef_ne_of_ne hxy (Finset.mem_singleton.mp h))]

/-- `%y = f %a %b` in the middle of a line. -/
theorem after_binary (pre post : List (HloOp τ sig Val)) (f : a.ty.Contents Val → b.ty.Contents Val → y.ty.Contents Val)
    (ha hb hy) (V : Valuation τ sig Val) (hay : a ≠ y) (hby : b ≠ y)
    (hpost : ∀ o ∈ post, Proc.devRef (τ := τ) .tc a ∉ o.writes ∧ Proc.devRef (τ := τ) .tc b ∉ o.writes
      ∧ Proc.devRef (τ := τ) .tc y ∉ o.writes) :
    after (pre ++ binary (τ := τ) a b y f ha hb hy :: post) V (Proc.devRef .tc y)
      = f (after (pre ++ binary (τ := τ) a b y f ha hb hy :: post) V (Proc.devRef .tc a))
          (after (pre ++ binary (τ := τ) a b y f ha hb hy :: post) V (Proc.devRef .tc b)) := by
  rw [after_mid pre post _ V _ (fun o ho => (hpost o ho).2.2), after_mid pre post _ V _ (fun o ho => (hpost o ho).1),
    after_mid pre post _ V _ (fun o ho => (hpost o ho).2.1), binary_result',
    HloOp.result_of_not_mem _ _ (by
      rw [binary_writes]; exact fun h => devRef_ne_of_ne hay (Finset.mem_singleton.mp h)),
    HloOp.result_of_not_mem _ _ (by
      rw [binary_writes]; exact fun h => devRef_ne_of_ne hby (Finset.mem_singleton.mp h))]

/-- `%y = f %c %a %b` in the middle of a line. -/
theorem after_ternary (pre post : List (HloOp τ sig Val))
    (f : c.ty.Contents Val → a.ty.Contents Val → b.ty.Contents Val → y.ty.Contents Val)
    (hc ha hb hy) (V : Valuation τ sig Val) (hcy : c ≠ y) (hay : a ≠ y) (hby : b ≠ y)
    (hpost : ∀ o ∈ post, Proc.devRef (τ := τ) .tc c ∉ o.writes ∧ Proc.devRef (τ := τ) .tc a ∉ o.writes
      ∧ Proc.devRef (τ := τ) .tc b ∉ o.writes ∧ Proc.devRef (τ := τ) .tc y ∉ o.writes) :
    after (pre ++ ternary (τ := τ) c a b y f hc ha hb hy :: post) V (Proc.devRef .tc y)
      = f (after (pre ++ ternary (τ := τ) c a b y f hc ha hb hy :: post) V (Proc.devRef .tc c))
          (after (pre ++ ternary (τ := τ) c a b y f hc ha hb hy :: post) V (Proc.devRef .tc a))
          (after (pre ++ ternary (τ := τ) c a b y f hc ha hb hy :: post) V (Proc.devRef .tc b)) := by
  rw [after_mid pre post _ V _ (fun o ho => (hpost o ho).2.2.2), after_mid pre post _ V _ (fun o ho => (hpost o ho).1),
    after_mid pre post _ V _ (fun o ho => (hpost o ho).2.1), after_mid pre post _ V _ (fun o ho => (hpost o ho).2.2.1),
    ternary_result',
    HloOp.result_of_not_mem _ _ (by
      rw [ternary_writes]; exact fun h => devRef_ne_of_ne hcy (Finset.mem_singleton.mp h)),
    HloOp.result_of_not_mem _ _ (by
      rw [ternary_writes]; exact fun h => devRef_ne_of_ne hay (Finset.mem_singleton.mp h)),
    HloOp.result_of_not_mem _ _ (by
      rw [ternary_writes]; exact fun h => devRef_ne_of_ne hby (Finset.mem_singleton.mp h))]

/-- A constant in the middle of a line: finally `y` holds it. -/
theorem after_nullary (pre post : List (HloOp τ sig Val)) (v : y.ty.Contents Val) (hy) (V : Valuation τ sig Val)
    (hpost : ∀ o ∈ post, Proc.devRef (τ := τ) .tc y ∉ o.writes) :
    after (pre ++ nullary (τ := τ) y v hy :: post) V (Proc.devRef .tc y) = v := by
  rw [after_mid pre post _ V _ hpost, nullary_result']

end Builders

end Cert.Lib.SsaFold
-- ==== Proof.LibSsaFold2.lean ====
/-
  A straight line of host operations whose k-th operation writes the reference numbered n + k, read one operation at a
  time.

  When the operations of a line write, in order, the references numbered n, n + 1, n + 2, … (every buffer written
  once, in the order of the numbering), an operation at position k whose operands are numbered below n + k reads only
  buffers that nothing at or after position k writes, and nothing after it writes its result. So the FINAL contents of
  its result buffer are its function of the FINAL contents of its operand buffers — the equation of that one
  operation, stated over the contents after the whole line — and a reference numbered below n is never written.
  The side conditions are a position in the list and comparisons of numbers.
-/
import Idealize.ShloMosaic.Lib.StableHlo.Run
import proofs.«141888_j3590592659519_2_alg».proof.Proof.LibSsaFold

namespace Cert.Lib.SsaFold2

open Idealize.ShloMosaic Idealize.ShloMosaic.StableHlo Cert.Lib.SsaFold

variable {τ : Topo} {sig : RefSig} {Val : EltTy → Type}

/-- The operations write, in order, exactly the references numbered `n`, `n + 1`, …: one reference each; each touches
    TensorCore references only and determines what it writes. -/
inductive Numbered : Nat → List (HloOp τ sig Val) → Prop
  | nil (n : Nat) : Numbered n []
  | cons {n : Nat} {op : HloOp τ sig Val} {ops : List (HloOp τ sig Val)} (y : Ref sig .tc)
      (hw : op.writes = {Proc.devRef (τ := τ) .tc y}) (hy : y.idx.val = n) (hs : op.bufs ⊆ tcRefs τ sig)
      (hf : op.fresh = ∅) (h : Numbered (n + 1) ops) : Numbered n (op :: ops)

namespace Numbered

/-- Two numbered lines one after the other, the second starting where the first ends. -/
theorem append {n m : Nat} {l₁ l₂ : List (HloOp τ sig Val)} (h₁ : Numbered n l₁) (hm : n + l₁.length = m)
    (h₂ : Numbered m l₂) : Numbered n (l₁ ++ l₂) := by
  induction h₁ generalizing m with
  | nil n => simp only [List.length_nil, Nat.add_zero] at hm; subst hm; exact h₂
  | cons y hw hy hs hf _ ih =>
    rw [List.cons_append]
    exact .cons y hw hy hs hf (ih (by simp only [List.length_cons] at hm; omega) h₂)

/-- No operation of a line numbered from `n` writes a reference numbered below `n`. -/
theorem not_mem_writes {n : Nat} {ops : List (HloOp τ sig Val)} (h : Numbered n ops) :
    ∀ o ∈ ops, ∀ r : Ref sig .tc, r.idx.val < n → Proc.devRef (τ := τ) .tc r ∉ o.writes := by
  induction h with
  | nil n => intro o ho; cases ho
  | cons y hw hy _ _ _ ih =>
    intro o ho r hr
    rcases List.mem_cons.mp ho with rfl | ho
    · rw [hw, Finset.mem_singleton]
      intro e
      have : r = y := Proc.devRef_injective _ e
      subst this; omega
    · exact ih o ho r (by omega)

/-- The line from position `k` on is numbered from `n + k`. -/
theorem drop {n : Nat} {ops : List (HloOp τ sig Val)} (h : Numbered n ops) : ∀ k, Numbered (n + k) (ops.drop k) := by
  induction h with
  | nil n => intro k; rw [List.drop_nil]; exact .nil _
  | @cons n op ops y hw hy hs hf h ih =>
    intro k
    cases k with
    | zero => exact .cons y hw hy hs hf h
    | succ k =>
      rw [List.drop_succ_cons, show n + (k + 1) = n + 1 + k by omega]
      exact ih k

/-- Every operation of a numbered line touches TensorCore references only. -/
theorem bufs_sub {n : Nat} {ops : List (HloOp τ sig Val)} (h : Numbered n ops) :
    ops.Forall fun op => op.bufs ⊆ tcRefs τ sig := by
  rw [List.forall_iff_forall_mem]
  induction h with
  | nil n => intro o ho; cases ho
  | cons y _ _ hs _ _ ih =>
    intro o ho
    rcases List.mem_cons.mp ho with rfl | ho
    · exact hs
    · exact ih o ho

/-- Every operation of a numbered line determines what it writes. -/
theorem fresh {n : Nat} {ops : List (HloOp τ sig Val)} (h : Numbered n ops) : ∀ op ∈ ops, op.fresh = ∅ := by
  induction h with
  | nil n => intro o ho; cases ho
  | cons y _ _ _ hf _ ih =>
    intro o ho
    rcases List.mem_cons.mp ho with rfl | ho
    · exact hf
    · exact ih o ho

end Numbered

/-- A list with an element at position `k` is what precedes it, it, and what follows. -/
theorem eq_take_cons_drop {α : Type _} : ∀ (l : List α) (k : Nat) (a : α), l[k]? = some a → l = l.take k ++ a :: l.drop (k + 1)
  | [], _, _, h => by simp at h
  | b :: l, 0, a, h => by
    simp only [List.getElem?_cons_zero, Option.some.injEq] at h
    subst h; rfl
  | b :: l, k + 1, a, h => by
    have := eq_take_cons_drop l k a (by simpa using h)
    simp only [List.take_succ_cons, List.drop_succ_cons, List.cons_append]
    exact congrArg (List.cons b) this

variable {n : Nat} {ops : List (HloOp τ sig Val)}

/-- A reference numbered below `n + k` holds finally what it held before position `k`. -/
theorem after_eq_take (hN : Numbered n ops) (k : Nat) (r : Ref sig .tc) (hr : r.idx.val < n + k) (V : Valuation τ sig Val) :
    after ops V (Proc.devRef .tc r) = after (ops.take k) V (Proc.devRef .tc r) := by
  have h : after (ops.take k ++ ops.drop k) V (Proc.devRef .tc r) = after (ops.take k) V (Proc.devRef .tc r) := by
    rw [after_append, after_of_forall_not_mem _ _ fun o ho => (hN.drop k).not_mem_writes o ho r hr]
  rwa [List.take_append_drop] at h

/-- A reference numbered below `n` is never written: finally it holds what it held at the start. -/
theorem after_arg (hN : Numbered n ops) (r : Ref sig .tc) (hr : r.idx.val < n) (V : Valuation τ sig Val) :
    after ops V (Proc.devRef .tc r) = V (Proc.devRef .tc r) :=
  after_of_forall_not_mem ops V fun o ho => hN.not_mem_writes o ho r hr

/-- The result of the operation at position `k`, numbered `n + k`, is finally what that operation left. -/
theorem after_eq_result (hN : Numbered n ops) (k : Nat) (op : HloOp τ sig Val) (hk : ops[k]? = some op)
    (y : Ref sig .tc) (hy : y.idx.val = n + k) (V : Valuation τ sig Val) :
    after ops V (Proc.devRef .tc y) = op.result (after (ops.take k) V) (Proc.devRef .tc y) := by
  have h := after_mid (ops.take k) (ops.drop (k + 1)) op V (Proc.devRef .tc y)
    fun o ho => (hN.drop (k + 1)).not_mem_writes o ho y (by omega)
  rwa [← eq_take_cons_drop ops k op hk] at h

section Builders

variable {x a b c y : Ref sig .tc}

/-- A constant at position `k`. -/
theorem at_nullary (hN : Numbered n ops) (k : Nat) {v : y.ty.Contents Val} {hy}
    (hk : ops[k]? = some (nullary (τ := τ) y v hy)) (hy' : y.idx.val = n + k) (V : Valuation τ sig Val) :
    after ops V (Proc.devRef .tc y) = v := by
  rw [after_eq_result hN k _ hk y hy' V, nullary_result']

/-- `%y = f %x` at position `k`, `x` numbered below it. -/
theorem at_unary (hN : Numbered n ops) (k : Nat) {f : x.ty.Contents Val → y.ty.Contents Val} {hx hy}
    (hk : ops[k]? = some (unary (τ := τ) x y f hx hy)) (hx' : x.idx.val < n + k) (hy' : y.idx.val = n + k)
    (V : Valuation τ sig Val) :
    after ops V (Proc.devRef .tc y) = f (after ops V (Proc.devRef .tc x)) := by
  rw [after_eq_result hN k _ hk y hy' V, unary_result', after_eq_take hN k x hx' V]

/-- `%y = f %a %b` at position `k`, the operands numbered below it. -/
theorem at_binary (hN : Numbered n ops) (k : Nat) {f : a.ty.Contents Val → b.ty.Contents Val → y.ty.Contents Val} {ha hb hy}
    (hk : ops[k]? = some (binary (τ := τ) a b y f ha hb hy)) (ha' : a.idx.val < n + k) (hb' : b.idx.val < n + k)
    (hy' : y.idx.val = n + k) (V : Valuation τ sig Val) :
    after ops V (Proc.devRef .tc y) = f (after ops V (Proc.devRef .tc a)) (after ops V (Proc.devRef .tc b)) := by
  rw [after_eq_result hN k _ hk y hy' V, binary_result', after_eq_take hN k a ha' V, after_eq_take hN k b hb' V]

/-- `%y = f %c %a %b` at position `k`, the operands numbered below it. -/
theorem at_ternary (hN : Numbered n ops) (k : Nat)
    {f : c.ty.Contents Val → a.ty.Contents Val → b.ty.Contents Val → y.ty.Contents Val} {hc ha hb hy}
    (hk : ops[k]? = some (ternary (τ := τ) c a b y f hc ha hb hy)) (hc' : c.idx.val < n + k) (ha' : a.idx.val < n + k)
    (hb' : b.idx.val < n + k) (hy' : y.idx.val = n + k) (V : Valuation τ sig Val) :
    after ops V (Proc.devRef .tc y)
      = f (after ops V (Proc.devRef .tc c)) (after ops V (Proc.devRef .tc a)) (after ops V (Proc.devRef .tc b)) := by
  rw [after_eq_result hN k _ hk y hy' V, ternary_result', after_eq_take hN k c hc' V, after_eq_take hN k a ha' V,
    after_eq_take hN k b hb' V]

/-- `%y = reshape %x` at position `k`, `x` numbered below it. -/
theorem at_reshape (hN : Numbered n ops) (k : Nat) {he : x.ty.elt = y.ty.elt} {hn : x.ty.shape.ShapeCasts y.ty.shape} {hx hy}
    (hk : ops[k]? = some (reshape (τ := τ) (Val := Val) x y he hn hx hy)) (hx' : x.idx.val < n + k)
    (hy' : y.idx.val = n + k) (V : Valuation τ sig Val) :
    after ops V (Proc.devRef .tc y) = fun i => he ▸ shapeCast y.ty.shape (after ops V (Proc.devRef .tc x)) hn i := by
  rw [after_eq_result hN k _ hk y hy' V, reshape_result', after_eq_take hN k x hx' V]

end Builders

end Cert.Lib.SsaFold2
-- ==== Proof.LibSsaNary.lean ====
/-
  The same reading of a numbered line (the k-th operation writes the reference numbered n + k) for an operation of
  any number of operands — a concatenation —: the final contents of its result are its function of the final contents
  of its operands, all numbered below it.
-/
import proofs.«141888_j3590592659519_2_alg».proof.Proof.LibSsaFold2

namespace Cert.Lib.SsaNary

open Idealize.ShloMosaic Idealize.ShloMosaic.StableHlo Cert.Lib.SsaFold2

variable {τ : Topo} {sig : RefSig} {Val : EltTy → Type} {n : Nat} {ops : List (HloOp τ sig Val)}

/-- `%y = f %x₀ … %xₖ₋₁` at position `k`, every operand numbered below it. -/
theorem at_nary (hN : Numbered n ops) (k : Nat) {N : Nat} {xs : Fin N → Ref sig .tc} {y : Ref sig .tc}
    {f : ((j : Fin N) → (xs j).ty.Contents Val) → y.ty.Contents Val} {hxs hy}
    (hk : ops[k]? = some (nary (τ := τ) xs y f hxs hy)) (hx' : ∀ j, (xs j).idx.val < n + k) (hy' : y.idx.val = n + k)
    (V : Valuation τ sig Val) :
    after ops V (Proc.devRef .tc y) = f (fun j => after ops V (Proc.devRef .tc (xs j))) := by
  rw [after_eq_result hN k _ hk y hy' V, nary_result']
  exact congrArg f (funext fun j => (after_eq_take hN k (xs j) (hx' j) V).symm)

end Cert.Lib.SsaNary
-- ==== Proof.SsaK.lean ====
/- Table written by: python3 scratch/gen_ssa.py K 141888_j3590592659519_2_alg  — the line's numbering (operation k writes reference 9 + k) and, per
   operation, the final contents of its result buffer as its function of the final contents of its operand buffers;
   then, per level buffer, those equations composed back to the previous level's buffer and the arguments. 189 operations. -/
import proofs.«141888_j3590592659519_2_alg».proof.Proof.Gen.KernelIdeal.Launch
import proofs.«141888_j3590592659519_2_alg».proof.Proof.LibSsaNary

set_option maxRecDepth 65536
set_option maxHeartbeats 4000000

noncomputable section

namespace Cert.KernelIdeal.Ssa

open Cert.KernelIdeal Cert.KernelIdeal.Gen
open Idealize.ShloMosaic Idealize.ShloMosaic.TcCoe Idealize.SL.Sem Idealize.ShloMosaic.StableHlo Cert.Lib.SsaFold2 Cert.Lib.SsaNary

variable {F : FTy → Type} [FloatOps F] [Named F]

theorem numbered0 : Numbered 9 (hostOps0 : List (HloOp τ sig (Elt F))) :=
  Numbered.cons main_c (StableHlo.nullary_writes ..) rfl (StableHlo.nullary_bufs_sub ..) rfl (Numbered.cons main_v0 (StableHlo.unary_writes ..) rfl (StableHlo.unary_bufs_sub ..) rfl (Numbered.cons main_v1 (StableHlo.unary_writes ..) rfl (StableHlo.unary_bufs_sub ..) rfl (Numbered.cons main_v2 (StableHlo.binary_writes ..) rfl (StableHlo.binary_bufs_sub ..) rfl (Numbered.cons main_v3 (StableHlo.unary_writes ..) rfl (StableHlo.unary_bufs_sub ..) rfl (Numbered.cons main_v4 (StableHlo.binary_writes ..) rfl (StableHlo.binary_bufs_sub ..) rfl (Numbered.cons main_v5 (StableHlo.unary_writes ..) rfl (StableHlo.unary_bufs_sub ..) rfl (Numbered.cons main_v6 (StableHlo.unary_writes ..) rfl (StableHlo.unary_bufs_sub ..) rfl (Numbered.cons main_cst (StableHlo.nullary_writes ..) rfl (StableHlo.nullary_bufs_sub ..) rfl (Numbered.cons main_v7 (StableHlo.unary_writes ..) rfl (StableHlo.unary_bufs_sub ..) rfl (Numbered.cons main_v8 (StableHlo.binary_writes ..) rfl (StableHlo.binary_bufs_sub ..) rfl (Numbered.cons main_cst_0 (StableHlo.nullary_writes ..) rfl (StableHlo.nullary_bufs_sub ..) rfl (Numbered.cons main_v9 (StableHlo.unary_writes ..) rfl (StableHlo.unary_bufs_sub ..) rfl (Numbered.cons main_v10 (StableHlo.binary_writes ..) rfl (StableHlo.binary_bufs_sub ..) rfl (Numbered.cons main_v11 (StableHlo.binary_writes ..) rfl (StableHlo.binary_bufs_sub ..) rfl (Numbered.cons main_v12 (StableHlo.unary_writes ..) rfl (StableHlo.unary_bufs_sub ..) rfl (Numbered.cons main_v13 (StableHlo.binary_writes ..) rfl (StableHlo.binary_bufs_sub ..) rfl (Numbered.cons main_v14 (StableHlo.reshape_writes ..) rfl (StableHlo.reshape_bufs_sub ..) rfl (Numbered.cons main_v15 (StableHlo.binary_writes ..) rfl (StableHlo.binary_bufs_sub ..) rfl (Numbered.cons main_v16 (StableHlo.unary_writes ..) rfl (StableHlo.unary_bufs_sub ..) rfl (Numbered.cons main_v17 (StableHlo.unary_writes ..) rfl (StableHlo.unary_bufs_sub ..) rfl (Numbered.cons main_v18 (StableHlo.binary_writes ..) rfl (StableHlo.binary_bufs_sub ..) rfl (Numbered.cons main_v19 (StableHlo.unary_writes ..) rfl (StableHlo.unary_bufs_sub ..) rfl (Numbered.cons main_v20 (StableHlo.unary_writes ..) rfl (StableHlo.unary_bufs_sub ..) rfl (Numbered.cons main_cst_1 (StableHlo.nullary_writes ..) rfl (StableHlo.nullary_bufs_sub ..) rfl (Numbered.cons main_v21 (StableHlo.unary_writes ..) rfl (StableHlo.unary_bufs_sub ..) rfl (Numbered.cons main_v22 (StableHlo.binary_writes ..) rfl (StableHlo.binary_bufs_sub ..) rfl (Numbered.cons main_cst_2 (StableHlo.nullary_writes ..) rfl (StableHlo.nullary_bufs_sub ..) rfl (Numbered.cons main_v23 (StableHlo.unary_writes ..) rfl (StableHlo.unary_bufs_sub ..) rfl (Numbered.cons main_v24 (StableHlo.binary_writes ..) rfl (StableHlo.binary_bufs_sub ..) rfl (Numbered.cons main_v25 (StableHlo.binary_writes ..) rfl (StableHlo.binary_bufs_sub ..) rfl (Numbered.cons main_v26 (StableHlo.unary_writes ..) rfl (StableHlo.unary_bufs_sub ..) rfl (Numbered.cons main_v27 (StableHlo.unary_writes ..) rfl (StableHlo.unary_bufs_sub ..) rfl (Numbered.cons main_v28 (StableHlo.binary_writes ..) rfl (StableHlo.binary_bufs_sub ..) rfl (Numbered.cons main_v29 (StableHlo.reshape_writes ..) rfl (StableHlo.reshape_bufs_sub ..) rfl (Numbered.cons main_v30 (StableHlo.binary_writes ..) rfl (StableHlo.binary_bufs_sub ..) rfl (Numbered.cons main_v31 (StableHlo.unary_writes ..) rfl (StableHlo.unary_bufs_sub ..) rfl (Numbered.cons main_v32 (StableHlo.unary_writes ..) rfl (StableHlo.unary_bufs_sub ..) rfl (Numbered.cons main_v33 (StableHlo.binary_writes ..) rfl (StableHlo.binary_bufs_sub ..) rfl (Numbered.cons main_v34 (StableHlo.unary_writes ..) rfl (StableHlo.unary_bufs_sub ..) rfl (Numbered.cons main_v35 (StableHlo.unary_writes ..) rfl (StableHlo.unary_bufs_sub ..) rfl (Numbered.cons main_cst_3 (StableHlo.nullary_writes ..) rfl (StableHlo.nullary_bufs_sub ..) rfl (Numbered.cons main_v36 (StableHlo.unary_writes ..) rfl (StableHlo.unary_bufs_sub ..) rfl (Numbered.cons main_v37 (StableHlo.binary_writes ..) rfl (StableHlo.binary_bufs_sub ..) rfl (Numbered.cons main_cst_4 (StableHlo.nullary_writes ..) rfl (StableHlo.nullary_bufs_sub ..) rfl (Numbered.cons main_v38 (StableHlo.unary_writes ..) rfl (StableHlo.unary_bufs_sub ..) rfl (Numbered.cons main_v39 (StableHlo.binary_writes ..) rfl (StableHlo.binary_bufs_sub ..) rfl (Numbered.cons main_v40 (StableHlo.binary_writes ..) rfl (StableHlo.binary_bufs_sub ..) rfl (Numbered.cons main_v41 (StableHlo.unary_writes ..) rfl (StableHlo.unary_bufs_sub ..) rfl (Numbered.cons main_v42 (StableHlo.unary_writes ..) rfl (StableHlo.unary_bufs_sub ..) rfl (Numbered.cons main_v43 (StableHlo.binary_writes ..) rfl (StableHlo.binary_bufs_sub ..) rfl (Numbered.cons main_v44 (StableHlo.reshape_writes ..) rfl (StableHlo.reshape_bufs_sub ..) rfl (Numbered.cons main_v45 (StableHlo.binary_writes ..) rfl (StableHlo.binary_bufs_sub ..) rfl (Numbered.cons main_v46 (StableHlo.unary_writes ..) rfl (StableHlo.unary_bufs_sub ..) rfl (Numbered.cons main_v47 (StableHlo.unary_writes ..) rfl (StableHlo.unary_bufs_sub ..) rfl (Numbered.cons main_v48 (StableHlo.binary_writes ..) rfl (StableHlo.binary_bufs_sub ..) rfl (Numbered.cons main_v49 (StableHlo.unary_writes ..) rfl (StableHlo.unary_bufs_sub ..) rfl (Numbered.cons main_v50 (StableHlo.unary_writes ..) rfl (StableHlo.unary_bufs_sub ..) rfl (Numbered.cons main_cst_5 (StableHlo.nullary_writes ..) rfl (StableHlo.nullary_bufs_sub ..) rfl (Numbered.cons main_v51 (StableHlo.unary_writes ..) rfl (StableHlo.unary_bufs_sub ..) rfl (Numbered.cons main_v52 (StableHlo.binary_writes ..) rfl (StableHlo.binary_bufs_sub ..) rfl (Numbered.cons main_cst_6 (StableHlo.nullary_writes ..) rfl (StableHlo.nullary_bufs_sub ..) rfl (Numbered.cons main_v53 (StableHlo.unary_writes ..) rfl (StableHlo.unary_bufs_sub ..) rfl (Numbered.cons main_v54 (StableHlo.binary_writes ..) rfl (StableHlo.binary_bufs_sub ..) rfl (Numbered.cons main_v55 (StableHlo.binary_writes ..) rfl (StableHlo.binary_bufs_sub ..) rfl (Numbered.cons main_v56 (StableHlo.unary_writes ..) rfl (StableHlo.unary_bufs_sub ..) rfl (Numbered.cons main_v57 (StableHlo.unary_writes ..) rfl (StableHlo.unary_bufs_sub ..) rfl (Numbered.cons main_v58 (StableHlo.binary_writes ..) rfl (StableHlo.binary_bufs_sub ..) rfl (Numbered.cons main_v59 (StableHlo.reshape_writes ..) rfl (StableHlo.reshape_bufs_sub ..) rfl (Numbered.cons main_v60 (StableHlo.binary_writes ..) rfl (StableHlo.binary_bufs_sub ..) rfl (Numbered.cons main_v61 (StableHlo.unary_writes ..) rfl (StableHlo.unary_bufs_sub ..) rfl (Numbered.cons main_v62 (StableHlo.unary_writes ..) rfl (StableHlo.unary_bufs_sub ..) rfl (Numbered.cons main_v63 (StableHlo.binary_writes ..) rfl (StableHlo.binary_bufs_sub ..) rfl (Numbered.cons main_v64 (StableHlo.unary_writes ..) rfl (StableHlo.unary_bufs_sub ..) rfl (Numbered.cons main_v65 (StableHlo.unary_writes ..) rfl (StableHlo.unary_bufs_sub ..) rfl (Numbered.cons main_cst_7 (StableHlo.nullary_writes ..) rfl (StableHlo.nullary_bufs_sub ..) rfl (Numbered.cons main_v66 (StableHlo.unary_writes ..) rfl (StableHlo.unary_bufs_sub ..) rfl (Numbered.cons main_v67 (StableHlo.binary_writes ..) rfl (StableHlo.binary_bufs_sub ..) rfl (Numbered.cons main_cst_8 (StableHlo.nullary_writes ..) rfl (StableHlo.nullary_bufs_sub ..) rfl (Numbered.cons main_v68 (StableHlo.unary_writes ..) rfl (StableHlo.unary_bufs_sub ..) rfl (Numbered.cons main_v69 (StableHlo.binary_writes ..) rfl (StableHlo.binary_bufs_sub ..) rfl (Numbered.cons main_v70 (StableHlo.binary_writes ..) rfl (StableHlo.binary_bufs_sub ..) rfl (Numbered.cons main_v71 (StableHlo.unary_writes ..) rfl (StableHlo.unary_bufs_sub ..) rfl (Numbered.cons main_v72 (StableHlo.unary_writes ..) rfl (StableHlo.unary_bufs_sub ..) rfl (Numbered.cons main_v73 (StableHlo.binary_writes ..) rfl (StableHlo.binary_bufs_sub ..) rfl (Numbered.cons main_v74 (StableHlo.reshape_writes ..) rfl (StableHlo.reshape_bufs_sub ..) rfl (Numbered.cons main_v75 (StableHlo.binary_writes ..) rfl (StableHlo.binary_bufs_sub ..) rfl (Numbered.cons main_v76 (StableHlo.unary_writes ..) rfl (StableHlo.unary_bufs_sub ..) rfl (Numbered.cons main_v77 (StableHlo.unary_writes ..) rfl (StableHlo.unary_bufs_sub ..) rfl (Numbered.cons main_v78 (StableHlo.binary_writes ..) rfl (StableHlo.binary_bufs_sub ..) rfl (Numbered.cons main_v79 (StableHlo.unary_writes ..) rfl (StableHlo.unary_bufs_sub ..) rfl (Numbered.cons main_v80 (StableHlo.unary_writes ..) rfl (StableHlo.unary_bufs_sub ..) rfl (Numbered.cons main_cst_9 (StableHlo.nullary_writes ..) rfl (StableHlo.nullary_bufs_sub ..) rfl (Numbered.cons main_v81 (StableHlo.unary_writes ..) rfl (StableHlo.unary_bufs_sub ..) rfl (Numbered.cons main_v82 (StableHlo.binary_writes ..) rfl (StableHlo.binary_bufs_sub ..) rfl (Numbered.cons main_cst_10 (StableHlo.nullary_writes ..) rfl (StableHlo.nullary_bufs_sub ..) rfl (Numbered.cons main_v83 (StableHlo.unary_writes ..) rfl (StableHlo.unary_bufs_sub ..) rfl (Numbered.cons main_v84 (StableHlo.binary_writes ..) rfl (StableHlo.binary_bufs_sub ..) rfl (Numbered.cons main_v85 (StableHlo.binary_writes ..) rfl (StableHlo.binary_bufs_sub ..) rfl (Numbered.cons main_v86 (StableHlo.unary_writes ..) rfl (StableHlo.unary_bufs_sub ..) rfl (Numbered.cons main_v87 (StableHlo.unary_writes ..) rfl (StableHlo.unary_bufs_sub ..) rfl (Numbered.cons main_v88 (StableHlo.binary_writes ..) rfl (StableHlo.binary_bufs_sub ..) rfl (Numbered.cons main_v89 (StableHlo.reshape_writes ..) rfl (StableHlo.reshape_bufs_sub ..) rfl (Numbered.cons main_v90 (StableHlo.binary_writes ..) rfl (StableHlo.binary_bufs_sub ..) rfl (Numbered.cons main_v91 (StableHlo.unary_writes ..) rfl (StableHlo.unary_bufs_sub ..) rfl (Numbered.cons main_v92 (StableHlo.unary_writes ..) rfl (StableHlo.unary_bufs_sub ..) rfl (Numbered.cons main_v93 (StableHlo.binary_writes ..) rfl (StableHlo.binary_bufs_sub ..) rfl (Numbered.cons main_v94 (StableHlo.unary_writes ..) rfl (StableHlo.unary_bufs_sub ..) rfl (Numbered.cons main_v95 (StableHlo.unary_writes ..) rfl (StableHlo.unary_bufs_sub ..) rfl (Numbered.cons main_cst_11 (StableHlo.nullary_writes ..) rfl (StableHlo.nullary_bufs_sub ..) rfl (Numbered.cons main_v96 (StableHlo.unary_writes ..) rfl (StableHlo.unary_bufs_sub ..) rfl (Numbered.cons main_v97 (StableHlo.binary_writes ..) rfl (StableHlo.binary_bufs_sub ..) rfl (Numbered.cons main_cst_12 (StableHlo.nullary_writes ..) rfl (StableHlo.nullary_bufs_sub ..) rfl (Numbered.cons main_v98 (StableHlo.unary_writes ..) rfl (StableHlo.unary_bufs_sub ..) rfl (Numbered.cons main_v99 (StableHlo.binary_writes ..) rfl (StableHlo.binary_bufs_sub ..) rfl (Numbered.cons main_v100 (StableHlo.binary_writes ..) rfl (StableHlo.binary_bufs_sub ..) rfl (Numbered.cons main_v101 (StableHlo.unary_writes ..) rfl (StableHlo.unary_bufs_sub ..) rfl (Numbered.cons main_v102 (StableHlo.unary_writes ..) rfl (StableHlo.unary_bufs_sub ..) rfl (Numbered.cons main_v103 (StableHlo.binary_writes ..) rfl (StableHlo.binary_bufs_sub ..) rfl (Numbered.cons main_v104 (StableHlo.reshape_writes ..) rfl (StableHlo.reshape_bufs_sub ..) rfl (Numbered.cons main_v105 (StableHlo.binary_writes ..) rfl (StableHlo.binary_bufs_sub ..) rfl (Numbered.cons main_v106 (StableHlo.unary_writes ..) rfl (StableHlo.unary_bufs_sub ..) rfl (Numbered.cons main_v107 (StableHlo.unary_writes ..) rfl (StableHlo.unary_bufs_sub ..) rfl (Numbered.cons main_v108 (StableHlo.binary_writes ..) rfl (StableHlo.binary_bufs_sub ..) rfl (Numbered.cons main_v109 (StableHlo.unary_writes ..) rfl (StableHlo.unary_bufs_sub ..) rfl (Numbered.cons main_v110 (StableHlo.unary_writes ..) rfl (StableHlo.unary_bufs_sub ..) rfl (Numbered.cons main_cst_13 (StableHlo.nullary_writes ..) rfl (StableHlo.nullary_bufs_sub ..) rfl (Numbered.cons main_v111 (StableHlo.unary_writes ..) rfl (StableHlo.unary_bufs_sub ..) rfl (Numbered.cons main_v112 (StableHlo.binary_writes ..) rfl (StableHlo.binary_bufs_sub ..) rfl (Numbered.cons main_cst_14 (StableHlo.nullary_writes ..) rfl (StableHlo.nullary_bufs_sub ..) rfl (Numbered.cons main_v113 (StableHlo.unary_writes ..) rfl (StableHlo.unary_bufs_sub ..) rfl (Numbered.cons main_v114 (StableHlo.binary_writes ..) rfl (StableHlo.binary_bufs_sub ..) rfl (Numbered.cons main_v115 (StableHlo.binary_writes ..) rfl (StableHlo.binary_bufs_sub ..) rfl (Numbered.cons main_v116 (StableHlo.unary_writes ..) rfl (StableHlo.unary_bufs_sub ..) rfl (Numbered.cons main_v117 (StableHlo.unary_writes ..) rfl (StableHlo.unary_bufs_sub ..) rfl (Numbered.cons main_v118 (StableHlo.binary_writes ..) rfl (StableHlo.binary_bufs_sub ..) rfl (Numbered.cons main_v119 (StableHlo.reshape_writes ..) rfl (StableHlo.reshape_bufs_sub ..) rfl (Numbered.cons main_v120 (StableHlo.binary_writes ..) rfl (StableHlo.binary_bufs_sub ..) rfl (Numbered.cons main_v121 (StableHlo.unary_writes ..) rfl (StableHlo.unary_bufs_sub ..) rfl (Numbered.cons main_v122 (StableHlo.unary_writes ..) rfl (StableHlo.unary_bufs_sub ..) rfl (Numbered.cons main_v123 (StableHlo.binary_writes ..) rfl (StableHlo.binary_bufs_sub ..) rfl (Numbered.cons main_v124 (StableHlo.unary_writes ..) rfl (StableHlo.unary_bufs_sub ..) rfl (Numbered.cons main_v125 (StableHlo.unary_writes ..) rfl (StableHlo.unary_bufs_sub ..) rfl (Numbered.cons main_cst_15 (StableHlo.nullary_writes ..) rfl (StableHlo.nullary_bufs_sub ..) rfl (Numbered.cons main_v126 (StableHlo.unary_writes ..) rfl (StableHlo.unary_bufs_sub ..) rfl (Numbered.cons main_v127 (StableHlo.binary_writes ..) rfl (StableHlo.binary_bufs_sub ..) rfl (Numbered.cons main_cst_16 (StableHlo.nullary_writes ..) rfl (StableHlo.nullary_bufs_sub ..) rfl (Numbered.cons main_v128 (StableHlo.unary_writes ..) rfl (StableHlo.unary_bufs_sub ..) rfl (Numbered.cons main_v129 (StableHlo.binary_writes ..) rfl (StableHlo.binary_bufs_sub ..) rfl (Numbered.cons main_v130 (StableHlo.binary_writes ..) rfl (StableHlo.binary_bufs_sub ..) rfl (Numbered.cons main_v131 (StableHlo.unary_writes ..) rfl (StableHlo.unary_bufs_sub ..) rfl (Numbered.cons main_v132 (StableHlo.unary_writes ..) rfl (StableHlo.unary_bufs_sub ..) rfl (Numbered.cons main_v133 (StableHlo.binary_writes ..) rfl (StableHlo.binary_bufs_sub ..) rfl (Numbered.cons main_v134 (StableHlo.reshape_writes ..) rfl (StableHlo.reshape_bufs_sub ..) rfl (Numbered.cons main_v135 (StableHlo.binary_writes ..) rfl (StableHlo.binary_bufs_sub ..) rfl (Numbered.cons main_v136 (StableHlo.unary_writes ..) rfl (StableHlo.unary_bufs_sub ..) rfl (Numbered.cons main_v137 (StableHlo.unary_writes ..) rfl (StableHlo.unary_bufs_sub ..) rfl (Numbered.cons main_v138 (StableHlo.binary_writes ..) rfl (StableHlo.binary_bufs_sub ..) rfl (Numbered.cons main_v139 (StableHlo.unary_writes ..) rfl (StableHlo.unary_bufs_sub ..) rfl (Numbered.cons main_v140 (StableHlo.unary_writes ..) rfl (StableHlo.unary_bufs_sub ..) rfl (Numbered.cons main_cst_17 (StableHlo.nullary_writes ..) rfl (StableHlo.nullary_bufs_sub ..) rfl (Numbered.cons main_v141 (StableHlo.unary_writes ..) rfl (StableHlo.unary_bufs_sub ..) rfl (Numbered.cons main_v142 (StableHlo.binary_writes ..) rfl (StableHlo.binary_bufs_sub ..) rfl (Numbered.cons main_cst_18 (StableHlo.nullary_writes ..) rfl (StableHlo.nullary_bufs_sub ..) rfl (Numbered.cons main_v143 (StableHlo.unary_writes ..) rfl (StableHlo.unary_bufs_sub ..) rfl (Numbered.cons main_v144 (StableHlo.binary_writes ..) rfl (StableHlo.binary_bufs_sub ..) rfl (Numbered.cons main_v145 (StableHlo.binary_writes ..) rfl (StableHlo.binary_bufs_sub ..) rfl (Numbered.cons main_v146 (StableHlo.unary_writes ..) rfl (StableHlo.unary_bufs_sub ..) rfl (Numbered.cons main_v147 (StableHlo.unary_writes ..) rfl (StableHlo.unary_bufs_sub ..) rfl (Numbered.cons main_v148 (StableHlo.binary_writes ..) rfl (StableHlo.binary_bufs_sub ..) rfl (Numbered.cons main_v149 (StableHlo.reshape_writes ..) rfl (StableHlo.reshape_bufs_sub ..) rfl (Numbered.cons main_v150 (StableHlo.binary_writes ..) rfl (StableHlo.binary_bufs_sub ..) rfl (Numbered.cons main_v151 (StableHlo.unary_writes ..) rfl (StableHlo.unary_bufs_sub ..) rfl (Numbered.cons main_v152 (StableHlo.unary_writes ..) rfl (StableHlo.unary_bufs_sub ..) rfl (Numbered.cons main_v153 (StableHlo.binary_writes ..) rfl (StableHlo.binary_bufs_sub ..) rfl (Numbered.cons main_v154 (StableHlo.unary_writes ..) rfl (StableHlo.unary_bufs_sub ..) rfl (Numbered.cons main_v155 (StableHlo.unary_writes ..) rfl (StableHlo.unary_bufs_sub ..) rfl (Numbered.cons main_cst_19 (StableHlo.nullary_writes ..) rfl (StableHlo.nullary_bufs_sub ..) rfl (Numbered.cons main_v156 (StableHlo.unary_writes ..) rfl (StableHlo.unary_bufs_sub ..) rfl (Numbered.cons main_v157 (StableHlo.binary_writes ..) rfl (StableHlo.binary_bufs_sub ..) rfl (Numbered.cons main_cst_20 (StableHlo.nullary_writes ..) rfl (StableHlo.nullary_bufs_sub ..) rfl (Numbered.cons main_v158 (StableHlo.unary_writes ..) rfl (StableHlo.unary_bufs_sub ..) rfl (Numbered.cons main_v159 (StableHlo.binary_writes ..) rfl (StableHlo.binary_bufs_sub ..) rfl (Numbered.cons main_v160 (StableHlo.binary_writes ..) rfl (StableHlo.binary_bufs_sub ..) rfl (Numbered.cons main_v161 (StableHlo.unary_writes ..) rfl (StableHlo.unary_bufs_sub ..) rfl (Numbered.cons main_v162 (StableHlo.unary_writes ..) rfl (StableHlo.unary_bufs_sub ..) rfl (Numbered.cons main_v163 (StableHlo.binary_writes ..) rfl (StableHlo.binary_bufs_sub ..) rfl (Numbered.cons main_v164 (StableHlo.reshape_writes ..) rfl (StableHlo.reshape_bufs_sub ..) rfl (Numbered.cons main_v165 (StableHlo.nary_writes ..) rfl (StableHlo.nary_bufs_sub ..) rfl (Numbered.nil _)))))))))))))))))))))))))))))))))))))))))))))))))))))))))))))))))))))))))))))))))))))))))))))))))))))))))))))))))))))))))))))))))))))))))))))))))))))))))))))))))))))))))))))))))))))))))))))
theorem numbered : Numbered 9 (hostOps0 : List (HloOp τ sig (Elt F))) := numbered0

theorem eq_main_c (V : Valuation τ sig (Elt F)) : (after (hostOps0 : List (HloOp τ sig (Elt F))) V (Proc.devRef .tc main_c)) = ((fun i => lit0 (S4095.rowMajor i))) :=
  at_nullary numbered 0 rfl rfl V
theorem eq_main_v0 (V : Valuation τ sig (Elt F)) : (after (hostOps0 : List (HloOp τ sig (Elt F))) V (Proc.devRef .tc main_v0)) = ((broadcastInDim S1x1024 ![1] bcast_S1024_S1x1024_1 : (⟨S1024, .f32⟩ : BufTy).Contents (Elt F) → (⟨S1x1024, .f32⟩ : BufTy).Contents (Elt F))) (after (hostOps0 : List (HloOp τ sig (Elt F))) V (Proc.devRef .tc main_arg0)) :=
  at_unary numbered 1 rfl (by decide) rfl V
theorem eq_main_v1 (V : Valuation τ sig (Elt F)) : (after (hostOps0 : List (HloOp τ sig (Elt F))) V (Proc.devRef .tc main_v1)) = ((broadcastInDim S1x1024 ![1] bcast_S1024_S1x1024_1 : (⟨S1024, .f32⟩ : BufTy).Contents (Elt F) → (⟨S1x1024, .f32⟩ : BufTy).Contents (Elt F))) (after (hostOps0 : List (HloOp τ sig (Elt F))) V (Proc.devRef .tc main_arg0)) :=
  at_unary numbered 2 rfl (by decide) rfl V
theorem eq_main_v2 (V : Valuation τ sig (Elt F)) : (after (hostOps0 : List (HloOp τ sig (Elt F))) V (Proc.devRef .tc main_v2)) = (((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (hostOps0 : List (HloOp τ sig (Elt F))) V (Proc.devRef .tc main_v1)) (after (hostOps0 : List (HloOp τ sig (Elt F))) V (Proc.devRef .tc main_arg5)) :=
  at_binary numbered 3 rfl (by decide) (by decide) rfl V
theorem eq_main_v3 (V : Valuation τ sig (Elt F)) : (after (hostOps0 : List (HloOp τ sig (Elt F))) V (Proc.devRef .tc main_v3)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 4 rfl (by decide) rfl V
theorem eq_main_v4 (V : Valuation τ sig (Elt F)) : (after (hostOps0 : List (HloOp τ sig (Elt F))) V (Proc.devRef .tc main_v4)) = ((addf : (⟨S1x2048, .f32⟩ : BufTy).Contents (Elt F) → (⟨S1x2048, .f32⟩ : BufTy).Contents (Elt F) → (⟨S1x2048, .f32⟩ : BufTy).Contents (Elt F))) (after (hostOps0 : List (HloOp τ sig (Elt F))) V (Proc.devRef .tc main_v2)) (after (hostOps0 : List (HloOp τ sig (Elt F))) V (Proc.devRef .tc main_v3)) :=
  at_binary numbered 5 rfl (by decide) (by decide) rfl V
theorem eq_main_v5 (V : Valuation τ sig (Elt F)) : (after (hostOps0 : List (HloOp τ sig (Elt F))) V (Proc.devRef .tc main_v5)) = ((Host.negf : (⟨S1x2048, .f32⟩ : BufTy).Contents (Elt F) → (⟨S1x2048, .f32⟩ : BufTy).Contents (Elt F))) (after (hostOps0 : List (HloOp τ sig (Elt F))) V (Proc.devRef .tc main_v4)) :=
  at_unary numbered 6 rfl (by decide) rfl V
theorem eq_main_v6 (V : Valuation τ sig (Elt F)) : (after (hostOps0 : List (HloOp τ sig (Elt F))) V (Proc.devRef .tc main_v6)) = ((Host.exp : (⟨S1x2048, .f32⟩ : BufTy).Contents (Elt F) → (⟨S1x2048, .f32⟩ : BufTy).Contents (Elt F))) (after (hostOps0 : List (HloOp τ sig (Elt F))) V (Proc.devRef .tc main_v5)) :=
  at_unary numbered 7 rfl (by decide) rfl V
theorem eq_main_cst (V : Valuation τ sig (Elt F)) : (after (hostOps0 : List (HloOp τ sig (Elt F))) V (Proc.devRef .tc main_cst)) = ((constant S_ .f32 0x3F800000#32)) :=
  at_nullary numbered 8 rfl rfl V
theorem eq_main_v7 (V : Valuation τ sig (Elt F)) : (after (hostOps0 : List (HloOp τ sig (Elt F))) V (Proc.devRef .tc main_v7)) = ((broadcastInDim S1x2048 ![] bcast_S_S1x2048 : (⟨S_, .f32⟩ : BufTy).Contents (Elt F) → (⟨S1x2048, .f32⟩ : BufTy).Contents (Elt F))) (after (hostOps0 : List (HloOp τ sig (Elt F))) V (Proc.devRef .tc main_cst)) :=
  at_unary numbered 9 rfl (by decide) rfl V
theorem eq_main_v8 (V : Valuation τ sig (Elt F)) : (after (hostOps0 : List (HloOp τ sig (Elt F))) V (Proc.devRef .tc main_v8)) = ((addf : (⟨S1x2048, .f32⟩ : BufTy).Contents (Elt F) → (⟨S1x2048, .f32⟩ : BufTy).Contents (Elt F) → (⟨S1x2048, .f32⟩ : BufTy).Contents (Elt F))) (after (hostOps0 : List (HloOp τ sig (Elt F))) V (Proc.devRef .tc main_v7)) (after (hostOps0 : List (HloOp τ sig (Elt F))) V (Proc.devRef .tc main_v6)) :=
  at_binary numbered 10 rfl (by decide) (by decide) rfl V
theorem eq_main_cst_0 (V : Valuation τ sig (Elt F)) : (after (hostOps0 : List (HloOp τ sig (Elt F))) V (Proc.devRef .tc main_cst_0)) = ((constant S_ .f32 0x3F800000#32)) :=
  at_nullary numbered 11 rfl rfl V
theorem eq_main_v9 (V : Valuation τ sig (Elt F)) : (after (hostOps0 : List (HloOp τ sig (Elt F))) V (Proc.devRef .tc main_v9)) = ((broadcastInDim S1x2048 ![] bcast_S_S1x2048 : (⟨S_, .f32⟩ : BufTy).Contents (Elt F) → (⟨S1x2048, .f32⟩ : BufTy).Contents (Elt F))) (after (hostOps0 : List (HloOp τ sig (Elt F))) V (Proc.devRef .tc main_cst_0)) :=
  at_unary numbered 12 rfl (by decide) rfl V
theorem eq_main_v10 (V : Valuation τ sig (Elt F)) : (after (hostOps0 : List (HloOp τ sig (Elt F))) V (Proc.devRef .tc main_v10)) = ((Host.divf : (⟨S1x2048, .f32⟩ : BufTy).Contents (Elt F) → (⟨S1x2048, .f32⟩ : BufTy).Contents (Elt F) → (⟨S1x2048, .f32⟩ : BufTy).Contents (Elt F))) (after (hostOps0 : List (HloOp τ sig (Elt F))) V (Proc.devRef .tc main_v9)) (after (hostOps0 : List (HloOp τ sig (Elt F))) V (Proc.devRef .tc main_v8)) :=
  at_binary numbered 13 rfl (by decide) (by decide) rfl V
theorem eq_main_v11 (V : Valuation τ sig (Elt F)) : (after (hostOps0 : List (HloOp τ sig (Elt F))) V (Proc.devRef .tc main_v11)) = (((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F))) (after (hostOps0 : List (HloOp τ sig (Elt F))) V (Proc.devRef .tc main_v10)) (after (hostOps0 : List (HloOp τ sig (Elt F))) V (Proc.devRef .tc main_arg7)) :=
  at_binary numbered 14 rfl (by decide) (by decide) rfl V
theorem eq_main_v12 (V : Valuation τ sig (Elt F)) : (after (hostOps0 : List (HloOp τ sig (Elt F))) V (Proc.devRef .tc main_v12)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 15 rfl (by decide) rfl V
theorem eq_main_v13 (V : Valuation τ sig (Elt F)) : (after (hostOps0 : List (HloOp τ sig (Elt F))) V (Proc.devRef .tc main_v13)) = ((addf : (⟨S1x2048, .f32⟩ : BufTy).Contents (Elt F) → (⟨S1x2048, .f32⟩ : BufTy).Contents (Elt F) → (⟨S1x2048, .f32⟩ : BufTy).Contents (Elt F))) (after (hostOps0 : List (HloOp τ sig (Elt F))) V (Proc.devRef .tc main_v11)) (after (hostOps0 : List (HloOp τ sig (Elt F))) V (Proc.devRef .tc main_v12)) :=
  at_binary numbered 16 rfl (by decide) (by decide) rfl V
theorem eq_main_v14 (V : Valuation τ sig (Elt F)) : (after (hostOps0 : List (HloOp τ sig (Elt F))) V (Proc.devRef .tc main_v14)) = shapeCast S2x1024 (after (hostOps0 : List (HloOp τ sig (Elt F))) V (Proc.devRef .tc main_v13)) shapeCasts_S1x2048_S2x1024 :=
  (at_reshape numbered 17 rfl (by decide) rfl V).trans rfl
theorem eq_main_v15 (V : Valuation τ sig (Elt F)) : (after (hostOps0 : List (HloOp τ sig (Elt F))) V (Proc.devRef .tc main_v15)) = (((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (hostOps0 : List (HloOp τ sig (Elt F))) V (Proc.devRef .tc main_v14)) (after (hostOps0 : List (HloOp τ sig (Elt F))) V (Proc.devRef .tc main_arg5)) :=
  at_binary numbered 18 rfl (by decide) (by decide) rfl V
theorem eq_main_v16 (V : Valuation τ sig (Elt F)) : (after (hostOps0 : List (HloOp τ sig (Elt F))) V (Proc.devRef .tc main_v16)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 19 rfl (by decide) rfl V
theorem eq_main_v17 (V : Valuation τ sig (Elt F)) : (after (hostOps0 : List (HloOp τ sig (Elt F))) V (Proc.devRef .tc main_v17)) = ((broadcastInDim S2x2048 ![0, 1] bcast_S1x2048_S2x2048_0_1 : (⟨S1x2048, .f32⟩ : BufTy).Contents (Elt F) → (⟨S2x2048, .f32⟩ : BufTy).Contents (Elt F))) (after (hostOps0 : List (HloOp τ sig (Elt F))) V (Proc.devRef .tc main_v16)) :=
  at_unary numbered 20 rfl (by decide) rfl V
theorem eq_main_v18 (V : Valuation τ sig (Elt F)) : (after (hostOps0 : List (HloOp τ sig (Elt F))) V (Proc.devRef .tc main_v18)) = ((addf : (⟨S2x2048, .f32⟩ : BufTy).Contents (Elt F) → (⟨S2x2048, .f32⟩ : BufTy).Contents (Elt F) → (⟨S2x2048, .f32⟩ : BufTy).Contents (Elt F))) (after (hostOps0 : List (HloOp τ sig (Elt F))) V (Proc.devRef .tc main_v15)) (after (hostOps0 : List (HloOp τ sig (Elt F))) V (Proc.devRef .tc main_v17)) :=
  at_binary numbered 21 rfl (by decide) (by decide) rfl V
theorem eq_main_v19 (V : Valuation τ sig (Elt F)) : (after (hostOps0 : List (HloOp τ sig (Elt F))) V (Proc.devRef .tc main_v19)) = ((Host.negf : (⟨S2x2048, .f32⟩ : BufTy).Contents (Elt F) → (⟨S2x2048, .f32⟩ : BufTy).Contents (Elt F))) (after (hostOps0 : List (HloOp τ sig (Elt F))) V (Proc.devRef .tc main_v18)) :=
  at_unary numbered 22 rfl (by decide) rfl V
theorem eq_main_v20 (V : Valuation τ sig (Elt F)) : (after (hostOps0 : List (HloOp τ sig (Elt F))) V (Proc.devRef .tc main_v20)) = ((Host.exp : (⟨S2x2048, .f32⟩ : BufTy).Contents (Elt F) → (⟨S2x2048, .f32⟩ : BufTy).Contents (Elt F))) (after (hostOps0 : List (HloOp τ sig (Elt F))) V (Proc.devRef .tc main_v19)) :=
  at_unary numbered 23 rfl (by decide) rfl V
theorem eq_main_cst_1 (V : Valuation τ sig (Elt F)) : (after (hostOps0 : List (HloOp τ sig (Elt F))) V (Proc.devRef .tc main_cst_1)) = ((constant S_ .f32 0x3F800000#32)) :=
  at_nullary numbered 24 rfl rfl V
theorem eq_main_v21 (V : Valuation τ sig (Elt F)) : (after (hostOps0 : List (HloOp τ sig (Elt F))) V (Proc.devRef .tc main_v21)) = ((broadcastInDim S2x2048 ![] bcast_S_S2x2048 : (⟨S_, .f32⟩ : BufTy).Contents (Elt F) → (⟨S2x2048, .f32⟩ : BufTy).Contents (Elt F))) (after (hostOps0 : List (HloOp τ sig (Elt F))) V (Proc.devRef .tc main_cst_1)) :=
  at_unary numbered 25 rfl (by decide) rfl V
theorem eq_main_v22 (V : Valuation τ sig (Elt F)) : (after (hostOps0 : List (HloOp τ sig (Elt F))) V (Proc.devRef .tc main_v22)) = ((addf : (⟨S2x2048, .f32⟩ : BufTy).Contents (Elt F) → (⟨S2x2048, .f32⟩ : BufTy).Contents (Elt F) → (⟨S2x2048, .f32⟩ : BufTy).Contents (Elt F))) (after (hostOps0 : List (HloOp τ sig (Elt F))) V (Proc.devRef .tc main_v21)) (after (hostOps0 : List (HloOp τ sig (Elt F))) V (Proc.devRef .tc main_v20)) :=
  at_binary numbered 26 rfl (by decide) (by decide) rfl V
theorem eq_main_cst_2 (V : Valuation τ sig (Elt F)) : (after (hostOps0 : List (HloOp τ sig (Elt F))) V (Proc.devRef .tc main_cst_2)) = ((constant S_ .f32 0x3F800000#32)) :=
  at_nullary numbered 27 rfl rfl V
theorem eq_main_v23 (V : Valuation τ sig (Elt F)) : (after (hostOps0 : List (HloOp τ sig (Elt F))) V (Proc.devRef .tc main_v23)) = ((broadcastInDim S2x2048 ![] bcast_S_S2x2048 : (⟨S_, .f32⟩ : BufTy).Contents (Elt F) → (⟨S2x2048, .f32⟩ : BufTy).Contents (Elt F))) (after (hostOps0 : List (HloOp τ sig (Elt F))) V (Proc.devRef .tc main_cst_2)) :=
  at_unary numbered 28 rfl (by decide) rfl V
theorem eq_main_v24 (V : Valuation τ sig (Elt F)) : (after (hostOps0 : List (HloOp τ sig (Elt F))) V (Proc.devRef .tc main_v24)) = ((Host.divf : (⟨S2x2048, .f32⟩ : BufTy).Contents (Elt F) → (⟨S2x2048, .f32⟩ : BufTy).Contents (Elt F) → (⟨S2x2048, .f32⟩ : BufTy).Contents (Elt F))) (after (hostOps0 : List (HloOp τ sig (Elt F))) V (Proc.devRef .tc main_v23)) (after (hostOps0 : List (HloOp τ sig (Elt F))) V (Proc.devRef .tc main_v22)) :=
  at_binary numbered 29 rfl (by decide) (by decide) rfl V
theorem eq_main_v25 (V : Valuation τ sig (Elt F)) : (after (hostOps0 : List (HloOp τ sig (Elt F))) V (Proc.devRef .tc main_v25)) = (((fun l r => Host.dotGeneral dot_S2x2048_S2048x2048_S2x2048_1_0_0_1_n_n none l r) : (⟨S2x2048, .f32⟩ : BufTy).Contents (Elt F) → (⟨S2048x2048, .f32⟩ : BufTy).Contents (Elt F) → (⟨S2x2048, .f32⟩ : BufTy).Contents (Elt F))) (after (hostOps0 : List (HloOp τ sig (Elt F))) V (Proc.devRef .tc main_v24)) (after (hostOps0 : List (HloOp τ sig (Elt F))) V (Proc.devRef .tc main_arg7)) :=
  at_binary numbered 30 rfl (by decide) (by decide) rfl V
theorem eq_main_v26 (V : Valuation τ sig (Elt F)) : (after (hostOps0 : List (HloOp τ sig (Elt F))) V (Proc.devRef .tc main_v26)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 31 rfl (by decide) rfl V
theorem eq_main_v27 (V : Valuation τ sig (Elt F)) : (after (hostOps0 : List (HloOp τ sig (Elt F))) V (Proc.devRef .tc main_v27)) = ((broadcastInDim S2x2048 ![0, 1] bcast_S1x2048_S2x2048_0_1 : (⟨S1x2048, .f32⟩ : BufTy).Contents (Elt F) → (⟨S2x2048, .f32⟩ : BufTy).Contents (Elt F))) (after (hostOps0 : List (HloOp τ sig (Elt F))) V (Proc.devRef .tc main_v26)) :=
  at_unary numbered 32 rfl (by decide) rfl V
theorem eq_main_v28 (V : Valuation τ sig (Elt F)) : (after (hostOps0 : List (HloOp τ sig (Elt F))) V (Proc.devRef .tc main_v28)) = ((addf : (⟨S2x2048, .f32⟩ : BufTy).Contents (Elt F) → (⟨S2x2048, .f32⟩ : BufTy).Contents (Elt F) → (⟨S2x2048, .f32⟩ : BufTy).Contents (Elt F))) (after (hostOps0 : List (HloOp τ sig (Elt F))) V (Proc.devRef .tc main_v25)) (after (hostOps0 : List (HloOp τ sig (Elt F))) V (Proc.devRef .tc main_v27)) :=
  at_binary numbered 33 rfl (by decide) (by decide) rfl V
theorem eq_main_v29 (V : Valuation τ sig (Elt F)) : (after (hostOps0 : List (HloOp τ sig (Elt F))) V (Proc.devRef .tc main_v29)) = shapeCast S4x1024 (after (hostOps0 : List (HloOp τ sig (Elt F))) V (Proc.devRef .tc main_v28)) shapeCasts_S2x2048_S4x1024 :=
  (at_reshape numbered 34 rfl (by decide) rfl V).trans rfl
theorem eq_main_v30 (V : Valuation τ sig (Elt F)) : (after (hostOps0 : List (HloOp τ sig (Elt F))) V (Proc.devRef .tc main_v30)) = (((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (hostOps0 : List (HloOp τ sig (Elt F))) V (Proc.devRef .tc main_v29)) (after (hostOps0 : List (HloOp τ sig (Elt F))) V (Proc.devRef .tc main_arg5)) :=
  at_binary numbered 35 rfl (by decide) (by decide) rfl V
theorem eq_main_v31 (V : Valuation τ sig (Elt F)) : (after (hostOps0 : List (HloOp τ sig (Elt F))) V (Proc.devRef .tc main_v31)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 36 rfl (by decide) rfl V
theorem eq_main_v32 (V : Valuation τ sig (Elt F)) : (after (hostOps0 : List (HloOp τ sig (Elt F))) V (Proc.devRef .tc main_v32)) = ((broadcastInDim S4x2048 ![0, 1] bcast_S1x2048_S4x2048_0_1 : (⟨S1x2048, .f32⟩ : BufTy).Contents (Elt F) → (⟨S4x2048, .f32⟩ : BufTy).Contents (Elt F))) (after (hostOps0 : List (HloOp τ sig (Elt F))) V (Proc.devRef .tc main_v31)) :=
  at_unary numbered 37 rfl (by decide) rfl V
theorem eq_main_v33 (V : Valuation τ sig (Elt F)) : (after (hostOps0 : List (HloOp τ sig (Elt F))) V (Proc.devRef .tc main_v33)) = ((addf : (⟨S4x2048, .f32⟩ : BufTy).Contents (Elt F) → (⟨S4x2048, .f32⟩ : BufTy).Contents (Elt F) → (⟨S4x2048, .f32⟩ : BufTy).Contents (Elt F))) (after (hostOps0 : List (HloOp τ sig (Elt F))) V (Proc.devRef .tc main_v30)) (after (hostOps0 : List (HloOp τ sig (Elt F))) V (Proc.devRef .tc main_v32)) :=
  at_binary numbered 38 rfl (by decide) (by decide) rfl V
theorem eq_main_v34 (V : Valuation τ sig (Elt F)) : (after (hostOps0 : List (HloOp τ sig (Elt F))) V (Proc.devRef .tc main_v34)) = ((Host.negf : (⟨S4x2048, .f32⟩ : BufTy).Contents (Elt F) → (⟨S4x2048, .f32⟩ : BufTy).Contents (Elt F))) (after (hostOps0 : List (HloOp τ sig (Elt F))) V (Proc.devRef .tc main_v33)) :=
  at_unary numbered 39 rfl (by decide) rfl V
theorem eq_main_v35 (V : Valuation τ sig (Elt F)) : (after (hostOps0 : List (HloOp τ sig (Elt F))) V (Proc.devRef .tc main_v35)) = ((Host.exp : (⟨S4x2048, .f32⟩ : BufTy).Contents (Elt F) → (⟨S4x2048, .f32⟩ : BufTy).Contents (Elt F))) (after (hostOps0 : List (HloOp τ sig (Elt F))) V (Proc.devRef .tc main_v34)) :=
  at_unary numbered 40 rfl (by decide) rfl V
theorem eq_main_cst_3 (V : Valuation τ sig (Elt F)) : (after (hostOps0 : List (HloOp τ sig (Elt F))) V (Proc.devRef .tc main_cst_3)) = ((constant S_ .f32 0x3F800000#32)) :=
  at_nullary numbered 41 rfl rfl V
theorem eq_main_v36 (V : Valuation τ sig (Elt F)) : (after (hostOps0 : List (HloOp τ sig (Elt F))) V (Proc.devRef .tc main_v36)) = ((broadcastInDim S4x2048 ![] bcast_S_S4x2048 : (⟨S_, .f32⟩ : BufTy).Contents (Elt F) → (⟨S4x2048, .f32⟩ : BufTy).Contents (Elt F))) (after (hostOps0 : List (HloOp τ sig (Elt F))) V (Proc.devRef .tc main_cst_3)) :=
  at_unary numbered 42 rfl (by decide) rfl V
theorem eq_main_v37 (V : Valuation τ sig (Elt F)) : (after (hostOps0 : List (HloOp τ sig (Elt F))) V (Proc.devRef .tc main_v37)) = ((addf : (⟨S4x2048, .f32⟩ : BufTy).Contents (Elt F) → (⟨S4x2048, .f32⟩ : BufTy).Contents (Elt F) → (⟨S4x2048, .f32⟩ : BufTy).Contents (Elt F))) (after (hostOps0 : List (HloOp τ sig (Elt F))) V (Proc.devRef .tc main_v36)) (after (hostOps0 : List (HloOp τ sig (Elt F))) V (Proc.devRef .tc main_v35)) :=
  at_binary numbered 43 rfl (by decide) (by decide) rfl V
theorem eq_main_cst_4 (V : Valuation τ sig (Elt F)) : (after (hostOps0 : List (HloOp τ sig (Elt F))) V (Proc.devRef .tc main_cst_4)) = ((constant S_ .f32 0x3F800000#32)) :=
  at_nullary numbered 44 rfl rfl V
theorem eq_main_v38 (V : Valuation τ sig (Elt F)) : (after (hostOps0 : List (HloOp τ sig (Elt F))) V (Proc.devRef .tc main_v38)) = ((broadcastInDim S4x2048 ![] bcast_S_S4x2048 : (⟨S_, .f32⟩ : BufTy).Contents (Elt F) → (⟨S4x2048, .f32⟩ : BufTy).Contents (Elt F))) (after (hostOps0 : List (HloOp τ sig (Elt F))) V (Proc.devRef .tc main_cst_4)) :=
  at_unary numbered 45 rfl (by decide) rfl V
theorem eq_main_v39 (V : Valuation τ sig (Elt F)) : (after (hostOps0 : List (HloOp τ sig (Elt F))) V (Proc.devRef .tc main_v39)) = ((Host.divf : (⟨S4x2048, .f32⟩ : BufTy).Contents (Elt F) → (⟨S4x2048, .f32⟩ : BufTy).Contents (Elt F) → (⟨S4x2048, .f32⟩ : BufTy).Contents (Elt F))) (after (hostOps0 : List (HloOp τ sig (Elt F))) V (Proc.devRef .tc main_v38)) (after (hostOps0 : List (HloOp τ sig (Elt F))) V (Proc.devRef .tc main_v37)) :=
  at_binary numbered 46 rfl (by decide) (by decide) rfl V
theorem eq_main_v40 (V : Valuation τ sig (Elt F)) : (after (hostOps0 : List (HloOp τ sig (Elt F))) V (Proc.devRef .tc main_v40)) = (((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F))) (after (hostOps0 : List (HloOp τ sig (Elt F))) V (Proc.devRef .tc main_v39)) (after (hostOps0 : List (HloOp τ sig (Elt F))) V (Proc.devRef .tc main_arg7)) :=
  at_binary numbered 47 rfl (by decide) (by decide) rfl V
theorem eq_main_v41 (V : Valuation τ sig (Elt F)) : (after (hostOps0 : List (HloOp τ sig (Elt F))) V (Proc.devRef .tc main_v41)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 48 rfl (by decide) rfl V
theorem eq_main_v42 (V : Valuation τ sig (Elt F)) : (after (hostOps0 : List (HloOp τ sig (Elt F))) V (Proc.devRef .tc main_v42)) = ((broadcastInDim S4x2048 ![0, 1] bcast_S1x2048_S4x2048_0_1 : (⟨S1x2048, .f32⟩ : BufTy).Contents (Elt F) → (⟨S4x2048, .f32⟩ : BufTy).Contents (Elt F))) (after (hostOps0 : List (HloOp τ sig (Elt F))) V (Proc.devRef .tc main_v41)) :=
  at_unary numbered 49 rfl (by decide) rfl V
theorem eq_main_v43 (V : Valuation τ sig (Elt F)) : (after (hostOps0 : List (HloOp τ sig (Elt F))) V (Proc.devRef .tc main_v43)) = ((addf : (⟨S4x2048, .f32⟩ : BufTy).Contents (Elt F) → (⟨S4x2048, .f32⟩ : BufTy).Contents (Elt F) → (⟨S4x2048, .f32⟩ : BufTy).Contents (Elt F))) (after (hostOps0 : List (HloOp τ sig (Elt F))) V (Proc.devRef .tc main_v40)) (after (hostOps0 : List (HloOp τ sig (Elt F))) V (Proc.devRef .tc main_v42)) :=
  at_binary numbered 50 rfl (by decide) (by decide) rfl V
theorem eq_main_v44 (V : Valuation τ sig (Elt F)) : (after (hostOps0 : List (HloOp τ sig (Elt F))) V (Proc.devRef .tc main_v44)) = shapeCast S8x1024 (after (hostOps0 : List (HloOp τ sig (Elt F))) V (Proc.devRef .tc main_v43)) shapeCasts_S4x2048_S8x1024 :=
  (at_reshape numbered 51 rfl (by decide) rfl V).trans rfl
theorem eq_main_v45 (V : Valuation τ sig (Elt F)) : (after (hostOps0 : List (HloOp τ sig (Elt F))) V (Proc.devRef .tc main_v45)) = (((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (hostOps0 : List (HloOp τ sig (Elt F))) V (Proc.devRef .tc main_v44)) (after (hostOps0 : List (HloOp τ sig (Elt F))) V (Proc.devRef .tc main_arg5)) :=
  at_binary numbered 52 rfl (by decide) (by decide) rfl V
theorem eq_main_v46 (V : Valuation τ sig (Elt F)) : (after (hostOps0 : List (HloOp τ sig (Elt F))) V (Proc.devRef .tc main_v46)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 53 rfl (by decide) rfl V
theorem eq_main_v47 (V : Valuation τ sig (Elt F)) : (after (hostOps0 : List (HloOp τ sig (Elt F))) V (Proc.devRef .tc main_v47)) = ((broadcastInDim S8x2048 ![0, 1] bcast_S1x2048_S8x2048_0_1 : (⟨S1x2048, .f32⟩ : BufTy).Contents (Elt F) → (⟨S8x2048, .f32⟩ : BufTy).Contents (Elt F))) (after (hostOps0 : List (HloOp τ sig (Elt F))) V (Proc.devRef .tc main_v46)) :=
  at_unary numbered 54 rfl (by decide) rfl V
theorem eq_main_v48 (V : Valuation τ sig (Elt F)) : (after (hostOps0 : List (HloOp τ sig (Elt F))) V (Proc.devRef .tc main_v48)) = ((addf : (⟨S8x2048, .f32⟩ : BufTy).Contents (Elt F) → (⟨S8x2048, .f32⟩ : BufTy).Contents (Elt F) → (⟨S8x2048, .f32⟩ : BufTy).Contents (Elt F))) (after (hostOps0 : List (HloOp τ sig (Elt F))) V (Proc.devRef .tc main_v45)) (after (hostOps0 : List (HloOp τ sig (Elt F))) V (Proc.devRef .tc main_v47)) :=
  at_binary numbered 55 rfl (by decide) (by decide) rfl V
theorem eq_main_v49 (V : Valuation τ sig (Elt F)) : (after (hostOps0 : List (HloOp τ sig (Elt F))) V (Proc.devRef .tc main_v49)) = ((Host.negf : (⟨S8x2048, .f32⟩ : BufTy).Contents (Elt F) → (⟨S8x2048, .f32⟩ : BufTy).Contents (Elt F))) (after (hostOps0 : List (HloOp τ sig (Elt F))) V (Proc.devRef .tc main_v48)) :=
  at_unary numbered 56 rfl (by decide) rfl V
theorem eq_main_v50 (V : Valuation τ sig (Elt F)) : (after (hostOps0 : List (HloOp τ sig (Elt F))) V (Proc.devRef .tc main_v50)) = ((Host.exp : (⟨S8x2048, .f32⟩ : BufTy).Contents (Elt F) → (⟨S8x2048, .f32⟩ : BufTy).Contents (Elt F))) (after (hostOps0 : List (HloOp τ sig (Elt F))) V (Proc.devRef .tc main_v49)) :=
  at_unary numbered 57 rfl (by decide) rfl V
theorem eq_main_cst_5 (V : Valuation τ sig (Elt F)) : (after (hostOps0 : List (HloOp τ sig (Elt F))) V (Proc.devRef .tc main_cst_5)) = ((constant S_ .f32 0x3F800000#32)) :=
  at_nullary numbered 58 rfl rfl V
theorem eq_main_v51 (V : Valuation τ sig (Elt F)) : (after (hostOps0 : List (HloOp τ sig (Elt F))) V (Proc.devRef .tc main_v51)) = ((broadcastInDim S8x2048 ![] bcast_S_S8x2048 : (⟨S_, .f32⟩ : BufTy).Contents (Elt F) → (⟨S8x2048, .f32⟩ : BufTy).Contents (Elt F))) (after (hostOps0 : List (HloOp τ sig (Elt F))) V (Proc.devRef .tc main_cst_5)) :=
  at_unary numbered 59 rfl (by decide) rfl V
theorem eq_main_v52 (V : Valuation τ sig (Elt F)) : (after (hostOps0 : List (HloOp τ sig (Elt F))) V (Proc.devRef .tc main_v52)) = ((addf : (⟨S8x2048, .f32⟩ : BufTy).Contents (Elt F) → (⟨S8x2048, .f32⟩ : BufTy).Contents (Elt F) → (⟨S8x2048, .f32⟩ : BufTy).Contents (Elt F))) (after (hostOps0 : List (HloOp τ sig (Elt F))) V (Proc.devRef .tc main_v51)) (after (hostOps0 : List (HloOp τ sig (Elt F))) V (Proc.devRef .tc main_v50)) :=
  at_binary numbered 60 rfl (by decide) (by decide) rfl V
theorem eq_main_cst_6 (V : Valuation τ sig (Elt F)) : (after (hostOps0 : List (HloOp τ sig (Elt F))) V (Proc.devRef .tc main_cst_6)) = ((constant S_ .f32 0x3F800000#32)) :=
  at_nullary numbered 61 rfl rfl V
theorem eq_main_v53 (V : Valuation τ sig (Elt F)) : (after (hostOps0 : List (HloOp τ sig (Elt F))) V (Proc.devRef .tc main_v53)) = ((broadcastInDim S8x2048 ![] bcast_S_S8x2048 : (⟨S_, .f32⟩ : BufTy).Contents (Elt F) → (⟨S8x2048, .f32⟩ : BufTy).Contents (Elt F))) (after (hostOps0 : List (HloOp τ sig (Elt F))) V (Proc.devRef .tc main_cst_6)) :=
  at_unary numbered 62 rfl (by decide) rfl V
theorem eq_main_v54 (V : Valuation τ sig (Elt F)) : (after (hostOps0 : List (HloOp τ sig (Elt F))) V (Proc.devRef .tc main_v54)) = ((Host.divf : (⟨S8x2048, .f32⟩ : BufTy).Contents (Elt F) → (⟨S8x2048, .f32⟩ : BufTy).Contents (Elt F) → (⟨S8x2048, .f32⟩ : BufTy).Contents (Elt F))) (after (hostOps0 : List (HloOp τ sig (Elt F))) V (Proc.devRef .tc main_v53)) (after (hostOps0 : List (HloOp τ sig (Elt F))) V (Proc.devRef .tc main_v52)) :=
  at_binary numbered 63 rfl (by decide) (by decide) rfl V
theorem eq_main_v55 (V : Valuation τ sig (Elt F)) : (after (hostOps0 : List (HloOp τ sig (Elt F))) V (Proc.devRef .tc main_v55)) = (((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F))) (after (hostOps0 : List (HloOp τ sig (Elt F))) V (Proc.devRef .tc main_v54)) (after (hostOps0 : List (HloOp τ sig (Elt F))) V (Proc.devRef .tc main_arg7)) :=
  at_binary numbered 64 rfl (by decide) (by decide) rfl V
theorem eq_main_v56 (V : Valuation τ sig (Elt F)) : (after (hostOps0 : List (HloOp τ sig (Elt F))) V (Proc.devRef .tc main_v56)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 65 rfl (by decide) rfl V
theorem eq_main_v57 (V : Valuation τ sig (Elt F)) : (after (hostOps0 : List (HloOp τ sig (Elt F))) V (Proc.devRef .tc main_v57)) = ((broadcastInDim S8x2048 ![0, 1] bcast_S1x2048_S8x2048_0_1 : (⟨S1x2048, .f32⟩ : BufTy).Contents (Elt F) → (⟨S8x2048, .f32⟩ : BufTy).Contents (Elt F))) (after (hostOps0 : List (HloOp τ sig (Elt F))) V (Proc.devRef .tc main_v56)) :=
  at_unary numbered 66 rfl (by decide) rfl V
theorem eq_main_v58 (V : Valuation τ sig (Elt F)) : (after (hostOps0 : List (HloOp τ sig (Elt F))) V (Proc.devRef .tc main_v58)) = ((addf : (⟨S8x2048, .f32⟩ : BufTy).Contents (Elt F) → (⟨S8x2048, .f32⟩ : BufTy).Contents (Elt F) → (⟨S8x2048, .f32⟩ : BufTy).Contents (Elt F))) (after (hostOps0 : List (HloOp τ sig (Elt F))) V (Proc.devRef .tc main_v55)) (after (hostOps0 : List (HloOp τ sig (Elt F))) V (Proc.devRef .tc main_v57)) :=
  at_binary numbered 67 rfl (by decide) (by decide) rfl V
theorem eq_main_v59 (V : Valuation τ sig (Elt F)) : (after (hostOps0 : List (HloOp τ sig (Elt F))) V (Proc.devRef .tc main_v59)) = shapeCast S16x1024 (after (hostOps0 : List (HloOp τ sig (Elt F))) V (Proc.devRef .tc main_v58)) shapeCasts_S8x2048_S16x1024 :=
  (at_reshape numbered 68 rfl (by decide) rfl V).trans rfl
theorem eq_main_v60 (V : Valuation τ sig (Elt F)) : (after (hostOps0 : List (HloOp τ sig (Elt F))) V (Proc.devRef .tc main_v60)) = (((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (hostOps0 : List (HloOp τ sig (Elt F))) V (Proc.devRef .tc main_v59)) (after (hostOps0 : List (HloOp τ sig (Elt F))) V (Proc.devRef .tc main_arg5)) :=
  at_binary numbered 69 rfl (by decide) (by decide) rfl V
theorem eq_main_v61 (V : Valuation τ sig (Elt F)) : (after (hostOps0 : List (HloOp τ sig (Elt F))) V (Proc.devRef .tc main_v61)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 70 rfl (by decide) rfl V
theorem eq_main_v62 (V : Valuation τ sig (Elt F)) : (after (hostOps0 : List (HloOp τ sig (Elt F))) V (Proc.devRef .tc main_v62)) = ((broadcastInDim S16x2048 ![0, 1] bcast_S1x2048_S16x2048_0_1 : (⟨S1x2048, .f32⟩ : BufTy).Contents (Elt F) → (⟨S16x2048, .f32⟩ : BufTy).Contents (Elt F))) (after (hostOps0 : List (HloOp τ sig (Elt F))) V (Proc.devRef .tc main_v61)) :=
  at_unary numbered 71 rfl (by decide) rfl V
theorem eq_main_v63 (V : Valuation τ sig (Elt F)) : (after (hostOps0 : List (HloOp τ sig (Elt F))) V (Proc.devRef .tc main_v63)) = ((addf : (⟨S16x2048, .f32⟩ : BufTy).Contents (Elt F) → (⟨S16x2048, .f32⟩ : BufTy).Contents (Elt F) → (⟨S16x2048, .f32⟩ : BufTy).Contents (Elt F))) (after (hostOps0 : List (HloOp τ sig (Elt F))) V (Proc.devRef .tc main_v60)) (after (hostOps0 : List (HloOp τ sig (Elt F))) V (Proc.devRef .tc main_v62)) :=
  at_binary numbered 72 rfl (by decide) (by decide) rfl V
theorem eq_main_v64 (V : Valuation τ sig (Elt F)) : (after (hostOps0 : List (HloOp τ sig (Elt F))) V (Proc.devRef .tc main_v64)) = ((Host.negf : (⟨S16x2048, .f32⟩ : BufTy).Contents (Elt F) → (⟨S16x2048, .f32⟩ : BufTy).Contents (Elt F))) (after (hostOps0 : List (HloOp τ sig (Elt F))) V (Proc.devRef .tc main_v63)) :=
  at_unary numbered 73 rfl (by decide) rfl V
theorem eq_main_v65 (V : Valuation τ sig (Elt F)) : (after (hostOps0 : List (HloOp τ sig (Elt F))) V (Proc.devRef .tc main_v65)) = ((Host.exp : (⟨S16x2048, .f32⟩ : BufTy).Contents (Elt F) → (⟨S16x2048, .f32⟩ : BufTy).Contents (Elt F))) (after (hostOps0 : List (HloOp τ sig (Elt F))) V (Proc.devRef .tc main_v64)) :=
  at_unary numbered 74 rfl (by decide) rfl V
theorem eq_main_cst_7 (V : Valuation τ sig (Elt F)) : (after (hostOps0 : List (HloOp τ sig (Elt F))) V (Proc.devRef .tc main_cst_7)) = ((constant S_ .f32 0x3F800000#32)) :=
  at_nullary numbered 75 rfl rfl V
theorem eq_main_v66 (V : Valuation τ sig (Elt F)) : (after (hostOps0 : List (HloOp τ sig (Elt F))) V (Proc.devRef .tc main_v66)) = ((broadcastInDim S16x2048 ![] bcast_S_S16x2048 : (⟨S_, .f32⟩ : BufTy).Contents (Elt F) → (⟨S16x2048, .f32⟩ : BufTy).Contents (Elt F))) (after (hostOps0 : List (HloOp τ sig (Elt F))) V (Proc.devRef .tc main_cst_7)) :=
  at_unary numbered 76 rfl (by decide) rfl V
theorem eq_main_v67 (V : Valuation τ sig (Elt F)) : (after (hostOps0 : List (HloOp τ sig (Elt F))) V (Proc.devRef .tc main_v67)) = ((addf : (⟨S16x2048, .f32⟩ : BufTy).Contents (Elt F) → (⟨S16x2048, .f32⟩ : BufTy).Contents (Elt F) → (⟨S16x2048, .f32⟩ : BufTy).Contents (Elt F))) (after (hostOps0 : List (HloOp τ sig (Elt F))) V (Proc.devRef .tc main_v66)) (after (hostOps0 : List (HloOp τ sig (Elt F))) V (Proc.devRef .tc main_v65)) :=
  at_binary numbered 77 rfl (by decide) (by decide) rfl V
theorem eq_main_cst_8 (V : Valuation τ sig (Elt F)) : (after (hostOps0 : List (HloOp τ sig (Elt F))) V (Proc.devRef .tc main_cst_8)) = ((constant S_ .f32 0x3F800000#32)) :=
  at_nullary numbered 78 rfl rfl V
theorem eq_main_v68 (V : Valuation τ sig (Elt F)) : (after (hostOps0 : List (HloOp τ sig (Elt F))) V (Proc.devRef .tc main_v68)) = ((broadcastInDim S16x2048 ![] bcast_S_S16x2048 : (⟨S_, .f32⟩ : BufTy).Contents (Elt F) → (⟨S16x2048, .f32⟩ : BufTy).Contents (Elt F))) (after (hostOps0 : List (HloOp τ sig (Elt F))) V (Proc.devRef .tc main_cst_8)) :=
  at_unary numbered 79 rfl (by decide) rfl V
theorem eq_main_v69 (V : Valuation τ sig (Elt F)) : (after (hostOps0 : List (HloOp τ sig (Elt F))) V (Proc.devRef .tc main_v69)) = ((Host.divf : (⟨S16x2048, .f32⟩ : BufTy).Contents (Elt F) → (⟨S16x2048, .f32⟩ : BufTy).Contents (Elt F) → (⟨S16x2048, .f32⟩ : BufTy).Contents (Elt F))) (after (hostOps0 : List (HloOp τ sig (Elt F))) V (Proc.devRef .tc main_v68)) (after (hostOps0 : List (HloOp τ sig (Elt F))) V (Proc.devRef .tc main_v67)) :=
  at_binary numbered 80 rfl (by decide) (by decide) rfl V
theorem eq_main_v70 (V : Valuation τ sig (Elt F)) : (after (hostOps0 : List (HloOp τ sig (Elt F))) V (Proc.devRef .tc main_v70)) = (((fun l r => Host.dotGeneral dot_S16x2048_S2048x2048_S16x2048_1_0_0_1_n_n none l r) : (⟨S16x2048, .f32⟩ : BufTy).Contents (Elt F) → (⟨S2048x2048, .f32⟩ : BufTy).Contents (Elt F) → (⟨S16x2048, .f32⟩ : BufTy).Contents (Elt F))) (after (hostOps0 : List (HloOp τ sig (Elt F))) V (Proc.devRef .tc main_v69)) (after (hostOps0 : List (HloOp τ sig (Elt F))) V (Proc.devRef .tc main_arg7)) :=
  at_binary numbered 81 rfl (by decide) (by decide) rfl V
theorem eq_main_v71 (V : Valuation τ sig (Elt F)) : (after (hostOps0 : List (HloOp τ sig (Elt F))) V (Proc.devRef .tc main_v71)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 82 rfl (by decide) rfl V
theorem eq_main_v72 (V : Valuation τ sig (Elt F)) : (after (hostOps0 : List (HloOp τ sig (Elt F))) V (Proc.devRef .tc main_v72)) = ((broadcastInDim S16x2048 ![0, 1] bcast_S1x2048_S16x2048_0_1 : (⟨S1x2048, .f32⟩ : BufTy).Contents (Elt F) → (⟨S16x2048, .f32⟩ : BufTy).Contents (Elt F))) (after (hostOps0 : List (HloOp τ sig (Elt F))) V (Proc.devRef .tc main_v71)) :=
  at_unary numbered 83 rfl (by decide) rfl V
theorem eq_main_v73 (V : Valuation τ sig (Elt F)) : (after (hostOps0 : List (HloOp τ sig (Elt F))) V (Proc.devRef .tc main_v73)) = ((addf : (⟨S16x2048, .f32⟩ : BufTy).Contents (Elt F) → (⟨S16x2048, .f32⟩ : BufTy).Contents (Elt F) → (⟨S16x2048, .f32⟩ : BufTy).Contents (Elt F))) (after (hostOps0 : List (HloOp τ sig (Elt F))) V (Proc.devRef .tc main_v70)) (after (hostOps0 : List (HloOp τ sig (Elt F))) V (Proc.devRef .tc main_v72)) :=
  at_binary numbered 84 rfl (by decide) (by decide) rfl V
theorem eq_main_v74 (V : Valuation τ sig (Elt F)) : (after (hostOps0 : List (HloOp τ sig (Elt F))) V (Proc.devRef .tc main_v74)) = shapeCast S32x1024 (after (hostOps0 : List (HloOp τ sig (Elt F))) V (Proc.devRef .tc main_v73)) shapeCasts_S16x2048_S32x1024 :=
  (at_reshape numbered 85 rfl (by decide) rfl V).trans rfl
theorem eq_main_v75 (V : Valuation τ sig (Elt F)) : (after (hostOps0 : List (HloOp τ sig (Elt F))) V (Proc.devRef .tc main_v75)) = (((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (hostOps0 : List (HloOp τ sig (Elt F))) V (Proc.devRef .tc main_v74)) (after (hostOps0 : List (HloOp τ sig (Elt F))) V (Proc.devRef .tc main_arg5)) :=
  at_binary numbered 86 rfl (by decide) (by decide) rfl V
theorem eq_main_v76 (V : Valuation τ sig (Elt F)) : (after (hostOps0 : List (HloOp τ sig (Elt F))) V (Proc.devRef .tc main_v76)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 87 rfl (by decide) rfl V
theorem eq_main_v77 (V : Valuation τ sig (Elt F)) : (after (hostOps0 : List (HloOp τ sig (Elt F))) V (Proc.devRef .tc main_v77)) = ((broadcastInDim S32x2048 ![0, 1] bcast_S1x2048_S32x2048_0_1 : (⟨S1x2048, .f32⟩ : BufTy).Contents (Elt F) → (⟨S32x2048, .f32⟩ : BufTy).Contents (Elt F))) (after (hostOps0 : List (HloOp τ sig (Elt F))) V (Proc.devRef .tc main_v76)) :=
  at_unary numbered 88 rfl (by decide) rfl V
theorem eq_main_v78 (V : Valuation τ sig (Elt F)) : (after (hostOps0 : List (HloOp τ sig (Elt F))) V (Proc.devRef .tc main_v78)) = ((addf : (⟨S32x2048, .f32⟩ : BufTy).Contents (Elt F) → (⟨S32x2048, .f32⟩ : BufTy).Contents (Elt F) → (⟨S32x2048, .f32⟩ : BufTy).Contents (Elt F))) (after (hostOps0 : List (HloOp τ sig (Elt F))) V (Proc.devRef .tc main_v75)) (after (hostOps0 : List (HloOp τ sig (Elt F))) V (Proc.devRef .tc main_v77)) :=
  at_binary numbered 89 rfl (by decide) (by decide) rfl V
theorem eq_main_v79 (V : Valuation τ sig (Elt F)) : (after (hostOps0 : List (HloOp τ sig (Elt F))) V (Proc.devRef .tc main_v79)) = ((Host.negf : (⟨S32x2048, .f32⟩ : BufTy).Contents (Elt F) → (⟨S32x2048, .f32⟩ : BufTy).Contents (Elt F))) (after (hostOps0 : List (HloOp τ sig (Elt F))) V (Proc.devRef .tc main_v78)) :=
  at_unary numbered 90 rfl (by decide) rfl V
theorem eq_main_v80 (V : Valuation τ sig (Elt F)) : (after (hostOps0 : List (HloOp τ sig (Elt F))) V (Proc.devRef .tc main_v80)) = ((Host.exp : (⟨S32x2048, .f32⟩ : BufTy).Contents (Elt F) → (⟨S32x2048, .f32⟩ : BufTy).Contents (Elt F))) (after (hostOps0 : List (HloOp τ sig (Elt F))) V (Proc.devRef .tc main_v79)) :=
  at_unary numbered 91 rfl (by decide) rfl V
theorem eq_main_cst_9 (V : Valuation τ sig (Elt F)) : (after (hostOps0 : List (HloOp τ sig (Elt F))) V (Proc.devRef .tc main_cst_9)) = ((constant S_ .f32 0x3F800000#32)) :=
  at_nullary numbered 92 rfl rfl V
theorem eq_main_v81 (V : Valuation τ sig (Elt F)) : (after (hostOps0 : List (HloOp τ sig (Elt F))) V (Proc.devRef .tc main_v81)) = ((broadcastInDim S32x2048 ![] bcast_S_S32x2048 : (⟨S_, .f32⟩ : BufTy).Contents (Elt F) → (⟨S32x2048, .f32⟩ : BufTy).Contents (Elt F))) (after (hostOps0 : List (HloOp τ sig (Elt F))) V (Proc.devRef .tc main_cst_9)) :=
  at_unary numbered 93 rfl (by decide) rfl V
theorem eq_main_v82 (V : Valuation τ sig (Elt F)) : (after (hostOps0 : List (HloOp τ sig (Elt F))) V (Proc.devRef .tc main_v82)) = ((addf : (⟨S32x2048, .f32⟩ : BufTy).Contents (Elt F) → (⟨S32x2048, .f32⟩ : BufTy).Contents (Elt F) → (⟨S32x2048, .f32⟩ : BufTy).Contents (Elt F))) (after (hostOps0 : List (HloOp τ sig (Elt F))) V (Proc.devRef .tc main_v81)) (after (hostOps0 : List (HloOp τ sig (Elt F))) V (Proc.devRef .tc main_v80)) :=
  at_binary numbered 94 rfl (by decide) (by decide) rfl V
theorem eq_main_cst_10 (V : Valuation τ sig (Elt F)) : (after (hostOps0 : List (HloOp τ sig (Elt F))) V (Proc.devRef .tc main_cst_10)) = ((constant S_ .f32 0x3F800000#32)) :=
  at_nullary numbered 95 rfl rfl V
theorem eq_main_v83 (V : Valuation τ sig (Elt F)) : (after (hostOps0 : List (HloOp τ sig (Elt F))) V (Proc.devRef .tc main_v83)) = ((broadcastInDim S32x2048 ![] bcast_S_S32x2048 : (⟨S_, .f32⟩ : BufTy).Contents (Elt F) → (⟨S32x2048, .f32⟩ : BufTy).Contents (Elt F))) (after (hostOps0 : List (HloOp τ sig (Elt F))) V (Proc.devRef .tc main_cst_10)) :=
  at_unary numbered 96 rfl (by decide) rfl V
theorem eq_main_v84 (V : Valuation τ sig (Elt F)) : (after (hostOps0 : List (HloOp τ sig (Elt F))) V (Proc.devRef .tc main_v84)) = ((Host.divf : (⟨S32x2048, .f32⟩ : BufTy).Contents (Elt F) → (⟨S32x2048, .f32⟩ : BufTy).Contents (Elt F) → (⟨S32x2048, .f32⟩ : BufTy).Contents (Elt F))) (after (hostOps0 : List (HloOp τ sig (Elt F))) V (Proc.devRef .tc main_v83)) (after (hostOps0 : List (HloOp τ sig (Elt F))) V (Proc.devRef .tc main_v82)) :=
  at_binary numbered 97 rfl (by decide) (by decide) rfl V
theorem eq_main_v85 (V : Valuation τ sig (Elt F)) : (after (hostOps0 : List (HloOp τ sig (Elt F))) V (Proc.devRef .tc main_v85)) = (((fun l r => Host.dotGeneral dot_S32x2048_S2048x2048_S32x2048_1_0_0_1_n_n none l r) : (⟨S32x2048, .f32⟩ : BufTy).Contents (Elt F) → (⟨S2048x2048, .f32⟩ : BufTy).Contents (Elt F) → (⟨S32x2048, .f32⟩ : BufTy).Contents (Elt F))) (after (hostOps0 : List (HloOp τ sig (Elt F))) V (Proc.devRef .tc main_v84)) (after (hostOps0 : List (HloOp τ sig (Elt F))) V (Proc.devRef .tc main_arg7)) :=
  at_binary numbered 98 rfl (by decide) (by decide) rfl V
theorem eq_main_v86 (V : Valuation τ sig (Elt F)) : (after (hostOps0 : List (HloOp τ sig (Elt F))) V (Proc.devRef .tc main_v86)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 99 rfl (by decide) rfl V
theorem eq_main_v87 (V : Valuation τ sig (Elt F)) : (after (hostOps0 : List (HloOp τ sig (Elt F))) V (Proc.devRef .tc main_v87)) = ((broadcastInDim S32x2048 ![0, 1] bcast_S1x2048_S32x2048_0_1 : (⟨S1x2048, .f32⟩ : BufTy).Contents (Elt F) → (⟨S32x2048, .f32⟩ : BufTy).Contents (Elt F))) (after (hostOps0 : List (HloOp τ sig (Elt F))) V (Proc.devRef .tc main_v86)) :=
  at_unary numbered 100 rfl (by decide) rfl V
theorem eq_main_v88 (V : Valuation τ sig (Elt F)) : (after (hostOps0 : List (HloOp τ sig (Elt F))) V (Proc.devRef .tc main_v88)) = ((addf : (⟨S32x2048, .f32⟩ : BufTy).Contents (Elt F) → (⟨S32x2048, .f32⟩ : BufTy).Contents (Elt F) → (⟨S32x2048, .f32⟩ : BufTy).Contents (Elt F))) (after (hostOps0 : List (HloOp τ sig (Elt F))) V (Proc.devRef .tc main_v85)) (after (hostOps0 : List (HloOp τ sig (Elt F))) V (Proc.devRef .tc main_v87)) :=
  at_binary numbered 101 rfl (by decide) (by decide) rfl V
theorem eq_main_v89 (V : Valuation τ sig (Elt F)) : (after (hostOps0 : List (HloOp τ sig (Elt F))) V (Proc.devRef .tc main_v89)) = shapeCast S64x1024 (after (hostOps0 : List (HloOp τ sig (Elt F))) V (Proc.devRef .tc main_v88)) shapeCasts_S32x2048_S64x1024 :=
  (at_reshape numbered 102 rfl (by decide) rfl V).trans rfl
theorem eq_main_v90 (V : Valuation τ sig (Elt F)) : (after (hostOps0 : List (HloOp τ sig (Elt F))) V (Proc.devRef .tc main_v90)) = (((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (hostOps0 : List (HloOp τ sig (Elt F))) V (Proc.devRef .tc main_v89)) (after (hostOps0 : List (HloOp τ sig (Elt F))) V (Proc.devRef .tc main_arg5)) :=
  at_binary numbered 103 rfl (by decide) (by decide) rfl V
theorem eq_main_v91 (V : Valuation τ sig (Elt F)) : (after (hostOps0 : List (HloOp τ sig (Elt F))) V (Proc.devRef .tc main_v91)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 104 rfl (by decide) rfl V
theorem eq_main_v92 (V : Valuation τ sig (Elt F)) : (after (hostOps0 : List (HloOp τ sig (Elt F))) V (Proc.devRef .tc main_v92)) = ((broadcastInDim S64x2048 ![0, 1] bcast_S1x2048_S64x2048_0_1 : (⟨S1x2048, .f32⟩ : BufTy).Contents (Elt F) → (⟨S64x2048, .f32⟩ : BufTy).Contents (Elt F))) (after (hostOps0 : List (HloOp τ sig (Elt F))) V (Proc.devRef .tc main_v91)) :=
  at_unary numbered 105 rfl (by decide) rfl V
theorem eq_main_v93 (V : Valuation τ sig (Elt F)) : (after (hostOps0 : List (HloOp τ sig (Elt F))) V (Proc.devRef .tc main_v93)) = ((addf : (⟨S64x2048, .f32⟩ : BufTy).Contents (Elt F) → (⟨S64x2048, .f32⟩ : BufTy).Contents (Elt F) → (⟨S64x2048, .f32⟩ : BufTy).Contents (Elt F))) (after (hostOps0 : List (HloOp τ sig (Elt F))) V (Proc.devRef .tc main_v90)) (after (hostOps0 : List (HloOp τ sig (Elt F))) V (Proc.devRef .tc main_v92)) :=
  at_binary numbered 106 rfl (by decide) (by decide) rfl V
theorem eq_main_v94 (V : Valuation τ sig (Elt F)) : (after (hostOps0 : List (HloOp τ sig (Elt F))) V (Proc.devRef .tc main_v94)) = ((Host.negf : (⟨S64x2048, .f32⟩ : BufTy).Contents (Elt F) → (⟨S64x2048, .f32⟩ : BufTy).Contents (Elt F))) (after (hostOps0 : List (HloOp τ sig (Elt F))) V (Proc.devRef .tc main_v93)) :=
  at_unary numbered 107 rfl (by decide) rfl V
theorem eq_main_v95 (V : Valuation τ sig (Elt F)) : (after (hostOps0 : List (HloOp τ sig (Elt F))) V (Proc.devRef .tc main_v95)) = ((Host.exp : (⟨S64x2048, .f32⟩ : BufTy).Contents (Elt F) → (⟨S64x2048, .f32⟩ : BufTy).Contents (Elt F))) (after (hostOps0 : List (HloOp τ sig (Elt F))) V (Proc.devRef .tc main_v94)) :=
  at_unary numbered 108 rfl (by decide) rfl V
theorem eq_main_cst_11 (V : Valuation τ sig (Elt F)) : (after (hostOps0 : List (HloOp τ sig (Elt F))) V (Proc.devRef .tc main_cst_11)) = ((constant S_ .f32 0x3F800000#32)) :=
  at_nullary numbered 109 rfl rfl V
theorem eq_main_v96 (V : Valuation τ sig (Elt F)) : (after (hostOps0 : List (HloOp τ sig (Elt F))) V (Proc.devRef .tc main_v96)) = ((broadcastInDim S64x2048 ![] bcast_S_S64x2048 : (⟨S_, .f32⟩ : BufTy).Contents (Elt F) → (⟨S64x2048, .f32⟩ : BufTy).Contents (Elt F))) (after (hostOps0 : List (HloOp τ sig (Elt F))) V (Proc.devRef .tc main_cst_11)) :=
  at_unary numbered 110 rfl (by decide) rfl V
theorem eq_main_v97 (V : Valuation τ sig (Elt F)) : (after (hostOps0 : List (HloOp τ sig (Elt F))) V (Proc.devRef .tc main_v97)) = ((addf : (⟨S64x2048, .f32⟩ : BufTy).Contents (Elt F) → (⟨S64x2048, .f32⟩ : BufTy).Contents (Elt F) → (⟨S64x2048, .f32⟩ : BufTy).Contents (Elt F))) (after (hostOps0 : List (HloOp τ sig (Elt F))) V (Proc.devRef .tc main_v96)) (after (hostOps0 : List (HloOp τ sig (Elt F))) V (Proc.devRef .tc main_v95)) :=
  at_binary numbered 111 rfl (by decide) (by decide) rfl V
theorem eq_main_cst_12 (V : Valuation τ sig (Elt F)) : (after (hostOps0 : List (HloOp τ sig (Elt F))) V (Proc.devRef .tc main_cst_12)) = ((constant S_ .f32 0x3F800000#32)) :=
  at_nullary numbered 112 rfl rfl V
theorem eq_main_v98 (V : Valuation τ sig (Elt F)) : (after (hostOps0 : List (HloOp τ sig (Elt F))) V (Proc.devRef .tc main_v98)) = ((broadcastInDim S64x2048 ![] bcast_S_S64x2048 : (⟨S_, .f32⟩ : BufTy).Contents (Elt F) → (⟨S64x2048, .f32⟩ : BufTy).Contents (Elt F))) (after (hostOps0 : List (HloOp τ sig (Elt F))) V (Proc.devRef .tc main_cst_12)) :=
  at_unary numbered 113 rfl (by decide) rfl V
theorem eq_main_v99 (V : Valuation τ sig (Elt F)) : (after (hostOps0 : List (HloOp τ sig (Elt F))) V (Proc.devRef .tc main_v99)) = ((Host.divf : (⟨S64x2048, .f32⟩ : BufTy).Contents (Elt F) → (⟨S64x2048, .f32⟩ : BufTy).Contents (Elt F) → (⟨S64x2048, .f32⟩ : BufTy).Contents (Elt F))) (after (hostOps0 : List (HloOp τ sig (Elt F))) V (Proc.devRef .tc main_v98)) (after (hostOps0 : List (HloOp τ sig (Elt F))) V (Proc.devRef .tc main_v97)) :=
  at_binary numbered 114 rfl (by decide) (by decide) rfl V
theorem eq_main_v100 (V : Valuation τ sig (Elt F)) : (after (hostOps0 : List (HloOp τ sig (Elt F))) V (Proc.devRef .tc main_v100)) = (((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F))) (after (hostOps0 : List (HloOp τ sig (Elt F))) V (Proc.devRef .tc main_v99)) (after (hostOps0 : List (HloOp τ sig (Elt F))) V (Proc.devRef .tc main_arg7)) :=
  at_binary numbered 115 rfl (by decide) (by decide) rfl V
theorem eq_main_v101 (V : Valuation τ sig (Elt F)) : (after (hostOps0 : List (HloOp τ sig (Elt F))) V (Proc.devRef .tc main_v101)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 116 rfl (by decide) rfl V
theorem eq_main_v102 (V : Valuation τ sig (Elt F)) : (after (hostOps0 : List (HloOp τ sig (Elt F))) V (Proc.devRef .tc main_v102)) = ((broadcastInDim S64x2048 ![0, 1] bcast_S1x2048_S64x2048_0_1 : (⟨S1x2048, .f32⟩ : BufTy).Contents (Elt F) → (⟨S64x2048, .f32⟩ : BufTy).Contents (Elt F))) (after (hostOps0 : List (HloOp τ sig (Elt F))) V (Proc.devRef .tc main_v101)) :=
  at_unary numbered 117 rfl (by decide) rfl V
theorem eq_main_v103 (V : Valuation τ sig (Elt F)) : (after (hostOps0 : List (HloOp τ sig (Elt F))) V (Proc.devRef .tc main_v103)) = ((addf : (⟨S64x2048, .f32⟩ : BufTy).Contents (Elt F) → (⟨S64x2048, .f32⟩ : BufTy).Contents (Elt F) → (⟨S64x2048, .f32⟩ : BufTy).Contents (Elt F))) (after (hostOps0 : List (HloOp τ sig (Elt F))) V (Proc.devRef .tc main_v100)) (after (hostOps0 : List (HloOp τ sig (Elt F))) V (Proc.devRef .tc main_v102)) :=
  at_binary numbered 118 rfl (by decide) (by decide) rfl V
theorem eq_main_v104 (V : Valuation τ sig (Elt F)) : (after (hostOps0 : List (HloOp τ sig (Elt F))) V (Proc.devRef .tc main_v104)) = shapeCast S128x1024 (after (hostOps0 : List (HloOp τ sig (Elt F))) V (Proc.devRef .tc main_v103)) shapeCasts_S64x2048_S128x1024 :=
  (at_reshape numbered 119 rfl (by decide) rfl V).trans rfl
theorem eq_main_v105 (V : Valuation τ sig (Elt F)) : (after (hostOps0 : List (HloOp τ sig (Elt F))) V (Proc.devRef .tc main_v105)) = (((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (hostOps0 : List (HloOp τ sig (Elt F))) V (Proc.devRef .tc main_v104)) (after (hostOps0 : List (HloOp τ sig (Elt F))) V (Proc.devRef .tc main_arg5)) :=
  at_binary numbered 120 rfl (by decide) (by decide) rfl V
theorem eq_main_v106 (V : Valuation τ sig (Elt F)) : (after (hostOps0 : List (HloOp τ sig (Elt F))) V (Proc.devRef .tc main_v106)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 121 rfl (by decide) rfl V
theorem eq_main_v107 (V : Valuation τ sig (Elt F)) : (after (hostOps0 : List (HloOp τ sig (Elt F))) V (Proc.devRef .tc main_v107)) = ((broadcastInDim S128x2048 ![0, 1] bcast_S1x2048_S128x2048_0_1 : (⟨S1x2048, .f32⟩ : BufTy).Contents (Elt F) → (⟨S128x2048, .f32⟩ : BufTy).Contents (Elt F))) (after (hostOps0 : List (HloOp τ sig (Elt F))) V (Proc.devRef .tc main_v106)) :=
  at_unary numbered 122 rfl (by decide) rfl V
theorem eq_main_v108 (V : Valuation τ sig (Elt F)) : (after (hostOps0 : List (HloOp τ sig (Elt F))) V (Proc.devRef .tc main_v108)) = ((addf : (⟨S128x2048, .f32⟩ : BufTy).Contents (Elt F) → (⟨S128x2048, .f32⟩ : BufTy).Contents (Elt F) → (⟨S128x2048, .f32⟩ : BufTy).Contents (Elt F))) (after (hostOps0 : List (HloOp τ sig (Elt F))) V (Proc.devRef .tc main_v105)) (after (hostOps0 : List (HloOp τ sig (Elt F))) V (Proc.devRef .tc main_v107)) :=
  at_binary numbered 123 rfl (by decide) (by decide) rfl V
theorem eq_main_v109 (V : Valuation τ sig (Elt F)) : (after (hostOps0 : List (HloOp τ sig (Elt F))) V (Proc.devRef .tc main_v109)) = ((Host.negf : (⟨S128x2048, .f32⟩ : BufTy).Contents (Elt F) → (⟨S128x2048, .f32⟩ : BufTy).Contents (Elt F))) (after (hostOps0 : List (HloOp τ sig (Elt F))) V (Proc.devRef .tc main_v108)) :=
  at_unary numbered 124 rfl (by decide) rfl V
theorem eq_main_v110 (V : Valuation τ sig (Elt F)) : (after (hostOps0 : List (HloOp τ sig (Elt F))) V (Proc.devRef .tc main_v110)) = ((Host.exp : (⟨S128x2048, .f32⟩ : BufTy).Contents (Elt F) → (⟨S128x2048, .f32⟩ : BufTy).Contents (Elt F))) (after (hostOps0 : List (HloOp τ sig (Elt F))) V (Proc.devRef .tc main_v109)) :=
  at_unary numbered 125 rfl (by decide) rfl V
theorem eq_main_cst_13 (V : Valuation τ sig (Elt F)) : (after (hostOps0 : List (HloOp τ sig (Elt F))) V (Proc.devRef .tc main_cst_13)) = ((constant S_ .f32 0x3F800000#32)) :=
  at_nullary numbered 126 rfl rfl V
theorem eq_main_v111 (V : Valuation τ sig (Elt F)) : (after (hostOps0 : List (HloOp τ sig (Elt F))) V (Proc.devRef .tc main_v111)) = ((broadcastInDim S128x2048 ![] bcast_S_S128x2048 : (⟨S_, .f32⟩ : BufTy).Contents (Elt F) → (⟨S128x2048, .f32⟩ : BufTy).Contents (Elt F))) (after (hostOps0 : List (HloOp τ sig (Elt F))) V (Proc.devRef .tc main_cst_13)) :=
  at_unary numbered 127 rfl (by decide) rfl V
theorem eq_main_v112 (V : Valuation τ sig (Elt F)) : (after (hostOps0 : List (HloOp τ sig (Elt F))) V (Proc.devRef .tc main_v112)) = ((addf : (⟨S128x2048, .f32⟩ : BufTy).Contents (Elt F) → (⟨S128x2048, .f32⟩ : BufTy).Contents (Elt F) → (⟨S128x2048, .f32⟩ : BufTy).Contents (Elt F))) (after (hostOps0 : List (HloOp τ sig (Elt F))) V (Proc.devRef .tc main_v111)) (after (hostOps0 : List (HloOp τ sig (Elt F))) V (Proc.devRef .tc main_v110)) :=
  at_binary numbered 128 rfl (by decide) (by decide) rfl V
theorem eq_main_cst_14 (V : Valuation τ sig (Elt F)) : (after (hostOps0 : List (HloOp τ sig (Elt F))) V (Proc.devRef .tc main_cst_14)) = ((constant S_ .f32 0x3F800000#32)) :=
  at_nullary numbered 129 rfl rfl V
theorem eq_main_v113 (V : Valuation τ sig (Elt F)) : (after (hostOps0 : List (HloOp τ sig (Elt F))) V (Proc.devRef .tc main_v113)) = ((broadcastInDim S128x2048 ![] bcast_S_S128x2048 : (⟨S_, .f32⟩ : BufTy).Contents (Elt F) → (⟨S128x2048, .f32⟩ : BufTy).Contents (Elt F))) (after (hostOps0 : List (HloOp τ sig (Elt F))) V (Proc.devRef .tc main_cst_14)) :=
  at_unary numbered 130 rfl (by decide) rfl V
theorem eq_main_v114 (V : Valuation τ sig (Elt F)) : (after (hostOps0 : List (HloOp τ sig (Elt F))) V (Proc.devRef .tc main_v114)) = ((Host.divf : (⟨S128x2048, .f32⟩ : BufTy).Contents (Elt F) → (⟨S128x2048, .f32⟩ : BufTy).Contents (Elt F) → (⟨S128x2048, .f32⟩ : BufTy).Contents (Elt F))) (after (hostOps0 : List (HloOp τ sig (Elt F))) V (Proc.devRef .tc main_v113)) (after (hostOps0 : List (HloOp τ sig (Elt F))) V (Proc.devRef .tc main_v112)) :=
  at_binary numbered 131 rfl (by decide) (by decide) rfl V
theorem eq_main_v115 (V : Valuation τ sig (Elt F)) : (after (hostOps0 : List (HloOp τ sig (Elt F))) V (Proc.devRef .tc main_v115)) = (((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F))) (after (hostOps0 : List (HloOp τ sig (Elt F))) V (Proc.devRef .tc main_v114)) (after (hostOps0 : List (HloOp τ sig (Elt F))) V (Proc.devRef .tc main_arg7)) :=
  at_binary numbered 132 rfl (by decide) (by decide) rfl V
theorem eq_main_v116 (V : Valuation τ sig (Elt F)) : (after (hostOps0 : List (HloOp τ sig (Elt F))) V (Proc.devRef .tc main_v116)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 133 rfl (by decide) rfl V
theorem eq_main_v117 (V : Valuation τ sig (Elt F)) : (after (hostOps0 : List (HloOp τ sig (Elt F))) V (Proc.devRef .tc main_v117)) = ((broadcastInDim S128x2048 ![0, 1] bcast_S1x2048_S128x2048_0_1 : (⟨S1x2048, .f32⟩ : BufTy).Contents (Elt F) → (⟨S128x2048, .f32⟩ : BufTy).Contents (Elt F))) (after (hostOps0 : List (HloOp τ sig (Elt F))) V (Proc.devRef .tc main_v116)) :=
  at_unary numbered 134 rfl (by decide) rfl V
theorem eq_main_v118 (V : Valuation τ sig (Elt F)) : (after (hostOps0 : List (HloOp τ sig (Elt F))) V (Proc.devRef .tc main_v118)) = ((addf : (⟨S128x2048, .f32⟩ : BufTy).Contents (Elt F) → (⟨S128x2048, .f32⟩ : BufTy).Contents (Elt F) → (⟨S128x2048, .f32⟩ : BufTy).Contents (Elt F))) (after (hostOps0 : List (HloOp τ sig (Elt F))) V (Proc.devRef .tc main_v115)) (after (hostOps0 : List (HloOp τ sig (Elt F))) V (Proc.devRef .tc main_v117)) :=
  at_binary numbered 135 rfl (by decide) (by decide) rfl V
theorem eq_main_v119 (V : Valuation τ sig (Elt F)) : (after (hostOps0 : List (HloOp τ sig (Elt F))) V (Proc.devRef .tc main_v119)) = shapeCast S256x1024 (after (hostOps0 : List (HloOp τ sig (Elt F))) V (Proc.devRef .tc main_v118)) shapeCasts_S128x2048_S256x1024 :=
  (at_reshape numbered 136 rfl (by decide) rfl V).trans rfl
theorem eq_main_v120 (V : Valuation τ sig (Elt F)) : (after (hostOps0 : List (HloOp τ sig (Elt F))) V (Proc.devRef .tc main_v120)) = (((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (hostOps0 : List (HloOp τ sig (Elt F))) V (Proc.devRef .tc main_v119)) (after (hostOps0 : List (HloOp τ sig (Elt F))) V (Proc.devRef .tc main_arg5)) :=
  at_binary numbered 137 rfl (by decide) (by decide) rfl V
theorem eq_main_v121 (V : Valuation τ sig (Elt F)) : (after (hostOps0 : List (HloOp τ sig (Elt F))) V (Proc.devRef .tc main_v121)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 138 rfl (by decide) rfl V
theorem eq_main_v122 (V : Valuation τ sig (Elt F)) : (after (hostOps0 : List (HloOp τ sig (Elt F))) V (Proc.devRef .tc main_v122)) = ((broadcastInDim S256x2048 ![0, 1] bcast_S1x2048_S256x2048_0_1 : (⟨S1x2048, .f32⟩ : BufTy).Contents (Elt F) → (⟨S256x2048, .f32⟩ : BufTy).Contents (Elt F))) (after (hostOps0 : List (HloOp τ sig (Elt F))) V (Proc.devRef .tc main_v121)) :=
  at_unary numbered 139 rfl (by decide) rfl V
theorem eq_main_v123 (V : Valuation τ sig (Elt F)) : (after (hostOps0 : List (HloOp τ sig (Elt F))) V (Proc.devRef .tc main_v123)) = ((addf : (⟨S256x2048, .f32⟩ : BufTy).Contents (Elt F) → (⟨S256x2048, .f32⟩ : BufTy).Contents (Elt F) → (⟨S256x2048, .f32⟩ : BufTy).Contents (Elt F))) (after (hostOps0 : List (HloOp τ sig (Elt F))) V (Proc.devRef .tc main_v120)) (after (hostOps0 : List (HloOp τ sig (Elt F))) V (Proc.devRef .tc main_v122)) :=
  at_binary numbered 140 rfl (by decide) (by decide) rfl V
theorem eq_main_v124 (V : Valuation τ sig (Elt F)) : (after (hostOps0 : List (HloOp τ sig (Elt F))) V (Proc.devRef .tc main_v124)) = ((Host.negf : (⟨S256x2048, .f32⟩ : BufTy).Contents (Elt F) → (⟨S256x2048, .f32⟩ : BufTy).Contents (Elt F))) (after (hostOps0 : List (HloOp τ sig (Elt F))) V (Proc.devRef .tc main_v123)) :=
  at_unary numbered 141 rfl (by decide) rfl V
theorem eq_main_v125 (V : Valuation τ sig (Elt F)) : (after (hostOps0 : List (HloOp τ sig (Elt F))) V (Proc.devRef .tc main_v125)) = ((Host.exp : (⟨S256x2048, .f32⟩ : BufTy).Contents (Elt F) → (⟨S256x2048, .f32⟩ : BufTy).Contents (Elt F))) (after (hostOps0 : List (HloOp τ sig (Elt F))) V (Proc.devRef .tc main_v124)) :=
  at_unary numbered 142 rfl (by decide) rfl V
theorem eq_main_cst_15 (V : Valuation τ sig (Elt F)) : (after (hostOps0 : List (HloOp τ sig (Elt F))) V (Proc.devRef .tc main_cst_15)) = ((constant S_ .f32 0x3F800000#32)) :=
  at_nullary numbered 143 rfl rfl V
theorem eq_main_v126 (V : Valuation τ sig (Elt F)) : (after (hostOps0 : List (HloOp τ sig (Elt F))) V (Proc.devRef .tc main_v126)) = ((broadcastInDim S256x2048 ![] bcast_S_S256x2048 : (⟨S_, .f32⟩ : BufTy).Contents (Elt F) → (⟨S256x2048, .f32⟩ : BufTy).Contents (Elt F))) (after (hostOps0 : List (HloOp τ sig (Elt F))) V (Proc.devRef .tc main_cst_15)) :=
  at_unary numbered 144 rfl (by decide) rfl V
theorem eq_main_v127 (V : Valuation τ sig (Elt F)) : (after (hostOps0 : List (HloOp τ sig (Elt F))) V (Proc.devRef .tc main_v127)) = ((addf : (⟨S256x2048, .f32⟩ : BufTy).Contents (Elt F) → (⟨S256x2048, .f32⟩ : BufTy).Contents (Elt F) → (⟨S256x2048, .f32⟩ : BufTy).Contents (Elt F))) (after (hostOps0 : List (HloOp τ sig (Elt F))) V (Proc.devRef .tc main_v126)) (after (hostOps0 : List (HloOp τ sig (Elt F))) V (Proc.devRef .tc main_v125)) :=
  at_binary numbered 145 rfl (by decide) (by decide) rfl V
theorem eq_main_cst_16 (V : Valuation τ sig (Elt F)) : (after (hostOps0 : List (HloOp τ sig (Elt F))) V (Proc.devRef .tc main_cst_16)) = ((constant S_ .f32 0x3F800000#32)) :=
  at_nullary numbered 146 rfl rfl V
theorem eq_main_v128 (V : Valuation τ sig (Elt F)) : (after (hostOps0 : List (HloOp τ sig (Elt F))) V (Proc.devRef .tc main_v128)) = ((broadcastInDim S256x2048 ![] bcast_S_S256x2048 : (⟨S_, .f32⟩ : BufTy).Contents (Elt F) → (⟨S256x2048, .f32⟩ : BufTy).Contents (Elt F))) (after (hostOps0 : List (HloOp τ sig (Elt F))) V (Proc.devRef .tc main_cst_16)) :=
  at_unary numbered 147 rfl (by decide) rfl V
theorem eq_main_v129 (V : Valuation τ sig (Elt F)) : (after (hostOps0 : List (HloOp τ sig (Elt F))) V (Proc.devRef .tc main_v129)) = ((Host.divf : (⟨S256x2048, .f32⟩ : BufTy).Contents (Elt F) → (⟨S256x2048, .f32⟩ : BufTy).Contents (Elt F) → (⟨S256x2048, .f32⟩ : BufTy).Contents (Elt F))) (after (hostOps0 : List (HloOp τ sig (Elt F))) V (Proc.devRef .tc main_v128)) (after (hostOps0 : List (HloOp τ sig (Elt F))) V (Proc.devRef .tc main_v127)) :=
  at_binary numbered 148 rfl (by decide) (by decide) rfl V
theorem eq_main_v130 (V : Valuation τ sig (Elt F)) : (after (hostOps0 : List (HloOp τ sig (Elt F))) V (Proc.devRef .tc main_v130)) = (((fun l r => Host.dotGeneral dot_S256x2048_S2048x2048_S256x2048_1_0_0_1_n_n none l r) : (⟨S256x2048, .f32⟩ : BufTy).Contents (Elt F) → (⟨S2048x2048, .f32⟩ : BufTy).Contents (Elt F) → (⟨S256x2048, .f32⟩ : BufTy).Contents (Elt F))) (after (hostOps0 : List (HloOp τ sig (Elt F))) V (Proc.devRef .tc main_v129)) (after (hostOps0 : List (HloOp τ sig (Elt F))) V (Proc.devRef .tc main_arg7)) :=
  at_binary numbered 149 rfl (by decide) (by decide) rfl V
theorem eq_main_v131 (V : Valuation τ sig (Elt F)) : (after (hostOps0 : List (HloOp τ sig (Elt F))) V (Proc.devRef .tc main_v131)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 150 rfl (by decide) rfl V
theorem eq_main_v132 (V : Valuation τ sig (Elt F)) : (after (hostOps0 : List (HloOp τ sig (Elt F))) V (Proc.devRef .tc main_v132)) = ((broadcastInDim S256x2048 ![0, 1] bcast_S1x2048_S256x2048_0_1 : (⟨S1x2048, .f32⟩ : BufTy).Contents (Elt F) → (⟨S256x2048, .f32⟩ : BufTy).Contents (Elt F))) (after (hostOps0 : List (HloOp τ sig (Elt F))) V (Proc.devRef .tc main_v131)) :=
  at_unary numbered 151 rfl (by decide) rfl V
theorem eq_main_v133 (V : Valuation τ sig (Elt F)) : (after (hostOps0 : List (HloOp τ sig (Elt F))) V (Proc.devRef .tc main_v133)) = ((addf : (⟨S256x2048, .f32⟩ : BufTy).Contents (Elt F) → (⟨S256x2048, .f32⟩ : BufTy).Contents (Elt F) → (⟨S256x2048, .f32⟩ : BufTy).Contents (Elt F))) (after (hostOps0 : List (HloOp τ sig (Elt F))) V (Proc.devRef .tc main_v130)) (after (hostOps0 : List (HloOp τ sig (Elt F))) V (Proc.devRef .tc main_v132)) :=
  at_binary numbered 152 rfl (by decide) (by decide) rfl V
theorem eq_main_v134 (V : Valuation τ sig (Elt F)) : (after (hostOps0 : List (HloOp τ sig (Elt F))) V (Proc.devRef .tc main_v134)) = shapeCast S512x1024 (after (hostOps0 : List (HloOp τ sig (Elt F))) V (Proc.devRef .tc main_v133)) shapeCasts_S256x2048_S512x1024 :=
  (at_reshape numbered 153 rfl (by decide) rfl V).trans rfl
theorem eq_main_v135 (V : Valuation τ sig (Elt F)) : (after (hostOps0 : List (HloOp τ sig (Elt F))) V (Proc.devRef .tc main_v135)) = (((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (hostOps0 : List (HloOp τ sig (Elt F))) V (Proc.devRef .tc main_v134)) (after (hostOps0 : List (HloOp τ sig (Elt F))) V (Proc.devRef .tc main_arg5)) :=
  at_binary numbered 154 rfl (by decide) (by decide) rfl V
theorem eq_main_v136 (V : Valuation τ sig (Elt F)) : (after (hostOps0 : List (HloOp τ sig (Elt F))) V (Proc.devRef .tc main_v136)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 155 rfl (by decide) rfl V
theorem eq_main_v137 (V : Valuation τ sig (Elt F)) : (after (hostOps0 : List (HloOp τ sig (Elt F))) V (Proc.devRef .tc main_v137)) = ((broadcastInDim S512x2048 ![0, 1] bcast_S1x2048_S512x2048_0_1 : (⟨S1x2048, .f32⟩ : BufTy).Contents (Elt F) → (⟨S512x2048, .f32⟩ : BufTy).Contents (Elt F))) (after (hostOps0 : List (HloOp τ sig (Elt F))) V (Proc.devRef .tc main_v136)) :=
  at_unary numbered 156 rfl (by decide) rfl V
theorem eq_main_v138 (V : Valuation τ sig (Elt F)) : (after (hostOps0 : List (HloOp τ sig (Elt F))) V (Proc.devRef .tc main_v138)) = ((addf : (⟨S512x2048, .f32⟩ : BufTy).Contents (Elt F) → (⟨S512x2048, .f32⟩ : BufTy).Contents (Elt F) → (⟨S512x2048, .f32⟩ : BufTy).Contents (Elt F))) (after (hostOps0 : List (HloOp τ sig (Elt F))) V (Proc.devRef .tc main_v135)) (after (hostOps0 : List (HloOp τ sig (Elt F))) V (Proc.devRef .tc main_v137)) :=
  at_binary numbered 157 rfl (by decide) (by decide) rfl V
theorem eq_main_v139 (V : Valuation τ sig (Elt F)) : (after (hostOps0 : List (HloOp τ sig (Elt F))) V (Proc.devRef .tc main_v139)) = ((Host.negf : (⟨S512x2048, .f32⟩ : BufTy).Contents (Elt F) → (⟨S512x2048, .f32⟩ : BufTy).Contents (Elt F))) (after (hostOps0 : List (HloOp τ sig (Elt F))) V (Proc.devRef .tc main_v138)) :=
  at_unary numbered 158 rfl (by decide) rfl V
theorem eq_main_v140 (V : Valuation τ sig (Elt F)) : (after (hostOps0 : List (HloOp τ sig (Elt F))) V (Proc.devRef .tc main_v140)) = ((Host.exp : (⟨S512x2048, .f32⟩ : BufTy).Contents (Elt F) → (⟨S512x2048, .f32⟩ : BufTy).Contents (Elt F))) (after (hostOps0 : List (HloOp τ sig (Elt F))) V (Proc.devRef .tc main_v139)) :=
  at_unary numbered 159 rfl (by decide) rfl V
theorem eq_main_cst_17 (V : Valuation τ sig (Elt F)) : (after (hostOps0 : List (HloOp τ sig (Elt F))) V (Proc.devRef .tc main_cst_17)) = ((constant S_ .f32 0x3F800000#32)) :=
  at_nullary numbered 160 rfl rfl V
theorem eq_main_v141 (V : Valuation τ sig (Elt F)) : (after (hostOps0 : List (HloOp τ sig (Elt F))) V (Proc.devRef .tc main_v141)) = ((broadcastInDim S512x2048 ![] bcast_S_S512x2048 : (⟨S_, .f32⟩ : BufTy).Contents (Elt F) → (⟨S512x2048, .f32⟩ : BufTy).Contents (Elt F))) (after (hostOps0 : List (HloOp τ sig (Elt F))) V (Proc.devRef .tc main_cst_17)) :=
  at_unary numbered 161 rfl (by decide) rfl V
theorem eq_main_v142 (V : Valuation τ sig (Elt F)) : (after (hostOps0 : List (HloOp τ sig (Elt F))) V (Proc.devRef .tc main_v142)) = ((addf : (⟨S512x2048, .f32⟩ : BufTy).Contents (Elt F) → (⟨S512x2048, .f32⟩ : BufTy).Contents (Elt F) → (⟨S512x2048, .f32⟩ : BufTy).Contents (Elt F))) (after (hostOps0 : List (HloOp τ sig (Elt F))) V (Proc.devRef .tc main_v141)) (after (hostOps0 : List (HloOp τ sig (Elt F))) V (Proc.devRef .tc main_v140)) :=
  at_binary numbered 162 rfl (by decide) (by decide) rfl V
theorem eq_main_cst_18 (V : Valuation τ sig (Elt F)) : (after (hostOps0 : List (HloOp τ sig (Elt F))) V (Proc.devRef .tc main_cst_18)) = ((constant S_ .f32 0x3F800000#32)) :=
  at_nullary numbered 163 rfl rfl V
theorem eq_main_v143 (V : Valuation τ sig (Elt F)) : (after (hostOps0 : List (HloOp τ sig (Elt F))) V (Proc.devRef .tc main_v143)) = ((broadcastInDim S512x2048 ![] bcast_S_S512x2048 : (⟨S_, .f32⟩ : BufTy).Contents (Elt F) → (⟨S512x2048, .f32⟩ : BufTy).Contents (Elt F))) (after (hostOps0 : List (HloOp τ sig (Elt F))) V (Proc.devRef .tc main_cst_18)) :=
  at_unary numbered 164 rfl (by decide) rfl V
theorem eq_main_v144 (V : Valuation τ sig (Elt F)) : (after (hostOps0 : List (HloOp τ sig (Elt F))) V (Proc.devRef .tc main_v144)) = ((Host.divf : (⟨S512x2048, .f32⟩ : BufTy).Contents (Elt F) → (⟨S512x2048, .f32⟩ : BufTy).Contents (Elt F) → (⟨S512x2048, .f32⟩ : BufTy).Contents (Elt F))) (after (hostOps0 : List (HloOp τ sig (Elt F))) V (Proc.devRef .tc main_v143)) (after (hostOps0 : List (HloOp τ sig (Elt F))) V (Proc.devRef .tc main_v142)) :=
  at_binary numbered 165 rfl (by decide) (by decide) rfl V
theorem eq_main_v145 (V : Valuation τ sig (Elt F)) : (after (hostOps0 : List (HloOp τ sig (Elt F))) V (Proc.devRef .tc main_v145)) = (((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F))) (after (hostOps0 : List (HloOp τ sig (Elt F))) V (Proc.devRef .tc main_v144)) (after (hostOps0 : List (HloOp τ sig (Elt F))) V (Proc.devRef .tc main_arg7)) :=
  at_binary numbered 166 rfl (by decide) (by decide) rfl V
theorem eq_main_v146 (V : Valuation τ sig (Elt F)) : (after (hostOps0 : List (HloOp τ sig (Elt F))) V (Proc.devRef .tc main_v146)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 167 rfl (by decide) rfl V
theorem eq_main_v147 (V : Valuation τ sig (Elt F)) : (after (hostOps0 : List (HloOp τ sig (Elt F))) V (Proc.devRef .tc main_v147)) = ((broadcastInDim S512x2048 ![0, 1] bcast_S1x2048_S512x2048_0_1 : (⟨S1x2048, .f32⟩ : BufTy).Contents (Elt F) → (⟨S512x2048, .f32⟩ : BufTy).Contents (Elt F))) (after (hostOps0 : List (HloOp τ sig (Elt F))) V (Proc.devRef .tc main_v146)) :=
  at_unary numbered 168 rfl (by decide) rfl V
theorem eq_main_v148 (V : Valuation τ sig (Elt F)) : (after (hostOps0 : List (HloOp τ sig (Elt F))) V (Proc.devRef .tc main_v148)) = ((addf : (⟨S512x2048, .f32⟩ : BufTy).Contents (Elt F) → (⟨S512x2048, .f32⟩ : BufTy).Contents (Elt F) → (⟨S512x2048, .f32⟩ : BufTy).Contents (Elt F))) (after (hostOps0 : List (HloOp τ sig (Elt F))) V (Proc.devRef .tc main_v145)) (after (hostOps0 : List (HloOp τ sig (Elt F))) V (Proc.devRef .tc main_v147)) :=
  at_binary numbered 169 rfl (by decide) (by decide) rfl V
theorem eq_main_v149 (V : Valuation τ sig (Elt F)) : (after (hostOps0 : List (HloOp τ sig (Elt F))) V (Proc.devRef .tc main_v149)) = shapeCast S1024x1024 (after (hostOps0 : List (HloOp τ sig (Elt F))) V (Proc.devRef .tc main_v148)) shapeCasts_S512x2048_S1024x1024 :=
  (at_reshape numbered 170 rfl (by decide) rfl V).trans rfl
theorem eq_main_v150 (V : Valuation τ sig (Elt F)) : (after (hostOps0 : List (HloOp τ sig (Elt F))) V (Proc.devRef .tc main_v150)) = (((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v149)) (after (hostOps0 : List (HloOp τ sig (Elt F))) V (Proc.devRef .tc main_arg5)) :=
  at_binary numbered 171 rfl (by decide) (by decide) rfl V
theorem eq_main_v151 (V : Valuation τ sig (Elt F)) : (after (hostOps0 : List (HloOp τ sig (Elt F))) V (Proc.devRef .tc main_v151)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)) :=
  at_unary numbered 172 rfl (by decide) rfl V
theorem eq_main_v152 (V : Valuation τ sig (Elt F)) : (after (hostOps0 : List (HloOp τ sig (Elt F))) V (Proc.devRef .tc main_v152)) = ((broadcastInDim S1024x2048 ![0, 1] bcast_S1x2048_S1024x2048_0_1 : (⟨S1x2048, .f32⟩ : BufTy).Contents (Elt F) → (⟨S1024x2048, .f32⟩ : BufTy).Contents (Elt F))) (after (hostOps0 : List (HloOp τ sig (Elt F))) V (Proc.devRef .tc main_v151)) :=
  at_unary numbered 173 rfl (by decide) rfl V
theorem eq_main_v153 (V : Valuation τ sig (Elt F)) : (after (hostOps0 : List (HloOp τ sig (Elt F))) V (Proc.devRef .tc main_v153)) = ((addf : (⟨S1024x2048, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v150)) (after (hostOps0 : List (HloOp τ sig (Elt F))) V (Proc.devRef .tc main_v152)) :=
  at_binary numbered 174 rfl (by decide) (by decide) rfl V
theorem eq_main_v154 (V : Valuation τ sig (Elt F)) : (after (hostOps0 : List (HloOp τ sig (Elt F))) V (Proc.devRef .tc main_v154)) = ((Host.negf : (⟨S1024x2048, .f32⟩ : BufTy).Contents (Elt F) → (⟨S1024x2048, .f32⟩ : BufTy).Contents (Elt F))) (after (hostOps0 : List (HloOp τ sig (Elt F))) V (Proc.devRef .tc main_v153)) :=
  at_unary numbered 175 rfl (by decide) rfl V
theorem eq_main_v155 (V : Valuation τ sig (Elt F)) : (after (hostOps0 : List (HloOp τ sig (Elt F))) V (Proc.devRef .tc main_v155)) = ((Host.exp : (⟨S1024x2048, .f32⟩ : BufTy).Contents (Elt F) → (⟨S1024x2048, .f32⟩ : BufTy).Contents (Elt F))) (after (hostOps0 : List (HloOp τ sig (Elt F))) V (Proc.devRef .tc main_v154)) :=
  at_unary numbered 176 rfl (by decide) rfl V
theorem eq_main_cst_19 (V : Valuation τ sig (Elt F)) : (after (hostOps0 : List (HloOp τ sig (Elt F))) V (Proc.devRef .tc main_cst_19)) = ((constant S_ .f32 0x3F800000#32)) :=
  at_nullary numbered 177 rfl rfl V
theorem eq_main_v156 (V : Valuation τ sig (Elt F)) : (after (hostOps0 : List (HloOp τ sig (Elt F))) V (Proc.devRef .tc main_v156)) = ((broadcastInDim S1024x2048 ![] bcast_S_S1024x2048 : (⟨S_, .f32⟩ : BufTy).Contents (Elt F) → (⟨S1024x2048, .f32⟩ : BufTy).Contents (Elt F))) (after (hostOps0 : List (HloOp τ sig (Elt F))) V (Proc.devRef .tc main_cst_19)) :=
  at_unary numbered 178 rfl (by decide) rfl V
theorem eq_main_v157 (V : Valuation τ sig (Elt F)) : (after (hostOps0 : List (HloOp τ sig (Elt F))) V (Proc.devRef .tc main_v157)) = ((addf : (⟨S1024x2048, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v156)) (after (hostOps0 : List (HloOp τ sig (Elt F))) V (Proc.devRef .tc main_v155)) :=
  at_binary numbered 179 rfl (by decide) (by decide) rfl V
theorem eq_main_cst_20 (V : Valuation τ sig (Elt F)) : (after (hostOps0 : List (HloOp τ sig (Elt F))) V (Proc.devRef .tc main_cst_20)) = ((constant S_ .f32 0x3F800000#32)) :=
  at_nullary numbered 180 rfl rfl V
theorem eq_main_v158 (V : Valuation τ sig (Elt F)) : (after (hostOps0 : List (HloOp τ sig (Elt F))) V (Proc.devRef .tc main_v158)) = ((broadcastInDim S1024x2048 ![] bcast_S_S1024x2048 : (⟨S_, .f32⟩ : BufTy).Contents (Elt F) → (⟨S1024x2048, .f32⟩ : BufTy).Contents (Elt F))) (after (hostOps0 : List (HloOp τ sig (Elt F))) V (Proc.devRef .tc main_cst_20)) :=
  at_unary numbered 181 rfl (by decide) rfl V
theorem eq_main_v159 (V : Valuation τ sig (Elt F)) : (after (hostOps0 : List (HloOp τ sig (Elt F))) V (Proc.devRef .tc main_v159)) = ((Host.divf : (⟨S1024x2048, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v158)) (after (hostOps0 : List (HloOp τ sig (Elt F))) V (Proc.devRef .tc main_v157)) :=
  at_binary numbered 182 rfl (by decide) (by decide) rfl V
theorem eq_main_v160 (V : Valuation τ sig (Elt F)) : (after (hostOps0 : List (HloOp τ sig (Elt F))) V (Proc.devRef .tc main_v160)) = (((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F))) (after (hostOps0 : List (HloOp τ sig (Elt F))) V (Proc.devRef .tc main_v159)) (after (hostOps0 : List (HloOp τ sig (Elt F))) V (Proc.devRef .tc main_arg7)) :=
  at_binary numbered 183 rfl (by decide) (by decide) rfl V
theorem eq_main_v161 (V : Valuation τ sig (Elt F)) : (after (hostOps0 : List (HloOp τ sig (Elt F))) V (Proc.devRef .tc main_v161)) = ((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)) :=
  at_unary numbered 184 rfl (by decide) rfl V
theorem eq_main_v162 (V : Valuation τ sig (Elt F)) : (after (hostOps0 : List (HloOp τ sig (Elt F))) V (Proc.devRef .tc main_v162)) = ((broadcastInDim S1024x2048 ![0, 1] bcast_S1x2048_S1024x2048_0_1 : (⟨S1x2048, .f32⟩ : BufTy).Contents (Elt F) → (⟨S1024x2048, .f32⟩ : BufTy).Contents (Elt F))) (after (hostOps0 : List (HloOp τ sig (Elt F))) V (Proc.devRef .tc main_v161)) :=
  at_unary numbered 185 rfl (by decide) rfl V
theorem eq_main_v163 (V : Valuation τ sig (Elt F)) : (after (hostOps0 : List (HloOp τ sig (Elt F))) V (Proc.devRef .tc main_v163)) = ((addf : (⟨S1024x2048, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v160)) (after (hostOps0 : List (HloOp τ sig (Elt F))) V (Proc.devRef .tc main_v162)) :=
  at_binary numbered 186 rfl (by decide) (by decide) rfl V
theorem eq_main_v164 (V : Valuation τ sig (Elt F)) : (after (hostOps0 : List (HloOp τ sig (Elt F))) V (Proc.devRef .tc main_v164)) = shapeCast S2048x1024 (after (hostOps0 : List (HloOp τ sig (Elt F))) V (Proc.devRef .tc main_v163)) shapeCasts_S1024x2048_S2048x1024 :=
  (at_reshape numbered 187 rfl (by decide) rfl V).trans rfl
theorem eq_main_v165 (V : Valuation τ sig (Elt F)) : (after (hostOps0 : List (HloOp τ sig (Elt F))) V (Proc.devRef .tc main_v165)) = ((fun u => concatenate S4095x1024 0 [⟨S1x1024, u 0⟩, ⟨S2x1024, u 1⟩, ⟨S4x1024, u 2⟩, ⟨S8x1024, u 3⟩, ⟨S16x1024, u 4⟩, ⟨S32x1024, u 5⟩, ⟨S64x1024, u 6⟩, ⟨S128x1024, u 7⟩, ⟨S256x1024, u 8⟩, ⟨S512x1024, u 9⟩, ⟨S1024x1024, u 10⟩, ⟨S2048x1024, u 11⟩] concatenates_S1x1024_S2x1024_S4x1024_S8x1024_S16x1024_S32x1024_S64x1024_S128x1024_S256x1024_S512x1024_S1024x1024_S2048x1024_S4095x1024_d0)) (fun k => after (hostOps0 : List (HloOp τ sig (Elt F))) V (Proc.devRef .tc (![main_v0, main_v14, main_v29, main_v44, main_v59, main_v74, main_v89, main_v104, main_v119, main_v134, main_v149, main_v164] k))) :=
  at_nary numbered 188 rfl (by decide) rfl V

theorem chain_main_v14 (V : Valuation τ sig (Elt F)) : (after (hostOps0 : List (HloOp τ sig (Elt F))) V (Proc.devRef .tc main_v14)) = (shapeCast S2x1024 (((addf : (⟨S1x2048, .f32⟩ : BufTy).Contents (Elt F) → (⟨S1x2048, .f32⟩ : BufTy).Contents (Elt F) → (⟨S1x2048, .f32⟩ : BufTy).Contents (Elt F))) ((((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F))) (((Host.divf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((addf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((Host.exp : (⟨S1x2048, .f32⟩ : BufTy).Contents (Elt F) → (⟨S1x2048, .f32⟩ : BufTy).Contents (Elt F))) (((Host.negf : (⟨S1x2048, .f32⟩ : BufTy).Contents (Elt F) → (⟨S1x2048, .f32⟩ : BufTy).Contents (Elt F))) (((addf : (⟨S1x2048, .f32⟩ : BufTy).Contents (Elt F) → (⟨S1x2048, .f32⟩ : BufTy).Contents (Elt F) → (⟨S1x2048, .f32⟩ : BufTy).Contents (Elt F))) ((((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (hostOps0 : List (HloOp τ sig (Elt F))) V (Proc.devRef .tc main_v1)) (after (hostOps0 : List (HloOp τ sig (Elt F))) V (Proc.devRef .tc main_arg5))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6)))))))) (after (hostOps0 : List (HloOp τ sig (Elt F))) V (Proc.devRef .tc main_arg7))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8)))) shapeCasts_S1x2048_S2x1024) := by
  rw [eq_main_v14 V, eq_main_v13 V, eq_main_v11 V, eq_main_v10 V, eq_main_v9 V, eq_main_cst_0 V, eq_main_v8 V, eq_main_v7 V, eq_main_cst V, eq_main_v6 V, eq_main_v5 V, eq_main_v4 V, eq_main_v2 V, eq_main_v3 V, eq_main_v12 V]
theorem chain_main_v29 (V : Valuation τ sig (Elt F)) : (after (hostOps0 : List (HloOp τ sig (Elt F))) V (Proc.devRef .tc main_v29)) = (shapeCast S4x1024 (((addf : (⟨S2x2048, .f32⟩ : BufTy).Contents (Elt F) → (⟨S2x2048, .f32⟩ : BufTy).Contents (Elt F) → (⟨S2x2048, .f32⟩ : BufTy).Contents (Elt F))) ((((fun l r => Host.dotGeneral dot_S2x2048_S2048x2048_S2x2048_1_0_0_1_n_n none l r) : (⟨S2x2048, .f32⟩ : BufTy).Contents (Elt F) → (⟨S2048x2048, .f32⟩ : BufTy).Contents (Elt F) → (⟨S2x2048, .f32⟩ : BufTy).Contents (Elt F))) (((Host.divf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((addf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((Host.exp : (⟨S2x2048, .f32⟩ : BufTy).Contents (Elt F) → (⟨S2x2048, .f32⟩ : BufTy).Contents (Elt F))) (((Host.negf : (⟨S2x2048, .f32⟩ : BufTy).Contents (Elt F) → (⟨S2x2048, .f32⟩ : BufTy).Contents (Elt F))) (((addf : (⟨S2x2048, .f32⟩ : BufTy).Contents (Elt F) → (⟨S2x2048, .f32⟩ : BufTy).Contents (Elt F) → (⟨S2x2048, .f32⟩ : BufTy).Contents (Elt F))) ((((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (hostOps0 : List (HloOp τ sig (Elt F))) V (Proc.devRef .tc main_v14)) (after (hostOps0 : List (HloOp τ sig (Elt F))) V (Proc.devRef .tc main_arg5))) (((broadcastInDim S2x2048 ![0, 1] bcast_S1x2048_S2x2048_0_1 : (⟨S1x2048, .f32⟩ : BufTy).Contents (Elt F) → (⟨S2x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S2x2048 ![0, 1] bcast_S1x2048_S2x2048_0_1 : (⟨S1x2048, .f32⟩ : BufTy).Contents (Elt F) → (⟨S2x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S2x2048_S4x1024) := by
  rw [eq_main_v29 V, eq_main_v28 V, eq_main_v25 V, eq_main_v24 V, eq_main_v23 V, eq_main_cst_2 V, eq_main_v22 V, eq_main_v21 V, eq_main_cst_1 V, eq_main_v20 V, eq_main_v19 V, eq_main_v18 V, eq_main_v15 V, eq_main_v17 V, eq_main_v16 V, eq_main_v27 V, eq_main_v26 V]
theorem chain_main_v44 (V : Valuation τ sig (Elt F)) : (after (hostOps0 : List (HloOp τ sig (Elt F))) V (Proc.devRef .tc main_v44)) = (shapeCast S8x1024 (((addf : (⟨S4x2048, .f32⟩ : BufTy).Contents (Elt F) → (⟨S4x2048, .f32⟩ : BufTy).Contents (Elt F) → (⟨S4x2048, .f32⟩ : BufTy).Contents (Elt F))) ((((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F))) (((Host.divf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((addf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((Host.exp : (⟨S4x2048, .f32⟩ : BufTy).Contents (Elt F) → (⟨S4x2048, .f32⟩ : BufTy).Contents (Elt F))) (((Host.negf : (⟨S4x2048, .f32⟩ : BufTy).Contents (Elt F) → (⟨S4x2048, .f32⟩ : BufTy).Contents (Elt F))) (((addf : (⟨S4x2048, .f32⟩ : BufTy).Contents (Elt F) → (⟨S4x2048, .f32⟩ : BufTy).Contents (Elt F) → (⟨S4x2048, .f32⟩ : BufTy).Contents (Elt F))) ((((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (hostOps0 : List (HloOp τ sig (Elt F))) V (Proc.devRef .tc main_v29)) (after (hostOps0 : List (HloOp τ sig (Elt F))) V (Proc.devRef .tc main_arg5))) (((broadcastInDim S4x2048 ![0, 1] bcast_S1x2048_S4x2048_0_1 : (⟨S1x2048, .f32⟩ : BufTy).Contents (Elt F) → (⟨S4x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S4x2048 ![0, 1] bcast_S1x2048_S4x2048_0_1 : (⟨S1x2048, .f32⟩ : BufTy).Contents (Elt F) → (⟨S4x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S4x2048_S8x1024) := by
  rw [eq_main_v44 V, eq_main_v43 V, eq_main_v40 V, eq_main_v39 V, eq_main_v38 V, eq_main_cst_4 V, eq_main_v37 V, eq_main_v36 V, eq_main_cst_3 V, eq_main_v35 V, eq_main_v34 V, eq_main_v33 V, eq_main_v30 V, eq_main_v32 V, eq_main_v31 V, eq_main_v42 V, eq_main_v41 V]
theorem chain_main_v59 (V : Valuation τ sig (Elt F)) : (after (hostOps0 : List (HloOp τ sig (Elt F))) V (Proc.devRef .tc main_v59)) = (shapeCast S16x1024 (((addf : (⟨S8x2048, .f32⟩ : BufTy).Contents (Elt F) → (⟨S8x2048, .f32⟩ : BufTy).Contents (Elt F) → (⟨S8x2048, .f32⟩ : BufTy).Contents (Elt F))) ((((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F))) (((Host.divf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((addf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((Host.exp : (⟨S8x2048, .f32⟩ : BufTy).Contents (Elt F) → (⟨S8x2048, .f32⟩ : BufTy).Contents (Elt F))) (((Host.negf : (⟨S8x2048, .f32⟩ : BufTy).Contents (Elt F) → (⟨S8x2048, .f32⟩ : BufTy).Contents (Elt F))) (((addf : (⟨S8x2048, .f32⟩ : BufTy).Contents (Elt F) → (⟨S8x2048, .f32⟩ : BufTy).Contents (Elt F) → (⟨S8x2048, .f32⟩ : BufTy).Contents (Elt F))) ((((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (hostOps0 : List (HloOp τ sig (Elt F))) V (Proc.devRef .tc main_v44)) (after (hostOps0 : List (HloOp τ sig (Elt F))) V (Proc.devRef .tc main_arg5))) (((broadcastInDim S8x2048 ![0, 1] bcast_S1x2048_S8x2048_0_1 : (⟨S1x2048, .f32⟩ : BufTy).Contents (Elt F) → (⟨S8x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S8x2048 ![0, 1] bcast_S1x2048_S8x2048_0_1 : (⟨S1x2048, .f32⟩ : BufTy).Contents (Elt F) → (⟨S8x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S8x2048_S16x1024) := by
  rw [eq_main_v59 V, eq_main_v58 V, eq_main_v55 V, eq_main_v54 V, eq_main_v53 V, eq_main_cst_6 V, eq_main_v52 V, eq_main_v51 V, eq_main_cst_5 V, eq_main_v50 V, eq_main_v49 V, eq_main_v48 V, eq_main_v45 V, eq_main_v47 V, eq_main_v46 V, eq_main_v57 V, eq_main_v56 V]
theorem chain_main_v74 (V : Valuation τ sig (Elt F)) : (after (hostOps0 : List (HloOp τ sig (Elt F))) V (Proc.devRef .tc main_v74)) = (shapeCast S32x1024 (((addf : (⟨S16x2048, .f32⟩ : BufTy).Contents (Elt F) → (⟨S16x2048, .f32⟩ : BufTy).Contents (Elt F) → (⟨S16x2048, .f32⟩ : BufTy).Contents (Elt F))) ((((fun l r => Host.dotGeneral dot_S16x2048_S2048x2048_S16x2048_1_0_0_1_n_n none l r) : (⟨S16x2048, .f32⟩ : BufTy).Contents (Elt F) → (⟨S2048x2048, .f32⟩ : BufTy).Contents (Elt F) → (⟨S16x2048, .f32⟩ : BufTy).Contents (Elt F))) (((Host.divf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((addf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((Host.exp : (⟨S16x2048, .f32⟩ : BufTy).Contents (Elt F) → (⟨S16x2048, .f32⟩ : BufTy).Contents (Elt F))) (((Host.negf : (⟨S16x2048, .f32⟩ : BufTy).Contents (Elt F) → (⟨S16x2048, .f32⟩ : BufTy).Contents (Elt F))) (((addf : (⟨S16x2048, .f32⟩ : BufTy).Contents (Elt F) → (⟨S16x2048, .f32⟩ : BufTy).Contents (Elt F) → (⟨S16x2048, .f32⟩ : BufTy).Contents (Elt F))) ((((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (hostOps0 : List (HloOp τ sig (Elt F))) V (Proc.devRef .tc main_v59)) (after (hostOps0 : List (HloOp τ sig (Elt F))) V (Proc.devRef .tc main_arg5))) (((broadcastInDim S16x2048 ![0, 1] bcast_S1x2048_S16x2048_0_1 : (⟨S1x2048, .f32⟩ : BufTy).Contents (Elt F) → (⟨S16x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S16x2048 ![0, 1] bcast_S1x2048_S16x2048_0_1 : (⟨S1x2048, .f32⟩ : BufTy).Contents (Elt F) → (⟨S16x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S16x2048_S32x1024) := by
  rw [eq_main_v74 V, eq_main_v73 V, eq_main_v70 V, eq_main_v69 V, eq_main_v68 V, eq_main_cst_8 V, eq_main_v67 V, eq_main_v66 V, eq_main_cst_7 V, eq_main_v65 V, eq_main_v64 V, eq_main_v63 V, eq_main_v60 V, eq_main_v62 V, eq_main_v61 V, eq_main_v72 V, eq_main_v71 V]
theorem chain_main_v89 (V : Valuation τ sig (Elt F)) : (after (hostOps0 : List (HloOp τ sig (Elt F))) V (Proc.devRef .tc main_v89)) = (shapeCast S64x1024 (((addf : (⟨S32x2048, .f32⟩ : BufTy).Contents (Elt F) → (⟨S32x2048, .f32⟩ : BufTy).Contents (Elt F) → (⟨S32x2048, .f32⟩ : BufTy).Contents (Elt F))) ((((fun l r => Host.dotGeneral dot_S32x2048_S2048x2048_S32x2048_1_0_0_1_n_n none l r) : (⟨S32x2048, .f32⟩ : BufTy).Contents (Elt F) → (⟨S2048x2048, .f32⟩ : BufTy).Contents (Elt F) → (⟨S32x2048, .f32⟩ : BufTy).Contents (Elt F))) (((Host.divf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((addf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((Host.exp : (⟨S32x2048, .f32⟩ : BufTy).Contents (Elt F) → (⟨S32x2048, .f32⟩ : BufTy).Contents (Elt F))) (((Host.negf : (⟨S32x2048, .f32⟩ : BufTy).Contents (Elt F) → (⟨S32x2048, .f32⟩ : BufTy).Contents (Elt F))) (((addf : (⟨S32x2048, .f32⟩ : BufTy).Contents (Elt F) → (⟨S32x2048, .f32⟩ : BufTy).Contents (Elt F) → (⟨S32x2048, .f32⟩ : BufTy).Contents (Elt F))) ((((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (hostOps0 : List (HloOp τ sig (Elt F))) V (Proc.devRef .tc main_v74)) (after (hostOps0 : List (HloOp τ sig (Elt F))) V (Proc.devRef .tc main_arg5))) (((broadcastInDim S32x2048 ![0, 1] bcast_S1x2048_S32x2048_0_1 : (⟨S1x2048, .f32⟩ : BufTy).Contents (Elt F) → (⟨S32x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S32x2048 ![0, 1] bcast_S1x2048_S32x2048_0_1 : (⟨S1x2048, .f32⟩ : BufTy).Contents (Elt F) → (⟨S32x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S32x2048_S64x1024) := by
  rw [eq_main_v89 V, eq_main_v88 V, eq_main_v85 V, eq_main_v84 V, eq_main_v83 V, eq_main_cst_10 V, eq_main_v82 V, eq_main_v81 V, eq_main_cst_9 V, eq_main_v80 V, eq_main_v79 V, eq_main_v78 V, eq_main_v75 V, eq_main_v77 V, eq_main_v76 V, eq_main_v87 V, eq_main_v86 V]
theorem chain_main_v104 (V : Valuation τ sig (Elt F)) : (after (hostOps0 : List (HloOp τ sig (Elt F))) V (Proc.devRef .tc main_v104)) = (shapeCast S128x1024 (((addf : (⟨S64x2048, .f32⟩ : BufTy).Contents (Elt F) → (⟨S64x2048, .f32⟩ : BufTy).Contents (Elt F) → (⟨S64x2048, .f32⟩ : BufTy).Contents (Elt F))) ((((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F))) (((Host.divf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((addf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((Host.exp : (⟨S64x2048, .f32⟩ : BufTy).Contents (Elt F) → (⟨S64x2048, .f32⟩ : BufTy).Contents (Elt F))) (((Host.negf : (⟨S64x2048, .f32⟩ : BufTy).Contents (Elt F) → (⟨S64x2048, .f32⟩ : BufTy).Contents (Elt F))) (((addf : (⟨S64x2048, .f32⟩ : BufTy).Contents (Elt F) → (⟨S64x2048, .f32⟩ : BufTy).Contents (Elt F) → (⟨S64x2048, .f32⟩ : BufTy).Contents (Elt F))) ((((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (hostOps0 : List (HloOp τ sig (Elt F))) V (Proc.devRef .tc main_v89)) (after (hostOps0 : List (HloOp τ sig (Elt F))) V (Proc.devRef .tc main_arg5))) (((broadcastInDim S64x2048 ![0, 1] bcast_S1x2048_S64x2048_0_1 : (⟨S1x2048, .f32⟩ : BufTy).Contents (Elt F) → (⟨S64x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S64x2048 ![0, 1] bcast_S1x2048_S64x2048_0_1 : (⟨S1x2048, .f32⟩ : BufTy).Contents (Elt F) → (⟨S64x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S64x2048_S128x1024) := by
  rw [eq_main_v104 V, eq_main_v103 V, eq_main_v100 V, eq_main_v99 V, eq_main_v98 V, eq_main_cst_12 V, eq_main_v97 V, eq_main_v96 V, eq_main_cst_11 V, eq_main_v95 V, eq_main_v94 V, eq_main_v93 V, eq_main_v90 V, eq_main_v92 V, eq_main_v91 V, eq_main_v102 V, eq_main_v101 V]
theorem chain_main_v119 (V : Valuation τ sig (Elt F)) : (after (hostOps0 : List (HloOp τ sig (Elt F))) V (Proc.devRef .tc main_v119)) = (shapeCast S256x1024 (((addf : (⟨S128x2048, .f32⟩ : BufTy).Contents (Elt F) → (⟨S128x2048, .f32⟩ : BufTy).Contents (Elt F) → (⟨S128x2048, .f32⟩ : BufTy).Contents (Elt F))) ((((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F))) (((Host.divf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((addf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((Host.exp : (⟨S128x2048, .f32⟩ : BufTy).Contents (Elt F) → (⟨S128x2048, .f32⟩ : BufTy).Contents (Elt F))) (((Host.negf : (⟨S128x2048, .f32⟩ : BufTy).Contents (Elt F) → (⟨S128x2048, .f32⟩ : BufTy).Contents (Elt F))) (((addf : (⟨S128x2048, .f32⟩ : BufTy).Contents (Elt F) → (⟨S128x2048, .f32⟩ : BufTy).Contents (Elt F) → (⟨S128x2048, .f32⟩ : BufTy).Contents (Elt F))) ((((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (hostOps0 : List (HloOp τ sig (Elt F))) V (Proc.devRef .tc main_v104)) (after (hostOps0 : List (HloOp τ sig (Elt F))) V (Proc.devRef .tc main_arg5))) (((broadcastInDim S128x2048 ![0, 1] bcast_S1x2048_S128x2048_0_1 : (⟨S1x2048, .f32⟩ : BufTy).Contents (Elt F) → (⟨S128x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S128x2048 ![0, 1] bcast_S1x2048_S128x2048_0_1 : (⟨S1x2048, .f32⟩ : BufTy).Contents (Elt F) → (⟨S128x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S128x2048_S256x1024) := by
  rw [eq_main_v119 V, eq_main_v118 V, eq_main_v115 V, eq_main_v114 V, eq_main_v113 V, eq_main_cst_14 V, eq_main_v112 V, eq_main_v111 V, eq_main_cst_13 V, eq_main_v110 V, eq_main_v109 V, eq_main_v108 V, eq_main_v105 V, eq_main_v107 V, eq_main_v106 V, eq_main_v117 V, eq_main_v116 V]
theorem chain_main_v134 (V : Valuation τ sig (Elt F)) : (after (hostOps0 : List (HloOp τ sig (Elt F))) V (Proc.devRef .tc main_v134)) = (shapeCast S512x1024 (((addf : (⟨S256x2048, .f32⟩ : BufTy).Contents (Elt F) → (⟨S256x2048, .f32⟩ : BufTy).Contents (Elt F) → (⟨S256x2048, .f32⟩ : BufTy).Contents (Elt F))) ((((fun l r => Host.dotGeneral dot_S256x2048_S2048x2048_S256x2048_1_0_0_1_n_n none l r) : (⟨S256x2048, .f32⟩ : BufTy).Contents (Elt F) → (⟨S2048x2048, .f32⟩ : BufTy).Contents (Elt F) → (⟨S256x2048, .f32⟩ : BufTy).Contents (Elt F))) (((Host.divf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((addf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((Host.exp : (⟨S256x2048, .f32⟩ : BufTy).Contents (Elt F) → (⟨S256x2048, .f32⟩ : BufTy).Contents (Elt F))) (((Host.negf : (⟨S256x2048, .f32⟩ : BufTy).Contents (Elt F) → (⟨S256x2048, .f32⟩ : BufTy).Contents (Elt F))) (((addf : (⟨S256x2048, .f32⟩ : BufTy).Contents (Elt F) → (⟨S256x2048, .f32⟩ : BufTy).Contents (Elt F) → (⟨S256x2048, .f32⟩ : BufTy).Contents (Elt F))) ((((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (hostOps0 : List (HloOp τ sig (Elt F))) V (Proc.devRef .tc main_v119)) (after (hostOps0 : List (HloOp τ sig (Elt F))) V (Proc.devRef .tc main_arg5))) (((broadcastInDim S256x2048 ![0, 1] bcast_S1x2048_S256x2048_0_1 : (⟨S1x2048, .f32⟩ : BufTy).Contents (Elt F) → (⟨S256x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S256x2048 ![0, 1] bcast_S1x2048_S256x2048_0_1 : (⟨S1x2048, .f32⟩ : BufTy).Contents (Elt F) → (⟨S256x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S256x2048_S512x1024) := by
  rw [eq_main_v134 V, eq_main_v133 V, eq_main_v130 V, eq_main_v129 V, eq_main_v128 V, eq_main_cst_16 V, eq_main_v127 V, eq_main_v126 V, eq_main_cst_15 V, eq_main_v125 V, eq_main_v124 V, eq_main_v123 V, eq_main_v120 V, eq_main_v122 V, eq_main_v121 V, eq_main_v132 V, eq_main_v131 V]
theorem chain_main_v149 (V : Valuation τ sig (Elt F)) : (after (hostOps0 : List (HloOp τ sig (Elt F))) V (Proc.devRef .tc main_v149)) = (shapeCast S1024x1024 (((addf : (⟨S512x2048, .f32⟩ : BufTy).Contents (Elt F) → (⟨S512x2048, .f32⟩ : BufTy).Contents (Elt F) → (⟨S512x2048, .f32⟩ : BufTy).Contents (Elt F))) ((((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F))) (((Host.divf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((addf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((Host.exp : (⟨S512x2048, .f32⟩ : BufTy).Contents (Elt F) → (⟨S512x2048, .f32⟩ : BufTy).Contents (Elt F))) (((Host.negf : (⟨S512x2048, .f32⟩ : BufTy).Contents (Elt F) → (⟨S512x2048, .f32⟩ : BufTy).Contents (Elt F))) (((addf : (⟨S512x2048, .f32⟩ : BufTy).Contents (Elt F) → (⟨S512x2048, .f32⟩ : BufTy).Contents (Elt F) → (⟨S512x2048, .f32⟩ : BufTy).Contents (Elt F))) ((((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (hostOps0 : List (HloOp τ sig (Elt F))) V (Proc.devRef .tc main_v134)) (after (hostOps0 : List (HloOp τ sig (Elt F))) V (Proc.devRef .tc main_arg5))) (((broadcastInDim S512x2048 ![0, 1] bcast_S1x2048_S512x2048_0_1 : (⟨S1x2048, .f32⟩ : BufTy).Contents (Elt F) → (⟨S512x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S512x2048 ![0, 1] bcast_S1x2048_S512x2048_0_1 : (⟨S1x2048, .f32⟩ : BufTy).Contents (Elt F) → (⟨S512x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S512x2048_S1024x1024) := by
  rw [eq_main_v149 V, eq_main_v148 V, eq_main_v145 V, eq_main_v144 V, eq_main_v143 V, eq_main_cst_18 V, eq_main_v142 V, eq_main_v141 V, eq_main_cst_17 V, eq_main_v140 V, eq_main_v139 V, eq_main_v138 V, eq_main_v135 V, eq_main_v137 V, eq_main_v136 V, eq_main_v147 V, eq_main_v146 V]
theorem chain_main_v164 (V : Valuation τ sig (Elt F)) : (after (hostOps0 : List (HloOp τ sig (Elt F))) V (Proc.devRef .tc main_v164)) = (shapeCast S2048x1024 (((addf : (⟨S1024x2048, .f32⟩ : BufTy).Contents (Elt F) → (⟨S1024x2048, .f32⟩ : BufTy).Contents (Elt F) → (⟨S1024x2048, .f32⟩ : BufTy).Contents (Elt F))) ((((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F))) (((Host.divf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((addf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((Host.exp : (⟨S1024x2048, .f32⟩ : BufTy).Contents (Elt F) → (⟨S1024x2048, .f32⟩ : BufTy).Contents (Elt F))) (((Host.negf : (⟨S1024x2048, .f32⟩ : BufTy).Contents (Elt F) → (⟨S1024x2048, .f32⟩ : BufTy).Contents (Elt F))) (((addf : (⟨S1024x2048, .f32⟩ : BufTy).Contents (Elt F) → (⟨S1024x2048, .f32⟩ : BufTy).Contents (Elt F) → (⟨S1024x2048, .f32⟩ : BufTy).Contents (Elt F))) ((((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (hostOps0 : List (HloOp τ sig (Elt F))) V (Proc.devRef .tc main_v149)) (after (hostOps0 : List (HloOp τ sig (Elt F))) V (Proc.devRef .tc main_arg5))) (((broadcastInDim S1024x2048 ![0, 1] bcast_S1x2048_S1024x2048_0_1 : (⟨S1x2048, .f32⟩ : BufTy).Contents (Elt F) → (⟨S1024x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg6))))))))) (after (hostOps0 : List (HloOp τ sig (Elt F))) V (Proc.devRef .tc main_arg7))) (((broadcastInDim S1024x2048 ![0, 1] bcast_S1x2048_S1024x2048_0_1 : (⟨S1x2048, .f32⟩ : BufTy).Contents (Elt F) → (⟨S1024x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (hostOps0 : List (HloOp τ sig (Elt F))) V (Proc.devRef .tc main_arg8))))) shapeCasts_S1024x2048_S2048x1024) := by
  rw [eq_main_v164 V, eq_main_v163 V, eq_main_v160 V, eq_main_v159 V, eq_main_v158 V, eq_main_cst_20 V, eq_main_v157 V, eq_main_v156 V, eq_main_cst_19 V, eq_main_v155 V, eq_main_v154 V, eq_main_v153 V, eq_main_v150 V, eq_main_v152 V, eq_main_v151 V, eq_main_v162 V, eq_main_v161 V]

-- levels: main_v1 main_v14 main_v29 main_v44 main_v59 main_v74 main_v89 main_v104 main_v119 main_v134 main_v149 main_v164
-- pieces: main_v0 main_v14 main_v29 main_v44 main_v59 main_v74 main_v89 main_v104 main_v119 main_v134 main_v149 main_v164  -> main_v165

end Cert.KernelIdeal.Ssa

end
-- ==== Proof.SsaR.lean ====
/- Table written by: python3 scratch/gen_ssa.py R 141888_j3590592659519_2_alg  — the line's numbering (operation k writes reference 9 + k) and, per
   operation, the final contents of its result buffer as its function of the final contents of its operand buffers;
   then, per level buffer, those equations composed back to the previous level's buffer and the arguments. 400 operations. -/
import proofs.«141888_j3590592659519_2_alg».proof.Proof.RefRun
import proofs.«141888_j3590592659519_2_alg».proof.Proof.LibSsaNary

set_option maxRecDepth 65536
set_option maxHeartbeats 4000000

noncomputable section

namespace Cert.ReferenceIdeal.Ssa

open Cert.ReferenceIdeal Cert.ReferenceIdeal.Gen Cert.ReferenceIdeal.RefRun
open Idealize.ShloMosaic Idealize.ShloMosaic.TcCoe Idealize.SL.Sem Idealize.ShloMosaic.StableHlo Cert.Lib.SsaFold2 Cert.Lib.SsaNary

variable {F : FTy → Type} [FloatOps F]

theorem numbered0 : Numbered 9 (ops0 : List (HloOp τ sig (Elt F))) :=
  Numbered.cons main_c (StableHlo.nullary_writes ..) rfl (StableHlo.nullary_bufs_sub ..) rfl (Numbered.cons main_c_0 (StableHlo.nullary_writes ..) rfl (StableHlo.nullary_bufs_sub ..) rfl (Numbered.cons main_v0 (StableHlo.unary_writes ..) rfl (StableHlo.unary_bufs_sub ..) rfl (Numbered.cons main_v1 (StableHlo.binary_writes ..) rfl (StableHlo.binary_bufs_sub ..) rfl (Numbered.cons main_v2 (StableHlo.unary_writes ..) rfl (StableHlo.unary_bufs_sub ..) rfl (Numbered.cons main_v3 (StableHlo.binary_writes ..) rfl (StableHlo.binary_bufs_sub ..) rfl (Numbered.cons main_v4 (StableHlo.unary_writes ..) rfl (StableHlo.unary_bufs_sub ..) rfl (Numbered.cons main_v5 (StableHlo.unary_writes ..) rfl (StableHlo.unary_bufs_sub ..) rfl (Numbered.cons main_cst (StableHlo.nullary_writes ..) rfl (StableHlo.nullary_bufs_sub ..) rfl (Numbered.cons main_v6 (StableHlo.unary_writes ..) rfl (StableHlo.unary_bufs_sub ..) rfl (Numbered.cons main_v7 (StableHlo.binary_writes ..) rfl (StableHlo.binary_bufs_sub ..) rfl (Numbered.cons main_cst_1 (StableHlo.nullary_writes ..) rfl (StableHlo.nullary_bufs_sub ..) rfl (Numbered.cons main_v8 (StableHlo.unary_writes ..) rfl (StableHlo.unary_bufs_sub ..) rfl (Numbered.cons main_v9 (StableHlo.binary_writes ..) rfl (StableHlo.binary_bufs_sub ..) rfl (Numbered.cons main_v10 (StableHlo.binary_writes ..) rfl (StableHlo.binary_bufs_sub ..) rfl (Numbered.cons main_v11 (StableHlo.unary_writes ..) rfl (StableHlo.unary_bufs_sub ..) rfl (Numbered.cons main_v12 (StableHlo.binary_writes ..) rfl (StableHlo.binary_bufs_sub ..) rfl (Numbered.cons main_v13 (StableHlo.binary_writes ..) rfl (StableHlo.binary_bufs_sub ..) rfl (Numbered.cons main_v14 (StableHlo.unary_writes ..) rfl (StableHlo.unary_bufs_sub ..) rfl (Numbered.cons main_v15 (StableHlo.binary_writes ..) rfl (StableHlo.binary_bufs_sub ..) rfl (Numbered.cons main_v16 (StableHlo.unary_writes ..) rfl (StableHlo.unary_bufs_sub ..) rfl (Numbered.cons main_v17 (StableHlo.unary_writes ..) rfl (StableHlo.unary_bufs_sub ..) rfl (Numbered.cons main_cst_2 (StableHlo.nullary_writes ..) rfl (StableHlo.nullary_bufs_sub ..) rfl (Numbered.cons main_v18 (StableHlo.unary_writes ..) rfl (StableHlo.unary_bufs_sub ..) rfl (Numbered.cons main_v19 (StableHlo.binary_writes ..) rfl (StableHlo.binary_bufs_sub ..) rfl (Numbered.cons main_cst_3 (StableHlo.nullary_writes ..) rfl (StableHlo.nullary_bufs_sub ..) rfl (Numbered.cons main_v20 (StableHlo.unary_writes ..) rfl (StableHlo.unary_bufs_sub ..) rfl (Numbered.cons main_v21 (StableHlo.binary_writes ..) rfl (StableHlo.binary_bufs_sub ..) rfl (Numbered.cons main_v22 (StableHlo.binary_writes ..) rfl (StableHlo.binary_bufs_sub ..) rfl (Numbered.cons main_v23 (StableHlo.unary_writes ..) rfl (StableHlo.unary_bufs_sub ..) rfl (Numbered.cons main_v24 (StableHlo.binary_writes ..) rfl (StableHlo.binary_bufs_sub ..) rfl (Numbered.cons main_v25 (StableHlo.reshape_writes ..) rfl (StableHlo.reshape_bufs_sub ..) rfl (Numbered.cons main_v26 (StableHlo.binary_writes ..) rfl (StableHlo.binary_bufs_sub ..) rfl (Numbered.cons main_v27 (StableHlo.unary_writes ..) rfl (StableHlo.unary_bufs_sub ..) rfl (Numbered.cons main_v28 (StableHlo.unary_writes ..) rfl (StableHlo.unary_bufs_sub ..) rfl (Numbered.cons main_v29 (StableHlo.binary_writes ..) rfl (StableHlo.binary_bufs_sub ..) rfl (Numbered.cons main_v30 (StableHlo.unary_writes ..) rfl (StableHlo.unary_bufs_sub ..) rfl (Numbered.cons main_v31 (StableHlo.unary_writes ..) rfl (StableHlo.unary_bufs_sub ..) rfl (Numbered.cons main_cst_4 (StableHlo.nullary_writes ..) rfl (StableHlo.nullary_bufs_sub ..) rfl (Numbered.cons main_v32 (StableHlo.unary_writes ..) rfl (StableHlo.unary_bufs_sub ..) rfl (Numbered.cons main_v33 (StableHlo.binary_writes ..) rfl (StableHlo.binary_bufs_sub ..) rfl (Numbered.cons main_cst_5 (StableHlo.nullary_writes ..) rfl (StableHlo.nullary_bufs_sub ..) rfl (Numbered.cons main_v34 (StableHlo.unary_writes ..) rfl (StableHlo.unary_bufs_sub ..) rfl (Numbered.cons main_v35 (StableHlo.binary_writes ..) rfl (StableHlo.binary_bufs_sub ..) rfl (Numbered.cons main_v36 (StableHlo.binary_writes ..) rfl (StableHlo.binary_bufs_sub ..) rfl (Numbered.cons main_v37 (StableHlo.unary_writes ..) rfl (StableHlo.unary_bufs_sub ..) rfl (Numbered.cons main_v38 (StableHlo.unary_writes ..) rfl (StableHlo.unary_bufs_sub ..) rfl (Numbered.cons main_v39 (StableHlo.binary_writes ..) rfl (StableHlo.binary_bufs_sub ..) rfl (Numbered.cons main_v40 (StableHlo.binary_writes ..) rfl (StableHlo.binary_bufs_sub ..) rfl (Numbered.cons main_v41 (StableHlo.unary_writes ..) rfl (StableHlo.unary_bufs_sub ..) rfl (Numbered.cons main_v42 (StableHlo.unary_writes ..) rfl (StableHlo.unary_bufs_sub ..) rfl (Numbered.cons main_v43 (StableHlo.binary_writes ..) rfl (StableHlo.binary_bufs_sub ..) rfl (Numbered.cons main_v44 (StableHlo.unary_writes ..) rfl (StableHlo.unary_bufs_sub ..) rfl (Numbered.cons main_v45 (StableHlo.unary_writes ..) rfl (StableHlo.unary_bufs_sub ..) rfl (Numbered.cons main_cst_6 (StableHlo.nullary_writes ..) rfl (StableHlo.nullary_bufs_sub ..) rfl (Numbered.cons main_v46 (StableHlo.unary_writes ..) rfl (StableHlo.unary_bufs_sub ..) rfl (Numbered.cons main_v47 (StableHlo.binary_writes ..) rfl (StableHlo.binary_bufs_sub ..) rfl (Numbered.cons main_cst_7 (StableHlo.nullary_writes ..) rfl (StableHlo.nullary_bufs_sub ..) rfl (Numbered.cons main_v48 (StableHlo.unary_writes ..) rfl (StableHlo.unary_bufs_sub ..) rfl (Numbered.cons main_v49 (StableHlo.binary_writes ..) rfl (StableHlo.binary_bufs_sub ..) rfl (Numbered.nil _))))))))))))))))))))))))))))))))))))))))))))))))))))))))))))
theorem numbered1 : Numbered 69 (ops1 : List (HloOp τ sig (Elt F))) :=
  Numbered.cons main_v50 (StableHlo.binary_writes ..) rfl (StableHlo.binary_bufs_sub ..) rfl (Numbered.cons main_v51 (StableHlo.unary_writes ..) rfl (StableHlo.unary_bufs_sub ..) rfl (Numbered.cons main_v52 (StableHlo.unary_writes ..) rfl (StableHlo.unary_bufs_sub ..) rfl (Numbered.cons main_v53 (StableHlo.binary_writes ..) rfl (StableHlo.binary_bufs_sub ..) rfl (Numbered.cons main_v54 (StableHlo.reshape_writes ..) rfl (StableHlo.reshape_bufs_sub ..) rfl (Numbered.cons main_v55 (StableHlo.binary_writes ..) rfl (StableHlo.binary_bufs_sub ..) rfl (Numbered.cons main_v56 (StableHlo.unary_writes ..) rfl (StableHlo.unary_bufs_sub ..) rfl (Numbered.cons main_v57 (StableHlo.unary_writes ..) rfl (StableHlo.unary_bufs_sub ..) rfl (Numbered.cons main_v58 (StableHlo.binary_writes ..) rfl (StableHlo.binary_bufs_sub ..) rfl (Numbered.cons main_v59 (StableHlo.unary_writes ..) rfl (StableHlo.unary_bufs_sub ..) rfl (Numbered.cons main_v60 (StableHlo.unary_writes ..) rfl (StableHlo.unary_bufs_sub ..) rfl (Numbered.cons main_cst_8 (StableHlo.nullary_writes ..) rfl (StableHlo.nullary_bufs_sub ..) rfl (Numbered.cons main_v61 (StableHlo.unary_writes ..) rfl (StableHlo.unary_bufs_sub ..) rfl (Numbered.cons main_v62 (StableHlo.binary_writes ..) rfl (StableHlo.binary_bufs_sub ..) rfl (Numbered.cons main_cst_9 (StableHlo.nullary_writes ..) rfl (StableHlo.nullary_bufs_sub ..) rfl (Numbered.cons main_v63 (StableHlo.unary_writes ..) rfl (StableHlo.unary_bufs_sub ..) rfl (Numbered.cons main_v64 (StableHlo.binary_writes ..) rfl (StableHlo.binary_bufs_sub ..) rfl (Numbered.cons main_v65 (StableHlo.binary_writes ..) rfl (StableHlo.binary_bufs_sub ..) rfl (Numbered.cons main_v66 (StableHlo.unary_writes ..) rfl (StableHlo.unary_bufs_sub ..) rfl (Numbered.cons main_v67 (StableHlo.unary_writes ..) rfl (StableHlo.unary_bufs_sub ..) rfl (Numbered.cons main_v68 (StableHlo.binary_writes ..) rfl (StableHlo.binary_bufs_sub ..) rfl (Numbered.cons main_v69 (StableHlo.binary_writes ..) rfl (StableHlo.binary_bufs_sub ..) rfl (Numbered.cons main_v70 (StableHlo.unary_writes ..) rfl (StableHlo.unary_bufs_sub ..) rfl (Numbered.cons main_v71 (StableHlo.unary_writes ..) rfl (StableHlo.unary_bufs_sub ..) rfl (Numbered.cons main_v72 (StableHlo.binary_writes ..) rfl (StableHlo.binary_bufs_sub ..) rfl (Numbered.cons main_v73 (StableHlo.unary_writes ..) rfl (StableHlo.unary_bufs_sub ..) rfl (Numbered.cons main_v74 (StableHlo.unary_writes ..) rfl (StableHlo.unary_bufs_sub ..) rfl (Numbered.cons main_cst_10 (StableHlo.nullary_writes ..) rfl (StableHlo.nullary_bufs_sub ..) rfl (Numbered.cons main_v75 (StableHlo.unary_writes ..) rfl (StableHlo.unary_bufs_sub ..) rfl (Numbered.cons main_v76 (StableHlo.binary_writes ..) rfl (StableHlo.binary_bufs_sub ..) rfl (Numbered.cons main_cst_11 (StableHlo.nullary_writes ..) rfl (StableHlo.nullary_bufs_sub ..) rfl (Numbered.cons main_v77 (StableHlo.unary_writes ..) rfl (StableHlo.unary_bufs_sub ..) rfl (Numbered.cons main_v78 (StableHlo.binary_writes ..) rfl (StableHlo.binary_bufs_sub ..) rfl (Numbered.cons main_v79 (StableHlo.binary_writes ..) rfl (StableHlo.binary_bufs_sub ..) rfl (Numbered.cons main_v80 (StableHlo.unary_writes ..) rfl (StableHlo.unary_bufs_sub ..) rfl (Numbered.cons main_v81 (StableHlo.unary_writes ..) rfl (StableHlo.unary_bufs_sub ..) rfl (Numbered.cons main_v82 (StableHlo.binary_writes ..) rfl (StableHlo.binary_bufs_sub ..) rfl (Numbered.cons main_v83 (StableHlo.reshape_writes ..) rfl (StableHlo.reshape_bufs_sub ..) rfl (Numbered.cons main_v84 (StableHlo.binary_writes ..) rfl (StableHlo.binary_bufs_sub ..) rfl (Numbered.cons main_v85 (StableHlo.unary_writes ..) rfl (StableHlo.unary_bufs_sub ..) rfl (Numbered.cons main_v86 (StableHlo.unary_writes ..) rfl (StableHlo.unary_bufs_sub ..) rfl (Numbered.cons main_v87 (StableHlo.binary_writes ..) rfl (StableHlo.binary_bufs_sub ..) rfl (Numbered.cons main_v88 (StableHlo.unary_writes ..) rfl (StableHlo.unary_bufs_sub ..) rfl (Numbered.cons main_v89 (StableHlo.unary_writes ..) rfl (StableHlo.unary_bufs_sub ..) rfl (Numbered.cons main_cst_12 (StableHlo.nullary_writes ..) rfl (StableHlo.nullary_bufs_sub ..) rfl (Numbered.cons main_v90 (StableHlo.unary_writes ..) rfl (StableHlo.unary_bufs_sub ..) rfl (Numbered.cons main_v91 (StableHlo.binary_writes ..) rfl (StableHlo.binary_bufs_sub ..) rfl (Numbered.cons main_cst_13 (StableHlo.nullary_writes ..) rfl (StableHlo.nullary_bufs_sub ..) rfl (Numbered.cons main_v92 (StableHlo.unary_writes ..) rfl (StableHlo.unary_bufs_sub ..) rfl (Numbered.cons main_v93 (StableHlo.binary_writes ..) rfl (StableHlo.binary_bufs_sub ..) rfl (Numbered.cons main_v94 (StableHlo.binary_writes ..) rfl (StableHlo.binary_bufs_sub ..) rfl (Numbered.cons main_v95 (StableHlo.unary_writes ..) rfl (StableHlo.unary_bufs_sub ..) rfl (Numbered.cons main_v96 (StableHlo.unary_writes ..) rfl (StableHlo.unary_bufs_sub ..) rfl (Numbered.cons main_v97 (StableHlo.binary_writes ..) rfl (StableHlo.binary_bufs_sub ..) rfl (Numbered.cons main_v98 (StableHlo.binary_writes ..) rfl (StableHlo.binary_bufs_sub ..) rfl (Numbered.cons main_v99 (StableHlo.unary_writes ..) rfl (StableHlo.unary_bufs_sub ..) rfl (Numbered.cons main_v100 (StableHlo.unary_writes ..) rfl (StableHlo.unary_bufs_sub ..) rfl (Numbered.cons main_v101 (StableHlo.binary_writes ..) rfl (StableHlo.binary_bufs_sub ..) rfl (Numbered.cons main_v102 (StableHlo.unary_writes ..) rfl (StableHlo.unary_bufs_sub ..) rfl (Numbered.cons main_v103 (StableHlo.unary_writes ..) rfl (StableHlo.unary_bufs_sub ..) rfl (Numbered.nil _))))))))))))))))))))))))))))))))))))))))))))))))))))))))))))
theorem numbered2 : Numbered 129 (ops2 : List (HloOp τ sig (Elt F))) :=
  Numbered.cons main_cst_14 (StableHlo.nullary_writes ..) rfl (StableHlo.nullary_bufs_sub ..) rfl (Numbered.cons main_v104 (StableHlo.unary_writes ..) rfl (StableHlo.unary_bufs_sub ..) rfl (Numbered.cons main_v105 (StableHlo.binary_writes ..) rfl (StableHlo.binary_bufs_sub ..) rfl (Numbered.cons main_cst_15 (StableHlo.nullary_writes ..) rfl (StableHlo.nullary_bufs_sub ..) rfl (Numbered.cons main_v106 (StableHlo.unary_writes ..) rfl (StableHlo.unary_bufs_sub ..) rfl (Numbered.cons main_v107 (StableHlo.binary_writes ..) rfl (StableHlo.binary_bufs_sub ..) rfl (Numbered.cons main_v108 (StableHlo.binary_writes ..) rfl (StableHlo.binary_bufs_sub ..) rfl (Numbered.cons main_v109 (StableHlo.unary_writes ..) rfl (StableHlo.unary_bufs_sub ..) rfl (Numbered.cons main_v110 (StableHlo.unary_writes ..) rfl (StableHlo.unary_bufs_sub ..) rfl (Numbered.cons main_v111 (StableHlo.binary_writes ..) rfl (StableHlo.binary_bufs_sub ..) rfl (Numbered.cons main_v112 (StableHlo.reshape_writes ..) rfl (StableHlo.reshape_bufs_sub ..) rfl (Numbered.cons main_v113 (StableHlo.binary_writes ..) rfl (StableHlo.binary_bufs_sub ..) rfl (Numbered.cons main_v114 (StableHlo.unary_writes ..) rfl (StableHlo.unary_bufs_sub ..) rfl (Numbered.cons main_v115 (StableHlo.unary_writes ..) rfl (StableHlo.unary_bufs_sub ..) rfl (Numbered.cons main_v116 (StableHlo.binary_writes ..) rfl (StableHlo.binary_bufs_sub ..) rfl (Numbered.cons main_v117 (StableHlo.unary_writes ..) rfl (StableHlo.unary_bufs_sub ..) rfl (Numbered.cons main_v118 (StableHlo.unary_writes ..) rfl (StableHlo.unary_bufs_sub ..) rfl (Numbered.cons main_cst_16 (StableHlo.nullary_writes ..) rfl (StableHlo.nullary_bufs_sub ..) rfl (Numbered.cons main_v119 (StableHlo.unary_writes ..) rfl (StableHlo.unary_bufs_sub ..) rfl (Numbered.cons main_v120 (StableHlo.binary_writes ..) rfl (StableHlo.binary_bufs_sub ..) rfl (Numbered.cons main_cst_17 (StableHlo.nullary_writes ..) rfl (StableHlo.nullary_bufs_sub ..) rfl (Numbered.cons main_v121 (StableHlo.unary_writes ..) rfl (StableHlo.unary_bufs_sub ..) rfl (Numbered.cons main_v122 (StableHlo.binary_writes ..) rfl (StableHlo.binary_bufs_sub ..) rfl (Numbered.cons main_v123 (StableHlo.binary_writes ..) rfl (StableHlo.binary_bufs_sub ..) rfl (Numbered.cons main_v124 (StableHlo.unary_writes ..) rfl (StableHlo.unary_bufs_sub ..) rfl (Numbered.cons main_v125 (StableHlo.unary_writes ..) rfl (StableHlo.unary_bufs_sub ..) rfl (Numbered.cons main_v126 (StableHlo.binary_writes ..) rfl (StableHlo.binary_bufs_sub ..) rfl (Numbered.cons main_v127 (StableHlo.binary_writes ..) rfl (StableHlo.binary_bufs_sub ..) rfl (Numbered.cons main_v128 (StableHlo.unary_writes ..) rfl (StableHlo.unary_bufs_sub ..) rfl (Numbered.cons main_v129 (StableHlo.unary_writes ..) rfl (StableHlo.unary_bufs_sub ..) rfl (Numbered.cons main_v130 (StableHlo.binary_writes ..) rfl (StableHlo.binary_bufs_sub ..) rfl (Numbered.cons main_v131 (StableHlo.unary_writes ..) rfl (StableHlo.unary_bufs_sub ..) rfl (Numbered.cons main_v132 (StableHlo.unary_writes ..) rfl (StableHlo.unary_bufs_sub ..) rfl (Numbered.cons main_cst_18 (StableHlo.nullary_writes ..) rfl (StableHlo.nullary_bufs_sub ..) rfl (Numbered.cons main_v133 (StableHlo.unary_writes ..) rfl (StableHlo.unary_bufs_sub ..) rfl (Numbered.cons main_v134 (StableHlo.binary_writes ..) rfl (StableHlo.binary_bufs_sub ..) rfl (Numbered.cons main_cst_19 (StableHlo.nullary_writes ..) rfl (StableHlo.nullary_bufs_sub ..) rfl (Numbered.cons main_v135 (StableHlo.unary_writes ..) rfl (StableHlo.unary_bufs_sub ..) rfl (Numbered.cons main_v136 (StableHlo.binary_writes ..) rfl (StableHlo.binary_bufs_sub ..) rfl (Numbered.cons main_v137 (StableHlo.binary_writes ..) rfl (StableHlo.binary_bufs_sub ..) rfl (Numbered.cons main_v138 (StableHlo.unary_writes ..) rfl (StableHlo.unary_bufs_sub ..) rfl (Numbered.cons main_v139 (StableHlo.unary_writes ..) rfl (StableHlo.unary_bufs_sub ..) rfl (Numbered.cons main_v140 (StableHlo.binary_writes ..) rfl (StableHlo.binary_bufs_sub ..) rfl (Numbered.cons main_v141 (StableHlo.reshape_writes ..) rfl (StableHlo.reshape_bufs_sub ..) rfl (Numbered.cons main_v142 (StableHlo.binary_writes ..) rfl (StableHlo.binary_bufs_sub ..) rfl (Numbered.cons main_v143 (StableHlo.unary_writes ..) rfl (StableHlo.unary_bufs_sub ..) rfl (Numbered.cons main_v144 (StableHlo.unary_writes ..) rfl (StableHlo.unary_bufs_sub ..) rfl (Numbered.cons main_v145 (StableHlo.binary_writes ..) rfl (StableHlo.binary_bufs_sub ..) rfl (Numbered.cons main_v146 (StableHlo.unary_writes ..) rfl (StableHlo.unary_bufs_sub ..) rfl (Numbered.cons main_v147 (StableHlo.unary_writes ..) rfl (StableHlo.unary_bufs_sub ..) rfl (Numbered.cons main_cst_20 (StableHlo.nullary_writes ..) rfl (StableHlo.nullary_bufs_sub ..) rfl (Numbered.cons main_v148 (StableHlo.unary_writes ..) rfl (StableHlo.unary_bufs_sub ..) rfl (Numbered.cons main_v149 (StableHlo.binary_writes ..) rfl (StableHlo.binary_bufs_sub ..) rfl (Numbered.cons main_cst_21 (StableHlo.nullary_writes ..) rfl (StableHlo.nullary_bufs_sub ..) rfl (Numbered.cons main_v150 (StableHlo.unary_writes ..) rfl (StableHlo.unary_bufs_sub ..) rfl (Numbered.cons main_v151 (StableHlo.binary_writes ..) rfl (StableHlo.binary_bufs_sub ..) rfl (Numbered.cons main_v152 (StableHlo.binary_writes ..) rfl (StableHlo.binary_bufs_sub ..) rfl (Numbered.cons main_v153 (StableHlo.unary_writes ..) rfl (StableHlo.unary_bufs_sub ..) rfl (Numbered.cons main_v154 (StableHlo.unary_writes ..) rfl (StableHlo.unary_bufs_sub ..) rfl (Numbered.cons main_v155 (StableHlo.binary_writes ..) rfl (StableHlo.binary_bufs_sub ..) rfl (Numbered.nil _))))))))))))))))))))))))))))))))))))))))))))))))))))))))))))
theorem numbered3 : Numbered 189 (ops3 : List (HloOp τ sig (Elt F))) :=
  Numbered.cons main_v156 (StableHlo.binary_writes ..) rfl (StableHlo.binary_bufs_sub ..) rfl (Numbered.cons main_v157 (StableHlo.unary_writes ..) rfl (StableHlo.unary_bufs_sub ..) rfl (Numbered.cons main_v158 (StableHlo.unary_writes ..) rfl (StableHlo.unary_bufs_sub ..) rfl (Numbered.cons main_v159 (StableHlo.binary_writes ..) rfl (StableHlo.binary_bufs_sub ..) rfl (Numbered.cons main_v160 (StableHlo.unary_writes ..) rfl (StableHlo.unary_bufs_sub ..) rfl (Numbered.cons main_v161 (StableHlo.unary_writes ..) rfl (StableHlo.unary_bufs_sub ..) rfl (Numbered.cons main_cst_22 (StableHlo.nullary_writes ..) rfl (StableHlo.nullary_bufs_sub ..) rfl (Numbered.cons main_v162 (StableHlo.unary_writes ..) rfl (StableHlo.unary_bufs_sub ..) rfl (Numbered.cons main_v163 (StableHlo.binary_writes ..) rfl (StableHlo.binary_bufs_sub ..) rfl (Numbered.cons main_cst_23 (StableHlo.nullary_writes ..) rfl (StableHlo.nullary_bufs_sub ..) rfl (Numbered.cons main_v164 (StableHlo.unary_writes ..) rfl (StableHlo.unary_bufs_sub ..) rfl (Numbered.cons main_v165 (StableHlo.binary_writes ..) rfl (StableHlo.binary_bufs_sub ..) rfl (Numbered.cons main_v166 (StableHlo.binary_writes ..) rfl (StableHlo.binary_bufs_sub ..) rfl (Numbered.cons main_v167 (StableHlo.unary_writes ..) rfl (StableHlo.unary_bufs_sub ..) rfl (Numbered.cons main_v168 (StableHlo.unary_writes ..) rfl (StableHlo.unary_bufs_sub ..) rfl (Numbered.cons main_v169 (StableHlo.binary_writes ..) rfl (StableHlo.binary_bufs_sub ..) rfl (Numbered.cons main_v170 (StableHlo.reshape_writes ..) rfl (StableHlo.reshape_bufs_sub ..) rfl (Numbered.cons main_v171 (StableHlo.binary_writes ..) rfl (StableHlo.binary_bufs_sub ..) rfl (Numbered.cons main_v172 (StableHlo.unary_writes ..) rfl (StableHlo.unary_bufs_sub ..) rfl (Numbered.cons main_v173 (StableHlo.unary_writes ..) rfl (StableHlo.unary_bufs_sub ..) rfl (Numbered.cons main_v174 (StableHlo.binary_writes ..) rfl (StableHlo.binary_bufs_sub ..) rfl (Numbered.cons main_v175 (StableHlo.unary_writes ..) rfl (StableHlo.unary_bufs_sub ..) rfl (Numbered.cons main_v176 (StableHlo.unary_writes ..) rfl (StableHlo.unary_bufs_sub ..) rfl (Numbered.cons main_cst_24 (StableHlo.nullary_writes ..) rfl (StableHlo.nullary_bufs_sub ..) rfl (Numbered.cons main_v177 (StableHlo.unary_writes ..) rfl (StableHlo.unary_bufs_sub ..) rfl (Numbered.cons main_v178 (StableHlo.binary_writes ..) rfl (StableHlo.binary_bufs_sub ..) rfl (Numbered.cons main_cst_25 (StableHlo.nullary_writes ..) rfl (StableHlo.nullary_bufs_sub ..) rfl (Numbered.cons main_v179 (StableHlo.unary_writes ..) rfl (StableHlo.unary_bufs_sub ..) rfl (Numbered.cons main_v180 (StableHlo.binary_writes ..) rfl (StableHlo.binary_bufs_sub ..) rfl (Numbered.cons main_v181 (StableHlo.binary_writes ..) rfl (StableHlo.binary_bufs_sub ..) rfl (Numbered.cons main_v182 (StableHlo.unary_writes ..) rfl (StableHlo.unary_bufs_sub ..) rfl (Numbered.cons main_v183 (StableHlo.unary_writes ..) rfl (StableHlo.unary_bufs_sub ..) rfl (Numbered.cons main_v184 (StableHlo.binary_writes ..) rfl (StableHlo.binary_bufs_sub ..) rfl (Numbered.cons main_v185 (StableHlo.binary_writes ..) rfl (StableHlo.binary_bufs_sub ..) rfl (Numbered.cons main_v186 (StableHlo.unary_writes ..) rfl (StableHlo.unary_bufs_sub ..) rfl (Numbered.cons main_v187 (StableHlo.unary_writes ..) rfl (StableHlo.unary_bufs_sub ..) rfl (Numbered.cons main_v188 (StableHlo.binary_writes ..) rfl (StableHlo.binary_bufs_sub ..) rfl (Numbered.cons main_v189 (StableHlo.unary_writes ..) rfl (StableHlo.unary_bufs_sub ..) rfl (Numbered.cons main_v190 (StableHlo.unary_writes ..) rfl (StableHlo.unary_bufs_sub ..) rfl (Numbered.cons main_cst_26 (StableHlo.nullary_writes ..) rfl (StableHlo.nullary_bufs_sub ..) rfl (Numbered.cons main_v191 (StableHlo.unary_writes ..) rfl (StableHlo.unary_bufs_sub ..) rfl (Numbered.cons main_v192 (StableHlo.binary_writes ..) rfl (StableHlo.binary_bufs_sub ..) rfl (Numbered.cons main_cst_27 (StableHlo.nullary_writes ..) rfl (StableHlo.nullary_bufs_sub ..) rfl (Numbered.cons main_v193 (StableHlo.unary_writes ..) rfl (StableHlo.unary_bufs_sub ..) rfl (Numbered.cons main_v194 (StableHlo.binary_writes ..) rfl (StableHlo.binary_bufs_sub ..) rfl (Numbered.cons main_v195 (StableHlo.binary_writes ..) rfl (StableHlo.binary_bufs_sub ..) rfl (Numbered.cons main_v196 (StableHlo.unary_writes ..) rfl (StableHlo.unary_bufs_sub ..) rfl (Numbered.cons main_v197 (StableHlo.unary_writes ..) rfl (StableHlo.unary_bufs_sub ..) rfl (Numbered.cons main_v198 (StableHlo.binary_writes ..) rfl (StableHlo.binary_bufs_sub ..) rfl (Numbered.cons main_v199 (StableHlo.reshape_writes ..) rfl (StableHlo.reshape_bufs_sub ..) rfl (Numbered.cons main_v200 (StableHlo.binary_writes ..) rfl (StableHlo.binary_bufs_sub ..) rfl (Numbered.cons main_v201 (StableHlo.unary_writes ..) rfl (StableHlo.unary_bufs_sub ..) rfl (Numbered.cons main_v202 (StableHlo.unary_writes ..) rfl (StableHlo.unary_bufs_sub ..) rfl (Numbered.cons main_v203 (StableHlo.binary_writes ..) rfl (StableHlo.binary_bufs_sub ..) rfl (Numbered.cons main_v204 (StableHlo.unary_writes ..) rfl (StableHlo.unary_bufs_sub ..) rfl (Numbered.cons main_v205 (StableHlo.unary_writes ..) rfl (StableHlo.unary_bufs_sub ..) rfl (Numbered.cons main_cst_28 (StableHlo.nullary_writes ..) rfl (StableHlo.nullary_bufs_sub ..) rfl (Numbered.cons main_v206 (StableHlo.unary_writes ..) rfl (StableHlo.unary_bufs_sub ..) rfl (Numbered.cons main_v207 (StableHlo.binary_writes ..) rfl (StableHlo.binary_bufs_sub ..) rfl (Numbered.cons main_cst_29 (StableHlo.nullary_writes ..) rfl (StableHlo.nullary_bufs_sub ..) rfl (Numbered.nil _))))))))))))))))))))))))))))))))))))))))))))))))))))))))))))
theorem numbered4 : Numbered 249 (ops4 : List (HloOp τ sig (Elt F))) :=
  Numbered.cons main_v208 (StableHlo.unary_writes ..) rfl (StableHlo.unary_bufs_sub ..) rfl (Numbered.cons main_v209 (StableHlo.binary_writes ..) rfl (StableHlo.binary_bufs_sub ..) rfl (Numbered.cons main_v210 (StableHlo.binary_writes ..) rfl (StableHlo.binary_bufs_sub ..) rfl (Numbered.cons main_v211 (StableHlo.unary_writes ..) rfl (StableHlo.unary_bufs_sub ..) rfl (Numbered.cons main_v212 (StableHlo.unary_writes ..) rfl (StableHlo.unary_bufs_sub ..) rfl (Numbered.cons main_v213 (StableHlo.binary_writes ..) rfl (StableHlo.binary_bufs_sub ..) rfl (Numbered.cons main_v214 (StableHlo.binary_writes ..) rfl (StableHlo.binary_bufs_sub ..) rfl (Numbered.cons main_v215 (StableHlo.unary_writes ..) rfl (StableHlo.unary_bufs_sub ..) rfl (Numbered.cons main_v216 (StableHlo.unary_writes ..) rfl (StableHlo.unary_bufs_sub ..) rfl (Numbered.cons main_v217 (StableHlo.binary_writes ..) rfl (StableHlo.binary_bufs_sub ..) rfl (Numbered.cons main_v218 (StableHlo.unary_writes ..) rfl (StableHlo.unary_bufs_sub ..) rfl (Numbered.cons main_v219 (StableHlo.unary_writes ..) rfl (StableHlo.unary_bufs_sub ..) rfl (Numbered.cons main_cst_30 (StableHlo.nullary_writes ..) rfl (StableHlo.nullary_bufs_sub ..) rfl (Numbered.cons main_v220 (StableHlo.unary_writes ..) rfl (StableHlo.unary_bufs_sub ..) rfl (Numbered.cons main_v221 (StableHlo.binary_writes ..) rfl (StableHlo.binary_bufs_sub ..) rfl (Numbered.cons main_cst_31 (StableHlo.nullary_writes ..) rfl (StableHlo.nullary_bufs_sub ..) rfl (Numbered.cons main_v222 (StableHlo.unary_writes ..) rfl (StableHlo.unary_bufs_sub ..) rfl (Numbered.cons main_v223 (StableHlo.binary_writes ..) rfl (StableHlo.binary_bufs_sub ..) rfl (Numbered.cons main_v224 (StableHlo.binary_writes ..) rfl (StableHlo.binary_bufs_sub ..) rfl (Numbered.cons main_v225 (StableHlo.unary_writes ..) rfl (StableHlo.unary_bufs_sub ..) rfl (Numbered.cons main_v226 (StableHlo.unary_writes ..) rfl (StableHlo.unary_bufs_sub ..) rfl (Numbered.cons main_v227 (StableHlo.binary_writes ..) rfl (StableHlo.binary_bufs_sub ..) rfl (Numbered.cons main_v228 (StableHlo.reshape_writes ..) rfl (StableHlo.reshape_bufs_sub ..) rfl (Numbered.cons main_v229 (StableHlo.binary_writes ..) rfl (StableHlo.binary_bufs_sub ..) rfl (Numbered.cons main_v230 (StableHlo.unary_writes ..) rfl (StableHlo.unary_bufs_sub ..) rfl (Numbered.cons main_v231 (StableHlo.unary_writes ..) rfl (StableHlo.unary_bufs_sub ..) rfl (Numbered.cons main_v232 (StableHlo.binary_writes ..) rfl (StableHlo.binary_bufs_sub ..) rfl (Numbered.cons main_v233 (StableHlo.unary_writes ..) rfl (StableHlo.unary_bufs_sub ..) rfl (Numbered.cons main_v234 (StableHlo.unary_writes ..) rfl (StableHlo.unary_bufs_sub ..) rfl (Numbered.cons main_cst_32 (StableHlo.nullary_writes ..) rfl (StableHlo.nullary_bufs_sub ..) rfl (Numbered.cons main_v235 (StableHlo.unary_writes ..) rfl (StableHlo.unary_bufs_sub ..) rfl (Numbered.cons main_v236 (StableHlo.binary_writes ..) rfl (StableHlo.binary_bufs_sub ..) rfl (Numbered.cons main_cst_33 (StableHlo.nullary_writes ..) rfl (StableHlo.nullary_bufs_sub ..) rfl (Numbered.cons main_v237 (StableHlo.unary_writes ..) rfl (StableHlo.unary_bufs_sub ..) rfl (Numbered.cons main_v238 (StableHlo.binary_writes ..) rfl (StableHlo.binary_bufs_sub ..) rfl (Numbered.cons main_v239 (StableHlo.binary_writes ..) rfl (StableHlo.binary_bufs_sub ..) rfl (Numbered.cons main_v240 (StableHlo.unary_writes ..) rfl (StableHlo.unary_bufs_sub ..) rfl (Numbered.cons main_v241 (StableHlo.unary_writes ..) rfl (StableHlo.unary_bufs_sub ..) rfl (Numbered.cons main_v242 (StableHlo.binary_writes ..) rfl (StableHlo.binary_bufs_sub ..) rfl (Numbered.cons main_v243 (StableHlo.binary_writes ..) rfl (StableHlo.binary_bufs_sub ..) rfl (Numbered.cons main_v244 (StableHlo.unary_writes ..) rfl (StableHlo.unary_bufs_sub ..) rfl (Numbered.cons main_v245 (StableHlo.unary_writes ..) rfl (StableHlo.unary_bufs_sub ..) rfl (Numbered.cons main_v246 (StableHlo.binary_writes ..) rfl (StableHlo.binary_bufs_sub ..) rfl (Numbered.cons main_v247 (StableHlo.unary_writes ..) rfl (StableHlo.unary_bufs_sub ..) rfl (Numbered.cons main_v248 (StableHlo.unary_writes ..) rfl (StableHlo.unary_bufs_sub ..) rfl (Numbered.cons main_cst_34 (StableHlo.nullary_writes ..) rfl (StableHlo.nullary_bufs_sub ..) rfl (Numbered.cons main_v249 (StableHlo.unary_writes ..) rfl (StableHlo.unary_bufs_sub ..) rfl (Numbered.cons main_v250 (StableHlo.binary_writes ..) rfl (StableHlo.binary_bufs_sub ..) rfl (Numbered.cons main_cst_35 (StableHlo.nullary_writes ..) rfl (StableHlo.nullary_bufs_sub ..) rfl (Numbered.cons main_v251 (StableHlo.unary_writes ..) rfl (StableHlo.unary_bufs_sub ..) rfl (Numbered.cons main_v252 (StableHlo.binary_writes ..) rfl (StableHlo.binary_bufs_sub ..) rfl (Numbered.cons main_v253 (StableHlo.binary_writes ..) rfl (StableHlo.binary_bufs_sub ..) rfl (Numbered.cons main_v254 (StableHlo.unary_writes ..) rfl (StableHlo.unary_bufs_sub ..) rfl (Numbered.cons main_v255 (StableHlo.unary_writes ..) rfl (StableHlo.unary_bufs_sub ..) rfl (Numbered.cons main_v256 (StableHlo.binary_writes ..) rfl (StableHlo.binary_bufs_sub ..) rfl (Numbered.cons main_v257 (StableHlo.reshape_writes ..) rfl (StableHlo.reshape_bufs_sub ..) rfl (Numbered.cons main_v258 (StableHlo.binary_writes ..) rfl (StableHlo.binary_bufs_sub ..) rfl (Numbered.cons main_v259 (StableHlo.unary_writes ..) rfl (StableHlo.unary_bufs_sub ..) rfl (Numbered.cons main_v260 (StableHlo.unary_writes ..) rfl (StableHlo.unary_bufs_sub ..) rfl (Numbered.cons main_v261 (StableHlo.binary_writes ..) rfl (StableHlo.binary_bufs_sub ..) rfl (Numbered.nil _))))))))))))))))))))))))))))))))))))))))))))))))))))))))))))
theorem numbered5 : Numbered 309 (ops5 : List (HloOp τ sig (Elt F))) :=
  Numbered.cons main_v262 (StableHlo.unary_writes ..) rfl (StableHlo.unary_bufs_sub ..) rfl (Numbered.cons main_v263 (StableHlo.unary_writes ..) rfl (StableHlo.unary_bufs_sub ..) rfl (Numbered.cons main_cst_36 (StableHlo.nullary_writes ..) rfl (StableHlo.nullary_bufs_sub ..) rfl (Numbered.cons main_v264 (StableHlo.unary_writes ..) rfl (StableHlo.unary_bufs_sub ..) rfl (Numbered.cons main_v265 (StableHlo.binary_writes ..) rfl (StableHlo.binary_bufs_sub ..) rfl (Numbered.cons main_cst_37 (StableHlo.nullary_writes ..) rfl (StableHlo.nullary_bufs_sub ..) rfl (Numbered.cons main_v266 (StableHlo.unary_writes ..) rfl (StableHlo.unary_bufs_sub ..) rfl (Numbered.cons main_v267 (StableHlo.binary_writes ..) rfl (StableHlo.binary_bufs_sub ..) rfl (Numbered.cons main_v268 (StableHlo.binary_writes ..) rfl (StableHlo.binary_bufs_sub ..) rfl (Numbered.cons main_v269 (StableHlo.unary_writes ..) rfl (StableHlo.unary_bufs_sub ..) rfl (Numbered.cons main_v270 (StableHlo.unary_writes ..) rfl (StableHlo.unary_bufs_sub ..) rfl (Numbered.cons main_v271 (StableHlo.binary_writes ..) rfl (StableHlo.binary_bufs_sub ..) rfl (Numbered.cons main_v272 (StableHlo.binary_writes ..) rfl (StableHlo.binary_bufs_sub ..) rfl (Numbered.cons main_v273 (StableHlo.unary_writes ..) rfl (StableHlo.unary_bufs_sub ..) rfl (Numbered.cons main_v274 (StableHlo.unary_writes ..) rfl (StableHlo.unary_bufs_sub ..) rfl (Numbered.cons main_v275 (StableHlo.binary_writes ..) rfl (StableHlo.binary_bufs_sub ..) rfl (Numbered.cons main_v276 (StableHlo.unary_writes ..) rfl (StableHlo.unary_bufs_sub ..) rfl (Numbered.cons main_v277 (StableHlo.unary_writes ..) rfl (StableHlo.unary_bufs_sub ..) rfl (Numbered.cons main_cst_38 (StableHlo.nullary_writes ..) rfl (StableHlo.nullary_bufs_sub ..) rfl (Numbered.cons main_v278 (StableHlo.unary_writes ..) rfl (StableHlo.unary_bufs_sub ..) rfl (Numbered.cons main_v279 (StableHlo.binary_writes ..) rfl (StableHlo.binary_bufs_sub ..) rfl (Numbered.cons main_cst_39 (StableHlo.nullary_writes ..) rfl (StableHlo.nullary_bufs_sub ..) rfl (Numbered.cons main_v280 (StableHlo.unary_writes ..) rfl (StableHlo.unary_bufs_sub ..) rfl (Numbered.cons main_v281 (StableHlo.binary_writes ..) rfl (StableHlo.binary_bufs_sub ..) rfl (Numbered.cons main_v282 (StableHlo.binary_writes ..) rfl (StableHlo.binary_bufs_sub ..) rfl (Numbered.cons main_v283 (StableHlo.unary_writes ..) rfl (StableHlo.unary_bufs_sub ..) rfl (Numbered.cons main_v284 (StableHlo.unary_writes ..) rfl (StableHlo.unary_bufs_sub ..) rfl (Numbered.cons main_v285 (StableHlo.binary_writes ..) rfl (StableHlo.binary_bufs_sub ..) rfl (Numbered.cons main_v286 (StableHlo.reshape_writes ..) rfl (StableHlo.reshape_bufs_sub ..) rfl (Numbered.cons main_v287 (StableHlo.binary_writes ..) rfl (StableHlo.binary_bufs_sub ..) rfl (Numbered.cons main_v288 (StableHlo.unary_writes ..) rfl (StableHlo.unary_bufs_sub ..) rfl (Numbered.cons main_v289 (StableHlo.unary_writes ..) rfl (StableHlo.unary_bufs_sub ..) rfl (Numbered.cons main_v290 (StableHlo.binary_writes ..) rfl (StableHlo.binary_bufs_sub ..) rfl (Numbered.cons main_v291 (StableHlo.unary_writes ..) rfl (StableHlo.unary_bufs_sub ..) rfl (Numbered.cons main_v292 (StableHlo.unary_writes ..) rfl (StableHlo.unary_bufs_sub ..) rfl (Numbered.cons main_cst_40 (StableHlo.nullary_writes ..) rfl (StableHlo.nullary_bufs_sub ..) rfl (Numbered.cons main_v293 (StableHlo.unary_writes ..) rfl (StableHlo.unary_bufs_sub ..) rfl (Numbered.cons main_v294 (StableHlo.binary_writes ..) rfl (StableHlo.binary_bufs_sub ..) rfl (Numbered.cons main_cst_41 (StableHlo.nullary_writes ..) rfl (StableHlo.nullary_bufs_sub ..) rfl (Numbered.cons main_v295 (StableHlo.unary_writes ..) rfl (StableHlo.unary_bufs_sub ..) rfl (Numbered.cons main_v296 (StableHlo.binary_writes ..) rfl (StableHlo.binary_bufs_sub ..) rfl (Numbered.cons main_v297 (StableHlo.binary_writes ..) rfl (StableHlo.binary_bufs_sub ..) rfl (Numbered.cons main_v298 (StableHlo.unary_writes ..) rfl (StableHlo.unary_bufs_sub ..) rfl (Numbered.cons main_v299 (StableHlo.unary_writes ..) rfl (StableHlo.unary_bufs_sub ..) rfl (Numbered.cons main_v300 (StableHlo.binary_writes ..) rfl (StableHlo.binary_bufs_sub ..) rfl (Numbered.cons main_v301 (StableHlo.binary_writes ..) rfl (StableHlo.binary_bufs_sub ..) rfl (Numbered.cons main_v302 (StableHlo.unary_writes ..) rfl (StableHlo.unary_bufs_sub ..) rfl (Numbered.cons main_v303 (StableHlo.unary_writes ..) rfl (StableHlo.unary_bufs_sub ..) rfl (Numbered.cons main_v304 (StableHlo.binary_writes ..) rfl (StableHlo.binary_bufs_sub ..) rfl (Numbered.cons main_v305 (StableHlo.unary_writes ..) rfl (StableHlo.unary_bufs_sub ..) rfl (Numbered.cons main_v306 (StableHlo.unary_writes ..) rfl (StableHlo.unary_bufs_sub ..) rfl (Numbered.cons main_cst_42 (StableHlo.nullary_writes ..) rfl (StableHlo.nullary_bufs_sub ..) rfl (Numbered.cons main_v307 (StableHlo.unary_writes ..) rfl (StableHlo.unary_bufs_sub ..) rfl (Numbered.cons main_v308 (StableHlo.binary_writes ..) rfl (StableHlo.binary_bufs_sub ..) rfl (Numbered.cons main_cst_43 (StableHlo.nullary_writes ..) rfl (StableHlo.nullary_bufs_sub ..) rfl (Numbered.cons main_v309 (StableHlo.unary_writes ..) rfl (StableHlo.unary_bufs_sub ..) rfl (Numbered.cons main_v310 (StableHlo.binary_writes ..) rfl (StableHlo.binary_bufs_sub ..) rfl (Numbered.cons main_v311 (StableHlo.binary_writes ..) rfl (StableHlo.binary_bufs_sub ..) rfl (Numbered.cons main_v312 (StableHlo.unary_writes ..) rfl (StableHlo.unary_bufs_sub ..) rfl (Numbered.cons main_v313 (StableHlo.unary_writes ..) rfl (StableHlo.unary_bufs_sub ..) rfl (Numbered.nil _))))))))))))))))))))))))))))))))))))))))))))))))))))))))))))
theorem numbered6 : Numbered 369 (ops6 : List (HloOp τ sig (Elt F))) :=
  Numbered.cons main_v314 (StableHlo.binary_writes ..) rfl (StableHlo.binary_bufs_sub ..) rfl (Numbered.cons main_v315 (StableHlo.reshape_writes ..) rfl (StableHlo.reshape_bufs_sub ..) rfl (Numbered.cons main_v316 (StableHlo.binary_writes ..) rfl (StableHlo.binary_bufs_sub ..) rfl (Numbered.cons main_v317 (StableHlo.unary_writes ..) rfl (StableHlo.unary_bufs_sub ..) rfl (Numbered.cons main_v318 (StableHlo.unary_writes ..) rfl (StableHlo.unary_bufs_sub ..) rfl (Numbered.cons main_v319 (StableHlo.binary_writes ..) rfl (StableHlo.binary_bufs_sub ..) rfl (Numbered.cons main_v320 (StableHlo.unary_writes ..) rfl (StableHlo.unary_bufs_sub ..) rfl (Numbered.cons main_v321 (StableHlo.unary_writes ..) rfl (StableHlo.unary_bufs_sub ..) rfl (Numbered.cons main_cst_44 (StableHlo.nullary_writes ..) rfl (StableHlo.nullary_bufs_sub ..) rfl (Numbered.cons main_v322 (StableHlo.unary_writes ..) rfl (StableHlo.unary_bufs_sub ..) rfl (Numbered.cons main_v323 (StableHlo.binary_writes ..) rfl (StableHlo.binary_bufs_sub ..) rfl (Numbered.cons main_cst_45 (StableHlo.nullary_writes ..) rfl (StableHlo.nullary_bufs_sub ..) rfl (Numbered.cons main_v324 (StableHlo.unary_writes ..) rfl (StableHlo.unary_bufs_sub ..) rfl (Numbered.cons main_v325 (StableHlo.binary_writes ..) rfl (StableHlo.binary_bufs_sub ..) rfl (Numbered.cons main_v326 (StableHlo.binary_writes ..) rfl (StableHlo.binary_bufs_sub ..) rfl (Numbered.cons main_v327 (StableHlo.unary_writes ..) rfl (StableHlo.unary_bufs_sub ..) rfl (Numbered.cons main_v328 (StableHlo.unary_writes ..) rfl (StableHlo.unary_bufs_sub ..) rfl (Numbered.cons main_v329 (StableHlo.binary_writes ..) rfl (StableHlo.binary_bufs_sub ..) rfl (Numbered.cons main_v330 (StableHlo.nary_writes ..) rfl (StableHlo.nary_bufs_sub ..) rfl (Numbered.cons main_c_46 (StableHlo.nullary_writes ..) rfl (StableHlo.nullary_bufs_sub ..) rfl (Numbered.cons main_v331 (StableHlo.unary_writes ..) rfl (StableHlo.unary_bufs_sub ..) rfl (Numbered.cons main_v332 (StableHlo.binary_writes ..) rfl (StableHlo.binary_bufs_sub ..) rfl (Numbered.cons main_v333 (StableHlo.ternary_writes ..) rfl (StableHlo.ternary_bufs_sub ..) rfl (Numbered.cons main_v334 (StableHlo.unary_writes ..) rfl (StableHlo.unary_bufs_sub ..) rfl (Numbered.cons main_v335 (StableHlo.binary_writes ..) rfl (StableHlo.binary_bufs_sub ..) rfl (Numbered.cons main_call0_cst (StableHlo.nullary_writes ..) rfl (StableHlo.nullary_bufs_sub ..) rfl (Numbered.cons main_call0_v0 (StableHlo.binary_writes ..) rfl (StableHlo.binary_bufs_sub ..) rfl (Numbered.cons main_call0_cst_0 (StableHlo.nullary_writes ..) rfl (StableHlo.nullary_bufs_sub ..) rfl (Numbered.cons main_call0_v1 (StableHlo.unary_writes ..) rfl (StableHlo.unary_bufs_sub ..) rfl (Numbered.cons main_call0_v2 (StableHlo.binary_writes ..) rfl (StableHlo.binary_bufs_sub ..) rfl (Numbered.cons main_call0_v3 (StableHlo.unary_writes ..) rfl (StableHlo.unary_bufs_sub ..) rfl (Numbered.cons main_call0_v4 (StableHlo.unary_writes ..) rfl (StableHlo.unary_bufs_sub ..) rfl (Numbered.cons main_call0_v5 (StableHlo.binary_writes ..) rfl (StableHlo.binary_bufs_sub ..) rfl (Numbered.cons main_call0_v6 (StableHlo.unary_writes ..) rfl (StableHlo.unary_bufs_sub ..) rfl (Numbered.cons main_call0_cst_1 (StableHlo.nullary_writes ..) rfl (StableHlo.nullary_bufs_sub ..) rfl (Numbered.cons main_call0_v7 (StableHlo.binary_writes ..) rfl (StableHlo.binary_bufs_sub ..) rfl (Numbered.cons main_call0_v8 (StableHlo.unary_writes ..) rfl (StableHlo.unary_bufs_sub ..) rfl (Numbered.cons main_call0_v9 (StableHlo.unary_writes ..) rfl (StableHlo.unary_bufs_sub ..) rfl (Numbered.cons main_call0_v10 (StableHlo.unary_writes ..) rfl (StableHlo.unary_bufs_sub ..) rfl (Numbered.cons main_v336 (StableHlo.binary_writes ..) rfl (StableHlo.binary_bufs_sub ..) rfl (Numbered.nil _))))))))))))))))))))))))))))))))))))))))
theorem numbered : Numbered 9 (ops : List (HloOp τ sig (Elt F))) := numbered0.append rfl (numbered1.append rfl (numbered2.append rfl (numbered3.append rfl (numbered4.append rfl (numbered5.append rfl (numbered6))))))

theorem eq_main_c (V : Valuation τ sig (Elt F)) : (after (ops : List (HloOp τ sig (Elt F))) V (Proc.devRef .tc main_c)) = ((fun i => lit0 (S4095.rowMajor i))) :=
  at_nullary numbered 0 rfl rfl V
theorem eq_main_c_0 (V : Valuation τ sig (Elt F)) : (after (ops : List (HloOp τ sig (Elt F))) V (Proc.devRef .tc main_c_0)) = ((constantI S4095 1 0#1)) :=
  at_nullary numbered 1 rfl rfl V
theorem eq_main_v0 (V : Valuation τ sig (Elt F)) : (after (ops : List (HloOp τ sig (Elt F))) V (Proc.devRef .tc main_v0)) = ((broadcastInDim S1x1024 ![1] bcast_S1024_S1x1024_1 : (⟨S1024, .f32⟩ : BufTy).Contents (Elt F) → (⟨S1x1024, .f32⟩ : BufTy).Contents (Elt F))) (after (ops : List (HloOp τ sig (Elt F))) V (Proc.devRef .tc main_arg0)) :=
  at_unary numbered 2 rfl (by decide) rfl V
theorem eq_main_v1 (V : Valuation τ sig (Elt F)) : (after (ops : List (HloOp τ sig (Elt F))) V (Proc.devRef .tc main_v1)) = (((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (ops : List (HloOp τ sig (Elt F))) V (Proc.devRef .tc main_v0)) (after (ops : List (HloOp τ sig (Elt F))) V (Proc.devRef .tc main_arg1)) :=
  at_binary numbered 3 rfl (by decide) (by decide) rfl V
theorem eq_main_v2 (V : Valuation τ sig (Elt F)) : (after (ops : List (HloOp τ sig (Elt F))) V (Proc.devRef .tc main_v2)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 4 rfl (by decide) rfl V
theorem eq_main_v3 (V : Valuation τ sig (Elt F)) : (after (ops : List (HloOp τ sig (Elt F))) V (Proc.devRef .tc main_v3)) = ((addf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v1)) (after (ops : List (HloOp τ sig (Elt F))) V (Proc.devRef .tc main_v2)) :=
  at_binary numbered 5 rfl (by decide) (by decide) rfl V
theorem eq_main_v4 (V : Valuation τ sig (Elt F)) : (after (ops : List (HloOp τ sig (Elt F))) V (Proc.devRef .tc main_v4)) = ((Host.negf : (⟨S1x2048, .f32⟩ : BufTy).Contents (Elt F) → (⟨S1x2048, .f32⟩ : BufTy).Contents (Elt F))) (after (ops : List (HloOp τ sig (Elt F))) V (Proc.devRef .tc main_v3)) :=
  at_unary numbered 6 rfl (by decide) rfl V
theorem eq_main_v5 (V : Valuation τ sig (Elt F)) : (after (ops : List (HloOp τ sig (Elt F))) V (Proc.devRef .tc main_v5)) = ((Host.exp : (⟨S1x2048, .f32⟩ : BufTy).Contents (Elt F) → (⟨S1x2048, .f32⟩ : BufTy).Contents (Elt F))) (after (ops : List (HloOp τ sig (Elt F))) V (Proc.devRef .tc main_v4)) :=
  at_unary numbered 7 rfl (by decide) rfl V
theorem eq_main_cst (V : Valuation τ sig (Elt F)) : (after (ops : List (HloOp τ sig (Elt F))) V (Proc.devRef .tc main_cst)) = ((constant S_ .f32 0x3F800000#32)) :=
  at_nullary numbered 8 rfl rfl V
theorem eq_main_v6 (V : Valuation τ sig (Elt F)) : (after (ops : List (HloOp τ sig (Elt F))) V (Proc.devRef .tc main_v6)) = ((broadcastInDim S1x2048 ![] bcast_S_S1x2048 : (⟨S_, .f32⟩ : BufTy).Contents (Elt F) → (⟨S1x2048, .f32⟩ : BufTy).Contents (Elt F))) (after (ops : List (HloOp τ sig (Elt F))) V (Proc.devRef .tc main_cst)) :=
  at_unary numbered 9 rfl (by decide) rfl V
theorem eq_main_v7 (V : Valuation τ sig (Elt F)) : (after (ops : List (HloOp τ sig (Elt F))) V (Proc.devRef .tc main_v7)) = ((addf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v6)) (after (ops : List (HloOp τ sig (Elt F))) V (Proc.devRef .tc main_v5)) :=
  at_binary numbered 10 rfl (by decide) (by decide) rfl V
theorem eq_main_cst_1 (V : Valuation τ sig (Elt F)) : (after (ops : List (HloOp τ sig (Elt F))) V (Proc.devRef .tc main_cst_1)) = ((constant S_ .f32 0x3F800000#32)) :=
  at_nullary numbered 11 rfl rfl V
theorem eq_main_v8 (V : Valuation τ sig (Elt F)) : (after (ops : List (HloOp τ sig (Elt F))) V (Proc.devRef .tc main_v8)) = ((broadcastInDim S1x2048 ![] bcast_S_S1x2048 : (⟨S_, .f32⟩ : BufTy).Contents (Elt F) → (⟨S1x2048, .f32⟩ : BufTy).Contents (Elt F))) (after (ops : List (HloOp τ sig (Elt F))) V (Proc.devRef .tc main_cst_1)) :=
  at_unary numbered 12 rfl (by decide) rfl V
theorem eq_main_v9 (V : Valuation τ sig (Elt F)) : (after (ops : List (HloOp τ sig (Elt F))) V (Proc.devRef .tc main_v9)) = ((Host.divf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v8)) (after (ops : List (HloOp τ sig (Elt F))) V (Proc.devRef .tc main_v7)) :=
  at_binary numbered 13 rfl (by decide) (by decide) rfl V
theorem eq_main_v10 (V : Valuation τ sig (Elt F)) : (after (ops : List (HloOp τ sig (Elt F))) V (Proc.devRef .tc main_v10)) = (((fun l r => Host.dotGeneral dot_S1x2048_S2048x32001_S1x32001_1_0_0_1_n_n none l r) : (⟨S1x2048, .f32⟩ : BufTy).Contents (Elt F) → (⟨S2048x32001, .f32⟩ : BufTy).Contents (Elt F) → (⟨S1x32001, .f32⟩ : BufTy).Contents (Elt F))) (after (ops : List (HloOp τ sig (Elt F))) V (Proc.devRef .tc main_v9)) (after (ops : List (HloOp τ sig (Elt F))) V (Proc.devRef .tc main_arg3)) :=
  at_binary numbered 14 rfl (by decide) (by decide) rfl V
theorem eq_main_v11 (V : Valuation τ sig (Elt F)) : (after (ops : List (HloOp τ sig (Elt F))) V (Proc.devRef .tc main_v11)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 15 rfl (by decide) rfl V
theorem eq_main_v12 (V : Valuation τ sig (Elt F)) : (after (ops : List (HloOp τ sig (Elt F))) V (Proc.devRef .tc main_v12)) = ((addf : (⟨S1x32001, .f32⟩ : BufTy).Contents (Elt F) → (⟨S1x32001, .f32⟩ : BufTy).Contents (Elt F) → (⟨S1x32001, .f32⟩ : BufTy).Contents (Elt F))) (after (ops : List (HloOp τ sig (Elt F))) V (Proc.devRef .tc main_v10)) (after (ops : List (HloOp τ sig (Elt F))) V (Proc.devRef .tc main_v11)) :=
  at_binary numbered 16 rfl (by decide) (by decide) rfl V
theorem eq_main_v13 (V : Valuation τ sig (Elt F)) : (after (ops : List (HloOp τ sig (Elt F))) V (Proc.devRef .tc main_v13)) = (((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (ops : List (HloOp τ sig (Elt F))) V (Proc.devRef .tc main_v0)) (after (ops : List (HloOp τ sig (Elt F))) V (Proc.devRef .tc main_arg5)) :=
  at_binary numbered 17 rfl (by decide) (by decide) rfl V
theorem eq_main_v14 (V : Valuation τ sig (Elt F)) : (after (ops : List (HloOp τ sig (Elt F))) V (Proc.devRef .tc main_v14)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 18 rfl (by decide) rfl V
theorem eq_main_v15 (V : Valuation τ sig (Elt F)) : (after (ops : List (HloOp τ sig (Elt F))) V (Proc.devRef .tc main_v15)) = ((addf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v13)) (after (ops : List (HloOp τ sig (Elt F))) V (Proc.devRef .tc main_v14)) :=
  at_binary numbered 19 rfl (by decide) (by decide) rfl V
theorem eq_main_v16 (V : Valuation τ sig (Elt F)) : (after (ops : List (HloOp τ sig (Elt F))) V (Proc.devRef .tc main_v16)) = ((Host.negf : (⟨S1x2048, .f32⟩ : BufTy).Contents (Elt F) → (⟨S1x2048, .f32⟩ : BufTy).Contents (Elt F))) (after (ops : List (HloOp τ sig (Elt F))) V (Proc.devRef .tc main_v15)) :=
  at_unary numbered 20 rfl (by decide) rfl V
theorem eq_main_v17 (V : Valuation τ sig (Elt F)) : (after (ops : List (HloOp τ sig (Elt F))) V (Proc.devRef .tc main_v17)) = ((Host.exp : (⟨S1x2048, .f32⟩ : BufTy).Contents (Elt F) → (⟨S1x2048, .f32⟩ : BufTy).Contents (Elt F))) (after (ops : List (HloOp τ sig (Elt F))) V (Proc.devRef .tc main_v16)) :=
  at_unary numbered 21 rfl (by decide) rfl V
theorem eq_main_cst_2 (V : Valuation τ sig (Elt F)) : (after (ops : List (HloOp τ sig (Elt F))) V (Proc.devRef .tc main_cst_2)) = ((constant S_ .f32 0x3F800000#32)) :=
  at_nullary numbered 22 rfl rfl V
theorem eq_main_v18 (V : Valuation τ sig (Elt F)) : (after (ops : List (HloOp τ sig (Elt F))) V (Proc.devRef .tc main_v18)) = ((broadcastInDim S1x2048 ![] bcast_S_S1x2048 : (⟨S_, .f32⟩ : BufTy).Contents (Elt F) → (⟨S1x2048, .f32⟩ : BufTy).Contents (Elt F))) (after (ops : List (HloOp τ sig (Elt F))) V (Proc.devRef .tc main_cst_2)) :=
  at_unary numbered 23 rfl (by decide) rfl V
theorem eq_main_v19 (V : Valuation τ sig (Elt F)) : (after (ops : List (HloOp τ sig (Elt F))) V (Proc.devRef .tc main_v19)) = ((addf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v18)) (after (ops : List (HloOp τ sig (Elt F))) V (Proc.devRef .tc main_v17)) :=
  at_binary numbered 24 rfl (by decide) (by decide) rfl V
theorem eq_main_cst_3 (V : Valuation τ sig (Elt F)) : (after (ops : List (HloOp τ sig (Elt F))) V (Proc.devRef .tc main_cst_3)) = ((constant S_ .f32 0x3F800000#32)) :=
  at_nullary numbered 25 rfl rfl V
theorem eq_main_v20 (V : Valuation τ sig (Elt F)) : (after (ops : List (HloOp τ sig (Elt F))) V (Proc.devRef .tc main_v20)) = ((broadcastInDim S1x2048 ![] bcast_S_S1x2048 : (⟨S_, .f32⟩ : BufTy).Contents (Elt F) → (⟨S1x2048, .f32⟩ : BufTy).Contents (Elt F))) (after (ops : List (HloOp τ sig (Elt F))) V (Proc.devRef .tc main_cst_3)) :=
  at_unary numbered 26 rfl (by decide) rfl V
theorem eq_main_v21 (V : Valuation τ sig (Elt F)) : (after (ops : List (HloOp τ sig (Elt F))) V (Proc.devRef .tc main_v21)) = ((Host.divf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v20)) (after (ops : List (HloOp τ sig (Elt F))) V (Proc.devRef .tc main_v19)) :=
  at_binary numbered 27 rfl (by decide) (by decide) rfl V
theorem eq_main_v22 (V : Valuation τ sig (Elt F)) : (after (ops : List (HloOp τ sig (Elt F))) V (Proc.devRef .tc main_v22)) = (((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F))) (after (ops : List (HloOp τ sig (Elt F))) V (Proc.devRef .tc main_v21)) (after (ops : List (HloOp τ sig (Elt F))) V (Proc.devRef .tc main_arg7)) :=
  at_binary numbered 28 rfl (by decide) (by decide) rfl V
theorem eq_main_v23 (V : Valuation τ sig (Elt F)) : (after (ops : List (HloOp τ sig (Elt F))) V (Proc.devRef .tc main_v23)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 29 rfl (by decide) rfl V
theorem eq_main_v24 (V : Valuation τ sig (Elt F)) : (after (ops : List (HloOp τ sig (Elt F))) V (Proc.devRef .tc main_v24)) = ((addf : (⟨S1x2048, .f32⟩ : BufTy).Contents (Elt F) → (⟨S1x2048, .f32⟩ : BufTy).Contents (Elt F) → (⟨S1x2048, .f32⟩ : BufTy).Contents (Elt F))) (after (ops : List (HloOp τ sig (Elt F))) V (Proc.devRef .tc main_v22)) (after (ops : List (HloOp τ sig (Elt F))) V (Proc.devRef .tc main_v23)) :=
  at_binary numbered 30 rfl (by decide) (by decide) rfl V
theorem eq_main_v25 (V : Valuation τ sig (Elt F)) : (after (ops : List (HloOp τ sig (Elt F))) V (Proc.devRef .tc main_v25)) = shapeCast S2x1024 (after (ops : List (HloOp τ sig (Elt F))) V (Proc.devRef .tc main_v24)) shapeCasts_S1x2048_S2x1024 :=
  (at_reshape numbered 31 rfl (by decide) rfl V).trans rfl
theorem eq_main_v26 (V : Valuation τ sig (Elt F)) : (after (ops : List (HloOp τ sig (Elt F))) V (Proc.devRef .tc main_v26)) = (((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (ops : List (HloOp τ sig (Elt F))) V (Proc.devRef .tc main_v25)) (after (ops : List (HloOp τ sig (Elt F))) V (Proc.devRef .tc main_arg1)) :=
  at_binary numbered 32 rfl (by decide) (by decide) rfl V
theorem eq_main_v27 (V : Valuation τ sig (Elt F)) : (after (ops : List (HloOp τ sig (Elt F))) V (Proc.devRef .tc main_v27)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 33 rfl (by decide) rfl V
theorem eq_main_v28 (V : Valuation τ sig (Elt F)) : (after (ops : List (HloOp τ sig (Elt F))) V (Proc.devRef .tc main_v28)) = ((broadcastInDim S2x2048 ![0, 1] bcast_S1x2048_S2x2048_0_1 : (⟨S1x2048, .f32⟩ : BufTy).Contents (Elt F) → (⟨S2x2048, .f32⟩ : BufTy).Contents (Elt F))) (after (ops : List (HloOp τ sig (Elt F))) V (Proc.devRef .tc main_v27)) :=
  at_unary numbered 34 rfl (by decide) rfl V
theorem eq_main_v29 (V : Valuation τ sig (Elt F)) : (after (ops : List (HloOp τ sig (Elt F))) V (Proc.devRef .tc main_v29)) = ((addf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v26)) (after (ops : List (HloOp τ sig (Elt F))) V (Proc.devRef .tc main_v28)) :=
  at_binary numbered 35 rfl (by decide) (by decide) rfl V
theorem eq_main_v30 (V : Valuation τ sig (Elt F)) : (after (ops : List (HloOp τ sig (Elt F))) V (Proc.devRef .tc main_v30)) = ((Host.negf : (⟨S2x2048, .f32⟩ : BufTy).Contents (Elt F) → (⟨S2x2048, .f32⟩ : BufTy).Contents (Elt F))) (after (ops : List (HloOp τ sig (Elt F))) V (Proc.devRef .tc main_v29)) :=
  at_unary numbered 36 rfl (by decide) rfl V
theorem eq_main_v31 (V : Valuation τ sig (Elt F)) : (after (ops : List (HloOp τ sig (Elt F))) V (Proc.devRef .tc main_v31)) = ((Host.exp : (⟨S2x2048, .f32⟩ : BufTy).Contents (Elt F) → (⟨S2x2048, .f32⟩ : BufTy).Contents (Elt F))) (after (ops : List (HloOp τ sig (Elt F))) V (Proc.devRef .tc main_v30)) :=
  at_unary numbered 37 rfl (by decide) rfl V
theorem eq_main_cst_4 (V : Valuation τ sig (Elt F)) : (after (ops : List (HloOp τ sig (Elt F))) V (Proc.devRef .tc main_cst_4)) = ((constant S_ .f32 0x3F800000#32)) :=
  at_nullary numbered 38 rfl rfl V
theorem eq_main_v32 (V : Valuation τ sig (Elt F)) : (after (ops : List (HloOp τ sig (Elt F))) V (Proc.devRef .tc main_v32)) = ((broadcastInDim S2x2048 ![] bcast_S_S2x2048 : (⟨S_, .f32⟩ : BufTy).Contents (Elt F) → (⟨S2x2048, .f32⟩ : BufTy).Contents (Elt F))) (after (ops : List (HloOp τ sig (Elt F))) V (Proc.devRef .tc main_cst_4)) :=
  at_unary numbered 39 rfl (by decide) rfl V
theorem eq_main_v33 (V : Valuation τ sig (Elt F)) : (after (ops : List (HloOp τ sig (Elt F))) V (Proc.devRef .tc main_v33)) = ((addf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v32)) (after (ops : List (HloOp τ sig (Elt F))) V (Proc.devRef .tc main_v31)) :=
  at_binary numbered 40 rfl (by decide) (by decide) rfl V
theorem eq_main_cst_5 (V : Valuation τ sig (Elt F)) : (after (ops : List (HloOp τ sig (Elt F))) V (Proc.devRef .tc main_cst_5)) = ((constant S_ .f32 0x3F800000#32)) :=
  at_nullary numbered 41 rfl rfl V
theorem eq_main_v34 (V : Valuation τ sig (Elt F)) : (after (ops : List (HloOp τ sig (Elt F))) V (Proc.devRef .tc main_v34)) = ((broadcastInDim S2x2048 ![] bcast_S_S2x2048 : (⟨S_, .f32⟩ : BufTy).Contents (Elt F) → (⟨S2x2048, .f32⟩ : BufTy).Contents (Elt F))) (after (ops : List (HloOp τ sig (Elt F))) V (Proc.devRef .tc main_cst_5)) :=
  at_unary numbered 42 rfl (by decide) rfl V
theorem eq_main_v35 (V : Valuation τ sig (Elt F)) : (after (ops : List (HloOp τ sig (Elt F))) V (Proc.devRef .tc main_v35)) = ((Host.divf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v34)) (after (ops : List (HloOp τ sig (Elt F))) V (Proc.devRef .tc main_v33)) :=
  at_binary numbered 43 rfl (by decide) (by decide) rfl V
theorem eq_main_v36 (V : Valuation τ sig (Elt F)) : (after (ops : List (HloOp τ sig (Elt F))) V (Proc.devRef .tc main_v36)) = (((fun l r => Host.dotGeneral dot_S2x2048_S2048x32001_S2x32001_1_0_0_1_n_n none l r) : (⟨S2x2048, .f32⟩ : BufTy).Contents (Elt F) → (⟨S2048x32001, .f32⟩ : BufTy).Contents (Elt F) → (⟨S2x32001, .f32⟩ : BufTy).Contents (Elt F))) (after (ops : List (HloOp τ sig (Elt F))) V (Proc.devRef .tc main_v35)) (after (ops : List (HloOp τ sig (Elt F))) V (Proc.devRef .tc main_arg3)) :=
  at_binary numbered 44 rfl (by decide) (by decide) rfl V
theorem eq_main_v37 (V : Valuation τ sig (Elt F)) : (after (ops : List (HloOp τ sig (Elt F))) V (Proc.devRef .tc main_v37)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 45 rfl (by decide) rfl V
theorem eq_main_v38 (V : Valuation τ sig (Elt F)) : (after (ops : List (HloOp τ sig (Elt F))) V (Proc.devRef .tc main_v38)) = ((broadcastInDim S2x32001 ![0, 1] bcast_S1x32001_S2x32001_0_1 : (⟨S1x32001, .f32⟩ : BufTy).Contents (Elt F) → (⟨S2x32001, .f32⟩ : BufTy).Contents (Elt F))) (after (ops : List (HloOp τ sig (Elt F))) V (Proc.devRef .tc main_v37)) :=
  at_unary numbered 46 rfl (by decide) rfl V
theorem eq_main_v39 (V : Valuation τ sig (Elt F)) : (after (ops : List (HloOp τ sig (Elt F))) V (Proc.devRef .tc main_v39)) = ((addf : (⟨S2x32001, .f32⟩ : BufTy).Contents (Elt F) → (⟨S2x32001, .f32⟩ : BufTy).Contents (Elt F) → (⟨S2x32001, .f32⟩ : BufTy).Contents (Elt F))) (after (ops : List (HloOp τ sig (Elt F))) V (Proc.devRef .tc main_v36)) (after (ops : List (HloOp τ sig (Elt F))) V (Proc.devRef .tc main_v38)) :=
  at_binary numbered 47 rfl (by decide) (by decide) rfl V
theorem eq_main_v40 (V : Valuation τ sig (Elt F)) : (after (ops : List (HloOp τ sig (Elt F))) V (Proc.devRef .tc main_v40)) = (((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (ops : List (HloOp τ sig (Elt F))) V (Proc.devRef .tc main_v25)) (after (ops : List (HloOp τ sig (Elt F))) V (Proc.devRef .tc main_arg5)) :=
  at_binary numbered 48 rfl (by decide) (by decide) rfl V
theorem eq_main_v41 (V : Valuation τ sig (Elt F)) : (after (ops : List (HloOp τ sig (Elt F))) V (Proc.devRef .tc main_v41)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 49 rfl (by decide) rfl V
theorem eq_main_v42 (V : Valuation τ sig (Elt F)) : (after (ops : List (HloOp τ sig (Elt F))) V (Proc.devRef .tc main_v42)) = ((broadcastInDim S2x2048 ![0, 1] bcast_S1x2048_S2x2048_0_1 : (⟨S1x2048, .f32⟩ : BufTy).Contents (Elt F) → (⟨S2x2048, .f32⟩ : BufTy).Contents (Elt F))) (after (ops : List (HloOp τ sig (Elt F))) V (Proc.devRef .tc main_v41)) :=
  at_unary numbered 50 rfl (by decide) rfl V
theorem eq_main_v43 (V : Valuation τ sig (Elt F)) : (after (ops : List (HloOp τ sig (Elt F))) V (Proc.devRef .tc main_v43)) = ((addf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v40)) (after (ops : List (HloOp τ sig (Elt F))) V (Proc.devRef .tc main_v42)) :=
  at_binary numbered 51 rfl (by decide) (by decide) rfl V
theorem eq_main_v44 (V : Valuation τ sig (Elt F)) : (after (ops : List (HloOp τ sig (Elt F))) V (Proc.devRef .tc main_v44)) = ((Host.negf : (⟨S2x2048, .f32⟩ : BufTy).Contents (Elt F) → (⟨S2x2048, .f32⟩ : BufTy).Contents (Elt F))) (after (ops : List (HloOp τ sig (Elt F))) V (Proc.devRef .tc main_v43)) :=
  at_unary numbered 52 rfl (by decide) rfl V
theorem eq_main_v45 (V : Valuation τ sig (Elt F)) : (after (ops : List (HloOp τ sig (Elt F))) V (Proc.devRef .tc main_v45)) = ((Host.exp : (⟨S2x2048, .f32⟩ : BufTy).Contents (Elt F) → (⟨S2x2048, .f32⟩ : BufTy).Contents (Elt F))) (after (ops : List (HloOp τ sig (Elt F))) V (Proc.devRef .tc main_v44)) :=
  at_unary numbered 53 rfl (by decide) rfl V
theorem eq_main_cst_6 (V : Valuation τ sig (Elt F)) : (after (ops : List (HloOp τ sig (Elt F))) V (Proc.devRef .tc main_cst_6)) = ((constant S_ .f32 0x3F800000#32)) :=
  at_nullary numbered 54 rfl rfl V
theorem eq_main_v46 (V : Valuation τ sig (Elt F)) : (after (ops : List (HloOp τ sig (Elt F))) V (Proc.devRef .tc main_v46)) = ((broadcastInDim S2x2048 ![] bcast_S_S2x2048 : (⟨S_, .f32⟩ : BufTy).Contents (Elt F) → (⟨S2x2048, .f32⟩ : BufTy).Contents (Elt F))) (after (ops : List (HloOp τ sig (Elt F))) V (Proc.devRef .tc main_cst_6)) :=
  at_unary numbered 55 rfl (by decide) rfl V
theorem eq_main_v47 (V : Valuation τ sig (Elt F)) : (after (ops : List (HloOp τ sig (Elt F))) V (Proc.devRef .tc main_v47)) = ((addf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v46)) (after (ops : List (HloOp τ sig (Elt F))) V (Proc.devRef .tc main_v45)) :=
  at_binary numbered 56 rfl (by decide) (by decide) rfl V
theorem eq_main_cst_7 (V : Valuation τ sig (Elt F)) : (after (ops : List (HloOp τ sig (Elt F))) V (Proc.devRef .tc main_cst_7)) = ((constant S_ .f32 0x3F800000#32)) :=
  at_nullary numbered 57 rfl rfl V
theorem eq_main_v48 (V : Valuation τ sig (Elt F)) : (after (ops : List (HloOp τ sig (Elt F))) V (Proc.devRef .tc main_v48)) = ((broadcastInDim S2x2048 ![] bcast_S_S2x2048 : (⟨S_, .f32⟩ : BufTy).Contents (Elt F) → (⟨S2x2048, .f32⟩ : BufTy).Contents (Elt F))) (after (ops : List (HloOp τ sig (Elt F))) V (Proc.devRef .tc main_cst_7)) :=
  at_unary numbered 58 rfl (by decide) rfl V
theorem eq_main_v49 (V : Valuation τ sig (Elt F)) : (after (ops : List (HloOp τ sig (Elt F))) V (Proc.devRef .tc main_v49)) = ((Host.divf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v48)) (after (ops : List (HloOp τ sig (Elt F))) V (Proc.devRef .tc main_v47)) :=
  at_binary numbered 59 rfl (by decide) (by decide) rfl V
theorem eq_main_v50 (V : Valuation τ sig (Elt F)) : (after (ops : List (HloOp τ sig (Elt F))) V (Proc.devRef .tc main_v50)) = (((fun l r => Host.dotGeneral dot_S2x2048_S2048x2048_S2x2048_1_0_0_1_n_n none l r) : (⟨S2x2048, .f32⟩ : BufTy).Contents (Elt F) → (⟨S2048x2048, .f32⟩ : BufTy).Contents (Elt F) → (⟨S2x2048, .f32⟩ : BufTy).Contents (Elt F))) (after (ops : List (HloOp τ sig (Elt F))) V (Proc.devRef .tc main_v49)) (after (ops : List (HloOp τ sig (Elt F))) V (Proc.devRef .tc main_arg7)) :=
  at_binary numbered 60 rfl (by decide) (by decide) rfl V
theorem eq_main_v51 (V : Valuation τ sig (Elt F)) : (after (ops : List (HloOp τ sig (Elt F))) V (Proc.devRef .tc main_v51)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 61 rfl (by decide) rfl V
theorem eq_main_v52 (V : Valuation τ sig (Elt F)) : (after (ops : List (HloOp τ sig (Elt F))) V (Proc.devRef .tc main_v52)) = ((broadcastInDim S2x2048 ![0, 1] bcast_S1x2048_S2x2048_0_1 : (⟨S1x2048, .f32⟩ : BufTy).Contents (Elt F) → (⟨S2x2048, .f32⟩ : BufTy).Contents (Elt F))) (after (ops : List (HloOp τ sig (Elt F))) V (Proc.devRef .tc main_v51)) :=
  at_unary numbered 62 rfl (by decide) rfl V
theorem eq_main_v53 (V : Valuation τ sig (Elt F)) : (after (ops : List (HloOp τ sig (Elt F))) V (Proc.devRef .tc main_v53)) = ((addf : (⟨S2x2048, .f32⟩ : BufTy).Contents (Elt F) → (⟨S2x2048, .f32⟩ : BufTy).Contents (Elt F) → (⟨S2x2048, .f32⟩ : BufTy).Contents (Elt F))) (after (ops : List (HloOp τ sig (Elt F))) V (Proc.devRef .tc main_v50)) (after (ops : List (HloOp τ sig (Elt F))) V (Proc.devRef .tc main_v52)) :=
  at_binary numbered 63 rfl (by decide) (by decide) rfl V
theorem eq_main_v54 (V : Valuation τ sig (Elt F)) : (after (ops : List (HloOp τ sig (Elt F))) V (Proc.devRef .tc main_v54)) = shapeCast S4x1024 (after (ops : List (HloOp τ sig (Elt F))) V (Proc.devRef .tc main_v53)) shapeCasts_S2x2048_S4x1024 :=
  (at_reshape numbered 64 rfl (by decide) rfl V).trans rfl
theorem eq_main_v55 (V : Valuation τ sig (Elt F)) : (after (ops : List (HloOp τ sig (Elt F))) V (Proc.devRef .tc main_v55)) = (((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (ops : List (HloOp τ sig (Elt F))) V (Proc.devRef .tc main_v54)) (after (ops : List (HloOp τ sig (Elt F))) V (Proc.devRef .tc main_arg1)) :=
  at_binary numbered 65 rfl (by decide) (by decide) rfl V
theorem eq_main_v56 (V : Valuation τ sig (Elt F)) : (after (ops : List (HloOp τ sig (Elt F))) V (Proc.devRef .tc main_v56)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 66 rfl (by decide) rfl V
theorem eq_main_v57 (V : Valuation τ sig (Elt F)) : (after (ops : List (HloOp τ sig (Elt F))) V (Proc.devRef .tc main_v57)) = ((broadcastInDim S4x2048 ![0, 1] bcast_S1x2048_S4x2048_0_1 : (⟨S1x2048, .f32⟩ : BufTy).Contents (Elt F) → (⟨S4x2048, .f32⟩ : BufTy).Contents (Elt F))) (after (ops : List (HloOp τ sig (Elt F))) V (Proc.devRef .tc main_v56)) :=
  at_unary numbered 67 rfl (by decide) rfl V
theorem eq_main_v58 (V : Valuation τ sig (Elt F)) : (after (ops : List (HloOp τ sig (Elt F))) V (Proc.devRef .tc main_v58)) = ((addf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v55)) (after (ops : List (HloOp τ sig (Elt F))) V (Proc.devRef .tc main_v57)) :=
  at_binary numbered 68 rfl (by decide) (by decide) rfl V
theorem eq_main_v59 (V : Valuation τ sig (Elt F)) : (after (ops : List (HloOp τ sig (Elt F))) V (Proc.devRef .tc main_v59)) = ((Host.negf : (⟨S4x2048, .f32⟩ : BufTy).Contents (Elt F) → (⟨S4x2048, .f32⟩ : BufTy).Contents (Elt F))) (after (ops : List (HloOp τ sig (Elt F))) V (Proc.devRef .tc main_v58)) :=
  at_unary numbered 69 rfl (by decide) rfl V
theorem eq_main_v60 (V : Valuation τ sig (Elt F)) : (after (ops : List (HloOp τ sig (Elt F))) V (Proc.devRef .tc main_v60)) = ((Host.exp : (⟨S4x2048, .f32⟩ : BufTy).Contents (Elt F) → (⟨S4x2048, .f32⟩ : BufTy).Contents (Elt F))) (after (ops : List (HloOp τ sig (Elt F))) V (Proc.devRef .tc main_v59)) :=
  at_unary numbered 70 rfl (by decide) rfl V
theorem eq_main_cst_8 (V : Valuation τ sig (Elt F)) : (after (ops : List (HloOp τ sig (Elt F))) V (Proc.devRef .tc main_cst_8)) = ((constant S_ .f32 0x3F800000#32)) :=
  at_nullary numbered 71 rfl rfl V
theorem eq_main_v61 (V : Valuation τ sig (Elt F)) : (after (ops : List (HloOp τ sig (Elt F))) V (Proc.devRef .tc main_v61)) = ((broadcastInDim S4x2048 ![] bcast_S_S4x2048 : (⟨S_, .f32⟩ : BufTy).Contents (Elt F) → (⟨S4x2048, .f32⟩ : BufTy).Contents (Elt F))) (after (ops : List (HloOp τ sig (Elt F))) V (Proc.devRef .tc main_cst_8)) :=
  at_unary numbered 72 rfl (by decide) rfl V
theorem eq_main_v62 (V : Valuation τ sig (Elt F)) : (after (ops : List (HloOp τ sig (Elt F))) V (Proc.devRef .tc main_v62)) = ((addf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v61)) (after (ops : List (HloOp τ sig (Elt F))) V (Proc.devRef .tc main_v60)) :=
  at_binary numbered 73 rfl (by decide) (by decide) rfl V
theorem eq_main_cst_9 (V : Valuation τ sig (Elt F)) : (after (ops : List (HloOp τ sig (Elt F))) V (Proc.devRef .tc main_cst_9)) = ((constant S_ .f32 0x3F800000#32)) :=
  at_nullary numbered 74 rfl rfl V
theorem eq_main_v63 (V : Valuation τ sig (Elt F)) : (after (ops : List (HloOp τ sig (Elt F))) V (Proc.devRef .tc main_v63)) = ((broadcastInDim S4x2048 ![] bcast_S_S4x2048 : (⟨S_, .f32⟩ : BufTy).Contents (Elt F) → (⟨S4x2048, .f32⟩ : BufTy).Contents (Elt F))) (after (ops : List (HloOp τ sig (Elt F))) V (Proc.devRef .tc main_cst_9)) :=
  at_unary numbered 75 rfl (by decide) rfl V
theorem eq_main_v64 (V : Valuation τ sig (Elt F)) : (after (ops : List (HloOp τ sig (Elt F))) V (Proc.devRef .tc main_v64)) = ((Host.divf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v63)) (after (ops : List (HloOp τ sig (Elt F))) V (Proc.devRef .tc main_v62)) :=
  at_binary numbered 76 rfl (by decide) (by decide) rfl V
theorem eq_main_v65 (V : Valuation τ sig (Elt F)) : (after (ops : List (HloOp τ sig (Elt F))) V (Proc.devRef .tc main_v65)) = (((fun l r => Host.dotGeneral dot_S4x2048_S2048x32001_S4x32001_1_0_0_1_n_n none l r) : (⟨S4x2048, .f32⟩ : BufTy).Contents (Elt F) → (⟨S2048x32001, .f32⟩ : BufTy).Contents (Elt F) → (⟨S4x32001, .f32⟩ : BufTy).Contents (Elt F))) (after (ops : List (HloOp τ sig (Elt F))) V (Proc.devRef .tc main_v64)) (after (ops : List (HloOp τ sig (Elt F))) V (Proc.devRef .tc main_arg3)) :=
  at_binary numbered 77 rfl (by decide) (by decide) rfl V
theorem eq_main_v66 (V : Valuation τ sig (Elt F)) : (after (ops : List (HloOp τ sig (Elt F))) V (Proc.devRef .tc main_v66)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 78 rfl (by decide) rfl V
theorem eq_main_v67 (V : Valuation τ sig (Elt F)) : (after (ops : List (HloOp τ sig (Elt F))) V (Proc.devRef .tc main_v67)) = ((broadcastInDim S4x32001 ![0, 1] bcast_S1x32001_S4x32001_0_1 : (⟨S1x32001, .f32⟩ : BufTy).Contents (Elt F) → (⟨S4x32001, .f32⟩ : BufTy).Contents (Elt F))) (after (ops : List (HloOp τ sig (Elt F))) V (Proc.devRef .tc main_v66)) :=
  at_unary numbered 79 rfl (by decide) rfl V
theorem eq_main_v68 (V : Valuation τ sig (Elt F)) : (after (ops : List (HloOp τ sig (Elt F))) V (Proc.devRef .tc main_v68)) = ((addf : (⟨S4x32001, .f32⟩ : BufTy).Contents (Elt F) → (⟨S4x32001, .f32⟩ : BufTy).Contents (Elt F) → (⟨S4x32001, .f32⟩ : BufTy).Contents (Elt F))) (after (ops : List (HloOp τ sig (Elt F))) V (Proc.devRef .tc main_v65)) (after (ops : List (HloOp τ sig (Elt F))) V (Proc.devRef .tc main_v67)) :=
  at_binary numbered 80 rfl (by decide) (by decide) rfl V
theorem eq_main_v69 (V : Valuation τ sig (Elt F)) : (after (ops : List (HloOp τ sig (Elt F))) V (Proc.devRef .tc main_v69)) = (((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (ops : List (HloOp τ sig (Elt F))) V (Proc.devRef .tc main_v54)) (after (ops : List (HloOp τ sig (Elt F))) V (Proc.devRef .tc main_arg5)) :=
  at_binary numbered 81 rfl (by decide) (by decide) rfl V
theorem eq_main_v70 (V : Valuation τ sig (Elt F)) : (after (ops : List (HloOp τ sig (Elt F))) V (Proc.devRef .tc main_v70)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 82 rfl (by decide) rfl V
theorem eq_main_v71 (V : Valuation τ sig (Elt F)) : (after (ops : List (HloOp τ sig (Elt F))) V (Proc.devRef .tc main_v71)) = ((broadcastInDim S4x2048 ![0, 1] bcast_S1x2048_S4x2048_0_1 : (⟨S1x2048, .f32⟩ : BufTy).Contents (Elt F) → (⟨S4x2048, .f32⟩ : BufTy).Contents (Elt F))) (after (ops : List (HloOp τ sig (Elt F))) V (Proc.devRef .tc main_v70)) :=
  at_unary numbered 83 rfl (by decide) rfl V
theorem eq_main_v72 (V : Valuation τ sig (Elt F)) : (after (ops : List (HloOp τ sig (Elt F))) V (Proc.devRef .tc main_v72)) = ((addf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v69)) (after (ops : List (HloOp τ sig (Elt F))) V (Proc.devRef .tc main_v71)) :=
  at_binary numbered 84 rfl (by decide) (by decide) rfl V
theorem eq_main_v73 (V : Valuation τ sig (Elt F)) : (after (ops : List (HloOp τ sig (Elt F))) V (Proc.devRef .tc main_v73)) = ((Host.negf : (⟨S4x2048, .f32⟩ : BufTy).Contents (Elt F) → (⟨S4x2048, .f32⟩ : BufTy).Contents (Elt F))) (after (ops : List (HloOp τ sig (Elt F))) V (Proc.devRef .tc main_v72)) :=
  at_unary numbered 85 rfl (by decide) rfl V
theorem eq_main_v74 (V : Valuation τ sig (Elt F)) : (after (ops : List (HloOp τ sig (Elt F))) V (Proc.devRef .tc main_v74)) = ((Host.exp : (⟨S4x2048, .f32⟩ : BufTy).Contents (Elt F) → (⟨S4x2048, .f32⟩ : BufTy).Contents (Elt F))) (after (ops : List (HloOp τ sig (Elt F))) V (Proc.devRef .tc main_v73)) :=
  at_unary numbered 86 rfl (by decide) rfl V
theorem eq_main_cst_10 (V : Valuation τ sig (Elt F)) : (after (ops : List (HloOp τ sig (Elt F))) V (Proc.devRef .tc main_cst_10)) = ((constant S_ .f32 0x3F800000#32)) :=
  at_nullary numbered 87 rfl rfl V
theorem eq_main_v75 (V : Valuation τ sig (Elt F)) : (after (ops : List (HloOp τ sig (Elt F))) V (Proc.devRef .tc main_v75)) = ((broadcastInDim S4x2048 ![] bcast_S_S4x2048 : (⟨S_, .f32⟩ : BufTy).Contents (Elt F) → (⟨S4x2048, .f32⟩ : BufTy).Contents (Elt F))) (after (ops : List (HloOp τ sig (Elt F))) V (Proc.devRef .tc main_cst_10)) :=
  at_unary numbered 88 rfl (by decide) rfl V
theorem eq_main_v76 (V : Valuation τ sig (Elt F)) : (after (ops : List (HloOp τ sig (Elt F))) V (Proc.devRef .tc main_v76)) = ((addf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v75)) (after (ops : List (HloOp τ sig (Elt F))) V (Proc.devRef .tc main_v74)) :=
  at_binary numbered 89 rfl (by decide) (by decide) rfl V
theorem eq_main_cst_11 (V : Valuation τ sig (Elt F)) : (after (ops : List (HloOp τ sig (Elt F))) V (Proc.devRef .tc main_cst_11)) = ((constant S_ .f32 0x3F800000#32)) :=
  at_nullary numbered 90 rfl rfl V
theorem eq_main_v77 (V : Valuation τ sig (Elt F)) : (after (ops : List (HloOp τ sig (Elt F))) V (Proc.devRef .tc main_v77)) = ((broadcastInDim S4x2048 ![] bcast_S_S4x2048 : (⟨S_, .f32⟩ : BufTy).Contents (Elt F) → (⟨S4x2048, .f32⟩ : BufTy).Contents (Elt F))) (after (ops : List (HloOp τ sig (Elt F))) V (Proc.devRef .tc main_cst_11)) :=
  at_unary numbered 91 rfl (by decide) rfl V
theorem eq_main_v78 (V : Valuation τ sig (Elt F)) : (after (ops : List (HloOp τ sig (Elt F))) V (Proc.devRef .tc main_v78)) = ((Host.divf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v77)) (after (ops : List (HloOp τ sig (Elt F))) V (Proc.devRef .tc main_v76)) :=
  at_binary numbered 92 rfl (by decide) (by decide) rfl V
theorem eq_main_v79 (V : Valuation τ sig (Elt F)) : (after (ops : List (HloOp τ sig (Elt F))) V (Proc.devRef .tc main_v79)) = (((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F))) (after (ops : List (HloOp τ sig (Elt F))) V (Proc.devRef .tc main_v78)) (after (ops : List (HloOp τ sig (Elt F))) V (Proc.devRef .tc main_arg7)) :=
  at_binary numbered 93 rfl (by decide) (by decide) rfl V
theorem eq_main_v80 (V : Valuation τ sig (Elt F)) : (after (ops : List (HloOp τ sig (Elt F))) V (Proc.devRef .tc main_v80)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 94 rfl (by decide) rfl V
theorem eq_main_v81 (V : Valuation τ sig (Elt F)) : (after (ops : List (HloOp τ sig (Elt F))) V (Proc.devRef .tc main_v81)) = ((broadcastInDim S4x2048 ![0, 1] bcast_S1x2048_S4x2048_0_1 : (⟨S1x2048, .f32⟩ : BufTy).Contents (Elt F) → (⟨S4x2048, .f32⟩ : BufTy).Contents (Elt F))) (after (ops : List (HloOp τ sig (Elt F))) V (Proc.devRef .tc main_v80)) :=
  at_unary numbered 95 rfl (by decide) rfl V
theorem eq_main_v82 (V : Valuation τ sig (Elt F)) : (after (ops : List (HloOp τ sig (Elt F))) V (Proc.devRef .tc main_v82)) = ((addf : (⟨S4x2048, .f32⟩ : BufTy).Contents (Elt F) → (⟨S4x2048, .f32⟩ : BufTy).Contents (Elt F) → (⟨S4x2048, .f32⟩ : BufTy).Contents (Elt F))) (after (ops : List (HloOp τ sig (Elt F))) V (Proc.devRef .tc main_v79)) (after (ops : List (HloOp τ sig (Elt F))) V (Proc.devRef .tc main_v81)) :=
  at_binary numbered 96 rfl (by decide) (by decide) rfl V
theorem eq_main_v83 (V : Valuation τ sig (Elt F)) : (after (ops : List (HloOp τ sig (Elt F))) V (Proc.devRef .tc main_v83)) = shapeCast S8x1024 (after (ops : List (HloOp τ sig (Elt F))) V (Proc.devRef .tc main_v82)) shapeCasts_S4x2048_S8x1024 :=
  (at_reshape numbered 97 rfl (by decide) rfl V).trans rfl
theorem eq_main_v84 (V : Valuation τ sig (Elt F)) : (after (ops : List (HloOp τ sig (Elt F))) V (Proc.devRef .tc main_v84)) = (((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (ops : List (HloOp τ sig (Elt F))) V (Proc.devRef .tc main_v83)) (after (ops : List (HloOp τ sig (Elt F))) V (Proc.devRef .tc main_arg1)) :=
  at_binary numbered 98 rfl (by decide) (by decide) rfl V
theorem eq_main_v85 (V : Valuation τ sig (Elt F)) : (after (ops : List (HloOp τ sig (Elt F))) V (Proc.devRef .tc main_v85)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 99 rfl (by decide) rfl V
theorem eq_main_v86 (V : Valuation τ sig (Elt F)) : (after (ops : List (HloOp τ sig (Elt F))) V (Proc.devRef .tc main_v86)) = ((broadcastInDim S8x2048 ![0, 1] bcast_S1x2048_S8x2048_0_1 : (⟨S1x2048, .f32⟩ : BufTy).Contents (Elt F) → (⟨S8x2048, .f32⟩ : BufTy).Contents (Elt F))) (after (ops : List (HloOp τ sig (Elt F))) V (Proc.devRef .tc main_v85)) :=
  at_unary numbered 100 rfl (by decide) rfl V
theorem eq_main_v87 (V : Valuation τ sig (Elt F)) : (after (ops : List (HloOp τ sig (Elt F))) V (Proc.devRef .tc main_v87)) = ((addf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v84)) (after (ops : List (HloOp τ sig (Elt F))) V (Proc.devRef .tc main_v86)) :=
  at_binary numbered 101 rfl (by decide) (by decide) rfl V
theorem eq_main_v88 (V : Valuation τ sig (Elt F)) : (after (ops : List (HloOp τ sig (Elt F))) V (Proc.devRef .tc main_v88)) = ((Host.negf : (⟨S8x2048, .f32⟩ : BufTy).Contents (Elt F) → (⟨S8x2048, .f32⟩ : BufTy).Contents (Elt F))) (after (ops : List (HloOp τ sig (Elt F))) V (Proc.devRef .tc main_v87)) :=
  at_unary numbered 102 rfl (by decide) rfl V
theorem eq_main_v89 (V : Valuation τ sig (Elt F)) : (after (ops : List (HloOp τ sig (Elt F))) V (Proc.devRef .tc main_v89)) = ((Host.exp : (⟨S8x2048, .f32⟩ : BufTy).Contents (Elt F) → (⟨S8x2048, .f32⟩ : BufTy).Contents (Elt F))) (after (ops : List (HloOp τ sig (Elt F))) V (Proc.devRef .tc main_v88)) :=
  at_unary numbered 103 rfl (by decide) rfl V
theorem eq_main_cst_12 (V : Valuation τ sig (Elt F)) : (after (ops : List (HloOp τ sig (Elt F))) V (Proc.devRef .tc main_cst_12)) = ((constant S_ .f32 0x3F800000#32)) :=
  at_nullary numbered 104 rfl rfl V
theorem eq_main_v90 (V : Valuation τ sig (Elt F)) : (after (ops : List (HloOp τ sig (Elt F))) V (Proc.devRef .tc main_v90)) = ((broadcastInDim S8x2048 ![] bcast_S_S8x2048 : (⟨S_, .f32⟩ : BufTy).Contents (Elt F) → (⟨S8x2048, .f32⟩ : BufTy).Contents (Elt F))) (after (ops : List (HloOp τ sig (Elt F))) V (Proc.devRef .tc main_cst_12)) :=
  at_unary numbered 105 rfl (by decide) rfl V
theorem eq_main_v91 (V : Valuation τ sig (Elt F)) : (after (ops : List (HloOp τ sig (Elt F))) V (Proc.devRef .tc main_v91)) = ((addf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v90)) (after (ops : List (HloOp τ sig (Elt F))) V (Proc.devRef .tc main_v89)) :=
  at_binary numbered 106 rfl (by decide) (by decide) rfl V
theorem eq_main_cst_13 (V : Valuation τ sig (Elt F)) : (after (ops : List (HloOp τ sig (Elt F))) V (Proc.devRef .tc main_cst_13)) = ((constant S_ .f32 0x3F800000#32)) :=
  at_nullary numbered 107 rfl rfl V
theorem eq_main_v92 (V : Valuation τ sig (Elt F)) : (after (ops : List (HloOp τ sig (Elt F))) V (Proc.devRef .tc main_v92)) = ((broadcastInDim S8x2048 ![] bcast_S_S8x2048 : (⟨S_, .f32⟩ : BufTy).Contents (Elt F) → (⟨S8x2048, .f32⟩ : BufTy).Contents (Elt F))) (after (ops : List (HloOp τ sig (Elt F))) V (Proc.devRef .tc main_cst_13)) :=
  at_unary numbered 108 rfl (by decide) rfl V
theorem eq_main_v93 (V : Valuation τ sig (Elt F)) : (after (ops : List (HloOp τ sig (Elt F))) V (Proc.devRef .tc main_v93)) = ((Host.divf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v92)) (after (ops : List (HloOp τ sig (Elt F))) V (Proc.devRef .tc main_v91)) :=
  at_binary numbered 109 rfl (by decide) (by decide) rfl V
theorem eq_main_v94 (V : Valuation τ sig (Elt F)) : (after (ops : List (HloOp τ sig (Elt F))) V (Proc.devRef .tc main_v94)) = (((fun l r => Host.dotGeneral dot_S8x2048_S2048x32001_S8x32001_1_0_0_1_n_n none l r) : (⟨S8x2048, .f32⟩ : BufTy).Contents (Elt F) → (⟨S2048x32001, .f32⟩ : BufTy).Contents (Elt F) → (⟨S8x32001, .f32⟩ : BufTy).Contents (Elt F))) (after (ops : List (HloOp τ sig (Elt F))) V (Proc.devRef .tc main_v93)) (after (ops : List (HloOp τ sig (Elt F))) V (Proc.devRef .tc main_arg3)) :=
  at_binary numbered 110 rfl (by decide) (by decide) rfl V
theorem eq_main_v95 (V : Valuation τ sig (Elt F)) : (after (ops : List (HloOp τ sig (Elt F))) V (Proc.devRef .tc main_v95)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 111 rfl (by decide) rfl V
theorem eq_main_v96 (V : Valuation τ sig (Elt F)) : (after (ops : List (HloOp τ sig (Elt F))) V (Proc.devRef .tc main_v96)) = ((broadcastInDim S8x32001 ![0, 1] bcast_S1x32001_S8x32001_0_1 : (⟨S1x32001, .f32⟩ : BufTy).Contents (Elt F) → (⟨S8x32001, .f32⟩ : BufTy).Contents (Elt F))) (after (ops : List (HloOp τ sig (Elt F))) V (Proc.devRef .tc main_v95)) :=
  at_unary numbered 112 rfl (by decide) rfl V
theorem eq_main_v97 (V : Valuation τ sig (Elt F)) : (after (ops : List (HloOp τ sig (Elt F))) V (Proc.devRef .tc main_v97)) = ((addf : (⟨S8x32001, .f32⟩ : BufTy).Contents (Elt F) → (⟨S8x32001, .f32⟩ : BufTy).Contents (Elt F) → (⟨S8x32001, .f32⟩ : BufTy).Contents (Elt F))) (after (ops : List (HloOp τ sig (Elt F))) V (Proc.devRef .tc main_v94)) (after (ops : List (HloOp τ sig (Elt F))) V (Proc.devRef .tc main_v96)) :=
  at_binary numbered 113 rfl (by decide) (by decide) rfl V
theorem eq_main_v98 (V : Valuation τ sig (Elt F)) : (after (ops : List (HloOp τ sig (Elt F))) V (Proc.devRef .tc main_v98)) = (((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (ops : List (HloOp τ sig (Elt F))) V (Proc.devRef .tc main_v83)) (after (ops : List (HloOp τ sig (Elt F))) V (Proc.devRef .tc main_arg5)) :=
  at_binary numbered 114 rfl (by decide) (by decide) rfl V
theorem eq_main_v99 (V : Valuation τ sig (Elt F)) : (after (ops : List (HloOp τ sig (Elt F))) V (Proc.devRef .tc main_v99)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 115 rfl (by decide) rfl V
theorem eq_main_v100 (V : Valuation τ sig (Elt F)) : (after (ops : List (HloOp τ sig (Elt F))) V (Proc.devRef .tc main_v100)) = ((broadcastInDim S8x2048 ![0, 1] bcast_S1x2048_S8x2048_0_1 : (⟨S1x2048, .f32⟩ : BufTy).Contents (Elt F) → (⟨S8x2048, .f32⟩ : BufTy).Contents (Elt F))) (after (ops : List (HloOp τ sig (Elt F))) V (Proc.devRef .tc main_v99)) :=
  at_unary numbered 116 rfl (by decide) rfl V
theorem eq_main_v101 (V : Valuation τ sig (Elt F)) : (after (ops : List (HloOp τ sig (Elt F))) V (Proc.devRef .tc main_v101)) = ((addf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v98)) (after (ops : List (HloOp τ sig (Elt F))) V (Proc.devRef .tc main_v100)) :=
  at_binary numbered 117 rfl (by decide) (by decide) rfl V
theorem eq_main_v102 (V : Valuation τ sig (Elt F)) : (after (ops : List (HloOp τ sig (Elt F))) V (Proc.devRef .tc main_v102)) = ((Host.negf : (⟨S8x2048, .f32⟩ : BufTy).Contents (Elt F) → (⟨S8x2048, .f32⟩ : BufTy).Contents (Elt F))) (after (ops : List (HloOp τ sig (Elt F))) V (Proc.devRef .tc main_v101)) :=
  at_unary numbered 118 rfl (by decide) rfl V
theorem eq_main_v103 (V : Valuation τ sig (Elt F)) : (after (ops : List (HloOp τ sig (Elt F))) V (Proc.devRef .tc main_v103)) = ((Host.exp : (⟨S8x2048, .f32⟩ : BufTy).Contents (Elt F) → (⟨S8x2048, .f32⟩ : BufTy).Contents (Elt F))) (after (ops : List (HloOp τ sig (Elt F))) V (Proc.devRef .tc main_v102)) :=
  at_unary numbered 119 rfl (by decide) rfl V
theorem eq_main_cst_14 (V : Valuation τ sig (Elt F)) : (after (ops : List (HloOp τ sig (Elt F))) V (Proc.devRef .tc main_cst_14)) = ((constant S_ .f32 0x3F800000#32)) :=
  at_nullary numbered 120 rfl rfl V
theorem eq_main_v104 (V : Valuation τ sig (Elt F)) : (after (ops : List (HloOp τ sig (Elt F))) V (Proc.devRef .tc main_v104)) = ((broadcastInDim S8x2048 ![] bcast_S_S8x2048 : (⟨S_, .f32⟩ : BufTy).Contents (Elt F) → (⟨S8x2048, .f32⟩ : BufTy).Contents (Elt F))) (after (ops : List (HloOp τ sig (Elt F))) V (Proc.devRef .tc main_cst_14)) :=
  at_unary numbered 121 rfl (by decide) rfl V
theorem eq_main_v105 (V : Valuation τ sig (Elt F)) : (after (ops : List (HloOp τ sig (Elt F))) V (Proc.devRef .tc main_v105)) = ((addf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v104)) (after (ops : List (HloOp τ sig (Elt F))) V (Proc.devRef .tc main_v103)) :=
  at_binary numbered 122 rfl (by decide) (by decide) rfl V
theorem eq_main_cst_15 (V : Valuation τ sig (Elt F)) : (after (ops : List (HloOp τ sig (Elt F))) V (Proc.devRef .tc main_cst_15)) = ((constant S_ .f32 0x3F800000#32)) :=
  at_nullary numbered 123 rfl rfl V
theorem eq_main_v106 (V : Valuation τ sig (Elt F)) : (after (ops : List (HloOp τ sig (Elt F))) V (Proc.devRef .tc main_v106)) = ((broadcastInDim S8x2048 ![] bcast_S_S8x2048 : (⟨S_, .f32⟩ : BufTy).Contents (Elt F) → (⟨S8x2048, .f32⟩ : BufTy).Contents (Elt F))) (after (ops : List (HloOp τ sig (Elt F))) V (Proc.devRef .tc main_cst_15)) :=
  at_unary numbered 124 rfl (by decide) rfl V
theorem eq_main_v107 (V : Valuation τ sig (Elt F)) : (after (ops : List (HloOp τ sig (Elt F))) V (Proc.devRef .tc main_v107)) = ((Host.divf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v106)) (after (ops : List (HloOp τ sig (Elt F))) V (Proc.devRef .tc main_v105)) :=
  at_binary numbered 125 rfl (by decide) (by decide) rfl V
theorem eq_main_v108 (V : Valuation τ sig (Elt F)) : (after (ops : List (HloOp τ sig (Elt F))) V (Proc.devRef .tc main_v108)) = (((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F))) (after (ops : List (HloOp τ sig (Elt F))) V (Proc.devRef .tc main_v107)) (after (ops : List (HloOp τ sig (Elt F))) V (Proc.devRef .tc main_arg7)) :=
  at_binary numbered 126 rfl (by decide) (by decide) rfl V
theorem eq_main_v109 (V : Valuation τ sig (Elt F)) : (after (ops : List (HloOp τ sig (Elt F))) V (Proc.devRef .tc main_v109)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 127 rfl (by decide) rfl V
theorem eq_main_v110 (V : Valuation τ sig (Elt F)) : (after (ops : List (HloOp τ sig (Elt F))) V (Proc.devRef .tc main_v110)) = ((broadcastInDim S8x2048 ![0, 1] bcast_S1x2048_S8x2048_0_1 : (⟨S1x2048, .f32⟩ : BufTy).Contents (Elt F) → (⟨S8x2048, .f32⟩ : BufTy).Contents (Elt F))) (after (ops : List (HloOp τ sig (Elt F))) V (Proc.devRef .tc main_v109)) :=
  at_unary numbered 128 rfl (by decide) rfl V
theorem eq_main_v111 (V : Valuation τ sig (Elt F)) : (after (ops : List (HloOp τ sig (Elt F))) V (Proc.devRef .tc main_v111)) = ((addf : (⟨S8x2048, .f32⟩ : BufTy).Contents (Elt F) → (⟨S8x2048, .f32⟩ : BufTy).Contents (Elt F) → (⟨S8x2048, .f32⟩ : BufTy).Contents (Elt F))) (after (ops : List (HloOp τ sig (Elt F))) V (Proc.devRef .tc main_v108)) (after (ops : List (HloOp τ sig (Elt F))) V (Proc.devRef .tc main_v110)) :=
  at_binary numbered 129 rfl (by decide) (by decide) rfl V
theorem eq_main_v112 (V : Valuation τ sig (Elt F)) : (after (ops : List (HloOp τ sig (Elt F))) V (Proc.devRef .tc main_v112)) = shapeCast S16x1024 (after (ops : List (HloOp τ sig (Elt F))) V (Proc.devRef .tc main_v111)) shapeCasts_S8x2048_S16x1024 :=
  (at_reshape numbered 130 rfl (by decide) rfl V).trans rfl
theorem eq_main_v113 (V : Valuation τ sig (Elt F)) : (after (ops : List (HloOp τ sig (Elt F))) V (Proc.devRef .tc main_v113)) = (((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (ops : List (HloOp τ sig (Elt F))) V (Proc.devRef .tc main_v112)) (after (ops : List (HloOp τ sig (Elt F))) V (Proc.devRef .tc main_arg1)) :=
  at_binary numbered 131 rfl (by decide) (by decide) rfl V
theorem eq_main_v114 (V : Valuation τ sig (Elt F)) : (after (ops : List (HloOp τ sig (Elt F))) V (Proc.devRef .tc main_v114)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 132 rfl (by decide) rfl V
theorem eq_main_v115 (V : Valuation τ sig (Elt F)) : (after (ops : List (HloOp τ sig (Elt F))) V (Proc.devRef .tc main_v115)) = ((broadcastInDim S16x2048 ![0, 1] bcast_S1x2048_S16x2048_0_1 : (⟨S1x2048, .f32⟩ : BufTy).Contents (Elt F) → (⟨S16x2048, .f32⟩ : BufTy).Contents (Elt F))) (after (ops : List (HloOp τ sig (Elt F))) V (Proc.devRef .tc main_v114)) :=
  at_unary numbered 133 rfl (by decide) rfl V
theorem eq_main_v116 (V : Valuation τ sig (Elt F)) : (after (ops : List (HloOp τ sig (Elt F))) V (Proc.devRef .tc main_v116)) = ((addf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v113)) (after (ops : List (HloOp τ sig (Elt F))) V (Proc.devRef .tc main_v115)) :=
  at_binary numbered 134 rfl (by decide) (by decide) rfl V
theorem eq_main_v117 (V : Valuation τ sig (Elt F)) : (after (ops : List (HloOp τ sig (Elt F))) V (Proc.devRef .tc main_v117)) = ((Host.negf : (⟨S16x2048, .f32⟩ : BufTy).Contents (Elt F) → (⟨S16x2048, .f32⟩ : BufTy).Contents (Elt F))) (after (ops : List (HloOp τ sig (Elt F))) V (Proc.devRef .tc main_v116)) :=
  at_unary numbered 135 rfl (by decide) rfl V
theorem eq_main_v118 (V : Valuation τ sig (Elt F)) : (after (ops : List (HloOp τ sig (Elt F))) V (Proc.devRef .tc main_v118)) = ((Host.exp : (⟨S16x2048, .f32⟩ : BufTy).Contents (Elt F) → (⟨S16x2048, .f32⟩ : BufTy).Contents (Elt F))) (after (ops : List (HloOp τ sig (Elt F))) V (Proc.devRef .tc main_v117)) :=
  at_unary numbered 136 rfl (by decide) rfl V
theorem eq_main_cst_16 (V : Valuation τ sig (Elt F)) : (after (ops : List (HloOp τ sig (Elt F))) V (Proc.devRef .tc main_cst_16)) = ((constant S_ .f32 0x3F800000#32)) :=
  at_nullary numbered 137 rfl rfl V
theorem eq_main_v119 (V : Valuation τ sig (Elt F)) : (after (ops : List (HloOp τ sig (Elt F))) V (Proc.devRef .tc main_v119)) = ((broadcastInDim S16x2048 ![] bcast_S_S16x2048 : (⟨S_, .f32⟩ : BufTy).Contents (Elt F) → (⟨S16x2048, .f32⟩ : BufTy).Contents (Elt F))) (after (ops : List (HloOp τ sig (Elt F))) V (Proc.devRef .tc main_cst_16)) :=
  at_unary numbered 138 rfl (by decide) rfl V
theorem eq_main_v120 (V : Valuation τ sig (Elt F)) : (after (ops : List (HloOp τ sig (Elt F))) V (Proc.devRef .tc main_v120)) = ((addf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v119)) (after (ops : List (HloOp τ sig (Elt F))) V (Proc.devRef .tc main_v118)) :=
  at_binary numbered 139 rfl (by decide) (by decide) rfl V
theorem eq_main_cst_17 (V : Valuation τ sig (Elt F)) : (after (ops : List (HloOp τ sig (Elt F))) V (Proc.devRef .tc main_cst_17)) = ((constant S_ .f32 0x3F800000#32)) :=
  at_nullary numbered 140 rfl rfl V
theorem eq_main_v121 (V : Valuation τ sig (Elt F)) : (after (ops : List (HloOp τ sig (Elt F))) V (Proc.devRef .tc main_v121)) = ((broadcastInDim S16x2048 ![] bcast_S_S16x2048 : (⟨S_, .f32⟩ : BufTy).Contents (Elt F) → (⟨S16x2048, .f32⟩ : BufTy).Contents (Elt F))) (after (ops : List (HloOp τ sig (Elt F))) V (Proc.devRef .tc main_cst_17)) :=
  at_unary numbered 141 rfl (by decide) rfl V
theorem eq_main_v122 (V : Valuation τ sig (Elt F)) : (after (ops : List (HloOp τ sig (Elt F))) V (Proc.devRef .tc main_v122)) = ((Host.divf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v121)) (after (ops : List (HloOp τ sig (Elt F))) V (Proc.devRef .tc main_v120)) :=
  at_binary numbered 142 rfl (by decide) (by decide) rfl V
theorem eq_main_v123 (V : Valuation τ sig (Elt F)) : (after (ops : List (HloOp τ sig (Elt F))) V (Proc.devRef .tc main_v123)) = (((fun l r => Host.dotGeneral dot_S16x2048_S2048x32001_S16x32001_1_0_0_1_n_n none l r) : (⟨S16x2048, .f32⟩ : BufTy).Contents (Elt F) → (⟨S2048x32001, .f32⟩ : BufTy).Contents (Elt F) → (⟨S16x32001, .f32⟩ : BufTy).Contents (Elt F))) (after (ops : List (HloOp τ sig (Elt F))) V (Proc.devRef .tc main_v122)) (after (ops : List (HloOp τ sig (Elt F))) V (Proc.devRef .tc main_arg3)) :=
  at_binary numbered 143 rfl (by decide) (by decide) rfl V
theorem eq_main_v124 (V : Valuation τ sig (Elt F)) : (after (ops : List (HloOp τ sig (Elt F))) V (Proc.devRef .tc main_v124)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 144 rfl (by decide) rfl V
theorem eq_main_v125 (V : Valuation τ sig (Elt F)) : (after (ops : List (HloOp τ sig (Elt F))) V (Proc.devRef .tc main_v125)) = ((broadcastInDim S16x32001 ![0, 1] bcast_S1x32001_S16x32001_0_1 : (⟨S1x32001, .f32⟩ : BufTy).Contents (Elt F) → (⟨S16x32001, .f32⟩ : BufTy).Contents (Elt F))) (after (ops : List (HloOp τ sig (Elt F))) V (Proc.devRef .tc main_v124)) :=
  at_unary numbered 145 rfl (by decide) rfl V
theorem eq_main_v126 (V : Valuation τ sig (Elt F)) : (after (ops : List (HloOp τ sig (Elt F))) V (Proc.devRef .tc main_v126)) = ((addf : (⟨S16x32001, .f32⟩ : BufTy).Contents (Elt F) → (⟨S16x32001, .f32⟩ : BufTy).Contents (Elt F) → (⟨S16x32001, .f32⟩ : BufTy).Contents (Elt F))) (after (ops : List (HloOp τ sig (Elt F))) V (Proc.devRef .tc main_v123)) (after (ops : List (HloOp τ sig (Elt F))) V (Proc.devRef .tc main_v125)) :=
  at_binary numbered 146 rfl (by decide) (by decide) rfl V
theorem eq_main_v127 (V : Valuation τ sig (Elt F)) : (after (ops : List (HloOp τ sig (Elt F))) V (Proc.devRef .tc main_v127)) = (((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (ops : List (HloOp τ sig (Elt F))) V (Proc.devRef .tc main_v112)) (after (ops : List (HloOp τ sig (Elt F))) V (Proc.devRef .tc main_arg5)) :=
  at_binary numbered 147 rfl (by decide) (by decide) rfl V
theorem eq_main_v128 (V : Valuation τ sig (Elt F)) : (after (ops : List (HloOp τ sig (Elt F))) V (Proc.devRef .tc main_v128)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 148 rfl (by decide) rfl V
theorem eq_main_v129 (V : Valuation τ sig (Elt F)) : (after (ops : List (HloOp τ sig (Elt F))) V (Proc.devRef .tc main_v129)) = ((broadcastInDim S16x2048 ![0, 1] bcast_S1x2048_S16x2048_0_1 : (⟨S1x2048, .f32⟩ : BufTy).Contents (Elt F) → (⟨S16x2048, .f32⟩ : BufTy).Contents (Elt F))) (after (ops : List (HloOp τ sig (Elt F))) V (Proc.devRef .tc main_v128)) :=
  at_unary numbered 149 rfl (by decide) rfl V
theorem eq_main_v130 (V : Valuation τ sig (Elt F)) : (after (ops : List (HloOp τ sig (Elt F))) V (Proc.devRef .tc main_v130)) = ((addf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v127)) (after (ops : List (HloOp τ sig (Elt F))) V (Proc.devRef .tc main_v129)) :=
  at_binary numbered 150 rfl (by decide) (by decide) rfl V
theorem eq_main_v131 (V : Valuation τ sig (Elt F)) : (after (ops : List (HloOp τ sig (Elt F))) V (Proc.devRef .tc main_v131)) = ((Host.negf : (⟨S16x2048, .f32⟩ : BufTy).Contents (Elt F) → (⟨S16x2048, .f32⟩ : BufTy).Contents (Elt F))) (after (ops : List (HloOp τ sig (Elt F))) V (Proc.devRef .tc main_v130)) :=
  at_unary numbered 151 rfl (by decide) rfl V
theorem eq_main_v132 (V : Valuation τ sig (Elt F)) : (after (ops : List (HloOp τ sig (Elt F))) V (Proc.devRef .tc main_v132)) = ((Host.exp : (⟨S16x2048, .f32⟩ : BufTy).Contents (Elt F) → (⟨S16x2048, .f32⟩ : BufTy).Contents (Elt F))) (after (ops : List (HloOp τ sig (Elt F))) V (Proc.devRef .tc main_v131)) :=
  at_unary numbered 152 rfl (by decide) rfl V
theorem eq_main_cst_18 (V : Valuation τ sig (Elt F)) : (after (ops : List (HloOp τ sig (Elt F))) V (Proc.devRef .tc main_cst_18)) = ((constant S_ .f32 0x3F800000#32)) :=
  at_nullary numbered 153 rfl rfl V
theorem eq_main_v133 (V : Valuation τ sig (Elt F)) : (after (ops : List (HloOp τ sig (Elt F))) V (Proc.devRef .tc main_v133)) = ((broadcastInDim S16x2048 ![] bcast_S_S16x2048 : (⟨S_, .f32⟩ : BufTy).Contents (Elt F) → (⟨S16x2048, .f32⟩ : BufTy).Contents (Elt F))) (after (ops : List (HloOp τ sig (Elt F))) V (Proc.devRef .tc main_cst_18)) :=
  at_unary numbered 154 rfl (by decide) rfl V
theorem eq_main_v134 (V : Valuation τ sig (Elt F)) : (after (ops : List (HloOp τ sig (Elt F))) V (Proc.devRef .tc main_v134)) = ((addf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v133)) (after (ops : List (HloOp τ sig (Elt F))) V (Proc.devRef .tc main_v132)) :=
  at_binary numbered 155 rfl (by decide) (by decide) rfl V
theorem eq_main_cst_19 (V : Valuation τ sig (Elt F)) : (after (ops : List (HloOp τ sig (Elt F))) V (Proc.devRef .tc main_cst_19)) = ((constant S_ .f32 0x3F800000#32)) :=
  at_nullary numbered 156 rfl rfl V
theorem eq_main_v135 (V : Valuation τ sig (Elt F)) : (after (ops : List (HloOp τ sig (Elt F))) V (Proc.devRef .tc main_v135)) = ((broadcastInDim S16x2048 ![] bcast_S_S16x2048 : (⟨S_, .f32⟩ : BufTy).Contents (Elt F) → (⟨S16x2048, .f32⟩ : BufTy).Contents (Elt F))) (after (ops : List (HloOp τ sig (Elt F))) V (Proc.devRef .tc main_cst_19)) :=
  at_unary numbered 157 rfl (by decide) rfl V
theorem eq_main_v136 (V : Valuation τ sig (Elt F)) : (after (ops : List (HloOp τ sig (Elt F))) V (Proc.devRef .tc main_v136)) = ((Host.divf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v135)) (after (ops : List (HloOp τ sig (Elt F))) V (Proc.devRef .tc main_v134)) :=
  at_binary numbered 158 rfl (by decide) (by decide) rfl V
theorem eq_main_v137 (V : Valuation τ sig (Elt F)) : (after (ops : List (HloOp τ sig (Elt F))) V (Proc.devRef .tc main_v137)) = (((fun l r => Host.dotGeneral dot_S16x2048_S2048x2048_S16x2048_1_0_0_1_n_n none l r) : (⟨S16x2048, .f32⟩ : BufTy).Contents (Elt F) → (⟨S2048x2048, .f32⟩ : BufTy).Contents (Elt F) → (⟨S16x2048, .f32⟩ : BufTy).Contents (Elt F))) (after (ops : List (HloOp τ sig (Elt F))) V (Proc.devRef .tc main_v136)) (after (ops : List (HloOp τ sig (Elt F))) V (Proc.devRef .tc main_arg7)) :=
  at_binary numbered 159 rfl (by decide) (by decide) rfl V
theorem eq_main_v138 (V : Valuation τ sig (Elt F)) : (after (ops : List (HloOp τ sig (Elt F))) V (Proc.devRef .tc main_v138)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 160 rfl (by decide) rfl V
theorem eq_main_v139 (V : Valuation τ sig (Elt F)) : (after (ops : List (HloOp τ sig (Elt F))) V (Proc.devRef .tc main_v139)) = ((broadcastInDim S16x2048 ![0, 1] bcast_S1x2048_S16x2048_0_1 : (⟨S1x2048, .f32⟩ : BufTy).Contents (Elt F) → (⟨S16x2048, .f32⟩ : BufTy).Contents (Elt F))) (after (ops : List (HloOp τ sig (Elt F))) V (Proc.devRef .tc main_v138)) :=
  at_unary numbered 161 rfl (by decide) rfl V
theorem eq_main_v140 (V : Valuation τ sig (Elt F)) : (after (ops : List (HloOp τ sig (Elt F))) V (Proc.devRef .tc main_v140)) = ((addf : (⟨S16x2048, .f32⟩ : BufTy).Contents (Elt F) → (⟨S16x2048, .f32⟩ : BufTy).Contents (Elt F) → (⟨S16x2048, .f32⟩ : BufTy).Contents (Elt F))) (after (ops : List (HloOp τ sig (Elt F))) V (Proc.devRef .tc main_v137)) (after (ops : List (HloOp τ sig (Elt F))) V (Proc.devRef .tc main_v139)) :=
  at_binary numbered 162 rfl (by decide) (by decide) rfl V
theorem eq_main_v141 (V : Valuation τ sig (Elt F)) : (after (ops : List (HloOp τ sig (Elt F))) V (Proc.devRef .tc main_v141)) = shapeCast S32x1024 (after (ops : List (HloOp τ sig (Elt F))) V (Proc.devRef .tc main_v140)) shapeCasts_S16x2048_S32x1024 :=
  (at_reshape numbered 163 rfl (by decide) rfl V).trans rfl
theorem eq_main_v142 (V : Valuation τ sig (Elt F)) : (after (ops : List (HloOp τ sig (Elt F))) V (Proc.devRef .tc main_v142)) = (((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (ops : List (HloOp τ sig (Elt F))) V (Proc.devRef .tc main_v141)) (after (ops : List (HloOp τ sig (Elt F))) V (Proc.devRef .tc main_arg1)) :=
  at_binary numbered 164 rfl (by decide) (by decide) rfl V
theorem eq_main_v143 (V : Valuation τ sig (Elt F)) : (after (ops : List (HloOp τ sig (Elt F))) V (Proc.devRef .tc main_v143)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 165 rfl (by decide) rfl V
theorem eq_main_v144 (V : Valuation τ sig (Elt F)) : (after (ops : List (HloOp τ sig (Elt F))) V (Proc.devRef .tc main_v144)) = ((broadcastInDim S32x2048 ![0, 1] bcast_S1x2048_S32x2048_0_1 : (⟨S1x2048, .f32⟩ : BufTy).Contents (Elt F) → (⟨S32x2048, .f32⟩ : BufTy).Contents (Elt F))) (after (ops : List (HloOp τ sig (Elt F))) V (Proc.devRef .tc main_v143)) :=
  at_unary numbered 166 rfl (by decide) rfl V
theorem eq_main_v145 (V : Valuation τ sig (Elt F)) : (after (ops : List (HloOp τ sig (Elt F))) V (Proc.devRef .tc main_v145)) = ((addf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v142)) (after (ops : List (HloOp τ sig (Elt F))) V (Proc.devRef .tc main_v144)) :=
  at_binary numbered 167 rfl (by decide) (by decide) rfl V
theorem eq_main_v146 (V : Valuation τ sig (Elt F)) : (after (ops : List (HloOp τ sig (Elt F))) V (Proc.devRef .tc main_v146)) = ((Host.negf : (⟨S32x2048, .f32⟩ : BufTy).Contents (Elt F) → (⟨S32x2048, .f32⟩ : BufTy).Contents (Elt F))) (after (ops : List (HloOp τ sig (Elt F))) V (Proc.devRef .tc main_v145)) :=
  at_unary numbered 168 rfl (by decide) rfl V
theorem eq_main_v147 (V : Valuation τ sig (Elt F)) : (after (ops : List (HloOp τ sig (Elt F))) V (Proc.devRef .tc main_v147)) = ((Host.exp : (⟨S32x2048, .f32⟩ : BufTy).Contents (Elt F) → (⟨S32x2048, .f32⟩ : BufTy).Contents (Elt F))) (after (ops : List (HloOp τ sig (Elt F))) V (Proc.devRef .tc main_v146)) :=
  at_unary numbered 169 rfl (by decide) rfl V
theorem eq_main_cst_20 (V : Valuation τ sig (Elt F)) : (after (ops : List (HloOp τ sig (Elt F))) V (Proc.devRef .tc main_cst_20)) = ((constant S_ .f32 0x3F800000#32)) :=
  at_nullary numbered 170 rfl rfl V
theorem eq_main_v148 (V : Valuation τ sig (Elt F)) : (after (ops : List (HloOp τ sig (Elt F))) V (Proc.devRef .tc main_v148)) = ((broadcastInDim S32x2048 ![] bcast_S_S32x2048 : (⟨S_, .f32⟩ : BufTy).Contents (Elt F) → (⟨S32x2048, .f32⟩ : BufTy).Contents (Elt F))) (after (ops : List (HloOp τ sig (Elt F))) V (Proc.devRef .tc main_cst_20)) :=
  at_unary numbered 171 rfl (by decide) rfl V
theorem eq_main_v149 (V : Valuation τ sig (Elt F)) : (after (ops : List (HloOp τ sig (Elt F))) V (Proc.devRef .tc main_v149)) = ((addf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v148)) (after (ops : List (HloOp τ sig (Elt F))) V (Proc.devRef .tc main_v147)) :=
  at_binary numbered 172 rfl (by decide) (by decide) rfl V
theorem eq_main_cst_21 (V : Valuation τ sig (Elt F)) : (after (ops : List (HloOp τ sig (Elt F))) V (Proc.devRef .tc main_cst_21)) = ((constant S_ .f32 0x3F800000#32)) :=
  at_nullary numbered 173 rfl rfl V
theorem eq_main_v150 (V : Valuation τ sig (Elt F)) : (after (ops : List (HloOp τ sig (Elt F))) V (Proc.devRef .tc main_v150)) = ((broadcastInDim S32x2048 ![] bcast_S_S32x2048 : (⟨S_, .f32⟩ : BufTy).Contents (Elt F) → (⟨S32x2048, .f32⟩ : BufTy).Contents (Elt F))) (after (ops : List (HloOp τ sig (Elt F))) V (Proc.devRef .tc main_cst_21)) :=
  at_unary numbered 174 rfl (by decide) rfl V
theorem eq_main_v151 (V : Valuation τ sig (Elt F)) : (after (ops : List (HloOp τ sig (Elt F))) V (Proc.devRef .tc main_v151)) = ((Host.divf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v150)) (after (ops : List (HloOp τ sig (Elt F))) V (Proc.devRef .tc main_v149)) :=
  at_binary numbered 175 rfl (by decide) (by decide) rfl V
theorem eq_main_v152 (V : Valuation τ sig (Elt F)) : (after (ops : List (HloOp τ sig (Elt F))) V (Proc.devRef .tc main_v152)) = (((fun l r => Host.dotGeneral dot_S32x2048_S2048x32001_S32x32001_1_0_0_1_n_n none l r) : (⟨S32x2048, .f32⟩ : BufTy).Contents (Elt F) → (⟨S2048x32001, .f32⟩ : BufTy).Contents (Elt F) → (⟨S32x32001, .f32⟩ : BufTy).Contents (Elt F))) (after (ops : List (HloOp τ sig (Elt F))) V (Proc.devRef .tc main_v151)) (after (ops : List (HloOp τ sig (Elt F))) V (Proc.devRef .tc main_arg3)) :=
  at_binary numbered 176 rfl (by decide) (by decide) rfl V
theorem eq_main_v153 (V : Valuation τ sig (Elt F)) : (after (ops : List (HloOp τ sig (Elt F))) V (Proc.devRef .tc main_v153)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 177 rfl (by decide) rfl V
theorem eq_main_v154 (V : Valuation τ sig (Elt F)) : (after (ops : List (HloOp τ sig (Elt F))) V (Proc.devRef .tc main_v154)) = ((broadcastInDim S32x32001 ![0, 1] bcast_S1x32001_S32x32001_0_1 : (⟨S1x32001, .f32⟩ : BufTy).Contents (Elt F) → (⟨S32x32001, .f32⟩ : BufTy).Contents (Elt F))) (after (ops : List (HloOp τ sig (Elt F))) V (Proc.devRef .tc main_v153)) :=
  at_unary numbered 178 rfl (by decide) rfl V
theorem eq_main_v155 (V : Valuation τ sig (Elt F)) : (after (ops : List (HloOp τ sig (Elt F))) V (Proc.devRef .tc main_v155)) = ((addf : (⟨S32x32001, .f32⟩ : BufTy).Contents (Elt F) → (⟨S32x32001, .f32⟩ : BufTy).Contents (Elt F) → (⟨S32x32001, .f32⟩ : BufTy).Contents (Elt F))) (after (ops : List (HloOp τ sig (Elt F))) V (Proc.devRef .tc main_v152)) (after (ops : List (HloOp τ sig (Elt F))) V (Proc.devRef .tc main_v154)) :=
  at_binary numbered 179 rfl (by decide) (by decide) rfl V
theorem eq_main_v156 (V : Valuation τ sig (Elt F)) : (after (ops : List (HloOp τ sig (Elt F))) V (Proc.devRef .tc main_v156)) = (((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (ops : List (HloOp τ sig (Elt F))) V (Proc.devRef .tc main_v141)) (after (ops : List (HloOp τ sig (Elt F))) V (Proc.devRef .tc main_arg5)) :=
  at_binary numbered 180 rfl (by decide) (by decide) rfl V
theorem eq_main_v157 (V : Valuation τ sig (Elt F)) : (after (ops : List (HloOp τ sig (Elt F))) V (Proc.devRef .tc main_v157)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 181 rfl (by decide) rfl V
theorem eq_main_v158 (V : Valuation τ sig (Elt F)) : (after (ops : List (HloOp τ sig (Elt F))) V (Proc.devRef .tc main_v158)) = ((broadcastInDim S32x2048 ![0, 1] bcast_S1x2048_S32x2048_0_1 : (⟨S1x2048, .f32⟩ : BufTy).Contents (Elt F) → (⟨S32x2048, .f32⟩ : BufTy).Contents (Elt F))) (after (ops : List (HloOp τ sig (Elt F))) V (Proc.devRef .tc main_v157)) :=
  at_unary numbered 182 rfl (by decide) rfl V
theorem eq_main_v159 (V : Valuation τ sig (Elt F)) : (after (ops : List (HloOp τ sig (Elt F))) V (Proc.devRef .tc main_v159)) = ((addf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v156)) (after (ops : List (HloOp τ sig (Elt F))) V (Proc.devRef .tc main_v158)) :=
  at_binary numbered 183 rfl (by decide) (by decide) rfl V
theorem eq_main_v160 (V : Valuation τ sig (Elt F)) : (after (ops : List (HloOp τ sig (Elt F))) V (Proc.devRef .tc main_v160)) = ((Host.negf : (⟨S32x2048, .f32⟩ : BufTy).Contents (Elt F) → (⟨S32x2048, .f32⟩ : BufTy).Contents (Elt F))) (after (ops : List (HloOp τ sig (Elt F))) V (Proc.devRef .tc main_v159)) :=
  at_unary numbered 184 rfl (by decide) rfl V
theorem eq_main_v161 (V : Valuation τ sig (Elt F)) : (after (ops : List (HloOp τ sig (Elt F))) V (Proc.devRef .tc main_v161)) = ((Host.exp : (⟨S32x2048, .f32⟩ : BufTy).Contents (Elt F) → (⟨S32x2048, .f32⟩ : BufTy).Contents (Elt F))) (after (ops : List (HloOp τ sig (Elt F))) V (Proc.devRef .tc main_v160)) :=
  at_unary numbered 185 rfl (by decide) rfl V
theorem eq_main_cst_22 (V : Valuation τ sig (Elt F)) : (after (ops : List (HloOp τ sig (Elt F))) V (Proc.devRef .tc main_cst_22)) = ((constant S_ .f32 0x3F800000#32)) :=
  at_nullary numbered 186 rfl rfl V
theorem eq_main_v162 (V : Valuation τ sig (Elt F)) : (after (ops : List (HloOp τ sig (Elt F))) V (Proc.devRef .tc main_v162)) = ((broadcastInDim S32x2048 ![] bcast_S_S32x2048 : (⟨S_, .f32⟩ : BufTy).Contents (Elt F) → (⟨S32x2048, .f32⟩ : BufTy).Contents (Elt F))) (after (ops : List (HloOp τ sig (Elt F))) V (Proc.devRef .tc main_cst_22)) :=
  at_unary numbered 187 rfl (by decide) rfl V
theorem eq_main_v163 (V : Valuation τ sig (Elt F)) : (after (ops : List (HloOp τ sig (Elt F))) V (Proc.devRef .tc main_v163)) = ((addf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v162)) (after (ops : List (HloOp τ sig (Elt F))) V (Proc.devRef .tc main_v161)) :=
  at_binary numbered 188 rfl (by decide) (by decide) rfl V
theorem eq_main_cst_23 (V : Valuation τ sig (Elt F)) : (after (ops : List (HloOp τ sig (Elt F))) V (Proc.devRef .tc main_cst_23)) = ((constant S_ .f32 0x3F800000#32)) :=
  at_nullary numbered 189 rfl rfl V
theorem eq_main_v164 (V : Valuation τ sig (Elt F)) : (after (ops : List (HloOp τ sig (Elt F))) V (Proc.devRef .tc main_v164)) = ((broadcastInDim S32x2048 ![] bcast_S_S32x2048 : (⟨S_, .f32⟩ : BufTy).Contents (Elt F) → (⟨S32x2048, .f32⟩ : BufTy).Contents (Elt F))) (after (ops : List (HloOp τ sig (Elt F))) V (Proc.devRef .tc main_cst_23)) :=
  at_unary numbered 190 rfl (by decide) rfl V
theorem eq_main_v165 (V : Valuation τ sig (Elt F)) : (after (ops : List (HloOp τ sig (Elt F))) V (Proc.devRef .tc main_v165)) = ((Host.divf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v164)) (after (ops : List (HloOp τ sig (Elt F))) V (Proc.devRef .tc main_v163)) :=
  at_binary numbered 191 rfl (by decide) (by decide) rfl V
theorem eq_main_v166 (V : Valuation τ sig (Elt F)) : (after (ops : List (HloOp τ sig (Elt F))) V (Proc.devRef .tc main_v166)) = (((fun l r => Host.dotGeneral dot_S32x2048_S2048x2048_S32x2048_1_0_0_1_n_n none l r) : (⟨S32x2048, .f32⟩ : BufTy).Contents (Elt F) → (⟨S2048x2048, .f32⟩ : BufTy).Contents (Elt F) → (⟨S32x2048, .f32⟩ : BufTy).Contents (Elt F))) (after (ops : List (HloOp τ sig (Elt F))) V (Proc.devRef .tc main_v165)) (after (ops : List (HloOp τ sig (Elt F))) V (Proc.devRef .tc main_arg7)) :=
  at_binary numbered 192 rfl (by decide) (by decide) rfl V
theorem eq_main_v167 (V : Valuation τ sig (Elt F)) : (after (ops : List (HloOp τ sig (Elt F))) V (Proc.devRef .tc main_v167)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 193 rfl (by decide) rfl V
theorem eq_main_v168 (V : Valuation τ sig (Elt F)) : (after (ops : List (HloOp τ sig (Elt F))) V (Proc.devRef .tc main_v168)) = ((broadcastInDim S32x2048 ![0, 1] bcast_S1x2048_S32x2048_0_1 : (⟨S1x2048, .f32⟩ : BufTy).Contents (Elt F) → (⟨S32x2048, .f32⟩ : BufTy).Contents (Elt F))) (after (ops : List (HloOp τ sig (Elt F))) V (Proc.devRef .tc main_v167)) :=
  at_unary numbered 194 rfl (by decide) rfl V
theorem eq_main_v169 (V : Valuation τ sig (Elt F)) : (after (ops : List (HloOp τ sig (Elt F))) V (Proc.devRef .tc main_v169)) = ((addf : (⟨S32x2048, .f32⟩ : BufTy).Contents (Elt F) → (⟨S32x2048, .f32⟩ : BufTy).Contents (Elt F) → (⟨S32x2048, .f32⟩ : BufTy).Contents (Elt F))) (after (ops : List (HloOp τ sig (Elt F))) V (Proc.devRef .tc main_v166)) (after (ops : List (HloOp τ sig (Elt F))) V (Proc.devRef .tc main_v168)) :=
  at_binary numbered 195 rfl (by decide) (by decide) rfl V
theorem eq_main_v170 (V : Valuation τ sig (Elt F)) : (after (ops : List (HloOp τ sig (Elt F))) V (Proc.devRef .tc main_v170)) = shapeCast S64x1024 (after (ops : List (HloOp τ sig (Elt F))) V (Proc.devRef .tc main_v169)) shapeCasts_S32x2048_S64x1024 :=
  (at_reshape numbered 196 rfl (by decide) rfl V).trans rfl
theorem eq_main_v171 (V : Valuation τ sig (Elt F)) : (after (ops : List (HloOp τ sig (Elt F))) V (Proc.devRef .tc main_v171)) = (((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (ops : List (HloOp τ sig (Elt F))) V (Proc.devRef .tc main_v170)) (after (ops : List (HloOp τ sig (Elt F))) V (Proc.devRef .tc main_arg1)) :=
  at_binary numbered 197 rfl (by decide) (by decide) rfl V
theorem eq_main_v172 (V : Valuation τ sig (Elt F)) : (after (ops : List (HloOp τ sig (Elt F))) V (Proc.devRef .tc main_v172)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 198 rfl (by decide) rfl V
theorem eq_main_v173 (V : Valuation τ sig (Elt F)) : (after (ops : List (HloOp τ sig (Elt F))) V (Proc.devRef .tc main_v173)) = ((broadcastInDim S64x2048 ![0, 1] bcast_S1x2048_S64x2048_0_1 : (⟨S1x2048, .f32⟩ : BufTy).Contents (Elt F) → (⟨S64x2048, .f32⟩ : BufTy).Contents (Elt F))) (after (ops : List (HloOp τ sig (Elt F))) V (Proc.devRef .tc main_v172)) :=
  at_unary numbered 199 rfl (by decide) rfl V
theorem eq_main_v174 (V : Valuation τ sig (Elt F)) : (after (ops : List (HloOp τ sig (Elt F))) V (Proc.devRef .tc main_v174)) = ((addf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v171)) (after (ops : List (HloOp τ sig (Elt F))) V (Proc.devRef .tc main_v173)) :=
  at_binary numbered 200 rfl (by decide) (by decide) rfl V
theorem eq_main_v175 (V : Valuation τ sig (Elt F)) : (after (ops : List (HloOp τ sig (Elt F))) V (Proc.devRef .tc main_v175)) = ((Host.negf : (⟨S64x2048, .f32⟩ : BufTy).Contents (Elt F) → (⟨S64x2048, .f32⟩ : BufTy).Contents (Elt F))) (after (ops : List (HloOp τ sig (Elt F))) V (Proc.devRef .tc main_v174)) :=
  at_unary numbered 201 rfl (by decide) rfl V
theorem eq_main_v176 (V : Valuation τ sig (Elt F)) : (after (ops : List (HloOp τ sig (Elt F))) V (Proc.devRef .tc main_v176)) = ((Host.exp : (⟨S64x2048, .f32⟩ : BufTy).Contents (Elt F) → (⟨S64x2048, .f32⟩ : BufTy).Contents (Elt F))) (after (ops : List (HloOp τ sig (Elt F))) V (Proc.devRef .tc main_v175)) :=
  at_unary numbered 202 rfl (by decide) rfl V
theorem eq_main_cst_24 (V : Valuation τ sig (Elt F)) : (after (ops : List (HloOp τ sig (Elt F))) V (Proc.devRef .tc main_cst_24)) = ((constant S_ .f32 0x3F800000#32)) :=
  at_nullary numbered 203 rfl rfl V
theorem eq_main_v177 (V : Valuation τ sig (Elt F)) : (after (ops : List (HloOp τ sig (Elt F))) V (Proc.devRef .tc main_v177)) = ((broadcastInDim S64x2048 ![] bcast_S_S64x2048 : (⟨S_, .f32⟩ : BufTy).Contents (Elt F) → (⟨S64x2048, .f32⟩ : BufTy).Contents (Elt F))) (after (ops : List (HloOp τ sig (Elt F))) V (Proc.devRef .tc main_cst_24)) :=
  at_unary numbered 204 rfl (by decide) rfl V
theorem eq_main_v178 (V : Valuation τ sig (Elt F)) : (after (ops : List (HloOp τ sig (Elt F))) V (Proc.devRef .tc main_v178)) = ((addf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v177)) (after (ops : List (HloOp τ sig (Elt F))) V (Proc.devRef .tc main_v176)) :=
  at_binary numbered 205 rfl (by decide) (by decide) rfl V
theorem eq_main_cst_25 (V : Valuation τ sig (Elt F)) : (after (ops : List (HloOp τ sig (Elt F))) V (Proc.devRef .tc main_cst_25)) = ((constant S_ .f32 0x3F800000#32)) :=
  at_nullary numbered 206 rfl rfl V
theorem eq_main_v179 (V : Valuation τ sig (Elt F)) : (after (ops : List (HloOp τ sig (Elt F))) V (Proc.devRef .tc main_v179)) = ((broadcastInDim S64x2048 ![] bcast_S_S64x2048 : (⟨S_, .f32⟩ : BufTy).Contents (Elt F) → (⟨S64x2048, .f32⟩ : BufTy).Contents (Elt F))) (after (ops : List (HloOp τ sig (Elt F))) V (Proc.devRef .tc main_cst_25)) :=
  at_unary numbered 207 rfl (by decide) rfl V
theorem eq_main_v180 (V : Valuation τ sig (Elt F)) : (after (ops : List (HloOp τ sig (Elt F))) V (Proc.devRef .tc main_v180)) = ((Host.divf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v179)) (after (ops : List (HloOp τ sig (Elt F))) V (Proc.devRef .tc main_v178)) :=
  at_binary numbered 208 rfl (by decide) (by decide) rfl V
theorem eq_main_v181 (V : Valuation τ sig (Elt F)) : (after (ops : List (HloOp τ sig (Elt F))) V (Proc.devRef .tc main_v181)) = (((fun l r => Host.dotGeneral dot_S64x2048_S2048x32001_S64x32001_1_0_0_1_n_n none l r) : (⟨S64x2048, .f32⟩ : BufTy).Contents (Elt F) → (⟨S2048x32001, .f32⟩ : BufTy).Contents (Elt F) → (⟨S64x32001, .f32⟩ : BufTy).Contents (Elt F))) (after (ops : List (HloOp τ sig (Elt F))) V (Proc.devRef .tc main_v180)) (after (ops : List (HloOp τ sig (Elt F))) V (Proc.devRef .tc main_arg3)) :=
  at_binary numbered 209 rfl (by decide) (by decide) rfl V
theorem eq_main_v182 (V : Valuation τ sig (Elt F)) : (after (ops : List (HloOp τ sig (Elt F))) V (Proc.devRef .tc main_v182)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 210 rfl (by decide) rfl V
theorem eq_main_v183 (V : Valuation τ sig (Elt F)) : (after (ops : List (HloOp τ sig (Elt F))) V (Proc.devRef .tc main_v183)) = ((broadcastInDim S64x32001 ![0, 1] bcast_S1x32001_S64x32001_0_1 : (⟨S1x32001, .f32⟩ : BufTy).Contents (Elt F) → (⟨S64x32001, .f32⟩ : BufTy).Contents (Elt F))) (after (ops : List (HloOp τ sig (Elt F))) V (Proc.devRef .tc main_v182)) :=
  at_unary numbered 211 rfl (by decide) rfl V
theorem eq_main_v184 (V : Valuation τ sig (Elt F)) : (after (ops : List (HloOp τ sig (Elt F))) V (Proc.devRef .tc main_v184)) = ((addf : (⟨S64x32001, .f32⟩ : BufTy).Contents (Elt F) → (⟨S64x32001, .f32⟩ : BufTy).Contents (Elt F) → (⟨S64x32001, .f32⟩ : BufTy).Contents (Elt F))) (after (ops : List (HloOp τ sig (Elt F))) V (Proc.devRef .tc main_v181)) (after (ops : List (HloOp τ sig (Elt F))) V (Proc.devRef .tc main_v183)) :=
  at_binary numbered 212 rfl (by decide) (by decide) rfl V
theorem eq_main_v185 (V : Valuation τ sig (Elt F)) : (after (ops : List (HloOp τ sig (Elt F))) V (Proc.devRef .tc main_v185)) = (((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (ops : List (HloOp τ sig (Elt F))) V (Proc.devRef .tc main_v170)) (after (ops : List (HloOp τ sig (Elt F))) V (Proc.devRef .tc main_arg5)) :=
  at_binary numbered 213 rfl (by decide) (by decide) rfl V
theorem eq_main_v186 (V : Valuation τ sig (Elt F)) : (after (ops : List (HloOp τ sig (Elt F))) V (Proc.devRef .tc main_v186)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 214 rfl (by decide) rfl V
theorem eq_main_v187 (V : Valuation τ sig (Elt F)) : (after (ops : List (HloOp τ sig (Elt F))) V (Proc.devRef .tc main_v187)) = ((broadcastInDim S64x2048 ![0, 1] bcast_S1x2048_S64x2048_0_1 : (⟨S1x2048, .f32⟩ : BufTy).Contents (Elt F) → (⟨S64x2048, .f32⟩ : BufTy).Contents (Elt F))) (after (ops : List (HloOp τ sig (Elt F))) V (Proc.devRef .tc main_v186)) :=
  at_unary numbered 215 rfl (by decide) rfl V
theorem eq_main_v188 (V : Valuation τ sig (Elt F)) : (after (ops : List (HloOp τ sig (Elt F))) V (Proc.devRef .tc main_v188)) = ((addf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v185)) (after (ops : List (HloOp τ sig (Elt F))) V (Proc.devRef .tc main_v187)) :=
  at_binary numbered 216 rfl (by decide) (by decide) rfl V
theorem eq_main_v189 (V : Valuation τ sig (Elt F)) : (after (ops : List (HloOp τ sig (Elt F))) V (Proc.devRef .tc main_v189)) = ((Host.negf : (⟨S64x2048, .f32⟩ : BufTy).Contents (Elt F) → (⟨S64x2048, .f32⟩ : BufTy).Contents (Elt F))) (after (ops : List (HloOp τ sig (Elt F))) V (Proc.devRef .tc main_v188)) :=
  at_unary numbered 217 rfl (by decide) rfl V
theorem eq_main_v190 (V : Valuation τ sig (Elt F)) : (after (ops : List (HloOp τ sig (Elt F))) V (Proc.devRef .tc main_v190)) = ((Host.exp : (⟨S64x2048, .f32⟩ : BufTy).Contents (Elt F) → (⟨S64x2048, .f32⟩ : BufTy).Contents (Elt F))) (after (ops : List (HloOp τ sig (Elt F))) V (Proc.devRef .tc main_v189)) :=
  at_unary numbered 218 rfl (by decide) rfl V
theorem eq_main_cst_26 (V : Valuation τ sig (Elt F)) : (after (ops : List (HloOp τ sig (Elt F))) V (Proc.devRef .tc main_cst_26)) = ((constant S_ .f32 0x3F800000#32)) :=
  at_nullary numbered 219 rfl rfl V
theorem eq_main_v191 (V : Valuation τ sig (Elt F)) : (after (ops : List (HloOp τ sig (Elt F))) V (Proc.devRef .tc main_v191)) = ((broadcastInDim S64x2048 ![] bcast_S_S64x2048 : (⟨S_, .f32⟩ : BufTy).Contents (Elt F) → (⟨S64x2048, .f32⟩ : BufTy).Contents (Elt F))) (after (ops : List (HloOp τ sig (Elt F))) V (Proc.devRef .tc main_cst_26)) :=
  at_unary numbered 220 rfl (by decide) rfl V
theorem eq_main_v192 (V : Valuation τ sig (Elt F)) : (after (ops : List (HloOp τ sig (Elt F))) V (Proc.devRef .tc main_v192)) = ((addf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v191)) (after (ops : List (HloOp τ sig (Elt F))) V (Proc.devRef .tc main_v190)) :=
  at_binary numbered 221 rfl (by decide) (by decide) rfl V
theorem eq_main_cst_27 (V : Valuation τ sig (Elt F)) : (after (ops : List (HloOp τ sig (Elt F))) V (Proc.devRef .tc main_cst_27)) = ((constant S_ .f32 0x3F800000#32)) :=
  at_nullary numbered 222 rfl rfl V
theorem eq_main_v193 (V : Valuation τ sig (Elt F)) : (after (ops : List (HloOp τ sig (Elt F))) V (Proc.devRef .tc main_v193)) = ((broadcastInDim S64x2048 ![] bcast_S_S64x2048 : (⟨S_, .f32⟩ : BufTy).Contents (Elt F) → (⟨S64x2048, .f32⟩ : BufTy).Contents (Elt F))) (after (ops : List (HloOp τ sig (Elt F))) V (Proc.devRef .tc main_cst_27)) :=
  at_unary numbered 223 rfl (by decide) rfl V
theorem eq_main_v194 (V : Valuation τ sig (Elt F)) : (after (ops : List (HloOp τ sig (Elt F))) V (Proc.devRef .tc main_v194)) = ((Host.divf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v193)) (after (ops : List (HloOp τ sig (Elt F))) V (Proc.devRef .tc main_v192)) :=
  at_binary numbered 224 rfl (by decide) (by decide) rfl V
theorem eq_main_v195 (V : Valuation τ sig (Elt F)) : (after (ops : List (HloOp τ sig (Elt F))) V (Proc.devRef .tc main_v195)) = (((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F))) (after (ops : List (HloOp τ sig (Elt F))) V (Proc.devRef .tc main_v194)) (after (ops : List (HloOp τ sig (Elt F))) V (Proc.devRef .tc main_arg7)) :=
  at_binary numbered 225 rfl (by decide) (by decide) rfl V
theorem eq_main_v196 (V : Valuation τ sig (Elt F)) : (after (ops : List (HloOp τ sig (Elt F))) V (Proc.devRef .tc main_v196)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 226 rfl (by decide) rfl V
theorem eq_main_v197 (V : Valuation τ sig (Elt F)) : (after (ops : List (HloOp τ sig (Elt F))) V (Proc.devRef .tc main_v197)) = ((broadcastInDim S64x2048 ![0, 1] bcast_S1x2048_S64x2048_0_1 : (⟨S1x2048, .f32⟩ : BufTy).Contents (Elt F) → (⟨S64x2048, .f32⟩ : BufTy).Contents (Elt F))) (after (ops : List (HloOp τ sig (Elt F))) V (Proc.devRef .tc main_v196)) :=
  at_unary numbered 227 rfl (by decide) rfl V
theorem eq_main_v198 (V : Valuation τ sig (Elt F)) : (after (ops : List (HloOp τ sig (Elt F))) V (Proc.devRef .tc main_v198)) = ((addf : (⟨S64x2048, .f32⟩ : BufTy).Contents (Elt F) → (⟨S64x2048, .f32⟩ : BufTy).Contents (Elt F) → (⟨S64x2048, .f32⟩ : BufTy).Contents (Elt F))) (after (ops : List (HloOp τ sig (Elt F))) V (Proc.devRef .tc main_v195)) (after (ops : List (HloOp τ sig (Elt F))) V (Proc.devRef .tc main_v197)) :=
  at_binary numbered 228 rfl (by decide) (by decide) rfl V
theorem eq_main_v199 (V : Valuation τ sig (Elt F)) : (after (ops : List (HloOp τ sig (Elt F))) V (Proc.devRef .tc main_v199)) = shapeCast S128x1024 (after (ops : List (HloOp τ sig (Elt F))) V (Proc.devRef .tc main_v198)) shapeCasts_S64x2048_S128x1024 :=
  (at_reshape numbered 229 rfl (by decide) rfl V).trans rfl
theorem eq_main_v200 (V : Valuation τ sig (Elt F)) : (after (ops : List (HloOp τ sig (Elt F))) V (Proc.devRef .tc main_v200)) = (((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (ops : List (HloOp τ sig (Elt F))) V (Proc.devRef .tc main_v199)) (after (ops : List (HloOp τ sig (Elt F))) V (Proc.devRef .tc main_arg1)) :=
  at_binary numbered 230 rfl (by decide) (by decide) rfl V
theorem eq_main_v201 (V : Valuation τ sig (Elt F)) : (after (ops : List (HloOp τ sig (Elt F))) V (Proc.devRef .tc main_v201)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 231 rfl (by decide) rfl V
theorem eq_main_v202 (V : Valuation τ sig (Elt F)) : (after (ops : List (HloOp τ sig (Elt F))) V (Proc.devRef .tc main_v202)) = ((broadcastInDim S128x2048 ![0, 1] bcast_S1x2048_S128x2048_0_1 : (⟨S1x2048, .f32⟩ : BufTy).Contents (Elt F) → (⟨S128x2048, .f32⟩ : BufTy).Contents (Elt F))) (after (ops : List (HloOp τ sig (Elt F))) V (Proc.devRef .tc main_v201)) :=
  at_unary numbered 232 rfl (by decide) rfl V
theorem eq_main_v203 (V : Valuation τ sig (Elt F)) : (after (ops : List (HloOp τ sig (Elt F))) V (Proc.devRef .tc main_v203)) = ((addf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v200)) (after (ops : List (HloOp τ sig (Elt F))) V (Proc.devRef .tc main_v202)) :=
  at_binary numbered 233 rfl (by decide) (by decide) rfl V
theorem eq_main_v204 (V : Valuation τ sig (Elt F)) : (after (ops : List (HloOp τ sig (Elt F))) V (Proc.devRef .tc main_v204)) = ((Host.negf : (⟨S128x2048, .f32⟩ : BufTy).Contents (Elt F) → (⟨S128x2048, .f32⟩ : BufTy).Contents (Elt F))) (after (ops : List (HloOp τ sig (Elt F))) V (Proc.devRef .tc main_v203)) :=
  at_unary numbered 234 rfl (by decide) rfl V
theorem eq_main_v205 (V : Valuation τ sig (Elt F)) : (after (ops : List (HloOp τ sig (Elt F))) V (Proc.devRef .tc main_v205)) = ((Host.exp : (⟨S128x2048, .f32⟩ : BufTy).Contents (Elt F) → (⟨S128x2048, .f32⟩ : BufTy).Contents (Elt F))) (after (ops : List (HloOp τ sig (Elt F))) V (Proc.devRef .tc main_v204)) :=
  at_unary numbered 235 rfl (by decide) rfl V
theorem eq_main_cst_28 (V : Valuation τ sig (Elt F)) : (after (ops : List (HloOp τ sig (Elt F))) V (Proc.devRef .tc main_cst_28)) = ((constant S_ .f32 0x3F800000#32)) :=
  at_nullary numbered 236 rfl rfl V
theorem eq_main_v206 (V : Valuation τ sig (Elt F)) : (after (ops : List (HloOp τ sig (Elt F))) V (Proc.devRef .tc main_v206)) = ((broadcastInDim S128x2048 ![] bcast_S_S128x2048 : (⟨S_, .f32⟩ : BufTy).Contents (Elt F) → (⟨S128x2048, .f32⟩ : BufTy).Contents (Elt F))) (after (ops : List (HloOp τ sig (Elt F))) V (Proc.devRef .tc main_cst_28)) :=
  at_unary numbered 237 rfl (by decide) rfl V
theorem eq_main_v207 (V : Valuation τ sig (Elt F)) : (after (ops : List (HloOp τ sig (Elt F))) V (Proc.devRef .tc main_v207)) = ((addf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v206)) (after (ops : List (HloOp τ sig (Elt F))) V (Proc.devRef .tc main_v205)) :=
  at_binary numbered 238 rfl (by decide) (by decide) rfl V
theorem eq_main_cst_29 (V : Valuation τ sig (Elt F)) : (after (ops : List (HloOp τ sig (Elt F))) V (Proc.devRef .tc main_cst_29)) = ((constant S_ .f32 0x3F800000#32)) :=
  at_nullary numbered 239 rfl rfl V
theorem eq_main_v208 (V : Valuation τ sig (Elt F)) : (after (ops : List (HloOp τ sig (Elt F))) V (Proc.devRef .tc main_v208)) = ((broadcastInDim S128x2048 ![] bcast_S_S128x2048 : (⟨S_, .f32⟩ : BufTy).Contents (Elt F) → (⟨S128x2048, .f32⟩ : BufTy).Contents (Elt F))) (after (ops : List (HloOp τ sig (Elt F))) V (Proc.devRef .tc main_cst_29)) :=
  at_unary numbered 240 rfl (by decide) rfl V
theorem eq_main_v209 (V : Valuation τ sig (Elt F)) : (after (ops : List (HloOp τ sig (Elt F))) V (Proc.devRef .tc main_v209)) = ((Host.divf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v208)) (after (ops : List (HloOp τ sig (Elt F))) V (Proc.devRef .tc main_v207)) :=
  at_binary numbered 241 rfl (by decide) (by decide) rfl V
theorem eq_main_v210 (V : Valuation τ sig (Elt F)) : (after (ops : List (HloOp τ sig (Elt F))) V (Proc.devRef .tc main_v210)) = (((fun l r => Host.dotGeneral dot_S128x2048_S2048x32001_S128x32001_1_0_0_1_n_n none l r) : (⟨S128x2048, .f32⟩ : BufTy).Contents (Elt F) → (⟨S2048x32001, .f32⟩ : BufTy).Contents (Elt F) → (⟨S128x32001, .f32⟩ : BufTy).Contents (Elt F))) (after (ops : List (HloOp τ sig (Elt F))) V (Proc.devRef .tc main_v209)) (after (ops : List (HloOp τ sig (Elt F))) V (Proc.devRef .tc main_arg3)) :=
  at_binary numbered 242 rfl (by decide) (by decide) rfl V
theorem eq_main_v211 (V : Valuation τ sig (Elt F)) : (after (ops : List (HloOp τ sig (Elt F))) V (Proc.devRef .tc main_v211)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 243 rfl (by decide) rfl V
theorem eq_main_v212 (V : Valuation τ sig (Elt F)) : (after (ops : List (HloOp τ sig (Elt F))) V (Proc.devRef .tc main_v212)) = ((broadcastInDim S128x32001 ![0, 1] bcast_S1x32001_S128x32001_0_1 : (⟨S1x32001, .f32⟩ : BufTy).Contents (Elt F) → (⟨S128x32001, .f32⟩ : BufTy).Contents (Elt F))) (after (ops : List (HloOp τ sig (Elt F))) V (Proc.devRef .tc main_v211)) :=
  at_unary numbered 244 rfl (by decide) rfl V
theorem eq_main_v213 (V : Valuation τ sig (Elt F)) : (after (ops : List (HloOp τ sig (Elt F))) V (Proc.devRef .tc main_v213)) = ((addf : (⟨S128x32001, .f32⟩ : BufTy).Contents (Elt F) → (⟨S128x32001, .f32⟩ : BufTy).Contents (Elt F) → (⟨S128x32001, .f32⟩ : BufTy).Contents (Elt F))) (after (ops : List (HloOp τ sig (Elt F))) V (Proc.devRef .tc main_v210)) (after (ops : List (HloOp τ sig (Elt F))) V (Proc.devRef .tc main_v212)) :=
  at_binary numbered 245 rfl (by decide) (by decide) rfl V
theorem eq_main_v214 (V : Valuation τ sig (Elt F)) : (after (ops : List (HloOp τ sig (Elt F))) V (Proc.devRef .tc main_v214)) = (((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (ops : List (HloOp τ sig (Elt F))) V (Proc.devRef .tc main_v199)) (after (ops : List (HloOp τ sig (Elt F))) V (Proc.devRef .tc main_arg5)) :=
  at_binary numbered 246 rfl (by decide) (by decide) rfl V
theorem eq_main_v215 (V : Valuation τ sig (Elt F)) : (after (ops : List (HloOp τ sig (Elt F))) V (Proc.devRef .tc main_v215)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 247 rfl (by decide) rfl V
theorem eq_main_v216 (V : Valuation τ sig (Elt F)) : (after (ops : List (HloOp τ sig (Elt F))) V (Proc.devRef .tc main_v216)) = ((broadcastInDim S128x2048 ![0, 1] bcast_S1x2048_S128x2048_0_1 : (⟨S1x2048, .f32⟩ : BufTy).Contents (Elt F) → (⟨S128x2048, .f32⟩ : BufTy).Contents (Elt F))) (after (ops : List (HloOp τ sig (Elt F))) V (Proc.devRef .tc main_v215)) :=
  at_unary numbered 248 rfl (by decide) rfl V
theorem eq_main_v217 (V : Valuation τ sig (Elt F)) : (after (ops : List (HloOp τ sig (Elt F))) V (Proc.devRef .tc main_v217)) = ((addf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v214)) (after (ops : List (HloOp τ sig (Elt F))) V (Proc.devRef .tc main_v216)) :=
  at_binary numbered 249 rfl (by decide) (by decide) rfl V
theorem eq_main_v218 (V : Valuation τ sig (Elt F)) : (after (ops : List (HloOp τ sig (Elt F))) V (Proc.devRef .tc main_v218)) = ((Host.negf : (⟨S128x2048, .f32⟩ : BufTy).Contents (Elt F) → (⟨S128x2048, .f32⟩ : BufTy).Contents (Elt F))) (after (ops : List (HloOp τ sig (Elt F))) V (Proc.devRef .tc main_v217)) :=
  at_unary numbered 250 rfl (by decide) rfl V
theorem eq_main_v219 (V : Valuation τ sig (Elt F)) : (after (ops : List (HloOp τ sig (Elt F))) V (Proc.devRef .tc main_v219)) = ((Host.exp : (⟨S128x2048, .f32⟩ : BufTy).Contents (Elt F) → (⟨S128x2048, .f32⟩ : BufTy).Contents (Elt F))) (after (ops : List (HloOp τ sig (Elt F))) V (Proc.devRef .tc main_v218)) :=
  at_unary numbered 251 rfl (by decide) rfl V
theorem eq_main_cst_30 (V : Valuation τ sig (Elt F)) : (after (ops : List (HloOp τ sig (Elt F))) V (Proc.devRef .tc main_cst_30)) = ((constant S_ .f32 0x3F800000#32)) :=
  at_nullary numbered 252 rfl rfl V
theorem eq_main_v220 (V : Valuation τ sig (Elt F)) : (after (ops : List (HloOp τ sig (Elt F))) V (Proc.devRef .tc main_v220)) = ((broadcastInDim S128x2048 ![] bcast_S_S128x2048 : (⟨S_, .f32⟩ : BufTy).Contents (Elt F) → (⟨S128x2048, .f32⟩ : BufTy).Contents (Elt F))) (after (ops : List (HloOp τ sig (Elt F))) V (Proc.devRef .tc main_cst_30)) :=
  at_unary numbered 253 rfl (by decide) rfl V
theorem eq_main_v221 (V : Valuation τ sig (Elt F)) : (after (ops : List (HloOp τ sig (Elt F))) V (Proc.devRef .tc main_v221)) = ((addf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v220)) (after (ops : List (HloOp τ sig (Elt F))) V (Proc.devRef .tc main_v219)) :=
  at_binary numbered 254 rfl (by decide) (by decide) rfl V
theorem eq_main_cst_31 (V : Valuation τ sig (Elt F)) : (after (ops : List (HloOp τ sig (Elt F))) V (Proc.devRef .tc main_cst_31)) = ((constant S_ .f32 0x3F800000#32)) :=
  at_nullary numbered 255 rfl rfl V
theorem eq_main_v222 (V : Valuation τ sig (Elt F)) : (after (ops : List (HloOp τ sig (Elt F))) V (Proc.devRef .tc main_v222)) = ((broadcastInDim S128x2048 ![] bcast_S_S128x2048 : (⟨S_, .f32⟩ : BufTy).Contents (Elt F) → (⟨S128x2048, .f32⟩ : BufTy).Contents (Elt F))) (after (ops : List (HloOp τ sig (Elt F))) V (Proc.devRef .tc main_cst_31)) :=
  at_unary numbered 256 rfl (by decide) rfl V
theorem eq_main_v223 (V : Valuation τ sig (Elt F)) : (after (ops : List (HloOp τ sig (Elt F))) V (Proc.devRef .tc main_v223)) = ((Host.divf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v222)) (after (ops : List (HloOp τ sig (Elt F))) V (Proc.devRef .tc main_v221)) :=
  at_binary numbered 257 rfl (by decide) (by decide) rfl V
theorem eq_main_v224 (V : Valuation τ sig (Elt F)) : (after (ops : List (HloOp τ sig (Elt F))) V (Proc.devRef .tc main_v224)) = (((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F))) (after (ops : List (HloOp τ sig (Elt F))) V (Proc.devRef .tc main_v223)) (after (ops : List (HloOp τ sig (Elt F))) V (Proc.devRef .tc main_arg7)) :=
  at_binary numbered 258 rfl (by decide) (by decide) rfl V
theorem eq_main_v225 (V : Valuation τ sig (Elt F)) : (after (ops : List (HloOp τ sig (Elt F))) V (Proc.devRef .tc main_v225)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 259 rfl (by decide) rfl V
theorem eq_main_v226 (V : Valuation τ sig (Elt F)) : (after (ops : List (HloOp τ sig (Elt F))) V (Proc.devRef .tc main_v226)) = ((broadcastInDim S128x2048 ![0, 1] bcast_S1x2048_S128x2048_0_1 : (⟨S1x2048, .f32⟩ : BufTy).Contents (Elt F) → (⟨S128x2048, .f32⟩ : BufTy).Contents (Elt F))) (after (ops : List (HloOp τ sig (Elt F))) V (Proc.devRef .tc main_v225)) :=
  at_unary numbered 260 rfl (by decide) rfl V
theorem eq_main_v227 (V : Valuation τ sig (Elt F)) : (after (ops : List (HloOp τ sig (Elt F))) V (Proc.devRef .tc main_v227)) = ((addf : (⟨S128x2048, .f32⟩ : BufTy).Contents (Elt F) → (⟨S128x2048, .f32⟩ : BufTy).Contents (Elt F) → (⟨S128x2048, .f32⟩ : BufTy).Contents (Elt F))) (after (ops : List (HloOp τ sig (Elt F))) V (Proc.devRef .tc main_v224)) (after (ops : List (HloOp τ sig (Elt F))) V (Proc.devRef .tc main_v226)) :=
  at_binary numbered 261 rfl (by decide) (by decide) rfl V
theorem eq_main_v228 (V : Valuation τ sig (Elt F)) : (after (ops : List (HloOp τ sig (Elt F))) V (Proc.devRef .tc main_v228)) = shapeCast S256x1024 (after (ops : List (HloOp τ sig (Elt F))) V (Proc.devRef .tc main_v227)) shapeCasts_S128x2048_S256x1024 :=
  (at_reshape numbered 262 rfl (by decide) rfl V).trans rfl
theorem eq_main_v229 (V : Valuation τ sig (Elt F)) : (after (ops : List (HloOp τ sig (Elt F))) V (Proc.devRef .tc main_v229)) = (((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (ops : List (HloOp τ sig (Elt F))) V (Proc.devRef .tc main_v228)) (after (ops : List (HloOp τ sig (Elt F))) V (Proc.devRef .tc main_arg1)) :=
  at_binary numbered 263 rfl (by decide) (by decide) rfl V
theorem eq_main_v230 (V : Valuation τ sig (Elt F)) : (after (ops : List (HloOp τ sig (Elt F))) V (Proc.devRef .tc main_v230)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 264 rfl (by decide) rfl V
theorem eq_main_v231 (V : Valuation τ sig (Elt F)) : (after (ops : List (HloOp τ sig (Elt F))) V (Proc.devRef .tc main_v231)) = ((broadcastInDim S256x2048 ![0, 1] bcast_S1x2048_S256x2048_0_1 : (⟨S1x2048, .f32⟩ : BufTy).Contents (Elt F) → (⟨S256x2048, .f32⟩ : BufTy).Contents (Elt F))) (after (ops : List (HloOp τ sig (Elt F))) V (Proc.devRef .tc main_v230)) :=
  at_unary numbered 265 rfl (by decide) rfl V
theorem eq_main_v232 (V : Valuation τ sig (Elt F)) : (after (ops : List (HloOp τ sig (Elt F))) V (Proc.devRef .tc main_v232)) = ((addf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v229)) (after (ops : List (HloOp τ sig (Elt F))) V (Proc.devRef .tc main_v231)) :=
  at_binary numbered 266 rfl (by decide) (by decide) rfl V
theorem eq_main_v233 (V : Valuation τ sig (Elt F)) : (after (ops : List (HloOp τ sig (Elt F))) V (Proc.devRef .tc main_v233)) = ((Host.negf : (⟨S256x2048, .f32⟩ : BufTy).Contents (Elt F) → (⟨S256x2048, .f32⟩ : BufTy).Contents (Elt F))) (after (ops : List (HloOp τ sig (Elt F))) V (Proc.devRef .tc main_v232)) :=
  at_unary numbered 267 rfl (by decide) rfl V
theorem eq_main_v234 (V : Valuation τ sig (Elt F)) : (after (ops : List (HloOp τ sig (Elt F))) V (Proc.devRef .tc main_v234)) = ((Host.exp : (⟨S256x2048, .f32⟩ : BufTy).Contents (Elt F) → (⟨S256x2048, .f32⟩ : BufTy).Contents (Elt F))) (after (ops : List (HloOp τ sig (Elt F))) V (Proc.devRef .tc main_v233)) :=
  at_unary numbered 268 rfl (by decide) rfl V
theorem eq_main_cst_32 (V : Valuation τ sig (Elt F)) : (after (ops : List (HloOp τ sig (Elt F))) V (Proc.devRef .tc main_cst_32)) = ((constant S_ .f32 0x3F800000#32)) :=
  at_nullary numbered 269 rfl rfl V
theorem eq_main_v235 (V : Valuation τ sig (Elt F)) : (after (ops : List (HloOp τ sig (Elt F))) V (Proc.devRef .tc main_v235)) = ((broadcastInDim S256x2048 ![] bcast_S_S256x2048 : (⟨S_, .f32⟩ : BufTy).Contents (Elt F) → (⟨S256x2048, .f32⟩ : BufTy).Contents (Elt F))) (after (ops : List (HloOp τ sig (Elt F))) V (Proc.devRef .tc main_cst_32)) :=
  at_unary numbered 270 rfl (by decide) rfl V
theorem eq_main_v236 (V : Valuation τ sig (Elt F)) : (after (ops : List (HloOp τ sig (Elt F))) V (Proc.devRef .tc main_v236)) = ((addf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v235)) (after (ops : List (HloOp τ sig (Elt F))) V (Proc.devRef .tc main_v234)) :=
  at_binary numbered 271 rfl (by decide) (by decide) rfl V
theorem eq_main_cst_33 (V : Valuation τ sig (Elt F)) : (after (ops : List (HloOp τ sig (Elt F))) V (Proc.devRef .tc main_cst_33)) = ((constant S_ .f32 0x3F800000#32)) :=
  at_nullary numbered 272 rfl rfl V
theorem eq_main_v237 (V : Valuation τ sig (Elt F)) : (after (ops : List (HloOp τ sig (Elt F))) V (Proc.devRef .tc main_v237)) = ((broadcastInDim S256x2048 ![] bcast_S_S256x2048 : (⟨S_, .f32⟩ : BufTy).Contents (Elt F) → (⟨S256x2048, .f32⟩ : BufTy).Contents (Elt F))) (after (ops : List (HloOp τ sig (Elt F))) V (Proc.devRef .tc main_cst_33)) :=
  at_unary numbered 273 rfl (by decide) rfl V
theorem eq_main_v238 (V : Valuation τ sig (Elt F)) : (after (ops : List (HloOp τ sig (Elt F))) V (Proc.devRef .tc main_v238)) = ((Host.divf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v237)) (after (ops : List (HloOp τ sig (Elt F))) V (Proc.devRef .tc main_v236)) :=
  at_binary numbered 274 rfl (by decide) (by decide) rfl V
theorem eq_main_v239 (V : Valuation τ sig (Elt F)) : (after (ops : List (HloOp τ sig (Elt F))) V (Proc.devRef .tc main_v239)) = (((fun l r => Host.dotGeneral dot_S256x2048_S2048x32001_S256x32001_1_0_0_1_n_n none l r) : (⟨S256x2048, .f32⟩ : BufTy).Contents (Elt F) → (⟨S2048x32001, .f32⟩ : BufTy).Contents (Elt F) → (⟨S256x32001, .f32⟩ : BufTy).Contents (Elt F))) (after (ops : List (HloOp τ sig (Elt F))) V (Proc.devRef .tc main_v238)) (after (ops : List (HloOp τ sig (Elt F))) V (Proc.devRef .tc main_arg3)) :=
  at_binary numbered 275 rfl (by decide) (by decide) rfl V
theorem eq_main_v240 (V : Valuation τ sig (Elt F)) : (after (ops : List (HloOp τ sig (Elt F))) V (Proc.devRef .tc main_v240)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 276 rfl (by decide) rfl V
theorem eq_main_v241 (V : Valuation τ sig (Elt F)) : (after (ops : List (HloOp τ sig (Elt F))) V (Proc.devRef .tc main_v241)) = ((broadcastInDim S256x32001 ![0, 1] bcast_S1x32001_S256x32001_0_1 : (⟨S1x32001, .f32⟩ : BufTy).Contents (Elt F) → (⟨S256x32001, .f32⟩ : BufTy).Contents (Elt F))) (after (ops : List (HloOp τ sig (Elt F))) V (Proc.devRef .tc main_v240)) :=
  at_unary numbered 277 rfl (by decide) rfl V
theorem eq_main_v242 (V : Valuation τ sig (Elt F)) : (after (ops : List (HloOp τ sig (Elt F))) V (Proc.devRef .tc main_v242)) = ((addf : (⟨S256x32001, .f32⟩ : BufTy).Contents (Elt F) → (⟨S256x32001, .f32⟩ : BufTy).Contents (Elt F) → (⟨S256x32001, .f32⟩ : BufTy).Contents (Elt F))) (after (ops : List (HloOp τ sig (Elt F))) V (Proc.devRef .tc main_v239)) (after (ops : List (HloOp τ sig (Elt F))) V (Proc.devRef .tc main_v241)) :=
  at_binary numbered 278 rfl (by decide) (by decide) rfl V
theorem eq_main_v243 (V : Valuation τ sig (Elt F)) : (after (ops : List (HloOp τ sig (Elt F))) V (Proc.devRef .tc main_v243)) = (((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (ops : List (HloOp τ sig (Elt F))) V (Proc.devRef .tc main_v228)) (after (ops : List (HloOp τ sig (Elt F))) V (Proc.devRef .tc main_arg5)) :=
  at_binary numbered 279 rfl (by decide) (by decide) rfl V
theorem eq_main_v244 (V : Valuation τ sig (Elt F)) : (after (ops : List (HloOp τ sig (Elt F))) V (Proc.devRef .tc main_v244)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 280 rfl (by decide) rfl V
theorem eq_main_v245 (V : Valuation τ sig (Elt F)) : (after (ops : List (HloOp τ sig (Elt F))) V (Proc.devRef .tc main_v245)) = ((broadcastInDim S256x2048 ![0, 1] bcast_S1x2048_S256x2048_0_1 : (⟨S1x2048, .f32⟩ : BufTy).Contents (Elt F) → (⟨S256x2048, .f32⟩ : BufTy).Contents (Elt F))) (after (ops : List (HloOp τ sig (Elt F))) V (Proc.devRef .tc main_v244)) :=
  at_unary numbered 281 rfl (by decide) rfl V
theorem eq_main_v246 (V : Valuation τ sig (Elt F)) : (after (ops : List (HloOp τ sig (Elt F))) V (Proc.devRef .tc main_v246)) = ((addf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v243)) (after (ops : List (HloOp τ sig (Elt F))) V (Proc.devRef .tc main_v245)) :=
  at_binary numbered 282 rfl (by decide) (by decide) rfl V
theorem eq_main_v247 (V : Valuation τ sig (Elt F)) : (after (ops : List (HloOp τ sig (Elt F))) V (Proc.devRef .tc main_v247)) = ((Host.negf : (⟨S256x2048, .f32⟩ : BufTy).Contents (Elt F) → (⟨S256x2048, .f32⟩ : BufTy).Contents (Elt F))) (after (ops : List (HloOp τ sig (Elt F))) V (Proc.devRef .tc main_v246)) :=
  at_unary numbered 283 rfl (by decide) rfl V
theorem eq_main_v248 (V : Valuation τ sig (Elt F)) : (after (ops : List (HloOp τ sig (Elt F))) V (Proc.devRef .tc main_v248)) = ((Host.exp : (⟨S256x2048, .f32⟩ : BufTy).Contents (Elt F) → (⟨S256x2048, .f32⟩ : BufTy).Contents (Elt F))) (after (ops : List (HloOp τ sig (Elt F))) V (Proc.devRef .tc main_v247)) :=
  at_unary numbered 284 rfl (by decide) rfl V
theorem eq_main_cst_34 (V : Valuation τ sig (Elt F)) : (after (ops : List (HloOp τ sig (Elt F))) V (Proc.devRef .tc main_cst_34)) = ((constant S_ .f32 0x3F800000#32)) :=
  at_nullary numbered 285 rfl rfl V
theorem eq_main_v249 (V : Valuation τ sig (Elt F)) : (after (ops : List (HloOp τ sig (Elt F))) V (Proc.devRef .tc main_v249)) = ((broadcastInDim S256x2048 ![] bcast_S_S256x2048 : (⟨S_, .f32⟩ : BufTy).Contents (Elt F) → (⟨S256x2048, .f32⟩ : BufTy).Contents (Elt F))) (after (ops : List (HloOp τ sig (Elt F))) V (Proc.devRef .tc main_cst_34)) :=
  at_unary numbered 286 rfl (by decide) rfl V
theorem eq_main_v250 (V : Valuation τ sig (Elt F)) : (after (ops : List (HloOp τ sig (Elt F))) V (Proc.devRef .tc main_v250)) = ((addf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v249)) (after (ops : List (HloOp τ sig (Elt F))) V (Proc.devRef .tc main_v248)) :=
  at_binary numbered 287 rfl (by decide) (by decide) rfl V
theorem eq_main_cst_35 (V : Valuation τ sig (Elt F)) : (after (ops : List (HloOp τ sig (Elt F))) V (Proc.devRef .tc main_cst_35)) = ((constant S_ .f32 0x3F800000#32)) :=
  at_nullary numbered 288 rfl rfl V
theorem eq_main_v251 (V : Valuation τ sig (Elt F)) : (after (ops : List (HloOp τ sig (Elt F))) V (Proc.devRef .tc main_v251)) = ((broadcastInDim S256x2048 ![] bcast_S_S256x2048 : (⟨S_, .f32⟩ : BufTy).Contents (Elt F) → (⟨S256x2048, .f32⟩ : BufTy).Contents (Elt F))) (after (ops : List (HloOp τ sig (Elt F))) V (Proc.devRef .tc main_cst_35)) :=
  at_unary numbered 289 rfl (by decide) rfl V
theorem eq_main_v252 (V : Valuation τ sig (Elt F)) : (after (ops : List (HloOp τ sig (Elt F))) V (Proc.devRef .tc main_v252)) = ((Host.divf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v251)) (after (ops : List (HloOp τ sig (Elt F))) V (Proc.devRef .tc main_v250)) :=
  at_binary numbered 290 rfl (by decide) (by decide) rfl V
theorem eq_main_v253 (V : Valuation τ sig (Elt F)) : (after (ops : List (HloOp τ sig (Elt F))) V (Proc.devRef .tc main_v253)) = (((fun l r => Host.dotGeneral dot_S256x2048_S2048x2048_S256x2048_1_0_0_1_n_n none l r) : (⟨S256x2048, .f32⟩ : BufTy).Contents (Elt F) → (⟨S2048x2048, .f32⟩ : BufTy).Contents (Elt F) → (⟨S256x2048, .f32⟩ : BufTy).Contents (Elt F))) (after (ops : List (HloOp τ sig (Elt F))) V (Proc.devRef .tc main_v252)) (after (ops : List (HloOp τ sig (Elt F))) V (Proc.devRef .tc main_arg7)) :=
  at_binary numbered 291 rfl (by decide) (by decide) rfl V
theorem eq_main_v254 (V : Valuation τ sig (Elt F)) : (after (ops : List (HloOp τ sig (Elt F))) V (Proc.devRef .tc main_v254)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 292 rfl (by decide) rfl V
theorem eq_main_v255 (V : Valuation τ sig (Elt F)) : (after (ops : List (HloOp τ sig (Elt F))) V (Proc.devRef .tc main_v255)) = ((broadcastInDim S256x2048 ![0, 1] bcast_S1x2048_S256x2048_0_1 : (⟨S1x2048, .f32⟩ : BufTy).Contents (Elt F) → (⟨S256x2048, .f32⟩ : BufTy).Contents (Elt F))) (after (ops : List (HloOp τ sig (Elt F))) V (Proc.devRef .tc main_v254)) :=
  at_unary numbered 293 rfl (by decide) rfl V
theorem eq_main_v256 (V : Valuation τ sig (Elt F)) : (after (ops : List (HloOp τ sig (Elt F))) V (Proc.devRef .tc main_v256)) = ((addf : (⟨S256x2048, .f32⟩ : BufTy).Contents (Elt F) → (⟨S256x2048, .f32⟩ : BufTy).Contents (Elt F) → (⟨S256x2048, .f32⟩ : BufTy).Contents (Elt F))) (after (ops : List (HloOp τ sig (Elt F))) V (Proc.devRef .tc main_v253)) (after (ops : List (HloOp τ sig (Elt F))) V (Proc.devRef .tc main_v255)) :=
  at_binary numbered 294 rfl (by decide) (by decide) rfl V
theorem eq_main_v257 (V : Valuation τ sig (Elt F)) : (after (ops : List (HloOp τ sig (Elt F))) V (Proc.devRef .tc main_v257)) = shapeCast S512x1024 (after (ops : List (HloOp τ sig (Elt F))) V (Proc.devRef .tc main_v256)) shapeCasts_S256x2048_S512x1024 :=
  (at_reshape numbered 295 rfl (by decide) rfl V).trans rfl
theorem eq_main_v258 (V : Valuation τ sig (Elt F)) : (after (ops : List (HloOp τ sig (Elt F))) V (Proc.devRef .tc main_v258)) = (((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (ops : List (HloOp τ sig (Elt F))) V (Proc.devRef .tc main_v257)) (after (ops : List (HloOp τ sig (Elt F))) V (Proc.devRef .tc main_arg1)) :=
  at_binary numbered 296 rfl (by decide) (by decide) rfl V
theorem eq_main_v259 (V : Valuation τ sig (Elt F)) : (after (ops : List (HloOp τ sig (Elt F))) V (Proc.devRef .tc main_v259)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 297 rfl (by decide) rfl V
theorem eq_main_v260 (V : Valuation τ sig (Elt F)) : (after (ops : List (HloOp τ sig (Elt F))) V (Proc.devRef .tc main_v260)) = ((broadcastInDim S512x2048 ![0, 1] bcast_S1x2048_S512x2048_0_1 : (⟨S1x2048, .f32⟩ : BufTy).Contents (Elt F) → (⟨S512x2048, .f32⟩ : BufTy).Contents (Elt F))) (after (ops : List (HloOp τ sig (Elt F))) V (Proc.devRef .tc main_v259)) :=
  at_unary numbered 298 rfl (by decide) rfl V
theorem eq_main_v261 (V : Valuation τ sig (Elt F)) : (after (ops : List (HloOp τ sig (Elt F))) V (Proc.devRef .tc main_v261)) = ((addf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v258)) (after (ops : List (HloOp τ sig (Elt F))) V (Proc.devRef .tc main_v260)) :=
  at_binary numbered 299 rfl (by decide) (by decide) rfl V
theorem eq_main_v262 (V : Valuation τ sig (Elt F)) : (after (ops : List (HloOp τ sig (Elt F))) V (Proc.devRef .tc main_v262)) = ((Host.negf : (⟨S512x2048, .f32⟩ : BufTy).Contents (Elt F) → (⟨S512x2048, .f32⟩ : BufTy).Contents (Elt F))) (after (ops : List (HloOp τ sig (Elt F))) V (Proc.devRef .tc main_v261)) :=
  at_unary numbered 300 rfl (by decide) rfl V
theorem eq_main_v263 (V : Valuation τ sig (Elt F)) : (after (ops : List (HloOp τ sig (Elt F))) V (Proc.devRef .tc main_v263)) = ((Host.exp : (⟨S512x2048, .f32⟩ : BufTy).Contents (Elt F) → (⟨S512x2048, .f32⟩ : BufTy).Contents (Elt F))) (after (ops : List (HloOp τ sig (Elt F))) V (Proc.devRef .tc main_v262)) :=
  at_unary numbered 301 rfl (by decide) rfl V
theorem eq_main_cst_36 (V : Valuation τ sig (Elt F)) : (after (ops : List (HloOp τ sig (Elt F))) V (Proc.devRef .tc main_cst_36)) = ((constant S_ .f32 0x3F800000#32)) :=
  at_nullary numbered 302 rfl rfl V
theorem eq_main_v264 (V : Valuation τ sig (Elt F)) : (after (ops : List (HloOp τ sig (Elt F))) V (Proc.devRef .tc main_v264)) = ((broadcastInDim S512x2048 ![] bcast_S_S512x2048 : (⟨S_, .f32⟩ : BufTy).Contents (Elt F) → (⟨S512x2048, .f32⟩ : BufTy).Contents (Elt F))) (after (ops : List (HloOp τ sig (Elt F))) V (Proc.devRef .tc main_cst_36)) :=
  at_unary numbered 303 rfl (by decide) rfl V
theorem eq_main_v265 (V : Valuation τ sig (Elt F)) : (after (ops : List (HloOp τ sig (Elt F))) V (Proc.devRef .tc main_v265)) = ((addf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v264)) (after (ops : List (HloOp τ sig (Elt F))) V (Proc.devRef .tc main_v263)) :=
  at_binary numbered 304 rfl (by decide) (by decide) rfl V
theorem eq_main_cst_37 (V : Valuation τ sig (Elt F)) : (after (ops : List (HloOp τ sig (Elt F))) V (Proc.devRef .tc main_cst_37)) = ((constant S_ .f32 0x3F800000#32)) :=
  at_nullary numbered 305 rfl rfl V
theorem eq_main_v266 (V : Valuation τ sig (Elt F)) : (after (ops : List (HloOp τ sig (Elt F))) V (Proc.devRef .tc main_v266)) = ((broadcastInDim S512x2048 ![] bcast_S_S512x2048 : (⟨S_, .f32⟩ : BufTy).Contents (Elt F) → (⟨S512x2048, .f32⟩ : BufTy).Contents (Elt F))) (after (ops : List (HloOp τ sig (Elt F))) V (Proc.devRef .tc main_cst_37)) :=
  at_unary numbered 306 rfl (by decide) rfl V
theorem eq_main_v267 (V : Valuation τ sig (Elt F)) : (after (ops : List (HloOp τ sig (Elt F))) V (Proc.devRef .tc main_v267)) = ((Host.divf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v266)) (after (ops : List (HloOp τ sig (Elt F))) V (Proc.devRef .tc main_v265)) :=
  at_binary numbered 307 rfl (by decide) (by decide) rfl V
theorem eq_main_v268 (V : Valuation τ sig (Elt F)) : (after (ops : List (HloOp τ sig (Elt F))) V (Proc.devRef .tc main_v268)) = (((fun l r => Host.dotGeneral dot_S512x2048_S2048x32001_S512x32001_1_0_0_1_n_n none l r) : (⟨S512x2048, .f32⟩ : BufTy).Contents (Elt F) → (⟨S2048x32001, .f32⟩ : BufTy).Contents (Elt F) → (⟨S512x32001, .f32⟩ : BufTy).Contents (Elt F))) (after (ops : List (HloOp τ sig (Elt F))) V (Proc.devRef .tc main_v267)) (after (ops : List (HloOp τ sig (Elt F))) V (Proc.devRef .tc main_arg3)) :=
  at_binary numbered 308 rfl (by decide) (by decide) rfl V
theorem eq_main_v269 (V : Valuation τ sig (Elt F)) : (after (ops : List (HloOp τ sig (Elt F))) V (Proc.devRef .tc main_v269)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 309 rfl (by decide) rfl V
theorem eq_main_v270 (V : Valuation τ sig (Elt F)) : (after (ops : List (HloOp τ sig (Elt F))) V (Proc.devRef .tc main_v270)) = ((broadcastInDim S512x32001 ![0, 1] bcast_S1x32001_S512x32001_0_1 : (⟨S1x32001, .f32⟩ : BufTy).Contents (Elt F) → (⟨S512x32001, .f32⟩ : BufTy).Contents (Elt F))) (after (ops : List (HloOp τ sig (Elt F))) V (Proc.devRef .tc main_v269)) :=
  at_unary numbered 310 rfl (by decide) rfl V
theorem eq_main_v271 (V : Valuation τ sig (Elt F)) : (after (ops : List (HloOp τ sig (Elt F))) V (Proc.devRef .tc main_v271)) = ((addf : (⟨S512x32001, .f32⟩ : BufTy).Contents (Elt F) → (⟨S512x32001, .f32⟩ : BufTy).Contents (Elt F) → (⟨S512x32001, .f32⟩ : BufTy).Contents (Elt F))) (after (ops : List (HloOp τ sig (Elt F))) V (Proc.devRef .tc main_v268)) (after (ops : List (HloOp τ sig (Elt F))) V (Proc.devRef .tc main_v270)) :=
  at_binary numbered 311 rfl (by decide) (by decide) rfl V
theorem eq_main_v272 (V : Valuation τ sig (Elt F)) : (after (ops : List (HloOp τ sig (Elt F))) V (Proc.devRef .tc main_v272)) = (((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (ops : List (HloOp τ sig (Elt F))) V (Proc.devRef .tc main_v257)) (after (ops : List (HloOp τ sig (Elt F))) V (Proc.devRef .tc main_arg5)) :=
  at_binary numbered 312 rfl (by decide) (by decide) rfl V
theorem eq_main_v273 (V : Valuation τ sig (Elt F)) : (after (ops : List (HloOp τ sig (Elt F))) V (Proc.devRef .tc main_v273)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 313 rfl (by decide) rfl V
theorem eq_main_v274 (V : Valuation τ sig (Elt F)) : (after (ops : List (HloOp τ sig (Elt F))) V (Proc.devRef .tc main_v274)) = ((broadcastInDim S512x2048 ![0, 1] bcast_S1x2048_S512x2048_0_1 : (⟨S1x2048, .f32⟩ : BufTy).Contents (Elt F) → (⟨S512x2048, .f32⟩ : BufTy).Contents (Elt F))) (after (ops : List (HloOp τ sig (Elt F))) V (Proc.devRef .tc main_v273)) :=
  at_unary numbered 314 rfl (by decide) rfl V
theorem eq_main_v275 (V : Valuation τ sig (Elt F)) : (after (ops : List (HloOp τ sig (Elt F))) V (Proc.devRef .tc main_v275)) = ((addf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v272)) (after (ops : List (HloOp τ sig (Elt F))) V (Proc.devRef .tc main_v274)) :=
  at_binary numbered 315 rfl (by decide) (by decide) rfl V
theorem eq_main_v276 (V : Valuation τ sig (Elt F)) : (after (ops : List (HloOp τ sig (Elt F))) V (Proc.devRef .tc main_v276)) = ((Host.negf : (⟨S512x2048, .f32⟩ : BufTy).Contents (Elt F) → (⟨S512x2048, .f32⟩ : BufTy).Contents (Elt F))) (after (ops : List (HloOp τ sig (Elt F))) V (Proc.devRef .tc main_v275)) :=
  at_unary numbered 316 rfl (by decide) rfl V
theorem eq_main_v277 (V : Valuation τ sig (Elt F)) : (after (ops : List (HloOp τ sig (Elt F))) V (Proc.devRef .tc main_v277)) = ((Host.exp : (⟨S512x2048, .f32⟩ : BufTy).Contents (Elt F) → (⟨S512x2048, .f32⟩ : BufTy).Contents (Elt F))) (after (ops : List (HloOp τ sig (Elt F))) V (Proc.devRef .tc main_v276)) :=
  at_unary numbered 317 rfl (by decide) rfl V
theorem eq_main_cst_38 (V : Valuation τ sig (Elt F)) : (after (ops : List (HloOp τ sig (Elt F))) V (Proc.devRef .tc main_cst_38)) = ((constant S_ .f32 0x3F800000#32)) :=
  at_nullary numbered 318 rfl rfl V
theorem eq_main_v278 (V : Valuation τ sig (Elt F)) : (after (ops : List (HloOp τ sig (Elt F))) V (Proc.devRef .tc main_v278)) = ((broadcastInDim S512x2048 ![] bcast_S_S512x2048 : (⟨S_, .f32⟩ : BufTy).Contents (Elt F) → (⟨S512x2048, .f32⟩ : BufTy).Contents (Elt F))) (after (ops : List (HloOp τ sig (Elt F))) V (Proc.devRef .tc main_cst_38)) :=
  at_unary numbered 319 rfl (by decide) rfl V
theorem eq_main_v279 (V : Valuation τ sig (Elt F)) : (after (ops : List (HloOp τ sig (Elt F))) V (Proc.devRef .tc main_v279)) = ((addf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v278)) (after (ops : List (HloOp τ sig (Elt F))) V (Proc.devRef .tc main_v277)) :=
  at_binary numbered 320 rfl (by decide) (by decide) rfl V
theorem eq_main_cst_39 (V : Valuation τ sig (Elt F)) : (after (ops : List (HloOp τ sig (Elt F))) V (Proc.devRef .tc main_cst_39)) = ((constant S_ .f32 0x3F800000#32)) :=
  at_nullary numbered 321 rfl rfl V
theorem eq_main_v280 (V : Valuation τ sig (Elt F)) : (after (ops : List (HloOp τ sig (Elt F))) V (Proc.devRef .tc main_v280)) = ((broadcastInDim S512x2048 ![] bcast_S_S512x2048 : (⟨S_, .f32⟩ : BufTy).Contents (Elt F) → (⟨S512x2048, .f32⟩ : BufTy).Contents (Elt F))) (after (ops : List (HloOp τ sig (Elt F))) V (Proc.devRef .tc main_cst_39)) :=
  at_unary numbered 322 rfl (by decide) rfl V
theorem eq_main_v281 (V : Valuation τ sig (Elt F)) : (after (ops : List (HloOp τ sig (Elt F))) V (Proc.devRef .tc main_v281)) = ((Host.divf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v280)) (after (ops : List (HloOp τ sig (Elt F))) V (Proc.devRef .tc main_v279)) :=
  at_binary numbered 323 rfl (by decide) (by decide) rfl V
theorem eq_main_v282 (V : Valuation τ sig (Elt F)) : (after (ops : List (HloOp τ sig (Elt F))) V (Proc.devRef .tc main_v282)) = (((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F))) (after (ops : List (HloOp τ sig (Elt F))) V (Proc.devRef .tc main_v281)) (after (ops : List (HloOp τ sig (Elt F))) V (Proc.devRef .tc main_arg7)) :=
  at_binary numbered 324 rfl (by decide) (by decide) rfl V
theorem eq_main_v283 (V : Valuation τ sig (Elt F)) : (after (ops : List (HloOp τ sig (Elt F))) V (Proc.devRef .tc main_v283)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 325 rfl (by decide) rfl V
theorem eq_main_v284 (V : Valuation τ sig (Elt F)) : (after (ops : List (HloOp τ sig (Elt F))) V (Proc.devRef .tc main_v284)) = ((broadcastInDim S512x2048 ![0, 1] bcast_S1x2048_S512x2048_0_1 : (⟨S1x2048, .f32⟩ : BufTy).Contents (Elt F) → (⟨S512x2048, .f32⟩ : BufTy).Contents (Elt F))) (after (ops : List (HloOp τ sig (Elt F))) V (Proc.devRef .tc main_v283)) :=
  at_unary numbered 326 rfl (by decide) rfl V
theorem eq_main_v285 (V : Valuation τ sig (Elt F)) : (after (ops : List (HloOp τ sig (Elt F))) V (Proc.devRef .tc main_v285)) = ((addf : (⟨S512x2048, .f32⟩ : BufTy).Contents (Elt F) → (⟨S512x2048, .f32⟩ : BufTy).Contents (Elt F) → (⟨S512x2048, .f32⟩ : BufTy).Contents (Elt F))) (after (ops : List (HloOp τ sig (Elt F))) V (Proc.devRef .tc main_v282)) (after (ops : List (HloOp τ sig (Elt F))) V (Proc.devRef .tc main_v284)) :=
  at_binary numbered 327 rfl (by decide) (by decide) rfl V
theorem eq_main_v286 (V : Valuation τ sig (Elt F)) : (after (ops : List (HloOp τ sig (Elt F))) V (Proc.devRef .tc main_v286)) = shapeCast S1024x1024 (after (ops : List (HloOp τ sig (Elt F))) V (Proc.devRef .tc main_v285)) shapeCasts_S512x2048_S1024x1024 :=
  (at_reshape numbered 328 rfl (by decide) rfl V).trans rfl
theorem eq_main_v287 (V : Valuation τ sig (Elt F)) : (after (ops : List (HloOp τ sig (Elt F))) V (Proc.devRef .tc main_v287)) = (((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v286)) (after (ops : List (HloOp τ sig (Elt F))) V (Proc.devRef .tc main_arg1)) :=
  at_binary numbered 329 rfl (by decide) (by decide) rfl V
theorem eq_main_v288 (V : Valuation τ sig (Elt F)) : (after (ops : List (HloOp τ sig (Elt F))) V (Proc.devRef .tc main_v288)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 330 rfl (by decide) rfl V
theorem eq_main_v289 (V : Valuation τ sig (Elt F)) : (after (ops : List (HloOp τ sig (Elt F))) V (Proc.devRef .tc main_v289)) = ((broadcastInDim S1024x2048 ![0, 1] bcast_S1x2048_S1024x2048_0_1 : (⟨S1x2048, .f32⟩ : BufTy).Contents (Elt F) → (⟨S1024x2048, .f32⟩ : BufTy).Contents (Elt F))) (after (ops : List (HloOp τ sig (Elt F))) V (Proc.devRef .tc main_v288)) :=
  at_unary numbered 331 rfl (by decide) rfl V
theorem eq_main_v290 (V : Valuation τ sig (Elt F)) : (after (ops : List (HloOp τ sig (Elt F))) V (Proc.devRef .tc main_v290)) = ((addf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v287)) (after (ops : List (HloOp τ sig (Elt F))) V (Proc.devRef .tc main_v289)) :=
  at_binary numbered 332 rfl (by decide) (by decide) rfl V
theorem eq_main_v291 (V : Valuation τ sig (Elt F)) : (after (ops : List (HloOp τ sig (Elt F))) V (Proc.devRef .tc main_v291)) = ((Host.negf : (⟨S1024x2048, .f32⟩ : BufTy).Contents (Elt F) → (⟨S1024x2048, .f32⟩ : BufTy).Contents (Elt F))) (after (ops : List (HloOp τ sig (Elt F))) V (Proc.devRef .tc main_v290)) :=
  at_unary numbered 333 rfl (by decide) rfl V
theorem eq_main_v292 (V : Valuation τ sig (Elt F)) : (after (ops : List (HloOp τ sig (Elt F))) V (Proc.devRef .tc main_v292)) = ((Host.exp : (⟨S1024x2048, .f32⟩ : BufTy).Contents (Elt F) → (⟨S1024x2048, .f32⟩ : BufTy).Contents (Elt F))) (after (ops : List (HloOp τ sig (Elt F))) V (Proc.devRef .tc main_v291)) :=
  at_unary numbered 334 rfl (by decide) rfl V
theorem eq_main_cst_40 (V : Valuation τ sig (Elt F)) : (after (ops : List (HloOp τ sig (Elt F))) V (Proc.devRef .tc main_cst_40)) = ((constant S_ .f32 0x3F800000#32)) :=
  at_nullary numbered 335 rfl rfl V
theorem eq_main_v293 (V : Valuation τ sig (Elt F)) : (after (ops : List (HloOp τ sig (Elt F))) V (Proc.devRef .tc main_v293)) = ((broadcastInDim S1024x2048 ![] bcast_S_S1024x2048 : (⟨S_, .f32⟩ : BufTy).Contents (Elt F) → (⟨S1024x2048, .f32⟩ : BufTy).Contents (Elt F))) (after (ops : List (HloOp τ sig (Elt F))) V (Proc.devRef .tc main_cst_40)) :=
  at_unary numbered 336 rfl (by decide) rfl V
theorem eq_main_v294 (V : Valuation τ sig (Elt F)) : (after (ops : List (HloOp τ sig (Elt F))) V (Proc.devRef .tc main_v294)) = ((addf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v293)) (after (ops : List (HloOp τ sig (Elt F))) V (Proc.devRef .tc main_v292)) :=
  at_binary numbered 337 rfl (by decide) (by decide) rfl V
theorem eq_main_cst_41 (V : Valuation τ sig (Elt F)) : (after (ops : List (HloOp τ sig (Elt F))) V (Proc.devRef .tc main_cst_41)) = ((constant S_ .f32 0x3F800000#32)) :=
  at_nullary numbered 338 rfl rfl V
theorem eq_main_v295 (V : Valuation τ sig (Elt F)) : (after (ops : List (HloOp τ sig (Elt F))) V (Proc.devRef .tc main_v295)) = ((broadcastInDim S1024x2048 ![] bcast_S_S1024x2048 : (⟨S_, .f32⟩ : BufTy).Contents (Elt F) → (⟨S1024x2048, .f32⟩ : BufTy).Contents (Elt F))) (after (ops : List (HloOp τ sig (Elt F))) V (Proc.devRef .tc main_cst_41)) :=
  at_unary numbered 339 rfl (by decide) rfl V
theorem eq_main_v296 (V : Valuation τ sig (Elt F)) : (after (ops : List (HloOp τ sig (Elt F))) V (Proc.devRef .tc main_v296)) = ((Host.divf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v295)) (after (ops : List (HloOp τ sig (Elt F))) V (Proc.devRef .tc main_v294)) :=
  at_binary numbered 340 rfl (by decide) (by decide) rfl V
theorem eq_main_v297 (V : Valuation τ sig (Elt F)) : (after (ops : List (HloOp τ sig (Elt F))) V (Proc.devRef .tc main_v297)) = (((fun l r => Host.dotGeneral dot_S1024x2048_S2048x32001_S1024x32001_1_0_0_1_n_n none l r) : (⟨S1024x2048, .f32⟩ : BufTy).Contents (Elt F) → (⟨S2048x32001, .f32⟩ : BufTy).Contents (Elt F) → (⟨S1024x32001, .f32⟩ : BufTy).Contents (Elt F))) (after (ops : List (HloOp τ sig (Elt F))) V (Proc.devRef .tc main_v296)) (after (ops : List (HloOp τ sig (Elt F))) V (Proc.devRef .tc main_arg3)) :=
  at_binary numbered 341 rfl (by decide) (by decide) rfl V
theorem eq_main_v298 (V : Valuation τ sig (Elt F)) : (after (ops : List (HloOp τ sig (Elt F))) V (Proc.devRef .tc main_v298)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 342 rfl (by decide) rfl V
theorem eq_main_v299 (V : Valuation τ sig (Elt F)) : (after (ops : List (HloOp τ sig (Elt F))) V (Proc.devRef .tc main_v299)) = ((broadcastInDim S1024x32001 ![0, 1] bcast_S1x32001_S1024x32001_0_1 : (⟨S1x32001, .f32⟩ : BufTy).Contents (Elt F) → (⟨S1024x32001, .f32⟩ : BufTy).Contents (Elt F))) (after (ops : List (HloOp τ sig (Elt F))) V (Proc.devRef .tc main_v298)) :=
  at_unary numbered 343 rfl (by decide) rfl V
theorem eq_main_v300 (V : Valuation τ sig (Elt F)) : (after (ops : List (HloOp τ sig (Elt F))) V (Proc.devRef .tc main_v300)) = ((addf : (⟨S1024x32001, .f32⟩ : BufTy).Contents (Elt F) → (⟨S1024x32001, .f32⟩ : BufTy).Contents (Elt F) → (⟨S1024x32001, .f32⟩ : BufTy).Contents (Elt F))) (after (ops : List (HloOp τ sig (Elt F))) V (Proc.devRef .tc main_v297)) (after (ops : List (HloOp τ sig (Elt F))) V (Proc.devRef .tc main_v299)) :=
  at_binary numbered 344 rfl (by decide) (by decide) rfl V
theorem eq_main_v301 (V : Valuation τ sig (Elt F)) : (after (ops : List (HloOp τ sig (Elt F))) V (Proc.devRef .tc main_v301)) = (((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v286)) (after (ops : List (HloOp τ sig (Elt F))) V (Proc.devRef .tc main_arg5)) :=
  at_binary numbered 345 rfl (by decide) (by decide) rfl V
theorem eq_main_v302 (V : Valuation τ sig (Elt F)) : (after (ops : List (HloOp τ sig (Elt F))) V (Proc.devRef .tc main_v302)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)) :=
  at_unary numbered 346 rfl (by decide) rfl V
theorem eq_main_v303 (V : Valuation τ sig (Elt F)) : (after (ops : List (HloOp τ sig (Elt F))) V (Proc.devRef .tc main_v303)) = ((broadcastInDim S1024x2048 ![0, 1] bcast_S1x2048_S1024x2048_0_1 : (⟨S1x2048, .f32⟩ : BufTy).Contents (Elt F) → (⟨S1024x2048, .f32⟩ : BufTy).Contents (Elt F))) (after (ops : List (HloOp τ sig (Elt F))) V (Proc.devRef .tc main_v302)) :=
  at_unary numbered 347 rfl (by decide) rfl V
theorem eq_main_v304 (V : Valuation τ sig (Elt F)) : (after (ops : List (HloOp τ sig (Elt F))) V (Proc.devRef .tc main_v304)) = ((addf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v301)) (after (ops : List (HloOp τ sig (Elt F))) V (Proc.devRef .tc main_v303)) :=
  at_binary numbered 348 rfl (by decide) (by decide) rfl V
theorem eq_main_v305 (V : Valuation τ sig (Elt F)) : (after (ops : List (HloOp τ sig (Elt F))) V (Proc.devRef .tc main_v305)) = ((Host.negf : (⟨S1024x2048, .f32⟩ : BufTy).Contents (Elt F) → (⟨S1024x2048, .f32⟩ : BufTy).Contents (Elt F))) (after (ops : List (HloOp τ sig (Elt F))) V (Proc.devRef .tc main_v304)) :=
  at_unary numbered 349 rfl (by decide) rfl V
theorem eq_main_v306 (V : Valuation τ sig (Elt F)) : (after (ops : List (HloOp τ sig (Elt F))) V (Proc.devRef .tc main_v306)) = ((Host.exp : (⟨S1024x2048, .f32⟩ : BufTy).Contents (Elt F) → (⟨S1024x2048, .f32⟩ : BufTy).Contents (Elt F))) (after (ops : List (HloOp τ sig (Elt F))) V (Proc.devRef .tc main_v305)) :=
  at_unary numbered 350 rfl (by decide) rfl V
theorem eq_main_cst_42 (V : Valuation τ sig (Elt F)) : (after (ops : List (HloOp τ sig (Elt F))) V (Proc.devRef .tc main_cst_42)) = ((constant S_ .f32 0x3F800000#32)) :=
  at_nullary numbered 351 rfl rfl V
theorem eq_main_v307 (V : Valuation τ sig (Elt F)) : (after (ops : List (HloOp τ sig (Elt F))) V (Proc.devRef .tc main_v307)) = ((broadcastInDim S1024x2048 ![] bcast_S_S1024x2048 : (⟨S_, .f32⟩ : BufTy).Contents (Elt F) → (⟨S1024x2048, .f32⟩ : BufTy).Contents (Elt F))) (after (ops : List (HloOp τ sig (Elt F))) V (Proc.devRef .tc main_cst_42)) :=
  at_unary numbered 352 rfl (by decide) rfl V
theorem eq_main_v308 (V : Valuation τ sig (Elt F)) : (after (ops : List (HloOp τ sig (Elt F))) V (Proc.devRef .tc main_v308)) = ((addf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v307)) (after (ops : List (HloOp τ sig (Elt F))) V (Proc.devRef .tc main_v306)) :=
  at_binary numbered 353 rfl (by decide) (by decide) rfl V
theorem eq_main_cst_43 (V : Valuation τ sig (Elt F)) : (after (ops : List (HloOp τ sig (Elt F))) V (Proc.devRef .tc main_cst_43)) = ((constant S_ .f32 0x3F800000#32)) :=
  at_nullary numbered 354 rfl rfl V
theorem eq_main_v309 (V : Valuation τ sig (Elt F)) : (after (ops : List (HloOp τ sig (Elt F))) V (Proc.devRef .tc main_v309)) = ((broadcastInDim S1024x2048 ![] bcast_S_S1024x2048 : (⟨S_, .f32⟩ : BufTy).Contents (Elt F) → (⟨S1024x2048, .f32⟩ : BufTy).Contents (Elt F))) (after (ops : List (HloOp τ sig (Elt F))) V (Proc.devRef .tc main_cst_43)) :=
  at_unary numbered 355 rfl (by decide) rfl V
theorem eq_main_v310 (V : Valuation τ sig (Elt F)) : (after (ops : List (HloOp τ sig (Elt F))) V (Proc.devRef .tc main_v310)) = ((Host.divf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v309)) (after (ops : List (HloOp τ sig (Elt F))) V (Proc.devRef .tc main_v308)) :=
  at_binary numbered 356 rfl (by decide) (by decide) rfl V
theorem eq_main_v311 (V : Valuation τ sig (Elt F)) : (after (ops : List (HloOp τ sig (Elt F))) V (Proc.devRef .tc main_v311)) = (((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F))) (after (ops : List (HloOp τ sig (Elt F))) V (Proc.devRef .tc main_v310)) (after (ops : List (HloOp τ sig (Elt F))) V (Proc.devRef .tc main_arg7)) :=
  at_binary numbered 357 rfl (by decide) (by decide) rfl V
theorem eq_main_v312 (V : Valuation τ sig (Elt F)) : (after (ops : List (HloOp τ sig (Elt F))) V (Proc.devRef .tc main_v312)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)) :=
  at_unary numbered 358 rfl (by decide) rfl V
theorem eq_main_v313 (V : Valuation τ sig (Elt F)) : (after (ops : List (HloOp τ sig (Elt F))) V (Proc.devRef .tc main_v313)) = ((broadcastInDim S1024x2048 ![0, 1] bcast_S1x2048_S1024x2048_0_1 : (⟨S1x2048, .f32⟩ : BufTy).Contents (Elt F) → (⟨S1024x2048, .f32⟩ : BufTy).Contents (Elt F))) (after (ops : List (HloOp τ sig (Elt F))) V (Proc.devRef .tc main_v312)) :=
  at_unary numbered 359 rfl (by decide) rfl V
theorem eq_main_v314 (V : Valuation τ sig (Elt F)) : (after (ops : List (HloOp τ sig (Elt F))) V (Proc.devRef .tc main_v314)) = ((addf : (⟨S1024x2048, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v311)) (after (ops : List (HloOp τ sig (Elt F))) V (Proc.devRef .tc main_v313)) :=
  at_binary numbered 360 rfl (by decide) (by decide) rfl V
theorem eq_main_v315 (V : Valuation τ sig (Elt F)) : (after (ops : List (HloOp τ sig (Elt F))) V (Proc.devRef .tc main_v315)) = shapeCast S2048x1024 (after (ops : List (HloOp τ sig (Elt F))) V (Proc.devRef .tc main_v314)) shapeCasts_S1024x2048_S2048x1024 :=
  (at_reshape numbered 361 rfl (by decide) rfl V).trans rfl
theorem eq_main_v316 (V : Valuation τ sig (Elt F)) : (after (ops : List (HloOp τ sig (Elt F))) V (Proc.devRef .tc main_v316)) = (((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F))) (after (ops : List (HloOp τ sig (Elt F))) V (Proc.devRef .tc main_v315)) (after (ops : List (HloOp τ sig (Elt F))) V (Proc.devRef .tc main_arg1)) :=
  at_binary numbered 362 rfl (by decide) (by decide) rfl V
theorem eq_main_v317 (V : Valuation τ sig (Elt F)) : (after (ops : List (HloOp τ sig (Elt F))) V (Proc.devRef .tc main_v317)) = ((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)) :=
  at_unary numbered 363 rfl (by decide) rfl V
theorem eq_main_v318 (V : Valuation τ sig (Elt F)) : (after (ops : List (HloOp τ sig (Elt F))) V (Proc.devRef .tc main_v318)) = ((broadcastInDim S2048x2048 ![0, 1] bcast_S1x2048_S2048x2048_0_1 : (⟨S1x2048, .f32⟩ : BufTy).Contents (Elt F) → (⟨S2048x2048, .f32⟩ : BufTy).Contents (Elt F))) (after (ops : List (HloOp τ sig (Elt F))) V (Proc.devRef .tc main_v317)) :=
  at_unary numbered 364 rfl (by decide) rfl V
theorem eq_main_v319 (V : Valuation τ sig (Elt F)) : (after (ops : List (HloOp τ sig (Elt F))) V (Proc.devRef .tc main_v319)) = ((addf : (⟨S2048x2048, .f32⟩ : BufTy).Contents (Elt F) → (⟨S2048x2048, .f32⟩ : BufTy).Contents (Elt F) → (⟨S2048x2048, .f32⟩ : BufTy).Contents (Elt F))) (after (ops : List (HloOp τ sig (Elt F))) V (Proc.devRef .tc main_v316)) (after (ops : List (HloOp τ sig (Elt F))) V (Proc.devRef .tc main_v318)) :=
  at_binary numbered 365 rfl (by decide) (by decide) rfl V
theorem eq_main_v320 (V : Valuation τ sig (Elt F)) : (after (ops : List (HloOp τ sig (Elt F))) V (Proc.devRef .tc main_v320)) = ((Host.negf : (⟨S2048x2048, .f32⟩ : BufTy).Contents (Elt F) → (⟨S2048x2048, .f32⟩ : BufTy).Contents (Elt F))) (after (ops : List (HloOp τ sig (Elt F))) V (Proc.devRef .tc main_v319)) :=
  at_unary numbered 366 rfl (by decide) rfl V
theorem eq_main_v321 (V : Valuation τ sig (Elt F)) : (after (ops : List (HloOp τ sig (Elt F))) V (Proc.devRef .tc main_v321)) = ((Host.exp : (⟨S2048x2048, .f32⟩ : BufTy).Contents (Elt F) → (⟨S2048x2048, .f32⟩ : BufTy).Contents (Elt F))) (after (ops : List (HloOp τ sig (Elt F))) V (Proc.devRef .tc main_v320)) :=
  at_unary numbered 367 rfl (by decide) rfl V
theorem eq_main_cst_44 (V : Valuation τ sig (Elt F)) : (after (ops : List (HloOp τ sig (Elt F))) V (Proc.devRef .tc main_cst_44)) = ((constant S_ .f32 0x3F800000#32)) :=
  at_nullary numbered 368 rfl rfl V
theorem eq_main_v322 (V : Valuation τ sig (Elt F)) : (after (ops : List (HloOp τ sig (Elt F))) V (Proc.devRef .tc main_v322)) = ((broadcastInDim S2048x2048 ![] bcast_S_S2048x2048 : (⟨S_, .f32⟩ : BufTy).Contents (Elt F) → (⟨S2048x2048, .f32⟩ : BufTy).Contents (Elt F))) (after (ops : List (HloOp τ sig (Elt F))) V (Proc.devRef .tc main_cst_44)) :=
  at_unary numbered 369 rfl (by decide) rfl V
theorem eq_main_v323 (V : Valuation τ sig (Elt F)) : (after (ops : List (HloOp τ sig (Elt F))) V (Proc.devRef .tc main_v323)) = ((addf : (⟨S2048x2048, .f32⟩ : BufTy).Contents (Elt F) → (⟨S2048x2048, .f32⟩ : BufTy).Contents (Elt F) → (⟨S2048x2048, .f32⟩ : BufTy).Contents (Elt F))) (after (ops : List (HloOp τ sig (Elt F))) V (Proc.devRef .tc main_v322)) (after (ops : List (HloOp τ sig (Elt F))) V (Proc.devRef .tc main_v321)) :=
  at_binary numbered 370 rfl (by decide) (by decide) rfl V
theorem eq_main_cst_45 (V : Valuation τ sig (Elt F)) : (after (ops : List (HloOp τ sig (Elt F))) V (Proc.devRef .tc main_cst_45)) = ((constant S_ .f32 0x3F800000#32)) :=
  at_nullary numbered 371 rfl rfl V
theorem eq_main_v324 (V : Valuation τ sig (Elt F)) : (after (ops : List (HloOp τ sig (Elt F))) V (Proc.devRef .tc main_v324)) = ((broadcastInDim S2048x2048 ![] bcast_S_S2048x2048 : (⟨S_, .f32⟩ : BufTy).Contents (Elt F) → (⟨S2048x2048, .f32⟩ : BufTy).Contents (Elt F))) (after (ops : List (HloOp τ sig (Elt F))) V (Proc.devRef .tc main_cst_45)) :=
  at_unary numbered 372 rfl (by decide) rfl V
theorem eq_main_v325 (V : Valuation τ sig (Elt F)) : (after (ops : List (HloOp τ sig (Elt F))) V (Proc.devRef .tc main_v325)) = ((Host.divf : (⟨S2048x2048, .f32⟩ : BufTy).Contents (Elt F) → (⟨S2048x2048, .f32⟩ : BufTy).Contents (Elt F) → (⟨S2048x2048, .f32⟩ : BufTy).Contents (Elt F))) (after (ops : List (HloOp τ sig (Elt F))) V (Proc.devRef .tc main_v324)) (after (ops : List (HloOp τ sig (Elt F))) V (Proc.devRef .tc main_v323)) :=
  at_binary numbered 373 rfl (by decide) (by decide) rfl V
theorem eq_main_v326 (V : Valuation τ sig (Elt F)) : (after (ops : List (HloOp τ sig (Elt F))) V (Proc.devRef .tc main_v326)) = (((fun l r => Host.dotGeneral dot_S2048x2048_S2048x32001_S2048x32001_1_0_0_1_n_n none l r) : (⟨S2048x2048, .f32⟩ : BufTy).Contents (Elt F) → (⟨S2048x32001, .f32⟩ : BufTy).Contents (Elt F) → (⟨S2048x32001, .f32⟩ : BufTy).Contents (Elt F))) (after (ops : List (HloOp τ sig (Elt F))) V (Proc.devRef .tc main_v325)) (after (ops : List (HloOp τ sig (Elt F))) V (Proc.devRef .tc main_arg3)) :=
  at_binary numbered 374 rfl (by decide) (by decide) rfl V
theorem eq_main_v327 (V : Valuation τ sig (Elt F)) : (after (ops : List (HloOp τ sig (Elt F))) V (Proc.devRef .tc main_v327)) = ((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)) :=
  at_unary numbered 375 rfl (by decide) rfl V
theorem eq_main_v328 (V : Valuation τ sig (Elt F)) : (after (ops : List (HloOp τ sig (Elt F))) V (Proc.devRef .tc main_v328)) = ((broadcastInDim S2048x32001 ![0, 1] bcast_S1x32001_S2048x32001_0_1 : (⟨S1x32001, .f32⟩ : BufTy).Contents (Elt F) → (⟨S2048x32001, .f32⟩ : BufTy).Contents (Elt F))) (after (ops : List (HloOp τ sig (Elt F))) V (Proc.devRef .tc main_v327)) :=
  at_unary numbered 376 rfl (by decide) rfl V
theorem eq_main_v329 (V : Valuation τ sig (Elt F)) : (after (ops : List (HloOp τ sig (Elt F))) V (Proc.devRef .tc main_v329)) = ((addf : (⟨S2048x32001, .f32⟩ : BufTy).Contents (Elt F) → (⟨S2048x32001, .f32⟩ : BufTy).Contents (Elt F) → (⟨S2048x32001, .f32⟩ : BufTy).Contents (Elt F))) (after (ops : List (HloOp τ sig (Elt F))) V (Proc.devRef .tc main_v326)) (after (ops : List (HloOp τ sig (Elt F))) V (Proc.devRef .tc main_v328)) :=
  at_binary numbered 377 rfl (by decide) (by decide) rfl V
theorem eq_main_v330 (V : Valuation τ sig (Elt F)) : (after (ops : List (HloOp τ sig (Elt F))) V (Proc.devRef .tc main_v330)) = ((fun u => concatenate S4095x32001 0 [⟨S1x32001, u 0⟩, ⟨S2x32001, u 1⟩, ⟨S4x32001, u 2⟩, ⟨S8x32001, u 3⟩, ⟨S16x32001, u 4⟩, ⟨S32x32001, u 5⟩, ⟨S64x32001, u 6⟩, ⟨S128x32001, u 7⟩, ⟨S256x32001, u 8⟩, ⟨S512x32001, u 9⟩, ⟨S1024x32001, u 10⟩, ⟨S2048x32001, u 11⟩] concatenates_S1x32001_S2x32001_S4x32001_S8x32001_S16x32001_S32x32001_S64x32001_S128x32001_S256x32001_S512x32001_S1024x32001_S2048x32001_S4095x32001_d0)) (fun k => after (ops : List (HloOp τ sig (Elt F))) V (Proc.devRef .tc (![main_v12, main_v39, main_v68, main_v97, main_v126, main_v155, main_v184, main_v213, main_v242, main_v271, main_v300, main_v329] k))) :=
  at_nary numbered 378 rfl (by decide) rfl V
theorem eq_main_c_46 (V : Valuation τ sig (Elt F)) : (after (ops : List (HloOp τ sig (Elt F))) V (Proc.devRef .tc main_c_46)) = ((constantI S_ 32 4095#32)) :=
  at_nullary numbered 379 rfl rfl V
theorem eq_main_v331 (V : Valuation τ sig (Elt F)) : (after (ops : List (HloOp τ sig (Elt F))) V (Proc.devRef .tc main_v331)) = ((broadcastInDim S4095 ![] bcast_S_S4095 : (⟨S_, .i32⟩ : BufTy).Contents (Elt F) → (⟨S4095, .i32⟩ : BufTy).Contents (Elt F))) (after (ops : List (HloOp τ sig (Elt F))) V (Proc.devRef .tc main_c_46)) :=
  at_unary numbered 380 rfl (by decide) rfl V
theorem eq_main_v332 (V : Valuation τ sig (Elt F)) : (after (ops : List (HloOp τ sig (Elt F))) V (Proc.devRef .tc main_v332)) = ((addi : (⟨S4095, .i32⟩ : BufTy).Contents (Elt F) → (⟨S4095, .i32⟩ : BufTy).Contents (Elt F) → (⟨S4095, .i32⟩ : BufTy).Contents (Elt F))) (after (ops : List (HloOp τ sig (Elt F))) V (Proc.devRef .tc main_c)) (after (ops : List (HloOp τ sig (Elt F))) V (Proc.devRef .tc main_v331)) :=
  at_binary numbered 381 rfl (by decide) (by decide) rfl V
theorem eq_main_v333 (V : Valuation τ sig (Elt F)) : (after (ops : List (HloOp τ sig (Elt F))) V (Proc.devRef .tc main_v333)) = ((select : (⟨S4095, .i1⟩ : BufTy).Contents (Elt F) → (⟨S4095, .i32⟩ : BufTy).Contents (Elt F) → (⟨S4095, .i32⟩ : BufTy).Contents (Elt F) → (⟨S4095, .i32⟩ : BufTy).Contents (Elt F))) (after (ops : List (HloOp τ sig (Elt F))) V (Proc.devRef .tc main_c_0)) (after (ops : List (HloOp τ sig (Elt F))) V (Proc.devRef .tc main_v332)) (after (ops : List (HloOp τ sig (Elt F))) V (Proc.devRef .tc main_c)) :=
  at_ternary numbered 382 rfl (by decide) (by decide) (by decide) rfl V
theorem eq_main_v334 (V : Valuation τ sig (Elt F)) : (after (ops : List (HloOp τ sig (Elt F))) V (Proc.devRef .tc main_v334)) = ((broadcastInDim S4095x1 ![0] bcast_S4095_S4095x1_0 : (⟨S4095, .i32⟩ : BufTy).Contents (Elt F) → (⟨S4095x1, .i32⟩ : BufTy).Contents (Elt F))) (after (ops : List (HloOp τ sig (Elt F))) V (Proc.devRef .tc main_v333)) :=
  at_unary numbered 383 rfl (by decide) rfl V
theorem eq_main_v335 (V : Valuation τ sig (Elt F)) : (after (ops : List (HloOp τ sig (Elt F))) V (Proc.devRef .tc main_v335)) = (((fun x i => Host.gather gather_S4095x32001_S4095x1_S4095x32001_1_0_n_n_0_1_132001 x i) : (⟨S4095x32001, .f32⟩ : BufTy).Contents (Elt F) → (⟨S4095x1, .i32⟩ : BufTy).Contents (Elt F) → (⟨S4095x32001, .f32⟩ : BufTy).Contents (Elt F))) (after (ops : List (HloOp τ sig (Elt F))) V (Proc.devRef .tc main_v330)) (after (ops : List (HloOp τ sig (Elt F))) V (Proc.devRef .tc main_v334)) :=
  at_binary numbered 384 rfl (by decide) (by decide) rfl V
theorem eq_main_call0_cst (V : Valuation τ sig (Elt F)) : (after (ops : List (HloOp τ sig (Elt F))) V (Proc.devRef .tc main_call0_cst)) = ((constant S_ .f32 0xFF800000#32)) :=
  at_nullary numbered 385 rfl rfl V
theorem eq_main_call0_v0 (V : Valuation τ sig (Elt F)) : (after (ops : List (HloOp τ sig (Elt F))) V (Proc.devRef .tc main_call0_v0)) = Host.reduce (FloatOps.maximumf (F := F) (φ := .f32)) (after (ops : List (HloOp τ sig (Elt F))) V (Proc.devRef .tc main_v335)) (after (ops : List (HloOp τ sig (Elt F))) V (Proc.devRef .tc main_call0_cst)) reducesTo_S4095x32001_S4095_d1 h_S_ :=
  by
  have h := at_binary numbered 386 rfl (by decide) (by decide) rfl V
  simpa only [StableHlo.TRef.toBuf, StableHlo.TRef.ofBuf, cast_eq] using h
theorem eq_main_call0_cst_0 (V : Valuation τ sig (Elt F)) : (after (ops : List (HloOp τ sig (Elt F))) V (Proc.devRef .tc main_call0_cst_0)) = ((constant S_ .f32 0xFF800000#32)) :=
  at_nullary numbered 387 rfl rfl V
theorem eq_main_call0_v1 (V : Valuation τ sig (Elt F)) : (after (ops : List (HloOp τ sig (Elt F))) V (Proc.devRef .tc main_call0_v1)) = ((broadcastInDim S4095 ![] bcast_S_S4095)) (after (ops : List (HloOp τ sig (Elt F))) V (Proc.devRef .tc main_call0_cst_0)) :=
  at_unary numbered 388 rfl (by decide) rfl V
theorem eq_main_call0_v2 (V : Valuation τ sig (Elt F)) : (after (ops : List (HloOp τ sig (Elt F))) V (Proc.devRef .tc main_call0_v2)) = (maximumf) (after (ops : List (HloOp τ sig (Elt F))) V (Proc.devRef .tc main_call0_v1)) (after (ops : List (HloOp τ sig (Elt F))) V (Proc.devRef .tc main_call0_v0)) :=
  at_binary numbered 389 rfl (by decide) (by decide) rfl V
theorem eq_main_call0_v3 (V : Valuation τ sig (Elt F)) : (after (ops : List (HloOp τ sig (Elt F))) V (Proc.devRef .tc main_call0_v3)) = ((broadcastInDim S4095x1 ![0] bcast_S4095_S4095x1_0)) (after (ops : List (HloOp τ sig (Elt F))) V (Proc.devRef .tc main_call0_v2)) :=
  at_unary numbered 390 rfl (by decide) rfl V
theorem eq_main_call0_v4 (V : Valuation τ sig (Elt F)) : (after (ops : List (HloOp τ sig (Elt F))) V (Proc.devRef .tc main_call0_v4)) = ((broadcastInDim S4095x32001 ![0, 1] bcast_S4095x1_S4095x32001_0_1)) (after (ops : List (HloOp τ sig (Elt F))) V (Proc.devRef .tc main_call0_v3)) :=
  at_unary numbered 391 rfl (by decide) rfl V
theorem eq_main_call0_v5 (V : Valuation τ sig (Elt F)) : (after (ops : List (HloOp τ sig (Elt F))) V (Proc.devRef .tc main_call0_v5)) = (subf) (after (ops : List (HloOp τ sig (Elt F))) V (Proc.devRef .tc main_v335)) (after (ops : List (HloOp τ sig (Elt F))) V (Proc.devRef .tc main_call0_v4)) :=
  at_binary numbered 392 rfl (by decide) (by decide) rfl V
theorem eq_main_call0_v6 (V : Valuation τ sig (Elt F)) : (after (ops : List (HloOp τ sig (Elt F))) V (Proc.devRef .tc main_call0_v6)) = (Host.exp) (after (ops : List (HloOp τ sig (Elt F))) V (Proc.devRef .tc main_call0_v5)) :=
  at_unary numbered 393 rfl (by decide) rfl V
theorem eq_main_call0_cst_1 (V : Valuation τ sig (Elt F)) : (after (ops : List (HloOp τ sig (Elt F))) V (Proc.devRef .tc main_call0_cst_1)) = ((constant S_ .f32 0x00000000#32)) :=
  at_nullary numbered 394 rfl rfl V
theorem eq_main_call0_v7 (V : Valuation τ sig (Elt F)) : (after (ops : List (HloOp τ sig (Elt F))) V (Proc.devRef .tc main_call0_v7)) = ((fun x v => Host.reduceAdd x v reducesTo_S4095x32001_S4095_d1 h_S_)) (after (ops : List (HloOp τ sig (Elt F))) V (Proc.devRef .tc main_call0_v6)) (after (ops : List (HloOp τ sig (Elt F))) V (Proc.devRef .tc main_call0_cst_1)) :=
  at_binary numbered 395 rfl (by decide) (by decide) rfl V
theorem eq_main_call0_v8 (V : Valuation τ sig (Elt F)) : (after (ops : List (HloOp τ sig (Elt F))) V (Proc.devRef .tc main_call0_v8)) = ((broadcastInDim S4095x1 ![0] bcast_S4095_S4095x1_0)) (after (ops : List (HloOp τ sig (Elt F))) V (Proc.devRef .tc main_call0_v7)) :=
  at_unary numbered 396 rfl (by decide) rfl V
theorem eq_main_call0_v9 (V : Valuation τ sig (Elt F)) : (after (ops : List (HloOp τ sig (Elt F))) V (Proc.devRef .tc main_call0_v9)) = (Host.log) (after (ops : List (HloOp τ sig (Elt F))) V (Proc.devRef .tc main_call0_v8)) :=
  at_unary numbered 397 rfl (by decide) rfl V
theorem eq_main_call0_v10 (V : Valuation τ sig (Elt F)) : (after (ops : List (HloOp τ sig (Elt F))) V (Proc.devRef .tc main_call0_v10)) = ((broadcastInDim S4095x32001 ![0, 1] bcast_S4095x1_S4095x32001_0_1)) (after (ops : List (HloOp τ sig (Elt F))) V (Proc.devRef .tc main_call0_v9)) :=
  at_unary numbered 398 rfl (by decide) rfl V
theorem eq_main_v336 (V : Valuation τ sig (Elt F)) : (after (ops : List (HloOp τ sig (Elt F))) V (Proc.devRef .tc main_v336)) = (subf) (after (ops : List (HloOp τ sig (Elt F))) V (Proc.devRef .tc main_call0_v5)) (after (ops : List (HloOp τ sig (Elt F))) V (Proc.devRef .tc main_call0_v10)) :=
  at_binary numbered 399 rfl (by decide) (by decide) rfl V

theorem chain_main_v25 (V : Valuation τ sig (Elt F)) : (after (ops : List (HloOp τ sig (Elt F))) V (Proc.devRef .tc main_v25)) = (shapeCast S2x1024 (((addf : (⟨S1x2048, .f32⟩ : BufTy).Contents (Elt F) → (⟨S1x2048, .f32⟩ : BufTy).Contents (Elt F) → (⟨S1x2048, .f32⟩ : BufTy).Contents (Elt F))) ((((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F))) (((Host.divf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((addf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((Host.exp : (⟨S1x2048, .f32⟩ : BufTy).Contents (Elt F) → (⟨S1x2048, .f32⟩ : BufTy).Contents (Elt F))) (((Host.negf : (⟨S1x2048, .f32⟩ : BufTy).Contents (Elt F) → (⟨S1x2048, .f32⟩ : BufTy).Contents (Elt F))) (((addf : (⟨S1x2048, .f32⟩ : BufTy).Contents (Elt F) → (⟨S1x2048, .f32⟩ : BufTy).Contents (Elt F) → (⟨S1x2048, .f32⟩ : BufTy).Contents (Elt F))) ((((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (ops : List (HloOp τ sig (Elt F))) V (Proc.devRef .tc main_v0)) (after (ops : List (HloOp τ sig (Elt F))) V (Proc.devRef .tc main_arg5))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6)))))))) (after (ops : List (HloOp τ sig (Elt F))) V (Proc.devRef .tc main_arg7))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8)))) shapeCasts_S1x2048_S2x1024) := by
  rw [eq_main_v25 V, eq_main_v24 V, eq_main_v22 V, eq_main_v21 V, eq_main_v20 V, eq_main_cst_3 V, eq_main_v19 V, eq_main_v18 V, eq_main_cst_2 V, eq_main_v17 V, eq_main_v16 V, eq_main_v15 V, eq_main_v13 V, eq_main_v14 V, eq_main_v23 V]
theorem chain_main_v54 (V : Valuation τ sig (Elt F)) : (after (ops : List (HloOp τ sig (Elt F))) V (Proc.devRef .tc main_v54)) = (shapeCast S4x1024 (((addf : (⟨S2x2048, .f32⟩ : BufTy).Contents (Elt F) → (⟨S2x2048, .f32⟩ : BufTy).Contents (Elt F) → (⟨S2x2048, .f32⟩ : BufTy).Contents (Elt F))) ((((fun l r => Host.dotGeneral dot_S2x2048_S2048x2048_S2x2048_1_0_0_1_n_n none l r) : (⟨S2x2048, .f32⟩ : BufTy).Contents (Elt F) → (⟨S2048x2048, .f32⟩ : BufTy).Contents (Elt F) → (⟨S2x2048, .f32⟩ : BufTy).Contents (Elt F))) (((Host.divf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((addf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((Host.exp : (⟨S2x2048, .f32⟩ : BufTy).Contents (Elt F) → (⟨S2x2048, .f32⟩ : BufTy).Contents (Elt F))) (((Host.negf : (⟨S2x2048, .f32⟩ : BufTy).Contents (Elt F) → (⟨S2x2048, .f32⟩ : BufTy).Contents (Elt F))) (((addf : (⟨S2x2048, .f32⟩ : BufTy).Contents (Elt F) → (⟨S2x2048, .f32⟩ : BufTy).Contents (Elt F) → (⟨S2x2048, .f32⟩ : BufTy).Contents (Elt F))) ((((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (ops : List (HloOp τ sig (Elt F))) V (Proc.devRef .tc main_v25)) (after (ops : List (HloOp τ sig (Elt F))) V (Proc.devRef .tc main_arg5))) (((broadcastInDim S2x2048 ![0, 1] bcast_S1x2048_S2x2048_0_1 : (⟨S1x2048, .f32⟩ : BufTy).Contents (Elt F) → (⟨S2x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S2x2048 ![0, 1] bcast_S1x2048_S2x2048_0_1 : (⟨S1x2048, .f32⟩ : BufTy).Contents (Elt F) → (⟨S2x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S2x2048_S4x1024) := by
  rw [eq_main_v54 V, eq_main_v53 V, eq_main_v50 V, eq_main_v49 V, eq_main_v48 V, eq_main_cst_7 V, eq_main_v47 V, eq_main_v46 V, eq_main_cst_6 V, eq_main_v45 V, eq_main_v44 V, eq_main_v43 V, eq_main_v40 V, eq_main_v42 V, eq_main_v41 V, eq_main_v52 V, eq_main_v51 V]
theorem chain_main_v83 (V : Valuation τ sig (Elt F)) : (after (ops : List (HloOp τ sig (Elt F))) V (Proc.devRef .tc main_v83)) = (shapeCast S8x1024 (((addf : (⟨S4x2048, .f32⟩ : BufTy).Contents (Elt F) → (⟨S4x2048, .f32⟩ : BufTy).Contents (Elt F) → (⟨S4x2048, .f32⟩ : BufTy).Contents (Elt F))) ((((fun l r => Host.dotGeneral dot_S4x2048_S2048x2048_S4x2048_1_0_0_1_n_n none l r) : (⟨S4x2048, .f32⟩ : BufTy).Contents (Elt F) → (⟨S2048x2048, .f32⟩ : BufTy).Contents (Elt F) → (⟨S4x2048, .f32⟩ : BufTy).Contents (Elt F))) (((Host.divf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((addf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((Host.exp : (⟨S4x2048, .f32⟩ : BufTy).Contents (Elt F) → (⟨S4x2048, .f32⟩ : BufTy).Contents (Elt F))) (((Host.negf : (⟨S4x2048, .f32⟩ : BufTy).Contents (Elt F) → (⟨S4x2048, .f32⟩ : BufTy).Contents (Elt F))) (((addf : (⟨S4x2048, .f32⟩ : BufTy).Contents (Elt F) → (⟨S4x2048, .f32⟩ : BufTy).Contents (Elt F) → (⟨S4x2048, .f32⟩ : BufTy).Contents (Elt F))) ((((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (ops : List (HloOp τ sig (Elt F))) V (Proc.devRef .tc main_v54)) (after (ops : List (HloOp τ sig (Elt F))) V (Proc.devRef .tc main_arg5))) (((broadcastInDim S4x2048 ![0, 1] bcast_S1x2048_S4x2048_0_1 : (⟨S1x2048, .f32⟩ : BufTy).Contents (Elt F) → (⟨S4x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S4x2048 ![0, 1] bcast_S1x2048_S4x2048_0_1 : (⟨S1x2048, .f32⟩ : BufTy).Contents (Elt F) → (⟨S4x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S4x2048_S8x1024) := by
  rw [eq_main_v83 V, eq_main_v82 V, eq_main_v79 V, eq_main_v78 V, eq_main_v77 V, eq_main_cst_11 V, eq_main_v76 V, eq_main_v75 V, eq_main_cst_10 V, eq_main_v74 V, eq_main_v73 V, eq_main_v72 V, eq_main_v69 V, eq_main_v71 V, eq_main_v70 V, eq_main_v81 V, eq_main_v80 V]
theorem chain_main_v112 (V : Valuation τ sig (Elt F)) : (after (ops : List (HloOp τ sig (Elt F))) V (Proc.devRef .tc main_v112)) = (shapeCast S16x1024 (((addf : (⟨S8x2048, .f32⟩ : BufTy).Contents (Elt F) → (⟨S8x2048, .f32⟩ : BufTy).Contents (Elt F) → (⟨S8x2048, .f32⟩ : BufTy).Contents (Elt F))) ((((fun l r => Host.dotGeneral dot_S8x2048_S2048x2048_S8x2048_1_0_0_1_n_n none l r) : (⟨S8x2048, .f32⟩ : BufTy).Contents (Elt F) → (⟨S2048x2048, .f32⟩ : BufTy).Contents (Elt F) → (⟨S8x2048, .f32⟩ : BufTy).Contents (Elt F))) (((Host.divf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((addf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((Host.exp : (⟨S8x2048, .f32⟩ : BufTy).Contents (Elt F) → (⟨S8x2048, .f32⟩ : BufTy).Contents (Elt F))) (((Host.negf : (⟨S8x2048, .f32⟩ : BufTy).Contents (Elt F) → (⟨S8x2048, .f32⟩ : BufTy).Contents (Elt F))) (((addf : (⟨S8x2048, .f32⟩ : BufTy).Contents (Elt F) → (⟨S8x2048, .f32⟩ : BufTy).Contents (Elt F) → (⟨S8x2048, .f32⟩ : BufTy).Contents (Elt F))) ((((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (ops : List (HloOp τ sig (Elt F))) V (Proc.devRef .tc main_v83)) (after (ops : List (HloOp τ sig (Elt F))) V (Proc.devRef .tc main_arg5))) (((broadcastInDim S8x2048 ![0, 1] bcast_S1x2048_S8x2048_0_1 : (⟨S1x2048, .f32⟩ : BufTy).Contents (Elt F) → (⟨S8x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S8x2048 ![0, 1] bcast_S1x2048_S8x2048_0_1 : (⟨S1x2048, .f32⟩ : BufTy).Contents (Elt F) → (⟨S8x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S8x2048_S16x1024) := by
  rw [eq_main_v112 V, eq_main_v111 V, eq_main_v108 V, eq_main_v107 V, eq_main_v106 V, eq_main_cst_15 V, eq_main_v105 V, eq_main_v104 V, eq_main_cst_14 V, eq_main_v103 V, eq_main_v102 V, eq_main_v101 V, eq_main_v98 V, eq_main_v100 V, eq_main_v99 V, eq_main_v110 V, eq_main_v109 V]
theorem chain_main_v141 (V : Valuation τ sig (Elt F)) : (after (ops : List (HloOp τ sig (Elt F))) V (Proc.devRef .tc main_v141)) = (shapeCast S32x1024 (((addf : (⟨S16x2048, .f32⟩ : BufTy).Contents (Elt F) → (⟨S16x2048, .f32⟩ : BufTy).Contents (Elt F) → (⟨S16x2048, .f32⟩ : BufTy).Contents (Elt F))) ((((fun l r => Host.dotGeneral dot_S16x2048_S2048x2048_S16x2048_1_0_0_1_n_n none l r) : (⟨S16x2048, .f32⟩ : BufTy).Contents (Elt F) → (⟨S2048x2048, .f32⟩ : BufTy).Contents (Elt F) → (⟨S16x2048, .f32⟩ : BufTy).Contents (Elt F))) (((Host.divf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((addf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((Host.exp : (⟨S16x2048, .f32⟩ : BufTy).Contents (Elt F) → (⟨S16x2048, .f32⟩ : BufTy).Contents (Elt F))) (((Host.negf : (⟨S16x2048, .f32⟩ : BufTy).Contents (Elt F) → (⟨S16x2048, .f32⟩ : BufTy).Contents (Elt F))) (((addf : (⟨S16x2048, .f32⟩ : BufTy).Contents (Elt F) → (⟨S16x2048, .f32⟩ : BufTy).Contents (Elt F) → (⟨S16x2048, .f32⟩ : BufTy).Contents (Elt F))) ((((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (ops : List (HloOp τ sig (Elt F))) V (Proc.devRef .tc main_v112)) (after (ops : List (HloOp τ sig (Elt F))) V (Proc.devRef .tc main_arg5))) (((broadcastInDim S16x2048 ![0, 1] bcast_S1x2048_S16x2048_0_1 : (⟨S1x2048, .f32⟩ : BufTy).Contents (Elt F) → (⟨S16x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S16x2048 ![0, 1] bcast_S1x2048_S16x2048_0_1 : (⟨S1x2048, .f32⟩ : BufTy).Contents (Elt F) → (⟨S16x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S16x2048_S32x1024) := by
  rw [eq_main_v141 V, eq_main_v140 V, eq_main_v137 V, eq_main_v136 V, eq_main_v135 V, eq_main_cst_19 V, eq_main_v134 V, eq_main_v133 V, eq_main_cst_18 V, eq_main_v132 V, eq_main_v131 V, eq_main_v130 V, eq_main_v127 V, eq_main_v129 V, eq_main_v128 V, eq_main_v139 V, eq_main_v138 V]
theorem chain_main_v170 (V : Valuation τ sig (Elt F)) : (after (ops : List (HloOp τ sig (Elt F))) V (Proc.devRef .tc main_v170)) = (shapeCast S64x1024 (((addf : (⟨S32x2048, .f32⟩ : BufTy).Contents (Elt F) → (⟨S32x2048, .f32⟩ : BufTy).Contents (Elt F) → (⟨S32x2048, .f32⟩ : BufTy).Contents (Elt F))) ((((fun l r => Host.dotGeneral dot_S32x2048_S2048x2048_S32x2048_1_0_0_1_n_n none l r) : (⟨S32x2048, .f32⟩ : BufTy).Contents (Elt F) → (⟨S2048x2048, .f32⟩ : BufTy).Contents (Elt F) → (⟨S32x2048, .f32⟩ : BufTy).Contents (Elt F))) (((Host.divf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((addf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((Host.exp : (⟨S32x2048, .f32⟩ : BufTy).Contents (Elt F) → (⟨S32x2048, .f32⟩ : BufTy).Contents (Elt F))) (((Host.negf : (⟨S32x2048, .f32⟩ : BufTy).Contents (Elt F) → (⟨S32x2048, .f32⟩ : BufTy).Contents (Elt F))) (((addf : (⟨S32x2048, .f32⟩ : BufTy).Contents (Elt F) → (⟨S32x2048, .f32⟩ : BufTy).Contents (Elt F) → (⟨S32x2048, .f32⟩ : BufTy).Contents (Elt F))) ((((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (ops : List (HloOp τ sig (Elt F))) V (Proc.devRef .tc main_v141)) (after (ops : List (HloOp τ sig (Elt F))) V (Proc.devRef .tc main_arg5))) (((broadcastInDim S32x2048 ![0, 1] bcast_S1x2048_S32x2048_0_1 : (⟨S1x2048, .f32⟩ : BufTy).Contents (Elt F) → (⟨S32x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S32x2048 ![0, 1] bcast_S1x2048_S32x2048_0_1 : (⟨S1x2048, .f32⟩ : BufTy).Contents (Elt F) → (⟨S32x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S32x2048_S64x1024) := by
  rw [eq_main_v170 V, eq_main_v169 V, eq_main_v166 V, eq_main_v165 V, eq_main_v164 V, eq_main_cst_23 V, eq_main_v163 V, eq_main_v162 V, eq_main_cst_22 V, eq_main_v161 V, eq_main_v160 V, eq_main_v159 V, eq_main_v156 V, eq_main_v158 V, eq_main_v157 V, eq_main_v168 V, eq_main_v167 V]
theorem chain_main_v199 (V : Valuation τ sig (Elt F)) : (after (ops : List (HloOp τ sig (Elt F))) V (Proc.devRef .tc main_v199)) = (shapeCast S128x1024 (((addf : (⟨S64x2048, .f32⟩ : BufTy).Contents (Elt F) → (⟨S64x2048, .f32⟩ : BufTy).Contents (Elt F) → (⟨S64x2048, .f32⟩ : BufTy).Contents (Elt F))) ((((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F))) (((Host.divf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((addf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((Host.exp : (⟨S64x2048, .f32⟩ : BufTy).Contents (Elt F) → (⟨S64x2048, .f32⟩ : BufTy).Contents (Elt F))) (((Host.negf : (⟨S64x2048, .f32⟩ : BufTy).Contents (Elt F) → (⟨S64x2048, .f32⟩ : BufTy).Contents (Elt F))) (((addf : (⟨S64x2048, .f32⟩ : BufTy).Contents (Elt F) → (⟨S64x2048, .f32⟩ : BufTy).Contents (Elt F) → (⟨S64x2048, .f32⟩ : BufTy).Contents (Elt F))) ((((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (ops : List (HloOp τ sig (Elt F))) V (Proc.devRef .tc main_v170)) (after (ops : List (HloOp τ sig (Elt F))) V (Proc.devRef .tc main_arg5))) (((broadcastInDim S64x2048 ![0, 1] bcast_S1x2048_S64x2048_0_1 : (⟨S1x2048, .f32⟩ : BufTy).Contents (Elt F) → (⟨S64x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S64x2048 ![0, 1] bcast_S1x2048_S64x2048_0_1 : (⟨S1x2048, .f32⟩ : BufTy).Contents (Elt F) → (⟨S64x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S64x2048_S128x1024) := by
  rw [eq_main_v199 V, eq_main_v198 V, eq_main_v195 V, eq_main_v194 V, eq_main_v193 V, eq_main_cst_27 V, eq_main_v192 V, eq_main_v191 V, eq_main_cst_26 V, eq_main_v190 V, eq_main_v189 V, eq_main_v188 V, eq_main_v185 V, eq_main_v187 V, eq_main_v186 V, eq_main_v197 V, eq_main_v196 V]
theorem chain_main_v228 (V : Valuation τ sig (Elt F)) : (after (ops : List (HloOp τ sig (Elt F))) V (Proc.devRef .tc main_v228)) = (shapeCast S256x1024 (((addf : (⟨S128x2048, .f32⟩ : BufTy).Contents (Elt F) → (⟨S128x2048, .f32⟩ : BufTy).Contents (Elt F) → (⟨S128x2048, .f32⟩ : BufTy).Contents (Elt F))) ((((fun l r => Host.dotGeneral dot_S128x2048_S2048x2048_S128x2048_1_0_0_1_n_n none l r) : (⟨S128x2048, .f32⟩ : BufTy).Contents (Elt F) → (⟨S2048x2048, .f32⟩ : BufTy).Contents (Elt F) → (⟨S128x2048, .f32⟩ : BufTy).Contents (Elt F))) (((Host.divf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((addf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((Host.exp : (⟨S128x2048, .f32⟩ : BufTy).Contents (Elt F) → (⟨S128x2048, .f32⟩ : BufTy).Contents (Elt F))) (((Host.negf : (⟨S128x2048, .f32⟩ : BufTy).Contents (Elt F) → (⟨S128x2048, .f32⟩ : BufTy).Contents (Elt F))) (((addf : (⟨S128x2048, .f32⟩ : BufTy).Contents (Elt F) → (⟨S128x2048, .f32⟩ : BufTy).Contents (Elt F) → (⟨S128x2048, .f32⟩ : BufTy).Contents (Elt F))) ((((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (ops : List (HloOp τ sig (Elt F))) V (Proc.devRef .tc main_v199)) (after (ops : List (HloOp τ sig (Elt F))) V (Proc.devRef .tc main_arg5))) (((broadcastInDim S128x2048 ![0, 1] bcast_S1x2048_S128x2048_0_1 : (⟨S1x2048, .f32⟩ : BufTy).Contents (Elt F) → (⟨S128x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S128x2048 ![0, 1] bcast_S1x2048_S128x2048_0_1 : (⟨S1x2048, .f32⟩ : BufTy).Contents (Elt F) → (⟨S128x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S128x2048_S256x1024) := by
  rw [eq_main_v228 V, eq_main_v227 V, eq_main_v224 V, eq_main_v223 V, eq_main_v222 V, eq_main_cst_31 V, eq_main_v221 V, eq_main_v220 V, eq_main_cst_30 V, eq_main_v219 V, eq_main_v218 V, eq_main_v217 V, eq_main_v214 V, eq_main_v216 V, eq_main_v215 V, eq_main_v226 V, eq_main_v225 V]
theorem chain_main_v257 (V : Valuation τ sig (Elt F)) : (after (ops : List (HloOp τ sig (Elt F))) V (Proc.devRef .tc main_v257)) = (shapeCast S512x1024 (((addf : (⟨S256x2048, .f32⟩ : BufTy).Contents (Elt F) → (⟨S256x2048, .f32⟩ : BufTy).Contents (Elt F) → (⟨S256x2048, .f32⟩ : BufTy).Contents (Elt F))) ((((fun l r => Host.dotGeneral dot_S256x2048_S2048x2048_S256x2048_1_0_0_1_n_n none l r) : (⟨S256x2048, .f32⟩ : BufTy).Contents (Elt F) → (⟨S2048x2048, .f32⟩ : BufTy).Contents (Elt F) → (⟨S256x2048, .f32⟩ : BufTy).Contents (Elt F))) (((Host.divf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((addf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((Host.exp : (⟨S256x2048, .f32⟩ : BufTy).Contents (Elt F) → (⟨S256x2048, .f32⟩ : BufTy).Contents (Elt F))) (((Host.negf : (⟨S256x2048, .f32⟩ : BufTy).Contents (Elt F) → (⟨S256x2048, .f32⟩ : BufTy).Contents (Elt F))) (((addf : (⟨S256x2048, .f32⟩ : BufTy).Contents (Elt F) → (⟨S256x2048, .f32⟩ : BufTy).Contents (Elt F) → (⟨S256x2048, .f32⟩ : BufTy).Contents (Elt F))) ((((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (ops : List (HloOp τ sig (Elt F))) V (Proc.devRef .tc main_v228)) (after (ops : List (HloOp τ sig (Elt F))) V (Proc.devRef .tc main_arg5))) (((broadcastInDim S256x2048 ![0, 1] bcast_S1x2048_S256x2048_0_1 : (⟨S1x2048, .f32⟩ : BufTy).Contents (Elt F) → (⟨S256x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S256x2048 ![0, 1] bcast_S1x2048_S256x2048_0_1 : (⟨S1x2048, .f32⟩ : BufTy).Contents (Elt F) → (⟨S256x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S256x2048_S512x1024) := by
  rw [eq_main_v257 V, eq_main_v256 V, eq_main_v253 V, eq_main_v252 V, eq_main_v251 V, eq_main_cst_35 V, eq_main_v250 V, eq_main_v249 V, eq_main_cst_34 V, eq_main_v248 V, eq_main_v247 V, eq_main_v246 V, eq_main_v243 V, eq_main_v245 V, eq_main_v244 V, eq_main_v255 V, eq_main_v254 V]
theorem chain_main_v286 (V : Valuation τ sig (Elt F)) : (after (ops : List (HloOp τ sig (Elt F))) V (Proc.devRef .tc main_v286)) = (shapeCast S1024x1024 (((addf : (⟨S512x2048, .f32⟩ : BufTy).Contents (Elt F) → (⟨S512x2048, .f32⟩ : BufTy).Contents (Elt F) → (⟨S512x2048, .f32⟩ : BufTy).Contents (Elt F))) ((((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F))) (((Host.divf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((addf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((Host.exp : (⟨S512x2048, .f32⟩ : BufTy).Contents (Elt F) → (⟨S512x2048, .f32⟩ : BufTy).Contents (Elt F))) (((Host.negf : (⟨S512x2048, .f32⟩ : BufTy).Contents (Elt F) → (⟨S512x2048, .f32⟩ : BufTy).Contents (Elt F))) (((addf : (⟨S512x2048, .f32⟩ : BufTy).Contents (Elt F) → (⟨S512x2048, .f32⟩ : BufTy).Contents (Elt F) → (⟨S512x2048, .f32⟩ : BufTy).Contents (Elt F))) ((((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (ops : List (HloOp τ sig (Elt F))) V (Proc.devRef .tc main_v257)) (after (ops : List (HloOp τ sig (Elt F))) V (Proc.devRef .tc main_arg5))) (((broadcastInDim S512x2048 ![0, 1] bcast_S1x2048_S512x2048_0_1 : (⟨S1x2048, .f32⟩ : BufTy).Contents (Elt F) → (⟨S512x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S512x2048 ![0, 1] bcast_S1x2048_S512x2048_0_1 : (⟨S1x2048, .f32⟩ : BufTy).Contents (Elt F) → (⟨S512x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S512x2048_S1024x1024) := by
  rw [eq_main_v286 V, eq_main_v285 V, eq_main_v282 V, eq_main_v281 V, eq_main_v280 V, eq_main_cst_39 V, eq_main_v279 V, eq_main_v278 V, eq_main_cst_38 V, eq_main_v277 V, eq_main_v276 V, eq_main_v275 V, eq_main_v272 V, eq_main_v274 V, eq_main_v273 V, eq_main_v284 V, eq_main_v283 V]
theorem chain_main_v315 (V : Valuation τ sig (Elt F)) : (after (ops : List (HloOp τ sig (Elt F))) V (Proc.devRef .tc main_v315)) = (shapeCast S2048x1024 (((addf : (⟨S1024x2048, .f32⟩ : BufTy).Contents (Elt F) → (⟨S1024x2048, .f32⟩ : BufTy).Contents (Elt F) → (⟨S1024x2048, .f32⟩ : BufTy).Contents (Elt F))) ((((fun l r => Host.dotGeneral dot_S1024x2048_S2048x2048_S1024x2048_1_0_0_1_n_n none l r) : (⟨S1024x2048, .f32⟩ : BufTy).Contents (Elt F) → (⟨S2048x2048, .f32⟩ : BufTy).Contents (Elt F) → (⟨S1024x2048, .f32⟩ : BufTy).Contents (Elt F))) (((Host.divf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((addf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((Host.exp : (⟨S1024x2048, .f32⟩ : BufTy).Contents (Elt F) → (⟨S1024x2048, .f32⟩ : BufTy).Contents (Elt F))) (((Host.negf : (⟨S1024x2048, .f32⟩ : BufTy).Contents (Elt F) → (⟨S1024x2048, .f32⟩ : BufTy).Contents (Elt F))) (((addf : (⟨S1024x2048, .f32⟩ : BufTy).Contents (Elt F) → (⟨S1024x2048, .f32⟩ : BufTy).Contents (Elt F) → (⟨S1024x2048, .f32⟩ : BufTy).Contents (Elt F))) ((((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v286)) (after (ops : List (HloOp τ sig (Elt F))) V (Proc.devRef .tc main_arg5))) (((broadcastInDim S1024x2048 ![0, 1] bcast_S1x2048_S1024x2048_0_1 : (⟨S1x2048, .f32⟩ : BufTy).Contents (Elt F) → (⟨S1024x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg6))))))))) (after (ops : List (HloOp τ sig (Elt F))) V (Proc.devRef .tc main_arg7))) (((broadcastInDim S1024x2048 ![0, 1] bcast_S1x2048_S1024x2048_0_1 : (⟨S1x2048, .f32⟩ : BufTy).Contents (Elt F) → (⟨S1024x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg8))))) shapeCasts_S1024x2048_S2048x1024) := by
  rw [eq_main_v315 V, eq_main_v314 V, eq_main_v311 V, eq_main_v310 V, eq_main_v309 V, eq_main_cst_43 V, eq_main_v308 V, eq_main_v307 V, eq_main_cst_42 V, eq_main_v306 V, eq_main_v305 V, eq_main_v304 V, eq_main_v301 V, eq_main_v303 V, eq_main_v302 V, eq_main_v313 V, eq_main_v312 V]
theorem chain_main_v12 (V : Valuation τ sig (Elt F)) : (after (ops : List (HloOp τ sig (Elt F))) V (Proc.devRef .tc main_v12)) = (((addf : (⟨S1x32001, .f32⟩ : BufTy).Contents (Elt F) → (⟨S1x32001, .f32⟩ : BufTy).Contents (Elt F) → (⟨S1x32001, .f32⟩ : BufTy).Contents (Elt F))) ((((fun l r => Host.dotGeneral dot_S1x2048_S2048x32001_S1x32001_1_0_0_1_n_n none l r) : (⟨S1x2048, .f32⟩ : BufTy).Contents (Elt F) → (⟨S2048x32001, .f32⟩ : BufTy).Contents (Elt F) → (⟨S1x32001, .f32⟩ : BufTy).Contents (Elt F))) (((Host.divf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((addf : (⟨S1x2048, .f32⟩ : BufTy).Contents (Elt F) → (⟨S1x2048, .f32⟩ : BufTy).Contents (Elt F) → (⟨S1x2048, .f32⟩ : BufTy).Contents (Elt F))) (((broadcastInDim S1x2048 ![] bcast_S_S1x2048 : (⟨S_, .f32⟩ : BufTy).Contents (Elt F) → (⟨S1x2048, .f32⟩ : BufTy).Contents (Elt F))) ((constant S_ .f32 0x3F800000#32))) (((Host.exp : (⟨S1x2048, .f32⟩ : BufTy).Contents (Elt F) → (⟨S1x2048, .f32⟩ : BufTy).Contents (Elt F))) (((Host.negf : (⟨S1x2048, .f32⟩ : BufTy).Contents (Elt F) → (⟨S1x2048, .f32⟩ : BufTy).Contents (Elt F))) (((addf : (⟨S1x2048, .f32⟩ : BufTy).Contents (Elt F) → (⟨S1x2048, .f32⟩ : BufTy).Contents (Elt F) → (⟨S1x2048, .f32⟩ : BufTy).Contents (Elt F))) ((((fun l r => Host.dotGeneral dot_S1x1024_S1024x2048_S1x2048_1_0_0_1_n_n none l r) : (⟨S1x1024, .f32⟩ : BufTy).Contents (Elt F) → (⟨S1024x2048, .f32⟩ : BufTy).Contents (Elt F) → (⟨S1x2048, .f32⟩ : BufTy).Contents (Elt F))) (after (ops : List (HloOp τ sig (Elt F))) V (Proc.devRef .tc main_v0)) (after (ops : List (HloOp τ sig (Elt F))) V (Proc.devRef .tc main_arg1))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2)))))))) (after (ops : List (HloOp τ sig (Elt F))) V (Proc.devRef .tc main_arg3))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4)))) := by
  rw [eq_main_v12 V, eq_main_v10 V, eq_main_v9 V, eq_main_v8 V, eq_main_cst_1 V, eq_main_v7 V, eq_main_v6 V, eq_main_cst V, eq_main_v5 V, eq_main_v4 V, eq_main_v3 V, eq_main_v1 V, eq_main_v2 V, eq_main_v11 V]
theorem chain_main_v39 (V : Valuation τ sig (Elt F)) : (after (ops : List (HloOp τ sig (Elt F))) V (Proc.devRef .tc main_v39)) = (((addf : (⟨S2x32001, .f32⟩ : BufTy).Contents (Elt F) → (⟨S2x32001, .f32⟩ : BufTy).Contents (Elt F) → (⟨S2x32001, .f32⟩ : BufTy).Contents (Elt F))) ((((fun l r => Host.dotGeneral dot_S2x2048_S2048x32001_S2x32001_1_0_0_1_n_n none l r) : (⟨S2x2048, .f32⟩ : BufTy).Contents (Elt F) → (⟨S2048x32001, .f32⟩ : BufTy).Contents (Elt F) → (⟨S2x32001, .f32⟩ : BufTy).Contents (Elt F))) (((Host.divf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((addf : (⟨S2x2048, .f32⟩ : BufTy).Contents (Elt F) → (⟨S2x2048, .f32⟩ : BufTy).Contents (Elt F) → (⟨S2x2048, .f32⟩ : BufTy).Contents (Elt F))) (((broadcastInDim S2x2048 ![] bcast_S_S2x2048 : (⟨S_, .f32⟩ : BufTy).Contents (Elt F) → (⟨S2x2048, .f32⟩ : BufTy).Contents (Elt F))) ((constant S_ .f32 0x3F800000#32))) (((Host.exp : (⟨S2x2048, .f32⟩ : BufTy).Contents (Elt F) → (⟨S2x2048, .f32⟩ : BufTy).Contents (Elt F))) (((Host.negf : (⟨S2x2048, .f32⟩ : BufTy).Contents (Elt F) → (⟨S2x2048, .f32⟩ : BufTy).Contents (Elt F))) (((addf : (⟨S2x2048, .f32⟩ : BufTy).Contents (Elt F) → (⟨S2x2048, .f32⟩ : BufTy).Contents (Elt F) → (⟨S2x2048, .f32⟩ : BufTy).Contents (Elt F))) ((((fun l r => Host.dotGeneral dot_S2x1024_S1024x2048_S2x2048_1_0_0_1_n_n none l r) : (⟨S2x1024, .f32⟩ : BufTy).Contents (Elt F) → (⟨S1024x2048, .f32⟩ : BufTy).Contents (Elt F) → (⟨S2x2048, .f32⟩ : BufTy).Contents (Elt F))) (after (ops : List (HloOp τ sig (Elt F))) V (Proc.devRef .tc main_v25)) (after (ops : List (HloOp τ sig (Elt F))) V (Proc.devRef .tc main_arg1))) (((broadcastInDim S2x2048 ![0, 1] bcast_S1x2048_S2x2048_0_1 : (⟨S1x2048, .f32⟩ : BufTy).Contents (Elt F) → (⟨S2x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S2x32001 ![0, 1] bcast_S1x32001_S2x32001_0_1 : (⟨S1x32001, .f32⟩ : BufTy).Contents (Elt F) → (⟨S2x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v39 V, eq_main_v36 V, eq_main_v35 V, eq_main_v34 V, eq_main_cst_5 V, eq_main_v33 V, eq_main_v32 V, eq_main_cst_4 V, eq_main_v31 V, eq_main_v30 V, eq_main_v29 V, eq_main_v26 V, eq_main_v28 V, eq_main_v27 V, eq_main_v38 V, eq_main_v37 V]
theorem chain_main_v68 (V : Valuation τ sig (Elt F)) : (after (ops : List (HloOp τ sig (Elt F))) V (Proc.devRef .tc main_v68)) = (((addf : (⟨S4x32001, .f32⟩ : BufTy).Contents (Elt F) → (⟨S4x32001, .f32⟩ : BufTy).Contents (Elt F) → (⟨S4x32001, .f32⟩ : BufTy).Contents (Elt F))) ((((fun l r => Host.dotGeneral dot_S4x2048_S2048x32001_S4x32001_1_0_0_1_n_n none l r) : (⟨S4x2048, .f32⟩ : BufTy).Contents (Elt F) → (⟨S2048x32001, .f32⟩ : BufTy).Contents (Elt F) → (⟨S4x32001, .f32⟩ : BufTy).Contents (Elt F))) (((Host.divf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((addf : (⟨S4x2048, .f32⟩ : BufTy).Contents (Elt F) → (⟨S4x2048, .f32⟩ : BufTy).Contents (Elt F) → (⟨S4x2048, .f32⟩ : BufTy).Contents (Elt F))) (((broadcastInDim S4x2048 ![] bcast_S_S4x2048 : (⟨S_, .f32⟩ : BufTy).Contents (Elt F) → (⟨S4x2048, .f32⟩ : BufTy).Contents (Elt F))) ((constant S_ .f32 0x3F800000#32))) (((Host.exp : (⟨S4x2048, .f32⟩ : BufTy).Contents (Elt F) → (⟨S4x2048, .f32⟩ : BufTy).Contents (Elt F))) (((Host.negf : (⟨S4x2048, .f32⟩ : BufTy).Contents (Elt F) → (⟨S4x2048, .f32⟩ : BufTy).Contents (Elt F))) (((addf : (⟨S4x2048, .f32⟩ : BufTy).Contents (Elt F) → (⟨S4x2048, .f32⟩ : BufTy).Contents (Elt F) → (⟨S4x2048, .f32⟩ : BufTy).Contents (Elt F))) ((((fun l r => Host.dotGeneral dot_S4x1024_S1024x2048_S4x2048_1_0_0_1_n_n none l r) : (⟨S4x1024, .f32⟩ : BufTy).Contents (Elt F) → (⟨S1024x2048, .f32⟩ : BufTy).Contents (Elt F) → (⟨S4x2048, .f32⟩ : BufTy).Contents (Elt F))) (after (ops : List (HloOp τ sig (Elt F))) V (Proc.devRef .tc main_v54)) (after (ops : List (HloOp τ sig (Elt F))) V (Proc.devRef .tc main_arg1))) (((broadcastInDim S4x2048 ![0, 1] bcast_S1x2048_S4x2048_0_1 : (⟨S1x2048, .f32⟩ : BufTy).Contents (Elt F) → (⟨S4x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S4x32001 ![0, 1] bcast_S1x32001_S4x32001_0_1 : (⟨S1x32001, .f32⟩ : BufTy).Contents (Elt F) → (⟨S4x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v68 V, eq_main_v65 V, eq_main_v64 V, eq_main_v63 V, eq_main_cst_9 V, eq_main_v62 V, eq_main_v61 V, eq_main_cst_8 V, eq_main_v60 V, eq_main_v59 V, eq_main_v58 V, eq_main_v55 V, eq_main_v57 V, eq_main_v56 V, eq_main_v67 V, eq_main_v66 V]
theorem chain_main_v97 (V : Valuation τ sig (Elt F)) : (after (ops : List (HloOp τ sig (Elt F))) V (Proc.devRef .tc main_v97)) = (((addf : (⟨S8x32001, .f32⟩ : BufTy).Contents (Elt F) → (⟨S8x32001, .f32⟩ : BufTy).Contents (Elt F) → (⟨S8x32001, .f32⟩ : BufTy).Contents (Elt F))) ((((fun l r => Host.dotGeneral dot_S8x2048_S2048x32001_S8x32001_1_0_0_1_n_n none l r) : (⟨S8x2048, .f32⟩ : BufTy).Contents (Elt F) → (⟨S2048x32001, .f32⟩ : BufTy).Contents (Elt F) → (⟨S8x32001, .f32⟩ : BufTy).Contents (Elt F))) (((Host.divf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((addf : (⟨S8x2048, .f32⟩ : BufTy).Contents (Elt F) → (⟨S8x2048, .f32⟩ : BufTy).Contents (Elt F) → (⟨S8x2048, .f32⟩ : BufTy).Contents (Elt F))) (((broadcastInDim S8x2048 ![] bcast_S_S8x2048 : (⟨S_, .f32⟩ : BufTy).Contents (Elt F) → (⟨S8x2048, .f32⟩ : BufTy).Contents (Elt F))) ((constant S_ .f32 0x3F800000#32))) (((Host.exp : (⟨S8x2048, .f32⟩ : BufTy).Contents (Elt F) → (⟨S8x2048, .f32⟩ : BufTy).Contents (Elt F))) (((Host.negf : (⟨S8x2048, .f32⟩ : BufTy).Contents (Elt F) → (⟨S8x2048, .f32⟩ : BufTy).Contents (Elt F))) (((addf : (⟨S8x2048, .f32⟩ : BufTy).Contents (Elt F) → (⟨S8x2048, .f32⟩ : BufTy).Contents (Elt F) → (⟨S8x2048, .f32⟩ : BufTy).Contents (Elt F))) ((((fun l r => Host.dotGeneral dot_S8x1024_S1024x2048_S8x2048_1_0_0_1_n_n none l r) : (⟨S8x1024, .f32⟩ : BufTy).Contents (Elt F) → (⟨S1024x2048, .f32⟩ : BufTy).Contents (Elt F) → (⟨S8x2048, .f32⟩ : BufTy).Contents (Elt F))) (after (ops : List (HloOp τ sig (Elt F))) V (Proc.devRef .tc main_v83)) (after (ops : List (HloOp τ sig (Elt F))) V (Proc.devRef .tc main_arg1))) (((broadcastInDim S8x2048 ![0, 1] bcast_S1x2048_S8x2048_0_1 : (⟨S1x2048, .f32⟩ : BufTy).Contents (Elt F) → (⟨S8x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S8x32001 ![0, 1] bcast_S1x32001_S8x32001_0_1 : (⟨S1x32001, .f32⟩ : BufTy).Contents (Elt F) → (⟨S8x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v97 V, eq_main_v94 V, eq_main_v93 V, eq_main_v92 V, eq_main_cst_13 V, eq_main_v91 V, eq_main_v90 V, eq_main_cst_12 V, eq_main_v89 V, eq_main_v88 V, eq_main_v87 V, eq_main_v84 V, eq_main_v86 V, eq_main_v85 V, eq_main_v96 V, eq_main_v95 V]
theorem chain_main_v126 (V : Valuation τ sig (Elt F)) : (after (ops : List (HloOp τ sig (Elt F))) V (Proc.devRef .tc main_v126)) = (((addf : (⟨S16x32001, .f32⟩ : BufTy).Contents (Elt F) → (⟨S16x32001, .f32⟩ : BufTy).Contents (Elt F) → (⟨S16x32001, .f32⟩ : BufTy).Contents (Elt F))) ((((fun l r => Host.dotGeneral dot_S16x2048_S2048x32001_S16x32001_1_0_0_1_n_n none l r) : (⟨S16x2048, .f32⟩ : BufTy).Contents (Elt F) → (⟨S2048x32001, .f32⟩ : BufTy).Contents (Elt F) → (⟨S16x32001, .f32⟩ : BufTy).Contents (Elt F))) (((Host.divf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((addf : (⟨S16x2048, .f32⟩ : BufTy).Contents (Elt F) → (⟨S16x2048, .f32⟩ : BufTy).Contents (Elt F) → (⟨S16x2048, .f32⟩ : BufTy).Contents (Elt F))) (((broadcastInDim S16x2048 ![] bcast_S_S16x2048 : (⟨S_, .f32⟩ : BufTy).Contents (Elt F) → (⟨S16x2048, .f32⟩ : BufTy).Contents (Elt F))) ((constant S_ .f32 0x3F800000#32))) (((Host.exp : (⟨S16x2048, .f32⟩ : BufTy).Contents (Elt F) → (⟨S16x2048, .f32⟩ : BufTy).Contents (Elt F))) (((Host.negf : (⟨S16x2048, .f32⟩ : BufTy).Contents (Elt F) → (⟨S16x2048, .f32⟩ : BufTy).Contents (Elt F))) (((addf : (⟨S16x2048, .f32⟩ : BufTy).Contents (Elt F) → (⟨S16x2048, .f32⟩ : BufTy).Contents (Elt F) → (⟨S16x2048, .f32⟩ : BufTy).Contents (Elt F))) ((((fun l r => Host.dotGeneral dot_S16x1024_S1024x2048_S16x2048_1_0_0_1_n_n none l r) : (⟨S16x1024, .f32⟩ : BufTy).Contents (Elt F) → (⟨S1024x2048, .f32⟩ : BufTy).Contents (Elt F) → (⟨S16x2048, .f32⟩ : BufTy).Contents (Elt F))) (after (ops : List (HloOp τ sig (Elt F))) V (Proc.devRef .tc main_v112)) (after (ops : List (HloOp τ sig (Elt F))) V (Proc.devRef .tc main_arg1))) (((broadcastInDim S16x2048 ![0, 1] bcast_S1x2048_S16x2048_0_1 : (⟨S1x2048, .f32⟩ : BufTy).Contents (Elt F) → (⟨S16x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S16x32001 ![0, 1] bcast_S1x32001_S16x32001_0_1 : (⟨S1x32001, .f32⟩ : BufTy).Contents (Elt F) → (⟨S16x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v126 V, eq_main_v123 V, eq_main_v122 V, eq_main_v121 V, eq_main_cst_17 V, eq_main_v120 V, eq_main_v119 V, eq_main_cst_16 V, eq_main_v118 V, eq_main_v117 V, eq_main_v116 V, eq_main_v113 V, eq_main_v115 V, eq_main_v114 V, eq_main_v125 V, eq_main_v124 V]
theorem chain_main_v155 (V : Valuation τ sig (Elt F)) : (after (ops : List (HloOp τ sig (Elt F))) V (Proc.devRef .tc main_v155)) = (((addf : (⟨S32x32001, .f32⟩ : BufTy).Contents (Elt F) → (⟨S32x32001, .f32⟩ : BufTy).Contents (Elt F) → (⟨S32x32001, .f32⟩ : BufTy).Contents (Elt F))) ((((fun l r => Host.dotGeneral dot_S32x2048_S2048x32001_S32x32001_1_0_0_1_n_n none l r) : (⟨S32x2048, .f32⟩ : BufTy).Contents (Elt F) → (⟨S2048x32001, .f32⟩ : BufTy).Contents (Elt F) → (⟨S32x32001, .f32⟩ : BufTy).Contents (Elt F))) (((Host.divf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((addf : (⟨S32x2048, .f32⟩ : BufTy).Contents (Elt F) → (⟨S32x2048, .f32⟩ : BufTy).Contents (Elt F) → (⟨S32x2048, .f32⟩ : BufTy).Contents (Elt F))) (((broadcastInDim S32x2048 ![] bcast_S_S32x2048 : (⟨S_, .f32⟩ : BufTy).Contents (Elt F) → (⟨S32x2048, .f32⟩ : BufTy).Contents (Elt F))) ((constant S_ .f32 0x3F800000#32))) (((Host.exp : (⟨S32x2048, .f32⟩ : BufTy).Contents (Elt F) → (⟨S32x2048, .f32⟩ : BufTy).Contents (Elt F))) (((Host.negf : (⟨S32x2048, .f32⟩ : BufTy).Contents (Elt F) → (⟨S32x2048, .f32⟩ : BufTy).Contents (Elt F))) (((addf : (⟨S32x2048, .f32⟩ : BufTy).Contents (Elt F) → (⟨S32x2048, .f32⟩ : BufTy).Contents (Elt F) → (⟨S32x2048, .f32⟩ : BufTy).Contents (Elt F))) ((((fun l r => Host.dotGeneral dot_S32x1024_S1024x2048_S32x2048_1_0_0_1_n_n none l r) : (⟨S32x1024, .f32⟩ : BufTy).Contents (Elt F) → (⟨S1024x2048, .f32⟩ : BufTy).Contents (Elt F) → (⟨S32x2048, .f32⟩ : BufTy).Contents (Elt F))) (after (ops : List (HloOp τ sig (Elt F))) V (Proc.devRef .tc main_v141)) (after (ops : List (HloOp τ sig (Elt F))) V (Proc.devRef .tc main_arg1))) (((broadcastInDim S32x2048 ![0, 1] bcast_S1x2048_S32x2048_0_1 : (⟨S1x2048, .f32⟩ : BufTy).Contents (Elt F) → (⟨S32x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S32x32001 ![0, 1] bcast_S1x32001_S32x32001_0_1 : (⟨S1x32001, .f32⟩ : BufTy).Contents (Elt F) → (⟨S32x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v155 V, eq_main_v152 V, eq_main_v151 V, eq_main_v150 V, eq_main_cst_21 V, eq_main_v149 V, eq_main_v148 V, eq_main_cst_20 V, eq_main_v147 V, eq_main_v146 V, eq_main_v145 V, eq_main_v142 V, eq_main_v144 V, eq_main_v143 V, eq_main_v154 V, eq_main_v153 V]
theorem chain_main_v184 (V : Valuation τ sig (Elt F)) : (after (ops : List (HloOp τ sig (Elt F))) V (Proc.devRef .tc main_v184)) = (((addf : (⟨S64x32001, .f32⟩ : BufTy).Contents (Elt F) → (⟨S64x32001, .f32⟩ : BufTy).Contents (Elt F) → (⟨S64x32001, .f32⟩ : BufTy).Contents (Elt F))) ((((fun l r => Host.dotGeneral dot_S64x2048_S2048x32001_S64x32001_1_0_0_1_n_n none l r) : (⟨S64x2048, .f32⟩ : BufTy).Contents (Elt F) → (⟨S2048x32001, .f32⟩ : BufTy).Contents (Elt F) → (⟨S64x32001, .f32⟩ : BufTy).Contents (Elt F))) (((Host.divf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((addf : (⟨S64x2048, .f32⟩ : BufTy).Contents (Elt F) → (⟨S64x2048, .f32⟩ : BufTy).Contents (Elt F) → (⟨S64x2048, .f32⟩ : BufTy).Contents (Elt F))) (((broadcastInDim S64x2048 ![] bcast_S_S64x2048 : (⟨S_, .f32⟩ : BufTy).Contents (Elt F) → (⟨S64x2048, .f32⟩ : BufTy).Contents (Elt F))) ((constant S_ .f32 0x3F800000#32))) (((Host.exp : (⟨S64x2048, .f32⟩ : BufTy).Contents (Elt F) → (⟨S64x2048, .f32⟩ : BufTy).Contents (Elt F))) (((Host.negf : (⟨S64x2048, .f32⟩ : BufTy).Contents (Elt F) → (⟨S64x2048, .f32⟩ : BufTy).Contents (Elt F))) (((addf : (⟨S64x2048, .f32⟩ : BufTy).Contents (Elt F) → (⟨S64x2048, .f32⟩ : BufTy).Contents (Elt F) → (⟨S64x2048, .f32⟩ : BufTy).Contents (Elt F))) ((((fun l r => Host.dotGeneral dot_S64x1024_S1024x2048_S64x2048_1_0_0_1_n_n none l r) : (⟨S64x1024, .f32⟩ : BufTy).Contents (Elt F) → (⟨S1024x2048, .f32⟩ : BufTy).Contents (Elt F) → (⟨S64x2048, .f32⟩ : BufTy).Contents (Elt F))) (after (ops : List (HloOp τ sig (Elt F))) V (Proc.devRef .tc main_v170)) (after (ops : List (HloOp τ sig (Elt F))) V (Proc.devRef .tc main_arg1))) (((broadcastInDim S64x2048 ![0, 1] bcast_S1x2048_S64x2048_0_1 : (⟨S1x2048, .f32⟩ : BufTy).Contents (Elt F) → (⟨S64x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S64x32001 ![0, 1] bcast_S1x32001_S64x32001_0_1 : (⟨S1x32001, .f32⟩ : BufTy).Contents (Elt F) → (⟨S64x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v184 V, eq_main_v181 V, eq_main_v180 V, eq_main_v179 V, eq_main_cst_25 V, eq_main_v178 V, eq_main_v177 V, eq_main_cst_24 V, eq_main_v176 V, eq_main_v175 V, eq_main_v174 V, eq_main_v171 V, eq_main_v173 V, eq_main_v172 V, eq_main_v183 V, eq_main_v182 V]
theorem chain_main_v213 (V : Valuation τ sig (Elt F)) : (after (ops : List (HloOp τ sig (Elt F))) V (Proc.devRef .tc main_v213)) = (((addf : (⟨S128x32001, .f32⟩ : BufTy).Contents (Elt F) → (⟨S128x32001, .f32⟩ : BufTy).Contents (Elt F) → (⟨S128x32001, .f32⟩ : BufTy).Contents (Elt F))) ((((fun l r => Host.dotGeneral dot_S128x2048_S2048x32001_S128x32001_1_0_0_1_n_n none l r) : (⟨S128x2048, .f32⟩ : BufTy).Contents (Elt F) → (⟨S2048x32001, .f32⟩ : BufTy).Contents (Elt F) → (⟨S128x32001, .f32⟩ : BufTy).Contents (Elt F))) (((Host.divf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((addf : (⟨S128x2048, .f32⟩ : BufTy).Contents (Elt F) → (⟨S128x2048, .f32⟩ : BufTy).Contents (Elt F) → (⟨S128x2048, .f32⟩ : BufTy).Contents (Elt F))) (((broadcastInDim S128x2048 ![] bcast_S_S128x2048 : (⟨S_, .f32⟩ : BufTy).Contents (Elt F) → (⟨S128x2048, .f32⟩ : BufTy).Contents (Elt F))) ((constant S_ .f32 0x3F800000#32))) (((Host.exp : (⟨S128x2048, .f32⟩ : BufTy).Contents (Elt F) → (⟨S128x2048, .f32⟩ : BufTy).Contents (Elt F))) (((Host.negf : (⟨S128x2048, .f32⟩ : BufTy).Contents (Elt F) → (⟨S128x2048, .f32⟩ : BufTy).Contents (Elt F))) (((addf : (⟨S128x2048, .f32⟩ : BufTy).Contents (Elt F) → (⟨S128x2048, .f32⟩ : BufTy).Contents (Elt F) → (⟨S128x2048, .f32⟩ : BufTy).Contents (Elt F))) ((((fun l r => Host.dotGeneral dot_S128x1024_S1024x2048_S128x2048_1_0_0_1_n_n none l r) : (⟨S128x1024, .f32⟩ : BufTy).Contents (Elt F) → (⟨S1024x2048, .f32⟩ : BufTy).Contents (Elt F) → (⟨S128x2048, .f32⟩ : BufTy).Contents (Elt F))) (after (ops : List (HloOp τ sig (Elt F))) V (Proc.devRef .tc main_v199)) (after (ops : List (HloOp τ sig (Elt F))) V (Proc.devRef .tc main_arg1))) (((broadcastInDim S128x2048 ![0, 1] bcast_S1x2048_S128x2048_0_1 : (⟨S1x2048, .f32⟩ : BufTy).Contents (Elt F) → (⟨S128x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S128x32001 ![0, 1] bcast_S1x32001_S128x32001_0_1 : (⟨S1x32001, .f32⟩ : BufTy).Contents (Elt F) → (⟨S128x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v213 V, eq_main_v210 V, eq_main_v209 V, eq_main_v208 V, eq_main_cst_29 V, eq_main_v207 V, eq_main_v206 V, eq_main_cst_28 V, eq_main_v205 V, eq_main_v204 V, eq_main_v203 V, eq_main_v200 V, eq_main_v202 V, eq_main_v201 V, eq_main_v212 V, eq_main_v211 V]
theorem chain_main_v242 (V : Valuation τ sig (Elt F)) : (after (ops : List (HloOp τ sig (Elt F))) V (Proc.devRef .tc main_v242)) = (((addf : (⟨S256x32001, .f32⟩ : BufTy).Contents (Elt F) → (⟨S256x32001, .f32⟩ : BufTy).Contents (Elt F) → (⟨S256x32001, .f32⟩ : BufTy).Contents (Elt F))) ((((fun l r => Host.dotGeneral dot_S256x2048_S2048x32001_S256x32001_1_0_0_1_n_n none l r) : (⟨S256x2048, .f32⟩ : BufTy).Contents (Elt F) → (⟨S2048x32001, .f32⟩ : BufTy).Contents (Elt F) → (⟨S256x32001, .f32⟩ : BufTy).Contents (Elt F))) (((Host.divf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((addf : (⟨S256x2048, .f32⟩ : BufTy).Contents (Elt F) → (⟨S256x2048, .f32⟩ : BufTy).Contents (Elt F) → (⟨S256x2048, .f32⟩ : BufTy).Contents (Elt F))) (((broadcastInDim S256x2048 ![] bcast_S_S256x2048 : (⟨S_, .f32⟩ : BufTy).Contents (Elt F) → (⟨S256x2048, .f32⟩ : BufTy).Contents (Elt F))) ((constant S_ .f32 0x3F800000#32))) (((Host.exp : (⟨S256x2048, .f32⟩ : BufTy).Contents (Elt F) → (⟨S256x2048, .f32⟩ : BufTy).Contents (Elt F))) (((Host.negf : (⟨S256x2048, .f32⟩ : BufTy).Contents (Elt F) → (⟨S256x2048, .f32⟩ : BufTy).Contents (Elt F))) (((addf : (⟨S256x2048, .f32⟩ : BufTy).Contents (Elt F) → (⟨S256x2048, .f32⟩ : BufTy).Contents (Elt F) → (⟨S256x2048, .f32⟩ : BufTy).Contents (Elt F))) ((((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F))) (after (ops : List (HloOp τ sig (Elt F))) V (Proc.devRef .tc main_v228)) (after (ops : List (HloOp τ sig (Elt F))) V (Proc.devRef .tc main_arg1))) (((broadcastInDim S256x2048 ![0, 1] bcast_S1x2048_S256x2048_0_1 : (⟨S1x2048, .f32⟩ : BufTy).Contents (Elt F) → (⟨S256x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S256x32001 ![0, 1] bcast_S1x32001_S256x32001_0_1 : (⟨S1x32001, .f32⟩ : BufTy).Contents (Elt F) → (⟨S256x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v242 V, eq_main_v239 V, eq_main_v238 V, eq_main_v237 V, eq_main_cst_33 V, eq_main_v236 V, eq_main_v235 V, eq_main_cst_32 V, eq_main_v234 V, eq_main_v233 V, eq_main_v232 V, eq_main_v229 V, eq_main_v231 V, eq_main_v230 V, eq_main_v241 V, eq_main_v240 V]
theorem chain_main_v271 (V : Valuation τ sig (Elt F)) : (after (ops : List (HloOp τ sig (Elt F))) V (Proc.devRef .tc main_v271)) = (((addf : (⟨S512x32001, .f32⟩ : BufTy).Contents (Elt F) → (⟨S512x32001, .f32⟩ : BufTy).Contents (Elt F) → (⟨S512x32001, .f32⟩ : BufTy).Contents (Elt F))) ((((fun l r => Host.dotGeneral dot_S512x2048_S2048x32001_S512x32001_1_0_0_1_n_n none l r) : (⟨S512x2048, .f32⟩ : BufTy).Contents (Elt F) → (⟨S2048x32001, .f32⟩ : BufTy).Contents (Elt F) → (⟨S512x32001, .f32⟩ : BufTy).Contents (Elt F))) (((Host.divf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((addf : (⟨S512x2048, .f32⟩ : BufTy).Contents (Elt F) → (⟨S512x2048, .f32⟩ : BufTy).Contents (Elt F) → (⟨S512x2048, .f32⟩ : BufTy).Contents (Elt F))) (((broadcastInDim S512x2048 ![] bcast_S_S512x2048 : (⟨S_, .f32⟩ : BufTy).Contents (Elt F) → (⟨S512x2048, .f32⟩ : BufTy).Contents (Elt F))) ((constant S_ .f32 0x3F800000#32))) (((Host.exp : (⟨S512x2048, .f32⟩ : BufTy).Contents (Elt F) → (⟨S512x2048, .f32⟩ : BufTy).Contents (Elt F))) (((Host.negf : (⟨S512x2048, .f32⟩ : BufTy).Contents (Elt F) → (⟨S512x2048, .f32⟩ : BufTy).Contents (Elt F))) (((addf : (⟨S512x2048, .f32⟩ : BufTy).Contents (Elt F) → (⟨S512x2048, .f32⟩ : BufTy).Contents (Elt F) → (⟨S512x2048, .f32⟩ : BufTy).Contents (Elt F))) ((((fun l r => Host.dotGeneral dot_S512x1024_S1024x2048_S512x2048_1_0_0_1_n_n none l r) : (⟨S512x1024, .f32⟩ : BufTy).Contents (Elt F) → (⟨S1024x2048, .f32⟩ : BufTy).Contents (Elt F) → (⟨S512x2048, .f32⟩ : BufTy).Contents (Elt F))) (after (ops : List (HloOp τ sig (Elt F))) V (Proc.devRef .tc main_v257)) (after (ops : List (HloOp τ sig (Elt F))) V (Proc.devRef .tc main_arg1))) (((broadcastInDim S512x2048 ![0, 1] bcast_S1x2048_S512x2048_0_1 : (⟨S1x2048, .f32⟩ : BufTy).Contents (Elt F) → (⟨S512x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S512x32001 ![0, 1] bcast_S1x32001_S512x32001_0_1 : (⟨S1x32001, .f32⟩ : BufTy).Contents (Elt F) → (⟨S512x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v271 V, eq_main_v268 V, eq_main_v267 V, eq_main_v266 V, eq_main_cst_37 V, eq_main_v265 V, eq_main_v264 V, eq_main_cst_36 V, eq_main_v263 V, eq_main_v262 V, eq_main_v261 V, eq_main_v258 V, eq_main_v260 V, eq_main_v259 V, eq_main_v270 V, eq_main_v269 V]
theorem chain_main_v300 (V : Valuation τ sig (Elt F)) : (after (ops : List (HloOp τ sig (Elt F))) V (Proc.devRef .tc main_v300)) = (((addf : (⟨S1024x32001, .f32⟩ : BufTy).Contents (Elt F) → (⟨S1024x32001, .f32⟩ : BufTy).Contents (Elt F) → (⟨S1024x32001, .f32⟩ : BufTy).Contents (Elt F))) ((((fun l r => Host.dotGeneral dot_S1024x2048_S2048x32001_S1024x32001_1_0_0_1_n_n none l r) : (⟨S1024x2048, .f32⟩ : BufTy).Contents (Elt F) → (⟨S2048x32001, .f32⟩ : BufTy).Contents (Elt F) → (⟨S1024x32001, .f32⟩ : BufTy).Contents (Elt F))) (((Host.divf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((addf : (⟨S1024x2048, .f32⟩ : BufTy).Contents (Elt F) → (⟨S1024x2048, .f32⟩ : BufTy).Contents (Elt F) → (⟨S1024x2048, .f32⟩ : BufTy).Contents (Elt F))) (((broadcastInDim S1024x2048 ![] bcast_S_S1024x2048 : (⟨S_, .f32⟩ : BufTy).Contents (Elt F) → (⟨S1024x2048, .f32⟩ : BufTy).Contents (Elt F))) ((constant S_ .f32 0x3F800000#32))) (((Host.exp : (⟨S1024x2048, .f32⟩ : BufTy).Contents (Elt F) → (⟨S1024x2048, .f32⟩ : BufTy).Contents (Elt F))) (((Host.negf : (⟨S1024x2048, .f32⟩ : BufTy).Contents (Elt F) → (⟨S1024x2048, .f32⟩ : BufTy).Contents (Elt F))) (((addf : (⟨S1024x2048, .f32⟩ : BufTy).Contents (Elt F) → (⟨S1024x2048, .f32⟩ : BufTy).Contents (Elt F) → (⟨S1024x2048, .f32⟩ : BufTy).Contents (Elt F))) ((((fun l r => Host.dotGeneral dot_S1024x1024_S1024x2048_S1024x2048_1_0_0_1_n_n none l r) : (⟨S1024x1024, .f32⟩ : BufTy).Contents (Elt F) → (⟨S1024x2048, .f32⟩ : BufTy).Contents (Elt F) → (⟨S1024x2048, .f32⟩ : BufTy).Contents (Elt F))) (after (ops : List (HloOp τ sig (Elt F))) V (Proc.devRef .tc main_v286)) (after (ops : List (HloOp τ sig (Elt F))) V (Proc.devRef .tc main_arg1))) (((broadcastInDim S1024x2048 ![0, 1] bcast_S1x2048_S1024x2048_0_1 : (⟨S1x2048, .f32⟩ : BufTy).Contents (Elt F) → (⟨S1024x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S1024x32001 ![0, 1] bcast_S1x32001_S1024x32001_0_1 : (⟨S1x32001, .f32⟩ : BufTy).Contents (Elt F) → (⟨S1024x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v300 V, eq_main_v297 V, eq_main_v296 V, eq_main_v295 V, eq_main_cst_41 V, eq_main_v294 V, eq_main_v293 V, eq_main_cst_40 V, eq_main_v292 V, eq_main_v291 V, eq_main_v290 V, eq_main_v287 V, eq_main_v289 V, eq_main_v288 V, eq_main_v299 V, eq_main_v298 V]
theorem chain_main_v329 (V : Valuation τ sig (Elt F)) : (after (ops : List (HloOp τ sig (Elt F))) V (Proc.devRef .tc main_v329)) = (((addf : (⟨S2048x32001, .f32⟩ : BufTy).Contents (Elt F) → (⟨S2048x32001, .f32⟩ : BufTy).Contents (Elt F) → (⟨S2048x32001, .f32⟩ : BufTy).Contents (Elt F))) ((((fun l r => Host.dotGeneral dot_S2048x2048_S2048x32001_S2048x32001_1_0_0_1_n_n none l r) : (⟨S2048x2048, .f32⟩ : BufTy).Contents (Elt F) → (⟨S2048x32001, .f32⟩ : BufTy).Contents (Elt F) → (⟨S2048x32001, .f32⟩ : BufTy).Contents (Elt F))) (((Host.divf : (⟨S2048x2048, .f32⟩ : BufTy).Contents (Elt F) → (⟨S2048x2048, .f32⟩ : BufTy).Contents (Elt F) → (⟨S2048x2048, .f32⟩ : BufTy).Contents (Elt F))) (((broadcastInDim S2048x2048 ![] bcast_S_S2048x2048 : (⟨S_, .f32⟩ : BufTy).Contents (Elt F) → (⟨S2048x2048, .f32⟩ : BufTy).Contents (Elt F))) ((constant S_ .f32 0x3F800000#32))) (((addf : (⟨S2048x2048, .f32⟩ : BufTy).Contents (Elt F) → (⟨S2048x2048, .f32⟩ : BufTy).Contents (Elt F) → (⟨S2048x2048, .f32⟩ : BufTy).Contents (Elt F))) (((broadcastInDim S2048x2048 ![] bcast_S_S2048x2048 : (⟨S_, .f32⟩ : BufTy).Contents (Elt F) → (⟨S2048x2048, .f32⟩ : BufTy).Contents (Elt F))) ((constant S_ .f32 0x3F800000#32))) (((Host.exp : (⟨S2048x2048, .f32⟩ : BufTy).Contents (Elt F) → (⟨S2048x2048, .f32⟩ : BufTy).Contents (Elt F))) (((Host.negf : (⟨S2048x2048, .f32⟩ : BufTy).Contents (Elt F) → (⟨S2048x2048, .f32⟩ : BufTy).Contents (Elt F))) (((addf : (⟨S2048x2048, .f32⟩ : BufTy).Contents (Elt F) → (⟨S2048x2048, .f32⟩ : BufTy).Contents (Elt F) → (⟨S2048x2048, .f32⟩ : BufTy).Contents (Elt F))) ((((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F))) (after (ops : List (HloOp τ sig (Elt F))) V (Proc.devRef .tc main_v315)) (after (ops : List (HloOp τ sig (Elt F))) V (Proc.devRef .tc main_arg1))) (((broadcastInDim S2048x2048 ![0, 1] bcast_S1x2048_S2048x2048_0_1 : (⟨S1x2048, .f32⟩ : BufTy).Contents (Elt F) → (⟨S2048x2048, .f32⟩ : BufTy).Contents (Elt F))) (((broadcastInDim S1x2048 ![1] bcast_S2048_S1x2048_1 : (⟨S2048, .f32⟩ : BufTy).Contents (Elt F) → (⟨S1x2048, .f32⟩ : BufTy).Contents (Elt F))) (after (ops : List (HloOp τ sig (Elt F))) V (Proc.devRef .tc main_arg2))))))))) (after (ops : List (HloOp τ sig (Elt F))) V (Proc.devRef .tc main_arg3))) (((broadcastInDim S2048x32001 ![0, 1] bcast_S1x32001_S2048x32001_0_1 : (⟨S1x32001, .f32⟩ : BufTy).Contents (Elt F) → (⟨S2048x32001, .f32⟩ : BufTy).Contents (Elt F))) (((broadcastInDim S1x32001 ![1] bcast_S32001_S1x32001_1 : (⟨S32001, .f32⟩ : BufTy).Contents (Elt F) → (⟨S1x32001, .f32⟩ : BufTy).Contents (Elt F))) (after (ops : List (HloOp τ sig (Elt F))) V (Proc.devRef .tc main_arg4))))) := by
  rw [eq_main_v329 V, eq_main_v326 V, eq_main_v325 V, eq_main_v324 V, eq_main_cst_45 V, eq_main_v323 V, eq_main_v322 V, eq_main_cst_44 V, eq_main_v321 V, eq_main_v320 V, eq_main_v319 V, eq_main_v316 V, eq_main_v318 V, eq_main_v317 V, eq_main_v328 V, eq_main_v327 V]

-- levels: main_v0 main_v25 main_v54 main_v83 main_v112 main_v141 main_v170 main_v199 main_v228 main_v257 main_v286 main_v315
-- pieces: main_v12 main_v39 main_v68 main_v97 main_v126 main_v155 main_v184 main_v213 main_v242 main_v271 main_v300 main_v329  -> main_v330

end Cert.ReferenceIdeal.Ssa

end
-- ==== Proof.Levels.lean ====
/-
  The hidden rows, level by level, are the same in the two programs.

  Both programs start from the root's hidden row laid as a 1 × 1024 array and obtain level d + 1 from level d by the
  children MLP — a general dot product with the first children matrix plus its bias, the logistic spelt as
  1 / (1 + exp (-z)), a general dot product with the second children matrix plus its bias, and a regrouping of the
  [n, 2048] result as [2n, 1024] — written as the same chain of host operations at the same shapes. So, from contents
  that agree on the root row and the four children-MLP arguments, every level's buffer holds the same array in the
  kernel's program as in the reference's: by induction on the level, each step an equation between two copies of one
  composition.
-/
import proofs.«141888_j3590592659519_2_alg».proof.Proof.SsaK
import proofs.«141888_j3590592659519_2_alg».proof.Proof.SsaR
import Idealize.ShloMosaic.Lib.ValueIdx
import Idealize.ShloMosaic.Lib.StableHlo.Run

set_option maxRecDepth 65536

noncomputable section

namespace Cert.Tree

open Idealize.ShloMosaic Idealize.ShloMosaic.TcCoe Idealize.ShloMosaic.ValueIdx Idealize.SL.Sem

variable (VK : Valuation Cert.KernelIdeal.τ Cert.KernelIdeal.sig (Elt Ideal)) (VR : Valuation Cert.ReferenceIdeal.τ Cert.ReferenceIdeal.sig (Elt Ideal))

theorem argK0 : StableHlo.after (Cert.KernelIdeal.Gen.hostOps0 (F := Ideal)) VK (Proc.devRef .tc Cert.KernelIdeal.main_arg0) = VK (Proc.devRef .tc Cert.KernelIdeal.main_arg0) :=
  Cert.Lib.SsaFold2.after_arg Cert.KernelIdeal.Ssa.numbered Cert.KernelIdeal.main_arg0 (by decide) VK
theorem argR0 : StableHlo.after (Cert.ReferenceIdeal.RefRun.ops (F := Ideal)) VR (Proc.devRef .tc Cert.ReferenceIdeal.main_arg0) = VR (Proc.devRef .tc Cert.ReferenceIdeal.main_arg0) :=
  Cert.Lib.SsaFold2.after_arg Cert.ReferenceIdeal.Ssa.numbered Cert.ReferenceIdeal.main_arg0 (by decide) VR
theorem argK1 : StableHlo.after (Cert.KernelIdeal.Gen.hostOps0 (F := Ideal)) VK (Proc.devRef .tc Cert.KernelIdeal.main_arg1) = VK (Proc.devRef .tc Cert.KernelIdeal.main_arg1) :=
  Cert.Lib.SsaFold2.after_arg Cert.KernelIdeal.Ssa.numbered Cert.KernelIdeal.main_arg1 (by decide) VK
theorem argR1 : StableHlo.after (Cert.ReferenceIdeal.RefRun.ops (F := Ideal)) VR (Proc.devRef .tc Cert.ReferenceIdeal.main_arg1) = VR (Proc.devRef .tc Cert.ReferenceIdeal.main_arg1) :=
  Cert.Lib.SsaFold2.after_arg Cert.ReferenceIdeal.Ssa.numbered Cert.ReferenceIdeal.main_arg1 (by decide) VR
theorem argK2 : StableHlo.after (Cert.KernelIdeal.Gen.hostOps0 (F := Ideal)) VK (Proc.devRef .tc Cert.KernelIdeal.main_arg2) = VK (Proc.devRef .tc Cert.KernelIdeal.main_arg2) :=
  Cert.Lib.SsaFold2.after_arg Cert.KernelIdeal.Ssa.numbered Cert.KernelIdeal.main_arg2 (by decide) VK
theorem argR2 : StableHlo.after (Cert.ReferenceIdeal.RefRun.ops (F := Ideal)) VR (Proc.devRef .tc Cert.ReferenceIdeal.main_arg2) = VR (Proc.devRef .tc Cert.ReferenceIdeal.main_arg2) :=
  Cert.Lib.SsaFold2.after_arg Cert.ReferenceIdeal.Ssa.numbered Cert.ReferenceIdeal.main_arg2 (by decide) VR
theorem argK3 : StableHlo.after (Cert.KernelIdeal.Gen.hostOps0 (F := Ideal)) VK (Proc.devRef .tc Cert.KernelIdeal.main_arg3) = VK (Proc.devRef .tc Cert.KernelIdeal.main_arg3) :=
  Cert.Lib.SsaFold2.after_arg Cert.KernelIdeal.Ssa.numbered Cert.KernelIdeal.main_arg3 (by decide) VK
theorem argR3 : StableHlo.after (Cert.ReferenceIdeal.RefRun.ops (F := Ideal)) VR (Proc.devRef .tc Cert.ReferenceIdeal.main_arg3) = VR (Proc.devRef .tc Cert.ReferenceIdeal.main_arg3) :=
  Cert.Lib.SsaFold2.after_arg Cert.ReferenceIdeal.Ssa.numbered Cert.ReferenceIdeal.main_arg3 (by decide) VR
theorem argK4 : StableHlo.after (Cert.KernelIdeal.Gen.hostOps0 (F := Ideal)) VK (Proc.devRef .tc Cert.KernelIdeal.main_arg4) = VK (Proc.devRef .tc Cert.KernelIdeal.main_arg4) :=
  Cert.Lib.SsaFold2.after_arg Cert.KernelIdeal.Ssa.numbered Cert.KernelIdeal.main_arg4 (by decide) VK
theorem argR4 : StableHlo.after (Cert.ReferenceIdeal.RefRun.ops (F := Ideal)) VR (Proc.devRef .tc Cert.ReferenceIdeal.main_arg4) = VR (Proc.devRef .tc Cert.ReferenceIdeal.main_arg4) :=
  Cert.Lib.SsaFold2.after_arg Cert.ReferenceIdeal.Ssa.numbered Cert.ReferenceIdeal.main_arg4 (by decide) VR
theorem argK5 : StableHlo.after (Cert.KernelIdeal.Gen.hostOps0 (F := Ideal)) VK (Proc.devRef .tc Cert.KernelIdeal.main_arg5) = VK (Proc.devRef .tc Cert.KernelIdeal.main_arg5) :=
  Cert.Lib.SsaFold2.after_arg Cert.KernelIdeal.Ssa.numbered Cert.KernelIdeal.main_arg5 (by decide) VK
theorem argR5 : StableHlo.after (Cert.ReferenceIdeal.RefRun.ops (F := Ideal)) VR (Proc.devRef .tc Cert.ReferenceIdeal.main_arg5) = VR (Proc.devRef .tc Cert.ReferenceIdeal.main_arg5) :=
  Cert.Lib.SsaFold2.after_arg Cert.ReferenceIdeal.Ssa.numbered Cert.ReferenceIdeal.main_arg5 (by decide) VR
theorem argK6 : StableHlo.after (Cert.KernelIdeal.Gen.hostOps0 (F := Ideal)) VK (Proc.devRef .tc Cert.KernelIdeal.main_arg6) = VK (Proc.devRef .tc Cert.KernelIdeal.main_arg6) :=
  Cert.Lib.SsaFold2.after_arg Cert.KernelIdeal.Ssa.numbered Cert.KernelIdeal.main_arg6 (by decide) VK
theorem argR6 : StableHlo.after (Cert.ReferenceIdeal.RefRun.ops (F := Ideal)) VR (Proc.devRef .tc Cert.ReferenceIdeal.main_arg6) = VR (Proc.devRef .tc Cert.ReferenceIdeal.main_arg6) :=
  Cert.Lib.SsaFold2.after_arg Cert.ReferenceIdeal.Ssa.numbered Cert.ReferenceIdeal.main_arg6 (by decide) VR
theorem argK7 : StableHlo.after (Cert.KernelIdeal.Gen.hostOps0 (F := Ideal)) VK (Proc.devRef .tc Cert.KernelIdeal.main_arg7) = VK (Proc.devRef .tc Cert.KernelIdeal.main_arg7) :=
  Cert.Lib.SsaFold2.after_arg Cert.KernelIdeal.Ssa.numbered Cert.KernelIdeal.main_arg7 (by decide) VK
theorem argR7 : StableHlo.after (Cert.ReferenceIdeal.RefRun.ops (F := Ideal)) VR (Proc.devRef .tc Cert.ReferenceIdeal.main_arg7) = VR (Proc.devRef .tc Cert.ReferenceIdeal.main_arg7) :=
  Cert.Lib.SsaFold2.after_arg Cert.ReferenceIdeal.Ssa.numbered Cert.ReferenceIdeal.main_arg7 (by decide) VR
theorem argK8 : StableHlo.after (Cert.KernelIdeal.Gen.hostOps0 (F := Ideal)) VK (Proc.devRef .tc Cert.KernelIdeal.main_arg8) = VK (Proc.devRef .tc Cert.KernelIdeal.main_arg8) :=
  Cert.Lib.SsaFold2.after_arg Cert.KernelIdeal.Ssa.numbered Cert.KernelIdeal.main_arg8 (by decide) VK
theorem argR8 : StableHlo.after (Cert.ReferenceIdeal.RefRun.ops (F := Ideal)) VR (Proc.devRef .tc Cert.ReferenceIdeal.main_arg8) = VR (Proc.devRef .tc Cert.ReferenceIdeal.main_arg8) :=
  Cert.Lib.SsaFold2.after_arg Cert.ReferenceIdeal.Ssa.numbered Cert.ReferenceIdeal.main_arg8 (by decide) VR

/-- Level 0: the root's hidden row, laid as a 1 × 1024 array, on both sides. -/
theorem lvl0 (e0 : VR (Proc.devRef .tc Cert.ReferenceIdeal.main_arg0) = VK (Proc.devRef .tc Cert.KernelIdeal.main_arg0)) :
    StableHlo.after (Cert.ReferenceIdeal.RefRun.ops (F := Ideal)) VR (Proc.devRef .tc Cert.ReferenceIdeal.main_v0) = StableHlo.after (Cert.KernelIdeal.Gen.hostOps0 (F := Ideal)) VK (Proc.devRef .tc Cert.KernelIdeal.main_v1) := by
  rw [Cert.ReferenceIdeal.Ssa.eq_main_v0 VR, Cert.KernelIdeal.Ssa.eq_main_v1 VK, argR0, argK0, e0]

/-- The kernel's first piece of the stack is the same row (a second copy of the same broadcast). -/
theorem piece0K (e0 : VR (Proc.devRef .tc Cert.ReferenceIdeal.main_arg0) = VK (Proc.devRef .tc Cert.KernelIdeal.main_arg0)) :
    StableHlo.after (Cert.ReferenceIdeal.RefRun.ops (F := Ideal)) VR (Proc.devRef .tc Cert.ReferenceIdeal.main_v0) = StableHlo.after (Cert.KernelIdeal.Gen.hostOps0 (F := Ideal)) VK (Proc.devRef .tc Cert.KernelIdeal.main_v0) := by
  rw [Cert.ReferenceIdeal.Ssa.eq_main_v0 VR, Cert.KernelIdeal.Ssa.eq_main_v0 VK, argR0, argK0, e0]

/-- Level 1: the children MLP applied to level 0, the same chain of operations on both sides. -/
theorem lvl1 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v25) = StableHlo.after (Cert.KernelIdeal.Gen.hostOps0 (F := Ideal)) VK (Proc.devRef .tc Cert.KernelIdeal.main_v14) := by
  rw [Cert.ReferenceIdeal.Ssa.chain_main_v25 VR, Cert.KernelIdeal.Ssa.chain_main_v14 VK, lvl0 VK VR e0,
    argR5, argR6, argR7, argR8, argK5, argK6, argK7, argK8, e5, e6, e7, e8]
  rfl

/-- Level 2: the children MLP applied to level 1, the same chain of operations on both sides. -/
theorem lvl2 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v54) = StableHlo.after (Cert.KernelIdeal.Gen.hostOps0 (F := Ideal)) VK (Proc.devRef .tc Cert.KernelIdeal.main_v29) := by
  rw [Cert.ReferenceIdeal.Ssa.chain_main_v54 VR, Cert.KernelIdeal.Ssa.chain_main_v29 VK, lvl1 VK VR e0 e5 e6 e7 e8,
    argR5, argR6, argR7, argR8, argK5, argK6, argK7, argK8, e5, e6, e7, e8]
  rfl

/-- Level 3: the children MLP applied to level 2, the same chain of operations on both sides. -/
theorem lvl3 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v83) = StableHlo.after (Cert.KernelIdeal.Gen.hostOps0 (F := Ideal)) VK (Proc.devRef .tc Cert.KernelIdeal.main_v44) := by
  rw [Cert.ReferenceIdeal.Ssa.chain_main_v83 VR, Cert.KernelIdeal.Ssa.chain_main_v44 VK, lvl2 VK VR e0 e5 e6 e7 e8,
    argR5, argR6, argR7, argR8, argK5, argK6, argK7, argK8, e5, e6, e7, e8]
  rfl

/-- Level 4: the children MLP applied to level 3, the same chain of operations on both sides. -/
theorem lvl4 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v112) = StableHlo.after (Cert.KernelIdeal.Gen.hostOps0 (F := Ideal)) VK (Proc.devRef .tc Cert.KernelIdeal.main_v59) := by
  rw [Cert.ReferenceIdeal.Ssa.chain_main_v112 VR, Cert.KernelIdeal.Ssa.chain_main_v59 VK, lvl3 VK VR e0 e5 e6 e7 e8,
    argR5, argR6, argR7, argR8, argK5, argK6, argK7, argK8, e5, e6, e7, e8]
  rfl

/-- Level 5: the children MLP applied to level 4, the same chain of operations on both sides. -/
theorem lvl5 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v141) = StableHlo.after (Cert.KernelIdeal.Gen.hostOps0 (F := Ideal)) VK (Proc.devRef .tc Cert.KernelIdeal.main_v74) := by
  rw [Cert.ReferenceIdeal.Ssa.chain_main_v141 VR, Cert.KernelIdeal.Ssa.chain_main_v74 VK, lvl4 VK VR e0 e5 e6 e7 e8,
    argR5, argR6, argR7, argR8, argK5, argK6, argK7, argK8, e5, e6, e7, e8]
  rfl

/-- Level 6: the children MLP applied to level 5, the same chain of operations on both sides. -/
theorem lvl6 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v170) = StableHlo.after (Cert.KernelIdeal.Gen.hostOps0 (F := Ideal)) VK (Proc.devRef .tc Cert.KernelIdeal.main_v89) := by
  rw [Cert.ReferenceIdeal.Ssa.chain_main_v170 VR, Cert.KernelIdeal.Ssa.chain_main_v89 VK, lvl5 VK VR e0 e5 e6 e7 e8,
    argR5, argR6, argR7, argR8, argK5, argK6, argK7, argK8, e5, e6, e7, e8]
  rfl

/-- Level 7: the children MLP applied to level 6, the same chain of operations on both sides. -/
theorem lvl7 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v199) = StableHlo.after (Cert.KernelIdeal.Gen.hostOps0 (F := Ideal)) VK (Proc.devRef .tc Cert.KernelIdeal.main_v104) := by
  rw [Cert.ReferenceIdeal.Ssa.chain_main_v199 VR, Cert.KernelIdeal.Ssa.chain_main_v104 VK, lvl6 VK VR e0 e5 e6 e7 e8,
    argR5, argR6, argR7, argR8, argK5, argK6, argK7, argK8, e5, e6, e7, e8]
  rfl

/-- Level 8: the children MLP applied to level 7, the same chain of operations on both sides. -/
theorem lvl8 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v228) = StableHlo.after (Cert.KernelIdeal.Gen.hostOps0 (F := Ideal)) VK (Proc.devRef .tc Cert.KernelIdeal.main_v119) := by
  rw [Cert.ReferenceIdeal.Ssa.chain_main_v228 VR, Cert.KernelIdeal.Ssa.chain_main_v119 VK, lvl7 VK VR e0 e5 e6 e7 e8,
    argR5, argR6, argR7, argR8, argK5, argK6, argK7, argK8, e5, e6, e7, e8]
  rfl

/-- Level 9: the children MLP applied to level 8, the same chain of operations on both sides. -/
theorem lvl9 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v257) = StableHlo.after (Cert.KernelIdeal.Gen.hostOps0 (F := Ideal)) VK (Proc.devRef .tc Cert.KernelIdeal.main_v134) := by
  rw [Cert.ReferenceIdeal.Ssa.chain_main_v257 VR, Cert.KernelIdeal.Ssa.chain_main_v134 VK, lvl8 VK VR e0 e5 e6 e7 e8,
    argR5, argR6, argR7, argR8, argK5, argK6, argK7, argK8, e5, e6, e7, e8]
  rfl

/-- Level 10: the children MLP applied to level 9, the same chain of operations on both sides. -/
theorem lvl10 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v286) = StableHlo.after (Cert.KernelIdeal.Gen.hostOps0 (F := Ideal)) VK (Proc.devRef .tc Cert.KernelIdeal.main_v149) := by
  rw [Cert.ReferenceIdeal.Ssa.chain_main_v286 VR, Cert.KernelIdeal.Ssa.chain_main_v149 VK, lvl9 VK VR e0 e5 e6 e7 e8,
    argR5, argR6, argR7, argR8, argK5, argK6, argK7, argK8, e5, e6, e7, e8]
  rfl

/-- Level 11: the children MLP applied to level 10, the same chain of operations on both sides. -/
theorem lvl11 (e0 : VR (Proc.devRef .tc Cert.ReferenceIdeal.main_arg0) = VK (Proc.devRef .tc Cert.KernelIdeal.main_arg0))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8)) :
    StableHlo.after (Cert.ReferenceIdeal.RefRun.ops (F := Ideal)) VR (Proc.devRef .tc Cert.ReferenceIdeal.main_v315) = StableHlo.after (Cert.KernelIdeal.Gen.hostOps0 (F := Ideal)) VK (Proc.devRef .tc Cert.KernelIdeal.main_v164) := by
  rw [Cert.ReferenceIdeal.Ssa.chain_main_v315 VR, Cert.KernelIdeal.Ssa.chain_main_v164 VK, lvl10 VK VR e0 e5 e6 e7 e8,
    argR5, argR6, argR7, argR8, argK5, argK6, argK7, argK8, e5, e6, e7, e8]
  rfl

end Cert.Tree

end
-- ==== Proof.LibHostMlp.lean ====
/-
  The host's spelling of an MLP layer, read at an entry.

  An affine layer `x · W + b` on the host is a general dot product of an `[n, K]` array by a `[K, M]` matrix plus the
  bias, which is first laid as a `[1, M]` row and then (when `n ≠ 1`; for a single row that step is absent) repeated over
  the `n` rows. At `(r, q)` it is `∑ k, x (r, k) · W (k, q) + b q`. The logistic is spelt out as
  `1 / (1 + exp (-z))` with both ones broadcast scalars; entry by entry that is the logistic of the entry.
-/
import proofs.«141888_j3590592659519_2_alg».proof.Proof.LibMatmulPlain
import proofs.«141888_j3590592659519_2_alg».proof.Proof.LibKeepdims
import Idealize.ShloMosaic.Lib.ValueIdx
import Idealize.ShloMosaic.Lib.IdealHost
import Idealize.ShloMosaic.PureOps.Ideal.Laws

noncomputable section

namespace Cert.Lib.HostMlp

open Idealize.ShloMosaic Idealize.ShloMosaic.ValueIdx Cert.Lib.MatmulPlain Cert.Lib.Keepdims

/-- The f32 pattern of one is `1`. -/
theorem one_word : (Ideal.ofBits .f32 0x3F800000#32 : EReal) = 1 := by
  simp [Ideal.ofBits, Ideal.ieee]
  rw [← EReal.coe_mul]
  norm_num

/-- The host's spelt-out logistic, at an index: the logistic of the entry. -/
theorem logistic_apply {s : Shape} (z : FVec Ideal s .f32) (hb : (⟨0, ![]⟩ : Shape).BroadcastsInDim s ![]) (i : s.Idx) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf z))) i
      = Ideal.logistic (z i) := by
  rw [hostDivf_apply, addf_apply, Cert.Lib.Keepdims.broadcastInDim_scalar_apply, constant_apply, one_word]
  rfl

section Affine

variable {n K M : ℕ} (wf : DotDims.WF ⟨2, ![n, K]⟩ ⟨2, ![K, M]⟩ ⟨2, ![n, M]⟩ [1] [0] [0] [1] [] [])

/-- An affine layer whose bias row is repeated over the rows, at `(r, q)`. -/
theorem affine_apply (x : FVec Ideal ⟨2, ![n, K]⟩ .f32) (W : FVec Ideal ⟨2, ![K, M]⟩ .f32) (b : FVec Ideal ⟨1, ![M]⟩ .f32)
    (hb1 : (⟨1, ![M]⟩ : Shape).BroadcastsInDim ⟨2, ![1, M]⟩ ![1])
    (hb2 : (⟨2, ![1, M]⟩ : Shape).BroadcastsInDim ⟨2, ![n, M]⟩ ![0, 1]) (r : Fin n) (q : Fin M) :
    addf (Host.dotGeneral (plainDims n K M wf) none x W)
      (broadcastInDim ⟨2, ![n, M]⟩ ![0, 1] hb2 (broadcastInDim ⟨2, ![1, M]⟩ ![1] hb1 b)) (ix2 r q)
      = (∑ k : Fin K, x (ix2 r k) * W (ix2 k q)) + b (ix1 q) := by
  rw [addf_apply, dotGeneral_apply wf none x W r q, broadcastInDim_1b_ab_apply, broadcastInDim_b_1b_apply]

end Affine

section AffineOne

variable {K M : ℕ} (wf : DotDims.WF ⟨2, ![1, K]⟩ ⟨2, ![K, M]⟩ ⟨2, ![1, M]⟩ [1] [0] [0] [1] [] [])

/-- An affine layer on a single row (the bias row added as it is), at `(r, q)`. -/
theorem affine_one_apply (x : FVec Ideal ⟨2, ![1, K]⟩ .f32) (W : FVec Ideal ⟨2, ![K, M]⟩ .f32) (b : FVec Ideal ⟨1, ![M]⟩ .f32)
    (hb1 : (⟨1, ![M]⟩ : Shape).BroadcastsInDim ⟨2, ![1, M]⟩ ![1]) (r : Fin 1) (q : Fin M) :
    addf (Host.dotGeneral (plainDims 1 K M wf) none x W) (broadcastInDim ⟨2, ![1, M]⟩ ![1] hb1 b) (ix2 r q)
      = (∑ k : Fin K, x (ix2 r k) * W (ix2 k q)) + b (ix1 q) := by
  rw [addf_apply, dotGeneral_apply wf none x W r q, broadcastInDim_b_1b_apply]

end AffineOne

/-! ## Two layers with a logistic between them -/

section TwoLayers

variable {n K H M : ℕ}
  (wf1 : DotDims.WF ⟨2, ![n, K]⟩ ⟨2, ![K, H]⟩ ⟨2, ![n, H]⟩ [1] [0] [0] [1] [] [])
  (wf2 : DotDims.WF ⟨2, ![n, H]⟩ ⟨2, ![H, M]⟩ ⟨2, ![n, M]⟩ [1] [0] [0] [1] [] [])

/-- `logistic (x · W₁ + b₁) · W₂ + b₂` in the host's spelling (bias rows repeated over the rows), at `(r, k)`. -/
theorem mlp_apply (x : FVec Ideal ⟨2, ![n, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32)
    (hs : (⟨0, ![]⟩ : Shape).BroadcastsInDim ⟨2, ![n, H]⟩ ![])
    (h1a : (⟨1, ![H]⟩ : Shape).BroadcastsInDim ⟨2, ![1, H]⟩ ![1]) (h1b : (⟨2, ![1, H]⟩ : Shape).BroadcastsInDim ⟨2, ![n, H]⟩ ![0, 1])
    (h2a : (⟨1, ![M]⟩ : Shape).BroadcastsInDim ⟨2, ![1, M]⟩ ![1]) (h2b : (⟨2, ![1, M]⟩ : Shape).BroadcastsInDim ⟨2, ![n, M]⟩ ![0, 1])
    (r : Fin n) (k : Fin M) :
    addf (Host.dotGeneral (plainDims n H M wf2) none
        (Host.divf (broadcastInDim ⟨2, ![n, H]⟩ ![] hs (constant (F := Ideal) ⟨0, ![]⟩ .f32 0x3F800000#32))
          (addf (broadcastInDim ⟨2, ![n, H]⟩ ![] hs (constant (F := Ideal) ⟨0, ![]⟩ .f32 0x3F800000#32))
            (Host.exp (Host.negf (addf (Host.dotGeneral (plainDims n K H wf1) none x W1)
              (broadcastInDim ⟨2, ![n, H]⟩ ![0, 1] h1b (broadcastInDim ⟨2, ![1, H]⟩ ![1] h1a b1)))))))
        W2)
      (broadcastInDim ⟨2, ![n, M]⟩ ![0, 1] h2b (broadcastInDim ⟨2, ![1, M]⟩ ![1] h2a b2)) (ix2 r k)
      = (∑ q : Fin H, Ideal.logistic ((∑ p : Fin K, x (ix2 r p) * W1 (ix2 p q)) + b1 (ix1 q)) * W2 (ix2 q k)) + b2 (ix1 k) := by
  refine (affine_apply wf2 _ _ _ _ _ r k).trans ?_
  refine congrArg (· + b2 (ix1 k)) (Finset.sum_congr rfl fun q _ => congrArg (· * W2 (ix2 q k)) ?_)
  refine (logistic_apply _ _ (ix2 r q)).trans (congrArg Ideal.logistic ?_)
  exact affine_apply wf1 _ _ _ _ _ r q

end TwoLayers

section TwoLayersOne

variable {K H M : ℕ}
  (wf1 : DotDims.WF ⟨2, ![1, K]⟩ ⟨2, ![K, H]⟩ ⟨2, ![1, H]⟩ [1] [0] [0] [1] [] [])
  (wf2 : DotDims.WF ⟨2, ![1, H]⟩ ⟨2, ![H, M]⟩ ⟨2, ![1, M]⟩ [1] [0] [0] [1] [] [])

/-- The same on a single row (the bias rows added as they are). -/
theorem mlp_one_apply (x : FVec Ideal ⟨2, ![1, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32)
    (hs : (⟨0, ![]⟩ : Shape).BroadcastsInDim ⟨2, ![1, H]⟩ ![])
    (h1a : (⟨1, ![H]⟩ : Shape).BroadcastsInDim ⟨2, ![1, H]⟩ ![1])
    (h2a : (⟨1, ![M]⟩ : Shape).BroadcastsInDim ⟨2, ![1, M]⟩ ![1])
    (r : Fin 1) (k : Fin M) :
    addf (Host.dotGeneral (plainDims 1 H M wf2) none
        (Host.divf (broadcastInDim ⟨2, ![1, H]⟩ ![] hs (constant (F := Ideal) ⟨0, ![]⟩ .f32 0x3F800000#32))
          (addf (broadcastInDim ⟨2, ![1, H]⟩ ![] hs (constant (F := Ideal) ⟨0, ![]⟩ .f32 0x3F800000#32))
            (Host.exp (Host.negf (addf (Host.dotGeneral (plainDims 1 K H wf1) none x W1)
              (broadcastInDim ⟨2, ![1, H]⟩ ![1] h1a b1))))))
        W2)
      (broadcastInDim ⟨2, ![1, M]⟩ ![1] h2a b2) (ix2 r k)
      = (∑ q : Fin H, Ideal.logistic ((∑ p : Fin K, x (ix2 r p) * W1 (ix2 p q)) + b1 (ix1 q)) * W2 (ix2 q k)) + b2 (ix1 k) := by
  refine (affine_one_apply wf2 _ _ _ _ r k).trans ?_
  refine congrArg (· + b2 (ix1 k)) (Finset.sum_congr rfl fun q _ => congrArg (· * W2 (ix2 q k)) ?_)
  refine (logistic_apply _ _ (ix2 r q)).trans (congrArg Ideal.logistic ?_)
  exact affine_one_apply wf1 _ _ _ _ r q

end TwoLayersOne

end Cert.Lib.HostMlp

end
-- ==== Proof.MlpEntry.lean ====
/-
  One entry of the value MLP of a block of hidden rows: for hidden rows `h` (n × 1024), the first value matrix and bias
  `W₁` (1024 × 2048), `b₁`, and the second `W₂` (2048 × 32001), `b₂`, the logit of row `r` at vocabulary column `k` is
  `∑ q, logistic (∑ p, h (r, p) · W₁ (p, q) + b₁ q) · W₂ (q, k) + b₂ k`.
-/
import Idealize.ShloMosaic.Lib.ValueIdx

noncomputable section

namespace Cert.Tree

open Idealize.ShloMosaic Idealize.ShloMosaic.ValueIdx

/-- The logit of row `r` at column `k`. -/
def mlpEntry {n : ℕ} (h : FVec Ideal ⟨2, ![n, 1024]⟩ .f32) (W1 : FVec Ideal ⟨2, ![1024, 2048]⟩ .f32)
    (b1 : FVec Ideal ⟨1, ![2048]⟩ .f32) (W2 : FVec Ideal ⟨2, ![2048, 32001]⟩ .f32)
    (b2 : FVec Ideal ⟨1, ![32001]⟩ .f32) (r : Fin n) (k : Fin 32001) : Ideal .f32 :=
  (∑ q : Fin 2048, Ideal.logistic ((∑ p : Fin 1024, h (ix2 r p) * W1 (ix2 p q)) + b1 (ix1 q)) * W2 (ix2 q k)) + b2 (ix1 k)

end Cert.Tree

end
-- ==== Proof.ValueRows.lean ====
/-
  The reference's value MLP, level by level, read at an entry.

  At each level the reference applies to the level's hidden rows `h` (n × 1024) the value MLP written as host
  operations: `h · W₁ + b₁`, the logistic spelt as 1 / (1 + exp (-z)), `· W₂ + b₂` (biases laid as rows and repeated
  over the n rows). Entry `(r, k)` of the result is `∑ q, logistic (∑ p, h (r, p) · W₁ (p, q) + b₁ q) · W₂ (q, k) + b₂ k`:
  the same formula at every level, whatever n.
-/
import proofs.«141888_j3590592659519_2_alg».proof.Proof.SsaR
import proofs.«141888_j3590592659519_2_alg».proof.Proof.LibHostMlp
import proofs.«141888_j3590592659519_2_alg».proof.Proof.MlpEntry
import Idealize.ShloMosaic.Lib.ValueIdx
import Idealize.ShloMosaic.Lib.StableHlo.Run

set_option maxRecDepth 65536

noncomputable section

namespace Cert.Tree

open Idealize.ShloMosaic Idealize.ShloMosaic.TcCoe Idealize.ShloMosaic.ValueIdx Idealize.SL.Sem

variable (VR : Valuation Cert.ReferenceIdeal.τ Cert.ReferenceIdeal.sig (Elt Ideal))

/-- Level 0 (1 row): entry `(r, k)` of the value MLP's output. -/
theorem vrow0 (r : Fin 1) (k : Fin 32001) :
    StableHlo.after (Cert.ReferenceIdeal.RefRun.ops (F := Ideal)) VR (Proc.devRef .tc Cert.ReferenceIdeal.main_v12) (ix2 r k)
      = mlpEntry (n := 1) (StableHlo.after (Cert.ReferenceIdeal.RefRun.ops (F := Ideal)) VR (Proc.devRef .tc Cert.ReferenceIdeal.main_v0)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v12 VR]
  exact Cert.Lib.HostMlp.mlp_one_apply (K := 1024) (H := 2048) (M := 32001) Cert.ReferenceIdeal.dot_S1x1024_S1024x2048_S1x2048_1_0_0_1_n_n.wf Cert.ReferenceIdeal.dot_S1x2048_S2048x32001_S1x32001_1_0_0_1_n_n.wf _ _ _ _ _ _ _ _ r k

/-- Level 1 (2 rows): entry `(r, k)` of the value MLP's output. -/
theorem vrow1 (r : Fin 2) (k : Fin 32001) :
    StableHlo.after (Cert.ReferenceIdeal.RefRun.ops (F := Ideal)) VR (Proc.devRef .tc Cert.ReferenceIdeal.main_v39) (ix2 r k)
      = mlpEntry (n := 2) (StableHlo.after (Cert.ReferenceIdeal.RefRun.ops (F := Ideal)) VR (Proc.devRef .tc Cert.ReferenceIdeal.main_v25)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v39 VR]
  exact Cert.Lib.HostMlp.mlp_apply (n := 2) (K := 1024) (H := 2048) (M := 32001) Cert.ReferenceIdeal.dot_S2x1024_S1024x2048_S2x2048_1_0_0_1_n_n.wf Cert.ReferenceIdeal.dot_S2x2048_S2048x32001_S2x32001_1_0_0_1_n_n.wf _ _ _ _ _ _ _ _ _ _ r k

/-- Level 2 (4 rows): entry `(r, k)` of the value MLP's output. -/
theorem vrow2 (r : Fin 4) (k : Fin 32001) :
    StableHlo.after (Cert.ReferenceIdeal.RefRun.ops (F := Ideal)) VR (Proc.devRef .tc Cert.ReferenceIdeal.main_v68) (ix2 r k)
      = mlpEntry (n := 4) (StableHlo.after (Cert.ReferenceIdeal.RefRun.ops (F := Ideal)) VR (Proc.devRef .tc Cert.ReferenceIdeal.main_v54)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v68 VR]
  exact Cert.Lib.HostMlp.mlp_apply (n := 4) (K := 1024) (H := 2048) (M := 32001) Cert.ReferenceIdeal.dot_S4x1024_S1024x2048_S4x2048_1_0_0_1_n_n.wf Cert.ReferenceIdeal.dot_S4x2048_S2048x32001_S4x32001_1_0_0_1_n_n.wf _ _ _ _ _ _ _ _ _ _ r k

/-- Level 3 (8 rows): entry `(r, k)` of the value MLP's output. -/
theorem vrow3 (r : Fin 8) (k : Fin 32001) :
    StableHlo.after (Cert.ReferenceIdeal.RefRun.ops (F := Ideal)) VR (Proc.devRef .tc Cert.ReferenceIdeal.main_v97) (ix2 r k)
      = mlpEntry (n := 8) (StableHlo.after (Cert.ReferenceIdeal.RefRun.ops (F := Ideal)) VR (Proc.devRef .tc Cert.ReferenceIdeal.main_v83)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v97 VR]
  exact Cert.Lib.HostMlp.mlp_apply (n := 8) (K := 1024) (H := 2048) (M := 32001) Cert.ReferenceIdeal.dot_S8x1024_S1024x2048_S8x2048_1_0_0_1_n_n.wf Cert.ReferenceIdeal.dot_S8x2048_S2048x32001_S8x32001_1_0_0_1_n_n.wf _ _ _ _ _ _ _ _ _ _ r k

/-- Level 4 (16 rows): entry `(r, k)` of the value MLP's output. -/
theorem vrow4 (r : Fin 16) (k : Fin 32001) :
    StableHlo.after (Cert.ReferenceIdeal.RefRun.ops (F := Ideal)) VR (Proc.devRef .tc Cert.ReferenceIdeal.main_v126) (ix2 r k)
      = mlpEntry (n := 16) (StableHlo.after (Cert.ReferenceIdeal.RefRun.ops (F := Ideal)) VR (Proc.devRef .tc Cert.ReferenceIdeal.main_v112)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v126 VR]
  exact Cert.Lib.HostMlp.mlp_apply (n := 16) (K := 1024) (H := 2048) (M := 32001) Cert.ReferenceIdeal.dot_S16x1024_S1024x2048_S16x2048_1_0_0_1_n_n.wf Cert.ReferenceIdeal.dot_S16x2048_S2048x32001_S16x32001_1_0_0_1_n_n.wf _ _ _ _ _ _ _ _ _ _ r k

/-- Level 5 (32 rows): entry `(r, k)` of the value MLP's output. -/
theorem vrow5 (r : Fin 32) (k : Fin 32001) :
    StableHlo.after (Cert.ReferenceIdeal.RefRun.ops (F := Ideal)) VR (Proc.devRef .tc Cert.ReferenceIdeal.main_v155) (ix2 r k)
      = mlpEntry (n := 32) (StableHlo.after (Cert.ReferenceIdeal.RefRun.ops (F := Ideal)) VR (Proc.devRef .tc Cert.ReferenceIdeal.main_v141)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v155 VR]
  exact Cert.Lib.HostMlp.mlp_apply (n := 32) (K := 1024) (H := 2048) (M := 32001) Cert.ReferenceIdeal.dot_S32x1024_S1024x2048_S32x2048_1_0_0_1_n_n.wf Cert.ReferenceIdeal.dot_S32x2048_S2048x32001_S32x32001_1_0_0_1_n_n.wf _ _ _ _ _ _ _ _ _ _ r k

/-- Level 6 (64 rows): entry `(r, k)` of the value MLP's output. -/
theorem vrow6 (r : Fin 64) (k : Fin 32001) :
    StableHlo.after (Cert.ReferenceIdeal.RefRun.ops (F := Ideal)) VR (Proc.devRef .tc Cert.ReferenceIdeal.main_v184) (ix2 r k)
      = mlpEntry (n := 64) (StableHlo.after (Cert.ReferenceIdeal.RefRun.ops (F := Ideal)) VR (Proc.devRef .tc Cert.ReferenceIdeal.main_v170)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v184 VR]
  exact Cert.Lib.HostMlp.mlp_apply (n := 64) (K := 1024) (H := 2048) (M := 32001) Cert.ReferenceIdeal.dot_S64x1024_S1024x2048_S64x2048_1_0_0_1_n_n.wf Cert.ReferenceIdeal.dot_S64x2048_S2048x32001_S64x32001_1_0_0_1_n_n.wf _ _ _ _ _ _ _ _ _ _ r k

/-- Level 7 (128 rows): entry `(r, k)` of the value MLP's output. -/
theorem vrow7 (r : Fin 128) (k : Fin 32001) :
    StableHlo.after (Cert.ReferenceIdeal.RefRun.ops (F := Ideal)) VR (Proc.devRef .tc Cert.ReferenceIdeal.main_v213) (ix2 r k)
      = mlpEntry (n := 128) (StableHlo.after (Cert.ReferenceIdeal.RefRun.ops (F := Ideal)) VR (Proc.devRef .tc Cert.ReferenceIdeal.main_v199)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v213 VR]
  exact Cert.Lib.HostMlp.mlp_apply (n := 128) (K := 1024) (H := 2048) (M := 32001) Cert.ReferenceIdeal.dot_S128x1024_S1024x2048_S128x2048_1_0_0_1_n_n.wf Cert.ReferenceIdeal.dot_S128x2048_S2048x32001_S128x32001_1_0_0_1_n_n.wf _ _ _ _ _ _ _ _ _ _ r k

/-- Level 8 (256 rows): entry `(r, k)` of the value MLP's output. -/
theorem vrow8 (r : Fin 256) (k : Fin 32001) :
    StableHlo.after (Cert.ReferenceIdeal.RefRun.ops (F := Ideal)) VR (Proc.devRef .tc Cert.ReferenceIdeal.main_v242) (ix2 r k)
      = mlpEntry (n := 256) (StableHlo.after (Cert.ReferenceIdeal.RefRun.ops (F := Ideal)) VR (Proc.devRef .tc Cert.ReferenceIdeal.main_v228)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v242 VR]
  exact Cert.Lib.HostMlp.mlp_apply (n := 256) (K := 1024) (H := 2048) (M := 32001) Cert.ReferenceIdeal.dot_S256x1024_S1024x2048_S256x2048_1_0_0_1_n_n.wf Cert.ReferenceIdeal.dot_S256x2048_S2048x32001_S256x32001_1_0_0_1_n_n.wf _ _ _ _ _ _ _ _ _ _ r k

/-- Level 9 (512 rows): entry `(r, k)` of the value MLP's output. -/
theorem vrow9 (r : Fin 512) (k : Fin 32001) :
    StableHlo.after (Cert.ReferenceIdeal.RefRun.ops (F := Ideal)) VR (Proc.devRef .tc Cert.ReferenceIdeal.main_v271) (ix2 r k)
      = mlpEntry (n := 512) (StableHlo.after (Cert.ReferenceIdeal.RefRun.ops (F := Ideal)) VR (Proc.devRef .tc Cert.ReferenceIdeal.main_v257)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v271 VR]
  exact Cert.Lib.HostMlp.mlp_apply (n := 512) (K := 1024) (H := 2048) (M := 32001) Cert.ReferenceIdeal.dot_S512x1024_S1024x2048_S512x2048_1_0_0_1_n_n.wf Cert.ReferenceIdeal.dot_S512x2048_S2048x32001_S512x32001_1_0_0_1_n_n.wf _ _ _ _ _ _ _ _ _ _ r k

/-- Level 10 (1024 rows): entry `(r, k)` of the value MLP's output. -/
theorem vrow10 (r : Fin 1024) (k : Fin 32001) :
    StableHlo.after (Cert.ReferenceIdeal.RefRun.ops (F := Ideal)) VR (Proc.devRef .tc Cert.ReferenceIdeal.main_v300) (ix2 r k)
      = mlpEntry (n := 1024) (StableHlo.after (Cert.ReferenceIdeal.RefRun.ops (F := Ideal)) VR (Proc.devRef .tc Cert.ReferenceIdeal.main_v286)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v300 VR]
  exact Cert.Lib.HostMlp.mlp_apply (n := 1024) (K := 1024) (H := 2048) (M := 32001) Cert.ReferenceIdeal.dot_S1024x1024_S1024x2048_S1024x2048_1_0_0_1_n_n.wf Cert.ReferenceIdeal.dot_S1024x2048_S2048x32001_S1024x32001_1_0_0_1_n_n.wf _ _ _ _ _ _ _ _ _ _ r k

/-- Level 11 (2048 rows): entry `(r, k)` of the value MLP's output. -/
theorem vrow11 (r : Fin 2048) (k : Fin 32001) :
    StableHlo.after (Cert.ReferenceIdeal.RefRun.ops (F := Ideal)) VR (Proc.devRef .tc Cert.ReferenceIdeal.main_v329) (ix2 r k)
      = mlpEntry (n := 2048) (StableHlo.after (Cert.ReferenceIdeal.RefRun.ops (F := Ideal)) VR (Proc.devRef .tc Cert.ReferenceIdeal.main_v315)) (StableHlo.after (Cert.ReferenceIdeal.RefRun.ops (F := Ideal)) VR (Proc.devRef .tc Cert.ReferenceIdeal.main_arg1)) (StableHlo.after (Cert.ReferenceIdeal.RefRun.ops (F := Ideal)) VR (Proc.devRef .tc Cert.ReferenceIdeal.main_arg2)) (StableHlo.after (Cert.ReferenceIdeal.RefRun.ops (F := Ideal)) VR (Proc.devRef .tc Cert.ReferenceIdeal.main_arg3)) (StableHlo.after (Cert.ReferenceIdeal.RefRun.ops (F := Ideal)) VR (Proc.devRef .tc Cert.ReferenceIdeal.main_arg4)) r k := by
  rw [Cert.ReferenceIdeal.Ssa.chain_main_v329 VR]
  exact Cert.Lib.HostMlp.mlp_apply (n := 2048) (K := 1024) (H := 2048) (M := 32001) Cert.ReferenceIdeal.dot_S2048x1024_S1024x2048_S2048x2048_1_0_0_1_n_n.wf Cert.ReferenceIdeal.dot_S2048x2048_S2048x32001_S2048x32001_1_0_0_1_n_n.wf _ _ _ _ _ _ _ _ _ _ r k

end Cert.Tree

end
-- ==== Proof.Pieces.lean ====
/-
  The two stacks of the twelve levels, read by piece.

  Level d has 2^d rows and the levels are stacked in order, so rows 2^d - 1 … 2^(d+1) - 2 of the stack are level d's
  rows 0 … 2^d - 1: for the kernel's stack of hidden rows (4095 × 1024) and for the reference's stack of logits
  (4095 × 32001) alike — a concatenation read at an index is the piece whose span holds the row, at the row less the
  extents of the pieces before it.
-/
import proofs.«141888_j3590592659519_2_alg».proof.Proof.SsaK
import proofs.«141888_j3590592659519_2_alg».proof.Proof.SsaR
import Idealize.ShloMosaic.Lib.Pipeline.Value
import Idealize.ShloMosaic.Lib.ValueIdx
import Idealize.ShloMosaic.Lib.StableHlo.Run

set_option maxRecDepth 65536

noncomputable section

namespace Cert.Tree

open Idealize.ShloMosaic Idealize.ShloMosaic.TcCoe Idealize.ShloMosaic.ValueIdx Idealize.SL.Sem

variable (VK : Valuation Cert.KernelIdeal.τ Cert.KernelIdeal.sig (Elt Ideal)) (VR : Valuation Cert.ReferenceIdeal.τ Cert.ReferenceIdeal.sig (Elt Ideal))

/-- Rows 0 … 0 of the reference's stacked logits are level 0's. -/
theorem pieceR0 (r : Fin 1) (k : Fin 32001) (hr : 0 + r.val < 4095) :
    StableHlo.after (Cert.ReferenceIdeal.RefRun.ops (F := Ideal)) VR (Proc.devRef .tc Cert.ReferenceIdeal.main_v330) (ix2 (⟨0 + r.val, hr⟩ : Fin 4095) k) = StableHlo.after (Cert.ReferenceIdeal.RefRun.ops (F := Ideal)) VR (Proc.devRef .tc Cert.ReferenceIdeal.main_v12) (ix2 r k) := by
  rw [Cert.ReferenceIdeal.Ssa.eq_main_v330 VR]
  exact concatenate_apply_piece (0 : Fin 2) _ _ (ix2 (⟨0 + r.val, hr⟩ : Fin 4095) k) 0 (by show (0 : ℕ) < 12; decide) Cert.ReferenceIdeal.S1x32001 _ rfl rfl 0 rfl (ix2 r k)
    (fun b hb => by
      match b with
      | ⟨0, _⟩ => exact absurd rfl hb
      | ⟨1, _⟩ => rfl) rfl

/-- Rows 0 … 0 of the kernel's stacked hidden rows are level 0's. -/
theorem pieceK0 (r : Fin 1) (p : Fin 1024) (hr : 0 + r.val < 4095) :
    StableHlo.after (Cert.KernelIdeal.Gen.hostOps0 (F := Ideal)) VK (Proc.devRef .tc Cert.KernelIdeal.main_v165) (ix2 (⟨0 + r.val, hr⟩ : Fin 4095) p) = StableHlo.after (Cert.KernelIdeal.Gen.hostOps0 (F := Ideal)) VK (Proc.devRef .tc Cert.KernelIdeal.main_v0) (ix2 r p) := by
  rw [Cert.KernelIdeal.Ssa.eq_main_v165 VK]
  exact concatenate_apply_piece (0 : Fin 2) _ _ (ix2 (⟨0 + r.val, hr⟩ : Fin 4095) p) 0 (by show (0 : ℕ) < 12; decide) Cert.KernelIdeal.S1x1024 _ rfl rfl 0 rfl (ix2 r p)
    (fun b hb => by
      match b with
      | ⟨0, _⟩ => exact absurd rfl hb
      | ⟨1, _⟩ => rfl) rfl

/-- Rows 1 … 2 of the reference's stacked logits are level 1's. -/
theorem pieceR1 (r : Fin 2) (k : Fin 32001) (hr : 1 + r.val < 4095) :
    StableHlo.after (Cert.ReferenceIdeal.RefRun.ops (F := Ideal)) VR (Proc.devRef .tc Cert.ReferenceIdeal.main_v330) (ix2 (⟨1 + r.val, hr⟩ : Fin 4095) k) = StableHlo.after (Cert.ReferenceIdeal.RefRun.ops (F := Ideal)) VR (Proc.devRef .tc Cert.ReferenceIdeal.main_v39) (ix2 r k) := by
  rw [Cert.ReferenceIdeal.Ssa.eq_main_v330 VR]
  exact concatenate_apply_piece (0 : Fin 2) _ _ (ix2 (⟨1 + r.val, hr⟩ : Fin 4095) k) 1 (by show (1 : ℕ) < 12; decide) Cert.ReferenceIdeal.S2x32001 _ rfl rfl 1 rfl (ix2 r k)
    (fun b hb => by
      match b with
      | ⟨0, _⟩ => exact absurd rfl hb
      | ⟨1, _⟩ => rfl) rfl

/-- Rows 1 … 2 of the kernel's stacked hidden rows are level 1's. -/
theorem pieceK1 (r : Fin 2) (p : Fin 1024) (hr : 1 + r.val < 4095) :
    StableHlo.after (Cert.KernelIdeal.Gen.hostOps0 (F := Ideal)) VK (Proc.devRef .tc Cert.KernelIdeal.main_v165) (ix2 (⟨1 + r.val, hr⟩ : Fin 4095) p) = StableHlo.after (Cert.KernelIdeal.Gen.hostOps0 (F := Ideal)) VK (Proc.devRef .tc Cert.KernelIdeal.main_v14) (ix2 r p) := by
  rw [Cert.KernelIdeal.Ssa.eq_main_v165 VK]
  exact concatenate_apply_piece (0 : Fin 2) _ _ (ix2 (⟨1 + r.val, hr⟩ : Fin 4095) p) 1 (by show (1 : ℕ) < 12; decide) Cert.KernelIdeal.S2x1024 _ rfl rfl 1 rfl (ix2 r p)
    (fun b hb => by
      match b with
      | ⟨0, _⟩ => exact absurd rfl hb
      | ⟨1, _⟩ => rfl) rfl

/-- Rows 3 … 6 of the reference's stacked logits are level 2's. -/
theorem pieceR2 (r : Fin 4) (k : Fin 32001) (hr : 3 + r.val < 4095) :
    StableHlo.after (Cert.ReferenceIdeal.RefRun.ops (F := Ideal)) VR (Proc.devRef .tc Cert.ReferenceIdeal.main_v330) (ix2 (⟨3 + r.val, hr⟩ : Fin 4095) k) = StableHlo.after (Cert.ReferenceIdeal.RefRun.ops (F := Ideal)) VR (Proc.devRef .tc Cert.ReferenceIdeal.main_v68) (ix2 r k) := by
  rw [Cert.ReferenceIdeal.Ssa.eq_main_v330 VR]
  exact concatenate_apply_piece (0 : Fin 2) _ _ (ix2 (⟨3 + r.val, hr⟩ : Fin 4095) k) 2 (by show (2 : ℕ) < 12; decide) Cert.ReferenceIdeal.S4x32001 _ rfl rfl 3 rfl (ix2 r k)
    (fun b hb => by
      match b with
      | ⟨0, _⟩ => exact absurd rfl hb
      | ⟨1, _⟩ => rfl) rfl

/-- Rows 3 … 6 of the kernel's stacked hidden rows are level 2's. -/
theorem pieceK2 (r : Fin 4) (p : Fin 1024) (hr : 3 + r.val < 4095) :
    StableHlo.after (Cert.KernelIdeal.Gen.hostOps0 (F := Ideal)) VK (Proc.devRef .tc Cert.KernelIdeal.main_v165) (ix2 (⟨3 + r.val, hr⟩ : Fin 4095) p) = StableHlo.after (Cert.KernelIdeal.Gen.hostOps0 (F := Ideal)) VK (Proc.devRef .tc Cert.KernelIdeal.main_v29) (ix2 r p) := by
  rw [Cert.KernelIdeal.Ssa.eq_main_v165 VK]
  exact concatenate_apply_piece (0 : Fin 2) _ _ (ix2 (⟨3 + r.val, hr⟩ : Fin 4095) p) 2 (by show (2 : ℕ) < 12; decide) Cert.KernelIdeal.S4x1024 _ rfl rfl 3 rfl (ix2 r p)
    (fun b hb => by
      match b with
      | ⟨0, _⟩ => exact absurd rfl hb
      | ⟨1, _⟩ => rfl) rfl

/-- Rows 7 … 14 of the reference's stacked logits are level 3's. -/
theorem pieceR3 (r : Fin 8) (k : Fin 32001) (hr : 7 + r.val < 4095) :
    StableHlo.after (Cert.ReferenceIdeal.RefRun.ops (F := Ideal)) VR (Proc.devRef .tc Cert.ReferenceIdeal.main_v330) (ix2 (⟨7 + r.val, hr⟩ : Fin 4095) k) = StableHlo.after (Cert.ReferenceIdeal.RefRun.ops (F := Ideal)) VR (Proc.devRef .tc Cert.ReferenceIdeal.main_v97) (ix2 r k) := by
  rw [Cert.ReferenceIdeal.Ssa.eq_main_v330 VR]
  exact concatenate_apply_piece (0 : Fin 2) _ _ (ix2 (⟨7 + r.val, hr⟩ : Fin 4095) k) 3 (by show (3 : ℕ) < 12; decide) Cert.ReferenceIdeal.S8x32001 _ rfl rfl 7 rfl (ix2 r k)
    (fun b hb => by
      match b with
      | ⟨0, _⟩ => exact absurd rfl hb
      | ⟨1, _⟩ => rfl) rfl

/-- Rows 7 … 14 of the kernel's stacked hidden rows are level 3's. -/
theorem pieceK3 (r : Fin 8) (p : Fin 1024) (hr : 7 + r.val < 4095) :
    StableHlo.after (Cert.KernelIdeal.Gen.hostOps0 (F := Ideal)) VK (Proc.devRef .tc Cert.KernelIdeal.main_v165) (ix2 (⟨7 + r.val, hr⟩ : Fin 4095) p) = StableHlo.after (Cert.KernelIdeal.Gen.hostOps0 (F := Ideal)) VK (Proc.devRef .tc Cert.KernelIdeal.main_v44) (ix2 r p) := by
  rw [Cert.KernelIdeal.Ssa.eq_main_v165 VK]
  exact concatenate_apply_piece (0 : Fin 2) _ _ (ix2 (⟨7 + r.val, hr⟩ : Fin 4095) p) 3 (by show (3 : ℕ) < 12; decide) Cert.KernelIdeal.S8x1024 _ rfl rfl 7 rfl (ix2 r p)
    (fun b hb => by
      match b with
      | ⟨0, _⟩ => exact absurd rfl hb
      | ⟨1, _⟩ => rfl) rfl

/-- Rows 15 … 30 of the reference's stacked logits are level 4's. -/
theorem pieceR4 (r : Fin 16) (k : Fin 32001) (hr : 15 + r.val < 4095) :
    StableHlo.after (Cert.ReferenceIdeal.RefRun.ops (F := Ideal)) VR (Proc.devRef .tc Cert.ReferenceIdeal.main_v330) (ix2 (⟨15 + r.val, hr⟩ : Fin 4095) k) = StableHlo.after (Cert.ReferenceIdeal.RefRun.ops (F := Ideal)) VR (Proc.devRef .tc Cert.ReferenceIdeal.main_v126) (ix2 r k) := by
  rw [Cert.ReferenceIdeal.Ssa.eq_main_v330 VR]
  exact concatenate_apply_piece (0 : Fin 2) _ _ (ix2 (⟨15 + r.val, hr⟩ : Fin 4095) k) 4 (by show (4 : ℕ) < 12; decide) Cert.ReferenceIdeal.S16x32001 _ rfl rfl 15 rfl (ix2 r k)
    (fun b hb => by
      match b with
      | ⟨0, _⟩ => exact absurd rfl hb
      | ⟨1, _⟩ => rfl) rfl

/-- Rows 15 … 30 of the kernel's stacked hidden rows are level 4's. -/
theorem pieceK4 (r : Fin 16) (p : Fin 1024) (hr : 15 + r.val < 4095) :
    StableHlo.after (Cert.KernelIdeal.Gen.hostOps0 (F := Ideal)) VK (Proc.devRef .tc Cert.KernelIdeal.main_v165) (ix2 (⟨15 + r.val, hr⟩ : Fin 4095) p) = StableHlo.after (Cert.KernelIdeal.Gen.hostOps0 (F := Ideal)) VK (Proc.devRef .tc Cert.KernelIdeal.main_v59) (ix2 r p) := by
  rw [Cert.KernelIdeal.Ssa.eq_main_v165 VK]
  exact concatenate_apply_piece (0 : Fin 2) _ _ (ix2 (⟨15 + r.val, hr⟩ : Fin 4095) p) 4 (by show (4 : ℕ) < 12; decide) Cert.KernelIdeal.S16x1024 _ rfl rfl 15 rfl (ix2 r p)
    (fun b hb => by
      match b with
      | ⟨0, _⟩ => exact absurd rfl hb
      | ⟨1, _⟩ => rfl) rfl

/-- Rows 31 … 62 of the reference's stacked logits are level 5's. -/
theorem pieceR5 (r : Fin 32) (k : Fin 32001) (hr : 31 + r.val < 4095) :
    StableHlo.after (Cert.ReferenceIdeal.RefRun.ops (F := Ideal)) VR (Proc.devRef .tc Cert.ReferenceIdeal.main_v330) (ix2 (⟨31 + r.val, hr⟩ : Fin 4095) k) = StableHlo.after (Cert.ReferenceIdeal.RefRun.ops (F := Ideal)) VR (Proc.devRef .tc Cert.ReferenceIdeal.main_v155) (ix2 r k) := by
  rw [Cert.ReferenceIdeal.Ssa.eq_main_v330 VR]
  exact concatenate_apply_piece (0 : Fin 2) _ _ (ix2 (⟨31 + r.val, hr⟩ : Fin 4095) k) 5 (by show (5 : ℕ) < 12; decide) Cert.ReferenceIdeal.S32x32001 _ rfl rfl 31 rfl (ix2 r k)
    (fun b hb => by
      match b with
      | ⟨0, _⟩ => exact absurd rfl hb
      | ⟨1, _⟩ => rfl) rfl

/-- Rows 31 … 62 of the kernel's stacked hidden rows are level 5's. -/
theorem pieceK5 (r : Fin 32) (p : Fin 1024) (hr : 31 + r.val < 4095) :
    StableHlo.after (Cert.KernelIdeal.Gen.hostOps0 (F := Ideal)) VK (Proc.devRef .tc Cert.KernelIdeal.main_v165) (ix2 (⟨31 + r.val, hr⟩ : Fin 4095) p) = StableHlo.after (Cert.KernelIdeal.Gen.hostOps0 (F := Ideal)) VK (Proc.devRef .tc Cert.KernelIdeal.main_v74) (ix2 r p) := by
  rw [Cert.KernelIdeal.Ssa.eq_main_v165 VK]
  exact concatenate_apply_piece (0 : Fin 2) _ _ (ix2 (⟨31 + r.val, hr⟩ : Fin 4095) p) 5 (by show (5 : ℕ) < 12; decide) Cert.KernelIdeal.S32x1024 _ rfl rfl 31 rfl (ix2 r p)
    (fun b hb => by
      match b with
      | ⟨0, _⟩ => exact absurd rfl hb
      | ⟨1, _⟩ => rfl) rfl

/-- Rows 63 … 126 of the reference's stacked logits are level 6's. -/
theorem pieceR6 (r : Fin 64) (k : Fin 32001) (hr : 63 + r.val < 4095) :
    StableHlo.after (Cert.ReferenceIdeal.RefRun.ops (F := Ideal)) VR (Proc.devRef .tc Cert.ReferenceIdeal.main_v330) (ix2 (⟨63 + r.val, hr⟩ : Fin 4095) k) = StableHlo.after (Cert.ReferenceIdeal.RefRun.ops (F := Ideal)) VR (Proc.devRef .tc Cert.ReferenceIdeal.main_v184) (ix2 r k) := by
  rw [Cert.ReferenceIdeal.Ssa.eq_main_v330 VR]
  exact concatenate_apply_piece (0 : Fin 2) _ _ (ix2 (⟨63 + r.val, hr⟩ : Fin 4095) k) 6 (by show (6 : ℕ) < 12; decide) Cert.ReferenceIdeal.S64x32001 _ rfl rfl 63 rfl (ix2 r k)
    (fun b hb => by
      match b with
      | ⟨0, _⟩ => exact absurd rfl hb
      | ⟨1, _⟩ => rfl) rfl

/-- Rows 63 … 126 of the kernel's stacked hidden rows are level 6's. -/
theorem pieceK6 (r : Fin 64) (p : Fin 1024) (hr : 63 + r.val < 4095) :
    StableHlo.after (Cert.KernelIdeal.Gen.hostOps0 (F := Ideal)) VK (Proc.devRef .tc Cert.KernelIdeal.main_v165) (ix2 (⟨63 + r.val, hr⟩ : Fin 4095) p) = StableHlo.after (Cert.KernelIdeal.Gen.hostOps0 (F := Ideal)) VK (Proc.devRef .tc Cert.KernelIdeal.main_v89) (ix2 r p) := by
  rw [Cert.KernelIdeal.Ssa.eq_main_v165 VK]
  exact concatenate_apply_piece (0 : Fin 2) _ _ (ix2 (⟨63 + r.val, hr⟩ : Fin 4095) p) 6 (by show (6 : ℕ) < 12; decide) Cert.KernelIdeal.S64x1024 _ rfl rfl 63 rfl (ix2 r p)
    (fun b hb => by
      match b with
      | ⟨0, _⟩ => exact absurd rfl hb
      | ⟨1, _⟩ => rfl) rfl

/-- Rows 127 … 254 of the reference's stacked logits are level 7's. -/
theorem pieceR7 (r : Fin 128) (k : Fin 32001) (hr : 127 + r.val < 4095) :
    StableHlo.after (Cert.ReferenceIdeal.RefRun.ops (F := Ideal)) VR (Proc.devRef .tc Cert.ReferenceIdeal.main_v330) (ix2 (⟨127 + r.val, hr⟩ : Fin 4095) k) = StableHlo.after (Cert.ReferenceIdeal.RefRun.ops (F := Ideal)) VR (Proc.devRef .tc Cert.ReferenceIdeal.main_v213) (ix2 r k) := by
  rw [Cert.ReferenceIdeal.Ssa.eq_main_v330 VR]
  exact concatenate_apply_piece (0 : Fin 2) _ _ (ix2 (⟨127 + r.val, hr⟩ : Fin 4095) k) 7 (by show (7 : ℕ) < 12; decide) Cert.ReferenceIdeal.S128x32001 _ rfl rfl 127 rfl (ix2 r k)
    (fun b hb => by
      match b with
      | ⟨0, _⟩ => exact absurd rfl hb
      | ⟨1, _⟩ => rfl) rfl

/-- Rows 127 … 254 of the kernel's stacked hidden rows are level 7's. -/
theorem pieceK7 (r : Fin 128) (p : Fin 1024) (hr : 127 + r.val < 4095) :
    StableHlo.after (Cert.KernelIdeal.Gen.hostOps0 (F := Ideal)) VK (Proc.devRef .tc Cert.KernelIdeal.main_v165) (ix2 (⟨127 + r.val, hr⟩ : Fin 4095) p) = StableHlo.after (Cert.KernelIdeal.Gen.hostOps0 (F := Ideal)) VK (Proc.devRef .tc Cert.KernelIdeal.main_v104) (ix2 r p) := by
  rw [Cert.KernelIdeal.Ssa.eq_main_v165 VK]
  exact concatenate_apply_piece (0 : Fin 2) _ _ (ix2 (⟨127 + r.val, hr⟩ : Fin 4095) p) 7 (by show (7 : ℕ) < 12; decide) Cert.KernelIdeal.S128x1024 _ rfl rfl 127 rfl (ix2 r p)
    (fun b hb => by
      match b with
      | ⟨0, _⟩ => exact absurd rfl hb
      | ⟨1, _⟩ => rfl) rfl

/-- Rows 255 … 510 of the reference's stacked logits are level 8's. -/
theorem pieceR8 (r : Fin 256) (k : Fin 32001) (hr : 255 + r.val < 4095) :
    StableHlo.after (Cert.ReferenceIdeal.RefRun.ops (F := Ideal)) VR (Proc.devRef .tc Cert.ReferenceIdeal.main_v330) (ix2 (⟨255 + r.val, hr⟩ : Fin 4095) k) = StableHlo.after (Cert.ReferenceIdeal.RefRun.ops (F := Ideal)) VR (Proc.devRef .tc Cert.ReferenceIdeal.main_v242) (ix2 r k) := by
  rw [Cert.ReferenceIdeal.Ssa.eq_main_v330 VR]
  exact concatenate_apply_piece (0 : Fin 2) _ _ (ix2 (⟨255 + r.val, hr⟩ : Fin 4095) k) 8 (by show (8 : ℕ) < 12; decide) Cert.ReferenceIdeal.S256x32001 _ rfl rfl 255 rfl (ix2 r k)
    (fun b hb => by
      match b with
      | ⟨0, _⟩ => exact absurd rfl hb
      | ⟨1, _⟩ => rfl) rfl

/-- Rows 255 … 510 of the kernel's stacked hidden rows are level 8's. -/
theorem pieceK8 (r : Fin 256) (p : Fin 1024) (hr : 255 + r.val < 4095) :
    StableHlo.after (Cert.KernelIdeal.Gen.hostOps0 (F := Ideal)) VK (Proc.devRef .tc Cert.KernelIdeal.main_v165) (ix2 (⟨255 + r.val, hr⟩ : Fin 4095) p) = StableHlo.after (Cert.KernelIdeal.Gen.hostOps0 (F := Ideal)) VK (Proc.devRef .tc Cert.KernelIdeal.main_v119) (ix2 r p) := by
  rw [Cert.KernelIdeal.Ssa.eq_main_v165 VK]
  exact concatenate_apply_piece (0 : Fin 2) _ _ (ix2 (⟨255 + r.val, hr⟩ : Fin 4095) p) 8 (by show (8 : ℕ) < 12; decide) Cert.KernelIdeal.S256x1024 _ rfl rfl 255 rfl (ix2 r p)
    (fun b hb => by
      match b with
      | ⟨0, _⟩ => exact absurd rfl hb
      | ⟨1, _⟩ => rfl) rfl

/-- Rows 511 … 1022 of the reference's stacked logits are level 9's. -/
theorem pieceR9 (r : Fin 512) (k : Fin 32001) (hr : 511 + r.val < 4095) :
    StableHlo.after (Cert.ReferenceIdeal.RefRun.ops (F := Ideal)) VR (Proc.devRef .tc Cert.ReferenceIdeal.main_v330) (ix2 (⟨511 + r.val, hr⟩ : Fin 4095) k) = StableHlo.after (Cert.ReferenceIdeal.RefRun.ops (F := Ideal)) VR (Proc.devRef .tc Cert.ReferenceIdeal.main_v271) (ix2 r k) := by
  rw [Cert.ReferenceIdeal.Ssa.eq_main_v330 VR]
  exact concatenate_apply_piece (0 : Fin 2) _ _ (ix2 (⟨511 + r.val, hr⟩ : Fin 4095) k) 9 (by show (9 : ℕ) < 12; decide) Cert.ReferenceIdeal.S512x32001 _ rfl rfl 511 rfl (ix2 r k)
    (fun b hb => by
      match b with
      | ⟨0, _⟩ => exact absurd rfl hb
      | ⟨1, _⟩ => rfl) rfl

/-- Rows 511 … 1022 of the kernel's stacked hidden rows are level 9's. -/
theorem pieceK9 (r : Fin 512) (p : Fin 1024) (hr : 511 + r.val < 4095) :
    StableHlo.after (Cert.KernelIdeal.Gen.hostOps0 (F := Ideal)) VK (Proc.devRef .tc Cert.KernelIdeal.main_v165) (ix2 (⟨511 + r.val, hr⟩ : Fin 4095) p) = StableHlo.after (Cert.KernelIdeal.Gen.hostOps0 (F := Ideal)) VK (Proc.devRef .tc Cert.KernelIdeal.main_v134) (ix2 r p) := by
  rw [Cert.KernelIdeal.Ssa.eq_main_v165 VK]
  exact concatenate_apply_piece (0 : Fin 2) _ _ (ix2 (⟨511 + r.val, hr⟩ : Fin 4095) p) 9 (by show (9 : ℕ) < 12; decide) Cert.KernelIdeal.S512x1024 _ rfl rfl 511 rfl (ix2 r p)
    (fun b hb => by
      match b with
      | ⟨0, _⟩ => exact absurd rfl hb
      | ⟨1, _⟩ => rfl) rfl

set_option maxHeartbeats 4000000 in
/-- Rows 1023 … 2046 of the reference's stacked logits are level 10's. -/
theorem pieceR10 (r : Fin 1024) (k : Fin 32001) (hr : 1023 + r.val < 4095) :
    StableHlo.after (Cert.ReferenceIdeal.RefRun.ops (F := Ideal)) VR (Proc.devRef .tc Cert.ReferenceIdeal.main_v330) (ix2 (⟨1023 + r.val, hr⟩ : Fin 4095) k) = StableHlo.after (Cert.ReferenceIdeal.RefRun.ops (F := Ideal)) VR (Proc.devRef .tc Cert.ReferenceIdeal.main_v300) (ix2 r k) := by
  rw [Cert.ReferenceIdeal.Ssa.eq_main_v330 VR]
  exact concatenate_apply_piece (0 : Fin 2) _ _ (ix2 (⟨1023 + r.val, hr⟩ : Fin 4095) k) 10 (by show (10 : ℕ) < 12; decide) Cert.ReferenceIdeal.S1024x32001 _ rfl rfl 1023 rfl (ix2 r k)
    (fun b hb => by
      match b with
      | ⟨0, _⟩ => exact absurd rfl hb
      | ⟨1, _⟩ => rfl) rfl

set_option maxHeartbeats 4000000 in
/-- Rows 1023 … 2046 of the kernel's stacked hidden rows are level 10's. -/
theorem pieceK10 (r : Fin 1024) (p : Fin 1024) (hr : 1023 + r.val < 4095) :
    StableHlo.after (Cert.KernelIdeal.Gen.hostOps0 (F := Ideal)) VK (Proc.devRef .tc Cert.KernelIdeal.main_v165) (ix2 (⟨1023 + r.val, hr⟩ : Fin 4095) p) = StableHlo.after (Cert.KernelIdeal.Gen.hostOps0 (F := Ideal)) VK (Proc.devRef .tc Cert.KernelIdeal.main_v149) (ix2 r p) := by
  rw [Cert.KernelIdeal.Ssa.eq_main_v165 VK]
  exact concatenate_apply_piece (0 : Fin 2) _ _ (ix2 (⟨1023 + r.val, hr⟩ : Fin 4095) p) 10 (by show (10 : ℕ) < 12; decide) Cert.KernelIdeal.S1024x1024 _ rfl rfl 1023 rfl (ix2 r p)
    (fun b hb => by
      match b with
      | ⟨0, _⟩ => exact absurd rfl hb
      | ⟨1, _⟩ => rfl) rfl

set_option maxHeartbeats 4000000 in
/-- Rows 2047 … 4094 of the reference's stacked logits are level 11's. -/
theorem pieceR11 (r : Fin 2048) (k : Fin 32001) (hr : 2047 + r.val < 4095) :
    StableHlo.after (Cert.ReferenceIdeal.RefRun.ops (F := Ideal)) VR (Proc.devRef .tc Cert.ReferenceIdeal.main_v330) (ix2 (⟨2047 + r.val, hr⟩ : Fin 4095) k) = StableHlo.after (Cert.ReferenceIdeal.RefRun.ops (F := Ideal)) VR (Proc.devRef .tc Cert.ReferenceIdeal.main_v329) (ix2 r k) := by
  rw [Cert.ReferenceIdeal.Ssa.eq_main_v330 VR]
  exact concatenate_apply_piece (0 : Fin 2) _ _ (ix2 (⟨2047 + r.val, hr⟩ : Fin 4095) k) 11 (by show (11 : ℕ) < 12; decide) Cert.ReferenceIdeal.S2048x32001 _ rfl rfl 2047 rfl (ix2 r k)
    (fun b hb => by
      match b with
      | ⟨0, _⟩ => exact absurd rfl hb
      | ⟨1, _⟩ => rfl) rfl

set_option maxHeartbeats 4000000 in
/-- Rows 2047 … 4094 of the kernel's stacked hidden rows are level 11's. -/
theorem pieceK11 (r : Fin 2048) (p : Fin 1024) (hr : 2047 + r.val < 4095) :
    StableHlo.after (Cert.KernelIdeal.Gen.hostOps0 (F := Ideal)) VK (Proc.devRef .tc Cert.KernelIdeal.main_v165) (ix2 (⟨2047 + r.val, hr⟩ : Fin 4095) p) = StableHlo.after (Cert.KernelIdeal.Gen.hostOps0 (F := Ideal)) VK (Proc.devRef .tc Cert.KernelIdeal.main_v164) (ix2 r p) := by
  rw [Cert.KernelIdeal.Ssa.eq_main_v165 VK]
  exact concatenate_apply_piece (0 : Fin 2) _ _ (ix2 (⟨2047 + r.val, hr⟩ : Fin 4095) p) 11 (by show (11 : ℕ) < 12; decide) Cert.KernelIdeal.S2048x1024 _ rfl rfl 2047 rfl (ix2 r p)
    (fun b hb => by
      match b with
      | ⟨0, _⟩ => exact absurd rfl hb
      | ⟨1, _⟩ => rfl) rfl

end Cert.Tree

end
-- ==== Proof.Star.lean ====
/-
  Row by row, the reference's stacked logits are the value MLP of the kernel's stacked hidden rows.

  Row `r` of either stack lies in exactly one level `d` (rows 2^d - 1 … 2^(d+1) - 2). There the reference's logits are
  the value MLP of level `d`'s hidden row (`vrow`), the kernel's stacked hidden row is level `d`'s hidden row
  (`pieceK`), and the two programs' level `d` agree (`lvl`). So for every row `r` and column `k`
  `logits (r, k) = ∑ q, logistic (∑ p, hidden (r, p) · W₁ (p, q) + b₁ q) · W₂ (q, k) + b₂ k`, the hidden rows read in the
  kernel's stack.
-/
import proofs.«141888_j3590592659519_2_alg».proof.Proof.Levels
import proofs.«141888_j3590592659519_2_alg».proof.Proof.ValueRows
import proofs.«141888_j3590592659519_2_alg».proof.Proof.Pieces
import proofs.«141888_j3590592659519_2_alg».proof.Proof.MlpEntry
import Idealize.ShloMosaic.Lib.ValueIdx
import Idealize.ShloMosaic.Lib.StableHlo.Run

set_option maxRecDepth 65536

noncomputable section

namespace Cert.Tree

open Idealize.ShloMosaic Idealize.ShloMosaic.TcCoe Idealize.ShloMosaic.ValueIdx Idealize.SL.Sem

variable (VK : Valuation Cert.KernelIdeal.τ Cert.KernelIdeal.sig (Elt Ideal)) (VR : Valuation Cert.ReferenceIdeal.τ Cert.ReferenceIdeal.sig (Elt Ideal))

/-- Rows of level 0. -/
theorem star0 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 1) (k : Fin 32001) (hr : 0 + r.val < 4095) :
    StableHlo.after (Cert.ReferenceIdeal.RefRun.ops (F := Ideal)) VR (Proc.devRef .tc Cert.ReferenceIdeal.main_v330) (ix2 (⟨0 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨0 + r.val, hr⟩ : Fin 4095) k := by
  rw [pieceR0 VR r k hr, vrow0 VR r k]
  unfold mlpEntry
  rw [argR1, argR2, argR3, argR4, e1, e2, e3, e4, piece0K VK VR e0]
  simp only [pieceK0 VK r _ hr]

/-- Rows of level 1. -/
theorem star1 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 2) (k : Fin 32001) (hr : 1 + r.val < 4095) :
    StableHlo.after (Cert.ReferenceIdeal.RefRun.ops (F := Ideal)) VR (Proc.devRef .tc Cert.ReferenceIdeal.main_v330) (ix2 (⟨1 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨1 + r.val, hr⟩ : Fin 4095) k := by
  rw [pieceR1 VR r k hr, vrow1 VR r k]
  unfold mlpEntry
  rw [argR1, argR2, argR3, argR4, e1, e2, e3, e4, lvl1 VK VR e0 e5 e6 e7 e8]
  simp only [pieceK1 VK r _ hr]

/-- Rows of level 2. -/
theorem star2 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 4) (k : Fin 32001) (hr : 3 + r.val < 4095) :
    StableHlo.after (Cert.ReferenceIdeal.RefRun.ops (F := Ideal)) VR (Proc.devRef .tc Cert.ReferenceIdeal.main_v330) (ix2 (⟨3 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨3 + r.val, hr⟩ : Fin 4095) k := by
  rw [pieceR2 VR r k hr, vrow2 VR r k]
  unfold mlpEntry
  rw [argR1, argR2, argR3, argR4, e1, e2, e3, e4, lvl2 VK VR e0 e5 e6 e7 e8]
  simp only [pieceK2 VK r _ hr]

/-- Rows of level 3. -/
theorem star3 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 8) (k : Fin 32001) (hr : 7 + r.val < 4095) :
    StableHlo.after (Cert.ReferenceIdeal.RefRun.ops (F := Ideal)) VR (Proc.devRef .tc Cert.ReferenceIdeal.main_v330) (ix2 (⟨7 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨7 + r.val, hr⟩ : Fin 4095) k := by
  rw [pieceR3 VR r k hr, vrow3 VR r k]
  unfold mlpEntry
  rw [argR1, argR2, argR3, argR4, e1, e2, e3, e4, lvl3 VK VR e0 e5 e6 e7 e8]
  simp only [pieceK3 VK r _ hr]

/-- Rows of level 4. -/
theorem star4 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 16) (k : Fin 32001) (hr : 15 + r.val < 4095) :
    StableHlo.after (Cert.ReferenceIdeal.RefRun.ops (F := Ideal)) VR (Proc.devRef .tc Cert.ReferenceIdeal.main_v330) (ix2 (⟨15 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨15 + r.val, hr⟩ : Fin 4095) k := by
  rw [pieceR4 VR r k hr, vrow4 VR r k]
  unfold mlpEntry
  rw [argR1, argR2, argR3, argR4, e1, e2, e3, e4, lvl4 VK VR e0 e5 e6 e7 e8]
  simp only [pieceK4 VK r _ hr]

/-- Rows of level 5. -/
theorem star5 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 32) (k : Fin 32001) (hr : 31 + r.val < 4095) :
    StableHlo.after (Cert.ReferenceIdeal.RefRun.ops (F := Ideal)) VR (Proc.devRef .tc Cert.ReferenceIdeal.main_v330) (ix2 (⟨31 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨31 + r.val, hr⟩ : Fin 4095) k := by
  rw [pieceR5 VR r k hr, vrow5 VR r k]
  unfold mlpEntry
  rw [argR1, argR2, argR3, argR4, e1, e2, e3, e4, lvl5 VK VR e0 e5 e6 e7 e8]
  simp only [pieceK5 VK r _ hr]

/-- Rows of level 6. -/
theorem star6 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 64) (k : Fin 32001) (hr : 63 + r.val < 4095) :
    StableHlo.after (Cert.ReferenceIdeal.RefRun.ops (F := Ideal)) VR (Proc.devRef .tc Cert.ReferenceIdeal.main_v330) (ix2 (⟨63 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨63 + r.val, hr⟩ : Fin 4095) k := by
  rw [pieceR6 VR r k hr, vrow6 VR r k]
  unfold mlpEntry
  rw [argR1, argR2, argR3, argR4, e1, e2, e3, e4, lvl6 VK VR e0 e5 e6 e7 e8]
  simp only [pieceK6 VK r _ hr]

/-- Rows of level 7. -/
theorem star7 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 128) (k : Fin 32001) (hr : 127 + r.val < 4095) :
    StableHlo.after (Cert.ReferenceIdeal.RefRun.ops (F := Ideal)) VR (Proc.devRef .tc Cert.ReferenceIdeal.main_v330) (ix2 (⟨127 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨127 + r.val, hr⟩ : Fin 4095) k := by
  rw [pieceR7 VR r k hr, vrow7 VR r k]
  unfold mlpEntry
  rw [argR1, argR2, argR3, argR4, e1, e2, e3, e4, lvl7 VK VR e0 e5 e6 e7 e8]
  simp only [pieceK7 VK r _ hr]

/-- Rows of level 8. -/
theorem star8 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 256) (k : Fin 32001) (hr : 255 + r.val < 4095) :
    StableHlo.after (Cert.ReferenceIdeal.RefRun.ops (F := Ideal)) VR (Proc.devRef .tc Cert.ReferenceIdeal.main_v330) (ix2 (⟨255 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨255 + r.val, hr⟩ : Fin 4095) k := by
  rw [pieceR8 VR r k hr, vrow8 VR r k]
  unfold mlpEntry
  rw [argR1, argR2, argR3, argR4, e1, e2, e3, e4, lvl8 VK VR e0 e5 e6 e7 e8]
  simp only [pieceK8 VK r _ hr]

/-- Rows of level 9. -/
theorem star9 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 512) (k : Fin 32001) (hr : 511 + r.val < 4095) :
    StableHlo.after (Cert.ReferenceIdeal.RefRun.ops (F := Ideal)) VR (Proc.devRef .tc Cert.ReferenceIdeal.main_v330) (ix2 (⟨511 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨511 + r.val, hr⟩ : Fin 4095) k := by
  rw [pieceR9 VR r k hr, vrow9 VR r k]
  unfold mlpEntry
  rw [argR1, argR2, argR3, argR4, e1, e2, e3, e4, lvl9 VK VR e0 e5 e6 e7 e8]
  simp only [pieceK9 VK r _ hr]

/-- Rows of level 10. -/
theorem star10 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 1024) (k : Fin 32001) (hr : 1023 + r.val < 4095) :
    StableHlo.after (Cert.ReferenceIdeal.RefRun.ops (F := Ideal)) VR (Proc.devRef .tc Cert.ReferenceIdeal.main_v330) (ix2 (⟨1023 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨1023 + r.val, hr⟩ : Fin 4095) k := by
  rw [pieceR10 VR r k hr, vrow10 VR r k]
  unfold mlpEntry
  rw [argR1, argR2, argR3, argR4, e1, e2, e3, e4, lvl10 VK VR e0 e5 e6 e7 e8]
  simp only [pieceK10 VK r _ hr]

/-- Rows of level 11. -/
theorem star11 (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 2048) (k : Fin 32001) (hr : 2047 + r.val < 4095) :
    StableHlo.after (Cert.ReferenceIdeal.RefRun.ops (F := Ideal)) VR (Proc.devRef .tc Cert.ReferenceIdeal.main_v330) (ix2 (⟨2047 + r.val, hr⟩ : Fin 4095) k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) (⟨2047 + r.val, hr⟩ : Fin 4095) k := by
  rw [pieceR11 VR r k hr, vrow11 VR r k]
  unfold mlpEntry
  rw [argR1, argR2, argR3, argR4, e1, e2, e3, e4, lvl11 VK VR e0 e5 e6 e7 e8]
  simp only [pieceK11 VK r _ hr]

/-- Every row. -/
theorem star (e0 : VR (Proc.devRef .tc Cert.ReferenceIdeal.main_arg0) = VK (Proc.devRef .tc Cert.KernelIdeal.main_arg0))
    (e1 : VR (Proc.devRef .tc Cert.ReferenceIdeal.main_arg1) = VK (Proc.devRef .tc Cert.KernelIdeal.main_arg1))
    (e2 : VR (Proc.devRef .tc Cert.ReferenceIdeal.main_arg2) = VK (Proc.devRef .tc Cert.KernelIdeal.main_arg2))
    (e3 : VR (Proc.devRef .tc Cert.ReferenceIdeal.main_arg3) = VK (Proc.devRef .tc Cert.KernelIdeal.main_arg3))
    (e4 : VR (Proc.devRef .tc Cert.ReferenceIdeal.main_arg4) = VK (Proc.devRef .tc Cert.KernelIdeal.main_arg4))
    (e5 : VR (Proc.devRef .tc Cert.ReferenceIdeal.main_arg5) = VK (Proc.devRef .tc Cert.KernelIdeal.main_arg5))
    (e6 : VR (Proc.devRef .tc Cert.ReferenceIdeal.main_arg6) = VK (Proc.devRef .tc Cert.KernelIdeal.main_arg6))
    (e7 : VR (Proc.devRef .tc Cert.ReferenceIdeal.main_arg7) = VK (Proc.devRef .tc Cert.KernelIdeal.main_arg7))
    (e8 : VR (Proc.devRef .tc Cert.ReferenceIdeal.main_arg8) = VK (Proc.devRef .tc Cert.KernelIdeal.main_arg8))
    (r : Fin 4095) (k : Fin 32001) :
    StableHlo.after (Cert.ReferenceIdeal.RefRun.ops (F := Ideal)) VR (Proc.devRef .tc Cert.ReferenceIdeal.main_v330) (ix2 r k)
      = mlpEntry (n := 4095) (StableHlo.after (Cert.KernelIdeal.Gen.hostOps0 (F := Ideal)) VK (Proc.devRef .tc Cert.KernelIdeal.main_v165)) (VK (Proc.devRef .tc Cert.KernelIdeal.main_arg1)) (VK (Proc.devRef .tc Cert.KernelIdeal.main_arg2))
          (VK (Proc.devRef .tc Cert.KernelIdeal.main_arg3)) (VK (Proc.devRef .tc Cert.KernelIdeal.main_arg4)) r k := by
  have hr := r.isLt
  by_cases h0 : r.val < 1
  · have h := star0 VK VR e0 e1 e2 e3 e4 e5 e6 e7 e8 (⟨r.val - 0, by omega⟩ : Fin 1) k (by show 0 + (r.val - 0) < 4095; omega)
    have e : (⟨0 + (r.val - 0), by omega⟩ : Fin 4095) = r := Fin.ext (by show 0 + (r.val - 0) = r.val; omega)
    rw [e] at h
    exact h
  by_cases h1 : r.val < 3
  · have h := star1 VK VR e0 e1 e2 e3 e4 e5 e6 e7 e8 (⟨r.val - 1, by omega⟩ : Fin 2) k (by show 1 + (r.val - 1) < 4095; omega)
    have e : (⟨1 + (r.val - 1), by omega⟩ : Fin 4095) = r := Fin.ext (by show 1 + (r.val - 1) = r.val; omega)
    rw [e] at h
    exact h
  by_cases h2 : r.val < 7
  · have h := star2 VK VR e0 e1 e2 e3 e4 e5 e6 e7 e8 (⟨r.val - 3, by omega⟩ : Fin 4) k (by show 3 + (r.val - 3) < 4095; omega)
    have e : (⟨3 + (r.val - 3), by omega⟩ : Fin 4095) = r := Fin.ext (by show 3 + (r.val - 3) = r.val; omega)
    rw [e] at h
    exact h
  by_cases h3 : r.val < 15
  · have h := star3 VK VR e0 e1 e2 e3 e4 e5 e6 e7 e8 (⟨r.val - 7, by omega⟩ : Fin 8) k (by show 7 + (r.val - 7) < 4095; omega)
    have e : (⟨7 + (r.val - 7), by omega⟩ : Fin 4095) = r := Fin.ext (by show 7 + (r.val - 7) = r.val; omega)
    rw [e] at h
    exact h
  by_cases h4 : r.val < 31
  · have h := star4 VK VR e0 e1 e2 e3 e4 e5 e6 e7 e8 (⟨r.val - 15, by omega⟩ : Fin 16) k (by show 15 + (r.val - 15) < 4095; omega)
    have e : (⟨15 + (r.val - 15), by omega⟩ : Fin 4095) = r := Fin.ext (by show 15 + (r.val - 15) = r.val; omega)
    rw [e] at h
    exact h
  by_cases h5 : r.val < 63
  · have h := star5 VK VR e0 e1 e2 e3 e4 e5 e6 e7 e8 (⟨r.val - 31, by omega⟩ : Fin 32) k (by show 31 + (r.val - 31) < 4095; omega)
    have e : (⟨31 + (r.val - 31), by omega⟩ : Fin 4095) = r := Fin.ext (by show 31 + (r.val - 31) = r.val; omega)
    rw [e] at h
    exact h
  by_cases h6 : r.val < 127
  · have h := star6 VK VR e0 e1 e2 e3 e4 e5 e6 e7 e8 (⟨r.val - 63, by omega⟩ : Fin 64) k (by show 63 + (r.val - 63) < 4095; omega)
    have e : (⟨63 + (r.val - 63), by omega⟩ : Fin 4095) = r := Fin.ext (by show 63 + (r.val - 63) = r.val; omega)
    rw [e] at h
    exact h
  by_cases h7 : r.val < 255
  · have h := star7 VK VR e0 e1 e2 e3 e4 e5 e6 e7 e8 (⟨r.val - 127, by omega⟩ : Fin 128) k (by show 127 + (r.val - 127) < 4095; omega)
    have e : (⟨127 + (r.val - 127), by omega⟩ : Fin 4095) = r := Fin.ext (by show 127 + (r.val - 127) = r.val; omega)
    rw [e] at h
    exact h
  by_cases h8 : r.val < 511
  · have h := star8 VK VR e0 e1 e2 e3 e4 e5 e6 e7 e8 (⟨r.val - 255, by omega⟩ : Fin 256) k (by show 255 + (r.val - 255) < 4095; omega)
    have e : (⟨255 + (r.val - 255), by omega⟩ : Fin 4095) = r := Fin.ext (by show 255 + (r.val - 255) = r.val; omega)
    rw [e] at h
    exact h
  by_cases h9 : r.val < 1023
  · have h := star9 VK VR e0 e1 e2 e3 e4 e5 e6 e7 e8 (⟨r.val - 511, by omega⟩ : Fin 512) k (by show 511 + (r.val - 511) < 4095; omega)
    have e : (⟨511 + (r.val - 511), by omega⟩ : Fin 4095) = r := Fin.ext (by show 511 + (r.val - 511) = r.val; omega)
    rw [e] at h
    exact h
  by_cases h10 : r.val < 2047
  · have h := star10 VK VR e0 e1 e2 e3 e4 e5 e6 e7 e8 (⟨r.val - 1023, by omega⟩ : Fin 1024) k (by show 1023 + (r.val - 1023) < 4095; omega)
    have e : (⟨1023 + (r.val - 1023), by omega⟩ : Fin 4095) = r := Fin.ext (by show 1023 + (r.val - 1023) = r.val; omega)
    rw [e] at h
    exact h
  have h := star11 VK VR e0 e1 e2 e3 e4 e5 e6 e7 e8 (⟨r.val - 2047, by omega⟩ : Fin 2048) k (by show 2047 + (r.val - 2047) < 4095; omega)
  have e : (⟨2047 + (r.val - 2047), by omega⟩ : Fin 4095) = r := Fin.ext (by show 2047 + (r.val - 2047) = r.val; omega)
  rw [e] at h
  exact h

end Cert.Tree

end
-- ==== Proof.RefTail.lean ====
/-
  The reference's last step: the row-wise log-softmax of the gathered logits.

  The sixteen operations of the outlined log_softmax compose to the host's log-softmax chain
  (`Cert.Lib.LogSoftmaxRows.hostChain`) of the gathered array, so entry `(i, j)` of the reference's result is the
  log-softmax at `j` of row `i` of the gathered logits.
-/
import proofs.«141888_j3590592659519_2_alg».proof.Proof.SsaR
import proofs.«141888_j3590592659519_2_alg».proof.Proof.LibLogSoftmaxRows
import Idealize.ShloMosaic.Lib.ValueIdx
import Idealize.ShloMosaic.Lib.StableHlo.Run

set_option maxRecDepth 65536

noncomputable section

namespace Cert.Tree

open Idealize.ShloMosaic Idealize.ShloMosaic.TcCoe Idealize.ShloMosaic.ValueIdx Idealize.SL.Sem Cert.Lib.LogSoftmaxPad

variable (VR : Valuation Cert.ReferenceIdeal.τ Cert.ReferenceIdeal.sig (Elt Ideal))

/-- The reference's result is the host log-softmax chain of the gathered logits. -/
theorem tail_chain :
    StableHlo.after (Cert.ReferenceIdeal.RefRun.ops (F := Ideal)) VR (Proc.devRef .tc Cert.ReferenceIdeal.main_v336)
      = Cert.Lib.LogSoftmaxRows.hostChain Cert.ReferenceIdeal.Facts₀.reducesTo_S4095x32001_S4095_d1 Cert.ReferenceIdeal.Facts₀.h_S_ Cert.ReferenceIdeal.Facts₀.bcast_S_S4095 Cert.ReferenceIdeal.Facts₀.bcast_S4095_S4095x1_0
          Cert.ReferenceIdeal.Facts₀.bcast_S4095x1_S4095x32001_0_1 (StableHlo.after (Cert.ReferenceIdeal.RefRun.ops (F := Ideal)) VR (Proc.devRef .tc Cert.ReferenceIdeal.main_v335)) := by
  rw [Cert.ReferenceIdeal.Ssa.eq_main_v336 VR, Cert.ReferenceIdeal.Ssa.eq_main_call0_v10 VR, Cert.ReferenceIdeal.Ssa.eq_main_call0_v9 VR, Cert.ReferenceIdeal.Ssa.eq_main_call0_v8 VR, Cert.ReferenceIdeal.Ssa.eq_main_call0_v7 VR, Cert.ReferenceIdeal.Ssa.eq_main_call0_cst_1 VR, Cert.ReferenceIdeal.Ssa.eq_main_call0_v6 VR, Cert.ReferenceIdeal.Ssa.eq_main_call0_v5 VR, Cert.ReferenceIdeal.Ssa.eq_main_call0_v4 VR, Cert.ReferenceIdeal.Ssa.eq_main_call0_v3 VR, Cert.ReferenceIdeal.Ssa.eq_main_call0_v2 VR, Cert.ReferenceIdeal.Ssa.eq_main_call0_v1 VR, Cert.ReferenceIdeal.Ssa.eq_main_call0_cst_0 VR, Cert.ReferenceIdeal.Ssa.eq_main_call0_v0 VR, Cert.ReferenceIdeal.Ssa.eq_main_call0_cst VR]
  rfl

/-- Entry `(i, j)` of the reference's result: the log-softmax at `j` of row `i` of the gathered logits. -/
theorem tail_apply (i : Fin 4095) (j : Fin 32001) :
    (StableHlo.after (Cert.ReferenceIdeal.RefRun.ops (F := Ideal)) VR (Proc.devRef .tc Cert.ReferenceIdeal.main_v336) (ix2 i j) : EReal) = lsm (fun k : Fin 32001 => (StableHlo.after (Cert.ReferenceIdeal.RefRun.ops (F := Ideal)) VR (Proc.devRef .tc Cert.ReferenceIdeal.main_v335) (ix2 i k) : EReal)) j := by
  rw [tail_chain VR]
  exact Cert.Lib.LogSoftmaxRows.host_apply _ (by decide) _ _ _ _ _ i j

end Cert.Tree

end
-- ==== Proof.PermTable.lean ====
/-
  The pre-order table of the tree decoder.

  Both programs reorder the 4095 stacked rows (the twelve levels of the tree, breadth-first) to pre-order by one
  constant table of 4095 words: row i of the reordered array is the stacked row the table's i-th word names. Here the
  table is read once. Every word, as a natural number, is below 4095, so the table is a function
  perm : Fin 4095 → Fin 4095; each program's copy of the table holds, at position i, the 32-bit word of perm i; and a
  word of a number below 4095 reads back, signed or unsigned, as that number. After these facts nothing needs the table's
  entries any more, and perm is closed.
-/
import proofs.«141888_j3590592659519_2_alg».proof.KernelIdeal
import proofs.«141888_j3590592659519_2_alg».proof.ReferenceIdeal

namespace Cert.Tree

/-- Every word of the kernel's table is, as a natural number, below 4095: it names a stacked row. -/
theorem table_lt : ∀ i : Fin 4095, (Cert.KernelIdeal.lit0 i).toNat < 4095 := by decide +kernel

/-- The reference's table is the kernel's, word for word. -/
theorem table_reference_eq : ∀ i : Fin 4095, Cert.ReferenceIdeal.lit0 i = Cert.KernelIdeal.lit0 i := by decide +kernel

/-- Row i of the pre-order array is row perm i of the stacked levels: the table's i-th word as a row number. -/
def perm (i : Fin 4095) : Fin 4095 := ⟨(Cert.KernelIdeal.lit0 i).toNat, table_lt i⟩

/-- The kernel's table holds at i the word of perm i. -/
theorem table_kernel (i : Fin 4095) : Cert.KernelIdeal.lit0 i = BitVec.ofNat 32 (perm i).val :=
  ((BitVec.ofNat_toNat 32 (Cert.KernelIdeal.lit0 i)).trans (BitVec.setWidth_eq _)).symm

/-- The reference's table holds at i the word of perm i. -/
theorem table_reference (i : Fin 4095) : Cert.ReferenceIdeal.lit0 i = BitVec.ofNat 32 (perm i).val :=
  (table_reference_eq i).trans (table_kernel i)

attribute [irreducible] perm

/-! ## The word of a row number -/

/-- The 32-bit word of a number below 4095 reads back unsigned as the number. -/
theorem word_toNat {n : Nat} (h : n < 4095) : (BitVec.ofNat 32 n).toNat = n := by
  rw [BitVec.toNat_ofNat]; omega

/-- It reads back signed as the number too: its top bit is clear. -/
theorem word_toInt {n : Nat} (h : n < 4095) : (BitVec.ofNat 32 n).toInt = (n : Int) := by
  rw [BitVec.toInt_eq_toNat_cond, word_toNat h]
  split
  · rfl
  · omega

end Cert.Tree
-- ==== Proof.LibGatherRows.lean ====
/-
  A gather of whole rows read at an index given by coordinates.
  Indexing a table by a list of row numbers, `x[idx]`, lowers to a gather whose start index names axis 0, whose slice
  is one whole row, and whose row axis is collapsed. Entry `(e, j)` of the result is entry `j` of the row that the
  `e`-th index names: the index word read as a signed number, negative numbers taken as 0, and the number clamped to the
  last row. The same for a vector indexed by a list of positions: entry `e` of the result is the vector at the clamped
  position. Nothing else of the operand is read, so a table's gathered rows depend only on those rows.
-/
import Idealize.ShloMosaic.Lib.ValueLayout

namespace Cert.Lib.GatherRows

open Idealize.ShloMosaic Idealize.ShloMosaic.ValueIdx

variable {α : Type}

/-! ## Rows of a matrix -/

/-- The dimension numbers of `x[idx]` for an `[N, C]` table and an `[E, 1]` list of row numbers: result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the `e`-th index names: its word read signed, clamped into `[0, N − 1]`. -/
abbrev rowOf {N E w : Nat} (hN : 0 < N) (idx : IVec ⟨2, ![E, 1]⟩ w) (e : Fin E) : Fin N :=
  ⟨min (idx (ix2 e (0 : Fin 1))).toInt.toNat (N - 1), by omega⟩

/-- THE GATHER READ AT `(e, j)`: the table at the row the `e`-th index names, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (rowOf hN idx e) j) := by
  unfold Host.gather
  congr 1
  funext a
  refine Fin.ext ?_
  match a with
  | ⟨0, _⟩ =>
    show (rowsDims N E C wf).start (ix2 e j) idx 0 + (rowsDims N E C wf).batchCoord (ix2 e j) 0
      + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e j) idx 1 + (rowsDims N E C wf).batchCoord (ix2 e j) 1
      + (rowsDims N E C wf).offCoord (ix2 e j) 1 = j.val
    have hs : (rowsDims N E C wf).start (ix2 e j) idx 1 = 0 := by
      unfold GatherDims.start
      rw [dif_neg (show (1 : Fin 2) ∉ (rowsDims N E C wf).startIndexMap from
        fun h => absurd (Fin.val_eq_of_eq (List.mem_singleton.mp h)) Nat.one_ne_zero)]
    have hk : (1 : Fin 2) ∈ (rowsDims N E C wf).sKept :=
      (GatherDims.mem_sKept _ _).mpr ⟨fun h => absurd (Fin.val_eq_of_eq (List.mem_singleton.mp h)) Nat.one_ne_zero, List.not_mem_nil⟩
    rw [hs, GatherDims.batchCoord_eq_zero _ _ _ List.not_mem_nil]
    unfold GatherDims.offCoord
    rw [dif_pos hk]
    simp only [Nat.zero_add, Nat.add_zero]
    rfl

/-! ## Entries of a vector -/

/-- The dimension numbers of `x[idx]` for an `[N]` vector and an `[E, 1]` list of positions: result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the vector at the position the `e`-th index names. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of one column gathers as the vector does -/

/-- Entry `(e, 0)` of the rows gathered from a one-column table is entry `e` of the entries gathered from the vector,
    when the table's column is the vector. -/
theorem gather_col_eq_vec {N E w : Nat} (hN : 0 < N)
    (wf2 : GatherDims.WF ⟨2, ![N, 1]⟩ ⟨2, ![E, 1]⟩ ⟨2, ![E, 1]⟩ [1] [0] [] [0] [] 1 ![1, 1])
    (wf1 : GatherDims.WF ⟨1, ![N]⟩ ⟨2, ![E, 1]⟩ ⟨1, ![E]⟩ [] [0] [] [0] [] 1 ![1])
    (idx : IVec ⟨2, ![E, 1]⟩ w)
    (x2 : (⟨2, ![N, 1]⟩ : Shape).Idx → α) (x1 : (⟨1, ![N]⟩ : Shape).Idx → α)
    (hx : ∀ n : Fin N, x2 (ix2 n (0 : Fin 1)) = x1 (ix1 n)) (e : Fin E) :
    Host.gather (rowsDims N E 1 wf2) x2 idx (ix2 e (0 : Fin 1)) = Host.gather (vecDims N E wf1) x1 idx (ix1 e) := by
  rw [gather_rows_apply hN, gather_vec_apply hN, hx]

/-! ## Rows gathered from two tables laid side by side -/

/-- Rows gathered from `[a | b]` and cut back to the first `C1` columns are the rows gathered from `a`. -/
theorem gather_concat_slice_left {N E C1 C2 C w : Nat} (hN : 0 < N) (hC : C1 ≤ C)
    (hcat : Shape.Concatenates [(⟨2, ![N, C1]⟩ : Shape), (⟨2, ![N, C2]⟩ : Shape)] ⟨2, ![N, C]⟩ 1)
    (wfC : GatherDims.WF ⟨2, ![N, C]⟩ ⟨2, ![E, 1]⟩ ⟨2, ![E, C]⟩ [1] [0] [] [0] [] 1 ![1, C])
    (wf1 : GatherDims.WF ⟨2, ![N, C1]⟩ ⟨2, ![E, 1]⟩ ⟨2, ![E, C1]⟩ [1] [0] [] [0] [] 1 ![1, C1])
    (hsl : (⟨2, ![E, C]⟩ : Shape).Slices ![0, 0] ⟨2, ![E, C1]⟩)
    (a : (⟨2, ![N, C1]⟩ : Shape).Idx → α) (b : (⟨2, ![N, C2]⟩ : Shape).Idx → α) (idx : IVec ⟨2, ![E, 1]⟩ w)
    (e : Fin E) (j : Fin C1) :
    extractStridedSlice ⟨2, ![E, C1]⟩ ![0, 0]
        (Host.gather (rowsDims N E C wfC) (concatenate ⟨2, ![N, C]⟩ 1 [⟨⟨2, ![N, C1]⟩, a⟩, ⟨⟨2, ![N, C2]⟩, b⟩] hcat) idx) hsl (ix2 e j)
      = Host.gather (rowsDims N E C1 wf1) a idx (ix2 e j) := by
  have hj := j.isLt
  rw [slice2_axis1_apply 0 _ hsl e j ⟨j.val, by omega⟩ (by simp), gather_rows_apply hN, gather_rows_apply hN]
  refine concatenate_pair_apply_left 1 a b hcat _ rfl (ix2 (rowOf hN idx e) j) fun ax => ?_
  match ax with
  | ⟨0, _⟩ => rfl
  | ⟨1, _⟩ => rfl

/-- Rows gathered from `[a | b]` and cut to the columns from `C1` on are the rows gathered from `b`. -/
theorem gather_concat_slice_right {N E C1 C2 C w : Nat} (hN : 0 < N) (hC : C1 + C2 ≤ C)
    (hcat : Shape.Concatenates [(⟨2, ![N, C1]⟩ : Shape), (⟨2, ![N, C2]⟩ : Shape)] ⟨2, ![N, C]⟩ 1)
    (wfC : GatherDims.WF ⟨2, ![N, C]⟩ ⟨2, ![E, 1]⟩ ⟨2, ![E, C]⟩ [1] [0] [] [0] [] 1 ![1, C])
    (wf2 : GatherDims.WF ⟨2, ![N, C2]⟩ ⟨2, ![E, 1]⟩ ⟨2, ![E, C2]⟩ [1] [0] [] [0] [] 1 ![1, C2])
    (hsl : (⟨2, ![E, C]⟩ : Shape).Slices ![0, C1] ⟨2, ![E, C2]⟩)
    (a : (⟨2, ![N, C1]⟩ : Shape).Idx → α) (b : (⟨2, ![N, C2]⟩ : Shape).Idx → α) (idx : IVec ⟨2, ![E, 1]⟩ w)
    (e : Fin E) (j : Fin C2) :
    extractStridedSlice ⟨2, ![E, C2]⟩ ![0, C1]
        (Host.gather (rowsDims N E C wfC) (concatenate ⟨2, ![N, C]⟩ 1 [⟨⟨2, ![N, C1]⟩, a⟩, ⟨⟨2, ![N, C2]⟩, b⟩] hcat) idx) hsl (ix2 e j)
      = Host.gather (rowsDims N E C2 wf2) b idx (ix2 e j) := by
  have hj := j.isLt
  rw [slice2_axis1_apply C1 _ hsl e j ⟨C1 + j.val, by omega⟩ rfl, gather_rows_apply hN, gather_rows_apply hN]
  refine concatenate_pair_apply_right 1 a b hcat _ rfl rfl (ix2 (rowOf hN idx e) j) (fun ax hne => ?_) ?_
  · match ax with
    | ⟨0, _⟩ => rfl
    | ⟨1, _⟩ => exact absurd rfl hne
  · show j.val + C1 = C1 + j.val
    omega

end Cert.Lib.GatherRows
-- ==== Proof.LibGatherPad.lean ====
/-
  A table and its zero-padded copy, indexed by the same in-range row numbers, gather to the same array.
  Two programs hold the same table, one as x of N rows and one as xP of NP ≥ N rows equal to x on the first N rows (what
  the remaining rows hold does not matter). Both compute table[idx] the same way: an index that is negative is first
  replaced by the index plus the table's own row count, then the rows are gathered, the index word read as a signed number
  and clamped into the table. When every index lies in [0, N) the first step changes nothing, whatever the row count
  added, because no index is negative; and the clamp changes nothing, because every index is below N ≤ NP. So each
  program reads, for the e-th index, row idx e of the part the two tables share, and the two gathered arrays are equal.
  This is proved for the two layouts of the index list: a list [E] giving an array [E, C], and an array [A, J] giving an
  array [A, J, C]. On the way: the gather of rows by an [A, J, 1] array of row numbers read at (a, j, q); the wrap
  select (idx < 0) (idx + n) idx read at a position whose index is not negative; and a new trailing axis of size one
  read at coordinate 0.
-/
import Idealize.ShloMosaic.Lib.ValueLayout
import proofs.«141888_j3590592659519_2_alg».proof.Proof.LibGatherRows

namespace Cert.Bridge.GatherPad

open Idealize.ShloMosaic Idealize.ShloMosaic.ValueIdx Cert.Lib.GatherRows

variable {α : Type}

/-! ## Rows of a matrix named by a two-axis list of row numbers -/

/-- The dimension numbers of x[idx] for an [N, C] table and an [A, J, 1] list of row numbers: result [A, J, C]. -/
abbrev rows3Dims (N A J C : Nat)
    (wf : GatherDims.WF ⟨2, ![N, C]⟩ ⟨3, ![A, J, 1]⟩ ⟨3, ![A, J, C]⟩ [2] [0] [] [0] [] 2 ![1, C]) :
    GatherDims ⟨2, ![N, C]⟩ ⟨3, ![A, J, 1]⟩ ⟨3, ![A, J, C]⟩ where
  offsetDims := [2]
  collapsedSliceDims := [0]
  operandBatchingDims := []
  startIndicesBatchingDims := []
  startIndexMap := [0]
  indexVectorDim := 2
  sliceSizes := ![1, C]
  wf := wf

/-- The row the (a, j)-th index names: its word read signed, clamped into [0, N − 1]. -/
abbrev rowOf3 {N A J w : Nat} (hN : 0 < N) (idx : IVec ⟨3, ![A, J, 1]⟩ w) (a : Fin A) (j : Fin J) : Fin N :=
  ⟨min (idx (ix3 a j (0 : Fin 1))).toInt.toNat (N - 1), by omega⟩

/-- THE GATHER READ AT (a, j, q): the table at the row the (a, j)-th index names, column q. -/
theorem gather_rows3_apply {N A J C w : Nat} (hN : 0 < N)
    (wf : GatherDims.WF ⟨2, ![N, C]⟩ ⟨3, ![A, J, 1]⟩ ⟨3, ![A, J, C]⟩ [2] [0] [] [0] [] 2 ![1, C])
    (x : (⟨2, ![N, C]⟩ : Shape).Idx → α) (idx : IVec ⟨3, ![A, J, 1]⟩ w) (a : Fin A) (j : Fin J) (q : Fin C) :
    Host.gather (rows3Dims N A J C wf) x idx (ix3 a j q) = x (ix2 (rowOf3 hN idx a j) q) := by
  unfold Host.gather
  congr 1
  funext ax
  refine Fin.ext ?_
  match ax with
  | ⟨0, _⟩ =>
    show (rows3Dims N A J C wf).start (ix3 a j q) idx 0 + (rows3Dims N A J C wf).batchCoord (ix3 a j q) 0
      + (rows3Dims N A J C wf).offCoord (ix3 a j q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N A J C wf).startIndexMap from List.mem_singleton.mpr rfl)]
    have hsi : (rows3Dims N A J C wf).siIdx (ix3 a j q) ⟨List.idxOf (0 : Fin 2) (rows3Dims N A J C wf).startIndexMap,
        List.idxOf_lt_length_iff.2 (List.mem_singleton.mpr rfl)⟩ = ix3 a j (0 : Fin 1) := by
      funext b; refine Fin.ext ?_
      match b with
      | ⟨0, _⟩ => rfl
      | ⟨1, _⟩ => rfl
      | ⟨2, _⟩ => rfl
    rw [hsi]
    rfl
  | ⟨1, _⟩ =>
    show (rows3Dims N A J C wf).start (ix3 a j q) idx 1 + (rows3Dims N A J C wf).batchCoord (ix3 a j q) 1
      + (rows3Dims N A J C wf).offCoord (ix3 a j q) 1 = q.val
    have hs : (rows3Dims N A J C wf).start (ix3 a j q) idx 1 = 0 := by
      unfold GatherDims.start
      rw [dif_neg (show (1 : Fin 2) ∉ (rows3Dims N A J C wf).startIndexMap from
        fun h => absurd (Fin.val_eq_of_eq (List.mem_singleton.mp h)) Nat.one_ne_zero)]
    have hk : (1 : Fin 2) ∈ (rows3Dims N A J C wf).sKept :=
      (GatherDims.mem_sKept _ _).mpr ⟨fun h => absurd (Fin.val_eq_of_eq (List.mem_singleton.mp h)) Nat.one_ne_zero, List.not_mem_nil⟩
    rw [hs, GatherDims.batchCoord_eq_zero _ _ _ List.not_mem_nil]
    unfold GatherDims.offCoord
    rw [dif_pos hk]
    simp only [Nat.zero_add, Nat.add_zero]
    rfl

/-! ## The wrap of a negative index does nothing to an index that is not negative -/

/-- table[idx] first replaces a negative index by the index plus the row count: select (idx < 0) (idx + n) idx.
    At a position whose index is not negative the comparison is false and the select returns the index itself,
    whatever n is. -/
theorem wrap_apply {s : Shape} (x : IVec s 32) (n : BitVec 32)
    (hb : (⟨0, ![]⟩ : Shape).BroadcastsInDim s ![]) (i : s.Idx) (hi : 0 ≤ (x i).toInt) :
    select (cmpi .slt x (broadcastInDim s ![] hb (constantI ⟨0, ![]⟩ 32 0#32)))
      (addi x (broadcastInDim s ![] hb (constantI ⟨0, ![]⟩ 32 n))) x i = x i := by
  show Scalar.select (IntOp.cmpi .slt (x i) 0#32) _ (x i) = x i
  have h : (x i).slt 0#32 = false := by
    rw [BitVec.slt, decide_eq_false_iff_not]
    simpa using hi
  simp only [IntOp.cmpi, h]
  rfl

/-! ## A new trailing axis of size one -/

/-- A list [E] laid out as [E, 1] reads, at (e, 0), the list at e. -/
theorem bcast_unit2_apply {E : Nat} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) := by
  refine broadcastInDim_apply ![0] hb v _ (ix1 e) fun a => ?_
  match a with
  | ⟨0, _⟩ =>
    show e.val = if E = 1 then 0 else e.val
    have := e.isLt
    split <;> omega

/-- An array [A, J] laid out as [A, J, 1] reads, at (a, j, 0), the array at (a, j). -/
theorem bcast_unit3_apply {A J : Nat} (hb : (⟨2, ![A, J]⟩ : Shape).BroadcastsInDim ⟨3, ![A, J, 1]⟩ ![0, 1])
    (v : (⟨2, ![A, J]⟩ : Shape).Idx → α) (a : Fin A) (j : Fin J) :
    broadcastInDim ⟨3, ![A, J, 1]⟩ ![0, 1] hb v (ix3 a j (0 : Fin 1)) = v (ix2 a j) := by
  refine broadcastInDim_apply ![0, 1] hb v _ (ix2 a j) fun ax => ?_
  match ax with
  | ⟨0, _⟩ =>
    show a.val = if A = 1 then 0 else a.val
    have := a.isLt
    split <;> omega
  | ⟨1, _⟩ =>
    show j.val = if J = 1 then 0 else j.val
    have := j.isLt
    split <;> omega

/-! ## The padded table gathers as the table does -/

/-- ROWS NAMED BY A LIST. A table x of N rows and a table xP of NP ≥ N rows that agrees with it on the first N rows,
    indexed by the same list of row numbers, every one of them in [0, N): each program wraps a negative index by its
    own row count (which does nothing, no index being negative) and clamps into its own table (which does nothing,
    every index being below N ≤ NP), so both read row idx e of the common part: the two gathered arrays are equal. -/
theorem gather_pad_rows {N NP E C : Nat} (hNP : N ≤ NP) (hN : 0 < N)
    (wfP : GatherDims.WF ⟨2, ![NP, C]⟩ ⟨2, ![E, 1]⟩ ⟨2, ![E, C]⟩ [1] [0] [] [0] [] 1 ![1, C])
    (wf : GatherDims.WF ⟨2, ![N, C]⟩ ⟨2, ![E, 1]⟩ ⟨2, ![E, C]⟩ [1] [0] [] [0] [] 1 ![1, C])
    (hb0P hb0 : (⟨0, ![]⟩ : Shape).BroadcastsInDim ⟨1, ![E]⟩ ![])
    (hb1P hb1 : (⟨1, ![E]⟩ : Shape).BroadcastsInDim ⟨2, ![E, 1]⟩ ![0])
    (xP : (⟨2, ![NP, C]⟩ : Shape).Idx → α) (x : (⟨2, ![N, C]⟩ : Shape).Idx → α)
    (hx : ∀ (r : Fin N) (q : Fin C), xP (ix2 ⟨r.val, Nat.lt_of_lt_of_le r.isLt hNP⟩ q) = x (ix2 r q))
    (idx : IVec ⟨1, ![E]⟩ 32) (hidx : ∀ i, 0 ≤ (idx i).toInt ∧ (idx i).toInt < N)
    (nP n : BitVec 32) :
    Host.gather (rowsDims NP E C wfP) xP
        (broadcastInDim ⟨2, ![E, 1]⟩ ![0] hb1P
          (select (cmpi .slt idx (broadcastInDim ⟨1, ![E]⟩ ![] hb0P (constantI ⟨0, ![]⟩ 32 0#32)))
            (addi idx (broadcastInDim ⟨1, ![E]⟩ ![] hb0P (constantI ⟨0, ![]⟩ 32 nP))) idx))
      = Host.gather (rowsDims N E C wf) x
        (broadcastInDim ⟨2, ![E, 1]⟩ ![0] hb1
          (select (cmpi .slt idx (broadcastInDim ⟨1, ![E]⟩ ![] hb0 (constantI ⟨0, ![]⟩ 32 0#32)))
            (addi idx (broadcastInDim ⟨1, ![E]⟩ ![] hb0 (constantI ⟨0, ![]⟩ 32 n))) idx)) := by
  funext i
  obtain ⟨e, q, rfl⟩ : ∃ (e : Fin E) (q : Fin C), i = ix2 e q := ⟨i 0, i 1, eq_ix2 i⟩
  rw [gather_rows_apply (Nat.lt_of_lt_of_le hN hNP), gather_rows_apply hN]
  have hk := hidx (ix1 e)
  have eP : rowOf (Nat.lt_of_lt_of_le hN hNP) (broadcastInDim ⟨2, ![E, 1]⟩ ![0] hb1P
      (select (cmpi .slt idx (broadcastInDim ⟨1, ![E]⟩ ![] hb0P (constantI ⟨0, ![]⟩ 32 0#32)))
        (addi idx (broadcastInDim ⟨1, ![E]⟩ ![] hb0P (constantI ⟨0, ![]⟩ 32 nP))) idx)) e
      = ⟨(idx (ix1 e)).toInt.toNat, by omega⟩ := by
    refine Fin.ext ?_
    show min _ (NP - 1) = (idx (ix1 e)).toInt.toNat
    rw [bcast_unit2_apply, wrap_apply _ _ _ _ hk.1]
    omega
  have eR : rowOf hN (broadcastInDim ⟨2, ![E, 1]⟩ ![0] hb1
      (select (cmpi .slt idx (broadcastInDim ⟨1, ![E]⟩ ![] hb0 (constantI ⟨0, ![]⟩ 32 0#32)))
        (addi idx (broadcastInDim ⟨1, ![E]⟩ ![] hb0 (constantI ⟨0, ![]⟩ 32 n))) idx)) e
      = ⟨(idx (ix1 e)).toInt.toNat, by omega⟩ := by
    refine Fin.ext ?_
    show min _ (N - 1) = (idx (ix1 e)).toInt.toNat
    rw [bcast_unit2_apply, wrap_apply _ _ _ _ hk.1]
    omega
  rw [eP, eR]
  exact hx ⟨(idx (ix1 e)).toInt.toNat, by omega⟩ q

/-- ROWS NAMED BY A TWO-AXIS ARRAY OF ROW NUMBERS: the same, the index array [A, J] and the result [A, J, C]. -/
theorem gather_pad_rows3 {N NP A J C : Nat} (hNP : N ≤ NP) (hN : 0 < N)
    (wfP : GatherDims.WF ⟨2, ![NP, C]⟩ ⟨3, ![A, J, 1]⟩ ⟨3, ![A, J, C]⟩ [2] [0] [] [0] [] 2 ![1, C])
    (wf : GatherDims.WF ⟨2, ![N, C]⟩ ⟨3, ![A, J, 1]⟩ ⟨3, ![A, J, C]⟩ [2] [0] [] [0] [] 2 ![1, C])
    (hb0P hb0 : (⟨0, ![]⟩ : Shape).BroadcastsInDim ⟨2, ![A, J]⟩ ![])
    (hb1P hb1 : (⟨2, ![A, J]⟩ : Shape).BroadcastsInDim ⟨3, ![A, J, 1]⟩ ![0, 1])
    (xP : (⟨2, ![NP, C]⟩ : Shape).Idx → α) (x : (⟨2, ![N, C]⟩ : Shape).Idx → α)
    (hx : ∀ (r : Fin N) (q : Fin C), xP (ix2 ⟨r.val, Nat.lt_of_lt_of_le r.isLt hNP⟩ q) = x (ix2 r q))
    (idx : IVec ⟨2, ![A, J]⟩ 32) (hidx : ∀ i, 0 ≤ (idx i).toInt ∧ (idx i).toInt < N)
    (nP n : BitVec 32) :
    Host.gather (rows3Dims NP A J C wfP) xP
        (broadcastInDim ⟨3, ![A, J, 1]⟩ ![0, 1] hb1P
          (select (cmpi .slt idx (broadcastInDim ⟨2, ![A, J]⟩ ![] hb0P (constantI ⟨0, ![]⟩ 32 0#32)))
            (addi idx (broadcastInDim ⟨2, ![A, J]⟩ ![] hb0P (constantI ⟨0, ![]⟩ 32 nP))) idx))
      = Host.gather (rows3Dims N A J C wf) x
        (broadcastInDim ⟨3, ![A, J, 1]⟩ ![0, 1] hb1
          (select (cmpi .slt idx (broadcastInDim ⟨2, ![A, J]⟩ ![] hb0 (constantI ⟨0, ![]⟩ 32 0#32)))
            (addi idx (broadcastInDim ⟨2, ![A, J]⟩ ![] hb0 (constantI ⟨0, ![]⟩ 32 n))) idx)) := by
  funext i
  obtain ⟨a, j, q, rfl⟩ : ∃ (a : Fin A) (j : Fin J) (q : Fin C), i = ix3 a j q := ⟨i 0, i 1, i 2, eq_ix3 i⟩
  rw [gather_rows3_apply (Nat.lt_of_lt_of_le hN hNP), gather_rows3_apply hN]
  have hk := hidx (ix2 a j)
  have eP : rowOf3 (Nat.lt_of_lt_of_le hN hNP) (broadcastInDim ⟨3, ![A, J, 1]⟩ ![0, 1] hb1P
      (select (cmpi .slt idx (broadcastInDim ⟨2, ![A, J]⟩ ![] hb0P (constantI ⟨0, ![]⟩ 32 0#32)))
        (addi idx (broadcastInDim ⟨2, ![A, J]⟩ ![] hb0P (constantI ⟨0, ![]⟩ 32 nP))) idx)) a j
      = ⟨(idx (ix2 a j)).toInt.toNat, by omega⟩ := by
    refine Fin.ext ?_
    show min _ (NP - 1) = (idx (ix2 a j)).toInt.toNat
    rw [bcast_unit3_apply, wrap_apply _ _ _ _ hk.1]
    omega
  have eR : rowOf3 hN (broadcastInDim ⟨3, ![A, J, 1]⟩ ![0, 1] hb1
      (select (cmpi .slt idx (broadcastInDim ⟨2, ![A, J]⟩ ![] hb0 (constantI ⟨0, ![]⟩ 32 0#32)))
        (addi idx (broadcastInDim ⟨2, ![A, J]⟩ ![] hb0 (constantI ⟨0, ![]⟩ 32 n))) idx)) a j
      = ⟨(idx (ix2 a j)).toInt.toNat, by omega⟩ := by
    refine Fin.ext ?_
    show min _ (N - 1) = (idx (ix2 a j)).toInt.toNat
    rw [bcast_unit3_apply, wrap_apply _ _ _ _ hk.1]
    omega
  rw [eP, eR]
  exact hx ⟨(idx (ix2 a j)).toInt.toNat, by omega⟩ q

end Cert.Bridge.GatherPad
-- ==== Proof.GatherWords.lean ====
/-
  Small facts for reading a gather of rows whose row numbers come from a table that is in range.

  A reduction by and over one-bit words that are all 1, started at 1, is 1. A vector laid along the rows of a matrix
  reads, at (e, j), the vector at e. A row number below the row count N, as a 32-bit word, is not negative and not above
  N − 1 when read signed, so the in-range test of the gather passes and its clamp changes nothing.
-/
import Idealize.ShloMosaic.Lib.ReduceAll
import Idealize.ShloMosaic.Lib.IdealHost
import Idealize.ShloMosaic.Lib.ValueLayout
import proofs.«141888_j3590592659519_2_alg».proof.Proof.LibGatherPad

namespace Cert.Lib.GatherWords

open Idealize.ShloMosaic Idealize.ShloMosaic.ValueIdx

/-- A left fold by and over words that are all 1, from 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

/-- A reduction by and of an array of 1s, from 1, is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A vector [E] laid along the rows of an [E, C] matrix reads, at (e, j), the vector at e. -/
theorem bcast_rows_apply {α : Type} {E C : Nat} (hb : (⟨1, ![E]⟩ : Shape).BroadcastsInDim ⟨2, ![E, C]⟩ ![0])
    (v : (⟨1, ![E]⟩ : Shape).Idx → α) (e : Fin E) (j : Fin C) :
    broadcastInDim ⟨2, ![E, C]⟩ ![0] hb v (ix2 e j) = v (ix1 e) := by
  refine broadcastInDim_apply ![0] hb v _ (ix1 e) fun a => ?_
  match a with
  | ⟨0, _⟩ =>
    show e.val = if E = 1 then 0 else e.val
    have := e.isLt
    split <;> omega

/-- The word of a number below 2³¹ reads back signed as the number. -/
theorem toInt_ofNat {n : Nat} (h : n < 2 ^ 31) : (BitVec.ofNat 32 n).toInt = (n : Int) := by
  have hn : (BitVec.ofNat 32 n).toNat = n := by rw [BitVec.toNat_ofNat]; omega
  rw [BitVec.toInt_eq_toNat_cond, hn]
  split
  · rfl
  · omega

/-- The in-range test of a gather of rows, at a row number below the row count: 0 ≤ n and n ≤ N − 1, both read signed. -/
theorem inrange_one {n N : Nat} (h : n < N) (hN : N < 2 ^ 31) :
    IntOp.andi (IntOp.cmpi .sge (BitVec.ofNat 32 n) 0#32) (IntOp.cmpi .sle (BitVec.ofNat 32 n) (BitVec.ofNat 32 (N - 1))) = 1#1 := by
  have h0 : (0#32 : BitVec 32).toInt = 0 := by decide
  have hn := toInt_ofNat (n := n) (by omega)
  have hN1 := toInt_ofNat (n := N - 1) (by omega)
  rw [IntOp.andi_eq_one, IntOp.cmpi_sge, IntOp.cmpi_sle, hn, hN1, h0]
  constructor <;> omega

/-- The clamp of a gather of rows changes nothing at a row number below the row count. -/
theorem clamp_eq {n N : Nat} (h : n < N) (hN : N < 2 ^ 31) :
    min (BitVec.ofNat 32 n).toInt.toNat (N - 1) = n := by
  rw [toInt_ofNat (n := n) (by omega), Int.toNat_natCast]; omega

end Cert.Lib.GatherWords
-- ==== Proof.GatherKernel.lean ====
/-
  The kernel's gather of the stacked rows into pre-order.

  The kernel stacks the twelve levels of hidden rows (4095 rows, breadth-first) and then takes the rows in the order of
  the constant pre-order table. The take is written for any table: an entry that is negative is first wrapped by the row
  count, every entry is tested for lying in [0, 4094], the rows are gathered with the entry clamped into the array, and
  a row whose entry failed the test is filled with a not-a-number. The table of this program holds row numbers, all in
  [0, 4095): no entry is negative, so the wrap does nothing; every entry passes the test, so nothing is filled; and the
  clamp changes nothing. So row i of the result is row perm i of the stacked levels.

  The table's buffer is written by the first host operation and by none after it. The value of the take is first read
  off its twenty-three operations as one composed term over the contents before it, and then read at an entry.
-/
import proofs.«141888_j3590592659519_2_alg».proof.Proof.RunStates
import proofs.«141888_j3590592659519_2_alg».proof.Proof.PermTable
import proofs.«141888_j3590592659519_2_alg».proof.Proof.GatherWords

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL.Sem

variable {F : FTy → Type} [FloatOps F] [Named F]

/-- The row numbers the gather reads: the table with a negative entry wrapped by the row count, laid out as a column. -/
def takeIdx (T : (⟨S4095, .i32⟩ : BufTy).Contents (Elt F)) : (⟨S4095x1, .i32⟩ : BufTy).Contents (Elt F) :=
  broadcastInDim S4095x1 ![0] bcast_S4095_S4095x1_0
    (select (cmpi .slt T (broadcastInDim S4095 ![] bcast_S_S4095 (constantI S_ 32 0#32)))
      (addi T (broadcastInDim S4095 ![] bcast_S_S4095 (constantI S_ 32 4095#32))) T)

/-- The take as one term over the contents before it: where the in-range test passes, the gathered rows; elsewhere
    the fill. -/
def takeOf (T : (⟨S4095, .i32⟩ : BufTy).Contents (Elt F)) (X : (⟨S4095x1024, .f32⟩ : BufTy).Contents (Elt F)) :
    (⟨S4095x1024, .f32⟩ : BufTy).Contents (Elt F) :=
  select (broadcastInDim S4095x1024 ![0] bcast_S4095_S4095x1024_0
      (Host.reduce IntOp.andi
        (andi (cmpi .sge (takeIdx (F := F) T) (broadcastInDim S4095x1 ![] bcast_S_S4095x1 (constantI S_ 32 0#32)))
          (cmpi .sle (takeIdx (F := F) T)
            (broadcastInDim S4095x1 ![0, 1] bcast_S1x1_S4095x1_0_1 (broadcastInDim S1x1 ![1] bcast_S1_S1x1_1 (constantI S1 32 4094#32)))))
        (constantI S_ 1 1#1) reducesTo_S4095x1_S4095_d1 h_S_))
    (Host.gather gather_S4095x1024_S4095x1_S4095x1024_1_0_n_n_0_1_11024 X (takeIdx (F := F) T))
    (broadcastInDim S4095x1024 ![] bcast_S_S4095x1024 (constant S_ .f32 0x7FC00000#32))

set_option maxHeartbeats 4000000 in
/-- What the take's twenty-three operations leave in its result buffer, over any contents before them. -/
theorem take_value (V : Valuation τ sig (Elt F)) :
    StableHlo.after hostOps0_1 V (Proc.devRef .tc main_v166)
      = takeOf (F := F) (V (Proc.devRef .tc main_c)) (V (Proc.devRef .tc main_v165)) := by
  after_results_simp
  rfl

/-- With a table of row numbers, entry (i, p) of the take is entry (perm i, p) of the array. -/
theorem takeOf_apply (T : (⟨S4095, .i32⟩ : BufTy).Contents (Elt F)) (X : (⟨S4095x1024, .f32⟩ : BufTy).Contents (Elt F))
    (hT : ∀ e : Fin 4095, T (ix1 e) = BitVec.ofNat 32 (Cert.Tree.perm e).val) (i : Fin 4095) (p : Fin 1024) :
    takeOf (F := F) T X (ix2 i p) = X (ix2 (Cert.Tree.perm i) p) := by
  -- no entry is negative: the wrap does nothing, and the column holds the table
  have hidx : ∀ e : Fin 4095, takeIdx (F := F) T (ix2 e (0 : Fin 1)) = BitVec.ofNat 32 (Cert.Tree.perm e).val := fun e => by
    unfold takeIdx
    rw [Cert.Bridge.GatherPad.bcast_unit2_apply,
      Cert.Bridge.GatherPad.wrap_apply _ _ _ _ (by rw [hT e, Cert.Tree.word_toInt (Cert.Tree.perm e).isLt]; omega), hT e]
  -- every entry passes the in-range test
  have hmask : ∀ j, (andi (cmpi .sge (takeIdx (F := F) T) (broadcastInDim S4095x1 ![] bcast_S_S4095x1 (constantI S_ 32 0#32)))
      (cmpi .sle (takeIdx (F := F) T)
        (broadcastInDim S4095x1 ![0, 1] bcast_S1x1_S4095x1_0_1 (broadcastInDim S1x1 ![1] bcast_S1_S1x1_1 (constantI S1 32 4094#32))))) j
      = 1#1 := fun j => by
    obtain ⟨e, z, rfl⟩ : ∃ (e : Fin 4095) (z : Fin 1), j = ix2 e z := ⟨j 0, j 1, eq_ix2 j⟩
    obtain rfl : z = 0 := Subsingleton.elim _ _
    show IntOp.andi (IntOp.cmpi .sge (takeIdx (F := F) T (ix2 e (0 : Fin 1))) 0#32)
      (IntOp.cmpi .sle (takeIdx (F := F) T (ix2 e (0 : Fin 1))) 4094#32) = 1#1
    rw [hidx e]
    exact Cert.Lib.GatherWords.inrange_one (N := 4095) (Cert.Tree.perm e).isLt (by decide)
  unfold takeOf
  rw [select_apply, Cert.Lib.GatherWords.bcast_rows_apply, Cert.Lib.GatherWords.reduce_andi_one _ _ _ _ _ rfl hmask, select_one]
  -- the gathered row is the one the entry names: the clamp changes nothing
  refine (Cert.Lib.GatherRows.gather_rows_apply (N := 4095) (E := 4095) (C := 1024) (by decide)
    gather_S4095x1024_S4095x1_S4095x1024_1_0_n_n_0_1_11024_wf X (takeIdx (F := F) T) i p).trans ?_
  refine congrArg X (congrArg (fun r => ix2 r p) (Fin.ext ?_))
  show min (takeIdx (F := F) T (ix2 i (0 : Fin 1))).toInt.toNat (4095 - 1) = (Cert.Tree.perm i).val
  rw [hidx i]
  exact Cert.Lib.GatherWords.clamp_eq (Cert.Tree.perm i).isLt (by decide)

variable (m : (ℓ : Loc nD τ sig) → Buf (Elt F) ℓ) (ρ : Dev nD → PrngReg)

set_option maxHeartbeats 4000000 in
/-- After the first host stretch the table's buffer holds the table: its first operation writes it, no later one does. -/
theorem W1_main_c (c : Dev nD) :
    W1 m ρ c (Proc.devRef .tc main_c) = fun j => lit0 (S4095.rowMajor j) := by
  unfold W1 hostOps0
  rw [StableHlo.after_cons]
  refine (StableHlo.after_of_forall_not_mem (b := Proc.devRef .tc main_c) _ _ (List.forall_iff_forall_mem.mp ?_)).trans ?_
  · simp only [List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
  · exact StableHlo.nullary_result ..

/-- At position e it holds the word of perm e. -/
theorem W1_main_c_apply (c : Dev nD) (e : Fin 4095) :
    W1 m ρ c (Proc.devRef .tc main_c) (ix1 e) = BitVec.ofNat 32 (Cert.Tree.perm e).val :=
  (congrFun (W1_main_c m ρ c) (ix1 e)).trans
    ((congrArg lit0 (Fin.ext (Shape.rowMajor_val_one (ix1 e)))).trans (Cert.Tree.table_kernel e))

/-- THE TAKE, for any float instance: row i of the pre-order array is row perm i of the stacked levels. -/
theorem take_rows_any (c : Dev nD) (i : Fin 4095) (p : Fin 1024) :
    W2 m ρ c (Proc.devRef .tc main_v166) (ix2 i p) = W1 m ρ c (Proc.devRef .tc main_v165) (ix2 (Cert.Tree.perm i) p) :=
  (congrFun (take_value (W1 m ρ c)) (ix2 i p)).trans
    (takeOf_apply (F := F) (W1 m ρ c (Proc.devRef .tc main_c)) (W1 m ρ c (Proc.devRef .tc main_v165))
      (W1_main_c_apply m ρ c) i p)

/-- THE TAKE at the ideal instance. -/
theorem take_rows (m : (ℓ : Loc nD τ sig) → Buf (Elt Ideal) ℓ) (ρ : Dev nD → PrngReg) (c : Dev nD) (i : Fin 4095) (p : Fin 1024) :
    W2 (F := Ideal) m ρ c (Proc.devRef .tc main_v166) (ix2 i p)
      = W1 (F := Ideal) m ρ c (Proc.devRef .tc main_v165) (ix2 (Cert.Tree.perm i) p) :=
  take_rows_any m ρ c i p

end Cert.KernelIdeal.Run

end
-- ==== Proof.GatherRef.lean ====
/-
  The reference's gather of the stacked logits into pre-order.

  The reference stacks the twelve levels of logits (4095 rows, breadth-first) and indexes the stack by the constant
  pre-order table, raw[table]: the row count is added to the table, a select on an all-false mask keeps the table itself,
  the entries are laid out as a column, and the rows are gathered with each entry clamped into the array. The table
  holds row numbers, all in [0, 4095), so the clamp changes nothing and row i of the result is row perm i of the stack.

  The table and the mask are written by the first two operations of the program and by none after them; the six
  operations of the indexing stand in the last window, and the value they leave is read off that window alone.
-/
import proofs.«141888_j3590592659519_2_alg».proof.Proof.RefRun
import proofs.«141888_j3590592659519_2_alg».proof.Proof.PermTable
import proofs.«141888_j3590592659519_2_alg».proof.Proof.GatherWords
import proofs.«141888_j3590592659519_2_alg».proof.Proof.LibSsaFold

set_option maxRecDepth 65536

noncomputable section

namespace Cert.ReferenceIdeal.RefRun

open Cert.ReferenceIdeal Cert.ReferenceIdeal.Gen Idealize.ShloMosaic Idealize.ShloMosaic.TcCoe Idealize.SL.Sem
open Idealize.ShloMosaic.ValueIdx

variable {F : FTy → Type} [FloatOps F]

/-! ## The table and the mask are written once, at the start -/

/-- No operation of a window writes a given buffer: each operation's one result buffer is another reference. -/
local macro "no_write_in " l:ident : tactic =>
  `(tactic| (refine List.forall_iff_forall_mem.mp ?_
             simp only [$l:ident, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
             repeat' apply And.intro
             all_goals exact StableHlo.devRef_ne_of_ne (by decide)))

theorem nw1_main_c : ∀ op ∈ (ops1 : List (HloOp τ sig (Elt F))), (Proc.devRef .tc main_c : DevRef τ sig) ∉ op.writes := by
  no_write_in ops1
theorem nw2_main_c : ∀ op ∈ (ops2 : List (HloOp τ sig (Elt F))), (Proc.devRef .tc main_c : DevRef τ sig) ∉ op.writes := by
  no_write_in ops2
theorem nw3_main_c : ∀ op ∈ (ops3 : List (HloOp τ sig (Elt F))), (Proc.devRef .tc main_c : DevRef τ sig) ∉ op.writes := by
  no_write_in ops3
theorem nw4_main_c : ∀ op ∈ (ops4 : List (HloOp τ sig (Elt F))), (Proc.devRef .tc main_c : DevRef τ sig) ∉ op.writes := by
  no_write_in ops4
theorem nw5_main_c : ∀ op ∈ (ops5 : List (HloOp τ sig (Elt F))), (Proc.devRef .tc main_c : DevRef τ sig) ∉ op.writes := by
  no_write_in ops5
theorem nw1_main_c_0 : ∀ op ∈ (ops1 : List (HloOp τ sig (Elt F))), (Proc.devRef .tc main_c_0 : DevRef τ sig) ∉ op.writes := by
  no_write_in ops1
theorem nw2_main_c_0 : ∀ op ∈ (ops2 : List (HloOp τ sig (Elt F))), (Proc.devRef .tc main_c_0 : DevRef τ sig) ∉ op.writes := by
  no_write_in ops2
theorem nw3_main_c_0 : ∀ op ∈ (ops3 : List (HloOp τ sig (Elt F))), (Proc.devRef .tc main_c_0 : DevRef τ sig) ∉ op.writes := by
  no_write_in ops3
theorem nw4_main_c_0 : ∀ op ∈ (ops4 : List (HloOp τ sig (Elt F))), (Proc.devRef .tc main_c_0 : DevRef τ sig) ∉ op.writes := by
  no_write_in ops4
theorem nw5_main_c_0 : ∀ op ∈ (ops5 : List (HloOp τ sig (Elt F))), (Proc.devRef .tc main_c_0 : DevRef τ sig) ∉ op.writes := by
  no_write_in ops5

/-- The contents the last window of @main starts from. -/
abbrev before6 (V : Valuation τ sig (Elt F)) : Valuation τ sig (Elt F) :=
  StableHlo.after ops5 (StableHlo.after ops4 (StableHlo.after ops3 (StableHlo.after ops2 (StableHlo.after ops1 (StableHlo.after ops0 V)))))

/-- @main's fold is the last window's fold over what precedes it. -/
theorem after_ops_eq (V : Valuation τ sig (Elt F)) : StableHlo.after (ops (F := F)) V = StableHlo.after ops6 (before6 V) := by
  show StableHlo.after (ops0 ++ (ops1 ++ (ops2 ++ (ops3 ++ (ops4 ++ (ops5 ++ ops6)))))) V = _
  rw [Cert.Lib.SsaFold.after_append, Cert.Lib.SsaFold.after_append, Cert.Lib.SsaFold.after_append,
    Cert.Lib.SsaFold.after_append, Cert.Lib.SsaFold.after_append, Cert.Lib.SsaFold.after_append]

/-- A buffer windows 1 to 5 do not write holds, before the last window, what window 0 left. -/
theorem before6_eq_ops0 {b : DevRef τ sig}
    (h1 : ∀ op ∈ (ops1 : List (HloOp τ sig (Elt F))), b ∉ op.writes) (h2 : ∀ op ∈ (ops2 : List (HloOp τ sig (Elt F))), b ∉ op.writes)
    (h3 : ∀ op ∈ (ops3 : List (HloOp τ sig (Elt F))), b ∉ op.writes) (h4 : ∀ op ∈ (ops4 : List (HloOp τ sig (Elt F))), b ∉ op.writes)
    (h5 : ∀ op ∈ (ops5 : List (HloOp τ sig (Elt F))), b ∉ op.writes) (V : Valuation τ sig (Elt F)) :
    before6 V b = StableHlo.after ops0 V b := by
  show StableHlo.after ops5 _ b = _
  rw [StableHlo.after_of_forall_not_mem ops5 _ h5, StableHlo.after_of_forall_not_mem ops4 _ h4,
    StableHlo.after_of_forall_not_mem ops3 _ h3, StableHlo.after_of_forall_not_mem ops2 _ h2,
    StableHlo.after_of_forall_not_mem ops1 _ h1]

set_option maxHeartbeats 4000000 in
/-- Window 0 leaves the table in its buffer: its first operation writes it, no later one does. -/
theorem after_ops0_main_c (V : Valuation τ sig (Elt F)) :
    StableHlo.after ops0 V (Proc.devRef .tc main_c) = fun j => lit0 (S4095.rowMajor j) := by
  unfold ops0
  rw [StableHlo.after_cons]
  refine (StableHlo.after_of_forall_not_mem (b := Proc.devRef .tc main_c) _ _ (List.forall_iff_forall_mem.mp ?_)).trans ?_
  · simp only [List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
  · exact StableHlo.nullary_result ..

set_option maxHeartbeats 4000000 in
/-- Window 0 leaves the all-false mask in its buffer: its second operation writes it, no later one does. -/
theorem after_ops0_main_c_0 (V : Valuation τ sig (Elt F)) :
    StableHlo.after ops0 V (Proc.devRef .tc main_c_0) = constantI S4095 1 0#1 := by
  unfold ops0
  rw [StableHlo.after_cons, StableHlo.after_cons]
  refine (StableHlo.after_of_forall_not_mem (b := Proc.devRef .tc main_c_0) _ _ (List.forall_iff_forall_mem.mp ?_)).trans ?_
  · simp only [List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
  · exact StableHlo.nullary_result ..

/-- Before the last window the table's buffer holds, at position e, the word of perm e. -/
theorem before6_main_c_apply (V : Valuation τ sig (Elt F)) (e : Fin 4095) :
    before6 V (Proc.devRef .tc main_c) (ix1 e) = BitVec.ofNat 32 (Cert.Tree.perm e).val :=
  (congrFun ((before6_eq_ops0 nw1_main_c nw2_main_c nw3_main_c nw4_main_c nw5_main_c V).trans (after_ops0_main_c V)) (ix1 e)).trans
    ((congrArg lit0 (Fin.ext (Shape.rowMajor_val_one (ix1 e)))).trans (Cert.Tree.table_reference e))

/-- Before the last window the mask's buffer holds the all-false mask. -/
theorem before6_main_c_0 (V : Valuation τ sig (Elt F)) :
    before6 V (Proc.devRef .tc main_c_0) = constantI S4095 1 0#1 :=
  (before6_eq_ops0 nw1_main_c_0 nw2_main_c_0 nw3_main_c_0 nw4_main_c_0 nw5_main_c_0 V).trans (after_ops0_main_c_0 V)

/-! ## The indexing -/

/-- The row numbers the gather reads: where the mask holds the table plus the row count, elsewhere the table, as a column. -/
def refIdx (M : (⟨S4095, .i1⟩ : BufTy).Contents (Elt F)) (T : (⟨S4095, .i32⟩ : BufTy).Contents (Elt F)) :
    (⟨S4095x1, .i32⟩ : BufTy).Contents (Elt F) :=
  broadcastInDim S4095x1 ![0] bcast_S4095_S4095x1_0
    (select M (addi T (broadcastInDim S4095 ![] bcast_S_S4095 (constantI S_ 32 4095#32))) T)

set_option maxHeartbeats 8000000 in
/-- What the last window leaves in the gather's result buffer: the gather of what it leaves in the stack's buffer, at the
    row numbers computed from the mask and the table it started with. -/
theorem gather_value (P : Valuation τ sig (Elt F)) :
    StableHlo.after ops6 P (Proc.devRef .tc main_v335)
      = Host.gather gather_S4095x32001_S4095x1_S4095x32001_1_0_n_n_0_1_132001 (StableHlo.after ops6 P (Proc.devRef .tc main_v330))
          (refIdx (F := F) (P (Proc.devRef .tc main_c_0)) (P (Proc.devRef .tc main_c))) := by
  after_results_simp
  rfl

/-- With the all-false mask and a table of row numbers, entry (i, k) of the gather is entry (perm i, k) of the array. -/
theorem refGather_apply (X : (⟨S4095x32001, .f32⟩ : BufTy).Contents (Elt F)) (M : (⟨S4095, .i1⟩ : BufTy).Contents (Elt F))
    (T : (⟨S4095, .i32⟩ : BufTy).Contents (Elt F)) (hM : M = constantI S4095 1 0#1)
    (hT : ∀ e : Fin 4095, T (ix1 e) = BitVec.ofNat 32 (Cert.Tree.perm e).val) (i : Fin 4095) (k : Fin 32001) :
    Host.gather gather_S4095x32001_S4095x1_S4095x32001_1_0_n_n_0_1_132001 X (refIdx (F := F) M T) (ix2 i k)
      = X (ix2 (Cert.Tree.perm i) k) := by
  -- the mask is false everywhere: the column holds the table
  have hidx : ∀ e : Fin 4095, refIdx (F := F) M T (ix2 e (0 : Fin 1)) = BitVec.ofNat 32 (Cert.Tree.perm e).val := fun e => by
    unfold refIdx
    rw [Cert.Bridge.GatherPad.bcast_unit2_apply, select_apply, hM, constantI_apply, select_zero, hT e]
  -- the gathered row is the one the entry names: the clamp changes nothing
  refine (Cert.Lib.GatherRows.gather_rows_apply (N := 4095) (E := 4095) (C := 32001) (by decide)
    gather_S4095x32001_S4095x1_S4095x32001_1_0_n_n_0_1_132001_wf X (refIdx (F := F) M T) i k).trans ?_
  refine congrArg X (congrArg (fun r => ix2 r k) (Fin.ext ?_))
  show min (refIdx (F := F) M T (ix2 i (0 : Fin 1))).toInt.toNat (4095 - 1) = (Cert.Tree.perm i).val
  rw [hidx i]
  exact Cert.Lib.GatherWords.clamp_eq (Cert.Tree.perm i).isLt (by decide)

/-- THE GATHER, for any float instance: row i of the pre-order logits is row perm i of the stacked logits. -/
theorem gather_rows_any (V : Valuation τ sig (Elt F)) (i : Fin 4095) (k : Fin 32001) :
    StableHlo.after (ops (F := F)) V (Proc.devRef .tc main_v335) (ix2 i k)
      = StableHlo.after (ops (F := F)) V (Proc.devRef .tc main_v330) (ix2 (Cert.Tree.perm i) k) := by
  rw [after_ops_eq V]
  exact (congrFun (gather_value (before6 V)) (ix2 i k)).trans
    (refGather_apply (F := F) _ _ _ (before6_main_c_0 V) (before6_main_c_apply V) i k)

/-- THE GATHER at the ideal instance. -/
theorem gather_rows (V : Valuation τ sig (Elt Ideal)) (i : Fin 4095) (k : Fin 32001) :
    StableHlo.after (ops (F := Ideal)) V (Proc.devRef .tc main_v335) (ix2 i k)
      = StableHlo.after (ops (F := Ideal)) V (Proc.devRef .tc main_v330) (ix2 (Cert.Tree.perm i) k) :=
  gather_rows_any V i k

end Cert.ReferenceIdeal.RefRun

end
-- ==== Proof.ResultEq.lean ====
/-
  The two programs' results are equal.

  Entry `(i, j)` of the reference's result is the log-softmax at `j` of row `i` of its gathered logits; the gather reads
  row `perm i` of the stacked logits, and that row is the value MLP of row `perm i` of the kernel's stacked hidden rows
  (`Cert.Tree.star`). Entry `(i, j)` of the kernel's result is the log-softmax at `j` of the 32001 real columns of row `i`
  of its logits (`Cert.KernelIdeal.Run.result_apply`), which are the value MLP — the arguments' matrices and biases at
  the real columns — of row `i` of its padded hidden rows, that is of its gathered row `i`, that is of row `perm i` of
  its stacked hidden rows. The two are the same expression.
-/
import proofs.«141888_j3590592659519_2_alg».proof.Proof.KernelValue
import proofs.«141888_j3590592659519_2_alg».proof.Proof.PadsK
import proofs.«141888_j3590592659519_2_alg».proof.Proof.Star
import proofs.«141888_j3590592659519_2_alg».proof.Proof.RefTail
import proofs.«141888_j3590592659519_2_alg».proof.Proof.MlpEntry
import proofs.«141888_j3590592659519_2_alg».proof.Proof.GatherKernel
import proofs.«141888_j3590592659519_2_alg».proof.Proof.GatherRef

set_option maxRecDepth 65536

noncomputable section

namespace Cert.Tree

open Idealize.ShloMosaic Idealize.ShloMosaic.TcCoe Idealize.ShloMosaic.ValueIdx Idealize.SL.Sem Cert.Lib.LogSoftmaxPad

theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (h0 : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : ∀ c : Dev Cert.KernelIdeal.nD, m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : ∀ c : Dev Cert.KernelIdeal.nD, m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : ∀ c : Dev Cert.KernelIdeal.nD, m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : ∀ c : Dev Cert.KernelIdeal.nD, m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : ∀ c : Dev Cert.KernelIdeal.nD, m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : ∀ c : Dev Cert.KernelIdeal.nD, m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : ∀ c : Dev Cert.KernelIdeal.nD, m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : ∀ c : Dev Cert.KernelIdeal.nD, m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    StableHlo.after (Cert.ReferenceIdeal.RefRun.ops (F := Ideal)) (StableHlo.launchContents m' c) (Proc.devRef .tc Cert.ReferenceIdeal.main_v336)
      = Cert.KernelIdeal.Run.W12 (F := Ideal) m g c (Proc.devRef .tc Cert.KernelIdeal.main_v176) := by
  funext idx
  obtain ⟨i, j, rfl⟩ : ∃ (i : Fin 4095) (j : Fin 32001), idx = ix2 i j := ⟨idx 0, idx 1, eq_ix2 idx⟩
  refine ((tail_apply (StableHlo.launchContents m' c) i j).trans ?_).trans (Cert.KernelIdeal.Run.result_apply m g c i j).symm
  refine congrArg (fun f => lsm f j) (funext fun k => ?_)
  rw [Cert.ReferenceIdeal.RefRun.gather_rows (StableHlo.launchContents m' c) i k]
  refine (star (Cert.KernelIdeal.Run.W0 (F := Ideal) m g c) (StableHlo.launchContents m' c) (h0 c) (h1 c) (h2 c) (h3 c) (h4 c) (h5 c) (h6 c) (h7 c) (h8 c) (perm i) k).trans ?_
  show mlpEntry _ _ _ _ _ (perm i) k = Cert.KernelIdeal.Value1.entry _ _ _ (Fin.castLE (by decide) i : Fin 4096) (Fin.castLE (by decide) k : Fin 32768)
  unfold mlpEntry Cert.KernelIdeal.Value1.entry
  rw [Cert.KernelIdeal.Run.b2_apply m g c k]
  refine congrArg₂ (· + ·) (Finset.sum_congr rfl fun q _ => ?_) rfl
  rw [Cert.KernelIdeal.Run.w2_apply m g c q k]
  refine congrArg₂ (· * ·) ?_ rfl
  show _ = Cert.KernelIdeal.Value0.entry _ _ _ (Fin.castLE (by decide) i : Fin 4096) q
  unfold Cert.KernelIdeal.Value0.entry
  rw [Cert.KernelIdeal.Run.W8_main_arg2 m g c]
  refine congrArg Ideal.logistic (congrArg₂ (· + ·) (Finset.sum_congr rfl fun p _ => ?_) rfl)
  rw [Cert.KernelIdeal.Run.x_apply m g c i p, Cert.KernelIdeal.Run.take_rows m g c i p, Cert.KernelIdeal.Run.w_apply m g c p q]

end Cert.Tree

end
-- ==== Proof.lean ====
/- The claim for the tree decoder's value head: a three-kernel pipeline (value MLP layer 1 with a logistic, value MLP
   layer 2 into vocabulary columns padded from 32001 to 32768, and a row-wise log-softmax whose padded columns are
   first filled with a constant) against the plain reference (per tree level: logistic MLP, then all levels stacked,
   reordered to pre-order, and `log_softmax` over the 32001 real columns).

   The mathematics, entry (i, j) with i < 4095 a pre-order node and j < 32001 a vocabulary column:
   * both sides build the same hidden rows level by level (the children MLP is the same chain of host operations);
   * the value MLP acts on each row separately, so it commutes with stacking the levels, with the pre-order gather and
     with the zero row appended to reach 4096 rows; the zero columns appended to the second weight matrix and its bias
     only produce columns j ≥ 32001;
   * with the fill constant read as `⊥` (the certificate's table), a filled column is invisible to the row maximum
     taken from `-∞` and contributes `exp ⊥ = 0` to the row's sum of exponentials, so the log-softmax of the padded
     row at a real column is the log-softmax of the 32001 real columns (`Cert.Lib.LogSoftmaxPad.lsm_fill`;
     `Cert.KernelIdeal.SoftmaxBlock.pay_apply` reads the third kernel's block that way). No entry needs to be finite
     for any of these steps.
   `preserves` is the one named constant's statement. The three frames come from the programs' runs: the kernel's @main as
   its twelve segments (eight host stretches, the three pipelines, the closing slice) composed by the library's launch
   theorem for a list of segments, at machine words and at extended reals; the reference's @main as a straight line of
   400 host operations. `algebraic` is those two runs and one equation between their result buffers, `Cert.Tree.result_eq`
   (Proof/ResultEq.lean), which is the argument above threaded through the host operations. -/
import proofs.«141888_j3590592659519_2_alg».proof.Defs
import proofs.«141888_j3590592659519_2_alg».proof.Proof.Gen.Kernel
import proofs.«141888_j3590592659519_2_alg».proof.Proof.Gen.KernelIdeal
import proofs.«141888_j3590592659519_2_alg».proof.Proof.Gen.ReferenceIdeal
import proofs.«141888_j3590592659519_2_alg».proof.Proof.Gen.Pre_finite_inputs
import proofs.«141888_j3590592659519_2_alg».proof.Proof.SoftmaxBlock
import proofs.«141888_j3590592659519_2_alg».proof.Proof.MlpBlocks
import proofs.«141888_j3590592659519_2_alg».proof.Proof.RunMain
import proofs.«141888_j3590592659519_2_alg».proof.Proof.RunArgsA
import proofs.«141888_j3590592659519_2_alg».proof.Proof.RunArgsB
import proofs.«141888_j3590592659519_2_alg».proof.Proof.RunArgsC
import proofs.«141888_j3590592659519_2_alg».proof.Proof.WordRunMain
import proofs.«141888_j3590592659519_2_alg».proof.Proof.WordRunArgsA
import proofs.«141888_j3590592659519_2_alg».proof.Proof.WordRunArgsB
import proofs.«141888_j3590592659519_2_alg».proof.Proof.WordRunArgsC
import proofs.«141888_j3590592659519_2_alg».proof.Proof.RefRun
import proofs.«141888_j3590592659519_2_alg».proof.Proof.RefArgsA
import proofs.«141888_j3590592659519_2_alg».proof.Proof.RefArgsB
import proofs.«141888_j3590592659519_2_alg».proof.Proof.RefArgsC
import proofs.«141888_j3590592659519_2_alg».proof.Proof.ResultEq
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its nine arguments as launched. -/
theorem frame_k : Cert.frame_Kernel := fun m ρ _ =>
  (θ_run (Cert.Kernel.defs (F := Bits)) _ _).mono (fun _ h c =>
    ⟨(h c _ (Cert.Kernel.Run.mem_uc Cert.Kernel.main_arg0 (by decide))).trans (Cert.Kernel.Run.W12_main_arg0 m ρ c),
      (h c _ (Cert.Kernel.Run.mem_uc Cert.Kernel.main_arg1 (by decide))).trans (Cert.Kernel.Run.W12_main_arg1 m ρ c),
      (h c _ (Cert.Kernel.Run.mem_uc Cert.Kernel.main_arg2 (by decide))).trans (Cert.Kernel.Run.W12_main_arg2 m ρ c),
      (h c _ (Cert.Kernel.Run.mem_uc Cert.Kernel.main_arg3 (by decide))).trans (Cert.Kernel.Run.W12_main_arg3 m ρ c),
      (h c _ (Cert.Kernel.Run.mem_uc Cert.Kernel.main_arg4 (by decide))).trans (Cert.Kernel.Run.W12_main_arg4 m ρ c),
      (h c _ (Cert.Kernel.Run.mem_uc Cert.Kernel.main_arg5 (by decide))).trans (Cert.Kernel.Run.W12_main_arg5 m ρ c),
      (h c _ (Cert.Kernel.Run.mem_uc Cert.Kernel.main_arg6 (by decide))).trans (Cert.Kernel.Run.W12_main_arg6 m ρ c),
      (h c _ (Cert.Kernel.Run.mem_uc Cert.Kernel.main_arg7 (by decide))).trans (Cert.Kernel.Run.W12_main_arg7 m ρ c),
      (h c _ (Cert.Kernel.Run.mem_uc Cert.Kernel.main_arg8 (by decide))).trans (Cert.Kernel.Run.W12_main_arg8 m ρ c)⟩)
    (Cert.Kernel.Run.run_main (F := Bits) m ρ)

/-- So does the idealized kernel, at extended reals. -/
theorem frame_ki : Cert.frame_KernelIdeal := fun m ρ _ =>
  (θ_run (Cert.KernelIdeal.defs (F := Ideal)) _ _).mono (fun _ h c =>
    ⟨(h c _ (Cert.KernelIdeal.Run.mem_uc Cert.KernelIdeal.main_arg0 (by decide))).trans (Cert.KernelIdeal.Run.W12_main_arg0 m ρ c),
      (h c _ (Cert.KernelIdeal.Run.mem_uc Cert.KernelIdeal.main_arg1 (by decide))).trans (Cert.KernelIdeal.Run.W12_main_arg1 m ρ c),
      (h c _ (Cert.KernelIdeal.Run.mem_uc Cert.KernelIdeal.main_arg2 (by decide))).trans (Cert.KernelIdeal.Run.W12_main_arg2 m ρ c),
      (h c _ (Cert.KernelIdeal.Run.mem_uc Cert.KernelIdeal.main_arg3 (by decide))).trans (Cert.KernelIdeal.Run.W12_main_arg3 m ρ c),
      (h c _ (Cert.KernelIdeal.Run.mem_uc Cert.KernelIdeal.main_arg4 (by decide))).trans (Cert.KernelIdeal.Run.W12_main_arg4 m ρ c),
      (h c _ (Cert.KernelIdeal.Run.mem_uc Cert.KernelIdeal.main_arg5 (by decide))).trans (Cert.KernelIdeal.Run.W12_main_arg5 m ρ c),
      (h c _ (Cert.KernelIdeal.Run.mem_uc Cert.KernelIdeal.main_arg6 (by decide))).trans (Cert.KernelIdeal.Run.W12_main_arg6 m ρ c),
      (h c _ (Cert.KernelIdeal.Run.mem_uc Cert.KernelIdeal.main_arg7 (by decide))).trans (Cert.KernelIdeal.Run.W12_main_arg7 m ρ c),
      (h c _ (Cert.KernelIdeal.Run.mem_uc Cert.KernelIdeal.main_arg8 (by decide))).trans (Cert.KernelIdeal.Run.W12_main_arg8 m ρ c)⟩)
    (Cert.KernelIdeal.Run.run_main (F := Ideal) m ρ)

/-- And the reference: a straight line of host operations none of which writes an argument. -/
theorem frame_ri : Cert.frame_ReferenceIdeal := fun m ρ _ =>
  (θ_run (Cert.ReferenceIdeal.defs (F := Ideal)) _ _).mono (fun _ h c =>
    ⟨(h c Cert.ReferenceIdeal.main_arg0).trans (Cert.ReferenceIdeal.RefRun.after_main_arg0 m c),
      (h c Cert.ReferenceIdeal.main_arg1).trans (Cert.ReferenceIdeal.RefRun.after_main_arg1 m c),
      (h c Cert.ReferenceIdeal.main_arg2).trans (Cert.ReferenceIdeal.RefRun.after_main_arg2 m c),
      (h c Cert.ReferenceIdeal.main_arg3).trans (Cert.ReferenceIdeal.RefRun.after_main_arg3 m c),
      (h c Cert.ReferenceIdeal.main_arg4).trans (Cert.ReferenceIdeal.RefRun.after_main_arg4 m c),
      (h c Cert.ReferenceIdeal.main_arg5).trans (Cert.ReferenceIdeal.RefRun.after_main_arg5 m c),
      (h c Cert.ReferenceIdeal.main_arg6).trans (Cert.ReferenceIdeal.RefRun.after_main_arg6 m c),
      (h c Cert.ReferenceIdeal.main_arg7).trans (Cert.ReferenceIdeal.RefRun.after_main_arg7 m c),
      (h c Cert.ReferenceIdeal.main_arg8).trans (Cert.ReferenceIdeal.RefRun.after_main_arg8 m c)⟩)
    (Cert.ReferenceIdeal.RefRun.run (F := Ideal) m ρ)

/-- The one rewrite of the idealization: the fill constant `-1e30` of the third kernel is named, and the
    certificate's table gives the name the value `⊥`. -/
theorem preserves : Cert.preserves_Kernel_KernelIdeal :=
  IdealRules.named_const.statement Cert.KernelIdeal.κ "neg_big" .f32 0xF149F2CA#32 ⊥ rfl

/-- Both idealized programs run, and end with equal results: the two runs, and `Cert.Tree.result_eq` between their result
    buffers. -/
theorem algebraic : Cert.algebraic_KernelIdeal_ReferenceIdeal := by
  intro m g m' g' _ hagree
  refine ⟨fun c => Cert.KernelIdeal.Run.W12 (F := Ideal) m g c (Proc.devRef .tc Cert.KernelIdeal.main_v176), ?_, ?_⟩
  · exact (θ_run (Cert.KernelIdeal.defs (F := Ideal)) _ _).mono (fun _ h c =>
      ⟨h c _ (Cert.KernelIdeal.Run.mem_uc Cert.KernelIdeal.main_v176 (by decide)),
      (h c _ (Cert.KernelIdeal.Run.mem_uc Cert.KernelIdeal.main_arg0 (by decide))).trans (Cert.KernelIdeal.Run.W12_main_arg0 m g c),
      (h c _ (Cert.KernelIdeal.Run.mem_uc Cert.KernelIdeal.main_arg1 (by decide))).trans (Cert.KernelIdeal.Run.W12_main_arg1 m g c),
      (h c _ (Cert.KernelIdeal.Run.mem_uc Cert.KernelIdeal.main_arg2 (by decide))).trans (Cert.KernelIdeal.Run.W12_main_arg2 m g c),
      (h c _ (Cert.KernelIdeal.Run.mem_uc Cert.KernelIdeal.main_arg3 (by decide))).trans (Cert.KernelIdeal.Run.W12_main_arg3 m g c),
      (h c _ (Cert.KernelIdeal.Run.mem_uc Cert.KernelIdeal.main_arg4 (by decide))).trans (Cert.KernelIdeal.Run.W12_main_arg4 m g c),
      (h c _ (Cert.KernelIdeal.Run.mem_uc Cert.KernelIdeal.main_arg5 (by decide))).trans (Cert.KernelIdeal.Run.W12_main_arg5 m g c),
      (h c _ (Cert.KernelIdeal.Run.mem_uc Cert.KernelIdeal.main_arg6 (by decide))).trans (Cert.KernelIdeal.Run.W12_main_arg6 m g c),
      (h c _ (Cert.KernelIdeal.Run.mem_uc Cert.KernelIdeal.main_arg7 (by decide))).trans (Cert.KernelIdeal.Run.W12_main_arg7 m g c),
      (h c _ (Cert.KernelIdeal.Run.mem_uc Cert.KernelIdeal.main_arg8 (by decide))).trans (Cert.KernelIdeal.Run.W12_main_arg8 m g c)⟩)
      (Cert.KernelIdeal.Run.run_main (F := Ideal) m g)
  · exact (θ_run (Cert.ReferenceIdeal.defs (F := Ideal)) _ _).mono (fun _ h c =>
      ⟨(h c Cert.ReferenceIdeal.main_v336).trans (Cert.Tree.result_eq m g m'
        (fun c => (hagree c).1) (fun c => (hagree c).2.1) (fun c => (hagree c).2.2.1) (fun c => (hagree c).2.2.2.1) (fun c => (hagree c).2.2.2.2.1) (fun c => (hagree c).2.2.2.2.2.1) (fun c => (hagree c).2.2.2.2.2.2.1) (fun c => (hagree c).2.2.2.2.2.2.2.1) (fun c => (hagree c).2.2.2.2.2.2.2.2) c),
      (h c Cert.ReferenceIdeal.main_arg0).trans (Cert.ReferenceIdeal.RefRun.after_main_arg0 m' c),
      (h c Cert.ReferenceIdeal.main_arg1).trans (Cert.ReferenceIdeal.RefRun.after_main_arg1 m' c),
      (h c Cert.ReferenceIdeal.main_arg2).trans (Cert.ReferenceIdeal.RefRun.after_main_arg2 m' c),
      (h c Cert.ReferenceIdeal.main_arg3).trans (Cert.ReferenceIdeal.RefRun.after_main_arg3 m' c),
      (h c Cert.ReferenceIdeal.main_arg4).trans (Cert.ReferenceIdeal.RefRun.after_main_arg4 m' c),
      (h c Cert.ReferenceIdeal.main_arg5).trans (Cert.ReferenceIdeal.RefRun.after_main_arg5 m' c),
      (h c Cert.ReferenceIdeal.main_arg6).trans (Cert.ReferenceIdeal.RefRun.after_main_arg6 m' c),
      (h c Cert.ReferenceIdeal.main_arg7).trans (Cert.ReferenceIdeal.RefRun.after_main_arg7 m' c),
      (h c Cert.ReferenceIdeal.main_arg8).trans (Cert.ReferenceIdeal.RefRun.after_main_arg8 m' c)⟩)
      (Cert.ReferenceIdeal.RefRun.run (F := Ideal) m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
